-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)) →
    ∃ (v0 : (c : Dev Cert.KernelIdeal.nD) → Buf (Elt Ideal) ((c.tc : Thread Cert.KernelIdeal.nD Cert.KernelIdeal.τ).loc Cert.KernelIdeal.main_v268)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v268) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v258) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x18640 : Shape := ⟨2, ![64, 18640]⟩
abbrev S64x21 : Shape := ⟨2, ![64, 21]⟩
abbrev S100000x9 : Shape := ⟨2, ![100000, 9]⟩
abbrev S4096x9 : Shape := ⟨2, ![4096, 9]⟩
abbrev S2x1600000 : Shape := ⟨2, ![2, 1600000]⟩
abbrev S100000 : Shape := ⟨1, ![100000]⟩
abbrev S2x16384 : Shape := ⟨2, ![2, 16384]⟩
abbrev S4096 : Shape := ⟨1, ![4096]⟩
abbrev S18640x128 : Shape := ⟨2, ![18640, 128]⟩
abbrev S128 : Shape := ⟨1, ![128]⟩
abbrev S128x128 : Shape := ⟨2, ![128, 128]⟩
abbrev S21x64 : Shape := ⟨2, ![21, 64]⟩
abbrev S64 : Shape := ⟨1, ![64]⟩
abbrev S64x64 : Shape := ⟨2, ![64, 64]⟩
abbrev S9x128 : Shape := ⟨2, ![9, 128]⟩
abbrev S448x128 : Shape := ⟨2, ![448, 128]⟩
abbrev S128x2 : Shape := ⟨2, ![128, 2]⟩
abbrev S2 : Shape := ⟨1, ![2]⟩
abbrev S_ : Shape := ⟨0, ![]⟩

class Facts : Prop where
  bcast_S_S64x18640 : S_.BroadcastsInDim S64x18640 (![] : Fin 0 → Fin S64x18640.rank)
  reducesTo_S64x18640_S_d0_1 : S64x18640.ReducesTo [0, 1] S_
  h_S_ : 0 < S_.numel
  bcast_S_S64x21 : S_.BroadcastsInDim S64x21 (![] : Fin 0 → Fin S64x21.rank)
  reducesTo_S64x21_S_d0_1 : S64x21.ReducesTo [0, 1] S_
  bcast_S_S100000x9 : S_.BroadcastsInDim S100000x9 (![] : Fin 0 → Fin S100000x9.rank)
  reducesTo_S100000x9_S_d0_1 : S100000x9.ReducesTo [0, 1] S_
  bcast_S_S4096x9 : S_.BroadcastsInDim S4096x9 (![] : Fin 0 → Fin S4096x9.rank)
  reducesTo_S4096x9_S_d0_1 : S4096x9.ReducesTo [0, 1] S_
  bcast_S_S18640x128 : S_.BroadcastsInDim S18640x128 (![] : Fin 0 → Fin S18640x128.rank)
  reducesTo_S18640x128_S_d0_1 : S18640x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S21x64 : S_.BroadcastsInDim S21x64 (![] : Fin 0 → Fin S21x64.rank)
  reducesTo_S21x64_S_d0_1 : S21x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S9x128 : S_.BroadcastsInDim S9x128 (![] : Fin 0 → Fin S9x128.rank)
  reducesTo_S9x128_S_d0_1 : S9x128.ReducesTo [0, 1] S_
  bcast_S_S448x128 : S_.BroadcastsInDim S448x128 (![] : Fin 0 → Fin S448x128.rank)
  reducesTo_S448x128_S_d0_1 : S448x128.ReducesTo [0, 1] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part6 {F : FTy → Type} [FloatOps F] (main_arg25 : FVec F S128 .f32) (main_arg26 : FVec F S128x2 .f32) (main_arg27 : FVec F S2 .f32) (main_v98 : IVec S_ 1) (main_v101 : IVec S448x128 1) (main_c_39 : IVec S_ 1) : IVec S_ 1 :=
  let main_v102 : IVec S_ 1 := (fun x v => Host.reduce IntOp.andi x v reducesTo_S448x128_S_d0_1 h_S_) main_v101 main_c_39
  let main_v103 : IVec S_ 1 := andi main_v98 main_v102
  let main_v104 : FVec F S128 .f32 := Host.absf main_arg25
  let main_cst_40 : FVec F S_ .f32 := constant S_ .f32 0x7F800000#32
  let main_v105 : FVec F S128 .f32 := broadcastInDim S128 ![] bcast_S_S128 main_cst_40
  let main_v106 : IVec S128 1 := cmpf .olt main_v104 main_v105
  let main_c_41 : IVec S_ 1 := constantI S_ 1 1#1
  let main_v107 : IVec S_ 1 := (fun x v => Host.reduce IntOp.andi x v reducesTo_S128_S_d0 h_S_) main_v106 main_c_41
  let main_v108 : IVec S_ 1 := andi main_v103 main_v107
  let main_v109 : FVec F S128x2 .f32 := Host.absf main_arg26
  let main_cst_42 : FVec F S_ .f32 := constant S_ .f32 0x7F800000#32
  let main_v110 : FVec F S128x2 .f32 := broadcastInDim S128x2 ![] bcast_S_S128x2 main_cst_42
  let main_v111 : IVec S128x2 1 := cmpf .olt main_v109 main_v110
  let main_c_43 : IVec S_ 1 := constantI S_ 1 1#1
  let main_v112 : IVec S_ 1 := (fun x v => Host.reduce IntOp.andi x v reducesTo_S128x2_S_d0_1 h_S_) main_v111 main_c_43
  let main_v113 : IVec S_ 1 := andi main_v108 main_v112
  let main_v114 : FVec F S2 .f32 := Host.absf main_arg27
  let main_cst_44 : FVec F S_ .f32 := constant S_ .f32 0x7F800000#32
  let main_v115 : FVec F S2 .f32 := broadcastInDim S2 ![] bcast_S_S2 main_cst_44
  let main_v116 : IVec S2 1 := cmpf .olt main_v114 main_v115
  let main_c_45 : IVec S_ 1 := constantI S_ 1 1#1
  let main_v117 : IVec S_ 1 := (fun x v => Host.reduce IntOp.andi x v reducesTo_S2_S_d0 h_S_) main_v116 main_c_45
  let main_v118 : IVec S_ 1 := andi main_v113 main_v117
  main_v118

def fn_part5 {F : FTy → Type} [FloatOps F] (main_arg22 : FVec F S128x128 .f32) (main_arg23 : FVec F S128 .f32) (main_arg24 : FVec F S448x128 .f32) (main_arg25 : FVec F S128 .f32) (main_arg26 : FVec F S128x2 .f32) (main_arg27 : FVec F S2 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128x128 .f32 := Host.absf main_arg22
  let main_cst_34 : FVec F S_ .f32 := constant S_ .f32 0x7F800000#32
  let main_v90 : FVec F S128x128 .f32 := broadcastInDim S128x128 ![] bcast_S_S128x128 main_cst_34
  let main_v91 : IVec S128x128 1 := cmpf .olt main_v89 main_v90
  let main_c_35 : IVec S_ 1 := constantI S_ 1 1#1
  let main_v92 : IVec S_ 1 := (fun x v => Host.reduce IntOp.andi x v reducesTo_S128x128_S_d0_1 h_S_) main_v91 main_c_35
  let main_v93 : IVec S_ 1 := andi main_v88 main_v92
  let main_v94 : FVec F S128 .f32 := Host.absf main_arg23
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S448x128 .f32 := Host.absf main_arg24
  let main_cst_38 : FVec F S_ .f32 := constant S_ .f32 0x7F800000#32
  let main_v100 : FVec F S448x128 .f32 := broadcastInDim S448x128 ![] bcast_S_S448x128 main_cst_38
  let main_v101 : IVec S448x128 1 := cmpf .olt main_v99 main_v100
  let main_c_39 : IVec S_ 1 := constantI S_ 1 1#1
  fn_part6 (F := F) main_arg25 main_arg26 main_arg27 main_v98 main_v101 main_c_39

def fn_part4 {F : FTy → Type} [FloatOps F] (main_arg18 : FVec F S128x128 .f32) (main_arg19 : FVec F S128 .f32) (main_arg20 : FVec F S9x128 .f32) (main_arg21 : FVec F S128 .f32) (main_arg22 : FVec F S128x128 .f32) (main_arg23 : FVec F S128 .f32) (main_arg24 : FVec F S448x128 .f32) (main_arg25 : FVec F S128 .f32) (main_arg26 : FVec F S128x2 .f32) (main_arg27 : FVec F S2 .f32) (main_v63 : IVec S_ 1) (main_v67 : IVec S_ 1) : IVec S_ 1 :=
  let main_v68 : IVec S_ 1 := andi main_v63 main_v67
  let main_v69 : FVec F S128x128 .f32 := Host.absf main_arg18
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg19
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S9x128 .f32 := Host.absf main_arg20
  let main_cst_30 : FVec F S_ .f32 := constant S_ .f32 0x7F800000#32
  let main_v80 : FVec F S9x128 .f32 := broadcastInDim S9x128 ![] bcast_S_S9x128 main_cst_30
  let main_v81 : IVec S9x128 1 := cmpf .olt main_v79 main_v80
  let main_c_31 : IVec S_ 1 := constantI S_ 1 1#1
  let main_v82 : IVec S_ 1 := (fun x v => Host.reduce IntOp.andi x v reducesTo_S9x128_S_d0_1 h_S_) main_v81 main_c_31
  let main_v83 : IVec S_ 1 := andi main_v78 main_v82
  let main_v84 : FVec F S128 .f32 := Host.absf main_arg21
  let main_cst_32 : FVec F S_ .f32 := constant S_ .f32 0x7F800000#32
  fn_part5 (F := F) main_arg22 main_arg23 main_arg24 main_arg25 main_arg26 main_arg27 main_v83 main_v84 main_cst_32

def fn_part3 {F : FTy → Type} [FloatOps F] (main_arg15 : FVec F S64 .f32) (main_arg16 : FVec F S9x128 .f32) (main_arg17 : FVec F S128 .f32) (main_arg18 : FVec F S128x128 .f32) (main_arg19 : FVec F S128 .f32) (main_arg20 : FVec F S9x128 .f32) (main_arg21 : FVec F S128 .f32) (main_arg22 : FVec F S128x128 .f32) (main_arg23 : FVec F S128 .f32) (main_arg24 : FVec F S448x128 .f32) (main_arg25 : FVec F S128 .f32) (main_arg26 : FVec F S128x2 .f32) (main_arg27 : FVec F S2 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg15
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S9x128 .f32 := Host.absf main_arg16
  let main_cst_22 : FVec F S_ .f32 := constant S_ .f32 0x7F800000#32
  let main_v60 : FVec F S9x128 .f32 := broadcastInDim S9x128 ![] bcast_S_S9x128 main_cst_22
  let main_v61 : IVec S9x128 1 := cmpf .olt main_v59 main_v60
  let main_c_23 : IVec S_ 1 := constantI S_ 1 1#1
  let main_v62 : IVec S_ 1 := (fun x v => Host.reduce IntOp.andi x v reducesTo_S9x128_S_d0_1 h_S_) main_v61 main_c_23
  let main_v63 : IVec S_ 1 := andi main_v58 main_v62
  let main_v64 : FVec F S128 .f32 := Host.absf main_arg17
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg18 main_arg19 main_arg20 main_arg21 main_arg22 main_arg23 main_arg24 main_arg25 main_arg26 main_arg27 main_v63 main_v67

def fn_part2 {F : FTy → Type} [FloatOps F] (main_arg11 : FVec F S128 .f32) (main_arg12 : FVec F S21x64 .f32) (main_arg13 : FVec F S64 .f32) (main_arg14 : FVec F S64x64 .f32) (main_arg15 : FVec F S64 .f32) (main_arg16 : FVec F S9x128 .f32) (main_arg17 : FVec F S128 .f32) (main_arg18 : FVec F S128x128 .f32) (main_arg19 : FVec F S128 .f32) (main_arg20 : FVec F S9x128 .f32) (main_arg21 : FVec F S128 .f32) (main_arg22 : FVec F S128x128 .f32) (main_arg23 : FVec F S128 .f32) (main_arg24 : FVec F S448x128 .f32) (main_arg25 : FVec F S128 .f32) (main_arg26 : FVec F S128x2 .f32) (main_arg27 : FVec F S2 .f32) (main_v33 : IVec S_ 1) : IVec S_ 1 :=
  let main_v34 : FVec F S128 .f32 := Host.absf main_arg11
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S21x64 .f32 := Host.absf main_arg12
  let main_cst_14 : FVec F S_ .f32 := constant S_ .f32 0x7F800000#32
  let main_v40 : FVec F S21x64 .f32 := broadcastInDim S21x64 ![] bcast_S_S21x64 main_cst_14
  let main_v41 : IVec S21x64 1 := cmpf .olt main_v39 main_v40
  let main_c_15 : IVec S_ 1 := constantI S_ 1 1#1
  let main_v42 : IVec S_ 1 := (fun x v => Host.reduce IntOp.andi x v reducesTo_S21x64_S_d0_1 h_S_) main_v41 main_c_15
  let main_v43 : IVec S_ 1 := andi main_v38 main_v42
  let main_v44 : FVec F S64 .f32 := Host.absf main_arg13
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg14
  let main_cst_18 : FVec F S_ .f32 := constant S_ .f32 0x7F800000#32
  let main_v50 : FVec F S64x64 .f32 := broadcastInDim S64x64 ![] bcast_S_S64x64 main_cst_18
  fn_part3 (F := F) main_arg15 main_arg16 main_arg17 main_arg18 main_arg19 main_arg20 main_arg21 main_arg22 main_arg23 main_arg24 main_arg25 main_arg26 main_arg27 main_v48 main_v49 main_v50

def fn_part1 {F : FTy → Type} [FloatOps F] (main_arg8 : FVec F S18640x128 .f32) (main_arg9 : FVec F S128 .f32) (main_arg10 : FVec F S128x128 .f32) (main_arg11 : FVec F S128 .f32) (main_arg12 : FVec F S21x64 .f32) (main_arg13 : FVec F S64 .f32) (main_arg14 : FVec F S64x64 .f32) (main_arg15 : FVec F S64 .f32) (main_arg16 : FVec F S9x128 .f32) (main_arg17 : FVec F S128 .f32) (main_arg18 : FVec F S128x128 .f32) (main_arg19 : FVec F S128 .f32) (main_arg20 : FVec F S9x128 .f32) (main_arg21 : FVec F S128 .f32) (main_arg22 : FVec F S128x128 .f32) (main_arg23 : FVec F S128 .f32) (main_arg24 : FVec F S448x128 .f32) (main_arg25 : FVec F S128 .f32) (main_arg26 : FVec F S128x2 .f32) (main_arg27 : FVec F S2 .f32) (main_v13 : IVec S_ 1) (main_v16 : IVec S4096x9 1) : IVec S_ 1 :=
  let main_c_5 : IVec S_ 1 := constantI S_ 1 1#1
  let main_v17 : IVec S_ 1 := (fun x v => Host.reduce IntOp.andi x v reducesTo_S4096x9_S_d0_1 h_S_) main_v16 main_c_5
  let main_v18 : IVec S_ 1 := andi main_v13 main_v17
  let main_v19 : FVec F S18640x128 .f32 := Host.absf main_arg8
  let main_cst_6 : FVec F S_ .f32 := constant S_ .f32 0x7F800000#32
  let main_v20 : FVec F S18640x128 .f32 := broadcastInDim S18640x128 ![] bcast_S_S18640x128 main_cst_6
  let main_v21 : IVec S18640x128 1 := cmpf .olt main_v19 main_v20
  let main_c_7 : IVec S_ 1 := constantI S_ 1 1#1
  let main_v22 : IVec S_ 1 := (fun x v => Host.reduce IntOp.andi x v reducesTo_S18640x128_S_d0_1 h_S_) main_v21 main_c_7
  let main_v23 : IVec S_ 1 := andi main_v18 main_v22
  let main_v24 : FVec F S128 .f32 := Host.absf main_arg9
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg10
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg11 main_arg12 main_arg13 main_arg14 main_arg15 main_arg16 main_arg17 main_arg18 main_arg19 main_arg20 main_arg21 main_arg22 main_arg23 main_arg24 main_arg25 main_arg26 main_arg27 main_v33

def fn {F : FTy → Type} [FloatOps F] (main_arg0 : FVec F S64x18640 .f32) (main_arg1 : FVec F S64x21 .f32) (main_arg2 : FVec F S100000x9 .f32) (main_arg3 : FVec F S4096x9 .f32) (main_arg4 : IVec S2x1600000 32) (main_arg5 : IVec S100000 32) (main_arg6 : IVec S2x16384 32) (main_arg7 : IVec S4096 32) (main_arg8 : FVec F S18640x128 .f32) (main_arg9 : FVec F S128 .f32) (main_arg10 : FVec F S128x128 .f32) (main_arg11 : FVec F S128 .f32) (main_arg12 : FVec F S21x64 .f32) (main_arg13 : FVec F S64 .f32) (main_arg14 : FVec F S64x64 .f32) (main_arg15 : FVec F S64 .f32) (main_arg16 : FVec F S9x128 .f32) (main_arg17 : FVec F S128 .f32) (main_arg18 : FVec F S128x128 .f32) (main_arg19 : FVec F S128 .f32) (main_arg20 : FVec F S9x128 .f32) (main_arg21 : FVec F S128 .f32) (main_arg22 : FVec F S128x128 .f32) (main_arg23 : FVec F S128 .f32) (main_arg24 : FVec F S448x128 .f32) (main_arg25 : FVec F S128 .f32) (main_arg26 : FVec F S128x2 .f32) (main_arg27 : FVec F S2 .f32) : IVec S_ 1 :=
  let main_v0 : FVec F S64x18640 .f32 := Host.absf main_arg0
  let main_cst : FVec F S_ .f32 := constant S_ .f32 0x7F800000#32
  let main_v1 : FVec F S64x18640 .f32 := broadcastInDim S64x18640 ![] bcast_S_S64x18640 main_cst
  let main_v2 : IVec S64x18640 1 := cmpf .olt main_v0 main_v1
  let main_c : IVec S_ 1 := constantI S_ 1 1#1
  let main_v3 : IVec S_ 1 := (fun x v => Host.reduce IntOp.andi x v reducesTo_S64x18640_S_d0_1 h_S_) main_v2 main_c
  let main_v4 : FVec F S64x21 .f32 := Host.absf main_arg1
  let main_cst_0 : FVec F S_ .f32 := constant S_ .f32 0x7F800000#32
  let main_v5 : FVec F S64x21 .f32 := broadcastInDim S64x21 ![] bcast_S_S64x21 main_cst_0
  let main_v6 : IVec S64x21 1 := cmpf .olt main_v4 main_v5
  let main_c_1 : IVec S_ 1 := constantI S_ 1 1#1
  let main_v7 : IVec S_ 1 := (fun x v => Host.reduce IntOp.andi x v reducesTo_S64x21_S_d0_1 h_S_) main_v6 main_c_1
  let main_v8 : IVec S_ 1 := andi main_v3 main_v7
  let main_v9 : FVec F S100000x9 .f32 := Host.absf main_arg2
  let main_cst_2 : FVec F S_ .f32 := constant S_ .f32 0x7F800000#32
  let main_v10 : FVec F S100000x9 .f32 := broadcastInDim S100000x9 ![] bcast_S_S100000x9 main_cst_2
  let main_v11 : IVec S100000x9 1 := cmpf .olt main_v9 main_v10
  let main_c_3 : IVec S_ 1 := constantI S_ 1 1#1
  let main_v12 : IVec S_ 1 := (fun x v => Host.reduce IntOp.andi x v reducesTo_S100000x9_S_d0_1 h_S_) main_v11 main_c_3
  let main_v13 : IVec S_ 1 := andi main_v8 main_v12
  let main_v14 : FVec F S4096x9 .f32 := Host.absf main_arg3
  let main_cst_4 : FVec F S_ .f32 := constant S_ .f32 0x7F800000#32
  let main_v15 : FVec F S4096x9 .f32 := broadcastInDim S4096x9 ![] bcast_S_S4096x9 main_cst_4
  let main_v16 : IVec S4096x9 1 := cmpf .olt main_v14 main_v15
  fn_part1 (F := F) main_arg8 main_arg9 main_arg10 main_arg11 main_arg12 main_arg13 main_arg14 main_arg15 main_arg16 main_arg17 main_arg18 main_arg19 main_arg20 main_arg21 main_arg22 main_arg23 main_arg24 main_arg25 main_arg26 main_arg27 main_v13 main_v16
-- ==== Kernel.lean ====
abbrev S64x18640 : Shape := ⟨2, ![64, 18640]⟩
abbrev S64x21 : Shape := ⟨2, ![64, 21]⟩
abbrev S100000x9 : Shape := ⟨2, ![100000, 9]⟩
abbrev S4096x9 : Shape := ⟨2, ![4096, 9]⟩
abbrev S2x1600000 : Shape := ⟨2, ![2, 1600000]⟩
abbrev S100000 : Shape := ⟨1, ![100000]⟩
abbrev S2x16384 : Shape := ⟨2, ![2, 16384]⟩
abbrev S4096 : Shape := ⟨1, ![4096]⟩
abbrev S18640x128 : Shape := ⟨2, ![18640, 128]⟩
abbrev S128 : Shape := ⟨1, ![128]⟩
abbrev S128x128 : Shape := ⟨2, ![128, 128]⟩
abbrev S21x64 : Shape := ⟨2, ![21, 64]⟩
abbrev S64 : Shape := ⟨1, ![64]⟩
abbrev S64x64 : Shape := ⟨2, ![64, 64]⟩
abbrev S9x128 : Shape := ⟨2, ![9, 128]⟩
abbrev S448x128 : Shape := ⟨2, ![448, 128]⟩
abbrev S128x2 : Shape := ⟨2, ![128, 2]⟩
abbrev S2 : Shape := ⟨1, ![2]⟩
abbrev S1x128 : Shape := ⟨2, ![1, 128]⟩
abbrev S64x128 : Shape := ⟨2, ![64, 128]⟩
abbrev S1x64 : Shape := ⟨2, ![1, 64]⟩
abbrev S_ : Shape := ⟨0, ![]⟩
abbrev S100000x128 : Shape := ⟨2, ![100000, 128]⟩
abbrev S4000x9 : Shape := ⟨2, ![4000, 9]⟩
abbrev S4000x128 : Shape := ⟨2, ![4000, 128]⟩
abbrev S1x1600000 : Shape := ⟨2, ![1, 1600000]⟩
abbrev S1600000 : Shape := ⟨1, ![1600000]⟩
abbrev S1700000 : Shape := ⟨1, ![1700000]⟩
abbrev S1700000x1 : Shape := ⟨2, ![1700000, 1]⟩
abbrev S1700000x128 : Shape := ⟨2, ![1700000, 128]⟩
abbrev S100000x1 : Shape := ⟨2, ![100000, 1]⟩
abbrev S64x1 : Shape := ⟨2, ![64, 1]⟩
abbrev S4096x128 : Shape := ⟨2, ![4096, 128]⟩
abbrev S1x16384 : Shape := ⟨2, ![1, 16384]⟩
abbrev S16384 : Shape := ⟨1, ![16384]⟩
abbrev S20480 : Shape := ⟨1, ![20480]⟩
abbrev S20480x1 : Shape := ⟨2, ![20480, 1]⟩
abbrev S20480x128 : Shape := ⟨2, ![20480, 128]⟩
abbrev S4096x1 : Shape := ⟨2, ![4096, 1]⟩
abbrev S64x448 : Shape := ⟨2, ![64, 448]⟩
abbrev S1x2 : Shape := ⟨2, ![1, 2]⟩
abbrev S64x2 : Shape := ⟨2, ![64, 2]⟩

abbrev nBuf : Space → Nat
  | .hbm => 373
  | .vmem => 44
  | .smem => 0
  | _ => 0

abbrev hbmTy0_0 (i : Nat) : BufTy := match i % 128 with
  | 0 => ⟨S64x18640, .f32⟩
  | 1 => ⟨S64x21, .f32⟩
  | 2 => ⟨S100000x9, .f32⟩
  | 3 => ⟨S4096x9, .f32⟩
  | 4 => ⟨S2x1600000, .i32⟩
  | 5 => ⟨S100000, .i32⟩
  | 6 => ⟨S2x16384, .i32⟩
  | 7 => ⟨S4096, .i32⟩
  | 8 => ⟨S18640x128, .f32⟩
  | 9 => ⟨S128, .f32⟩
  | 10 => ⟨S128x128, .f32⟩
  | 11 => ⟨S128, .f32⟩
  | 12 => ⟨S21x64, .f32⟩
  | 13 => ⟨S64, .f32⟩
  | 14 => ⟨S64x64, .f32⟩
  | 15 => ⟨S64, .f32⟩
  | 16 => ⟨S9x128, .f32⟩
  | 17 => ⟨S128, .f32⟩
  | 18 => ⟨S128x128, .f32⟩
  | 19 => ⟨S128, .f32⟩
  | 20 => ⟨S9x128, .f32⟩
  | 21 => ⟨S128, .f32⟩
  | 22 => ⟨S128x128, .f32⟩
  | 23 => ⟨S128, .f32⟩
  | 24 => ⟨S448x128, .f32⟩
  | 25 => ⟨S128, .f32⟩
  | 26 => ⟨S128x2, .f32⟩
  | 27 => ⟨S2, .f32⟩
  | 28 => ⟨S64x18640, .bf16⟩
  | 29 => ⟨S18640x128, .bf16⟩
  | 30 => ⟨S1x128, .f32⟩
  | 31 => ⟨S64x128, .f32⟩
  | 32 => ⟨S64x128, .bf16⟩
  | 33 => ⟨S128x128, .bf16⟩
  | 34 => ⟨S1x128, .f32⟩
  | 35 => ⟨S64x128, .f32⟩
  | 36 => ⟨S64x21, .bf16⟩
  | 37 => ⟨S21x64, .bf16⟩
  | 38 => ⟨S1x64, .f32⟩
  | 39 => ⟨S64x64, .f32⟩
  | 40 => ⟨S64x64, .bf16⟩
  | 41 => ⟨S64x64, .bf16⟩
  | 42 => ⟨S1x64, .f32⟩
  | 43 => ⟨S64x64, .f32⟩
  | 44 => ⟨S_, .f32⟩
  | 45 => ⟨S128, .f32⟩
  | 46 => ⟨S100000x9, .bf16⟩
  | 47 => ⟨S9x128, .bf16⟩
  | 48 => ⟨S1x128, .f32⟩
  | 49 => ⟨S100000x128, .f32⟩
  | 50 => ⟨S1x1600000, .i32⟩
  | 51 => ⟨S1600000, .i32⟩
  | 52 => ⟨S100000, .i32⟩
  | 53 => ⟨S1700000, .i32⟩
  | 54 => ⟨S1x1600000, .i32⟩
  | 55 => ⟨S1600000, .i32⟩
  | 56 => ⟨S100000, .i32⟩
  | 57 => ⟨S1700000, .i32⟩
  | 58 => ⟨S_, .f32⟩
  | 59 => ⟨S1700000, .f32⟩
  | 60 => ⟨S_, .f32⟩
  | 61 => ⟨S100000, .f32⟩
  | 62 => ⟨S1700000x1, .i32⟩
  | 63 => ⟨S100000, .f32⟩
  | 64 => ⟨S_, .f32⟩
  | 65 => ⟨S100000, .f32⟩
  | 66 => ⟨S100000, .i1⟩
  | 67 => ⟨S_, .f32⟩
  | 68 => ⟨S100000, .f32⟩
  | 69 => ⟨S100000, .f32⟩
  | 70 => ⟨S100000, .f32⟩
  | 71 => ⟨S_, .f32⟩
  | 72 => ⟨S_, .f32⟩
  | 73 => ⟨S100000, .f32⟩
  | 74 => ⟨S100000, .f32⟩
  | 75 => ⟨S_, .i32⟩
  | 76 => ⟨S1700000, .i32⟩
  | 77 => ⟨S1700000, .i1⟩
  | 78 => ⟨S_, .i32⟩
  | 79 => ⟨S1700000, .i32⟩
  | 80 => ⟨S1700000, .i32⟩
  | 81 => ⟨S1700000, .i32⟩
  | 82 => ⟨S1700000x1, .i32⟩
  | 83 => ⟨S1700000, .f32⟩
  | 84 => ⟨S_, .i32⟩
  | 85 => ⟨S1700000, .i32⟩
  | 86 => ⟨S1700000, .i1⟩
  | 87 => ⟨S_, .i32⟩
  | 88 => ⟨S1700000, .i32⟩
  | 89 => ⟨S1700000, .i32⟩
  | 90 => ⟨S1700000, .i32⟩
  | 91 => ⟨S1700000x1, .i32⟩
  | 92 => ⟨S1700000, .f32⟩
  | 93 => ⟨S1700000, .f32⟩
  | 94 => ⟨S1700000x1, .f32⟩
  | 95 => ⟨S_, .i32⟩
  | 96 => ⟨S1700000, .i32⟩
  | 97 => ⟨S1700000, .i1⟩
  | 98 => ⟨S_, .i32⟩
  | 99 => ⟨S1700000, .i32⟩
  | 100 => ⟨S1700000, .i32⟩
  | 101 => ⟨S1700000, .i32⟩
  | 102 => ⟨S1700000x1, .i32⟩
  | 103 => ⟨S1700000x128, .f32⟩
  | 104 => ⟨S1700000x128, .f32⟩
  | 105 => ⟨S1700000x128, .f32⟩
  | 106 => ⟨S_, .f32⟩
  | 107 => ⟨S100000x128, .f32⟩
  | 108 => ⟨S1700000x1, .i32⟩
  | 109 => ⟨S100000x128, .f32⟩
  | 110 => ⟨S1x128, .f32⟩
  | 111 => ⟨S100000x128, .f32⟩
  | 112 => ⟨S100000x128, .f32⟩
  | 113 => ⟨S_, .f32⟩
  | 114 => ⟨S100000x128, .f32⟩
  | 115 => ⟨S100000x128, .f32⟩
  | 116 => ⟨S_, .f32⟩
  | 117 => ⟨S128, .f32⟩
  | 118 => ⟨S100000x128, .bf16⟩
  | 119 => ⟨S128x128, .bf16⟩
  | 120 => ⟨S1x128, .f32⟩
  | 121 => ⟨S100000x128, .f32⟩
  | 122 => ⟨S1x1600000, .i32⟩
  | 123 => ⟨S1600000, .i32⟩
  | 124 => ⟨S100000, .i32⟩
  | 125 => ⟨S1700000, .i32⟩
  | 126 => ⟨S1x1600000, .i32⟩
  | 127 => ⟨S1600000, .i32⟩
  | _ => ⟨S64x18640, .f32⟩

abbrev hbmTy0_1 (i : Nat) : BufTy := match i % 128 with
  | 0 => ⟨S100000, .i32⟩
  | 1 => ⟨S1700000, .i32⟩
  | 2 => ⟨S_, .f32⟩
  | 3 => ⟨S1700000, .f32⟩
  | 4 => ⟨S_, .f32⟩
  | 5 => ⟨S100000, .f32⟩
  | 6 => ⟨S1700000x1, .i32⟩
  | 7 => ⟨S100000, .f32⟩
  | 8 => ⟨S_, .f32⟩
  | 9 => ⟨S100000, .f32⟩
  | 10 => ⟨S100000, .i1⟩
  | 11 => ⟨S_, .f32⟩
  | 12 => ⟨S100000, .f32⟩
  | 13 => ⟨S100000, .f32⟩
  | 14 => ⟨S100000, .f32⟩
  | 15 => ⟨S_, .f32⟩
  | 16 => ⟨S_, .f32⟩
  | 17 => ⟨S100000, .f32⟩
  | 18 => ⟨S100000, .f32⟩
  | 19 => ⟨S_, .i32⟩
  | 20 => ⟨S1700000, .i32⟩
  | 21 => ⟨S1700000, .i1⟩
  | 22 => ⟨S_, .i32⟩
  | 23 => ⟨S1700000, .i32⟩
  | 24 => ⟨S1700000, .i32⟩
  | 25 => ⟨S1700000, .i32⟩
  | 26 => ⟨S1700000x1, .i32⟩
  | 27 => ⟨S1700000, .f32⟩
  | 28 => ⟨S_, .i32⟩
  | 29 => ⟨S1700000, .i32⟩
  | 30 => ⟨S1700000, .i1⟩
  | 31 => ⟨S_, .i32⟩
  | 32 => ⟨S1700000, .i32⟩
  | 33 => ⟨S1700000, .i32⟩
  | 34 => ⟨S1700000, .i32⟩
  | 35 => ⟨S1700000x1, .i32⟩
  | 36 => ⟨S1700000, .f32⟩
  | 37 => ⟨S1700000, .f32⟩
  | 38 => ⟨S1700000x1, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000x128, .f32⟩
  | 48 => ⟨S1700000x128, .f32⟩
  | 49 => ⟨S1700000x128, .f32⟩
  | 50 => ⟨S_, .f32⟩
  | 51 => ⟨S100000x128, .f32⟩
  | 52 => ⟨S1700000x1, .i32⟩
  | 53 => ⟨S100000x128, .f32⟩
  | 54 => ⟨S1x128, .f32⟩
  | 55 => ⟨S100000x128, .f32⟩
  | 56 => ⟨S100000x128, .f32⟩
  | 57 => ⟨S_, .f32⟩
  | 58 => ⟨S100000x128, .f32⟩
  | 59 => ⟨S100000x128, .f32⟩
  | 60 => ⟨S_, .f32⟩
  | 61 => ⟨S64x128, .f32⟩
  | 62 => ⟨S100000x1, .i32⟩
  | 63 => ⟨S64x128, .f32⟩
  | 64 => ⟨S_, .f32⟩
  | 65 => ⟨S100000, .f32⟩
  | 66 => ⟨S_, .f32⟩
  | 67 => ⟨S64, .f32⟩
  | 68 => ⟨S100000x1, .i32⟩
  | 69 => ⟨S64, .f32⟩
  | 70 => ⟨S_, .f32⟩
  | 71 => ⟨S64, .f32⟩
  | 72 => ⟨S64, .f32⟩
  | 73 => ⟨S64x1, .f32⟩
  | 74 => ⟨S64x128, .f32⟩
  | 75 => ⟨S64x128, .f32⟩
  | 76 => ⟨S_, .f32⟩
  | 77 => ⟨S128, .f32⟩
  | 78 => ⟨S4096x9, .bf16⟩
  | 79 => ⟨S9x128, .bf16⟩
  | 80 => ⟨S1x128, .f32⟩
  | 81 => ⟨S4096x128, .f32⟩
  | 82 => ⟨S1x16384, .i32⟩
  | 83 => ⟨S16384, .i32⟩
  | 84 => ⟨S4096, .i32⟩
  | 85 => ⟨S20480, .i32⟩
  | 86 => ⟨S1x16384, .i32⟩
  | 87 => ⟨S16384, .i32⟩
  | 88 => ⟨S4096, .i32⟩
  | 89 => ⟨S20480, .i32⟩
  | 90 => ⟨S_, .f32⟩
  | 91 => ⟨S20480, .f32⟩
  | 92 => ⟨S_, .f32⟩
  | 93 => ⟨S4096, .f32⟩
  | 94 => ⟨S20480x1, .i32⟩
  | 95 => ⟨S4096, .f32⟩
  | 96 => ⟨S_, .f32⟩
  | 97 => ⟨S4096, .f32⟩
  | 98 => ⟨S4096, .i1⟩
  | 99 => ⟨S_, .f32⟩
  | 100 => ⟨S4096, .f32⟩
  | 101 => ⟨S4096, .f32⟩
  | 102 => ⟨S4096, .f32⟩
  | 103 => ⟨S_, .f32⟩
  | 104 => ⟨S_, .f32⟩
  | 105 => ⟨S4096, .f32⟩
  | 106 => ⟨S4096, .f32⟩
  | 107 => ⟨S_, .i32⟩
  | 108 => ⟨S20480, .i32⟩
  | 109 => ⟨S20480, .i1⟩
  | 110 => ⟨S_, .i32⟩
  | 111 => ⟨S20480, .i32⟩
  | 112 => ⟨S20480, .i32⟩
  | 113 => ⟨S20480, .i32⟩
  | 114 => ⟨S20480x1, .i32⟩
  | 115 => ⟨S20480, .f32⟩
  | 116 => ⟨S_, .i32⟩
  | 117 => ⟨S20480, .i32⟩
  | 118 => ⟨S20480, .i1⟩
  | 119 => ⟨S_, .i32⟩
  | 120 => ⟨S20480, .i32⟩
  | 121 => ⟨S20480, .i32⟩
  | 122 => ⟨S20480, .i32⟩
  | 123 => ⟨S20480x1, .i32⟩
  | 124 => ⟨S20480, .f32⟩
  | 125 => ⟨S20480, .f32⟩
  | 126 => ⟨S20480x1, .f32⟩
  | 127 => ⟨S_, .i32⟩
  | _ => ⟨S64x18640, .f32⟩

abbrev hbmTy0_2 (i : Nat) : BufTy := match i % 128 with
  | 0 => ⟨S20480, .i32⟩
  | 1 => ⟨S20480, .i1⟩
  | 2 => ⟨S_, .i32⟩
  | 3 => ⟨S20480, .i32⟩
  | 4 => ⟨S20480, .i32⟩
  | 5 => ⟨S20480, .i32⟩
  | 6 => ⟨S20480x1, .i32⟩
  | 7 => ⟨S20480x128, .f32⟩
  | 8 => ⟨S20480x128, .f32⟩
  | 9 => ⟨S20480x128, .f32⟩
  | 10 => ⟨S_, .f32⟩
  | 11 => ⟨S4096x128, .f32⟩
  | 12 => ⟨S20480x1, .i32⟩
  | 13 => ⟨S4096x128, .f32⟩
  | 14 => ⟨S1x128, .f32⟩
  | 15 => ⟨S4096x128, .f32⟩
  | 16 => ⟨S4096x128, .f32⟩
  | 17 => ⟨S_, .f32⟩
  | 18 => ⟨S4096x128, .f32⟩
  | 19 => ⟨S4096x128, .f32⟩
  | 20 => ⟨S_, .f32⟩
  | 21 => ⟨S128, .f32⟩
  | 22 => ⟨S4096x128, .bf16⟩
  | 23 => ⟨S128x128, .bf16⟩
  | 24 => ⟨S1x128, .f32⟩
  | 25 => ⟨S4096x128, .f32⟩
  | 26 => ⟨S1x16384, .i32⟩
  | 27 => ⟨S16384, .i32⟩
  | 28 => ⟨S4096, .i32⟩
  | 29 => ⟨S20480, .i32⟩
  | 30 => ⟨S1x16384, .i32⟩
  | 31 => ⟨S16384, .i32⟩
  | 32 => ⟨S4096, .i32⟩
  | 33 => ⟨S20480, .i32⟩
  | 34 => ⟨S_, .f32⟩
  | 35 => ⟨S20480, .f32⟩
  | 36 => ⟨S_, .f32⟩
  | 37 => ⟨S4096, .f32⟩
  | 38 => ⟨S20480x1, .i32⟩
  | 39 => ⟨S4096, .f32⟩
  | 40 => ⟨S_, .f32⟩
  | 41 => ⟨S4096, .f32⟩
  | 42 => ⟨S4096, .i1⟩
  | 43 => ⟨S_, .f32⟩
  | 44 => ⟨S4096, .f32⟩
  | 45 => ⟨S4096, .f32⟩
  | 46 => ⟨S4096, .f32⟩
  | 47 => ⟨S_, .f32⟩
  | 48 => ⟨S_, .f32⟩
  | 49 => ⟨S4096, .f32⟩
  | 50 => ⟨S4096, .f32⟩
  | 51 => ⟨S_, .i32⟩
  | 52 => ⟨S20480, .i32⟩
  | 53 => ⟨S20480, .i1⟩
  | 54 => ⟨S_, .i32⟩
  | 55 => ⟨S20480, .i32⟩
  | 56 => ⟨S20480, .i32⟩
  | 57 => ⟨S20480, .i32⟩
  | 58 => ⟨S20480x1, .i32⟩
  | 59 => ⟨S20480, .f32⟩
  | 60 => ⟨S_, .i32⟩
  | 61 => ⟨S20480, .i32⟩
  | 62 => ⟨S20480, .i1⟩
  | 63 => ⟨S_, .i32⟩
  | 64 => ⟨S20480, .i32⟩
  | 65 => ⟨S20480, .i32⟩
  | 66 => ⟨S20480, .i32⟩
  | 67 => ⟨S20480x1, .i32⟩
  | 68 => ⟨S20480, .f32⟩
  | 69 => ⟨S20480, .f32⟩
  | 70 => ⟨S20480x1, .f32⟩
  | 71 => ⟨S_, .i32⟩
  | 72 => ⟨S20480, .i32⟩
  | 73 => ⟨S20480, .i1⟩
  | 74 => ⟨S_, .i32⟩
  | 75 => ⟨S20480, .i32⟩
  | 76 => ⟨S20480, .i32⟩
  | 77 => ⟨S20480, .i32⟩
  | 78 => ⟨S20480x1, .i32⟩
  | 79 => ⟨S20480x128, .f32⟩
  | 80 => ⟨S20480x128, .f32⟩
  | 81 => ⟨S20480x128, .f32⟩
  | 82 => ⟨S_, .f32⟩
  | 83 => ⟨S4096x128, .f32⟩
  | 84 => ⟨S20480x1, .i32⟩
  | 85 => ⟨S4096x128, .f32⟩
  | 86 => ⟨S1x128, .f32⟩
  | 87 => ⟨S4096x128, .f32⟩
  | 88 => ⟨S4096x128, .f32⟩
  | 89 => ⟨S_, .f32⟩
  | 90 => ⟨S4096x128, .f32⟩
  | 91 => ⟨S4096x128, .f32⟩
  | 92 => ⟨S_, .f32⟩
  | 93 => ⟨S64x128, .f32⟩
  | 94 => ⟨S4096x1, .i32⟩
  | 95 => ⟨S64x128, .f32⟩
  | 96 => ⟨S_, .f32⟩
  | 97 => ⟨S4096, .f32⟩
  | 98 => ⟨S_, .f32⟩
  | 99 => ⟨S64, .f32⟩
  | 100 => ⟨S4096x1, .i32⟩
  | 101 => ⟨S64, .f32⟩
  | 102 => ⟨S_, .f32⟩
  | 103 => ⟨S64, .f32⟩
  | 104 => ⟨S64, .f32⟩
  | 105 => ⟨S64x1, .f32⟩
  | 106 => ⟨S64x128, .f32⟩
  | 107 => ⟨S64x128, .f32⟩
  | 108 => ⟨S64x448, .f32⟩
  | 109 => ⟨S64x448, .bf16⟩
  | 110 => ⟨S448x128, .bf16⟩
  | 111 => ⟨S1x128, .f32⟩
  | 112 => ⟨S64x128, .f32⟩
  | 113 => ⟨S64x128, .bf16⟩
  | 114 => ⟨S128x2, .bf16⟩
  | 115 => ⟨S1x2, .f32⟩
  | 116 => ⟨S64x2, .f32⟩
  | _ => ⟨S64x18640, .f32⟩

abbrev hbmTy (i : Nat) : BufTy := match i / 128 with
  | 0 => hbmTy0_0 i
  | 1 => hbmTy0_1 i
  | 2 => hbmTy0_2 i
  | _ => ⟨S64x18640, .f32⟩

abbrev bufTy : (tb : Table) → Fin (tcTables nBuf tb) → BufTy
  | .hbm, ⟨i, _⟩ => hbmTy i
  | .local _ .vmem, ⟨0, _⟩ => ⟨S64x18640, .bf16⟩
  | .local _ .vmem, ⟨1, _⟩ => ⟨S18640x128, .bf16⟩
  | .local _ .vmem, ⟨2, _⟩ => ⟨S1x128, .f32⟩
  | .local _ .vmem, ⟨3, _⟩ => ⟨S64x128, .f32⟩
  | .local _ .vmem, ⟨4, _⟩ => ⟨S64x128, .bf16⟩
  | .local _ .vmem, ⟨5, _⟩ => ⟨S128x128, .bf16⟩
  | .local _ .vmem, ⟨6, _⟩ => ⟨S1x128, .f32⟩
  | .local _ .vmem, ⟨7, _⟩ => ⟨S64x128, .f32⟩
  | .local _ .vmem, ⟨8, _⟩ => ⟨S64x21, .bf16⟩
  | .local _ .vmem, ⟨9, _⟩ => ⟨S21x64, .bf16⟩
  | .local _ .vmem, ⟨10, _⟩ => ⟨S1x64, .f32⟩
  | .local _ .vmem, ⟨11, _⟩ => ⟨S64x64, .f32⟩
  | .local _ .vmem, ⟨12, _⟩ => ⟨S64x64, .bf16⟩
  | .local _ .vmem, ⟨13, _⟩ => ⟨S64x64, .bf16⟩
  | .local _ .vmem, ⟨14, _⟩ => ⟨S1x64, .f32⟩
  | .local _ .vmem, ⟨15, _⟩ => ⟨S64x64, .f32⟩
  | .local _ .vmem, ⟨16, _⟩ => ⟨S4000x9, .bf16⟩
  | .local _ .vmem, ⟨17, _⟩ => ⟨S4000x9, .bf16⟩
  | .local _ .vmem, ⟨18, _⟩ => ⟨S9x128, .bf16⟩
  | .local _ .vmem, ⟨19, _⟩ => ⟨S1x128, .f32⟩
  | .local _ .vmem, ⟨20, _⟩ => ⟨S4000x128, .f32⟩
  | .local _ .vmem, ⟨21, _⟩ => ⟨S4000x128, .f32⟩
  | .local _ .vmem, ⟨22, _⟩ => ⟨S4000x128, .bf16⟩
  | .local _ .vmem, ⟨23, _⟩ => ⟨S4000x128, .bf16⟩
  | .local _ .vmem, ⟨24, _⟩ => ⟨S128x128, .bf16⟩
  | .local _ .vmem, ⟨25, _⟩ => ⟨S1x128, .f32⟩
  | .local _ .vmem, ⟨26, _⟩ => ⟨S4000x128, .f32⟩
  | .local _ .vmem, ⟨27, _⟩ => ⟨S4000x128, .f32⟩
  | .local _ .vmem, ⟨28, _⟩ => ⟨S4096x9, .bf16⟩
  | .local _ .vmem, ⟨29, _⟩ => ⟨S9x128, .bf16⟩
  | .local _ .vmem, ⟨30, _⟩ => ⟨S1x128, .f32⟩
  | .local _ .vmem, ⟨31, _⟩ => ⟨S4096x128, .f32⟩
  | .local _ .vmem, ⟨32, _⟩ => ⟨S4096x128, .bf16⟩
  | .local _ .vmem, ⟨33, _⟩ => ⟨S128x128, .bf16⟩
  | .local _ .vmem, ⟨34, _⟩ => ⟨S1x128, .f32⟩
  | .local _ .vmem, ⟨35, _⟩ => ⟨S4096x128, .f32⟩
  | .local _ .vmem, ⟨36, _⟩ => ⟨S64x448, .bf16⟩
  | .local _ .vmem, ⟨37, _⟩ => ⟨S448x128, .bf16⟩
  | .local _ .vmem, ⟨38, _⟩ => ⟨S1x128, .f32⟩
  | .local _ .vmem, ⟨39, _⟩ => ⟨S64x128, .f32⟩
  | .local _ .vmem, ⟨40, _⟩ => ⟨S64x128, .bf16⟩
  | .local _ .vmem, ⟨41, _⟩ => ⟨S128x2, .bf16⟩
  | .local _ .vmem, ⟨42, _⟩ => ⟨S1x2, .f32⟩
  | .local _ .vmem, ⟨43, _⟩ => ⟨S64x2, .f32⟩
  | _, _ => ⟨S64x18640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_cst : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_cst_0 : Ref sig .tc := ⟨.hbm, 58, rfl⟩
abbrev main_v29 : Ref sig .tc := ⟨.hbm, 59, rfl⟩
abbrev main_cst_1 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_cst_2 : Ref sig .tc := ⟨.hbm, 64, rfl⟩
abbrev main_v33 : Ref sig .tc := ⟨.hbm, 65, rfl⟩
abbrev main_v34 : Ref sig .tc := ⟨.hbm, 66, rfl⟩
abbrev main_cst_3 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_cst_4 : Ref sig .tc := ⟨.hbm, 71, rfl⟩
abbrev main_call0_v0 : Ref sig .tc := ⟨.hbm, 72, rfl⟩
abbrev main_call0_v1 : Ref sig .tc := ⟨.hbm, 73, rfl⟩
abbrev main_v38 : Ref sig .tc := ⟨.hbm, 74, rfl⟩
abbrev main_c : Ref sig .tc := ⟨.hbm, 75, rfl⟩
abbrev main_v39 : Ref sig .tc := ⟨.hbm, 76, rfl⟩
abbrev main_v40 : Ref sig .tc := ⟨.hbm, 77, rfl⟩
abbrev main_c_5 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_c_6 : Ref sig .tc := ⟨.hbm, 84, rfl⟩
abbrev main_v46 : Ref sig .tc := ⟨.hbm, 85, rfl⟩
abbrev main_v47 : Ref sig .tc := ⟨.hbm, 86, rfl⟩
abbrev main_c_7 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_c_8 : Ref sig .tc := ⟨.hbm, 95, rfl⟩
abbrev main_v55 : Ref sig .tc := ⟨.hbm, 96, rfl⟩
abbrev main_v56 : Ref sig .tc := ⟨.hbm, 97, rfl⟩
abbrev main_c_9 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_cst_10 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_call1_cst : Ref sig .tc := ⟨.hbm, 113, rfl⟩
abbrev main_call1_v0 : Ref sig .tc := ⟨.hbm, 114, rfl⟩
abbrev main_v70 : Ref sig .tc := ⟨.hbm, 115, rfl⟩
abbrev main_cst_11 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_cst_12 : Ref sig .tc := ⟨.hbm, 130, rfl⟩
abbrev main_v84 : Ref sig .tc := ⟨.hbm, 131, rfl⟩
abbrev main_cst_13 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_cst_14 : Ref sig .tc := ⟨.hbm, 136, rfl⟩
abbrev main_v88 : Ref sig .tc := ⟨.hbm, 137, rfl⟩
abbrev main_v89 : Ref sig .tc := ⟨.hbm, 138, rfl⟩
abbrev main_cst_15 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_cst_16 : Ref sig .tc := ⟨.hbm, 143, rfl⟩
abbrev main_call2_v0 : Ref sig .tc := ⟨.hbm, 144, rfl⟩
abbrev main_call2_v1 : Ref sig .tc := ⟨.hbm, 145, rfl⟩
abbrev main_v93 : Ref sig .tc := ⟨.hbm, 146, rfl⟩
abbrev main_c_17 : Ref sig .tc := ⟨.hbm, 147, rfl⟩
abbrev main_v94 : Ref sig .tc := ⟨.hbm, 148, rfl⟩
abbrev main_v95 : Ref sig .tc := ⟨.hbm, 149, rfl⟩
abbrev main_c_18 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_c_19 : Ref sig .tc := ⟨.hbm, 156, rfl⟩
abbrev main_v101 : Ref sig .tc := ⟨.hbm, 157, rfl⟩
abbrev main_v102 : Ref sig .tc := ⟨.hbm, 158, rfl⟩
abbrev main_c_20 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩
abbrev main_v108 : Ref sig .tc := ⟨.hbm, 165, rfl⟩
abbrev main_v109 : Ref sig .tc := ⟨.hbm, 166, rfl⟩
abbrev main_c_21 : Ref sig .tc := ⟨.hbm, 167, rfl⟩
abbrev main_v110 : Ref sig .tc := ⟨.hbm, 168, rfl⟩
abbrev main_v111 : Ref sig .tc := ⟨.hbm, 169, rfl⟩
abbrev main_c_22 : Ref sig .tc := ⟨.hbm, 170, rfl⟩
abbrev main_v112 : Ref sig .tc := ⟨.hbm, 171, rfl⟩
abbrev main_v113 : Ref sig .tc := ⟨.hbm, 172, rfl⟩
abbrev main_v114 : Ref sig .tc := ⟨.hbm, 173, rfl⟩
abbrev main_v115 : Ref sig .tc := ⟨.hbm, 174, rfl⟩
abbrev main_v116 : Ref sig .tc := ⟨.hbm, 175, rfl⟩
abbrev main_v117 : Ref sig .tc := ⟨.hbm, 176, rfl⟩
abbrev main_v118 : Ref sig .tc := ⟨.hbm, 177, rfl⟩
abbrev main_cst_23 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_v122 : Ref sig .tc := ⟨.hbm, 182, rfl⟩
abbrev main_v123 : Ref sig .tc := ⟨.hbm, 183, rfl⟩
abbrev main_v124 : Ref sig .tc := ⟨.hbm, 184, rfl⟩
abbrev main_call3_cst : Ref sig .tc := ⟨.hbm, 185, rfl⟩
abbrev main_call3_v0 : Ref sig .tc := ⟨.hbm, 186, rfl⟩
abbrev main_v125 : Ref sig .tc := ⟨.hbm, 187, rfl⟩
abbrev main_cst_24 : Ref sig .tc := ⟨.hbm, 188, rfl⟩
abbrev main_v126 : Ref sig .tc := ⟨.hbm, 189, rfl⟩
abbrev main_v127 : Ref sig .tc := ⟨.hbm, 190, rfl⟩
abbrev main_v128 : Ref sig .tc := ⟨.hbm, 191, rfl⟩
abbrev main_cst_25 : Ref sig .tc := ⟨.hbm, 192, rfl⟩
abbrev main_v129 : Ref sig .tc := ⟨.hbm, 193, rfl⟩
abbrev main_cst_26 : Ref sig .tc := ⟨.hbm, 194, rfl⟩
abbrev main_v130 : Ref sig .tc := ⟨.hbm, 195, rfl⟩
abbrev main_v131 : Ref sig .tc := ⟨.hbm, 196, rfl⟩
abbrev main_v132 : Ref sig .tc := ⟨.hbm, 197, rfl⟩
abbrev main_cst_27 : Ref sig .tc := ⟨.hbm, 198, rfl⟩
abbrev main_v133 : Ref sig .tc := ⟨.hbm, 199, rfl⟩
abbrev main_v134 : Ref sig .tc := ⟨.hbm, 200, rfl⟩
abbrev main_v135 : Ref sig .tc := ⟨.hbm, 201, rfl⟩
abbrev main_v136 : Ref sig .tc := ⟨.hbm, 202, rfl⟩
abbrev main_v137 : Ref sig .tc := ⟨.hbm, 203, rfl⟩
abbrev main_cst_28 : Ref sig .tc := ⟨.hbm, 204, rfl⟩
abbrev main_v138 : Ref sig .tc := ⟨.hbm, 205, rfl⟩
abbrev main_v139 : Ref sig .tc := ⟨.hbm, 206, rfl⟩
abbrev main_v140 : Ref sig .tc := ⟨.hbm, 207, rfl⟩
abbrev main_v141 : Ref sig .tc := ⟨.hbm, 208, rfl⟩
abbrev main_v142 : Ref sig .tc := ⟨.hbm, 209, rfl⟩
abbrev main_v143 : Ref sig .tc := ⟨.hbm, 210, rfl⟩
abbrev main_v144 : Ref sig .tc := ⟨.hbm, 211, rfl⟩
abbrev main_v145 : Ref sig .tc := ⟨.hbm, 212, rfl⟩
abbrev main_v146 : Ref sig .tc := ⟨.hbm, 213, rfl⟩
abbrev main_v147 : Ref sig .tc := ⟨.hbm, 214, rfl⟩
abbrev main_v148 : Ref sig .tc := ⟨.hbm, 215, rfl⟩
abbrev main_v149 : Ref sig .tc := ⟨.hbm, 216, rfl⟩
abbrev main_v150 : Ref sig .tc := ⟨.hbm, 217, rfl⟩
abbrev main_cst_29 : Ref sig .tc := ⟨.hbm, 218, rfl⟩
abbrev main_v151 : Ref sig .tc := ⟨.hbm, 219, rfl⟩
abbrev main_cst_30 : Ref sig .tc := ⟨.hbm, 220, rfl⟩
abbrev main_v152 : Ref sig .tc := ⟨.hbm, 221, rfl⟩
abbrev main_v153 : Ref sig .tc := ⟨.hbm, 222, rfl⟩
abbrev main_v154 : Ref sig .tc := ⟨.hbm, 223, rfl⟩
abbrev main_cst_31 : Ref sig .tc := ⟨.hbm, 224, rfl⟩
abbrev main_v155 : Ref sig .tc := ⟨.hbm, 225, rfl⟩
abbrev main_v156 : Ref sig .tc := ⟨.hbm, 226, rfl⟩
abbrev main_cst_32 : Ref sig .tc := ⟨.hbm, 227, rfl⟩
abbrev main_v157 : Ref sig .tc := ⟨.hbm, 228, rfl⟩
abbrev main_v158 : Ref sig .tc := ⟨.hbm, 229, rfl⟩
abbrev main_v159 : Ref sig .tc := ⟨.hbm, 230, rfl⟩
abbrev main_cst_33 : Ref sig .tc := ⟨.hbm, 231, rfl⟩
abbrev main_call4_v0 : Ref sig .tc := ⟨.hbm, 232, rfl⟩
abbrev main_call4_v1 : Ref sig .tc := ⟨.hbm, 233, rfl⟩
abbrev main_v160 : Ref sig .tc := ⟨.hbm, 234, rfl⟩
abbrev main_c_34 : Ref sig .tc := ⟨.hbm, 235, rfl⟩
abbrev main_v161 : Ref sig .tc := ⟨.hbm, 236, rfl⟩
abbrev main_v162 : Ref sig .tc := ⟨.hbm, 237, rfl⟩
abbrev main_c_35 : Ref sig .tc := ⟨.hbm, 238, rfl⟩
abbrev main_v163 : Ref sig .tc := ⟨.hbm, 239, rfl⟩
abbrev main_v164 : Ref sig .tc := ⟨.hbm, 240, rfl⟩
abbrev main_v165 : Ref sig .tc := ⟨.hbm, 241, rfl⟩
abbrev main_v166 : Ref sig .tc := ⟨.hbm, 242, rfl⟩
abbrev main_v167 : Ref sig .tc := ⟨.hbm, 243, rfl⟩
abbrev main_c_36 : Ref sig .tc := ⟨.hbm, 244, rfl⟩
abbrev main_v168 : Ref sig .tc := ⟨.hbm, 245, rfl⟩
abbrev main_v169 : Ref sig .tc := ⟨.hbm, 246, rfl⟩
abbrev main_c_37 : Ref sig .tc := ⟨.hbm, 247, rfl⟩
abbrev main_v170 : Ref sig .tc := ⟨.hbm, 248, rfl⟩
abbrev main_v171 : Ref sig .tc := ⟨.hbm, 249, rfl⟩
abbrev main_v172 : Ref sig .tc := ⟨.hbm, 250, rfl⟩
abbrev main_v173 : Ref sig .tc := ⟨.hbm, 251, rfl⟩
abbrev main_v174 : Ref sig .tc := ⟨.hbm, 252, rfl⟩
abbrev main_v175 : Ref sig .tc := ⟨.hbm, 253, rfl⟩
abbrev main_v176 : Ref sig .tc := ⟨.hbm, 254, rfl⟩
abbrev main_c_38 : Ref sig .tc := ⟨.hbm, 255, rfl⟩
abbrev main_v177 : Ref sig .tc := ⟨.hbm, 256, rfl⟩
abbrev main_v178 : Ref sig .tc := ⟨.hbm, 257, rfl⟩
abbrev main_c_39 : Ref sig .tc := ⟨.hbm, 258, rfl⟩
abbrev main_v179 : Ref sig .tc := ⟨.hbm, 259, rfl⟩
abbrev main_v180 : Ref sig .tc := ⟨.hbm, 260, rfl⟩
abbrev main_v181 : Ref sig .tc := ⟨.hbm, 261, rfl⟩
abbrev main_v182 : Ref sig .tc := ⟨.hbm, 262, rfl⟩
abbrev main_v183 : Ref sig .tc := ⟨.hbm, 263, rfl⟩
abbrev main_v184 : Ref sig .tc := ⟨.hbm, 264, rfl⟩
abbrev main_v185 : Ref sig .tc := ⟨.hbm, 265, rfl⟩
abbrev main_cst_40 : Ref sig .tc := ⟨.hbm, 266, rfl⟩
abbrev main_v186 : Ref sig .tc := ⟨.hbm, 267, rfl⟩
abbrev main_v187 : Ref sig .tc := ⟨.hbm, 268, rfl⟩
abbrev main_v188 : Ref sig .tc := ⟨.hbm, 269, rfl⟩
abbrev main_v189 : Ref sig .tc := ⟨.hbm, 270, rfl⟩
abbrev main_v190 : Ref sig .tc := ⟨.hbm, 271, rfl⟩
abbrev main_v191 : Ref sig .tc := ⟨.hbm, 272, rfl⟩
abbrev main_call5_cst : Ref sig .tc := ⟨.hbm, 273, rfl⟩
abbrev main_call5_v0 : Ref sig .tc := ⟨.hbm, 274, rfl⟩
abbrev main_v192 : Ref sig .tc := ⟨.hbm, 275, rfl⟩
abbrev main_cst_41 : Ref sig .tc := ⟨.hbm, 276, rfl⟩
abbrev main_v193 : Ref sig .tc := ⟨.hbm, 277, rfl⟩
abbrev main_v194 : Ref sig .tc := ⟨.hbm, 278, rfl⟩
abbrev main_v195 : Ref sig .tc := ⟨.hbm, 279, rfl⟩
abbrev main_v196 : Ref sig .tc := ⟨.hbm, 280, rfl⟩
abbrev main_v197 : Ref sig .tc := ⟨.hbm, 281, rfl⟩
abbrev main_v198 : Ref sig .tc := ⟨.hbm, 282, rfl⟩
abbrev main_v199 : Ref sig .tc := ⟨.hbm, 283, rfl⟩
abbrev main_v200 : Ref sig .tc := ⟨.hbm, 284, rfl⟩
abbrev main_v201 : Ref sig .tc := ⟨.hbm, 285, rfl⟩
abbrev main_v202 : Ref sig .tc := ⟨.hbm, 286, rfl⟩
abbrev main_v203 : Ref sig .tc := ⟨.hbm, 287, rfl⟩
abbrev main_v204 : Ref sig .tc := ⟨.hbm, 288, rfl⟩
abbrev main_v205 : Ref sig .tc := ⟨.hbm, 289, rfl⟩
abbrev main_cst_42 : Ref sig .tc := ⟨.hbm, 290, rfl⟩
abbrev main_v206 : Ref sig .tc := ⟨.hbm, 291, rfl⟩
abbrev main_cst_43 : Ref sig .tc := ⟨.hbm, 292, rfl⟩
abbrev main_v207 : Ref sig .tc := ⟨.hbm, 293, rfl⟩
abbrev main_v208 : Ref sig .tc := ⟨.hbm, 294, rfl⟩
abbrev main_v209 : Ref sig .tc := ⟨.hbm, 295, rfl⟩
abbrev main_cst_44 : Ref sig .tc := ⟨.hbm, 296, rfl⟩
abbrev main_v210 : Ref sig .tc := ⟨.hbm, 297, rfl⟩
abbrev main_v211 : Ref sig .tc := ⟨.hbm, 298, rfl⟩
abbrev main_cst_45 : Ref sig .tc := ⟨.hbm, 299, rfl⟩
abbrev main_v212 : Ref sig .tc := ⟨.hbm, 300, rfl⟩
abbrev main_v213 : Ref sig .tc := ⟨.hbm, 301, rfl⟩
abbrev main_v214 : Ref sig .tc := ⟨.hbm, 302, rfl⟩
abbrev main_cst_46 : Ref sig .tc := ⟨.hbm, 303, rfl⟩
abbrev main_call6_v0 : Ref sig .tc := ⟨.hbm, 304, rfl⟩
abbrev main_call6_v1 : Ref sig .tc := ⟨.hbm, 305, rfl⟩
abbrev main_v215 : Ref sig .tc := ⟨.hbm, 306, rfl⟩
abbrev main_c_47 : Ref sig .tc := ⟨.hbm, 307, rfl⟩
abbrev main_v216 : Ref sig .tc := ⟨.hbm, 308, rfl⟩
abbrev main_v217 : Ref sig .tc := ⟨.hbm, 309, rfl⟩
abbrev main_c_48 : Ref sig .tc := ⟨.hbm, 310, rfl⟩
abbrev main_v218 : Ref sig .tc := ⟨.hbm, 311, rfl⟩
abbrev main_v219 : Ref sig .tc := ⟨.hbm, 312, rfl⟩
abbrev main_v220 : Ref sig .tc := ⟨.hbm, 313, rfl⟩
abbrev main_v221 : Ref sig .tc := ⟨.hbm, 314, rfl⟩
abbrev main_v222 : Ref sig .tc := ⟨.hbm, 315, rfl⟩
abbrev main_c_49 : Ref sig .tc := ⟨.hbm, 316, rfl⟩
abbrev main_v223 : Ref sig .tc := ⟨.hbm, 317, rfl⟩
abbrev main_v224 : Ref sig .tc := ⟨.hbm, 318, rfl⟩
abbrev main_c_50 : Ref sig .tc := ⟨.hbm, 319, rfl⟩
abbrev main_v225 : Ref sig .tc := ⟨.hbm, 320, rfl⟩
abbrev main_v226 : Ref sig .tc := ⟨.hbm, 321, rfl⟩
abbrev main_v227 : Ref sig .tc := ⟨.hbm, 322, rfl⟩
abbrev main_v228 : Ref sig .tc := ⟨.hbm, 323, rfl⟩
abbrev main_v229 : Ref sig .tc := ⟨.hbm, 324, rfl⟩
abbrev main_v230 : Ref sig .tc := ⟨.hbm, 325, rfl⟩
abbrev main_v231 : Ref sig .tc := ⟨.hbm, 326, rfl⟩
abbrev main_c_51 : Ref sig .tc := ⟨.hbm, 327, rfl⟩
abbrev main_v232 : Ref sig .tc := ⟨.hbm, 328, rfl⟩
abbrev main_v233 : Ref sig .tc := ⟨.hbm, 329, rfl⟩
abbrev main_c_52 : Ref sig .tc := ⟨.hbm, 330, rfl⟩
abbrev main_v234 : Ref sig .tc := ⟨.hbm, 331, rfl⟩
abbrev main_v235 : Ref sig .tc := ⟨.hbm, 332, rfl⟩
abbrev main_v236 : Ref sig .tc := ⟨.hbm, 333, rfl⟩
abbrev main_v237 : Ref sig .tc := ⟨.hbm, 334, rfl⟩
abbrev main_v238 : Ref sig .tc := ⟨.hbm, 335, rfl⟩
abbrev main_v239 : Ref sig .tc := ⟨.hbm, 336, rfl⟩
abbrev main_v240 : Ref sig .tc := ⟨.hbm, 337, rfl⟩
abbrev main_cst_53 : Ref sig .tc := ⟨.hbm, 338, rfl⟩
abbrev main_v241 : Ref sig .tc := ⟨.hbm, 339, rfl⟩
abbrev main_v242 : Ref sig .tc := ⟨.hbm, 340, rfl⟩
abbrev main_v243 : Ref sig .tc := ⟨.hbm, 341, rfl⟩
abbrev main_v244 : Ref sig .tc := ⟨.hbm, 342, rfl⟩
abbrev main_v245 : Ref sig .tc := ⟨.hbm, 343, rfl⟩
abbrev main_v246 : Ref sig .tc := ⟨.hbm, 344, rfl⟩
abbrev main_call7_cst : Ref sig .tc := ⟨.hbm, 345, rfl⟩
abbrev main_call7_v0 : Ref sig .tc := ⟨.hbm, 346, rfl⟩
abbrev main_v247 : Ref sig .tc := ⟨.hbm, 347, rfl⟩
abbrev main_cst_54 : Ref sig .tc := ⟨.hbm, 348, rfl⟩
abbrev main_v248 : Ref sig .tc := ⟨.hbm, 349, rfl⟩
abbrev main_v249 : Ref sig .tc := ⟨.hbm, 350, rfl⟩
abbrev main_v250 : Ref sig .tc := ⟨.hbm, 351, rfl⟩
abbrev main_cst_55 : Ref sig .tc := ⟨.hbm, 352, rfl⟩
abbrev main_v251 : Ref sig .tc := ⟨.hbm, 353, rfl⟩
abbrev main_cst_56 : Ref sig .tc := ⟨.hbm, 354, rfl⟩
abbrev main_v252 : Ref sig .tc := ⟨.hbm, 355, rfl⟩
abbrev main_v253 : Ref sig .tc := ⟨.hbm, 356, rfl⟩
abbrev main_v254 : Ref sig .tc := ⟨.hbm, 357, rfl⟩
abbrev main_cst_57 : Ref sig .tc := ⟨.hbm, 358, rfl⟩
abbrev main_v255 : Ref sig .tc := ⟨.hbm, 359, rfl⟩
abbrev main_v256 : Ref sig .tc := ⟨.hbm, 360, rfl⟩
abbrev main_v257 : Ref sig .tc := ⟨.hbm, 361, rfl⟩
abbrev main_v258 : Ref sig .tc := ⟨.hbm, 362, rfl⟩
abbrev main_v259 : Ref sig .tc := ⟨.hbm, 363, rfl⟩
abbrev main_v260 : Ref sig .tc := ⟨.hbm, 364, rfl⟩
abbrev main_v261 : Ref sig .tc := ⟨.hbm, 365, rfl⟩
abbrev main_v262 : Ref sig .tc := ⟨.hbm, 366, rfl⟩
abbrev main_v263 : Ref sig .tc := ⟨.hbm, 367, rfl⟩
abbrev main_v264 : Ref sig .tc := ⟨.hbm, 368, rfl⟩
abbrev main_v265 : Ref sig .tc := ⟨.hbm, 369, rfl⟩
abbrev main_v266 : Ref sig .tc := ⟨.hbm, 370, rfl⟩
abbrev main_v267 : Ref sig .tc := ⟨.hbm, 371, rfl⟩
abbrev main_v268 : Ref sig .tc := ⟨.hbm, 372, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc2_stg0_0 : Ref sig .tc := ⟨.vmem, 8, rfl⟩
abbrev cc2_stg1_0 : Ref sig .tc := ⟨.vmem, 9, rfl⟩
abbrev cc2_stg2_0 : Ref sig .tc := ⟨.vmem, 10, rfl⟩
abbrev cc2_stg3_0 : Ref sig .tc := ⟨.vmem, 11, rfl⟩
abbrev cc3_stg0_0 : Ref sig .tc := ⟨.vmem, 12, rfl⟩
abbrev cc3_stg1_0 : Ref sig .tc := ⟨.vmem, 13, rfl⟩
abbrev cc3_stg2_0 : Ref sig .tc := ⟨.vmem, 14, rfl⟩
abbrev cc3_stg3_0 : Ref sig .tc := ⟨.vmem, 15, rfl⟩
abbrev cc4_stg0_0 : Ref sig .tc := ⟨.vmem, 16, rfl⟩
abbrev cc4_stg0_1 : Ref sig .tc := ⟨.vmem, 17, rfl⟩
abbrev cc4_stg1_0 : Ref sig .tc := ⟨.vmem, 18, rfl⟩
abbrev cc4_stg2_0 : Ref sig .tc := ⟨.vmem, 19, rfl⟩
abbrev cc4_stg3_0 : Ref sig .tc := ⟨.vmem, 20, rfl⟩
abbrev cc4_stg3_1 : Ref sig .tc := ⟨.vmem, 21, rfl⟩
abbrev cc5_stg0_0 : Ref sig .tc := ⟨.vmem, 22, rfl⟩
abbrev cc5_stg0_1 : Ref sig .tc := ⟨.vmem, 23, rfl⟩
abbrev cc5_stg1_0 : Ref sig .tc := ⟨.vmem, 24, rfl⟩
abbrev cc5_stg2_0 : Ref sig .tc := ⟨.vmem, 25, rfl⟩
abbrev cc5_stg3_0 : Ref sig .tc := ⟨.vmem, 26, rfl⟩
abbrev cc5_stg3_1 : Ref sig .tc := ⟨.vmem, 27, rfl⟩
abbrev cc6_stg0_0 : Ref sig .tc := ⟨.vmem, 28, rfl⟩
abbrev cc6_stg1_0 : Ref sig .tc := ⟨.vmem, 29, rfl⟩
abbrev cc6_stg2_0 : Ref sig .tc := ⟨.vmem, 30, rfl⟩
abbrev cc6_stg3_0 : Ref sig .tc := ⟨.vmem, 31, rfl⟩
abbrev cc7_stg0_0 : Ref sig .tc := ⟨.vmem, 32, rfl⟩
abbrev cc7_stg1_0 : Ref sig .tc := ⟨.vmem, 33, rfl⟩
abbrev cc7_stg2_0 : Ref sig .tc := ⟨.vmem, 34, rfl⟩
abbrev cc7_stg3_0 : Ref sig .tc := ⟨.vmem, 35, rfl⟩
abbrev cc8_stg0_0 : Ref sig .tc := ⟨.vmem, 36, rfl⟩
abbrev cc8_stg1_0 : Ref sig .tc := ⟨.vmem, 37, rfl⟩
abbrev cc8_stg2_0 : Ref sig .tc := ⟨.vmem, 38, rfl⟩
abbrev cc8_stg3_0 : Ref sig .tc := ⟨.vmem, 39, rfl⟩
abbrev cc9_stg0_0 : Ref sig .tc := ⟨.vmem, 40, rfl⟩
abbrev cc9_stg1_0 : Ref sig .tc := ⟨.vmem, 41, rfl⟩
abbrev cc9_stg2_0 : Ref sig .tc := ⟨.vmem, 42, rfl⟩
abbrev cc9_stg3_0 : Ref sig .tc := ⟨.vmem, 43, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem1_0 : DmaSem sig := 5
abbrev cc1_sem2_0 : DmaSem sig := 6
abbrev cc1_sem3_0 : DmaSem sig := 7
abbrev cc2_sem0_0 : DmaSem sig := 8
abbrev cc2_sem1_0 : DmaSem sig := 9
abbrev cc2_sem2_0 : DmaSem sig := 10
abbrev cc2_sem3_0 : DmaSem sig := 11
abbrev cc3_sem0_0 : DmaSem sig := 12
abbrev cc3_sem1_0 : DmaSem sig := 13
abbrev cc3_sem2_0 : DmaSem sig := 14
abbrev cc3_sem3_0 : DmaSem sig := 15
abbrev cc4_sem0_0 : DmaSem sig := 16
abbrev cc4_sem0_1 : DmaSem sig := 17
abbrev cc4_sem1_0 : DmaSem sig := 18
abbrev cc4_sem2_0 : DmaSem sig := 19
abbrev cc4_sem3_0 : DmaSem sig := 20
abbrev cc4_sem3_1 : DmaSem sig := 21
abbrev cc5_sem0_0 : DmaSem sig := 22
abbrev cc5_sem0_1 : DmaSem sig := 23
abbrev cc5_sem1_0 : DmaSem sig := 24
abbrev cc5_sem2_0 : DmaSem sig := 25
abbrev cc5_sem3_0 : DmaSem sig := 26
abbrev cc5_sem3_1 : DmaSem sig := 27
abbrev cc6_sem0_0 : DmaSem sig := 28
abbrev cc6_sem1_0 : DmaSem sig := 29
abbrev cc6_sem2_0 : DmaSem sig := 30
abbrev cc6_sem3_0 : DmaSem sig := 31
abbrev cc7_sem0_0 : DmaSem sig := 32
abbrev cc7_sem1_0 : DmaSem sig := 33
abbrev cc7_sem2_0 : DmaSem sig := 34
abbrev cc7_sem3_0 : DmaSem sig := 35
abbrev cc8_sem0_0 : DmaSem sig := 36
abbrev cc8_sem1_0 : DmaSem sig := 37
abbrev cc8_sem2_0 : DmaSem sig := 38
abbrev cc8_sem3_0 : DmaSem sig := 39
abbrev cc9_sem0_0 : DmaSem sig := 40
abbrev cc9_sem1_0 : DmaSem sig := 41
abbrev cc9_sem2_0 : DmaSem sig := 42
abbrev cc9_sem3_0 : DmaSem sig := 43

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S64x18640 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S18640x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S64x128 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S128x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S64x21 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S21x64 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 1 → Memref sig .tc .vmem S64x64 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true]

abbrev stage3_1 : Fin 1 → Memref sig .tc .vmem S64x64 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x9 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S9x128 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S4000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x128 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S4000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 1 → Memref sig .tc .vmem S4096x9 .bf16 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true]

abbrev stage6_1 : Fin 1 → Memref sig .tc .vmem S9x128 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S4096x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![true]

abbrev grid7 : Pipeline.Grid := ⟨1, ![1], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 1 → Memref sig .tc .vmem S4096x128 .bf16 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![true]

abbrev stage7_1 : Fin 1 → Memref sig .tc .vmem S128x128 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S4096x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![true]

abbrev grid8 : Pipeline.Grid := ⟨1, ![1], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 1 → Memref sig .tc .vmem S64x448 .bf16 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![true]

abbrev stage8_1 : Fin 1 → Memref sig .tc .vmem S448x128 .bf16 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S64x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![true]

abbrev grid9 : Pipeline.Grid := ⟨1, ![1], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 1 → Memref sig .tc .vmem S64x128 .bf16 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![true]

abbrev stage9_1 : Fin 1 → Memref sig .tc .vmem S128x2 .bf16 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x2 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S64x2 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![true]

class Facts₀ : Prop where
  bitsLt_bf16_f32 : FTy.bits .bf16 < FTy.bits .f32
  shapeCasts_S128_S1x128 : S128.ShapeCasts S1x128
  inb_S64x18640_S64x18640_0_0 : ∀ a, (![0, 0] : Fin 2 → Nat) a + S64x18640.size a ≤ S64x18640.size a
  h_S64x18640 : 0 < S64x18640.numel
  shapeCasts_S64x18640_S64x18640 : S64x18640.ShapeCasts S64x18640
  inb_S18640x128_S18640x128_0_0 : ∀ a, (![0, 0] : Fin 2 → Nat) a + S18640x128.size a ≤ S18640x128.size a
  h_S18640x128 : 0 < S18640x128.numel
  shapeCasts_S18640x128_S18640x128 : S18640x128.ShapeCasts S18640x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S64x128 : S1x128.Broadcasts S64x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S64_S1x64 : S64.ShapeCasts S1x64
  inb_S64x21_S64x21_0_0 : ∀ a, (![0, 0] : Fin 2 → Nat) a + S64x21.size a ≤ S64x21.size a
  h_S64x21 : 0 < S64x21.numel
  shapeCasts_S64x21_S64x21 : S64x21.ShapeCasts S64x21
  inb_S21x64_S21x64_0_0 : ∀ a, (![0, 0] : Fin 2 → Nat) a + S21x64.size a ≤ S21x64.size a
  h_S21x64 : 0 < S21x64.numel
  shapeCasts_S21x64_S21x64 : S21x64.ShapeCasts S21x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S64x64 : S1x64.Broadcasts S64x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bcast_S_S128 : S_.BroadcastsInDim S128 (![] : Fin 0 → Fin S128.rank)
  inb_S4000x9_S4000x9_0_0 : ∀ a, (![0, 0] : Fin 2 → Nat) a + S4000x9.size a ≤ S4000x9.size a
  h_S4000x9 : 0 < S4000x9.numel
  shapeCasts_S4000x9_S4000x9 : S4000x9.ShapeCasts S4000x9
  inb_S9x128_S9x128_0_0 : ∀ a, (![0, 0] : Fin 2 → Nat) a + S9x128.size a ≤ S9x128.size a
  h_S9x128 : 0 < S9x128.numel
  shapeCasts_S9x128_S9x128 : S9x128.ShapeCasts S9x128
  broadcasts_S1x128_S4000x128 : S1x128.Broadcasts S4000x128
  inb_S4000x128_S4000x128_0_0 : ∀ a, (![0, 0] : Fin 2 → Nat) a + S4000x128.size a ≤ S4000x128.size a
  h_S4000x128 : 0 < S4000x128.numel
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S4000x128_S4000x128 : S4000x128.ShapeCasts S4000x128
  bcast_S_S64x128 : S_.BroadcastsInDim S64x128 (![] : Fin 0 → Fin S64x128.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  inb_S4096x9_S4096x9_0_0 : ∀ a, (![0, 0] : Fin 2 → Nat) a + S4096x9.size a ≤ S4096x9.size a
  h_S4096x9 : 0 < S4096x9.numel
  shapeCasts_S4096x9_S4096x9 : S4096x9.ShapeCasts S4096x9
  broadcasts_S1x128_S4096x128 : S1x128.Broadcasts S4096x128
  inb_S4096x128_S4096x128_0_0 : ∀ a, (![0, 0] : Fin 2 → Nat) a + S4096x128.size a ≤ S4096x128.size a
  h_S4096x128 : 0 < S4096x128.numel
  slices_S2x16384_S1x16384_0_0 : S2x16384.Slices ![0, 0] S1x16384
  shapeCasts_S1x16384_S16384 : S1x16384.ShapeCasts S16384
  concatenates_S16384_S4096_S20480_d0 : Shape.Concatenates [S16384, S4096] S20480 0
  slices_S2x16384_S1x16384_1_0 : S2x16384.Slices ![1, 0] S1x16384
  bcast_S_S20480 : S_.BroadcastsInDim S20480 (![] : Fin 0 → Fin S20480.rank)
  bcast_S_S4096 : S_.BroadcastsInDim S4096 (![] : Fin 0 → Fin S4096.rank)
  bcast_S20480_S20480x1_0 : S20480.BroadcastsInDim S20480x1 (![0] : Fin 1 → Fin S20480x1.rank)
  bcast_S20480x1_S20480x128_0_1 : S20480x1.BroadcastsInDim S20480x128 (![0, 1] : Fin 2 → Fin S20480x128.rank)
  bcast_S_S4096x128 : S_.BroadcastsInDim S4096x128 (![] : Fin 0 → Fin S4096x128.rank)
  bcast_S1x128_S4096x128_0_1 : S1x128.BroadcastsInDim S4096x128 (![0, 1] : Fin 2 → Fin S4096x128.rank)
  shapeCasts_S4096x128_S4096x128 : S4096x128.ShapeCasts S4096x128
  bcast_S4096_S4096x1_0 : S4096.BroadcastsInDim S4096x1 (![0] : Fin 1 → Fin S4096x1.rank)
  concatenates_S64x128_S64x64_S64x128_S64x128_S64x448_d1 : Shape.Concatenates [S64x128, S64x64, S64x128, S64x128] S64x448 1
  inb_S64x448_S64x448_0_0 : ∀ a, (![0, 0] : Fin 2 → Nat) a + S64x448.size a ≤ S64x448.size a
  h_S64x448 : 0 < S64x448.numel
  shapeCasts_S64x448_S64x448 : S64x448.ShapeCasts S64x448
  inb_S448x128_S448x128_0_0 : ∀ a, (![0, 0] : Fin 2 → Nat) a + S448x128.size a ≤ S448x128.size a
  h_S448x128 : 0 < S448x128.numel
  shapeCasts_S448x128_S448x128 : S448x128.ShapeCasts S448x128
  shapeCasts_S2_S1x2 : S2.ShapeCasts S1x2
  inb_S128x2_S128x2_0_0 : ∀ a, (![0, 0] : Fin 2 → Nat) a + S128x2.size a ≤ S128x2.size a
  h_S128x2 : 0 < S128x2.numel
  shapeCasts_S128x2_S128x2 : S128x2.ShapeCasts S128x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S64x2 : S1x2.Broadcasts S64x2
  inb_S64x2_S64x2_0_0 : ∀ a, (![0, 0] : Fin 2 → Nat) a + S64x2.size a ≤ S64x2.size a
  h_S64x2 : 0 < S64x2.numel
  dot_S64x18640_S18640x128_S64x128_1_0_0_1_n_n_wf : DotDims.WF S64x18640 S18640x128 S64x128 [1] [0] [0] [1] [] []
  dot_S64x128_S128x128_S64x128_1_0_0_1_n_n_wf : DotDims.WF S64x128 S128x128 S64x128 [1] [0] [0] [1] [] []
  dot_S64x21_S21x64_S64x64_1_0_0_1_n_n_wf : DotDims.WF S64x21 S21x64 S64x64 [1] [0] [0] [1] [] []
  dot_S64x64_S64x64_S64x64_1_0_0_1_n_n_wf : DotDims.WF S64x64 S64x64 S64x64 [1] [0] [0] [1] [] []
  dot_S4000x9_S9x128_S4000x128_1_0_0_1_n_n_wf : DotDims.WF S4000x9 S9x128 S4000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S4000x128_S128x128_S4000x128_1_0_0_1_n_n_wf : DotDims.WF S4000x128 S128x128 S4000x128 [1] [0] [0] [1] [] []
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1
  dot_S4096x9_S9x128_S4096x128_1_0_0_1_n_n_wf : DotDims.WF S4096x9 S9x128 S4096x128 [1] [0] [0] [1] [] []
  scatter_S4096_S20480x1_S20480_n_0_0_1_wf : ScatterDims.WF S4096 S20480x1 S20480 [] [0] [0] 1
  gather_S4096_S20480x1_S20480_n_0_n_n_0_1_1_wf : GatherDims.WF S4096 S20480x1 S20480 [] [0] [] [0] [] 1 ![1]
  gather_S4096x128_S20480x1_S20480x128_1_0_n_n_0_1_1128_wf : GatherDims.WF S4096x128 S20480x1 S20480x128 [1] [0] [] [0] [] 1 ![1, 128]
  scatter_S4096x128_S20480x1_S20480x128_1_0_0_1_wf : ScatterDims.WF S4096x128 S20480x1 S20480x128 [1] [0] [0] 1
  dot_S4096x128_S128x128_S4096x128_1_0_0_1_n_n_wf : DotDims.WF S4096x128 S128x128 S4096x128 [1] [0] [0] [1] [] []
  scatter_S64x128_S4096x1_S4096x128_1_0_0_1_wf : ScatterDims.WF S64x128 S4096x1 S4096x128 [1] [0] [0] 1
  scatter_S64_S4096x1_S4096_n_0_0_1_wf : ScatterDims.WF S64 S4096x1 S4096 [] [0] [0] 1
  dot_S64x448_S448x128_S64x128_1_0_0_1_n_n_wf : DotDims.WF S64x448 S448x128 S64x128 [1] [0] [0] [1] [] []
  dot_S64x128_S128x2_S64x2_1_0_0_1_n_n_wf : DotDims.WF S64x128 S128x2 S64x2 [1] [0] [0] [1] [] []
  hrank0 : 0 < grid0.rank
  hstage0_0 : ∀ j, (stage0_0 j).IsWhole
  nbuf0_0 : grid0.bufCount reads0_0 false = 1
  hreads0_0 : ∀ i i' : grid0.Coords, (∀ a, reads0_0 a = true → i a = i' a) → cc0_transform_0 i = cc0_transform_0 i'
  hinb0_0 : ∀ (i : grid0.Coords) a, (cc0_transform_0 i a + 1) * S64x18640.size a ≤ S64x18640.size a
  hwx0_0 : ∀ i : grid0.Coords, EltTy.bits .bf16 = 32 ∨ (Rect.block (s := S64x18640) S64x18640.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S18640x128.size a ≤ S18640x128.size a
  hwx0_1 : ∀ i : grid0.Coords, EltTy.bits .bf16 = 32 ∨ (Rect.block (s := S18640x128) S18640x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hrank1 : 0 < grid1.rank
  hstage1_0 : ∀ j, (stage1_0 j).IsWhole
  nbuf1_0 : grid1.bufCount reads1_0 false = 1
  hreads1_0 : ∀ i i' : grid1.Coords, (∀ a, reads1_0 a = true → i a = i' a) → cc1_transform_0 i = cc1_transform_0 i'
  hinb1_0 : ∀ (i : grid1.Coords) a, (cc1_transform_0 i a + 1) * S64x128.size a ≤ S64x128.size a
  hwx1_0 : ∀ i : grid1.Coords, EltTy.bits .bf16 = 32 ∨ (Rect.block (s := S64x128) S64x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .bf16 = 32 ∨ (Rect.block (s := S128x128) S128x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 1
  hreads1_3 : ∀ i i' : grid1.Coords, (∀ a, reads1_3 a = true → i a = i' a) → cc1_transform_3 i = cc1_transform_3 i'
  hinb1_3 : ∀ (i : grid1.Coords) a, (cc1_transform_3 i a + 1) * S64x128.size a ≤ S64x128.size a
  hwx1_3 : ∀ i : grid1.Coords, EltTy.bits .f32 = 32 ∨ (Rect.block (s := S64x128) S64x128.size (cc1_transform_3 i) (hinb1_3 i)).WholeWords (EltTy.packing .f32)
  hrank2 : 0 < grid2.rank
  hstage2_0 : ∀ j, (stage2_0 j).IsWhole
  nbuf2_0 : grid2.bufCount reads2_0 false = 1
  hreads2_0 : ∀ i i' : grid2.Coords, (∀ a, reads2_0 a = true → i a = i' a) → cc2_transform_0 i = cc2_transform_0 i'
  hinb2_0 : ∀ (i : grid2.Coords) a, (cc2_transform_0 i a + 1) * S64x21.size a ≤ S64x21.size a
  hwx2_0 : ∀ i : grid2.Coords, EltTy.bits .bf16 = 32 ∨ (Rect.block (s := S64x21) S64x21.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S21x64.size a ≤ S21x64.size a
  hwx2_1 : ∀ i : grid2.Coords, EltTy.bits .bf16 = 32 ∨ (Rect.block (s := S21x64) S21x64.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hrank3 : 0 < grid3.rank
  hstage3_0 : ∀ j, (stage3_0 j).IsWhole
  nbuf3_0 : grid3.bufCount reads3_0 false = 1
  hreads3_0 : ∀ i i' : grid3.Coords, (∀ a, reads3_0 a = true → i a = i' a) → cc3_transform_0 i = cc3_transform_0 i'
  hinb3_0 : ∀ (i : grid3.Coords) a, (cc3_transform_0 i a + 1) * S64x64.size a ≤ S64x64.size a
  hwx3_0 : ∀ i : grid3.Coords, EltTy.bits .bf16 = 32 ∨ (Rect.block (s := S64x64) S64x64.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .bf16 = 32 ∨ (Rect.block (s := S64x64) S64x64.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x9.size a ≤ S100000x9.size a
  hwx4_0 : ∀ i : grid4.Coords, EltTy.bits .bf16 = 32 ∨ (Rect.block (s := S100000x9) S4000x9.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S9x128.size a ≤ S9x128.size a
  hwx4_1 : ∀ i : grid4.Coords, EltTy.bits .bf16 = 32 ∨ (Rect.block (s := S9x128) S9x128.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S4000x128.size a ≤ S100000x128.size a
  hwx4_3 : ∀ i : grid4.Coords, EltTy.bits .f32 = 32 ∨ (Rect.block (s := S100000x128) S4000x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x128.size a ≤ S100000x128.size a
  hwx5_0 : ∀ i : grid5.Coords, EltTy.bits .bf16 = 32 ∨ (Rect.block (s := S100000x128) S4000x128.size (cc5_transform_0 i) (hinb5_0 i)).WholeWords (EltTy.packing .bf16)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .bf16 = 32 ∨ (Rect.block (s := S128x128) S128x128.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S4000x128.size a ≤ S100000x128.size a
  hwx5_3 : ∀ i : grid5.Coords, EltTy.bits .f32 = 32 ∨ (Rect.block (s := S100000x128) S4000x128.size (cc5_transform_3 i) (hinb5_3 i)).WholeWords (EltTy.packing .f32)
  hrank6 : 0 < grid6.rank
  hstage6_0 : ∀ j, (stage6_0 j).IsWhole
  nbuf6_0 : grid6.bufCount reads6_0 false = 1
  hreads6_0 : ∀ i i' : grid6.Coords, (∀ a, reads6_0 a = true → i a = i' a) → cc6_transform_0 i = cc6_transform_0 i'
  hinb6_0 : ∀ (i : grid6.Coords) a, (cc6_transform_0 i a + 1) * S4096x9.size a ≤ S4096x9.size a
  hwx6_0 : ∀ i : grid6.Coords, EltTy.bits .bf16 = 32 ∨ (Rect.block (s := S4096x9) S4096x9.size (cc6_transform_0 i) (hinb6_0 i)).WholeWords (EltTy.packing .bf16)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S9x128.size a ≤ S9x128.size a
  hwx6_1 : ∀ i : grid6.Coords, EltTy.bits .bf16 = 32 ∨ (Rect.block (s := S9x128) S9x128.size (cc6_transform_1 i) (hinb6_1 i)).WholeWords (EltTy.packing .bf16)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 false = 1
  hreads6_3 : ∀ i i' : grid6.Coords, (∀ a, reads6_3 a = true → i a = i' a) → cc6_transform_3 i = cc6_transform_3 i'
  hinb6_3 : ∀ (i : grid6.Coords) a, (cc6_transform_3 i a + 1) * S4096x128.size a ≤ S4096x128.size a
  hwx6_3 : ∀ i : grid6.Coords, EltTy.bits .f32 = 32 ∨ (Rect.block (s := S4096x128) S4096x128.size (cc6_transform_3 i) (hinb6_3 i)).WholeWords (EltTy.packing .f32)
  hrank7 : 0 < grid7.rank
  hstage7_0 : ∀ j, (stage7_0 j).IsWhole
  nbuf7_0 : grid7.bufCount reads7_0 false = 1
  hreads7_0 : ∀ i i' : grid7.Coords, (∀ a, reads7_0 a = true → i a = i' a) → cc7_transform_0 i = cc7_transform_0 i'
  hinb7_0 : ∀ (i : grid7.Coords) a, (cc7_transform_0 i a + 1) * S4096x128.size a ≤ S4096x128.size a
  hwx7_0 : ∀ i : grid7.Coords, EltTy.bits .bf16 = 32 ∨ (Rect.block (s := S4096x128) S4096x128.size (cc7_transform_0 i) (hinb7_0 i)).WholeWords (EltTy.packing .bf16)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x128.size a ≤ S128x128.size a
  hwx7_1 : ∀ i : grid7.Coords, EltTy.bits .bf16 = 32 ∨ (Rect.block (s := S128x128) S128x128.size (cc7_transform_1 i) (hinb7_1 i)).WholeWords (EltTy.packing .bf16)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 false = 1
  hreads7_3 : ∀ i i' : grid7.Coords, (∀ a, reads7_3 a = true → i a = i' a) → cc7_transform_3 i = cc7_transform_3 i'
  hinb7_3 : ∀ (i : grid7.Coords) a, (cc7_transform_3 i a + 1) * S4096x128.size a ≤ S4096x128.size a
  hwx7_3 : ∀ i : grid7.Coords, EltTy.bits .f32 = 32 ∨ (Rect.block (s := S4096x128) S4096x128.size (cc7_transform_3 i) (hinb7_3 i)).WholeWords (EltTy.packing .f32)
  hrank8 : 0 < grid8.rank
  hstage8_0 : ∀ j, (stage8_0 j).IsWhole
  nbuf8_0 : grid8.bufCount reads8_0 false = 1
  hreads8_0 : ∀ i i' : grid8.Coords, (∀ a, reads8_0 a = true → i a = i' a) → cc8_transform_0 i = cc8_transform_0 i'
  hinb8_0 : ∀ (i : grid8.Coords) a, (cc8_transform_0 i a + 1) * S64x448.size a ≤ S64x448.size a
  hwx8_0 : ∀ i : grid8.Coords, EltTy.bits .bf16 = 32 ∨ (Rect.block (s := S64x448) S64x448.size (cc8_transform_0 i) (hinb8_0 i)).WholeWords (EltTy.packing .bf16)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S448x128.size a ≤ S448x128.size a
  hwx8_1 : ∀ i : grid8.Coords, EltTy.bits .bf16 = 32 ∨ (Rect.block (s := S448x128) S448x128.size (cc8_transform_1 i) (hinb8_1 i)).WholeWords (EltTy.packing .bf16)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 false = 1
  hreads8_3 : ∀ i i' : grid8.Coords, (∀ a, reads8_3 a = true → i a = i' a) → cc8_transform_3 i = cc8_transform_3 i'
  hinb8_3 : ∀ (i : grid8.Coords) a, (cc8_transform_3 i a + 1) * S64x128.size a ≤ S64x128.size a
  hwx8_3 : ∀ i : grid8.Coords, EltTy.bits .f32 = 32 ∨ (Rect.block (s := S64x128) S64x128.size (cc8_transform_3 i) (hinb8_3 i)).WholeWords (EltTy.packing .f32)
  hrank9 : 0 < grid9.rank
  hstage9_0 : ∀ j, (stage9_0 j).IsWhole
  nbuf9_0 : grid9.bufCount reads9_0 false = 1
  hreads9_0 : ∀ i i' : grid9.Coords, (∀ a, reads9_0 a = true → i a = i' a) → cc9_transform_0 i = cc9_transform_0 i'
  hinb9_0 : ∀ (i : grid9.Coords) a, (cc9_transform_0 i a + 1) * S64x128.size a ≤ S64x128.size a
  hwx9_0 : ∀ i : grid9.Coords, EltTy.bits .bf16 = 32 ∨ (Rect.block (s := S64x128) S64x128.size (cc9_transform_0 i) (hinb9_0 i)).WholeWords (EltTy.packing .bf16)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S128x2.size a ≤ S128x2.size a
  hwx9_1 : ∀ i : grid9.Coords, EltTy.bits .bf16 = 32 ∨ (Rect.block (s := S128x2) S128x2.size (cc9_transform_1 i) (hinb9_1 i)).WholeWords (EltTy.packing .bf16)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x2.size a ≤ S1x2.size a
  hwx9_2 : ∀ i : grid9.Coords, EltTy.bits .f32 = 32 ∨ (Rect.block (s := S1x2) S1x2.size (cc9_transform_2 i) (hinb9_2 i)).WholeWords (EltTy.packing .f32)
  hstage9_3 : ∀ j, (stage9_3 j).IsWhole
  nbuf9_3 : grid9.bufCount reads9_3 false = 1
  hreads9_3 : ∀ i i' : grid9.Coords, (∀ a, reads9_3 a = true → i a = i' a) → cc9_transform_3 i = cc9_transform_3 i'
  hinb9_3 : ∀ (i : grid9.Coords) a, (cc9_transform_3 i a + 1) * S64x2.size a ≤ S64x2.size a
  hwx9_3 : ∀ i : grid9.Coords, EltTy.bits .f32 = 32 ∨ (Rect.block (s := S64x2) S64x2.size (cc9_transform_3 i) (hinb9_3 i)).WholeWords (EltTy.packing .f32)

variable [Facts₀]

def dot_S64x18640_S18640x128_S64x128_1_0_0_1_n_n : DotDims S64x18640 S18640x128 S64x128 where
  lhsContracting := [1]
  rhsContracting := [0]
  lhsNonContracting := [0]
  rhsNonContracting := [1]
  lhsBatch := []
  rhsBatch := []
  wf := dot_S64x18640_S18640x128_S64x128_1_0_0_1_n_n_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S64x21_S21x64_S64x64_1_0_0_1_n_n : DotDims S64x21 S21x64 S64x64 where
  lhsContracting := [1]
  rhsContracting := [0]
  lhsNonContracting := [0]
  rhsNonContracting := [1]
  lhsBatch := []
  rhsBatch := []
  wf := dot_S64x21_S21x64_S64x64_1_0_0_1_n_n_wf
def dot_S64x64_S64x64_S64x64_1_0_0_1_n_n : DotDims S64x64 S64x64 S64x64 where
  lhsContracting := [1]
  rhsContracting := [0]
  lhsNonContracting := [0]
  rhsNonContracting := [1]
  lhsBatch := []
  rhsBatch := []
  wf := dot_S64x64_S64x64_S64x64_1_0_0_1_n_n_wf
def dot_S4000x9_S9x128_S4000x128_1_0_0_1_n_n : DotDims S4000x9 S9x128 S4000x128 where
  lhsContracting := [1]
  rhsContracting := [0]
  lhsNonContracting := [0]
  rhsNonContracting := [1]
  lhsBatch := []
  rhsBatch := []
  wf := dot_S4000x9_S9x128_S4000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S4096x9_S9x128_S4096x128_1_0_0_1_n_n : DotDims S4096x9 S9x128 S4096x128 where
  lhsContracting := [1]
  rhsContracting := [0]
  lhsNonContracting := [0]
  rhsNonContracting := [1]
  lhsBatch := []
  rhsBatch := []
  wf := dot_S4096x9_S9x128_S4096x128_1_0_0_1_n_n_wf
def scatter_S4096_S20480x1_S20480_n_0_0_1 : ScatterDims S4096 S20480x1 S20480 where
  updateWindowDims := []
  insertedWindowDims := [0]
  scatterDimsToOperandDims := [0]
  indexVectorDim := 1
  wf := scatter_S4096_S20480x1_S20480_n_0_0_1_wf
def gather_S4096_S20480x1_S20480_n_0_n_n_0_1_1 : GatherDims S4096 S20480x1 S20480 where
  offsetDims := []
  collapsedSliceDims := [0]
  operandBatchingDims := []
  startIndicesBatchingDims := []
  startIndexMap := [0]
  indexVectorDim := 1
  sliceSizes := ![1]
  wf := gather_S4096_S20480x1_S20480_n_0_n_n_0_1_1_wf
def gather_S4096x128_S20480x1_S20480x128_1_0_n_n_0_1_1128 : GatherDims S4096x128 S20480x1 S20480x128 where
  offsetDims := [1]
  collapsedSliceDims := [0]
  operandBatchingDims := []
  startIndicesBatchingDims := []
  startIndexMap := [0]
  indexVectorDim := 1
  sliceSizes := ![1, 128]
  wf := gather_S4096x128_S20480x1_S20480x128_1_0_n_n_0_1_1128_wf
def scatter_S4096x128_S20480x1_S20480x128_1_0_0_1 : ScatterDims S4096x128 S20480x1 S20480x128 where
  updateWindowDims := [1]
  insertedWindowDims := [0]
  scatterDimsToOperandDims := [0]
  indexVectorDim := 1
  wf := scatter_S4096x128_S20480x1_S20480x128_1_0_0_1_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def scatter_S64x128_S4096x1_S4096x128_1_0_0_1 : ScatterDims S64x128 S4096x1 S4096x128 where
  updateWindowDims := [1]
  insertedWindowDims := [0]
  scatterDimsToOperandDims := [0]
  indexVectorDim := 1
  wf := scatter_S64x128_S4096x1_S4096x128_1_0_0_1_wf
def scatter_S64_S4096x1_S4096_n_0_0_1 : ScatterDims S64 S4096x1 S4096 where
  updateWindowDims := []
  insertedWindowDims := [0]
  scatterDimsToOperandDims := [0]
  indexVectorDim := 1
  wf := scatter_S64_S4096x1_S4096_n_0_0_1_wf
def dot_S64x448_S448x128_S64x128_1_0_0_1_n_n : DotDims S64x448 S448x128 S64x128 where
  lhsContracting := [1]
  rhsContracting := [0]
  lhsNonContracting := [0]
  rhsNonContracting := [1]
  lhsBatch := []
  rhsBatch := []
  wf := dot_S64x448_S448x128_S64x128_1_0_0_1_n_n_wf
def dot_S64x128_S128x2_S64x2_1_0_0_1_n_n : DotDims S64x128 S128x2 S64x2 where
  lhsContracting := [1]
  rhsContracting := [0]
  lhsNonContracting := [0]
  rhsNonContracting := [1]
  lhsBatch := []
  rhsBatch := []
  wf := dot_S64x128_S128x2_S64x2_1_0_0_1_n_n_wf

abbrev win0_0 : Pipeline.Window sig grid0 :=
  Pipeline.Window.ofSpec (Memref.whole main_v0) S64x18640.size cc0_transform_0 reads0_0 false false 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S18640x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S64x128.size cc0_transform_3 reads0_3 true false 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v4) S64x128.size cc1_transform_0 reads1_0 false false 1 stage1_0 sem1_0
    hrank1 hreads1_0 hinb1_0 nbuf1_0 (Memref.isWhole_whole _) hwx1_0 hstage1_0

abbrev win1_1 : Pipeline.Window sig grid1 :=
  Pipeline.Window.ofSpec (Memref.whole main_v5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S64x128.size cc1_transform_3 reads1_3 true false 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v8) S64x21.size cc2_transform_0 reads2_0 false false 1 stage2_0 sem2_0
    hrank2 hreads2_0 hinb2_0 nbuf2_0 (Memref.isWhole_whole _) hwx2_0 hstage2_0

abbrev win2_1 : Pipeline.Window sig grid2 :=
  Pipeline.Window.ofSpec (Memref.whole main_v9) S21x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v10) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v11) S64x64.size cc2_transform_3 reads2_3 true false 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v12) S64x64.size cc3_transform_0 reads3_0 false false 1 stage3_0 sem3_0
    hrank3 hreads3_0 hinb3_0 nbuf3_0 (Memref.isWhole_whole _) hwx3_0 hstage3_0

abbrev win3_1 : Pipeline.Window sig grid3 :=
  Pipeline.Window.ofSpec (Memref.whole main_v13) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v14) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v15) S64x64.size cc3_transform_3 reads3_3 true false 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v17) S4000x9.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v18) S9x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v19) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v20) S4000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v72) S4000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v73) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v74) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v75) S4000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v139) S4096x9.size cc6_transform_0 reads6_0 false false 1 stage6_0 sem6_0
    hrank6 hreads6_0 hinb6_0 nbuf6_0 (Memref.isWhole_whole _) hwx6_0 hstage6_0

abbrev win6_1 : Pipeline.Window sig grid6 :=
  Pipeline.Window.ofSpec (Memref.whole main_v140) S9x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v141) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v142) S4096x128.size cc6_transform_3 reads6_3 true false 1 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v194) S4096x128.size cc7_transform_0 reads7_0 false false 1 stage7_0 sem7_0
    hrank7 hreads7_0 hinb7_0 nbuf7_0 (Memref.isWhole_whole _) hwx7_0 hstage7_0

abbrev win7_1 : Pipeline.Window sig grid7 :=
  Pipeline.Window.ofSpec (Memref.whole main_v195) S128x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v196) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v197) S4096x128.size cc7_transform_3 reads7_3 true false 1 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v261) S64x448.size cc8_transform_0 reads8_0 false false 1 stage8_0 sem8_0
    hrank8 hreads8_0 hinb8_0 nbuf8_0 (Memref.isWhole_whole _) hwx8_0 hstage8_0

abbrev win8_1 : Pipeline.Window sig grid8 :=
  Pipeline.Window.ofSpec (Memref.whole main_v262) S448x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v263) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v264) S64x128.size cc8_transform_3 reads8_3 true false 1 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev win9_0 : Pipeline.Window sig grid9 :=
  Pipeline.Window.ofSpec (Memref.whole main_v265) S64x128.size cc9_transform_0 reads9_0 false false 1 stage9_0 sem9_0
    hrank9 hreads9_0 hinb9_0 nbuf9_0 (Memref.isWhole_whole _) hwx9_0 hstage9_0

abbrev win9_1 : Pipeline.Window sig grid9 :=
  Pipeline.Window.ofSpec (Memref.whole main_v266) S128x2.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v267) S1x2.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v268) S64x2.size cc9_transform_3 reads9_3 true false 1 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

class Facts : Prop extends Facts₀ where

variable [Facts]
-- ==== ReferenceIdeal.lean ====
abbrev S64x18640 : Shape := ⟨2, ![64, 18640]⟩
abbrev S64x21 : Shape := ⟨2, ![64, 21]⟩
abbrev S100000x9 : Shape := ⟨2, ![100000, 9]⟩
abbrev S4096x9 : Shape := ⟨2, ![4096, 9]⟩
abbrev S2x1600000 : Shape := ⟨2, ![2, 1600000]⟩
abbrev S100000 : Shape := ⟨1, ![100000]⟩
abbrev S2x16384 : Shape := ⟨2, ![2, 16384]⟩
abbrev S4096 : Shape := ⟨1, ![4096]⟩
abbrev S18640x128 : Shape := ⟨2, ![18640, 128]⟩
abbrev S128 : Shape := ⟨1, ![128]⟩
abbrev S128x128 : Shape := ⟨2, ![128, 128]⟩
abbrev S21x64 : Shape := ⟨2, ![21, 64]⟩
abbrev S64 : Shape := ⟨1, ![64]⟩
abbrev S64x64 : Shape := ⟨2, ![64, 64]⟩
abbrev S9x128 : Shape := ⟨2, ![9, 128]⟩
abbrev S448x128 : Shape := ⟨2, ![448, 128]⟩
abbrev S128x2 : Shape := ⟨2, ![128, 2]⟩
abbrev S2 : Shape := ⟨1, ![2]⟩
abbrev S64x128 : Shape := ⟨2, ![64, 128]⟩
abbrev S1x128 : Shape := ⟨2, ![1, 128]⟩
abbrev S_ : Shape := ⟨0, ![]⟩
abbrev S1x64 : Shape := ⟨2, ![1, 64]⟩
abbrev S100000x128 : Shape := ⟨2, ![100000, 128]⟩
abbrev S1x1600000 : Shape := ⟨2, ![1, 1600000]⟩
abbrev S1600000 : Shape := ⟨1, ![1600000]⟩
abbrev S1700000 : Shape := ⟨1, ![1700000]⟩
abbrev S1700000x1 : Shape := ⟨2, ![1700000, 1]⟩
abbrev S1700000x128 : Shape := ⟨2, ![1700000, 128]⟩
abbrev S100000x1 : Shape := ⟨2, ![100000, 1]⟩
abbrev S64x1 : Shape := ⟨2, ![64, 1]⟩
abbrev S4096x128 : Shape := ⟨2, ![4096, 128]⟩
abbrev S1x16384 : Shape := ⟨2, ![1, 16384]⟩
abbrev S16384 : Shape := ⟨1, ![16384]⟩
abbrev S20480 : Shape := ⟨1, ![20480]⟩
abbrev S20480x1 : Shape := ⟨2, ![20480, 1]⟩
abbrev S20480x128 : Shape := ⟨2, ![20480, 128]⟩
abbrev S4096x1 : Shape := ⟨2, ![4096, 1]⟩
abbrev S64x448 : Shape := ⟨2, ![64, 448]⟩
abbrev S64x2 : Shape := ⟨2, ![64, 2]⟩
abbrev S1x2 : Shape := ⟨2, ![1, 2]⟩

abbrev nBuf : Space → Nat
  | .hbm => 371
  | .vmem => 0
  | .smem => 0
  | _ => 0

abbrev hbmTy0_0 (i : Nat) : BufTy := match i % 128 with
  | 0 => ⟨S64x18640, .f32⟩
  | 1 => ⟨S64x21, .f32⟩
  | 2 => ⟨S100000x9, .f32⟩
  | 3 => ⟨S4096x9, .f32⟩
  | 4 => ⟨S2x1600000, .i32⟩
  | 5 => ⟨S100000, .i32⟩
  | 6 => ⟨S2x16384, .i32⟩
  | 7 => ⟨S4096, .i32⟩
  | 8 => ⟨S18640x128, .f32⟩
  | 9 => ⟨S128, .f32⟩
  | 10 => ⟨S128x128, .f32⟩
  | 11 => ⟨S128, .f32⟩
  | 12 => ⟨S21x64, .f32⟩
  | 13 => ⟨S64, .f32⟩
  | 14 => ⟨S64x64, .f32⟩
  | 15 => ⟨S64, .f32⟩
  | 16 => ⟨S9x128, .f32⟩
  | 17 => ⟨S128, .f32⟩
  | 18 => ⟨S128x128, .f32⟩
  | 19 => ⟨S128, .f32⟩
  | 20 => ⟨S9x128, .f32⟩
  | 21 => ⟨S128, .f32⟩
  | 22 => ⟨S128x128, .f32⟩
  | 23 => ⟨S128, .f32⟩
  | 24 => ⟨S448x128, .f32⟩
  | 25 => ⟨S128, .f32⟩
  | 26 => ⟨S128x2, .f32⟩
  | 27 => ⟨S2, .f32⟩
  | 28 => ⟨S64x128, .f32⟩
  | 29 => ⟨S1x128, .f32⟩
  | 30 => ⟨S64x128, .f32⟩
  | 31 => ⟨S64x128, .f32⟩
  | 32 => ⟨S_, .f32⟩
  | 33 => ⟨S64x128, .f32⟩
  | 34 => ⟨S64x128, .f32⟩
  | 35 => ⟨S64x128, .f32⟩
  | 36 => ⟨S1x128, .f32⟩
  | 37 => ⟨S64x128, .f32⟩
  | 38 => ⟨S64x128, .f32⟩
  | 39 => ⟨S_, .f32⟩
  | 40 => ⟨S64x128, .f32⟩
  | 41 => ⟨S64x128, .f32⟩
  | 42 => ⟨S64x64, .f32⟩
  | 43 => ⟨S1x64, .f32⟩
  | 44 => ⟨S64x64, .f32⟩
  | 45 => ⟨S64x64, .f32⟩
  | 46 => ⟨S_, .f32⟩
  | 47 => ⟨S64x64, .f32⟩
  | 48 => ⟨S64x64, .f32⟩
  | 49 => ⟨S64x64, .f32⟩
  | 50 => ⟨S1x64, .f32⟩
  | 51 => ⟨S64x64, .f32⟩
  | 52 => ⟨S64x64, .f32⟩
  | 53 => ⟨S_, .f32⟩
  | 54 => ⟨S64x64, .f32⟩
  | 55 => ⟨S64x64, .f32⟩
  | 56 => ⟨S100000x128, .f32⟩
  | 57 => ⟨S1x1600000, .i32⟩
  | 58 => ⟨S1600000, .i32⟩
  | 59 => ⟨S100000, .i32⟩
  | 60 => ⟨S1700000, .i32⟩
  | 61 => ⟨S1x1600000, .i32⟩
  | 62 => ⟨S1600000, .i32⟩
  | 63 => ⟨S100000, .i32⟩
  | 64 => ⟨S1700000, .i32⟩
  | 65 => ⟨S_, .f32⟩
  | 66 => ⟨S1700000, .f32⟩
  | 67 => ⟨S_, .f32⟩
  | 68 => ⟨S100000, .f32⟩
  | 69 => ⟨S1700000x1, .i32⟩
  | 70 => ⟨S100000, .f32⟩
  | 71 => ⟨S_, .f32⟩
  | 72 => ⟨S100000, .f32⟩
  | 73 => ⟨S100000, .i1⟩
  | 74 => ⟨S_, .f32⟩
  | 75 => ⟨S100000, .f32⟩
  | 76 => ⟨S100000, .f32⟩
  | 77 => ⟨S100000, .f32⟩
  | 78 => ⟨S_, .f32⟩
  | 79 => ⟨S_, .f32⟩
  | 80 => ⟨S100000, .f32⟩
  | 81 => ⟨S100000, .f32⟩
  | 82 => ⟨S_, .i32⟩
  | 83 => ⟨S1700000, .i32⟩
  | 84 => ⟨S1700000, .i1⟩
  | 85 => ⟨S_, .i32⟩
  | 86 => ⟨S1700000, .i32⟩
  | 87 => ⟨S1700000, .i32⟩
  | 88 => ⟨S1700000, .i32⟩
  | 89 => ⟨S1700000x1, .i32⟩
  | 90 => ⟨S1700000, .f32⟩
  | 91 => ⟨S_, .i32⟩
  | 92 => ⟨S1700000, .i32⟩
  | 93 => ⟨S1700000, .i1⟩
  | 94 => ⟨S_, .i32⟩
  | 95 => ⟨S1700000, .i32⟩
  | 96 => ⟨S1700000, .i32⟩
  | 97 => ⟨S1700000, .i32⟩
  | 98 => ⟨S1700000x1, .i32⟩
  | 99 => ⟨S1700000, .f32⟩
  | 100 => ⟨S1700000, .f32⟩
  | 101 => ⟨S1700000x1, .f32⟩
  | 102 => ⟨S_, .i32⟩
  | 103 => ⟨S1700000, .i32⟩
  | 104 => ⟨S1700000, .i1⟩
  | 105 => ⟨S_, .i32⟩
  | 106 => ⟨S1700000, .i32⟩
  | 107 => ⟨S1700000, .i32⟩
  | 108 => ⟨S1700000, .i32⟩
  | 109 => ⟨S1700000x1, .i32⟩
  | 110 => ⟨S1700000x128, .f32⟩
  | 111 => ⟨S1700000x128, .f32⟩
  | 112 => ⟨S1700000x128, .f32⟩
  | 113 => ⟨S_, .f32⟩
  | 114 => ⟨S100000x128, .f32⟩
  | 115 => ⟨S1700000x1, .i32⟩
  | 116 => ⟨S100000x128, .f32⟩
  | 117 => ⟨S1x128, .f32⟩
  | 118 => ⟨S100000x128, .f32⟩
  | 119 => ⟨S100000x128, .f32⟩
  | 120 => ⟨S_, .f32⟩
  | 121 => ⟨S100000x128, .f32⟩
  | 122 => ⟨S100000x128, .f32⟩
  | 123 => ⟨S100000x128, .f32⟩
  | 124 => ⟨S1x1600000, .i32⟩
  | 125 => ⟨S1600000, .i32⟩
  | 126 => ⟨S100000, .i32⟩
  | 127 => ⟨S1700000, .i32⟩
  | _ => ⟨S64x18640, .f32⟩

abbrev hbmTy0_1 (i : Nat) : BufTy := match i % 128 with
  | 0 => ⟨S1x1600000, .i32⟩
  | 1 => ⟨S1600000, .i32⟩
  | 2 => ⟨S100000, .i32⟩
  | 3 => ⟨S1700000, .i32⟩
  | 4 => ⟨S_, .f32⟩
  | 5 => ⟨S1700000, .f32⟩
  | 6 => ⟨S_, .f32⟩
  | 7 => ⟨S100000, .f32⟩
  | 8 => ⟨S1700000x1, .i32⟩
  | 9 => ⟨S100000, .f32⟩
  | 10 => ⟨S_, .f32⟩
  | 11 => ⟨S100000, .f32⟩
  | 12 => ⟨S100000, .i1⟩
  | 13 => ⟨S_, .f32⟩
  | 14 => ⟨S100000, .f32⟩
  | 15 => ⟨S100000, .f32⟩
  | 16 => ⟨S100000, .f32⟩
  | 17 => ⟨S_, .f32⟩
  | 18 => ⟨S_, .f32⟩
  | 19 => ⟨S100000, .f32⟩
  | 20 => ⟨S100000, .f32⟩
  | 21 => ⟨S_, .i32⟩
  | 22 => ⟨S1700000, .i32⟩
  | 23 => ⟨S1700000, .i1⟩
  | 24 => ⟨S_, .i32⟩
  | 25 => ⟨S1700000, .i32⟩
  | 26 => ⟨S1700000, .i32⟩
  | 27 => ⟨S1700000, .i32⟩
  | 28 => ⟨S1700000x1, .i32⟩
  | 29 => ⟨S1700000, .f32⟩
  | 30 => ⟨S_, .i32⟩
  | 31 => ⟨S1700000, .i32⟩
  | 32 => ⟨S1700000, .i1⟩
  | 33 => ⟨S_, .i32⟩
  | 34 => ⟨S1700000, .i32⟩
  | 35 => ⟨S1700000, .i32⟩
  | 36 => ⟨S1700000, .i32⟩
  | 37 => ⟨S1700000x1, .i32⟩
  | 38 => ⟨S1700000, .f32⟩
  | 39 => ⟨S1700000, .f32⟩
  | 40 => ⟨S1700000x1, .f32⟩
  | 41 => ⟨S_, .i32⟩
  | 42 => ⟨S1700000, .i32⟩
  | 43 => ⟨S1700000, .i1⟩
  | 44 => ⟨S_, .i32⟩
  | 45 => ⟨S1700000, .i32⟩
  | 46 => ⟨S1700000, .i32⟩
  | 47 => ⟨S1700000, .i32⟩
  | 48 => ⟨S1700000x1, .i32⟩
  | 49 => ⟨S1700000x128, .f32⟩
  | 50 => ⟨S1700000x128, .f32⟩
  | 51 => ⟨S1700000x128, .f32⟩
  | 52 => ⟨S_, .f32⟩
  | 53 => ⟨S100000x128, .f32⟩
  | 54 => ⟨S1700000x1, .i32⟩
  | 55 => ⟨S100000x128, .f32⟩
  | 56 => ⟨S1x128, .f32⟩
  | 57 => ⟨S100000x128, .f32⟩
  | 58 => ⟨S100000x128, .f32⟩
  | 59 => ⟨S_, .f32⟩
  | 60 => ⟨S100000x128, .f32⟩
  | 61 => ⟨S100000x128, .f32⟩
  | 62 => ⟨S_, .f32⟩
  | 63 => ⟨S64x128, .f32⟩
  | 64 => ⟨S100000x1, .i32⟩
  | 65 => ⟨S64x128, .f32⟩
  | 66 => ⟨S_, .f32⟩
  | 67 => ⟨S100000, .f32⟩
  | 68 => ⟨S_, .f32⟩
  | 69 => ⟨S64, .f32⟩
  | 70 => ⟨S100000x1, .i32⟩
  | 71 => ⟨S64, .f32⟩
  | 72 => ⟨S_, .f32⟩
  | 73 => ⟨S64, .f32⟩
  | 74 => ⟨S64, .f32⟩
  | 75 => ⟨S64x1, .f32⟩
  | 76 => ⟨S64x128, .f32⟩
  | 77 => ⟨S64x128, .f32⟩
  | 78 => ⟨S4096x128, .f32⟩
  | 79 => ⟨S1x16384, .i32⟩
  | 80 => ⟨S16384, .i32⟩
  | 81 => ⟨S4096, .i32⟩
  | 82 => ⟨S20480, .i32⟩
  | 83 => ⟨S1x16384, .i32⟩
  | 84 => ⟨S16384, .i32⟩
  | 85 => ⟨S4096, .i32⟩
  | 86 => ⟨S20480, .i32⟩
  | 87 => ⟨S_, .f32⟩
  | 88 => ⟨S20480, .f32⟩
  | 89 => ⟨S_, .f32⟩
  | 90 => ⟨S4096, .f32⟩
  | 91 => ⟨S20480x1, .i32⟩
  | 92 => ⟨S4096, .f32⟩
  | 93 => ⟨S_, .f32⟩
  | 94 => ⟨S4096, .f32⟩
  | 95 => ⟨S4096, .i1⟩
  | 96 => ⟨S_, .f32⟩
  | 97 => ⟨S4096, .f32⟩
  | 98 => ⟨S4096, .f32⟩
  | 99 => ⟨S4096, .f32⟩
  | 100 => ⟨S_, .f32⟩
  | 101 => ⟨S_, .f32⟩
  | 102 => ⟨S4096, .f32⟩
  | 103 => ⟨S4096, .f32⟩
  | 104 => ⟨S_, .i32⟩
  | 105 => ⟨S20480, .i32⟩
  | 106 => ⟨S20480, .i1⟩
  | 107 => ⟨S_, .i32⟩
  | 108 => ⟨S20480, .i32⟩
  | 109 => ⟨S20480, .i32⟩
  | 110 => ⟨S20480, .i32⟩
  | 111 => ⟨S20480x1, .i32⟩
  | 112 => ⟨S20480, .f32⟩
  | 113 => ⟨S_, .i32⟩
  | 114 => ⟨S20480, .i32⟩
  | 115 => ⟨S20480, .i1⟩
  | 116 => ⟨S_, .i32⟩
  | 117 => ⟨S20480, .i32⟩
  | 118 => ⟨S20480, .i32⟩
  | 119 => ⟨S20480, .i32⟩
  | 120 => ⟨S20480x1, .i32⟩
  | 121 => ⟨S20480, .f32⟩
  | 122 => ⟨S20480, .f32⟩
  | 123 => ⟨S20480x1, .f32⟩
  | 124 => ⟨S_, .i32⟩
  | 125 => ⟨S20480, .i32⟩
  | 126 => ⟨S20480, .i1⟩
  | 127 => ⟨S_, .i32⟩
  | _ => ⟨S64x18640, .f32⟩

abbrev hbmTy0_2 (i : Nat) : BufTy := match i % 128 with
  | 0 => ⟨S20480, .i32⟩
  | 1 => ⟨S20480, .i32⟩
  | 2 => ⟨S20480, .i32⟩
  | 3 => ⟨S20480x1, .i32⟩
  | 4 => ⟨S20480x128, .f32⟩
  | 5 => ⟨S20480x128, .f32⟩
  | 6 => ⟨S20480x128, .f32⟩
  | 7 => ⟨S_, .f32⟩
  | 8 => ⟨S4096x128, .f32⟩
  | 9 => ⟨S20480x1, .i32⟩
  | 10 => ⟨S4096x128, .f32⟩
  | 11 => ⟨S1x128, .f32⟩
  | 12 => ⟨S4096x128, .f32⟩
  | 13 => ⟨S4096x128, .f32⟩
  | 14 => ⟨S_, .f32⟩
  | 15 => ⟨S4096x128, .f32⟩
  | 16 => ⟨S4096x128, .f32⟩
  | 17 => ⟨S4096x128, .f32⟩
  | 18 => ⟨S1x16384, .i32⟩
  | 19 => ⟨S16384, .i32⟩
  | 20 => ⟨S4096, .i32⟩
  | 21 => ⟨S20480, .i32⟩
  | 22 => ⟨S1x16384, .i32⟩
  | 23 => ⟨S16384, .i32⟩
  | 24 => ⟨S4096, .i32⟩
  | 25 => ⟨S20480, .i32⟩
  | 26 => ⟨S_, .f32⟩
  | 27 => ⟨S20480, .f32⟩
  | 28 => ⟨S_, .f32⟩
  | 29 => ⟨S4096, .f32⟩
  | 30 => ⟨S20480x1, .i32⟩
  | 31 => ⟨S4096, .f32⟩
  | 32 => ⟨S_, .f32⟩
  | 33 => ⟨S4096, .f32⟩
  | 34 => ⟨S4096, .i1⟩
  | 35 => ⟨S_, .f32⟩
  | 36 => ⟨S4096, .f32⟩
  | 37 => ⟨S4096, .f32⟩
  | 38 => ⟨S4096, .f32⟩
  | 39 => ⟨S_, .f32⟩
  | 40 => ⟨S_, .f32⟩
  | 41 => ⟨S4096, .f32⟩
  | 42 => ⟨S4096, .f32⟩
  | 43 => ⟨S_, .i32⟩
  | 44 => ⟨S20480, .i32⟩
  | 45 => ⟨S20480, .i1⟩
  | 46 => ⟨S_, .i32⟩
  | 47 => ⟨S20480, .i32⟩
  | 48 => ⟨S20480, .i32⟩
  | 49 => ⟨S20480, .i32⟩
  | 50 => ⟨S20480x1, .i32⟩
  | 51 => ⟨S20480, .f32⟩
  | 52 => ⟨S_, .i32⟩
  | 53 => ⟨S20480, .i32⟩
  | 54 => ⟨S20480, .i1⟩
  | 55 => ⟨S_, .i32⟩
  | 56 => ⟨S20480, .i32⟩
  | 57 => ⟨S20480, .i32⟩
  | 58 => ⟨S20480, .i32⟩
  | 59 => ⟨S20480x1, .i32⟩
  | 60 => ⟨S20480, .f32⟩
  | 61 => ⟨S20480, .f32⟩
  | 62 => ⟨S20480x1, .f32⟩
  | 63 => ⟨S_, .i32⟩
  | 64 => ⟨S20480, .i32⟩
  | 65 => ⟨S20480, .i1⟩
  | 66 => ⟨S_, .i32⟩
  | 67 => ⟨S20480, .i32⟩
  | 68 => ⟨S20480, .i32⟩
  | 69 => ⟨S20480, .i32⟩
  | 70 => ⟨S20480x1, .i32⟩
  | 71 => ⟨S20480x128, .f32⟩
  | 72 => ⟨S20480x128, .f32⟩
  | 73 => ⟨S20480x128, .f32⟩
  | 74 => ⟨S_, .f32⟩
  | 75 => ⟨S4096x128, .f32⟩
  | 76 => ⟨S20480x1, .i32⟩
  | 77 => ⟨S4096x128, .f32⟩
  | 78 => ⟨S1x128, .f32⟩
  | 79 => ⟨S4096x128, .f32⟩
  | 80 => ⟨S4096x128, .f32⟩
  | 81 => ⟨S_, .f32⟩
  | 82 => ⟨S4096x128, .f32⟩
  | 83 => ⟨S4096x128, .f32⟩
  | 84 => ⟨S_, .f32⟩
  | 85 => ⟨S64x128, .f32⟩
  | 86 => ⟨S4096x1, .i32⟩
  | 87 => ⟨S64x128, .f32⟩
  | 88 => ⟨S_, .f32⟩
  | 89 => ⟨S4096, .f32⟩
  | 90 => ⟨S_, .f32⟩
  | 91 => ⟨S64, .f32⟩
  | 92 => ⟨S4096x1, .i32⟩
  | 93 => ⟨S64, .f32⟩
  | 94 => ⟨S_, .f32⟩
  | 95 => ⟨S64, .f32⟩
  | 96 => ⟨S64, .f32⟩
  | 97 => ⟨S64x1, .f32⟩
  | 98 => ⟨S64x128, .f32⟩
  | 99 => ⟨S64x128, .f32⟩
  | 100 => ⟨S64x448, .f32⟩
  | 101 => ⟨S64x128, .f32⟩
  | 102 => ⟨S1x128, .f32⟩
  | 103 => ⟨S64x128, .f32⟩
  | 104 => ⟨S64x128, .f32⟩
  | 105 => ⟨S_, .f32⟩
  | 106 => ⟨S64x128, .f32⟩
  | 107 => ⟨S64x128, .f32⟩
  | 108 => ⟨S64x2, .f32⟩
  | 109 => ⟨S1x2, .f32⟩
  | 110 => ⟨S64x2, .f32⟩
  | 111 => ⟨S64x2, .f32⟩
  | 112 => ⟨S_, .f32⟩
  | 113 => ⟨S64x2, .f32⟩
  | 114 => ⟨S64x2, .f32⟩
  | _ => ⟨S64x18640, .f32⟩

abbrev hbmTy (i : Nat) : BufTy := match i / 128 with
  | 0 => hbmTy0_0 i
  | 1 => hbmTy0_1 i
  | 2 => hbmTy0_2 i
  | _ => ⟨S64x18640, .f32⟩

abbrev bufTy : (tb : Table) → Fin (tcTables nBuf tb) → BufTy
  | .hbm, ⟨i, _⟩ => hbmTy i
  | _, _ => ⟨S64x18640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_call0_cst : Ref sig .tc := ⟨.hbm, 32, rfl⟩
abbrev main_call0_v0 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_call1_cst : Ref sig .tc := ⟨.hbm, 39, rfl⟩
abbrev main_call1_v0 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_call2_cst : Ref sig .tc := ⟨.hbm, 46, rfl⟩
abbrev main_call2_v0 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_call3_cst : Ref sig .tc := ⟨.hbm, 53, rfl⟩
abbrev main_call3_v0 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_cst : Ref sig .tc := ⟨.hbm, 65, rfl⟩
abbrev main_v29 : Ref sig .tc := ⟨.hbm, 66, rfl⟩
abbrev main_cst_0 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_cst_1 : Ref sig .tc := ⟨.hbm, 71, rfl⟩
abbrev main_v33 : Ref sig .tc := ⟨.hbm, 72, rfl⟩
abbrev main_v34 : Ref sig .tc := ⟨.hbm, 73, rfl⟩
abbrev main_cst_2 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_cst_3 : Ref sig .tc := ⟨.hbm, 78, rfl⟩
abbrev main_call4_v0 : Ref sig .tc := ⟨.hbm, 79, rfl⟩
abbrev main_call4_v1 : Ref sig .tc := ⟨.hbm, 80, rfl⟩
abbrev main_v38 : Ref sig .tc := ⟨.hbm, 81, rfl⟩
abbrev main_c : Ref sig .tc := ⟨.hbm, 82, rfl⟩
abbrev main_v39 : Ref sig .tc := ⟨.hbm, 83, rfl⟩
abbrev main_v40 : Ref sig .tc := ⟨.hbm, 84, rfl⟩
abbrev main_c_4 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_c_5 : Ref sig .tc := ⟨.hbm, 91, rfl⟩
abbrev main_v46 : Ref sig .tc := ⟨.hbm, 92, rfl⟩
abbrev main_v47 : Ref sig .tc := ⟨.hbm, 93, rfl⟩
abbrev main_c_6 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_c_7 : Ref sig .tc := ⟨.hbm, 102, rfl⟩
abbrev main_v55 : Ref sig .tc := ⟨.hbm, 103, rfl⟩
abbrev main_v56 : Ref sig .tc := ⟨.hbm, 104, rfl⟩
abbrev main_c_8 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_cst_9 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_call5_cst : Ref sig .tc := ⟨.hbm, 120, rfl⟩
abbrev main_call5_v0 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_cst_10 : Ref sig .tc := ⟨.hbm, 132, rfl⟩
abbrev main_v80 : Ref sig .tc := ⟨.hbm, 133, rfl⟩
abbrev main_cst_11 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_cst_12 : Ref sig .tc := ⟨.hbm, 138, rfl⟩
abbrev main_v84 : Ref sig .tc := ⟨.hbm, 139, rfl⟩
abbrev main_v85 : Ref sig .tc := ⟨.hbm, 140, rfl⟩
abbrev main_cst_13 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_cst_14 : Ref sig .tc := ⟨.hbm, 145, rfl⟩
abbrev main_call6_v0 : Ref sig .tc := ⟨.hbm, 146, rfl⟩
abbrev main_call6_v1 : Ref sig .tc := ⟨.hbm, 147, rfl⟩
abbrev main_v89 : Ref sig .tc := ⟨.hbm, 148, rfl⟩
abbrev main_c_15 : Ref sig .tc := ⟨.hbm, 149, rfl⟩
abbrev main_v90 : Ref sig .tc := ⟨.hbm, 150, rfl⟩
abbrev main_v91 : Ref sig .tc := ⟨.hbm, 151, rfl⟩
abbrev main_c_16 : Ref sig .tc := ⟨.hbm, 152, rfl⟩
abbrev main_v92 : Ref sig .tc := ⟨.hbm, 153, rfl⟩
abbrev main_v93 : Ref sig .tc := ⟨.hbm, 154, rfl⟩
abbrev main_v94 : Ref sig .tc := ⟨.hbm, 155, rfl⟩
abbrev main_v95 : Ref sig .tc := ⟨.hbm, 156, rfl⟩
abbrev main_v96 : Ref sig .tc := ⟨.hbm, 157, rfl⟩
abbrev main_c_17 : Ref sig .tc := ⟨.hbm, 158, rfl⟩
abbrev main_v97 : Ref sig .tc := ⟨.hbm, 159, rfl⟩
abbrev main_v98 : Ref sig .tc := ⟨.hbm, 160, rfl⟩
abbrev main_c_18 : Ref sig .tc := ⟨.hbm, 161, rfl⟩
abbrev main_v99 : Ref sig .tc := ⟨.hbm, 162, rfl⟩
abbrev main_v100 : Ref sig .tc := ⟨.hbm, 163, rfl⟩
abbrev main_v101 : Ref sig .tc := ⟨.hbm, 164, rfl⟩
abbrev main_v102 : Ref sig .tc := ⟨.hbm, 165, rfl⟩
abbrev main_v103 : Ref sig .tc := ⟨.hbm, 166, rfl⟩
abbrev main_v104 : Ref sig .tc := ⟨.hbm, 167, rfl⟩
abbrev main_v105 : Ref sig .tc := ⟨.hbm, 168, rfl⟩
abbrev main_c_19 : Ref sig .tc := ⟨.hbm, 169, rfl⟩
abbrev main_v106 : Ref sig .tc := ⟨.hbm, 170, rfl⟩
abbrev main_v107 : Ref sig .tc := ⟨.hbm, 171, rfl⟩
abbrev main_c_20 : Ref sig .tc := ⟨.hbm, 172, rfl⟩
abbrev main_v108 : Ref sig .tc := ⟨.hbm, 173, rfl⟩
abbrev main_v109 : Ref sig .tc := ⟨.hbm, 174, rfl⟩
abbrev main_v110 : Ref sig .tc := ⟨.hbm, 175, rfl⟩
abbrev main_v111 : Ref sig .tc := ⟨.hbm, 176, rfl⟩
abbrev main_v112 : Ref sig .tc := ⟨.hbm, 177, rfl⟩
abbrev main_v113 : Ref sig .tc := ⟨.hbm, 178, rfl⟩
abbrev main_v114 : Ref sig .tc := ⟨.hbm, 179, rfl⟩
abbrev main_cst_21 : Ref sig .tc := ⟨.hbm, 180, rfl⟩
abbrev main_v115 : Ref sig .tc := ⟨.hbm, 181, rfl⟩
abbrev main_v116 : Ref sig .tc := ⟨.hbm, 182, rfl⟩
abbrev main_v117 : Ref sig .tc := ⟨.hbm, 183, rfl⟩
abbrev main_v118 : Ref sig .tc := ⟨.hbm, 184, rfl⟩
abbrev main_v119 : Ref sig .tc := ⟨.hbm, 185, rfl⟩
abbrev main_v120 : Ref sig .tc := ⟨.hbm, 186, rfl⟩
abbrev main_call7_cst : Ref sig .tc := ⟨.hbm, 187, rfl⟩
abbrev main_call7_v0 : Ref sig .tc := ⟨.hbm, 188, rfl⟩
abbrev main_v121 : Ref sig .tc := ⟨.hbm, 189, rfl⟩
abbrev main_cst_22 : Ref sig .tc := ⟨.hbm, 190, rfl⟩
abbrev main_v122 : Ref sig .tc := ⟨.hbm, 191, rfl⟩
abbrev main_v123 : Ref sig .tc := ⟨.hbm, 192, rfl⟩
abbrev main_v124 : Ref sig .tc := ⟨.hbm, 193, rfl⟩
abbrev main_cst_23 : Ref sig .tc := ⟨.hbm, 194, rfl⟩
abbrev main_v125 : Ref sig .tc := ⟨.hbm, 195, rfl⟩
abbrev main_cst_24 : Ref sig .tc := ⟨.hbm, 196, rfl⟩
abbrev main_v126 : Ref sig .tc := ⟨.hbm, 197, rfl⟩
abbrev main_v127 : Ref sig .tc := ⟨.hbm, 198, rfl⟩
abbrev main_v128 : Ref sig .tc := ⟨.hbm, 199, rfl⟩
abbrev main_cst_25 : Ref sig .tc := ⟨.hbm, 200, rfl⟩
abbrev main_v129 : Ref sig .tc := ⟨.hbm, 201, rfl⟩
abbrev main_v130 : Ref sig .tc := ⟨.hbm, 202, rfl⟩
abbrev main_v131 : Ref sig .tc := ⟨.hbm, 203, rfl⟩
abbrev main_v132 : Ref sig .tc := ⟨.hbm, 204, rfl⟩
abbrev main_v133 : Ref sig .tc := ⟨.hbm, 205, rfl⟩
abbrev main_v134 : Ref sig .tc := ⟨.hbm, 206, rfl⟩
abbrev main_v135 : Ref sig .tc := ⟨.hbm, 207, rfl⟩
abbrev main_v136 : Ref sig .tc := ⟨.hbm, 208, rfl⟩
abbrev main_v137 : Ref sig .tc := ⟨.hbm, 209, rfl⟩
abbrev main_v138 : Ref sig .tc := ⟨.hbm, 210, rfl⟩
abbrev main_v139 : Ref sig .tc := ⟨.hbm, 211, rfl⟩
abbrev main_v140 : Ref sig .tc := ⟨.hbm, 212, rfl⟩
abbrev main_v141 : Ref sig .tc := ⟨.hbm, 213, rfl⟩
abbrev main_v142 : Ref sig .tc := ⟨.hbm, 214, rfl⟩
abbrev main_cst_26 : Ref sig .tc := ⟨.hbm, 215, rfl⟩
abbrev main_v143 : Ref sig .tc := ⟨.hbm, 216, rfl⟩
abbrev main_cst_27 : Ref sig .tc := ⟨.hbm, 217, rfl⟩
abbrev main_v144 : Ref sig .tc := ⟨.hbm, 218, rfl⟩
abbrev main_v145 : Ref sig .tc := ⟨.hbm, 219, rfl⟩
abbrev main_v146 : Ref sig .tc := ⟨.hbm, 220, rfl⟩
abbrev main_cst_28 : Ref sig .tc := ⟨.hbm, 221, rfl⟩
abbrev main_v147 : Ref sig .tc := ⟨.hbm, 222, rfl⟩
abbrev main_v148 : Ref sig .tc := ⟨.hbm, 223, rfl⟩
abbrev main_cst_29 : Ref sig .tc := ⟨.hbm, 224, rfl⟩
abbrev main_v149 : Ref sig .tc := ⟨.hbm, 225, rfl⟩
abbrev main_v150 : Ref sig .tc := ⟨.hbm, 226, rfl⟩
abbrev main_v151 : Ref sig .tc := ⟨.hbm, 227, rfl⟩
abbrev main_cst_30 : Ref sig .tc := ⟨.hbm, 228, rfl⟩
abbrev main_call8_v0 : Ref sig .tc := ⟨.hbm, 229, rfl⟩
abbrev main_call8_v1 : Ref sig .tc := ⟨.hbm, 230, rfl⟩
abbrev main_v152 : Ref sig .tc := ⟨.hbm, 231, rfl⟩
abbrev main_c_31 : Ref sig .tc := ⟨.hbm, 232, rfl⟩
abbrev main_v153 : Ref sig .tc := ⟨.hbm, 233, rfl⟩
abbrev main_v154 : Ref sig .tc := ⟨.hbm, 234, rfl⟩
abbrev main_c_32 : Ref sig .tc := ⟨.hbm, 235, rfl⟩
abbrev main_v155 : Ref sig .tc := ⟨.hbm, 236, rfl⟩
abbrev main_v156 : Ref sig .tc := ⟨.hbm, 237, rfl⟩
abbrev main_v157 : Ref sig .tc := ⟨.hbm, 238, rfl⟩
abbrev main_v158 : Ref sig .tc := ⟨.hbm, 239, rfl⟩
abbrev main_v159 : Ref sig .tc := ⟨.hbm, 240, rfl⟩
abbrev main_c_33 : Ref sig .tc := ⟨.hbm, 241, rfl⟩
abbrev main_v160 : Ref sig .tc := ⟨.hbm, 242, rfl⟩
abbrev main_v161 : Ref sig .tc := ⟨.hbm, 243, rfl⟩
abbrev main_c_34 : Ref sig .tc := ⟨.hbm, 244, rfl⟩
abbrev main_v162 : Ref sig .tc := ⟨.hbm, 245, rfl⟩
abbrev main_v163 : Ref sig .tc := ⟨.hbm, 246, rfl⟩
abbrev main_v164 : Ref sig .tc := ⟨.hbm, 247, rfl⟩
abbrev main_v165 : Ref sig .tc := ⟨.hbm, 248, rfl⟩
abbrev main_v166 : Ref sig .tc := ⟨.hbm, 249, rfl⟩
abbrev main_v167 : Ref sig .tc := ⟨.hbm, 250, rfl⟩
abbrev main_v168 : Ref sig .tc := ⟨.hbm, 251, rfl⟩
abbrev main_c_35 : Ref sig .tc := ⟨.hbm, 252, rfl⟩
abbrev main_v169 : Ref sig .tc := ⟨.hbm, 253, rfl⟩
abbrev main_v170 : Ref sig .tc := ⟨.hbm, 254, rfl⟩
abbrev main_c_36 : Ref sig .tc := ⟨.hbm, 255, rfl⟩
abbrev main_v171 : Ref sig .tc := ⟨.hbm, 256, rfl⟩
abbrev main_v172 : Ref sig .tc := ⟨.hbm, 257, rfl⟩
abbrev main_v173 : Ref sig .tc := ⟨.hbm, 258, rfl⟩
abbrev main_v174 : Ref sig .tc := ⟨.hbm, 259, rfl⟩
abbrev main_v175 : Ref sig .tc := ⟨.hbm, 260, rfl⟩
abbrev main_v176 : Ref sig .tc := ⟨.hbm, 261, rfl⟩
abbrev main_v177 : Ref sig .tc := ⟨.hbm, 262, rfl⟩
abbrev main_cst_37 : Ref sig .tc := ⟨.hbm, 263, rfl⟩
abbrev main_v178 : Ref sig .tc := ⟨.hbm, 264, rfl⟩
abbrev main_v179 : Ref sig .tc := ⟨.hbm, 265, rfl⟩
abbrev main_v180 : Ref sig .tc := ⟨.hbm, 266, rfl⟩
abbrev main_v181 : Ref sig .tc := ⟨.hbm, 267, rfl⟩
abbrev main_v182 : Ref sig .tc := ⟨.hbm, 268, rfl⟩
abbrev main_v183 : Ref sig .tc := ⟨.hbm, 269, rfl⟩
abbrev main_call9_cst : Ref sig .tc := ⟨.hbm, 270, rfl⟩
abbrev main_call9_v0 : Ref sig .tc := ⟨.hbm, 271, rfl⟩
abbrev main_v184 : Ref sig .tc := ⟨.hbm, 272, rfl⟩
abbrev main_v185 : Ref sig .tc := ⟨.hbm, 273, rfl⟩
abbrev main_v186 : Ref sig .tc := ⟨.hbm, 274, rfl⟩
abbrev main_v187 : Ref sig .tc := ⟨.hbm, 275, rfl⟩
abbrev main_v188 : Ref sig .tc := ⟨.hbm, 276, rfl⟩
abbrev main_v189 : Ref sig .tc := ⟨.hbm, 277, rfl⟩
abbrev main_v190 : Ref sig .tc := ⟨.hbm, 278, rfl⟩
abbrev main_v191 : Ref sig .tc := ⟨.hbm, 279, rfl⟩
abbrev main_v192 : Ref sig .tc := ⟨.hbm, 280, rfl⟩
abbrev main_v193 : Ref sig .tc := ⟨.hbm, 281, rfl⟩
abbrev main_cst_38 : Ref sig .tc := ⟨.hbm, 282, rfl⟩
abbrev main_v194 : Ref sig .tc := ⟨.hbm, 283, rfl⟩
abbrev main_cst_39 : Ref sig .tc := ⟨.hbm, 284, rfl⟩
abbrev main_v195 : Ref sig .tc := ⟨.hbm, 285, rfl⟩
abbrev main_v196 : Ref sig .tc := ⟨.hbm, 286, rfl⟩
abbrev main_v197 : Ref sig .tc := ⟨.hbm, 287, rfl⟩
abbrev main_cst_40 : Ref sig .tc := ⟨.hbm, 288, rfl⟩
abbrev main_v198 : Ref sig .tc := ⟨.hbm, 289, rfl⟩
abbrev main_v199 : Ref sig .tc := ⟨.hbm, 290, rfl⟩
abbrev main_cst_41 : Ref sig .tc := ⟨.hbm, 291, rfl⟩
abbrev main_v200 : Ref sig .tc := ⟨.hbm, 292, rfl⟩
abbrev main_v201 : Ref sig .tc := ⟨.hbm, 293, rfl⟩
abbrev main_v202 : Ref sig .tc := ⟨.hbm, 294, rfl⟩
abbrev main_cst_42 : Ref sig .tc := ⟨.hbm, 295, rfl⟩
abbrev main_call10_v0 : Ref sig .tc := ⟨.hbm, 296, rfl⟩
abbrev main_call10_v1 : Ref sig .tc := ⟨.hbm, 297, rfl⟩
abbrev main_v203 : Ref sig .tc := ⟨.hbm, 298, rfl⟩
abbrev main_c_43 : Ref sig .tc := ⟨.hbm, 299, rfl⟩
abbrev main_v204 : Ref sig .tc := ⟨.hbm, 300, rfl⟩
abbrev main_v205 : Ref sig .tc := ⟨.hbm, 301, rfl⟩
abbrev main_c_44 : Ref sig .tc := ⟨.hbm, 302, rfl⟩
abbrev main_v206 : Ref sig .tc := ⟨.hbm, 303, rfl⟩
abbrev main_v207 : Ref sig .tc := ⟨.hbm, 304, rfl⟩
abbrev main_v208 : Ref sig .tc := ⟨.hbm, 305, rfl⟩
abbrev main_v209 : Ref sig .tc := ⟨.hbm, 306, rfl⟩
abbrev main_v210 : Ref sig .tc := ⟨.hbm, 307, rfl⟩
abbrev main_c_45 : Ref sig .tc := ⟨.hbm, 308, rfl⟩
abbrev main_v211 : Ref sig .tc := ⟨.hbm, 309, rfl⟩
abbrev main_v212 : Ref sig .tc := ⟨.hbm, 310, rfl⟩
abbrev main_c_46 : Ref sig .tc := ⟨.hbm, 311, rfl⟩
abbrev main_v213 : Ref sig .tc := ⟨.hbm, 312, rfl⟩
abbrev main_v214 : Ref sig .tc := ⟨.hbm, 313, rfl⟩
abbrev main_v215 : Ref sig .tc := ⟨.hbm, 314, rfl⟩
abbrev main_v216 : Ref sig .tc := ⟨.hbm, 315, rfl⟩
abbrev main_v217 : Ref sig .tc := ⟨.hbm, 316, rfl⟩
abbrev main_v218 : Ref sig .tc := ⟨.hbm, 317, rfl⟩
abbrev main_v219 : Ref sig .tc := ⟨.hbm, 318, rfl⟩
abbrev main_c_47 : Ref sig .tc := ⟨.hbm, 319, rfl⟩
abbrev main_v220 : Ref sig .tc := ⟨.hbm, 320, rfl⟩
abbrev main_v221 : Ref sig .tc := ⟨.hbm, 321, rfl⟩
abbrev main_c_48 : Ref sig .tc := ⟨.hbm, 322, rfl⟩
abbrev main_v222 : Ref sig .tc := ⟨.hbm, 323, rfl⟩
abbrev main_v223 : Ref sig .tc := ⟨.hbm, 324, rfl⟩
abbrev main_v224 : Ref sig .tc := ⟨.hbm, 325, rfl⟩
abbrev main_v225 : Ref sig .tc := ⟨.hbm, 326, rfl⟩
abbrev main_v226 : Ref sig .tc := ⟨.hbm, 327, rfl⟩
abbrev main_v227 : Ref sig .tc := ⟨.hbm, 328, rfl⟩
abbrev main_v228 : Ref sig .tc := ⟨.hbm, 329, rfl⟩
abbrev main_cst_49 : Ref sig .tc := ⟨.hbm, 330, rfl⟩
abbrev main_v229 : Ref sig .tc := ⟨.hbm, 331, rfl⟩
abbrev main_v230 : Ref sig .tc := ⟨.hbm, 332, rfl⟩
abbrev main_v231 : Ref sig .tc := ⟨.hbm, 333, rfl⟩
abbrev main_v232 : Ref sig .tc := ⟨.hbm, 334, rfl⟩
abbrev main_v233 : Ref sig .tc := ⟨.hbm, 335, rfl⟩
abbrev main_v234 : Ref sig .tc := ⟨.hbm, 336, rfl⟩
abbrev main_call11_cst : Ref sig .tc := ⟨.hbm, 337, rfl⟩
abbrev main_call11_v0 : Ref sig .tc := ⟨.hbm, 338, rfl⟩
abbrev main_v235 : Ref sig .tc := ⟨.hbm, 339, rfl⟩
abbrev main_cst_50 : Ref sig .tc := ⟨.hbm, 340, rfl⟩
abbrev main_v236 : Ref sig .tc := ⟨.hbm, 341, rfl⟩
abbrev main_v237 : Ref sig .tc := ⟨.hbm, 342, rfl⟩
abbrev main_v238 : Ref sig .tc := ⟨.hbm, 343, rfl⟩
abbrev main_cst_51 : Ref sig .tc := ⟨.hbm, 344, rfl⟩
abbrev main_v239 : Ref sig .tc := ⟨.hbm, 345, rfl⟩
abbrev main_cst_52 : Ref sig .tc := ⟨.hbm, 346, rfl⟩
abbrev main_v240 : Ref sig .tc := ⟨.hbm, 347, rfl⟩
abbrev main_v241 : Ref sig .tc := ⟨.hbm, 348, rfl⟩
abbrev main_v242 : Ref sig .tc := ⟨.hbm, 349, rfl⟩
abbrev main_cst_53 : Ref sig .tc := ⟨.hbm, 350, rfl⟩
abbrev main_v243 : Ref sig .tc := ⟨.hbm, 351, rfl⟩
abbrev main_v244 : Ref sig .tc := ⟨.hbm, 352, rfl⟩
abbrev main_v245 : Ref sig .tc := ⟨.hbm, 353, rfl⟩
abbrev main_v246 : Ref sig .tc := ⟨.hbm, 354, rfl⟩
abbrev main_v247 : Ref sig .tc := ⟨.hbm, 355, rfl⟩
abbrev main_v248 : Ref sig .tc := ⟨.hbm, 356, rfl⟩
abbrev main_v249 : Ref sig .tc := ⟨.hbm, 357, rfl⟩
abbrev main_v250 : Ref sig .tc := ⟨.hbm, 358, rfl⟩
abbrev main_v251 : Ref sig .tc := ⟨.hbm, 359, rfl⟩
abbrev main_v252 : Ref sig .tc := ⟨.hbm, 360, rfl⟩
abbrev main_call12_cst : Ref sig .tc := ⟨.hbm, 361, rfl⟩
abbrev main_call12_v0 : Ref sig .tc := ⟨.hbm, 362, rfl⟩
abbrev main_v253 : Ref sig .tc := ⟨.hbm, 363, rfl⟩
abbrev main_v254 : Ref sig .tc := ⟨.hbm, 364, rfl⟩
abbrev main_v255 : Ref sig .tc := ⟨.hbm, 365, rfl⟩
abbrev main_v256 : Ref sig .tc := ⟨.hbm, 366, rfl⟩
abbrev main_v257 : Ref sig .tc := ⟨.hbm, 367, rfl⟩
abbrev main_call13_cst : Ref sig .tc := ⟨.hbm, 368, rfl⟩
abbrev main_call13_v0 : Ref sig .tc := ⟨.hbm, 369, rfl⟩
abbrev main_v258 : Ref sig .tc := ⟨.hbm, 370, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S64x128_0_1 : S1x128.BroadcastsInDim S64x128 (![0, 1] : Fin 2 → Fin S64x128.rank)
  bcast_S_S64x128 : S_.BroadcastsInDim S64x128 (![] : Fin 0 → Fin S64x128.rank)
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  bcast_S_S64x64 : S_.BroadcastsInDim S64x64 (![] : Fin 0 → Fin S64x64.rank)
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S1x128_S100000x128_0_1 : S1x128.BroadcastsInDim S100000x128 (![0, 1] : Fin 2 → Fin S100000x128.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  slices_S2x16384_S1x16384_0_0 : S2x16384.Slices ![0, 0] S1x16384
  shapeCasts_S1x16384_S16384 : S1x16384.ShapeCasts S16384
  concatenates_S16384_S4096_S20480_d0 : Shape.Concatenates [S16384, S4096] S20480 0
  slices_S2x16384_S1x16384_1_0 : S2x16384.Slices ![1, 0] S1x16384
  bcast_S_S20480 : S_.BroadcastsInDim S20480 (![] : Fin 0 → Fin S20480.rank)
  bcast_S_S4096 : S_.BroadcastsInDim S4096 (![] : Fin 0 → Fin S4096.rank)
  bcast_S20480_S20480x1_0 : S20480.BroadcastsInDim S20480x1 (![0] : Fin 1 → Fin S20480x1.rank)
  bcast_S20480x1_S20480x128_0_1 : S20480x1.BroadcastsInDim S20480x128 (![0, 1] : Fin 2 → Fin S20480x128.rank)
  bcast_S_S4096x128 : S_.BroadcastsInDim S4096x128 (![] : Fin 0 → Fin S4096x128.rank)
  bcast_S1x128_S4096x128_0_1 : S1x128.BroadcastsInDim S4096x128 (![0, 1] : Fin 2 → Fin S4096x128.rank)
  bcast_S4096_S4096x1_0 : S4096.BroadcastsInDim S4096x1 (![0] : Fin 1 → Fin S4096x1.rank)
  concatenates_S64x128_S64x64_S64x128_S64x128_S64x448_d1 : Shape.Concatenates [S64x128, S64x64, S64x128, S64x128] S64x448 1
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  bcast_S_S64x2 : S_.BroadcastsInDim S64x2 (![] : Fin 0 → Fin S64x2.rank)
  dot_S64x18640_S18640x128_S64x128_1_0_0_1_n_n_wf : DotDims.WF S64x18640 S18640x128 S64x128 [1] [0] [0] [1] [] []
  dot_S64x128_S128x128_S64x128_1_0_0_1_n_n_wf : DotDims.WF S64x128 S128x128 S64x128 [1] [0] [0] [1] [] []
  dot_S64x21_S21x64_S64x64_1_0_0_1_n_n_wf : DotDims.WF S64x21 S21x64 S64x64 [1] [0] [0] [1] [] []
  dot_S64x64_S64x64_S64x64_1_0_0_1_n_n_wf : DotDims.WF S64x64 S64x64 S64x64 [1] [0] [0] [1] [] []
  dot_S100000x9_S9x128_S100000x128_1_0_0_1_n_n_wf : DotDims.WF S100000x9 S9x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1
  dot_S4096x9_S9x128_S4096x128_1_0_0_1_n_n_wf : DotDims.WF S4096x9 S9x128 S4096x128 [1] [0] [0] [1] [] []
  scatter_S4096_S20480x1_S20480_n_0_0_1_wf : ScatterDims.WF S4096 S20480x1 S20480 [] [0] [0] 1
  gather_S4096_S20480x1_S20480_n_0_n_n_0_1_1_wf : GatherDims.WF S4096 S20480x1 S20480 [] [0] [] [0] [] 1 ![1]
  gather_S4096x128_S20480x1_S20480x128_1_0_n_n_0_1_1128_wf : GatherDims.WF S4096x128 S20480x1 S20480x128 [1] [0] [] [0] [] 1 ![1, 128]
  scatter_S4096x128_S20480x1_S20480x128_1_0_0_1_wf : ScatterDims.WF S4096x128 S20480x1 S20480x128 [1] [0] [0] 1
  dot_S4096x128_S128x128_S4096x128_1_0_0_1_n_n_wf : DotDims.WF S4096x128 S128x128 S4096x128 [1] [0] [0] [1] [] []
  scatter_S64x128_S4096x1_S4096x128_1_0_0_1_wf : ScatterDims.WF S64x128 S4096x1 S4096x128 [1] [0] [0] 1
  scatter_S64_S4096x1_S4096_n_0_0_1_wf : ScatterDims.WF S64 S4096x1 S4096 [] [0] [0] 1
  dot_S64x448_S448x128_S64x128_1_0_0_1_n_n_wf : DotDims.WF S64x448 S448x128 S64x128 [1] [0] [0] [1] [] []
  dot_S64x128_S128x2_S64x2_1_0_0_1_n_n_wf : DotDims.WF S64x128 S128x2 S64x2 [1] [0] [0] [1] [] []

variable [Facts₀]

def dot_S64x18640_S18640x128_S64x128_1_0_0_1_n_n : DotDims S64x18640 S18640x128 S64x128 where
  lhsContracting := [1]
  rhsContracting := [0]
  lhsNonContracting := [0]
  rhsNonContracting := [1]
  lhsBatch := []
  rhsBatch := []
  wf := dot_S64x18640_S18640x128_S64x128_1_0_0_1_n_n_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S64x21_S21x64_S64x64_1_0_0_1_n_n : DotDims S64x21 S21x64 S64x64 where
  lhsContracting := [1]
  rhsContracting := [0]
  lhsNonContracting := [0]
  rhsNonContracting := [1]
  lhsBatch := []
  rhsBatch := []
  wf := dot_S64x21_S21x64_S64x64_1_0_0_1_n_n_wf
def dot_S64x64_S64x64_S64x64_1_0_0_1_n_n : DotDims S64x64 S64x64 S64x64 where
  lhsContracting := [1]
  rhsContracting := [0]
  lhsNonContracting := [0]
  rhsNonContracting := [1]
  lhsBatch := []
  rhsBatch := []
  wf := dot_S64x64_S64x64_S64x64_1_0_0_1_n_n_wf
def dot_S100000x9_S9x128_S100000x128_1_0_0_1_n_n : DotDims S100000x9 S9x128 S100000x128 where
  lhsContracting := [1]
  rhsContracting := [0]
  lhsNonContracting := [0]
  rhsNonContracting := [1]
  lhsBatch := []
  rhsBatch := []
  wf := dot_S100000x9_S9x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S4096x9_S9x128_S4096x128_1_0_0_1_n_n : DotDims S4096x9 S9x128 S4096x128 where
  lhsContracting := [1]
  rhsContracting := [0]
  lhsNonContracting := [0]
  rhsNonContracting := [1]
  lhsBatch := []
  rhsBatch := []
  wf := dot_S4096x9_S9x128_S4096x128_1_0_0_1_n_n_wf
def scatter_S4096_S20480x1_S20480_n_0_0_1 : ScatterDims S4096 S20480x1 S20480 where
  updateWindowDims := []
  insertedWindowDims := [0]
  scatterDimsToOperandDims := [0]
  indexVectorDim := 1
  wf := scatter_S4096_S20480x1_S20480_n_0_0_1_wf
def gather_S4096_S20480x1_S20480_n_0_n_n_0_1_1 : GatherDims S4096 S20480x1 S20480 where
  offsetDims := []
  collapsedSliceDims := [0]
  operandBatchingDims := []
  startIndicesBatchingDims := []
  startIndexMap := [0]
  indexVectorDim := 1
  sliceSizes := ![1]
  wf := gather_S4096_S20480x1_S20480_n_0_n_n_0_1_1_wf
def gather_S4096x128_S20480x1_S20480x128_1_0_n_n_0_1_1128 : GatherDims S4096x128 S20480x1 S20480x128 where
  offsetDims := [1]
  collapsedSliceDims := [0]
  operandBatchingDims := []
  startIndicesBatchingDims := []
  startIndexMap := [0]
  indexVectorDim := 1
  sliceSizes := ![1, 128]
  wf := gather_S4096x128_S20480x1_S20480x128_1_0_n_n_0_1_1128_wf
def scatter_S4096x128_S20480x1_S20480x128_1_0_0_1 : ScatterDims S4096x128 S20480x1 S20480x128 where
  updateWindowDims := [1]
  insertedWindowDims := [0]
  scatterDimsToOperandDims := [0]
  indexVectorDim := 1
  wf := scatter_S4096x128_S20480x1_S20480x128_1_0_0_1_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def scatter_S64x128_S4096x1_S4096x128_1_0_0_1 : ScatterDims S64x128 S4096x1 S4096x128 where
  updateWindowDims := [1]
  insertedWindowDims := [0]
  scatterDimsToOperandDims := [0]
  indexVectorDim := 1
  wf := scatter_S64x128_S4096x1_S4096x128_1_0_0_1_wf
def scatter_S64_S4096x1_S4096_n_0_0_1 : ScatterDims S64 S4096x1 S4096 where
  updateWindowDims := []
  insertedWindowDims := [0]
  scatterDimsToOperandDims := [0]
  indexVectorDim := 1
  wf := scatter_S64_S4096x1_S4096_n_0_0_1_wf
def dot_S64x448_S448x128_S64x128_1_0_0_1_n_n : DotDims S64x448 S448x128 S64x128 where
  lhsContracting := [1]
  rhsContracting := [0]
  lhsNonContracting := [0]
  rhsNonContracting := [1]
  lhsBatch := []
  rhsBatch := []
  wf := dot_S64x448_S448x128_S64x128_1_0_0_1_n_n_wf
def dot_S64x128_S128x2_S64x2_1_0_0_1_n_n : DotDims S64x128 S128x2 S64x2 where
  lhsContracting := [1]
  rhsContracting := [0]
  lhsNonContracting := [0]
  rhsNonContracting := [1]
  lhsBatch := []
  rhsBatch := []
  wf := dot_S64x128_S128x2_S64x2_1_0_0_1_n_n_wf

class Facts : Prop extends Facts₀ where

variable [Facts]
-- ==== Proof.KernelRegion0.lean ====
/-
  Region 0 of `Kernel`'s @main — one dense layer, `act(x · w + b)` on a row tile — as one pipelined call: what each grid point's
  body leaves in the output window's staging buffer (the store's payload of the three input blocks), the body's triple, and
  the pipeline's proof data over ANY contents `V` the region is entered from. The body loads its three operand blocks whole,
  stores one whole block, and touches nothing else, so an input's buffer holds its block of the entry array at every point and
  the output's buffer holds the payload of those blocks.
-/
import proofs.«161272_j16312285791078_1_alg».proof.Proof.Gen.Kernel.Launch
import proofs.«161272_j16312285791078_1_alg».proof.Proof.Gen.Kernel.Skeleton
import proofs.«161272_j16312285791078_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block of the entry array at every point, fetched there or not. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's staging buffer holds its block of the entry array at every point, fetched there or not. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's staging buffer holds its block of the entry array at every point, fetched there or not. -/
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangles the body loads and stores through. -/
abbrev r0_0 : Rect S64x18640 := Rect.unit (s := S64x18640) ![0, 0] S64x18640.size inb_S64x18640_S64x18640_0_0
abbrev r0_1 : Rect S18640x128 := Rect.unit (s := S18640x128) ![0, 0] S18640x128.size inb_S18640x128_S18640x128_0_0
abbrev r0_2 : Rect S1x128 := Rect.unit (s := S1x128) ![0, 0] S1x128.size inb_S1x128_S1x128_0_0
abbrev r0_3 : Rect S64x128 := Rect.unit (s := S64x128) ![0, 0] S64x128.size inb_S64x128_S64x128_0_0

/-- The output window's staging buffer after the body, from the three input blocks: its one store, of the layer's payload. -/
def out0_3 (x0 : Vec F S64x18640 .bf16) (x1 : Vec F S18640x128 .bf16) (x2 : Vec F S1x128 .f32) : Vec F S64x128 .f32 :=
  View.canon [⟨r0_3, k0_pay1 (View.ld x0 r0_0) (View.ld x1 r0_1) (View.ld x2 r0_2)⟩]

/-- The one store covers the buffer. -/
theorem cover0_3 (p0 : Vec F S64x128 .f32) (y : S64x128.Idx) :
    ∃ pc ∈ ([⟨r0_3, p0⟩] : List (View.Piece (Elt F) S64x128 .f32)), y ∈ pc.1.set :=
  View.cover_of_tiled [⟨r0_3, p0⟩] S64x128.size (by rfl) y

set_option maxHeartbeats 1000000 in
/-- The body on whole staging memrefs — the inputs' at contents `x0 x1 x2`, the output's at anything — runs to the continuation
    with the inputs' as they were and the output's at `out0_3 x0 x1 x2`. -/
theorem sound_kernel0 (c : Dev nD) (E : Set ℕ) (i : grid0.Coords) (arg1 : Memref sig .tc .vmem S64x18640 .bf16) (harg1 : arg1.IsWhole) (arg2 : Memref sig .tc .vmem S18640x128 .bf16) (harg2 : arg2.IsWhole) (arg3 : Memref sig .tc .vmem S1x128 .f32) (harg3 : arg3.IsWhole) (arg4 : Memref sig .tc .vmem S64x128 .f32) (harg4 : arg4.IsWhole)
    (x0 : Vec F S64x18640 .bf16) (x1 : Vec F S18640x128 .bf16) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__dense_kernel i arg1 harg1 arg2 harg2 arg3 harg3 arg4 harg4) K := by
  simp only [cc0__dense_kernel_eq_skeleton]; unfold cc0__dense_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The pipeline's proof data on core `c`: the arrays as the region finds them; after the body at point `t` each input's buffer at
    its block and the output's at the payload of the input blocks; the class-A invariant; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Rg

end
-- ==== Proof.KernelRegion1.lean ====
/-
  Region 1 of `Kernel`'s @main — one dense layer, `act(x · w + b)` on a row tile — as one pipelined call: what each grid point's
  body leaves in the output window's staging buffer (the store's payload of the three input blocks), the body's triple, and
  the pipeline's proof data over ANY contents `V` the region is entered from. The body loads its three operand blocks whole,
  stores one whole block, and touches nothing else, so an input's buffer holds its block of the entry array at every point and
  the output's buffer holds the payload of those blocks.
-/
import proofs.«161272_j16312285791078_1_alg».proof.Proof.Gen.Kernel.Launch
import proofs.«161272_j16312285791078_1_alg».proof.Proof.Gen.Kernel.Skeleton
import proofs.«161272_j16312285791078_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block of the entry array at every point, fetched there or not. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's staging buffer holds its block of the entry array at every point, fetched there or not. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's staging buffer holds its block of the entry array at every point, fetched there or not. -/
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole-block rectangles the body loads and stores through. -/
abbrev r1_0 : Rect S64x128 := Rect.unit (s := S64x128) ![0, 0] S64x128.size inb_S64x128_S64x128_0_0
abbrev r1_1 : Rect S128x128 := Rect.unit (s := S128x128) ![0, 0] S128x128.size inb_S128x128_S128x128_0_0
abbrev r1_2 : Rect S1x128 := Rect.unit (s := S1x128) ![0, 0] S1x128.size inb_S1x128_S1x128_0_0
abbrev r1_3 : Rect S64x128 := Rect.unit (s := S64x128) ![0, 0] S64x128.size inb_S64x128_S64x128_0_0

/-- The output window's staging buffer after the body, from the three input blocks: its one store, of the layer's payload. -/
def out1_3 (x0 : Vec F S64x128 .bf16) (x1 : Vec F S128x128 .bf16) (x2 : Vec F S1x128 .f32) : Vec F S64x128 .f32 :=
  View.canon [⟨r1_3, k1_pay1 (View.ld x0 r1_0) (View.ld x1 r1_1) (View.ld x2 r1_2)⟩]

/-- The one store covers the buffer. -/
theorem cover1_3 (p0 : Vec F S64x128 .f32) (y : S64x128.Idx) :
    ∃ pc ∈ ([⟨r1_3, p0⟩] : List (View.Piece (Elt F) S64x128 .f32)), y ∈ pc.1.set :=
  View.cover_of_tiled [⟨r1_3, p0⟩] S64x128.size (by rfl) y

set_option maxHeartbeats 1000000 in
/-- The body on whole staging memrefs — the inputs' at contents `x0 x1 x2`, the output's at anything — runs to the continuation
    with the inputs' as they were and the output's at `out1_3 x0 x1 x2`. -/
theorem sound_kernel1 (c : Dev nD) (E : Set ℕ) (i : grid1.Coords) (arg1 : Memref sig .tc .vmem S64x128 .bf16) (harg1 : arg1.IsWhole) (arg2 : Memref sig .tc .vmem S128x128 .bf16) (harg2 : arg2.IsWhole) (arg3 : Memref sig .tc .vmem S1x128 .f32) (harg3 : arg3.IsWhole) (arg4 : Memref sig .tc .vmem S64x128 .f32) (harg4 : arg4.IsWhole)
    (x0 : Vec F S64x128 .bf16) (x1 : Vec F S128x128 .bf16) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__dense_kernel i arg1 harg1 arg2 harg2 arg3 harg3 arg4 harg4) K := by
  simp only [cc1__dense_kernel_eq_skeleton]; unfold cc1__dense_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The pipeline's proof data on core `c`: the arrays as the region finds them; after the body at point `t` each input's buffer at
    its block and the output's at the payload of the input blocks; the class-A invariant; nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Rg

end
-- ==== Proof.KernelRegion2.lean ====
/-
  Region 2 of `Kernel`'s @main — one dense layer, `act(x · w + b)` on a row tile — as one pipelined call: what each grid point's
  body leaves in the output window's staging buffer (the store's payload of the three input blocks), the body's triple, and
  the pipeline's proof data over ANY contents `V` the region is entered from. The body loads its three operand blocks whole,
  stores one whole block, and touches nothing else, so an input's buffer holds its block of the entry array at every point and
  the output's buffer holds the payload of those blocks.
-/
import proofs.«161272_j16312285791078_1_alg».proof.Proof.Gen.Kernel.Launch
import proofs.«161272_j16312285791078_1_alg».proof.Proof.Gen.Kernel.Skeleton
import proofs.«161272_j16312285791078_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block of the entry array at every point, fetched there or not. -/
theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's staging buffer holds its block of the entry array at every point, fetched there or not. -/
theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's staging buffer holds its block of the entry array at every point, fetched there or not. -/
theorem before2_2_of {c : Dev nD} (dat : Dat τ (Elt F) Unit ℕ (Pipeline.UD sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The whole-block rectangles the body loads and stores through. -/
abbrev r2_0 : Rect S64x21 := Rect.unit (s := S64x21) ![0, 0] S64x21.size inb_S64x21_S64x21_0_0
abbrev r2_1 : Rect S21x64 := Rect.unit (s := S21x64) ![0, 0] S21x64.size inb_S21x64_S21x64_0_0
abbrev r2_2 : Rect S1x64 := Rect.unit (s := S1x64) ![0, 0] S1x64.size inb_S1x64_S1x64_0_0
abbrev r2_3 : Rect S64x64 := Rect.unit (s := S64x64) ![0, 0] S64x64.size inb_S64x64_S64x64_0_0

/-- The output window's staging buffer after the body, from the three input blocks: its one store, of the layer's payload. -/
def out2_3 (x0 : Vec F S64x21 .bf16) (x1 : Vec F S21x64 .bf16) (x2 : Vec F S1x64 .f32) : Vec F S64x64 .f32 :=
  View.canon [⟨r2_3, k2_pay1 (View.ld x0 r2_0) (View.ld x1 r2_1) (View.ld x2 r2_2)⟩]

/-- The one store covers the buffer. -/
theorem cover2_3 (p0 : Vec F S64x64 .f32) (y : S64x64.Idx) :
    ∃ pc ∈ ([⟨r2_3, p0⟩] : List (View.Piece (Elt F) S64x64 .f32)), y ∈ pc.1.set :=
  View.cover_of_tiled [⟨r2_3, p0⟩] S64x64.size (by rfl) y

set_option maxHeartbeats 1000000 in
/-- The body on whole staging memrefs — the inputs' at contents `x0 x1 x2`, the output's at anything — runs to the continuation
    with the inputs' as they were and the output's at `out2_3 x0 x1 x2`. -/
theorem sound_kernel2 (c : Dev nD) (E : Set ℕ) (i : grid2.Coords) (arg1 : Memref sig .tc .vmem S64x21 .bf16) (harg1 : arg1.IsWhole) (arg2 : Memref sig .tc .vmem S21x64 .bf16) (harg2 : arg2.IsWhole) (arg3 : Memref sig .tc .vmem S1x64 .f32) (harg3 : arg3.IsWhole) (arg4 : Memref sig .tc .vmem S64x64 .f32) (harg4 : arg4.IsWhole)
    (x0 : Vec F S64x21 .bf16) (x1 : Vec F S21x64 .bf16) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__dense_kernel i arg1 harg1 arg2 harg2 arg3 harg3 arg4 harg4) K := by
  simp only [cc2__dense_kernel_eq_skeleton]; unfold cc2__dense_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The pipeline's proof data on core `c`: the arrays as the region finds them; after the body at point `t` each input's buffer at
    its block and the output's at the payload of the input blocks; the class-A invariant; nothing owed; full shares. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the body's triple applies; the invariant and the core's
    dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Rg

end
-- ==== Proof.KernelRegion3.lean ====
/-
  Region 3 of `Kernel`'s @main — one dense layer, `act(x · w + b)` on a row tile — as one pipelined call: what each grid point's
  body leaves in the output window's staging buffer (the store's payload of the three input blocks), the body's triple, and
  the pipeline's proof data over ANY contents `V` the region is entered from. The body loads its three operand blocks whole,
  stores one whole block, and touches nothing else, so an input's buffer holds its block of the entry array at every point and
  the output's buffer holds the payload of those blocks.
-/
import proofs.«161272_j16312285791078_1_alg».proof.Proof.Gen.Kernel.Launch
import proofs.«161272_j16312285791078_1_alg».proof.Proof.Gen.Kernel.Skeleton
import proofs.«161272_j16312285791078_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block of the entry array at every point, fetched there or not. -/
theorem before3_0_of {c : Dev nD} (dat : Dat τ (Elt F) Unit ℕ (Pipeline.UD sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's staging buffer holds its block of the entry array at every point, fetched there or not. -/
theorem before3_1_of {c : Dev nD} (dat : Dat τ (Elt F) Unit ℕ (Pipeline.UD sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's staging buffer holds its block of the entry array at every point, fetched there or not. -/
theorem before3_2_of {c : Dev nD} (dat : Dat τ (Elt F) Unit ℕ (Pipeline.UD sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The whole-block rectangles the body loads and stores through. -/
abbrev r3_0 : Rect S64x64 := Rect.unit (s := S64x64) ![0, 0] S64x64.size inb_S64x64_S64x64_0_0
abbrev r3_1 : Rect S64x64 := Rect.unit (s := S64x64) ![0, 0] S64x64.size inb_S64x64_S64x64_0_0
abbrev r3_2 : Rect S1x64 := Rect.unit (s := S1x64) ![0, 0] S1x64.size inb_S1x64_S1x64_0_0
abbrev r3_3 : Rect S64x64 := Rect.unit (s := S64x64) ![0, 0] S64x64.size inb_S64x64_S64x64_0_0

/-- The output window's staging buffer after the body, from the three input blocks: its one store, of the layer's payload. -/
def out3_3 (x0 : Vec F S64x64 .bf16) (x1 : Vec F S64x64 .bf16) (x2 : Vec F S1x64 .f32) : Vec F S64x64 .f32 :=
  View.canon [⟨r3_3, k3_pay1 (View.ld x0 r3_0) (View.ld x1 r3_1) (View.ld x2 r3_2)⟩]

/-- The one store covers the buffer. -/
theorem cover3_3 (p0 : Vec F S64x64 .f32) (y : S64x64.Idx) :
    ∃ pc ∈ ([⟨r3_3, p0⟩] : List (View.Piece (Elt F) S64x64 .f32)), y ∈ pc.1.set :=
  View.cover_of_tiled [⟨r3_3, p0⟩] S64x64.size (by rfl) y

set_option maxHeartbeats 1000000 in
/-- The body on whole staging memrefs — the inputs' at contents `x0 x1 x2`, the output's at anything — runs to the continuation
    with the inputs' as they were and the output's at `out3_3 x0 x1 x2`. -/
theorem sound_kernel3 (c : Dev nD) (E : Set ℕ) (i : grid3.Coords) (arg1 : Memref sig .tc .vmem S64x64 .bf16) (harg1 : arg1.IsWhole) (arg2 : Memref sig .tc .vmem S64x64 .bf16) (harg2 : arg2.IsWhole) (arg3 : Memref sig .tc .vmem S1x64 .f32) (harg3 : arg3.IsWhole) (arg4 : Memref sig .tc .vmem S64x64 .f32) (harg4 : arg4.IsWhole)
    (x0 : Vec F S64x64 .bf16) (x1 : Vec F S64x64 .bf16) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2)) -∗ K ⟨⟩))
      ⊢ wp frame (wpE (defs₀ (F := F)) Variants.none c none) E (cc3__dense_kernel i arg1 harg1 arg2 harg2 arg3 harg3 arg4 harg4) K := by
  simp only [cc3__dense_kernel_eq_skeleton]; unfold cc3__dense_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-- The pipeline's proof data on core `c`: the arrays as the region finds them; after the body at point `t` each input's buffer at
    its block and the output's at the payload of the input blocks; the class-A invariant; nothing owed; full shares. -/
def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks, so the body's triple applies; the invariant and the core's
    dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ (grid3.coords t) _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Rg

end
-- ==== Proof.KernelRegion4.lean ====
/-
  Region 4 of `Kernel`'s @main — one dense layer, `act(x · w + b)` on a row tile — as one pipelined call: what each grid point's
  body leaves in the output window's staging buffer (the store's payload of the three input blocks), the body's triple, and
  the pipeline's proof data over ANY contents `V` the region is entered from. The body loads its three operand blocks whole,
  stores one whole block, and touches nothing else, so an input's buffer holds its block of the entry array at every point and
  the output's buffer holds the payload of those blocks.
-/
import proofs.«161272_j16312285791078_1_alg».proof.Proof.Gen.Kernel.Launch
import proofs.«161272_j16312285791078_1_alg».proof.Proof.Gen.Kernel.Skeleton
import proofs.«161272_j16312285791078_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-- Window `w`'s block at grid point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's staging buffer holds its block of the entry array at every point, fetched there or not. -/
theorem before4_0_of {c : Dev nD} (dat : Dat τ (Elt F) Unit ℕ (Pipeline.UD sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Input window 1's staging buffer holds its block of the entry array at every point, fetched there or not. -/
theorem before4_1_of {c : Dev nD} (dat : Dat τ (Elt F) Unit ℕ (Pipeline.UD sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- Input window 2's staging buffer holds its block of the entry array at every point, fetched there or not. -/
theorem before4_2_of {c : Dev nD} (dat : Dat τ (Elt F) Unit ℕ (Pipeline.UD sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- The whole-block rectangles the body loads and stores through. -/
abbrev r4_0 : Rect S4000x9 := Rect.unit (s := S4000x9) ![0, 0] S4000x9.size inb_S4000x9_S4000x9_0_0
abbrev r4_1 : Rect S9x128 := Rect.unit (s := S9x128) ![0, 0] S9x128.size inb_S9x128_S9x128_0_0
abbrev r4_2 : Rect S1x128 := Rect.unit (s := S1x128) ![0, 0] S1x128.size inb_S1x128_S1x128_0_0
abbrev r4_3 : Rect S4000x128 := Rect.unit (s := S4000x128) ![0, 0] S4000x128.size inb_S4000x128_S4000x128_0_0

/-- The output window's staging buffer after the body, from the three input blocks: its one store, of the layer's payload. -/
def out4_3 (x0 : Vec F S4000x9 .bf16) (x1 : Vec F S9x128 .bf16) (x2 : Vec F S1x128 .f32) : Vec F S4000x128 .f32 :=
  View.canon [⟨r4_3, k4_pay1 (View.ld x0 r4_0) (View.ld x1 r4_1) (View.ld x2 r4_2)⟩]

/-- The one store covers the buffer. -/
theorem cover4_3 (p0 : Vec F S4000x128 .f32) (y : S4000x128.Idx) :
    ∃ pc ∈ ([⟨r4_3, p0⟩] : List (View.Piece (Elt F) S4000x128 .f32)), y ∈ pc.1.set :=
  View.cover_of_tiled [⟨r4_3, p0⟩] S4000x128.size (by rfl) y

set_option maxHeartbeats 1000000 in
/-- The body on whole staging memrefs — the inputs' at contents `x0 x1 x2`, the output's at anything — runs to the continuation
    with the inputs' as they were and the output's at `out4_3 x0 x1 x2`. -/
theorem sound_kernel4 (c : Dev nD) (E : Set ℕ) (i : grid4.Coords) (arg1 : Memref sig .tc .vmem S4000x9 .bf16) (harg1 : arg1.IsWhole) (arg2 : Memref sig .tc .vmem S9x128 .bf16) (harg2 : arg2.IsWhole) (arg3 : Memref sig .tc .vmem S1x128 .f32) (harg3 : arg3.IsWhole) (arg4 : Memref sig .tc .vmem S4000x128 .f32) (harg4 : arg4.IsWhole)
    (x0 : Vec F S4000x9 .bf16) (x1 : Vec F S9x128 .bf16) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out4_3 x0 x1 x2)) -∗ K ⟨⟩))
      ⊢ wp frame (wpE (defs₀ (F := F)) Variants.none c none) E (cc4__dense_kernel i arg1 harg1 arg2 harg2 arg3 harg3 arg4 harg4) K := by
  simp only [cc4__dense_kernel_eq_skeleton]; unfold cc4__dense_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-- The pipeline's proof data on core `c`: the arrays as the region finds them; after the body at point `t` each input's buffer at
    its block and the output's at the payload of the input blocks; the class-A invariant; nothing owed; full shares. -/
def dat4 (c : Dev nD) : Dat τ (Elt F) Unit ℕ (Pipeline.UD sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4_3 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' memrefs hold their blocks, so the body's triple applies; the invariant and the core's
    dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ (grid4.coords t) _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Rg

end
-- ==== Proof.KernelRegion5.lean ====
/-
  Region 5 of `Kernel`'s @main — one dense layer, `act(x · w + b)` on a row tile — as one pipelined call: what each grid point's
  body leaves in the output window's staging buffer (the store's payload of the three input blocks), the body's triple, and
  the pipeline's proof data over ANY contents `V` the region is entered from. The body loads its three operand blocks whole,
  stores one whole block, and touches nothing else, so an input's buffer holds its block of the entry array at every point and
  the output's buffer holds the payload of those blocks.
-/
import proofs.«161272_j16312285791078_1_alg».proof.Proof.Gen.Kernel.Launch
import proofs.«161272_j16312285791078_1_alg».proof.Proof.Gen.Kernel.Skeleton
import proofs.«161272_j16312285791078_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-- Window `w`'s block at grid point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's staging buffer holds its block of the entry array at every point, fetched there or not. -/
theorem before5_0_of {c : Dev nD} (dat : Dat τ (Elt F) Unit ℕ (Pipeline.UD sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- Input window 1's staging buffer holds its block of the entry array at every point, fetched there or not. -/
theorem before5_1_of {c : Dev nD} (dat : Dat τ (Elt F) Unit ℕ (Pipeline.UD sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- Input window 2's staging buffer holds its block of the entry array at every point, fetched there or not. -/
theorem before5_2_of {c : Dev nD} (dat : Dat τ (Elt F) Unit ℕ (Pipeline.UD sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- The whole-block rectangles the body loads and stores through. -/
abbrev r5_0 : Rect S4000x128 := Rect.unit (s := S4000x128) ![0, 0] S4000x128.size inb_S4000x128_S4000x128_0_0
abbrev r5_1 : Rect S128x128 := Rect.unit (s := S128x128) ![0, 0] S128x128.size inb_S128x128_S128x128_0_0
abbrev r5_2 : Rect S1x128 := Rect.unit (s := S1x128) ![0, 0] S1x128.size inb_S1x128_S1x128_0_0
abbrev r5_3 : Rect S4000x128 := Rect.unit (s := S4000x128) ![0, 0] S4000x128.size inb_S4000x128_S4000x128_0_0

/-- The output window's staging buffer after the body, from the three input blocks: its one store, of the layer's payload. -/
def out5_3 (x0 : Vec F S4000x128 .bf16) (x1 : Vec F S128x128 .bf16) (x2 : Vec F S1x128 .f32) : Vec F S4000x128 .f32 :=
  View.canon [⟨r5_3, k5_pay1 (View.ld x0 r5_0) (View.ld x1 r5_1) (View.ld x2 r5_2)⟩]

/-- The one store covers the buffer. -/
theorem cover5_3 (p0 : Vec F S4000x128 .f32) (y : S4000x128.Idx) :
    ∃ pc ∈ ([⟨r5_3, p0⟩] : List (View.Piece (Elt F) S4000x128 .f32)), y ∈ pc.1.set :=
  View.cover_of_tiled [⟨r5_3, p0⟩] S4000x128.size (by rfl) y

set_option maxHeartbeats 1000000 in
/-- The body on whole staging memrefs — the inputs' at contents `x0 x1 x2`, the output's at anything — runs to the continuation
    with the inputs' as they were and the output's at `out5_3 x0 x1 x2`. -/
theorem sound_kernel5 (c : Dev nD) (E : Set ℕ) (i : grid5.Coords) (arg1 : Memref sig .tc .vmem S4000x128 .bf16) (harg1 : arg1.IsWhole) (arg2 : Memref sig .tc .vmem S128x128 .bf16) (harg2 : arg2.IsWhole) (arg3 : Memref sig .tc .vmem S1x128 .f32) (harg3 : arg3.IsWhole) (arg4 : Memref sig .tc .vmem S4000x128 .f32) (harg4 : arg4.IsWhole)
    (x0 : Vec F S4000x128 .bf16) (x1 : Vec F S128x128 .bf16) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out5_3 x0 x1 x2)) -∗ K ⟨⟩))
      ⊢ wp frame (wpE (defs₀ (F := F)) Variants.none c none) E (cc5__dense_kernel i arg1 harg1 arg2 harg2 arg3 harg3 arg4 harg4) K := by
  simp only [cc5__dense_kernel_eq_skeleton]; unfold cc5__dense_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-- The pipeline's proof data on core `c`: the arrays as the region finds them; after the body at point `t` each input's buffer at
    its block and the output's at the payload of the input blocks; the class-A invariant; nothing owed; full shares. -/
def dat5 (c : Dev nD) : Dat τ (Elt F) Unit ℕ (Pipeline.UD sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5_3 (iblk5 V c 0 t) (iblk5 V c 1 t) (iblk5 V c 2 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the inputs' memrefs hold their blocks, so the body's triple applies; the invariant and the core's
    dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ (grid5.coords t) _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Rg

end
-- ==== Proof.KernelRegion6.lean ====
/-
  Region 6 of `Kernel`'s @main — one dense layer, `act(x · w + b)` on a row tile — as one pipelined call: what each grid point's
  body leaves in the output window's staging buffer (the store's payload of the three input blocks), the body's triple, and
  the pipeline's proof data over ANY contents `V` the region is entered from. The body loads its three operand blocks whole,
  stores one whole block, and touches nothing else, so an input's buffer holds its block of the entry array at every point and
  the output's buffer holds the payload of those blocks.
-/
import proofs.«161272_j16312285791078_1_alg».proof.Proof.Gen.Kernel.Launch
import proofs.«161272_j16312285791078_1_alg».proof.Proof.Gen.Kernel.Skeleton
import proofs.«161272_j16312285791078_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-- Window `w`'s block at grid point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's staging buffer holds its block of the entry array at every point, fetched there or not. -/
theorem before6_0_of {c : Dev nD} (dat : Dat τ (Elt F) Unit ℕ (Pipeline.UD sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
/-- Input window 1's staging buffer holds its block of the entry array at every point, fetched there or not. -/
theorem before6_1_of {c : Dev nD} (dat : Dat τ (Elt F) Unit ℕ (Pipeline.UD sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
/-- Input window 2's staging buffer holds its block of the entry array at every point, fetched there or not. -/
theorem before6_2_of {c : Dev nD} (dat : Dat τ (Elt F) Unit ℕ (Pipeline.UD sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- The whole-block rectangles the body loads and stores through. -/
abbrev r6_0 : Rect S4096x9 := Rect.unit (s := S4096x9) ![0, 0] S4096x9.size inb_S4096x9_S4096x9_0_0
abbrev r6_1 : Rect S9x128 := Rect.unit (s := S9x128) ![0, 0] S9x128.size inb_S9x128_S9x128_0_0
abbrev r6_2 : Rect S1x128 := Rect.unit (s := S1x128) ![0, 0] S1x128.size inb_S1x128_S1x128_0_0
abbrev r6_3 : Rect S4096x128 := Rect.unit (s := S4096x128) ![0, 0] S4096x128.size inb_S4096x128_S4096x128_0_0

/-- The output window's staging buffer after the body, from the three input blocks: its one store, of the layer's payload. -/
def out6_3 (x0 : Vec F S4096x9 .bf16) (x1 : Vec F S9x128 .bf16) (x2 : Vec F S1x128 .f32) : Vec F S4096x128 .f32 :=
  View.canon [⟨r6_3, k6_pay1 (View.ld x0 r6_0) (View.ld x1 r6_1) (View.ld x2 r6_2)⟩]

/-- The one store covers the buffer. -/
theorem cover6_3 (p0 : Vec F S4096x128 .f32) (y : S4096x128.Idx) :
    ∃ pc ∈ ([⟨r6_3, p0⟩] : List (View.Piece (Elt F) S4096x128 .f32)), y ∈ pc.1.set :=
  View.cover_of_tiled [⟨r6_3, p0⟩] S4096x128.size (by rfl) y

set_option maxHeartbeats 1000000 in
/-- The body on whole staging memrefs — the inputs' at contents `x0 x1 x2`, the output's at anything — runs to the continuation
    with the inputs' as they were and the output's at `out6_3 x0 x1 x2`. -/
theorem sound_kernel6 (c : Dev nD) (E : Set ℕ) (i : grid6.Coords) (arg1 : Memref sig .tc .vmem S4096x9 .bf16) (harg1 : arg1.IsWhole) (arg2 : Memref sig .tc .vmem S9x128 .bf16) (harg2 : arg2.IsWhole) (arg3 : Memref sig .tc .vmem S1x128 .f32) (harg3 : arg3.IsWhole) (arg4 : Memref sig .tc .vmem S4096x128 .f32) (harg4 : arg4.IsWhole)
    (x0 : Vec F S4096x9 .bf16) (x1 : Vec F S9x128 .bf16) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out6_3 x0 x1 x2)) -∗ K ⟨⟩))
      ⊢ wp frame (wpE (defs₀ (F := F)) Variants.none c none) E (cc6__dense_kernel i arg1 harg1 arg2 harg2 arg3 harg3 arg4 harg4) K := by
  simp only [cc6__dense_kernel_eq_skeleton]; unfold cc6__dense_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

/-- The pipeline's proof data on core `c`: the arrays as the region finds them; after the body at point `t` each input's buffer at
    its block and the output's at the payload of the input blocks; the class-A invariant; nothing owed; full shares. -/
def dat6 (c : Dev nD) : Dat τ (Elt F) Unit ℕ (Pipeline.UD sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = out6_3 (iblk6 V c 0 t) (iblk6 V c 1 t) (iblk6 V c 2 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-- What the body is called with at point `t`, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- The body at any point: the inputs' memrefs hold their blocks, so the body's triple applies; the invariant and the core's
    dues pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ (grid6.coords t) _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Rg

end
-- ==== Proof.KernelRegion7.lean ====
/-
  Region 7 of `Kernel`'s @main — one dense layer, `act(x · w + b)` on a row tile — as one pipelined call: what each grid point's
  body leaves in the output window's staging buffer (the store's payload of the three input blocks), the body's triple, and
  the pipeline's proof data over ANY contents `V` the region is entered from. The body loads its three operand blocks whole,
  stores one whole block, and touches nothing else, so an input's buffer holds its block of the entry array at every point and
  the output's buffer holds the payload of those blocks.
-/
import proofs.«161272_j16312285791078_1_alg».proof.Proof.Gen.Kernel.Launch
import proofs.«161272_j16312285791078_1_alg».proof.Proof.Gen.Kernel.Skeleton
import proofs.«161272_j16312285791078_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-- Window `w`'s block at grid point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's staging buffer holds its block of the entry array at every point, fetched there or not. -/
theorem before7_0_of {c : Dev nD} (dat : Dat τ (Elt F) Unit ℕ (Pipeline.UD sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
/-- Input window 1's staging buffer holds its block of the entry array at every point, fetched there or not. -/
theorem before7_1_of {c : Dev nD} (dat : Dat τ (Elt F) Unit ℕ (Pipeline.UD sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
/-- Input window 2's staging buffer holds its block of the entry array at every point, fetched there or not. -/
theorem before7_2_of {c : Dev nD} (dat : Dat τ (Elt F) Unit ℕ (Pipeline.UD sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- The whole-block rectangles the body loads and stores through. -/
abbrev r7_0 : Rect S4096x128 := Rect.unit (s := S4096x128) ![0, 0] S4096x128.size inb_S4096x128_S4096x128_0_0
abbrev r7_1 : Rect S128x128 := Rect.unit (s := S128x128) ![0, 0] S128x128.size inb_S128x128_S128x128_0_0
abbrev r7_2 : Rect S1x128 := Rect.unit (s := S1x128) ![0, 0] S1x128.size inb_S1x128_S1x128_0_0
abbrev r7_3 : Rect S4096x128 := Rect.unit (s := S4096x128) ![0, 0] S4096x128.size inb_S4096x128_S4096x128_0_0

/-- The output window's staging buffer after the body, from the three input blocks: its one store, of the layer's payload. -/
def out7_3 (x0 : Vec F S4096x128 .bf16) (x1 : Vec F S128x128 .bf16) (x2 : Vec F S1x128 .f32) : Vec F S4096x128 .f32 :=
  View.canon [⟨r7_3, k7_pay1 (View.ld x0 r7_0) (View.ld x1 r7_1) (View.ld x2 r7_2)⟩]

/-- The one store covers the buffer. -/
theorem cover7_3 (p0 : Vec F S4096x128 .f32) (y : S4096x128.Idx) :
    ∃ pc ∈ ([⟨r7_3, p0⟩] : List (View.Piece (Elt F) S4096x128 .f32)), y ∈ pc.1.set :=
  View.cover_of_tiled [⟨r7_3, p0⟩] S4096x128.size (by rfl) y

set_option maxHeartbeats 1000000 in
/-- The body on whole staging memrefs — the inputs' at contents `x0 x1 x2`, the output's at anything — runs to the continuation
    with the inputs' as they were and the output's at `out7_3 x0 x1 x2`. -/
theorem sound_kernel7 (c : Dev nD) (E : Set ℕ) (i : grid7.Coords) (arg1 : Memref sig .tc .vmem S4096x128 .bf16) (harg1 : arg1.IsWhole) (arg2 : Memref sig .tc .vmem S128x128 .bf16) (harg2 : arg2.IsWhole) (arg3 : Memref sig .tc .vmem S1x128 .f32) (harg3 : arg3.IsWhole) (arg4 : Memref sig .tc .vmem S4096x128 .f32) (harg4 : arg4.IsWhole)
    (x0 : Vec F S4096x128 .bf16) (x1 : Vec F S128x128 .bf16) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out7_3 x0 x1 x2)) -∗ K ⟨⟩))
      ⊢ wp frame (wpE (defs₀ (F := F)) Variants.none c none) E (cc7__dense_kernel i arg1 harg1 arg2 harg2 arg3 harg3 arg4 harg4) K := by
  simp only [cc7__dense_kernel_eq_skeleton]; unfold cc7__dense_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover7_3 _)

/-- The pipeline's proof data on core `c`: the arrays as the region finds them; after the body at point `t` each input's buffer at
    its block and the output's at the payload of the input blocks; the class-A invariant; nothing owed; full shares. -/
def dat7 (c : Dev nD) : Dat τ (Elt F) Unit ℕ (Pipeline.UD sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = out7_3 (iblk7 V c 0 t) (iblk7 V c 1 t) (iblk7 V c 2 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-- What the body is called with at point `t`, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t))

/-- The body at any point: the inputs' memrefs hold their blocks, so the body's triple applies; the invariant and the core's
    dues pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).Φ t.succ = (dat7 V c).Φ t.castSucc from rfl,
    show (dat7 V c).owesAt () t.succ = (dat7 V c).owesAt () t.castSucc from rfl,
    after7_0, after7_1, after7_2, after7_3]
  iintro ⟨HΦ, Ho, ⟨%d0, H0⟩, ⟨%d1, H1⟩, ⟨%d2, H2⟩, ⟨%d3, H3⟩⟩
  iapply (sound_kernel7 c Set.univ (grid7.coords t) _ _ _ _ _ _ _ _ (iblk7 V c 0 t) (iblk7 V c 1 t) (iblk7 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation7 (c : Dev nD) : BodyObligation (dat7 (F := F) V c) (defs₀ (F := F)) Variants.none () Set.univ := fun t => by
  rw [bigSep_W7, bigSep_W7]
  exact sound_body7 V c t

end Cert.Kernel.Rg

end
-- ==== Proof.KernelRegion8.lean ====
/-
  Region 8 of `Kernel`'s @main — one dense layer, `act(x · w + b)` on a row tile — as one pipelined call: what each grid point's
  body leaves in the output window's staging buffer (the store's payload of the three input blocks), the body's triple, and
  the pipeline's proof data over ANY contents `V` the region is entered from. The body loads its three operand blocks whole,
  stores one whole block, and touches nothing else, so an input's buffer holds its block of the entry array at every point and
  the output's buffer holds the payload of those blocks.
-/
import proofs.«161272_j16312285791078_1_alg».proof.Proof.Gen.Kernel.Launch
import proofs.«161272_j16312285791078_1_alg».proof.Proof.Gen.Kernel.Skeleton
import proofs.«161272_j16312285791078_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-- Window `w`'s block at grid point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's staging buffer holds its block of the entry array at every point, fetched there or not. -/
theorem before8_0_of {c : Dev nD} (dat : Dat τ (Elt F) Unit ℕ (Pipeline.UD sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
/-- Input window 1's staging buffer holds its block of the entry array at every point, fetched there or not. -/
theorem before8_1_of {c : Dev nD} (dat : Dat τ (Elt F) Unit ℕ (Pipeline.UD sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
/-- Input window 2's staging buffer holds its block of the entry array at every point, fetched there or not. -/
theorem before8_2_of {c : Dev nD} (dat : Dat τ (Elt F) Unit ℕ (Pipeline.UD sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- The whole-block rectangles the body loads and stores through. -/
abbrev r8_0 : Rect S64x448 := Rect.unit (s := S64x448) ![0, 0] S64x448.size inb_S64x448_S64x448_0_0
abbrev r8_1 : Rect S448x128 := Rect.unit (s := S448x128) ![0, 0] S448x128.size inb_S448x128_S448x128_0_0
abbrev r8_2 : Rect S1x128 := Rect.unit (s := S1x128) ![0, 0] S1x128.size inb_S1x128_S1x128_0_0
abbrev r8_3 : Rect S64x128 := Rect.unit (s := S64x128) ![0, 0] S64x128.size inb_S64x128_S64x128_0_0

/-- The output window's staging buffer after the body, from the three input blocks: its one store, of the layer's payload. -/
def out8_3 (x0 : Vec F S64x448 .bf16) (x1 : Vec F S448x128 .bf16) (x2 : Vec F S1x128 .f32) : Vec F S64x128 .f32 :=
  View.canon [⟨r8_3, k8_pay1 (View.ld x0 r8_0) (View.ld x1 r8_1) (View.ld x2 r8_2)⟩]

/-- The one store covers the buffer. -/
theorem cover8_3 (p0 : Vec F S64x128 .f32) (y : S64x128.Idx) :
    ∃ pc ∈ ([⟨r8_3, p0⟩] : List (View.Piece (Elt F) S64x128 .f32)), y ∈ pc.1.set :=
  View.cover_of_tiled [⟨r8_3, p0⟩] S64x128.size (by rfl) y

set_option maxHeartbeats 1000000 in
/-- The body on whole staging memrefs — the inputs' at contents `x0 x1 x2`, the output's at anything — runs to the continuation
    with the inputs' as they were and the output's at `out8_3 x0 x1 x2`. -/
theorem sound_kernel8 (c : Dev nD) (E : Set ℕ) (i : grid8.Coords) (arg1 : Memref sig .tc .vmem S64x448 .bf16) (harg1 : arg1.IsWhole) (arg2 : Memref sig .tc .vmem S448x128 .bf16) (harg2 : arg2.IsWhole) (arg3 : Memref sig .tc .vmem S1x128 .f32) (harg3 : arg3.IsWhole) (arg4 : Memref sig .tc .vmem S64x128 .f32) (harg4 : arg4.IsWhole)
    (x0 : Vec F S64x448 .bf16) (x1 : Vec F S448x128 .bf16) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out8_3 x0 x1 x2)) -∗ K ⟨⟩))
      ⊢ wp frame (wpE (defs₀ (F := F)) Variants.none c none) E (cc8__dense_kernel i arg1 harg1 arg2 harg2 arg3 harg3 arg4 harg4) K := by
  simp only [cc8__dense_kernel_eq_skeleton]; unfold cc8__dense_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover8_3 _)

/-- The pipeline's proof data on core `c`: the arrays as the region finds them; after the body at point `t` each input's buffer at
    its block and the output's at the payload of the input blocks; the class-A invariant; nothing owed; full shares. -/
def dat8 (c : Dev nD) : Dat τ (Elt F) Unit ℕ (Pipeline.UD sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => out8_3 (iblk8 V c 0 t) (iblk8 V c 1 t) (iblk8 V c 2 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = out8_3 (iblk8 V c 0 t) (iblk8 V c 1 t) (iblk8 V c 2 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d

/-- What the body is called with at point `t`, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t))

/-- The body at any point: the inputs' memrefs hold their blocks, so the body's triple applies; the invariant and the core's
    dues pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2]
  rw [show (dat8 V c).Φ t.succ = (dat8 V c).Φ t.castSucc from rfl,
    show (dat8 V c).owesAt () t.succ = (dat8 V c).owesAt () t.castSucc from rfl,
    after8_0, after8_1, after8_2, after8_3]
  iintro ⟨HΦ, Ho, ⟨%d0, H0⟩, ⟨%d1, H1⟩, ⟨%d2, H2⟩, ⟨%d3, H3⟩⟩
  iapply (sound_kernel8 c Set.univ (grid8.coords t) _ _ _ _ _ _ _ _ (iblk8 V c 0 t) (iblk8 V c 1 t) (iblk8 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation8 (c : Dev nD) : BodyObligation (dat8 (F := F) V c) (defs₀ (F := F)) Variants.none () Set.univ := fun t => by
  rw [bigSep_W8, bigSep_W8]
  exact sound_body8 V c t

end Cert.Kernel.Rg

end
-- ==== Proof.KernelRegion9.lean ====
/-
  Region 9 of `Kernel`'s @main — one dense layer, `act(x · w + b)` on a row tile — as one pipelined call: what each grid point's
  body leaves in the output window's staging buffer (the store's payload of the three input blocks), the body's triple, and
  the pipeline's proof data over ANY contents `V` the region is entered from. The body loads its three operand blocks whole,
  stores one whole block, and touches nothing else, so an input's buffer holds its block of the entry array at every point and
  the output's buffer holds the payload of those blocks.
-/
import proofs.«161272_j16312285791078_1_alg».proof.Proof.Gen.Kernel.Launch
import proofs.«161272_j16312285791078_1_alg».proof.Proof.Gen.Kernel.Skeleton
import proofs.«161272_j16312285791078_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-- Window `w`'s block at grid point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's staging buffer holds its block of the entry array at every point, fetched there or not. -/
theorem before9_0_of {c : Dev nD} (dat : Dat τ (Elt F) Unit ℕ (Pipeline.UD sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)
/-- Input window 1's staging buffer holds its block of the entry array at every point, fetched there or not. -/
theorem before9_1_of {c : Dev nD} (dat : Dat τ (Elt F) Unit ℕ (Pipeline.UD sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)
/-- Input window 2's staging buffer holds its block of the entry array at every point, fetched there or not. -/
theorem before9_2_of {c : Dev nD} (dat : Dat τ (Elt F) Unit ℕ (Pipeline.UD sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-- The whole-block rectangles the body loads and stores through. -/
abbrev r9_0 : Rect S64x128 := Rect.unit (s := S64x128) ![0, 0] S64x128.size inb_S64x128_S64x128_0_0
abbrev r9_1 : Rect S128x2 := Rect.unit (s := S128x2) ![0, 0] S128x2.size inb_S128x2_S128x2_0_0
abbrev r9_2 : Rect S1x2 := Rect.unit (s := S1x2) ![0, 0] S1x2.size inb_S1x2_S1x2_0_0
abbrev r9_3 : Rect S64x2 := Rect.unit (s := S64x2) ![0, 0] S64x2.size inb_S64x2_S64x2_0_0

/-- The output window's staging buffer after the body, from the three input blocks: its one store, of the layer's payload. -/
def out9_3 (x0 : Vec F S64x128 .bf16) (x1 : Vec F S128x2 .bf16) (x2 : Vec F S1x2 .f32) : Vec F S64x2 .f32 :=
  View.canon [⟨r9_3, k9_pay1 (View.ld x0 r9_0) (View.ld x1 r9_1) (View.ld x2 r9_2)⟩]

/-- The one store covers the buffer. -/
theorem cover9_3 (p0 : Vec F S64x2 .f32) (y : S64x2.Idx) :
    ∃ pc ∈ ([⟨r9_3, p0⟩] : List (View.Piece (Elt F) S64x2 .f32)), y ∈ pc.1.set :=
  View.cover_of_tiled [⟨r9_3, p0⟩] S64x2.size (by rfl) y

set_option maxHeartbeats 1000000 in
/-- The body on whole staging memrefs — the inputs' at contents `x0 x1 x2`, the output's at anything — runs to the continuation
    with the inputs' as they were and the output's at `out9_3 x0 x1 x2`. -/
theorem sound_kernel9 (c : Dev nD) (E : Set ℕ) (i : grid9.Coords) (arg1 : Memref sig .tc .vmem S64x128 .bf16) (harg1 : arg1.IsWhole) (arg2 : Memref sig .tc .vmem S128x2 .bf16) (harg2 : arg2.IsWhole) (arg3 : Memref sig .tc .vmem S1x2 .f32) (harg3 : arg3.IsWhole) (arg4 : Memref sig .tc .vmem S64x2 .f32) (harg4 : arg4.IsWhole)
    (x0 : Vec F S64x128 .bf16) (x1 : Vec F S128x2 .bf16) (x2 : Vec F S1x2 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out9_3 x0 x1 x2)) -∗ K ⟨⟩))
      ⊢ wp frame (wpE (defs₀ (F := F)) Variants.none c none) E (cc9__dense_kernel i arg1 harg1 arg2 harg2 arg3 harg3 arg4 harg4) K := by
  simp only [cc9__dense_kernel_eq_skeleton]; unfold cc9__dense_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover9_3 _)

/-- The pipeline's proof data on core `c`: the arrays as the region finds them; after the body at point `t` each input's buffer at
    its block and the output's at the payload of the input blocks; the class-A invariant; nothing owed; full shares. -/
def dat9 (c : Dev nD) : Dat τ (Elt F) Unit ℕ (Pipeline.UD sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => out9_3 (iblk9 V c 0 t) (iblk9 V c 1 t) (iblk9 V c 2 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = out9_3 (iblk9 V c 0 t) (iblk9 V c 1 t) (iblk9 V c 2 t) := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d

/-- What the body is called with at point `t`, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t))

/-- The body at any point: the inputs' memrefs hold their blocks, so the body's triple applies; the invariant and the core's
    dues pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2]
  rw [show (dat9 V c).Φ t.succ = (dat9 V c).Φ t.castSucc from rfl,
    show (dat9 V c).owesAt () t.succ = (dat9 V c).owesAt () t.castSucc from rfl,
    after9_0, after9_1, after9_2, after9_3]
  iintro ⟨HΦ, Ho, ⟨%d0, H0⟩, ⟨%d1, H1⟩, ⟨%d2, H2⟩, ⟨%d3, H3⟩⟩
  iapply (sound_kernel9 c Set.univ (grid9.coords t) _ _ _ _ _ _ _ _ (iblk9 V c 0 t) (iblk9 V c 1 t) (iblk9 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation9 (c : Dev nD) : BodyObligation (dat9 (F := F) V c) (defs₀ (F := F)) Variants.none () Set.univ := fun t => by
  rw [bigSep_W9, bigSep_W9]
  exact sound_body9 V c t

end Cert.Kernel.Rg

end
-- ==== Proof.KernelSegs.lean ====
/-
  The run of `Kernel`'s @main as the chain of its 36 items — host stretches and the ten dense-layer regions — with the contents of
  every unscoped buffer named at each boundary: `U0` is the launch memory, a host stretch applies its operations
  (`StableHlo.after`), and a region replaces its output array by what its pipeline leaves there (the proof data's final
  array, `Dat.arrAt 3 N`), every other buffer unchanged. Each region's segment record enters from all unscoped buffers at
  the boundary's contents, splits its four arrays out, runs the pipeline against the region's body obligation, and joins
  the arrays back at the next boundary's contents. The run then ends with every unscoped buffer at `U36`: the arguments
  as launched (no item writes one) and the result array at region 9's final array.
-/
import proofs.«161272_j16312285791078_1_alg».proof.Proof.KernelRegionsP
import proofs.«161272_j16312285791078_1_alg».proof.Proof.KernelRegion0
import proofs.«161272_j16312285791078_1_alg».proof.Proof.KernelRegion1
import proofs.«161272_j16312285791078_1_alg».proof.Proof.KernelRegion2
import proofs.«161272_j16312285791078_1_alg».proof.Proof.KernelRegion3
import proofs.«161272_j16312285791078_1_alg».proof.Proof.KernelRegion4
import proofs.«161272_j16312285791078_1_alg».proof.Proof.KernelRegion5
import proofs.«161272_j16312285791078_1_alg».proof.Proof.KernelRegion6
import proofs.«161272_j16312285791078_1_alg».proof.Proof.KernelRegion7
import proofs.«161272_j16312285791078_1_alg».proof.Proof.KernelRegion8
import proofs.«161272_j16312285791078_1_alg».proof.Proof.KernelRegion9
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Asm

open Cert.Kernel Cert.Kernel.Gen Cert.Kernel.GenP Cert.Kernel.Rg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The contents of the unscoped buffers at each boundary -/

/-- Core `c`'s unscoped buffers at launch. -/
def U0 (c : Dev nD) : Valuation τ sig (Elt F) := fun b => m (c, b)
/-- The same read at the TensorCore's references. -/
abbrev UV0 : (c : Dev nD) → (b : Ref sig .tc) → Buf (Elt F) ((c : Thread nD τ).loc b) := fun c b => U0 m c b
/-- After item 0, the host stretch `hostOps0`. -/
def U1 (c : Dev nD) : Valuation τ sig (Elt F) := StableHlo.after hostOps0 (U0 m c)
abbrev UV1 : (c : Dev nD) → (b : Ref sig .tc) → Buf (Elt F) ((c : Thread nD τ).loc b) := fun c b => U1 m c b
/-- What region 0 leaves in its output array `main_v3`: the pipeline's final array from the entry contents `U1`. -/
def X2 (c : Dev nD) : Buf (Elt F) ((c : Thread nD τ).loc main_v3) := (dat0 (UV1 m) c).arrAt 3 cfg0.N
/-- After item 1, region 0: `main_v3` at the final array, every other buffer as entered. -/
def U2 (c : Dev nD) : Valuation τ sig (Elt F) := Function.update (U1 m c) main_v3 (X2 m c)
theorem U2_self (c : Dev nD) : U2 m c main_v3 = X2 m c := by unfold U2; exact Function.update_self ..
theorem U2_of (c : Dev nD) (r : Ref sig .tc) (h : r ≠ main_v3) : U2 m c r = U1 m c r := by
  unfold U2; exact Function.update_of_ne (StableHlo.devRef_ne_of_ne h : (Proc.devRef .tc r : DevRef τ sig) ≠ Proc.devRef .tc main_v3) _ _
abbrev UV2 : (c : Dev nD) → (b : Ref sig .tc) → Buf (Elt F) ((c : Thread nD τ).loc b) := fun c b => U2 m c b
/-- After item 2, the host stretch `hostOps1`. -/
def U3 (c : Dev nD) : Valuation τ sig (Elt F) := StableHlo.after hostOps1 (U2 m c)
abbrev UV3 : (c : Dev nD) → (b : Ref sig .tc) → Buf (Elt F) ((c : Thread nD τ).loc b) := fun c b => U3 m c b
/-- What region 1 leaves in its output array `main_v7`: the pipeline's final array from the entry contents `U3`. -/
def X4 (c : Dev nD) : Buf (Elt F) ((c : Thread nD τ).loc main_v7) := (dat1 (UV3 m) c).arrAt 3 cfg1.N
/-- After item 3, region 1: `main_v7` at the final array, every other buffer as entered. -/
def U4 (c : Dev nD) : Valuation τ sig (Elt F) := Function.update (U3 m c) main_v7 (X4 m c)
theorem U4_self (c : Dev nD) : U4 m c main_v7 = X4 m c := by unfold U4; exact Function.update_self ..
theorem U4_of (c : Dev nD) (r : Ref sig .tc) (h : r ≠ main_v7) : U4 m c r = U3 m c r := by
  unfold U4; exact Function.update_of_ne (StableHlo.devRef_ne_of_ne h : (Proc.devRef .tc r : DevRef τ sig) ≠ Proc.devRef .tc main_v7) _ _
abbrev UV4 : (c : Dev nD) → (b : Ref sig .tc) → Buf (Elt F) ((c : Thread nD τ).loc b) := fun c b => U4 m c b
/-- After item 4, the host stretch `hostOps2`. -/
def U5 (c : Dev nD) : Valuation τ sig (Elt F) := StableHlo.after hostOps2 (U4 m c)
abbrev UV5 : (c : Dev nD) → (b : Ref sig .tc) → Buf (Elt F) ((c : Thread nD τ).loc b) := fun c b => U5 m c b
/-- What region 2 leaves in its output array `main_v11`: the pipeline's final array from the entry contents `U5`. -/
def X6 (c : Dev nD) : Buf (Elt F) ((c : Thread nD τ).loc main_v11) := (dat2 (UV5 m) c).arrAt 3 cfg2.N
/-- After item 5, region 2: `main_v11` at the final array, every other buffer as entered. -/
def U6 (c : Dev nD) : Valuation τ sig (Elt F) := Function.update (U5 m c) main_v11 (X6 m c)
theorem U6_self (c : Dev nD) : U6 m c main_v11 = X6 m c := by unfold U6; exact Function.update_self ..
theorem U6_of (c : Dev nD) (r : Ref sig .tc) (h : r ≠ main_v11) : U6 m c r = U5 m c r := by
  unfold U6; exact Function.update_of_ne (StableHlo.devRef_ne_of_ne h : (Proc.devRef .tc r : DevRef τ sig) ≠ Proc.devRef .tc main_v11) _ _
abbrev UV6 : (c : Dev nD) → (b : Ref sig .tc) → Buf (Elt F) ((c : Thread nD τ).loc b) := fun c b => U6 m c b
/-- After item 6, the host stretch `hostOps3`. -/
def U7 (c : Dev nD) : Valuation τ sig (Elt F) := StableHlo.after hostOps3 (U6 m c)
abbrev UV7 : (c : Dev nD) → (b : Ref sig .tc) → Buf (Elt F) ((c : Thread nD τ).loc b) := fun c b => U7 m c b
/-- What region 3 leaves in its output array `main_v15`: the pipeline's final array from the entry contents `U7`. -/
def X8 (c : Dev nD) : Buf (Elt F) ((c : Thread nD τ).loc main_v15) := (dat3 (UV7 m) c).arrAt 3 cfg3.N
/-- After item 7, region 3: `main_v15` at the final array, every other buffer as entered. -/
def U8 (c : Dev nD) : Valuation τ sig (Elt F) := Function.update (U7 m c) main_v15 (X8 m c)
theorem U8_self (c : Dev nD) : U8 m c main_v15 = X8 m c := by unfold U8; exact Function.update_self ..
theorem U8_of (c : Dev nD) (r : Ref sig .tc) (h : r ≠ main_v15) : U8 m c r = U7 m c r := by
  unfold U8; exact Function.update_of_ne (StableHlo.devRef_ne_of_ne h : (Proc.devRef .tc r : DevRef τ sig) ≠ Proc.devRef .tc main_v15) _ _
abbrev UV8 : (c : Dev nD) → (b : Ref sig .tc) → Buf (Elt F) ((c : Thread nD τ).loc b) := fun c b => U8 m c b
/-- After item 8, the host stretch `hostOps4`. -/
def U9 (c : Dev nD) : Valuation τ sig (Elt F) := StableHlo.after hostOps4 (U8 m c)
abbrev UV9 : (c : Dev nD) → (b : Ref sig .tc) → Buf (Elt F) ((c : Thread nD τ).loc b) := fun c b => U9 m c b
/-- What region 4 leaves in its output array `main_v20`: the pipeline's final array from the entry contents `U9`. -/
def X10 (c : Dev nD) : Buf (Elt F) ((c : Thread nD τ).loc main_v20) := (dat4 (UV9 m) c).arrAt 3 cfg4.N
/-- After item 9, region 4: `main_v20` at the final array, every other buffer as entered. -/
def U10 (c : Dev nD) : Valuation τ sig (Elt F) := Function.update (U9 m c) main_v20 (X10 m c)
theorem U10_self (c : Dev nD) : U10 m c main_v20 = X10 m c := by unfold U10; exact Function.update_self ..
theorem U10_of (c : Dev nD) (r : Ref sig .tc) (h : r ≠ main_v20) : U10 m c r = U9 m c r := by
  unfold U10; exact Function.update_of_ne (StableHlo.devRef_ne_of_ne h : (Proc.devRef .tc r : DevRef τ sig) ≠ Proc.devRef .tc main_v20) _ _
abbrev UV10 : (c : Dev nD) → (b : Ref sig .tc) → Buf (Elt F) ((c : Thread nD τ).loc b) := fun c b => U10 m c b
/-- After item 10, the host stretch `hostOps5`. -/
def U11 (c : Dev nD) : Valuation τ sig (Elt F) := StableHlo.after hostOps5 (U10 m c)
abbrev UV11 : (c : Dev nD) → (b : Ref sig .tc) → Buf (Elt F) ((c : Thread nD τ).loc b) := fun c b => U11 m c b
/-- After item 11, the host stretch `hostOps5_1`. -/
def U12 (c : Dev nD) : Valuation τ sig (Elt F) := StableHlo.after hostOps5_1 (U11 m c)
abbrev UV12 : (c : Dev nD) → (b : Ref sig .tc) → Buf (Elt F) ((c : Thread nD τ).loc b) := fun c b => U12 m c b
/-- After item 12, the host stretch `hostOps5_2`. -/
def U13 (c : Dev nD) : Valuation τ sig (Elt F) := StableHlo.after hostOps5_2 (U12 m c)
abbrev UV13 : (c : Dev nD) → (b : Ref sig .tc) → Buf (Elt F) ((c : Thread nD τ).loc b) := fun c b => U13 m c b
/-- After item 13, the host stretch `hostOps5_3`. -/
def U14 (c : Dev nD) : Valuation τ sig (Elt F) := StableHlo.after hostOps5_3 (U13 m c)
abbrev UV14 : (c : Dev nD) → (b : Ref sig .tc) → Buf (Elt F) ((c : Thread nD τ).loc b) := fun c b => U14 m c b
/-- After item 14, the host stretch `hostOps5_4`. -/
def U15 (c : Dev nD) : Valuation τ sig (Elt F) := StableHlo.after hostOps5_4 (U14 m c)
abbrev UV15 : (c : Dev nD) → (b : Ref sig .tc) → Buf (Elt F) ((c : Thread nD τ).loc b) := fun c b => U15 m c b
/-- What region 5 leaves in its output array `main_v75`: the pipeline's final array from the entry contents `U15`. -/
def X16 (c : Dev nD) : Buf (Elt F) ((c : Thread nD τ).loc main_v75) := (dat5 (UV15 m) c).arrAt 3 cfg5.N
/-- After item 15, region 5: `main_v75` at the final array, every other buffer as entered. -/
def U16 (c : Dev nD) : Valuation τ sig (Elt F) := Function.update (U15 m c) main_v75 (X16 m c)
theorem U16_self (c : Dev nD) : U16 m c main_v75 = X16 m c := by unfold U16; exact Function.update_self ..
theorem U16_of (c : Dev nD) (r : Ref sig .tc) (h : r ≠ main_v75) : U16 m c r = U15 m c r := by
  unfold U16; exact Function.update_of_ne (StableHlo.devRef_ne_of_ne h : (Proc.devRef .tc r : DevRef τ sig) ≠ Proc.devRef .tc main_v75) _ _
abbrev UV16 : (c : Dev nD) → (b : Ref sig .tc) → Buf (Elt F) ((c : Thread nD τ).loc b) := fun c b => U16 m c b
/-- After item 16, the host stretch `hostOps6`. -/
def U17 (c : Dev nD) : Valuation τ sig (Elt F) := StableHlo.after hostOps6 (U16 m c)
abbrev UV17 : (c : Dev nD) → (b : Ref sig .tc) → Buf (Elt F) ((c : Thread nD τ).loc b) := fun c b => U17 m c b
/-- After item 17, the host stretch `hostOps6_1`. -/
def U18 (c : Dev nD) : Valuation τ sig (Elt F) := StableHlo.after hostOps6_1 (U17 m c)
abbrev UV18 : (c : Dev nD) → (b : Ref sig .tc) → Buf (Elt F) ((c : Thread nD τ).loc b) := fun c b => U18 m c b
/-- After item 18, the host stretch `hostOps6_2`. -/
def U19 (c : Dev nD) : Valuation τ sig (Elt F) := StableHlo.after hostOps6_2 (U18 m c)
abbrev UV19 : (c : Dev nD) → (b : Ref sig .tc) → Buf (Elt F) ((c : Thread nD τ).loc b) := fun c b => U19 m c b
/-- After item 19, the host stretch `hostOps6_3`. -/
def U20 (c : Dev nD) : Valuation τ sig (Elt F) := StableHlo.after hostOps6_3 (U19 m c)
abbrev UV20 : (c : Dev nD) → (b : Ref sig .tc) → Buf (Elt F) ((c : Thread nD τ).loc b) := fun c b => U20 m c b
/-- After item 20, the host stretch `hostOps6_4`. -/
def U21 (c : Dev nD) : Valuation τ sig (Elt F) := StableHlo.after hostOps6_4 (U20 m c)
abbrev UV21 : (c : Dev nD) → (b : Ref sig .tc) → Buf (Elt F) ((c : Thread nD τ).loc b) := fun c b => U21 m c b
/-- What region 6 leaves in its output array `main_v142`: the pipeline's final array from the entry contents `U21`. -/
def X22 (c : Dev nD) : Buf (Elt F) ((c : Thread nD τ).loc main_v142) := (dat6 (UV21 m) c).arrAt 3 cfg6.N
/-- After item 21, region 6: `main_v142` at the final array, every other buffer as entered. -/
def U22 (c : Dev nD) : Valuation τ sig (Elt F) := Function.update (U21 m c) main_v142 (X22 m c)
theorem U22_self (c : Dev nD) : U22 m c main_v142 = X22 m c := by unfold U22; exact Function.update_self ..
theorem U22_of (c : Dev nD) (r : Ref sig .tc) (h : r ≠ main_v142) : U22 m c r = U21 m c r := by
  unfold U22; exact Function.update_of_ne (StableHlo.devRef_ne_of_ne h : (Proc.devRef .tc r : DevRef τ sig) ≠ Proc.devRef .tc main_v142) _ _
abbrev UV22 : (c : Dev nD) → (b : Ref sig .tc) → Buf (Elt F) ((c : Thread nD τ).loc b) := fun c b => U22 m c b
/-- After item 22, the host stretch `hostOps7`. -/
def U23 (c : Dev nD) : Valuation τ sig (Elt F) := StableHlo.after hostOps7 (U22 m c)
abbrev UV23 : (c : Dev nD) → (b : Ref sig .tc) → Buf (Elt F) ((c : Thread nD τ).loc b) := fun c b => U23 m c b
/-- After item 23, the host stretch `hostOps7_1`. -/
def U24 (c : Dev nD) : Valuation τ sig (Elt F) := StableHlo.after hostOps7_1 (U23 m c)
abbrev UV24 : (c : Dev nD) → (b : Ref sig .tc) → Buf (Elt F) ((c : Thread nD τ).loc b) := fun c b => U24 m c b
/-- After item 24, the host stretch `hostOps7_2`. -/
def U25 (c : Dev nD) : Valuation τ sig (Elt F) := StableHlo.after hostOps7_2 (U24 m c)
abbrev UV25 : (c : Dev nD) → (b : Ref sig .tc) → Buf (Elt F) ((c : Thread nD τ).loc b) := fun c b => U25 m c b
/-- After item 25, the host stretch `hostOps7_3`. -/
def U26 (c : Dev nD) : Valuation τ sig (Elt F) := StableHlo.after hostOps7_3 (U25 m c)
abbrev UV26 : (c : Dev nD) → (b : Ref sig .tc) → Buf (Elt F) ((c : Thread nD τ).loc b) := fun c b => U26 m c b
/-- After item 26, the host stretch `hostOps7_4`. -/
def U27 (c : Dev nD) : Valuation τ sig (Elt F) := StableHlo.after hostOps7_4 (U26 m c)
abbrev UV27 : (c : Dev nD) → (b : Ref sig .tc) → Buf (Elt F) ((c : Thread nD τ).loc b) := fun c b => U27 m c b
/-- What region 7 leaves in its output array `main_v197`: the pipeline's final array from the entry contents `U27`. -/
def X28 (c : Dev nD) : Buf (Elt F) ((c : Thread nD τ).loc main_v197) := (dat7 (UV27 m) c).arrAt 3 cfg7.N
/-- After item 27, region 7: `main_v197` at the final array, every other buffer as entered. -/
def U28 (c : Dev nD) : Valuation τ sig (Elt F) := Function.update (U27 m c) main_v197 (X28 m c)
theorem U28_self (c : Dev nD) : U28 m c main_v197 = X28 m c := by unfold U28; exact Function.update_self ..
theorem U28_of (c : Dev nD) (r : Ref sig .tc) (h : r ≠ main_v197) : U28 m c r = U27 m c r := by
  unfold U28; exact Function.update_of_ne (StableHlo.devRef_ne_of_ne h : (Proc.devRef .tc r : DevRef τ sig) ≠ Proc.devRef .tc main_v197) _ _
abbrev UV28 : (c : Dev nD) → (b : Ref sig .tc) → Buf (Elt F) ((c : Thread nD τ).loc b) := fun c b => U28 m c b
/-- After item 28, the host stretch `hostOps8`. -/
def U29 (c : Dev nD) : Valuation τ sig (Elt F) := StableHlo.after hostOps8 (U28 m c)
abbrev UV29 : (c : Dev nD) → (b : Ref sig .tc) → Buf (Elt F) ((c : Thread nD τ).loc b) := fun c b => U29 m c b
/-- After item 29, the host stretch `hostOps8_1`. -/
def U30 (c : Dev nD) : Valuation τ sig (Elt F) := StableHlo.after hostOps8_1 (U29 m c)
abbrev UV30 : (c : Dev nD) → (b : Ref sig .tc) → Buf (Elt F) ((c : Thread nD τ).loc b) := fun c b => U30 m c b
/-- After item 30, the host stretch `hostOps8_2`. -/
def U31 (c : Dev nD) : Valuation τ sig (Elt F) := StableHlo.after hostOps8_2 (U30 m c)
abbrev UV31 : (c : Dev nD) → (b : Ref sig .tc) → Buf (Elt F) ((c : Thread nD τ).loc b) := fun c b => U31 m c b
/-- After item 31, the host stretch `hostOps8_3`. -/
def U32 (c : Dev nD) : Valuation τ sig (Elt F) := StableHlo.after hostOps8_3 (U31 m c)
abbrev UV32 : (c : Dev nD) → (b : Ref sig .tc) → Buf (Elt F) ((c : Thread nD τ).loc b) := fun c b => U32 m c b
/-- After item 32, the host stretch `hostOps8_4`. -/
def U33 (c : Dev nD) : Valuation τ sig (Elt F) := StableHlo.after hostOps8_4 (U32 m c)
abbrev UV33 : (c : Dev nD) → (b : Ref sig .tc) → Buf (Elt F) ((c : Thread nD τ).loc b) := fun c b => U33 m c b
/-- What region 8 leaves in its output array `main_v264`: the pipeline's final array from the entry contents `U33`. -/
def X34 (c : Dev nD) : Buf (Elt F) ((c : Thread nD τ).loc main_v264) := (dat8 (UV33 m) c).arrAt 3 cfg8.N
/-- After item 33, region 8: `main_v264` at the final array, every other buffer as entered. -/
def U34 (c : Dev nD) : Valuation τ sig (Elt F) := Function.update (U33 m c) main_v264 (X34 m c)
theorem U34_self (c : Dev nD) : U34 m c main_v264 = X34 m c := by unfold U34; exact Function.update_self ..
theorem U34_of (c : Dev nD) (r : Ref sig .tc) (h : r ≠ main_v264) : U34 m c r = U33 m c r := by
  unfold U34; exact Function.update_of_ne (StableHlo.devRef_ne_of_ne h : (Proc.devRef .tc r : DevRef τ sig) ≠ Proc.devRef .tc main_v264) _ _
abbrev UV34 : (c : Dev nD) → (b : Ref sig .tc) → Buf (Elt F) ((c : Thread nD τ).loc b) := fun c b => U34 m c b
/-- After item 34, the host stretch `hostOps9`. -/
def U35 (c : Dev nD) : Valuation τ sig (Elt F) := StableHlo.after hostOps9 (U34 m c)
abbrev UV35 : (c : Dev nD) → (b : Ref sig .tc) → Buf (Elt F) ((c : Thread nD τ).loc b) := fun c b => U35 m c b
/-- What region 9 leaves in its output array `main_v268`: the pipeline's final array from the entry contents `U35`. -/
def X36 (c : Dev nD) : Buf (Elt F) ((c : Thread nD τ).loc main_v268) := (dat9 (UV35 m) c).arrAt 3 cfg9.N
/-- After item 35, region 9: `main_v268` at the final array, every other buffer as entered. -/
def U36 (c : Dev nD) : Valuation τ sig (Elt F) := Function.update (U35 m c) main_v268 (X36 m c)
theorem U36_self (c : Dev nD) : U36 m c main_v268 = X36 m c := by unfold U36; exact Function.update_self ..
theorem U36_of (c : Dev nD) (r : Ref sig .tc) (h : r ≠ main_v268) : U36 m c r = U35 m c r := by
  unfold U36; exact Function.update_of_ne (StableHlo.devRef_ne_of_ne h : (Proc.devRef .tc r : DevRef τ sig) ≠ Proc.devRef .tc main_v268) _ _
abbrev UV36 : (c : Dev nD) → (b : Ref sig .tc) → Buf (Elt F) ((c : Thread nD τ).loc b) := fun c b => U36 m c b

/-! ## The generated boundary valuations at these contents -/

/-- What the regions leave, as the generated valuations take it: item J−1's buffers read off `U J`. -/
def outs : Outs (F := F) := fun J r c => match J with
  | 2 => U2 m c r
  | 4 => U4 m c r
  | 6 => U6 m c r
  | 8 => U8 m c r
  | 10 => U10 m c r
  | 16 => U16 m c r
  | 22 => U22 m c r
  | 28 => U28 m c r
  | 34 => U34 m c r
  | 36 => U36 m c r
  | _ => U0 m c r

theorem V0_eq (c : Dev nD) : V0 m c = U0 m c := rfl
theorem V1_eq (c : Dev nD) : V1 m c = U1 m c := by
  show StableHlo.after hostOps0 (V0 m c) = _
  rw [V0_eq m c]; rfl
theorem V2_eq (c : Dev nD) : V2 m (outs m) c = U2 m c := by
  show Function.update (V1 m c) (main_v3 : DevRef τ sig) (U2 m c main_v3) = _
  rw [V1_eq m c, U2_self m c]; rfl
theorem V3_eq (c : Dev nD) : V3 m (outs m) c = U3 m c := by
  show StableHlo.after hostOps1 (V2 m (outs m) c) = _
  rw [V2_eq m c]; rfl
theorem V4_eq (c : Dev nD) : V4 m (outs m) c = U4 m c := by
  show Function.update (V3 m (outs m) c) (main_v7 : DevRef τ sig) (U4 m c main_v7) = _
  rw [V3_eq m c, U4_self m c]; rfl
theorem V5_eq (c : Dev nD) : V5 m (outs m) c = U5 m c := by
  show StableHlo.after hostOps2 (V4 m (outs m) c) = _
  rw [V4_eq m c]; rfl
theorem V6_eq (c : Dev nD) : V6 m (outs m) c = U6 m c := by
  show Function.update (V5 m (outs m) c) (main_v11 : DevRef τ sig) (U6 m c main_v11) = _
  rw [V5_eq m c, U6_self m c]; rfl
theorem V7_eq (c : Dev nD) : V7 m (outs m) c = U7 m c := by
  show StableHlo.after hostOps3 (V6 m (outs m) c) = _
  rw [V6_eq m c]; rfl
theorem V8_eq (c : Dev nD) : V8 m (outs m) c = U8 m c := by
  show Function.update (V7 m (outs m) c) (main_v15 : DevRef τ sig) (U8 m c main_v15) = _
  rw [V7_eq m c, U8_self m c]; rfl
theorem V9_eq (c : Dev nD) : V9 m (outs m) c = U9 m c := by
  show StableHlo.after hostOps4 (V8 m (outs m) c) = _
  rw [V8_eq m c]; rfl
theorem V10_eq (c : Dev nD) : V10 m (outs m) c = U10 m c := by
  show Function.update (V9 m (outs m) c) (main_v20 : DevRef τ sig) (U10 m c main_v20) = _
  rw [V9_eq m c, U10_self m c]; rfl
theorem V11_eq (c : Dev nD) : V11 m (outs m) c = U11 m c := by
  show StableHlo.after hostOps5 (V10 m (outs m) c) = _
  rw [V10_eq m c]; rfl
theorem V12_eq (c : Dev nD) : V12 m (outs m) c = U12 m c := by
  show StableHlo.after hostOps5_1 (V11 m (outs m) c) = _
  rw [V11_eq m c]; rfl
theorem V13_eq (c : Dev nD) : V13 m (outs m) c = U13 m c := by
  show StableHlo.after hostOps5_2 (V12 m (outs m) c) = _
  rw [V12_eq m c]; rfl
theorem V14_eq (c : Dev nD) : V14 m (outs m) c = U14 m c := by
  show StableHlo.after hostOps5_3 (V13 m (outs m) c) = _
  rw [V13_eq m c]; rfl
theorem V15_eq (c : Dev nD) : V15 m (outs m) c = U15 m c := by
  show StableHlo.after hostOps5_4 (V14 m (outs m) c) = _
  rw [V14_eq m c]; rfl
theorem V16_eq (c : Dev nD) : V16 m (outs m) c = U16 m c := by
  show Function.update (V15 m (outs m) c) (main_v75 : DevRef τ sig) (U16 m c main_v75) = _
  rw [V15_eq m c, U16_self m c]; rfl
theorem V17_eq (c : Dev nD) : V17 m (outs m) c = U17 m c := by
  show StableHlo.after hostOps6 (V16 m (outs m) c) = _
  rw [V16_eq m c]; rfl
theorem V18_eq (c : Dev nD) : V18 m (outs m) c = U18 m c := by
  show StableHlo.after hostOps6_1 (V17 m (outs m) c) = _
  rw [V17_eq m c]; rfl
theorem V19_eq (c : Dev nD) : V19 m (outs m) c = U19 m c := by
  show StableHlo.after hostOps6_2 (V18 m (outs m) c) = _
  rw [V18_eq m c]; rfl
theorem V20_eq (c : Dev nD) : V20 m (outs m) c = U20 m c := by
  show StableHlo.after hostOps6_3 (V19 m (outs m) c) = _
  rw [V19_eq m c]; rfl
theorem V21_eq (c : Dev nD) : V21 m (outs m) c = U21 m c := by
  show StableHlo.after hostOps6_4 (V20 m (outs m) c) = _
  rw [V20_eq m c]; rfl
theorem V22_eq (c : Dev nD) : V22 m (outs m) c = U22 m c := by
  show Function.update (V21 m (outs m) c) (main_v142 : DevRef τ sig) (U22 m c main_v142) = _
  rw [V21_eq m c, U22_self m c]; rfl
theorem V23_eq (c : Dev nD) : V23 m (outs m) c = U23 m c := by
  show StableHlo.after hostOps7 (V22 m (outs m) c) = _
  rw [V22_eq m c]; rfl
theorem V24_eq (c : Dev nD) : V24 m (outs m) c = U24 m c := by
  show StableHlo.after hostOps7_1 (V23 m (outs m) c) = _
  rw [V23_eq m c]; rfl
theorem V25_eq (c : Dev nD) : V25 m (outs m) c = U25 m c := by
  show StableHlo.after hostOps7_2 (V24 m (outs m) c) = _
  rw [V24_eq m c]; rfl
theorem V26_eq (c : Dev nD) : V26 m (outs m) c = U26 m c := by
  show StableHlo.after hostOps7_3 (V25 m (outs m) c) = _
  rw [V25_eq m c]; rfl
theorem V27_eq (c : Dev nD) : V27 m (outs m) c = U27 m c := by
  show StableHlo.after hostOps7_4 (V26 m (outs m) c) = _
  rw [V26_eq m c]; rfl
theorem V28_eq (c : Dev nD) : V28 m (outs m) c = U28 m c := by
  show Function.update (V27 m (outs m) c) (main_v197 : DevRef τ sig) (U28 m c main_v197) = _
  rw [V27_eq m c, U28_self m c]; rfl
theorem V29_eq (c : Dev nD) : V29 m (outs m) c = U29 m c := by
  show StableHlo.after hostOps8 (V28 m (outs m) c) = _
  rw [V28_eq m c]; rfl
theorem V30_eq (c : Dev nD) : V30 m (outs m) c = U30 m c := by
  show StableHlo.after hostOps8_1 (V29 m (outs m) c) = _
  rw [V29_eq m c]; rfl
theorem V31_eq (c : Dev nD) : V31 m (outs m) c = U31 m c := by
  show StableHlo.after hostOps8_2 (V30 m (outs m) c) = _
  rw [V30_eq m c]; rfl
theorem V32_eq (c : Dev nD) : V32 m (outs m) c = U32 m c := by
  show StableHlo.after hostOps8_3 (V31 m (outs m) c) = _
  rw [V31_eq m c]; rfl
theorem V33_eq (c : Dev nD) : V33 m (outs m) c = U33 m c := by
  show StableHlo.after hostOps8_4 (V32 m (outs m) c) = _
  rw [V32_eq m c]; rfl
theorem V34_eq (c : Dev nD) : V34 m (outs m) c = U34 m c := by
  show Function.update (V33 m (outs m) c) (main_v264 : DevRef τ sig) (U34 m c main_v264) = _
  rw [V33_eq m c, U34_self m c]; rfl
theorem V35_eq (c : Dev nD) : V35 m (outs m) c = U35 m c := by
  show StableHlo.after hostOps9 (V34 m (outs m) c) = _
  rw [V34_eq m c]; rfl
theorem V36_eq (c : Dev nD) : V36 m (outs m) c = U36 m c := by
  show Function.update (V35 m (outs m) c) (main_v268 : DevRef τ sig) (U36 m c main_v268) = _
  rw [V35_eq m c, U36_self m c]; rfl

/-! ## The arguments end as launched -/
theorem U36_main_arg0 (c : Dev nD) : U36 m c main_arg0 = m ((c : Thread nD τ).loc main_arg0) :=
  (congrFun (V36_eq m c) _).symm.trans (V36_main_arg0 m (outs m) c)
theorem U36_main_arg1 (c : Dev nD) : U36 m c main_arg1 = m ((c : Thread nD τ).loc main_arg1) :=
  (congrFun (V36_eq m c) _).symm.trans (V36_main_arg1 m (outs m) c)
theorem U36_main_arg2 (c : Dev nD) : U36 m c main_arg2 = m ((c : Thread nD τ).loc main_arg2) :=
  (congrFun (V36_eq m c) _).symm.trans (V36_main_arg2 m (outs m) c)
theorem U36_main_arg3 (c : Dev nD) : U36 m c main_arg3 = m ((c : Thread nD τ).loc main_arg3) :=
  (congrFun (V36_eq m c) _).symm.trans (V36_main_arg3 m (outs m) c)
theorem U36_main_arg4 (c : Dev nD) : U36 m c main_arg4 = m ((c : Thread nD τ).loc main_arg4) :=
  (congrFun (V36_eq m c) _).symm.trans (V36_main_arg4 m (outs m) c)
theorem U36_main_arg5 (c : Dev nD) : U36 m c main_arg5 = m ((c : Thread nD τ).loc main_arg5) :=
  (congrFun (V36_eq m c) _).symm.trans (V36_main_arg5 m (outs m) c)
theorem U36_main_arg6 (c : Dev nD) : U36 m c main_arg6 = m ((c : Thread nD τ).loc main_arg6) :=
  (congrFun (V36_eq m c) _).symm.trans (V36_main_arg6 m (outs m) c)
theorem U36_main_arg7 (c : Dev nD) : U36 m c main_arg7 = m ((c : Thread nD τ).loc main_arg7) :=
  (congrFun (V36_eq m c) _).symm.trans (V36_main_arg7 m (outs m) c)
theorem U36_main_arg8 (c : Dev nD) : U36 m c main_arg8 = m ((c : Thread nD τ).loc main_arg8) :=
  (congrFun (V36_eq m c) _).symm.trans (V36_main_arg8 m (outs m) c)
theorem U36_main_arg9 (c : Dev nD) : U36 m c main_arg9 = m ((c : Thread nD τ).loc main_arg9) :=
  (congrFun (V36_eq m c) _).symm.trans (V36_main_arg9 m (outs m) c)
theorem U36_main_arg10 (c : Dev nD) : U36 m c main_arg10 = m ((c : Thread nD τ).loc main_arg10) :=
  (congrFun (V36_eq m c) _).symm.trans (V36_main_arg10 m (outs m) c)
theorem U36_main_arg11 (c : Dev nD) : U36 m c main_arg11 = m ((c : Thread nD τ).loc main_arg11) :=
  (congrFun (V36_eq m c) _).symm.trans (V36_main_arg11 m (outs m) c)
theorem U36_main_arg12 (c : Dev nD) : U36 m c main_arg12 = m ((c : Thread nD τ).loc main_arg12) :=
  (congrFun (V36_eq m c) _).symm.trans (V36_main_arg12 m (outs m) c)
theorem U36_main_arg13 (c : Dev nD) : U36 m c main_arg13 = m ((c : Thread nD τ).loc main_arg13) :=
  (congrFun (V36_eq m c) _).symm.trans (V36_main_arg13 m (outs m) c)
theorem U36_main_arg14 (c : Dev nD) : U36 m c main_arg14 = m ((c : Thread nD τ).loc main_arg14) :=
  (congrFun (V36_eq m c) _).symm.trans (V36_main_arg14 m (outs m) c)
theorem U36_main_arg15 (c : Dev nD) : U36 m c main_arg15 = m ((c : Thread nD τ).loc main_arg15) :=
  (congrFun (V36_eq m c) _).symm.trans (V36_main_arg15 m (outs m) c)
theorem U36_main_arg16 (c : Dev nD) : U36 m c main_arg16 = m ((c : Thread nD τ).loc main_arg16) :=
  (congrFun (V36_eq m c) _).symm.trans (V36_main_arg16 m (outs m) c)
theorem U36_main_arg17 (c : Dev nD) : U36 m c main_arg17 = m ((c : Thread nD τ).loc main_arg17) :=
  (congrFun (V36_eq m c) _).symm.trans (V36_main_arg17 m (outs m) c)
theorem U36_main_arg18 (c : Dev nD) : U36 m c main_arg18 = m ((c : Thread nD τ).loc main_arg18) :=
  (congrFun (V36_eq m c) _).symm.trans (V36_main_arg18 m (outs m) c)
theorem U36_main_arg19 (c : Dev nD) : U36 m c main_arg19 = m ((c : Thread nD τ).loc main_arg19) :=
  (congrFun (V36_eq m c) _).symm.trans (V36_main_arg19 m (outs m) c)
theorem U36_main_arg20 (c : Dev nD) : U36 m c main_arg20 = m ((c : Thread nD τ).loc main_arg20) :=
  (congrFun (V36_eq m c) _).symm.trans (V36_main_arg20 m (outs m) c)
theorem U36_main_arg21 (c : Dev nD) : U36 m c main_arg21 = m ((c : Thread nD τ).loc main_arg21) :=
  (congrFun (V36_eq m c) _).symm.trans (V36_main_arg21 m (outs m) c)
theorem U36_main_arg22 (c : Dev nD) : U36 m c main_arg22 = m ((c : Thread nD τ).loc main_arg22) :=
  (congrFun (V36_eq m c) _).symm.trans (V36_main_arg22 m (outs m) c)
theorem U36_main_arg23 (c : Dev nD) : U36 m c main_arg23 = m ((c : Thread nD τ).loc main_arg23) :=
  (congrFun (V36_eq m c) _).symm.trans (V36_main_arg23 m (outs m) c)
theorem U36_main_arg24 (c : Dev nD) : U36 m c main_arg24 = m ((c : Thread nD τ).loc main_arg24) :=
  (congrFun (V36_eq m c) _).symm.trans (V36_main_arg24 m (outs m) c)
theorem U36_main_arg25 (c : Dev nD) : U36 m c main_arg25 = m ((c : Thread nD τ).loc main_arg25) :=
  (congrFun (V36_eq m c) _).symm.trans (V36_main_arg25 m (outs m) c)
theorem U36_main_arg26 (c : Dev nD) : U36 m c main_arg26 = m ((c : Thread nD τ).loc main_arg26) :=
  (congrFun (V36_eq m c) _).symm.trans (V36_main_arg26 m (outs m) c)
theorem U36_main_arg27 (c : Dev nD) : U36 m c main_arg27 = m ((c : Thread nD τ).loc main_arg27) :=
  (congrFun (V36_eq m c) _).symm.trans (V36_main_arg27 m (outs m) c)

/-! ## The proof data family and the thread state -/

/-- Every pipeline's proof data, each at its region's entry contents. -/
def pdats : (p : Fin 10) → (c : Dev nD) → Dat τ (Elt F) Unit ℕ (Pipeline.UD sig nD τ) ℕ (cfgs p) c
  | ⟨0, _⟩ => fun c => dat0 (UV1 m) c
  | ⟨1, _⟩ => fun c => dat1 (UV3 m) c
  | ⟨2, _⟩ => fun c => dat2 (UV5 m) c
  | ⟨3, _⟩ => fun c => dat3 (UV7 m) c
  | ⟨4, _⟩ => fun c => dat4 (UV9 m) c
  | ⟨5, _⟩ => fun c => dat5 (UV15 m) c
  | ⟨6, _⟩ => fun c => dat6 (UV21 m) c
  | ⟨7, _⟩ => fun c => dat7 (UV27 m) c
  | ⟨8, _⟩ => fun c => dat8 (UV33 m) c
  | ⟨9, _⟩ => fun c => dat9 (UV35 m) c
abbrev 𝒱₀ : Variants := Variants.none
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
abbrev E : Fin 11 → Dev nD → sProp 𝕄 := fun _ c => R (F := F) c

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option maxHeartbeats 4000000 in
/-- At region 0's exit each of its arrays holds what the pipeline leaves: an input array its entry contents, the output the final array. -/
theorem hF0 (c : Dev nD) : ∀ w : Fin cfg0.W, (dat0 (UV1 m) c).arrAt w cfg0.N = UV2 m c (Pipeline.arrRef spec0 w)
  | ⟨0, _⟩ => ((dat0 (UV1 m) c).arrAt_in 0 rfl _).trans ((A_eq0 (UV1 m) c 0).trans (U2_of m c (Pipeline.arrRef spec0 0) (by decide)).symm)
  | ⟨1, _⟩ => ((dat0 (UV1 m) c).arrAt_in 1 rfl _).trans ((A_eq0 (UV1 m) c 1).trans (U2_of m c (Pipeline.arrRef spec0 1) (by decide)).symm)
  | ⟨2, _⟩ => ((dat0 (UV1 m) c).arrAt_in 2 rfl _).trans ((A_eq0 (UV1 m) c 2).trans (U2_of m c (Pipeline.arrRef spec0 2) (by decide)).symm)
  | ⟨3, _⟩ => (U2_self m c).symm
/-- and every other buffer what it held at entry. -/
theorem hrest0 (c : Dev nD) : ∀ b, b ∉ Finset.univ.image (Pipeline.arrRef spec0) → UV2 m c b = UV1 m c b :=
  fun b hb => U2_of m c b fun e => hb (Finset.mem_image.mpr ⟨3, Finset.mem_univ _, e.symm⟩)

set_option backward.isDefEq.respectTransparency.types false in
/-- Region 0 over the thread state: entered from every unscoped buffer at `U1`, left at `U2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (UV1 m) c).loose
  hwaits := Pipeline.hwaits_of_owed_zero _ _ _ _ L lv 0 fun _ _ => rfl
  pre c := iprop(StableHlo.held (c : Thread nD τ) (Pipeline.ucRefs τ sig) (U1 m c) ∗ R c)
  post c := iprop(StableHlo.held (c : Thread nD τ) (Pipeline.ucRefs τ sig) (U2 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (UV1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (UV1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (UV1 m c) (UV2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 4000000 in
/-- At region 1's exit each of its arrays holds what the pipeline leaves: an input array its entry contents, the output the final array. -/
theorem hF1 (c : Dev nD) : ∀ w : Fin cfg1.W, (dat1 (UV3 m) c).arrAt w cfg1.N = UV4 m c (Pipeline.arrRef spec1 w)
  | ⟨0, _⟩ => ((dat1 (UV3 m) c).arrAt_in 0 rfl _).trans ((A_eq1 (UV3 m) c 0).trans (U4_of m c (Pipeline.arrRef spec1 0) (by decide)).symm)
  | ⟨1, _⟩ => ((dat1 (UV3 m) c).arrAt_in 1 rfl _).trans ((A_eq1 (UV3 m) c 1).trans (U4_of m c (Pipeline.arrRef spec1 1) (by decide)).symm)
  | ⟨2, _⟩ => ((dat1 (UV3 m) c).arrAt_in 2 rfl _).trans ((A_eq1 (UV3 m) c 2).trans (U4_of m c (Pipeline.arrRef spec1 2) (by decide)).symm)
  | ⟨3, _⟩ => (U4_self m c).symm
/-- and every other buffer what it held at entry. -/
theorem hrest1 (c : Dev nD) : ∀ b, b ∉ Finset.univ.image (Pipeline.arrRef spec1) → UV4 m c b = UV3 m c b :=
  fun b hb => U4_of m c b fun e => hb (Finset.mem_image.mpr ⟨3, Finset.mem_univ _, e.symm⟩)

set_option backward.isDefEq.respectTransparency.types false in
/-- Region 1 over the thread state: entered from every unscoped buffer at `U3`, left at `U4`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (UV3 m) c).loose
  hwaits := Pipeline.hwaits_of_owed_zero _ _ _ _ L lv 1 fun _ _ => rfl
  pre c := iprop(StableHlo.held (c : Thread nD τ) (Pipeline.ucRefs τ sig) (U3 m c) ∗ R c)
  post c := iprop(StableHlo.held (c : Thread nD τ) (Pipeline.ucRefs τ sig) (U4 m c) ∗ R c)
  X c := iprop(∃ r, prngReg c r)
  Y c := iprop(∃ r, prngReg c r)
  Z c := Pipeline.unscopedRest (Ix := Unit) (Name := ℕ) (U := Pipeline.UD sig nD τ) (Lvl := ℕ) spec1 c (UV3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (UV3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (UV3 m c) (UV4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 4000000 in
/-- At region 2's exit each of its arrays holds what the pipeline leaves: an input array its entry contents, the output the final array. -/
theorem hF2 (c : Dev nD) : ∀ w : Fin cfg2.W, (dat2 (UV5 m) c).arrAt w cfg2.N = UV6 m c (Pipeline.arrRef spec2 w)
  | ⟨0, _⟩ => ((dat2 (UV5 m) c).arrAt_in 0 rfl _).trans ((A_eq2 (UV5 m) c 0).trans (U6_of m c (Pipeline.arrRef spec2 0) (by decide)).symm)
  | ⟨1, _⟩ => ((dat2 (UV5 m) c).arrAt_in 1 rfl _).trans ((A_eq2 (UV5 m) c 1).trans (U6_of m c (Pipeline.arrRef spec2 1) (by decide)).symm)
  | ⟨2, _⟩ => ((dat2 (UV5 m) c).arrAt_in 2 rfl _).trans ((A_eq2 (UV5 m) c 2).trans (U6_of m c (Pipeline.arrRef spec2 2) (by decide)).symm)
  | ⟨3, _⟩ => (U6_self m c).symm
/-- and every other buffer what it held at entry. -/
theorem hrest2 (c : Dev nD) : ∀ b, b ∉ Finset.univ.image (Pipeline.arrRef spec2) → UV6 m c b = UV5 m c b :=
  fun b hb => U6_of m c b fun e => hb (Finset.mem_image.mpr ⟨3, Finset.mem_univ _, e.symm⟩)

set_option backward.isDefEq.respectTransparency.types false in
/-- Region 2 over the thread state: entered from every unscoped buffer at `U5`, left at `U6`. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (UV5 m) c).loose
  hwaits := Pipeline.hwaits_of_owed_zero _ _ _ _ L lv 2 fun _ _ => rfl
  pre c := iprop(StableHlo.held (c : Thread nD τ) (Pipeline.ucRefs τ sig) (U5 m c) ∗ R c)
  post c := iprop(StableHlo.held (c : Thread nD τ) (Pipeline.ucRefs τ sig) (U6 m c) ∗ R c)
  X c := iprop(∃ r, prngReg c r)
  Y c := iprop(∃ r, prngReg c r)
  Z c := Pipeline.unscopedRest (Ix := Unit) (Name := ℕ) (U := Pipeline.UD sig nD τ) (Lvl := ℕ) spec2 c (UV5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (UV5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := Pipeline.UD sig nD τ) (Lvl := ℕ)
      launch2.win launch2.arr_whole c (pdats m) ((pdats m 2 c).share_full fun _ => rfl)
      (UV5 m c) (UV6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 4000000 in
/-- At region 3's exit each of its arrays holds what the pipeline leaves: an input array its entry contents, the output the final array. -/
theorem hF3 (c : Dev nD) : ∀ w : Fin cfg3.W, (dat3 (UV7 m) c).arrAt w cfg3.N = UV8 m c (Pipeline.arrRef spec3 w)
  | ⟨0, _⟩ => ((dat3 (UV7 m) c).arrAt_in 0 rfl _).trans ((A_eq3 (UV7 m) c 0).trans (U8_of m c (Pipeline.arrRef spec3 0) (by decide)).symm)
  | ⟨1, _⟩ => ((dat3 (UV7 m) c).arrAt_in 1 rfl _).trans ((A_eq3 (UV7 m) c 1).trans (U8_of m c (Pipeline.arrRef spec3 1) (by decide)).symm)
  | ⟨2, _⟩ => ((dat3 (UV7 m) c).arrAt_in 2 rfl _).trans ((A_eq3 (UV7 m) c 2).trans (U8_of m c (Pipeline.arrRef spec3 2) (by decide)).symm)
  | ⟨3, _⟩ => (U8_self m c).symm
/-- and every other buffer what it held at entry. -/
theorem hrest3 (c : Dev nD) : ∀ b, b ∉ Finset.univ.image (Pipeline.arrRef spec3) → UV8 m c b = UV7 m c b :=
  fun b hb => U8_of m c b fun e => hb (Finset.mem_image.mpr ⟨3, Finset.mem_univ _, e.symm⟩)

set_option backward.isDefEq.respectTransparency.types false in
/-- Region 3 over the thread state: entered from every unscoped buffer at `U7`, left at `U8`. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (UV7 m) c).loose
  hwaits := Pipeline.hwaits_of_owed_zero _ _ _ _ L lv 3 fun _ _ => rfl
  pre c := iprop(StableHlo.held (c : Thread nD τ) (Pipeline.ucRefs τ sig) (U7 m c) ∗ R c)
  post c := iprop(StableHlo.held (c : Thread nD τ) (Pipeline.ucRefs τ sig) (U8 m c) ∗ R c)
  X c := iprop(∃ r, prngReg c r)
  Y c := iprop(∃ r, prngReg c r)
  Z c := Pipeline.unscopedRest (Ix := Unit) (Name := ℕ) (U := Pipeline.UD sig nD τ) (Lvl := ℕ) spec3 c (UV7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (UV7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := Pipeline.UD sig nD τ) (Lvl := ℕ)
      launch3.win launch3.arr_whole c (pdats m) ((pdats m 3 c).share_full fun _ => rfl)
      (UV7 m c) (UV8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 4000000 in
/-- At region 4's exit each of its arrays holds what the pipeline leaves: an input array its entry contents, the output the final array. -/
theorem hF4 (c : Dev nD) : ∀ w : Fin cfg4.W, (dat4 (UV9 m) c).arrAt w cfg4.N = UV10 m c (Pipeline.arrRef spec4 w)
  | ⟨0, _⟩ => ((dat4 (UV9 m) c).arrAt_in 0 rfl _).trans ((A_eq4 (UV9 m) c 0).trans (U10_of m c (Pipeline.arrRef spec4 0) (by decide)).symm)
  | ⟨1, _⟩ => ((dat4 (UV9 m) c).arrAt_in 1 rfl _).trans ((A_eq4 (UV9 m) c 1).trans (U10_of m c (Pipeline.arrRef spec4 1) (by decide)).symm)
  | ⟨2, _⟩ => ((dat4 (UV9 m) c).arrAt_in 2 rfl _).trans ((A_eq4 (UV9 m) c 2).trans (U10_of m c (Pipeline.arrRef spec4 2) (by decide)).symm)
  | ⟨3, _⟩ => (U10_self m c).symm
/-- and every other buffer what it held at entry. -/
theorem hrest4 (c : Dev nD) : ∀ b, b ∉ Finset.univ.image (Pipeline.arrRef spec4) → UV10 m c b = UV9 m c b :=
  fun b hb => U10_of m c b fun e => hb (Finset.mem_image.mpr ⟨3, Finset.mem_univ _, e.symm⟩)

set_option backward.isDefEq.respectTransparency.types false in
/-- Region 4 over the thread state: entered from every unscoped buffer at `U9`, left at `U10`. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (UV9 m) c).loose
  hwaits := Pipeline.hwaits_of_owed_zero _ _ _ _ L lv 4 fun _ _ => rfl
  pre c := iprop(StableHlo.held (c : Thread nD τ) (Pipeline.ucRefs τ sig) (U9 m c) ∗ R c)
  post c := iprop(StableHlo.held (c : Thread nD τ) (Pipeline.ucRefs τ sig) (U10 m c) ∗ R c)
  X c := iprop(∃ r, prngReg c r)
  Y c := iprop(∃ r, prngReg c r)
  Z c := Pipeline.unscopedRest (Ix := Unit) (Name := ℕ) (U := Pipeline.UD sig nD τ) (Lvl := ℕ) spec4 c (UV9 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (UV9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := Pipeline.UD sig nD τ) (Lvl := ℕ)
      launch4.win launch4.arr_whole c (pdats m) ((pdats m 4 c).share_full fun _ => rfl)
      (UV9 m c) (UV10 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 4000000 in
/-- At region 5's exit each of its arrays holds what the pipeline leaves: an input array its entry contents, the output the final array. -/
theorem hF5 (c : Dev nD) : ∀ w : Fin cfg5.W, (dat5 (UV15 m) c).arrAt w cfg5.N = UV16 m c (Pipeline.arrRef spec5 w)
  | ⟨0, _⟩ => ((dat5 (UV15 m) c).arrAt_in 0 rfl _).trans ((A_eq5 (UV15 m) c 0).trans (U16_of m c (Pipeline.arrRef spec5 0) (by decide)).symm)
  | ⟨1, _⟩ => ((dat5 (UV15 m) c).arrAt_in 1 rfl _).trans ((A_eq5 (UV15 m) c 1).trans (U16_of m c (Pipeline.arrRef spec5 1) (by decide)).symm)
  | ⟨2, _⟩ => ((dat5 (UV15 m) c).arrAt_in 2 rfl _).trans ((A_eq5 (UV15 m) c 2).trans (U16_of m c (Pipeline.arrRef spec5 2) (by decide)).symm)
  | ⟨3, _⟩ => (U16_self m c).symm
/-- and every other buffer what it held at entry. -/
theorem hrest5 (c : Dev nD) : ∀ b, b ∉ Finset.univ.image (Pipeline.arrRef spec5) → UV16 m c b = UV15 m c b :=
  fun b hb => U16_of m c b fun e => hb (Finset.mem_image.mpr ⟨3, Finset.mem_univ _, e.symm⟩)

set_option backward.isDefEq.respectTransparency.types false in
/-- Region 5 over the thread state: entered from every unscoped buffer at `U15`, left at `U16`. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (UV15 m) c).loose
  hwaits := Pipeline.hwaits_of_owed_zero _ _ _ _ L lv 5 fun _ _ => rfl
  pre c := iprop(StableHlo.held (c : Thread nD τ) (Pipeline.ucRefs τ sig) (U15 m c) ∗ R c)
  post c := iprop(StableHlo.held (c : Thread nD τ) (Pipeline.ucRefs τ sig) (U16 m c) ∗ R c)
  X c := iprop(∃ r, prngReg c r)
  Y c := iprop(∃ r, prngReg c r)
  Z c := Pipeline.unscopedRest (Ix := Unit) (Name := ℕ) (U := Pipeline.UD sig nD τ) (Lvl := ℕ) spec5 c (UV15 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (UV15 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := Pipeline.UD sig nD τ) (Lvl := ℕ)
      launch5.win launch5.arr_whole c (pdats m) ((pdats m 5 c).share_full fun _ => rfl)
      (UV15 m c) (UV16 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 4000000 in
/-- At region 6's exit each of its arrays holds what the pipeline leaves: an input array its entry contents, the output the final array. -/
theorem hF6 (c : Dev nD) : ∀ w : Fin cfg6.W, (dat6 (UV21 m) c).arrAt w cfg6.N = UV22 m c (Pipeline.arrRef spec6 w)
  | ⟨0, _⟩ => ((dat6 (UV21 m) c).arrAt_in 0 rfl _).trans ((A_eq6 (UV21 m) c 0).trans (U22_of m c (Pipeline.arrRef spec6 0) (by decide)).symm)
  | ⟨1, _⟩ => ((dat6 (UV21 m) c).arrAt_in 1 rfl _).trans ((A_eq6 (UV21 m) c 1).trans (U22_of m c (Pipeline.arrRef spec6 1) (by decide)).symm)
  | ⟨2, _⟩ => ((dat6 (UV21 m) c).arrAt_in 2 rfl _).trans ((A_eq6 (UV21 m) c 2).trans (U22_of m c (Pipeline.arrRef spec6 2) (by decide)).symm)
  | ⟨3, _⟩ => (U22_self m c).symm
/-- and every other buffer what it held at entry. -/
theorem hrest6 (c : Dev nD) : ∀ b, b ∉ Finset.univ.image (Pipeline.arrRef spec6) → UV22 m c b = UV21 m c b :=
  fun b hb => U22_of m c b fun e => hb (Finset.mem_image.mpr ⟨3, Finset.mem_univ _, e.symm⟩)

set_option backward.isDefEq.respectTransparency.types false in
/-- Region 6 over the thread state: entered from every unscoped buffer at `U21`, left at `U22`. -/
def reg6 : Pipeline.RegionSeg (pcfgs (F := F)) adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (UV21 m) c).loose
  hwaits := Pipeline.hwaits_of_owed_zero _ _ _ _ L lv 6 fun _ _ => rfl
  pre c := iprop(StableHlo.held (c : Thread nD τ) (Pipeline.ucRefs τ sig) (U21 m c) ∗ R c)
  post c := iprop(StableHlo.held (c : Thread nD τ) (Pipeline.ucRefs τ sig) (U22 m c) ∗ R c)
  X c := iprop(∃ r, prngReg c r)
  Y c := iprop(∃ r, prngReg c r)
  Z c := Pipeline.unscopedRest (Ix := Unit) (Name := ℕ) (U := Pipeline.UD sig nD τ) (Lvl := ℕ) spec6 c (UV21 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (UV21 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := Pipeline.UD sig nD τ) (Lvl := ℕ)
      launch6.win launch6.arr_whole c (pdats m) ((pdats m 6 c).share_full fun _ => rfl)
      (UV21 m c) (UV22 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 4000000 in
/-- At region 7's exit each of its arrays holds what the pipeline leaves: an input array its entry contents, the output the final array. -/
theorem hF7 (c : Dev nD) : ∀ w : Fin cfg7.W, (dat7 (UV27 m) c).arrAt w cfg7.N = UV28 m c (Pipeline.arrRef spec7 w)
  | ⟨0, _⟩ => ((dat7 (UV27 m) c).arrAt_in 0 rfl _).trans ((A_eq7 (UV27 m) c 0).trans (U28_of m c (Pipeline.arrRef spec7 0) (by decide)).symm)
  | ⟨1, _⟩ => ((dat7 (UV27 m) c).arrAt_in 1 rfl _).trans ((A_eq7 (UV27 m) c 1).trans (U28_of m c (Pipeline.arrRef spec7 1) (by decide)).symm)
  | ⟨2, _⟩ => ((dat7 (UV27 m) c).arrAt_in 2 rfl _).trans ((A_eq7 (UV27 m) c 2).trans (U28_of m c (Pipeline.arrRef spec7 2) (by decide)).symm)
  | ⟨3, _⟩ => (U28_self m c).symm
/-- and every other buffer what it held at entry. -/
theorem hrest7 (c : Dev nD) : ∀ b, b ∉ Finset.univ.image (Pipeline.arrRef spec7) → UV28 m c b = UV27 m c b :=
  fun b hb => U28_of m c b fun e => hb (Finset.mem_image.mpr ⟨3, Finset.mem_univ _, e.symm⟩)

set_option backward.isDefEq.respectTransparency.types false in
/-- Region 7 over the thread state: entered from every unscoped buffer at `U27`, left at `U28`. -/
def reg7 : Pipeline.RegionSeg (pcfgs (F := F)) adm (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (UV27 m) c).loose
  hwaits := Pipeline.hwaits_of_owed_zero _ _ _ _ L lv 7 fun _ _ => rfl
  pre c := iprop(StableHlo.held (c : Thread nD τ) (Pipeline.ucRefs τ sig) (U27 m c) ∗ R c)
  post c := iprop(StableHlo.held (c : Thread nD τ) (Pipeline.ucRefs τ sig) (U28 m c) ∗ R c)
  X c := iprop(∃ r, prngReg c r)
  Y c := iprop(∃ r, prngReg c r)
  Z c := Pipeline.unscopedRest (Ix := Unit) (Name := ℕ) (U := Pipeline.UD sig nD τ) (Lvl := ℕ) spec7 c (UV27 m c)
  hentry c := by
    rw [Pipeline.ownSems0_none]
    have hsplit := Pipeline.arrays_of_unscopedBufs (p := 7) (pcfgs (F := F)) adm (pdats m) launch7.win launch7.arr_whole c
      ((pdats m 7 c).share_full fun _ => rfl) (UV27 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := Pipeline.UD sig nD τ) (Lvl := ℕ)
      launch7.win launch7.arr_whole c (pdats m) ((pdats m 7 c).share_full fun _ => rfl)
      (UV27 m c) (UV28 m c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 4000000 in
/-- At region 8's exit each of its arrays holds what the pipeline leaves: an input array its entry contents, the output the final array. -/
theorem hF8 (c : Dev nD) : ∀ w : Fin cfg8.W, (dat8 (UV33 m) c).arrAt w cfg8.N = UV34 m c (Pipeline.arrRef spec8 w)
  | ⟨0, _⟩ => ((dat8 (UV33 m) c).arrAt_in 0 rfl _).trans ((A_eq8 (UV33 m) c 0).trans (U34_of m c (Pipeline.arrRef spec8 0) (by decide)).symm)
  | ⟨1, _⟩ => ((dat8 (UV33 m) c).arrAt_in 1 rfl _).trans ((A_eq8 (UV33 m) c 1).trans (U34_of m c (Pipeline.arrRef spec8 1) (by decide)).symm)
  | ⟨2, _⟩ => ((dat8 (UV33 m) c).arrAt_in 2 rfl _).trans ((A_eq8 (UV33 m) c 2).trans (U34_of m c (Pipeline.arrRef spec8 2) (by decide)).symm)
  | ⟨3, _⟩ => (U34_self m c).symm
/-- and every other buffer what it held at entry. -/
theorem hrest8 (c : Dev nD) : ∀ b, b ∉ Finset.univ.image (Pipeline.arrRef spec8) → UV34 m c b = UV33 m c b :=
  fun b hb => U34_of m c b fun e => hb (Finset.mem_image.mpr ⟨3, Finset.mem_univ _, e.symm⟩)

set_option backward.isDefEq.respectTransparency.types false in
/-- Region 8 over the thread state: entered from every unscoped buffer at `U33`, left at `U34`. -/
def reg8 : Pipeline.RegionSeg (pcfgs (F := F)) adm (pdats m) () defs₀ 𝒱₀ L lv 8 where
  win := launch8.win.to₀
  block_pos := launch8.block_pos
  stage_whole := launch8.stage_whole
  K := PEmpty
  osem k := k.elim
  ho := Pipeline.OwnSemFacts.none _
  hbody c := (body_obligation8 (UV33 m) c).loose
  hwaits := Pipeline.hwaits_of_owed_zero _ _ _ _ L lv 8 fun _ _ => rfl
  pre c := iprop(StableHlo.held (c : Thread nD τ) (Pipeline.ucRefs τ sig) (U33 m c) ∗ R c)
  post c := iprop(StableHlo.held (c : Thread nD τ) (Pipeline.ucRefs τ sig) (U34 m c) ∗ R c)
  X c := iprop(∃ r, prngReg c r)
  Y c := iprop(∃ r, prngReg c r)
  Z c := Pipeline.unscopedRest (Ix := Unit) (Name := ℕ) (U := Pipeline.UD sig nD τ) (Lvl := ℕ) spec8 c (UV33 m c)
  hentry c := by
    rw [Pipeline.ownSems0_none]
    have hsplit := Pipeline.arrays_of_unscopedBufs (p := 8) (pcfgs (F := F)) adm (pdats m) launch8.win launch8.arr_whole c
      ((pdats m 8 c).share_full fun _ => rfl) (UV33 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := Pipeline.UD sig nD τ) (Lvl := ℕ)
      launch8.win launch8.arr_whole c (pdats m) ((pdats m 8 c).share_full fun _ => rfl)
      (UV33 m c) (UV34 m c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 4000000 in
/-- At region 9's exit each of its arrays holds what the pipeline leaves: an input array its entry contents, the output the final array. -/
theorem hF9 (c : Dev nD) : ∀ w : Fin cfg9.W, (dat9 (UV35 m) c).arrAt w cfg9.N = UV36 m c (Pipeline.arrRef spec9 w)
  | ⟨0, _⟩ => ((dat9 (UV35 m) c).arrAt_in 0 rfl _).trans ((A_eq9 (UV35 m) c 0).trans (U36_of m c (Pipeline.arrRef spec9 0) (by decide)).symm)
  | ⟨1, _⟩ => ((dat9 (UV35 m) c).arrAt_in 1 rfl _).trans ((A_eq9 (UV35 m) c 1).trans (U36_of m c (Pipeline.arrRef spec9 1) (by decide)).symm)
  | ⟨2, _⟩ => ((dat9 (UV35 m) c).arrAt_in 2 rfl _).trans ((A_eq9 (UV35 m) c 2).trans (U36_of m c (Pipeline.arrRef spec9 2) (by decide)).symm)
  | ⟨3, _⟩ => (U36_self m c).symm
/-- and every other buffer what it held at entry. -/
theorem hrest9 (c : Dev nD) : ∀ b, b ∉ Finset.univ.image (Pipeline.arrRef spec9) → UV36 m c b = UV35 m c b :=
  fun b hb => U36_of m c b fun e => hb (Finset.mem_image.mpr ⟨3, Finset.mem_univ _, e.symm⟩)

set_option backward.isDefEq.respectTransparency.types false in
/-- Region 9 over the thread state: entered from every unscoped buffer at `U35`, left at `U36`. -/
def reg9 : Pipeline.RegionSeg (pcfgs (F := F)) adm (pdats m) () defs₀ 𝒱₀ L lv 9 where
  win := launch9.win.to₀
  block_pos := launch9.block_pos
  stage_whole := launch9.stage_whole
  K := PEmpty
  osem k := k.elim
  ho := Pipeline.OwnSemFacts.none _
  hbody c := (body_obligation9 (UV35 m) c).loose
  hwaits := Pipeline.hwaits_of_owed_zero _ _ _ _ L lv 9 fun _ _ => rfl
  pre c := iprop(StableHlo.held (c : Thread nD τ) (Pipeline.ucRefs τ sig) (U35 m c) ∗ R c)
  post c := iprop(StableHlo.held (c : Thread nD τ) (Pipeline.ucRefs τ sig) (U36 m c) ∗ R c)
  X c := iprop(∃ r, prngReg c r)
  Y c := iprop(∃ r, prngReg c r)
  Z c := Pipeline.unscopedRest (Ix := Unit) (Name := ℕ) (U := Pipeline.UD sig nD τ) (Lvl := ℕ) spec9 c (UV35 m c)
  hentry c := by
    rw [Pipeline.ownSems0_none]
    have hsplit := Pipeline.arrays_of_unscopedBufs (p := 9) (pcfgs (F := F)) adm (pdats m) launch9.win launch9.arr_whole c
      ((pdats m 9 c).share_full fun _ => rfl) (UV35 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := Pipeline.UD sig nD τ) (Lvl := ℕ)
      launch9.win launch9.arr_whole c (pdats m) ((pdats m 9 c).share_full fun _ => rfl)
      (UV35 m c) (UV36 m c) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Asm

end
-- ==== Proof.KernelRun.lean ====
/-
  The run of `Kernel`'s @main over its 36 segments: @main is the segments' run, the thread states chain from the launch to the last boundary, and the last boundary's contents are read against the final memory — the frame (every argument array as launched) and the run with the result array named.
-/
import proofs.«161272_j16312285791078_1_alg».proof.Proof.KernelSegs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Asm

open Cert.Kernel Cert.Kernel.Gen Cert.Kernel.GenP Cert.Kernel.Rg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## @main as the run of its segments -/

theorem hpre0 (c : Dev nD) : iprop(StableHlo.held (c : Thread nD τ) (Pipeline.ucRefs τ sig) (V1 m c) ∗ E (F := F) 0 c) ⊢ (reg0 m).pre c := by
  rw [V1_eq m c]; exact .rfl
theorem hpre1 (c : Dev nD) : iprop(StableHlo.held (c : Thread nD τ) (Pipeline.ucRefs τ sig) (V3 m (outs m) c) ∗ E (F := F) 1 c) ⊢ (reg1 m).pre c := by
  rw [V3_eq m c]; exact .rfl
theorem hpre2 (c : Dev nD) : iprop(StableHlo.held (c : Thread nD τ) (Pipeline.ucRefs τ sig) (V5 m (outs m) c) ∗ E (F := F) 2 c) ⊢ (reg2 m).pre c := by
  rw [V5_eq m c]; exact .rfl
theorem hpre3 (c : Dev nD) : iprop(StableHlo.held (c : Thread nD τ) (Pipeline.ucRefs τ sig) (V7 m (outs m) c) ∗ E (F := F) 3 c) ⊢ (reg3 m).pre c := by
  rw [V7_eq m c]; exact .rfl
theorem hpre4 (c : Dev nD) : iprop(StableHlo.held (c : Thread nD τ) (Pipeline.ucRefs τ sig) (V9 m (outs m) c) ∗ E (F := F) 4 c) ⊢ (reg4 m).pre c := by
  rw [V9_eq m c]; exact .rfl
theorem hpre5 (c : Dev nD) : iprop(StableHlo.held (c : Thread nD τ) (Pipeline.ucRefs τ sig) (V15 m (outs m) c) ∗ E (F := F) 5 c) ⊢ (reg5 m).pre c := by
  rw [V15_eq m c]; exact .rfl
theorem hpre6 (c : Dev nD) : iprop(StableHlo.held (c : Thread nD τ) (Pipeline.ucRefs τ sig) (V21 m (outs m) c) ∗ E (F := F) 6 c) ⊢ (reg6 m).pre c := by
  rw [V21_eq m c]; exact .rfl
theorem hpre7 (c : Dev nD) : iprop(StableHlo.held (c : Thread nD τ) (Pipeline.ucRefs τ sig) (V27 m (outs m) c) ∗ E (F := F) 7 c) ⊢ (reg7 m).pre c := by
  rw [V27_eq m c]; exact .rfl
theorem hpre8 (c : Dev nD) : iprop(StableHlo.held (c : Thread nD τ) (Pipeline.ucRefs τ sig) (V33 m (outs m) c) ∗ E (F := F) 8 c) ⊢ (reg8 m).pre c := by
  rw [V33_eq m c]; exact .rfl
theorem hpre9 (c : Dev nD) : iprop(StableHlo.held (c : Thread nD τ) (Pipeline.ucRefs τ sig) (V35 m (outs m) c) ∗ E (F := F) 9 c) ⊢ (reg9 m).pre c := by
  rw [V35_eq m c]; exact .rfl
theorem hpost0 (c : Dev nD) : (reg0 m).post c ⊢ iprop(StableHlo.held (c : Thread nD τ) (Pipeline.ucRefs τ sig) (V2 m (outs m) c) ∗ E (F := F) 1 c) := by
  rw [V2_eq m c]; exact .rfl
theorem hpost1 (c : Dev nD) : (reg1 m).post c ⊢ iprop(StableHlo.held (c : Thread nD τ) (Pipeline.ucRefs τ sig) (V4 m (outs m) c) ∗ E (F := F) 2 c) := by
  rw [V4_eq m c]; exact .rfl
theorem hpost2 (c : Dev nD) : (reg2 m).post c ⊢ iprop(StableHlo.held (c : Thread nD τ) (Pipeline.ucRefs τ sig) (V6 m (outs m) c) ∗ E (F := F) 3 c) := by
  rw [V6_eq m c]; exact .rfl
theorem hpost3 (c : Dev nD) : (reg3 m).post c ⊢ iprop(StableHlo.held (c : Thread nD τ) (Pipeline.ucRefs τ sig) (V8 m (outs m) c) ∗ E (F := F) 4 c) := by
  rw [V8_eq m c]; exact .rfl
theorem hpost4 (c : Dev nD) : (reg4 m).post c ⊢ iprop(StableHlo.held (c : Thread nD τ) (Pipeline.ucRefs τ sig) (V10 m (outs m) c) ∗ E (F := F) 5 c) := by
  rw [V10_eq m c]; exact .rfl
theorem hpost5 (c : Dev nD) : (reg5 m).post c ⊢ iprop(StableHlo.held (c : Thread nD τ) (Pipeline.ucRefs τ sig) (V16 m (outs m) c) ∗ E (F := F) 6 c) := by
  rw [V16_eq m c]; exact .rfl
theorem hpost6 (c : Dev nD) : (reg6 m).post c ⊢ iprop(StableHlo.held (c : Thread nD τ) (Pipeline.ucRefs τ sig) (V22 m (outs m) c) ∗ E (F := F) 7 c) := by
  rw [V22_eq m c]; exact .rfl
theorem hpost7 (c : Dev nD) : (reg7 m).post c ⊢ iprop(StableHlo.held (c : Thread nD τ) (Pipeline.ucRefs τ sig) (V28 m (outs m) c) ∗ E (F := F) 8 c) := by
  rw [V28_eq m c]; exact .rfl
theorem hpost8 (c : Dev nD) : (reg8 m).post c ⊢ iprop(StableHlo.held (c : Thread nD τ) (Pipeline.ucRefs τ sig) (V34 m (outs m) c) ∗ E (F := F) 9 c) := by
  rw [V34_eq m c]; exact .rfl
/-- The last region's exit is the run's last thread state beside the core owing nothing. -/
theorem hlast (c : Dev nD) : (reg9 m).post c ⊢ (iprop(iprop(StableHlo.held (c : Thread nD τ) (Pipeline.ucRefs τ sig) (U36 m c) ∗ ∃ r, prngReg c r)
    ∗ ∃ W, owes (c : Thread nD τ) (0 : CellTallies nD τ sig Unit) W) : sProp 𝕄) := by
  show (iprop(StableHlo.held (c : Thread nD τ) (Pipeline.ucRefs τ sig) (U36 m c) ∗ R (F := F) c) : sProp 𝕄) ⊢ _
  iintro ⟨Hh, Hp, Ho⟩
  isplitl [Hh Hp]
  · isplitl [Hh]; · iexact Hh
    iexact Hp
  iexact Ho

/-- @main's 36 items as segments on core `c`: the host stretches' from the generated valuations, the regions' the records above. -/
abbrev segsAll (c : Dev nD) : List (Seg (pcfgs (F := F)) adm (pdats m) () defs₀ 𝒱₀ L lv) :=
  segs m (outs m) 𝒱₀ L lv E () (pdats m) (reg0 m) (reg1 m) (reg2 m) (reg3 m) (reg4 m) (reg5 m) (reg6 m) (reg7 m) (reg8 m) (reg9 m) c

/-- @main IS the run of the segments: its chain of items, then the segments' run against that chain. -/
theorem main_run (c : Dev nD) : main (F := F) c = Seg.run (segsAll m c) := (main_chain c).trans (by chain_rfl)

set_option backward.isDefEq.respectTransparency.types false in
/-- THE RUN: from any memory with zero counters every weakly fair execution of @main terminates, nothing faulting, and every
    final state holds each unscoped buffer at the last boundary's contents `U36`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = U36 m c b) :=
  Pipeline.θ_run_regions_kit_dev (pcfgs (F := F)) adm (pdats m) () cellOf_inj embL defs₀ 𝒱₀ L lv m ρ main (fun c => segsAll m c)
    (fun c Q => by rw [main_run m c])
    (fun c => by simp only [segsAll, segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ E (F := F) 0 c))
    (Tₙ := fun c => iprop(StableHlo.held (c : Thread nD τ) (Pipeline.ucRefs τ sig) (U36 m c) ∗ ∃ r, prngReg c r))
    (hch := fun c => ⟨.rfl, hpre0 m c, hpost0 m c, hpre1 m c, hpost1 m c, hpre2 m c, hpost2 m c, hpre3 m c, hpost3 m c, hpre4 m c, hpost4 m c, .rfl, .rfl, .rfl, .rfl, hpre5 m c, hpost5 m c, .rfl, .rfl, .rfl, .rfl, hpre6 m c, hpost6 m c, .rfl, .rfl, .rfl, .rfl, hpre7 m c, hpost7 m c, .rfl, .rfl, .rfl, .rfl, hpre8 m c, hpost8 m c, hpre9 m c, hlast m c⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U36 m c b)
    (hfin := fun c s' => by
      iintro ⟨⟨Hh, -⟩, HSI⟩
      unfold StableHlo.held
      imodintro
      iapply (pointsTo_read_all (Pipeline.ucRefs τ sig) (fun b => (((c : Thread nD τ)).1, b)) (U36 m c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) :=
  (θ_run defs _ _).mono (fun _ h c =>
    ⟨(h c _ (mem_uc main_arg0 (by decide))).trans (U36_main_arg0 m c),
     (h c _ (mem_uc main_arg1 (by decide))).trans (U36_main_arg1 m c),
     (h c _ (mem_uc main_arg2 (by decide))).trans (U36_main_arg2 m c),
     (h c _ (mem_uc main_arg3 (by decide))).trans (U36_main_arg3 m c),
     (h c _ (mem_uc main_arg4 (by decide))).trans (U36_main_arg4 m c),
     (h c _ (mem_uc main_arg5 (by decide))).trans (U36_main_arg5 m c),
     (h c _ (mem_uc main_arg6 (by decide))).trans (U36_main_arg6 m c),
     (h c _ (mem_uc main_arg7 (by decide))).trans (U36_main_arg7 m c),
     (h c _ (mem_uc main_arg8 (by decide))).trans (U36_main_arg8 m c),
     (h c _ (mem_uc main_arg9 (by decide))).trans (U36_main_arg9 m c),
     (h c _ (mem_uc main_arg10 (by decide))).trans (U36_main_arg10 m c),
     (h c _ (mem_uc main_arg11 (by decide))).trans (U36_main_arg11 m c),
     (h c _ (mem_uc main_arg12 (by decide))).trans (U36_main_arg12 m c),
     (h c _ (mem_uc main_arg13 (by decide))).trans (U36_main_arg13 m c),
     (h c _ (mem_uc main_arg14 (by decide))).trans (U36_main_arg14 m c),
     (h c _ (mem_uc main_arg15 (by decide))).trans (U36_main_arg15 m c),
     (h c _ (mem_uc main_arg16 (by decide))).trans (U36_main_arg16 m c),
     (h c _ (mem_uc main_arg17 (by decide))).trans (U36_main_arg17 m c),
     (h c _ (mem_uc main_arg18 (by decide))).trans (U36_main_arg18 m c),
     (h c _ (mem_uc main_arg19 (by decide))).trans (U36_main_arg19 m c),
     (h c _ (mem_uc main_arg20 (by decide))).trans (U36_main_arg20 m c),
     (h c _ (mem_uc main_arg21 (by decide))).trans (U36_main_arg21 m c),
     (h c _ (mem_uc main_arg22 (by decide))).trans (U36_main_arg22 m c),
     (h c _ (mem_uc main_arg23 (by decide))).trans (U36_main_arg23 m c),
     (h c _ (mem_uc main_arg24 (by decide))).trans (U36_main_arg24 m c),
     (h c _ (mem_uc main_arg25 (by decide))).trans (U36_main_arg25 m c),
     (h c _ (mem_uc main_arg26 (by decide))).trans (U36_main_arg26 m c),
     (h c _ (mem_uc main_arg27 (by decide))).trans (U36_main_arg27 m c)⟩) (run_all m ρ)

/-- THE RUN WITH THE RESULT NAMED: the result array ends at region 9's final array, every argument array as launched. -/
theorem run_named : θ_run defs (onTc (τ := τ) (main (F := F))) ⟨m, fun _ => 0, ρ⟩ (fun r => ∀ c : Dev nD,
      r.2.mem ((c.tc : Thread nD τ).loc main_v268) = X36 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) :=
  (θ_run defs _ _).mono (fun _ h c =>
    ⟨(h c _ (mem_uc main_v268 (by decide))).trans (U36_self m c),
     (h c _ (mem_uc main_arg0 (by decide))).trans (U36_main_arg0 m c),
     (h c _ (mem_uc main_arg1 (by decide))).trans (U36_main_arg1 m c),
     (h c _ (mem_uc main_arg2 (by decide))).trans (U36_main_arg2 m c),
     (h c _ (mem_uc main_arg3 (by decide))).trans (U36_main_arg3 m c),
     (h c _ (mem_uc main_arg4 (by decide))).trans (U36_main_arg4 m c),
     (h c _ (mem_uc main_arg5 (by decide))).trans (U36_main_arg5 m c),
     (h c _ (mem_uc main_arg6 (by decide))).trans (U36_main_arg6 m c),
     (h c _ (mem_uc main_arg7 (by decide))).trans (U36_main_arg7 m c),
     (h c _ (mem_uc main_arg8 (by decide))).trans (U36_main_arg8 m c),
     (h c _ (mem_uc main_arg9 (by decide))).trans (U36_main_arg9 m c),
     (h c _ (mem_uc main_arg10 (by decide))).trans (U36_main_arg10 m c),
     (h c _ (mem_uc main_arg11 (by decide))).trans (U36_main_arg11 m c),
     (h c _ (mem_uc main_arg12 (by decide))).trans (U36_main_arg12 m c),
     (h c _ (mem_uc main_arg13 (by decide))).trans (U36_main_arg13 m c),
     (h c _ (mem_uc main_arg14 (by decide))).trans (U36_main_arg14 m c),
     (h c _ (mem_uc main_arg15 (by decide))).trans (U36_main_arg15 m c),
     (h c _ (mem_uc main_arg16 (by decide))).trans (U36_main_arg16 m c),
     (h c _ (mem_uc main_arg17 (by decide))).trans (U36_main_arg17 m c),
     (h c _ (mem_uc main_arg18 (by decide))).trans (U36_main_arg18 m c),
     (h c _ (mem_uc main_arg19 (by decide))).trans (U36_main_arg19 m c),
     (h c _ (mem_uc main_arg20 (by decide))).trans (U36_main_arg20 m c),
     (h c _ (mem_uc main_arg21 (by decide))).trans (U36_main_arg21 m c),
     (h c _ (mem_uc main_arg22 (by decide))).trans (U36_main_arg22 m c),
     (h c _ (mem_uc main_arg23 (by decide))).trans (U36_main_arg23 m c),
     (h c _ (mem_uc main_arg24 (by decide))).trans (U36_main_arg24 m c),
     (h c _ (mem_uc main_arg25 (by decide))).trans (U36_main_arg25 m c),
     (h c _ (mem_uc main_arg26 (by decide))).trans (U36_main_arg26 m c),
     (h c _ (mem_uc main_arg27 (by decide))).trans (U36_main_arg27 m c)⟩) (run_all m ρ)

end Cert.Kernel.Asm

end
-- ==== Proof.KernelIdealRegion0.lean ====
/-
  Region 0 of `KernelIdeal`'s @main — one dense layer, `act(x · w + b)` on a row tile — as one pipelined call: what each grid point's
  body leaves in the output window's staging buffer (the store's payload of the three input blocks), the body's triple, and
  the pipeline's proof data over ANY contents `V` the region is entered from. The body loads its three operand blocks whole,
  stores one whole block, and touches nothing else, so an input's buffer holds its block of the entry array at every point and
  the output's buffer holds the payload of those blocks.
-/
import proofs.«161272_j16312285791078_1_alg».proof.Proof.Gen.KernelIdeal.Launch
import proofs.«161272_j16312285791078_1_alg».proof.Proof.Gen.KernelIdeal.Skeleton
import proofs.«161272_j16312285791078_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block of the entry array at every point, fetched there or not. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's staging buffer holds its block of the entry array at every point, fetched there or not. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's staging buffer holds its block of the entry array at every point, fetched there or not. -/
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangles the body loads and stores through. -/
abbrev r0_0 : Rect S64x18640 := Rect.unit (s := S64x18640) ![0, 0] S64x18640.size inb_S64x18640_S64x18640_0_0
abbrev r0_1 : Rect S18640x128 := Rect.unit (s := S18640x128) ![0, 0] S18640x128.size inb_S18640x128_S18640x128_0_0
abbrev r0_2 : Rect S1x128 := Rect.unit (s := S1x128) ![0, 0] S1x128.size inb_S1x128_S1x128_0_0
abbrev r0_3 : Rect S64x128 := Rect.unit (s := S64x128) ![0, 0] S64x128.size inb_S64x128_S64x128_0_0

/-- The output window's staging buffer after the body, from the three input blocks: its one store, of the layer's payload. -/
def out0_3 (x0 : Vec F S64x18640 .bf16) (x1 : Vec F S18640x128 .bf16) (x2 : Vec F S1x128 .f32) : Vec F S64x128 .f32 :=
  View.canon [⟨r0_3, k0_pay1 (View.ld x0 r0_0) (View.ld x1 r0_1) (View.ld x2 r0_2)⟩]

/-- The one store covers the buffer. -/
theorem cover0_3 (p0 : Vec F S64x128 .f32) (y : S64x128.Idx) :
    ∃ pc ∈ ([⟨r0_3, p0⟩] : List (View.Piece (Elt F) S64x128 .f32)), y ∈ pc.1.set :=
  View.cover_of_tiled [⟨r0_3, p0⟩] S64x128.size (by rfl) y

set_option maxHeartbeats 1000000 in
/-- The body on whole staging memrefs — the inputs' at contents `x0 x1 x2`, the output's at anything — runs to the continuation
    with the inputs' as they were and the output's at `out0_3 x0 x1 x2`. -/
theorem sound_kernel0 (c : Dev nD) (E : Set ℕ) (i : grid0.Coords) (arg1 : Memref sig .tc .vmem S64x18640 .bf16) (harg1 : arg1.IsWhole) (arg2 : Memref sig .tc .vmem S18640x128 .bf16) (harg2 : arg2.IsWhole) (arg3 : Memref sig .tc .vmem S1x128 .f32) (harg3 : arg3.IsWhole) (arg4 : Memref sig .tc .vmem S64x128 .f32) (harg4 : arg4.IsWhole)
    (x0 : Vec F S64x18640 .bf16) (x1 : Vec F S18640x128 .bf16) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__dense_kernel i arg1 harg1 arg2 harg2 arg3 harg3 arg4 harg4) K := by
  simp only [cc0__dense_kernel_eq_skeleton]; unfold cc0__dense_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The pipeline's proof data on core `c`: the arrays as the region finds them; after the body at point `t` each input's buffer at
    its block and the output's at the payload of the input blocks; the class-A invariant; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Rg

end
-- ==== Proof.KernelIdealRegion1.lean ====
/-
  Region 1 of `KernelIdeal`'s @main — one dense layer, `act(x · w + b)` on a row tile — as one pipelined call: what each grid point's
  body leaves in the output window's staging buffer (the store's payload of the three input blocks), the body's triple, and
  the pipeline's proof data over ANY contents `V` the region is entered from. The body loads its three operand blocks whole,
  stores one whole block, and touches nothing else, so an input's buffer holds its block of the entry array at every point and
  the output's buffer holds the payload of those blocks.
-/
import proofs.«161272_j16312285791078_1_alg».proof.Proof.Gen.KernelIdeal.Launch
import proofs.«161272_j16312285791078_1_alg».proof.Proof.Gen.KernelIdeal.Skeleton
import proofs.«161272_j16312285791078_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block of the entry array at every point, fetched there or not. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's staging buffer holds its block of the entry array at every point, fetched there or not. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's staging buffer holds its block of the entry array at every point, fetched there or not. -/
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole-block rectangles the body loads and stores through. -/
abbrev r1_0 : Rect S64x128 := Rect.unit (s := S64x128) ![0, 0] S64x128.size inb_S64x128_S64x128_0_0
abbrev r1_1 : Rect S128x128 := Rect.unit (s := S128x128) ![0, 0] S128x128.size inb_S128x128_S128x128_0_0
abbrev r1_2 : Rect S1x128 := Rect.unit (s := S1x128) ![0, 0] S1x128.size inb_S1x128_S1x128_0_0
abbrev r1_3 : Rect S64x128 := Rect.unit (s := S64x128) ![0, 0] S64x128.size inb_S64x128_S64x128_0_0

/-- The output window's staging buffer after the body, from the three input blocks: its one store, of the layer's payload. -/
def out1_3 (x0 : Vec F S64x128 .bf16) (x1 : Vec F S128x128 .bf16) (x2 : Vec F S1x128 .f32) : Vec F S64x128 .f32 :=
  View.canon [⟨r1_3, k1_pay1 (View.ld x0 r1_0) (View.ld x1 r1_1) (View.ld x2 r1_2)⟩]

/-- The one store covers the buffer. -/
theorem cover1_3 (p0 : Vec F S64x128 .f32) (y : S64x128.Idx) :
    ∃ pc ∈ ([⟨r1_3, p0⟩] : List (View.Piece (Elt F) S64x128 .f32)), y ∈ pc.1.set :=
  View.cover_of_tiled [⟨r1_3, p0⟩] S64x128.size (by rfl) y

set_option maxHeartbeats 1000000 in
/-- The body on whole staging memrefs — the inputs' at contents `x0 x1 x2`, the output's at anything — runs to the continuation
    with the inputs' as they were and the output's at `out1_3 x0 x1 x2`. -/
theorem sound_kernel1 (c : Dev nD) (E : Set ℕ) (i : grid1.Coords) (arg1 : Memref sig .tc .vmem S64x128 .bf16) (harg1 : arg1.IsWhole) (arg2 : Memref sig .tc .vmem S128x128 .bf16) (harg2 : arg2.IsWhole) (arg3 : Memref sig .tc .vmem S1x128 .f32) (harg3 : arg3.IsWhole) (arg4 : Memref sig .tc .vmem S64x128 .f32) (harg4 : arg4.IsWhole)
    (x0 : Vec F S64x128 .bf16) (x1 : Vec F S128x128 .bf16) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__dense_kernel i arg1 harg1 arg2 harg2 arg3 harg3 arg4 harg4) K := by
  simp only [cc1__dense_kernel_eq_skeleton]; unfold cc1__dense_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The pipeline's proof data on core `c`: the arrays as the region finds them; after the body at point `t` each input's buffer at
    its block and the output's at the payload of the input blocks; the class-A invariant; nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Rg

end
-- ==== Proof.KernelIdealRegion2.lean ====
/-
  Region 2 of `KernelIdeal`'s @main — one dense layer, `act(x · w + b)` on a row tile — as one pipelined call: what each grid point's
  body leaves in the output window's staging buffer (the store's payload of the three input blocks), the body's triple, and
  the pipeline's proof data over ANY contents `V` the region is entered from. The body loads its three operand blocks whole,
  stores one whole block, and touches nothing else, so an input's buffer holds its block of the entry array at every point and
  the output's buffer holds the payload of those blocks.
-/
import proofs.«161272_j16312285791078_1_alg».proof.Proof.Gen.KernelIdeal.Launch
import proofs.«161272_j16312285791078_1_alg».proof.Proof.Gen.KernelIdeal.Skeleton
import proofs.«161272_j16312285791078_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block of the entry array at every point, fetched there or not. -/
theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's staging buffer holds its block of the entry array at every point, fetched there or not. -/
theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's staging buffer holds its block of the entry array at every point, fetched there or not. -/
theorem before2_2_of {c : Dev nD} (dat : Dat τ (Elt F) Unit ℕ (Pipeline.UD sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The whole-block rectangles the body loads and stores through. -/
abbrev r2_0 : Rect S64x21 := Rect.unit (s := S64x21) ![0, 0] S64x21.size inb_S64x21_S64x21_0_0
abbrev r2_1 : Rect S21x64 := Rect.unit (s := S21x64) ![0, 0] S21x64.size inb_S21x64_S21x64_0_0
abbrev r2_2 : Rect S1x64 := Rect.unit (s := S1x64) ![0, 0] S1x64.size inb_S1x64_S1x64_0_0
abbrev r2_3 : Rect S64x64 := Rect.unit (s := S64x64) ![0, 0] S64x64.size inb_S64x64_S64x64_0_0

/-- The output window's staging buffer after the body, from the three input blocks: its one store, of the layer's payload. -/
def out2_3 (x0 : Vec F S64x21 .bf16) (x1 : Vec F S21x64 .bf16) (x2 : Vec F S1x64 .f32) : Vec F S64x64 .f32 :=
  View.canon [⟨r2_3, k2_pay1 (View.ld x0 r2_0) (View.ld x1 r2_1) (View.ld x2 r2_2)⟩]

/-- The one store covers the buffer. -/
theorem cover2_3 (p0 : Vec F S64x64 .f32) (y : S64x64.Idx) :
    ∃ pc ∈ ([⟨r2_3, p0⟩] : List (View.Piece (Elt F) S64x64 .f32)), y ∈ pc.1.set :=
  View.cover_of_tiled [⟨r2_3, p0⟩] S64x64.size (by rfl) y

set_option maxHeartbeats 1000000 in
/-- The body on whole staging memrefs — the inputs' at contents `x0 x1 x2`, the output's at anything — runs to the continuation
    with the inputs' as they were and the output's at `out2_3 x0 x1 x2`. -/
theorem sound_kernel2 (c : Dev nD) (E : Set ℕ) (i : grid2.Coords) (arg1 : Memref sig .tc .vmem S64x21 .bf16) (harg1 : arg1.IsWhole) (arg2 : Memref sig .tc .vmem S21x64 .bf16) (harg2 : arg2.IsWhole) (arg3 : Memref sig .tc .vmem S1x64 .f32) (harg3 : arg3.IsWhole) (arg4 : Memref sig .tc .vmem S64x64 .f32) (harg4 : arg4.IsWhole)
    (x0 : Vec F S64x21 .bf16) (x1 : Vec F S21x64 .bf16) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__dense_kernel i arg1 harg1 arg2 harg2 arg3 harg3 arg4 harg4) K := by
  simp only [cc2__dense_kernel_eq_skeleton]; unfold cc2__dense_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The pipeline's proof data on core `c`: the arrays as the region finds them; after the body at point `t` each input's buffer at
    its block and the output's at the payload of the input blocks; the class-A invariant; nothing owed; full shares. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the body's triple applies; the invariant and the core's
    dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Rg

end
-- ==== Proof.KernelIdealRegion3.lean ====
/-
  Region 3 of `KernelIdeal`'s @main — one dense layer, `act(x · w + b)` on a row tile — as one pipelined call: what each grid point's
  body leaves in the output window's staging buffer (the store's payload of the three input blocks), the body's triple, and
  the pipeline's proof data over ANY contents `V` the region is entered from. The body loads its three operand blocks whole,
  stores one whole block, and touches nothing else, so an input's buffer holds its block of the entry array at every point and
  the output's buffer holds the payload of those blocks.
-/
import proofs.«161272_j16312285791078_1_alg».proof.Proof.Gen.KernelIdeal.Launch
import proofs.«161272_j16312285791078_1_alg».proof.Proof.Gen.KernelIdeal.Skeleton
import proofs.«161272_j16312285791078_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block of the entry array at every point, fetched there or not. -/
theorem before3_0_of {c : Dev nD} (dat : Dat τ (Elt F) Unit ℕ (Pipeline.UD sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's staging buffer holds its block of the entry array at every point, fetched there or not. -/
theorem before3_1_of {c : Dev nD} (dat : Dat τ (Elt F) Unit ℕ (Pipeline.UD sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's staging buffer holds its block of the entry array at every point, fetched there or not. -/
theorem before3_2_of {c : Dev nD} (dat : Dat τ (Elt F) Unit ℕ (Pipeline.UD sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The whole-block rectangles the body loads and stores through. -/
abbrev r3_0 : Rect S64x64 := Rect.unit (s := S64x64) ![0, 0] S64x64.size inb_S64x64_S64x64_0_0
abbrev r3_1 : Rect S64x64 := Rect.unit (s := S64x64) ![0, 0] S64x64.size inb_S64x64_S64x64_0_0
abbrev r3_2 : Rect S1x64 := Rect.unit (s := S1x64) ![0, 0] S1x64.size inb_S1x64_S1x64_0_0
abbrev r3_3 : Rect S64x64 := Rect.unit (s := S64x64) ![0, 0] S64x64.size inb_S64x64_S64x64_0_0

/-- The output window's staging buffer after the body, from the three input blocks: its one store, of the layer's payload. -/
def out3_3 (x0 : Vec F S64x64 .bf16) (x1 : Vec F S64x64 .bf16) (x2 : Vec F S1x64 .f32) : Vec F S64x64 .f32 :=
  View.canon [⟨r3_3, k3_pay1 (View.ld x0 r3_0) (View.ld x1 r3_1) (View.ld x2 r3_2)⟩]

/-- The one store covers the buffer. -/
theorem cover3_3 (p0 : Vec F S64x64 .f32) (y : S64x64.Idx) :
    ∃ pc ∈ ([⟨r3_3, p0⟩] : List (View.Piece (Elt F) S64x64 .f32)), y ∈ pc.1.set :=
  View.cover_of_tiled [⟨r3_3, p0⟩] S64x64.size (by rfl) y

set_option maxHeartbeats 1000000 in
/-- The body on whole staging memrefs — the inputs' at contents `x0 x1 x2`, the output's at anything — runs to the continuation
    with the inputs' as they were and the output's at `out3_3 x0 x1 x2`. -/
theorem sound_kernel3 (c : Dev nD) (E : Set ℕ) (i : grid3.Coords) (arg1 : Memref sig .tc .vmem S64x64 .bf16) (harg1 : arg1.IsWhole) (arg2 : Memref sig .tc .vmem S64x64 .bf16) (harg2 : arg2.IsWhole) (arg3 : Memref sig .tc .vmem S1x64 .f32) (harg3 : arg3.IsWhole) (arg4 : Memref sig .tc .vmem S64x64 .f32) (harg4 : arg4.IsWhole)
    (x0 : Vec F S64x64 .bf16) (x1 : Vec F S64x64 .bf16) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2)) -∗ K ⟨⟩))
      ⊢ wp frame (wpE (defs₀ (F := F)) Variants.none c none) E (cc3__dense_kernel i arg1 harg1 arg2 harg2 arg3 harg3 arg4 harg4) K := by
  simp only [cc3__dense_kernel_eq_skeleton]; unfold cc3__dense_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-- The pipeline's proof data on core `c`: the arrays as the region finds them; after the body at point `t` each input's buffer at
    its block and the output's at the payload of the input blocks; the class-A invariant; nothing owed; full shares. -/
def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks, so the body's triple applies; the invariant and the core's
    dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ (grid3.coords t) _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Rg

end
-- ==== Proof.KernelIdealRegion4.lean ====
/-
  Region 4 of `KernelIdeal`'s @main — one dense layer, `act(x · w + b)` on a row tile — as one pipelined call: what each grid point's
  body leaves in the output window's staging buffer (the store's payload of the three input blocks), the body's triple, and
  the pipeline's proof data over ANY contents `V` the region is entered from. The body loads its three operand blocks whole,
  stores one whole block, and touches nothing else, so an input's buffer holds its block of the entry array at every point and
  the output's buffer holds the payload of those blocks.
-/
import proofs.«161272_j16312285791078_1_alg».proof.Proof.Gen.KernelIdeal.Launch
import proofs.«161272_j16312285791078_1_alg».proof.Proof.Gen.KernelIdeal.Skeleton
import proofs.«161272_j16312285791078_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-- Window `w`'s block at grid point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's staging buffer holds its block of the entry array at every point, fetched there or not. -/
theorem before4_0_of {c : Dev nD} (dat : Dat τ (Elt F) Unit ℕ (Pipeline.UD sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Input window 1's staging buffer holds its block of the entry array at every point, fetched there or not. -/
theorem before4_1_of {c : Dev nD} (dat : Dat τ (Elt F) Unit ℕ (Pipeline.UD sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- Input window 2's staging buffer holds its block of the entry array at every point, fetched there or not. -/
theorem before4_2_of {c : Dev nD} (dat : Dat τ (Elt F) Unit ℕ (Pipeline.UD sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- The whole-block rectangles the body loads and stores through. -/
abbrev r4_0 : Rect S4000x9 := Rect.unit (s := S4000x9) ![0, 0] S4000x9.size inb_S4000x9_S4000x9_0_0
abbrev r4_1 : Rect S9x128 := Rect.unit (s := S9x128) ![0, 0] S9x128.size inb_S9x128_S9x128_0_0
abbrev r4_2 : Rect S1x128 := Rect.unit (s := S1x128) ![0, 0] S1x128.size inb_S1x128_S1x128_0_0
abbrev r4_3 : Rect S4000x128 := Rect.unit (s := S4000x128) ![0, 0] S4000x128.size inb_S4000x128_S4000x128_0_0

/-- The output window's staging buffer after the body, from the three input blocks: its one store, of the layer's payload. -/
def out4_3 (x0 : Vec F S4000x9 .bf16) (x1 : Vec F S9x128 .bf16) (x2 : Vec F S1x128 .f32) : Vec F S4000x128 .f32 :=
  View.canon [⟨r4_3, k4_pay1 (View.ld x0 r4_0) (View.ld x1 r4_1) (View.ld x2 r4_2)⟩]

/-- The one store covers the buffer. -/
theorem cover4_3 (p0 : Vec F S4000x128 .f32) (y : S4000x128.Idx) :
    ∃ pc ∈ ([⟨r4_3, p0⟩] : List (View.Piece (Elt F) S4000x128 .f32)), y ∈ pc.1.set :=
  View.cover_of_tiled [⟨r4_3, p0⟩] S4000x128.size (by rfl) y

set_option maxHeartbeats 1000000 in
/-- The body on whole staging memrefs — the inputs' at contents `x0 x1 x2`, the output's at anything — runs to the continuation
    with the inputs' as they were and the output's at `out4_3 x0 x1 x2`. -/
theorem sound_kernel4 (c : Dev nD) (E : Set ℕ) (i : grid4.Coords) (arg1 : Memref sig .tc .vmem S4000x9 .bf16) (harg1 : arg1.IsWhole) (arg2 : Memref sig .tc .vmem S9x128 .bf16) (harg2 : arg2.IsWhole) (arg3 : Memref sig .tc .vmem S1x128 .f32) (harg3 : arg3.IsWhole) (arg4 : Memref sig .tc .vmem S4000x128 .f32) (harg4 : arg4.IsWhole)
    (x0 : Vec F S4000x9 .bf16) (x1 : Vec F S9x128 .bf16) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out4_3 x0 x1 x2)) -∗ K ⟨⟩))
      ⊢ wp frame (wpE (defs₀ (F := F)) Variants.none c none) E (cc4__dense_kernel i arg1 harg1 arg2 harg2 arg3 harg3 arg4 harg4) K := by
  simp only [cc4__dense_kernel_eq_skeleton]; unfold cc4__dense_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-- The pipeline's proof data on core `c`: the arrays as the region finds them; after the body at point `t` each input's buffer at
    its block and the output's at the payload of the input blocks; the class-A invariant; nothing owed; full shares. -/
def dat4 (c : Dev nD) : Dat τ (Elt F) Unit ℕ (Pipeline.UD sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4_3 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' memrefs hold their blocks, so the body's triple applies; the invariant and the core's
    dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ (grid4.coords t) _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Rg

end
-- ==== Proof.KernelIdealRegion5.lean ====
/-
  Region 5 of `KernelIdeal`'s @main — one dense layer, `act(x · w + b)` on a row tile — as one pipelined call: what each grid point's
  body leaves in the output window's staging buffer (the store's payload of the three input blocks), the body's triple, and
  the pipeline's proof data over ANY contents `V` the region is entered from. The body loads its three operand blocks whole,
  stores one whole block, and touches nothing else, so an input's buffer holds its block of the entry array at every point and
  the output's buffer holds the payload of those blocks.
-/
import proofs.«161272_j16312285791078_1_alg».proof.Proof.Gen.KernelIdeal.Launch
import proofs.«161272_j16312285791078_1_alg».proof.Proof.Gen.KernelIdeal.Skeleton
import proofs.«161272_j16312285791078_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-- Window `w`'s block at grid point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's staging buffer holds its block of the entry array at every point, fetched there or not. -/
theorem before5_0_of {c : Dev nD} (dat : Dat τ (Elt F) Unit ℕ (Pipeline.UD sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- Input window 1's staging buffer holds its block of the entry array at every point, fetched there or not. -/
theorem before5_1_of {c : Dev nD} (dat : Dat τ (Elt F) Unit ℕ (Pipeline.UD sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- Input window 2's staging buffer holds its block of the entry array at every point, fetched there or not. -/
theorem before5_2_of {c : Dev nD} (dat : Dat τ (Elt F) Unit ℕ (Pipeline.UD sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- The whole-block rectangles the body loads and stores through. -/
abbrev r5_0 : Rect S4000x128 := Rect.unit (s := S4000x128) ![0, 0] S4000x128.size inb_S4000x128_S4000x128_0_0
abbrev r5_1 : Rect S128x128 := Rect.unit (s := S128x128) ![0, 0] S128x128.size inb_S128x128_S128x128_0_0
abbrev r5_2 : Rect S1x128 := Rect.unit (s := S1x128) ![0, 0] S1x128.size inb_S1x128_S1x128_0_0
abbrev r5_3 : Rect S4000x128 := Rect.unit (s := S4000x128) ![0, 0] S4000x128.size inb_S4000x128_S4000x128_0_0

/-- The output window's staging buffer after the body, from the three input blocks: its one store, of the layer's payload. -/
def out5_3 (x0 : Vec F S4000x128 .bf16) (x1 : Vec F S128x128 .bf16) (x2 : Vec F S1x128 .f32) : Vec F S4000x128 .f32 :=
  View.canon [⟨r5_3, k5_pay1 (View.ld x0 r5_0) (View.ld x1 r5_1) (View.ld x2 r5_2)⟩]

/-- The one store covers the buffer. -/
theorem cover5_3 (p0 : Vec F S4000x128 .f32) (y : S4000x128.Idx) :
    ∃ pc ∈ ([⟨r5_3, p0⟩] : List (View.Piece (Elt F) S4000x128 .f32)), y ∈ pc.1.set :=
  View.cover_of_tiled [⟨r5_3, p0⟩] S4000x128.size (by rfl) y

set_option maxHeartbeats 1000000 in
/-- The body on whole staging memrefs — the inputs' at contents `x0 x1 x2`, the output's at anything — runs to the continuation
    with the inputs' as they were and the output's at `out5_3 x0 x1 x2`. -/
theorem sound_kernel5 (c : Dev nD) (E : Set ℕ) (i : grid5.Coords) (arg1 : Memref sig .tc .vmem S4000x128 .bf16) (harg1 : arg1.IsWhole) (arg2 : Memref sig .tc .vmem S128x128 .bf16) (harg2 : arg2.IsWhole) (arg3 : Memref sig .tc .vmem S1x128 .f32) (harg3 : arg3.IsWhole) (arg4 : Memref sig .tc .vmem S4000x128 .f32) (harg4 : arg4.IsWhole)
    (x0 : Vec F S4000x128 .bf16) (x1 : Vec F S128x128 .bf16) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out5_3 x0 x1 x2)) -∗ K ⟨⟩))
      ⊢ wp frame (wpE (defs₀ (F := F)) Variants.none c none) E (cc5__dense_kernel i arg1 harg1 arg2 harg2 arg3 harg3 arg4 harg4) K := by
  simp only [cc5__dense_kernel_eq_skeleton]; unfold cc5__dense_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-- The pipeline's proof data on core `c`: the arrays as the region finds them; after the body at point `t` each input's buffer at
    its block and the output's at the payload of the input blocks; the class-A invariant; nothing owed; full shares. -/
def dat5 (c : Dev nD) : Dat τ (Elt F) Unit ℕ (Pipeline.UD sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5_3 (iblk5 V c 0 t) (iblk5 V c 1 t) (iblk5 V c 2 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the inputs' memrefs hold their blocks, so the body's triple applies; the invariant and the core's
    dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ (grid5.coords t) _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Rg

end
-- ==== Proof.KernelIdealRegion6.lean ====
/-
  Region 6 of `KernelIdeal`'s @main — one dense layer, `act(x · w + b)` on a row tile — as one pipelined call: what each grid point's
  body leaves in the output window's staging buffer (the store's payload of the three input blocks), the body's triple, and
  the pipeline's proof data over ANY contents `V` the region is entered from. The body loads its three operand blocks whole,
  stores one whole block, and touches nothing else, so an input's buffer holds its block of the entry array at every point and
  the output's buffer holds the payload of those blocks.
-/
import proofs.«161272_j16312285791078_1_alg».proof.Proof.Gen.KernelIdeal.Launch
import proofs.«161272_j16312285791078_1_alg».proof.Proof.Gen.KernelIdeal.Skeleton
import proofs.«161272_j16312285791078_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-- Window `w`'s block at grid point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's staging buffer holds its block of the entry array at every point, fetched there or not. -/
theorem before6_0_of {c : Dev nD} (dat : Dat τ (Elt F) Unit ℕ (Pipeline.UD sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
/-- Input window 1's staging buffer holds its block of the entry array at every point, fetched there or not. -/
theorem before6_1_of {c : Dev nD} (dat : Dat τ (Elt F) Unit ℕ (Pipeline.UD sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
/-- Input window 2's staging buffer holds its block of the entry array at every point, fetched there or not. -/
theorem before6_2_of {c : Dev nD} (dat : Dat τ (Elt F) Unit ℕ (Pipeline.UD sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- The whole-block rectangles the body loads and stores through. -/
abbrev r6_0 : Rect S4096x9 := Rect.unit (s := S4096x9) ![0, 0] S4096x9.size inb_S4096x9_S4096x9_0_0
abbrev r6_1 : Rect S9x128 := Rect.unit (s := S9x128) ![0, 0] S9x128.size inb_S9x128_S9x128_0_0
abbrev r6_2 : Rect S1x128 := Rect.unit (s := S1x128) ![0, 0] S1x128.size inb_S1x128_S1x128_0_0
abbrev r6_3 : Rect S4096x128 := Rect.unit (s := S4096x128) ![0, 0] S4096x128.size inb_S4096x128_S4096x128_0_0

/-- The output window's staging buffer after the body, from the three input blocks: its one store, of the layer's payload. -/
def out6_3 (x0 : Vec F S4096x9 .bf16) (x1 : Vec F S9x128 .bf16) (x2 : Vec F S1x128 .f32) : Vec F S4096x128 .f32 :=
  View.canon [⟨r6_3, k6_pay1 (View.ld x0 r6_0) (View.ld x1 r6_1) (View.ld x2 r6_2)⟩]

/-- The one store covers the buffer. -/
theorem cover6_3 (p0 : Vec F S4096x128 .f32) (y : S4096x128.Idx) :
    ∃ pc ∈ ([⟨r6_3, p0⟩] : List (View.Piece (Elt F) S4096x128 .f32)), y ∈ pc.1.set :=
  View.cover_of_tiled [⟨r6_3, p0⟩] S4096x128.size (by rfl) y

set_option maxHeartbeats 1000000 in
/-- The body on whole staging memrefs — the inputs' at contents `x0 x1 x2`, the output's at anything — runs to the continuation
    with the inputs' as they were and the output's at `out6_3 x0 x1 x2`. -/
theorem sound_kernel6 (c : Dev nD) (E : Set ℕ) (i : grid6.Coords) (arg1 : Memref sig .tc .vmem S4096x9 .bf16) (harg1 : arg1.IsWhole) (arg2 : Memref sig .tc .vmem S9x128 .bf16) (harg2 : arg2.IsWhole) (arg3 : Memref sig .tc .vmem S1x128 .f32) (harg3 : arg3.IsWhole) (arg4 : Memref sig .tc .vmem S4096x128 .f32) (harg4 : arg4.IsWhole)
    (x0 : Vec F S4096x9 .bf16) (x1 : Vec F S9x128 .bf16) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out6_3 x0 x1 x2)) -∗ K ⟨⟩))
      ⊢ wp frame (wpE (defs₀ (F := F)) Variants.none c none) E (cc6__dense_kernel i arg1 harg1 arg2 harg2 arg3 harg3 arg4 harg4) K := by
  simp only [cc6__dense_kernel_eq_skeleton]; unfold cc6__dense_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

/-- The pipeline's proof data on core `c`: the arrays as the region finds them; after the body at point `t` each input's buffer at
    its block and the output's at the payload of the input blocks; the class-A invariant; nothing owed; full shares. -/
def dat6 (c : Dev nD) : Dat τ (Elt F) Unit ℕ (Pipeline.UD sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = out6_3 (iblk6 V c 0 t) (iblk6 V c 1 t) (iblk6 V c 2 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-- What the body is called with at point `t`, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- The body at any point: the inputs' memrefs hold their blocks, so the body's triple applies; the invariant and the core's
    dues pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ (grid6.coords t) _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Rg

end
-- ==== Proof.KernelIdealRegion7.lean ====
/-
  Region 7 of `KernelIdeal`'s @main — one dense layer, `act(x · w + b)` on a row tile — as one pipelined call: what each grid point's
  body leaves in the output window's staging buffer (the store's payload of the three input blocks), the body's triple, and
  the pipeline's proof data over ANY contents `V` the region is entered from. The body loads its three operand blocks whole,
  stores one whole block, and touches nothing else, so an input's buffer holds its block of the entry array at every point and
  the output's buffer holds the payload of those blocks.
-/
import proofs.«161272_j16312285791078_1_alg».proof.Proof.Gen.KernelIdeal.Launch
import proofs.«161272_j16312285791078_1_alg».proof.Proof.Gen.KernelIdeal.Skeleton
import proofs.«161272_j16312285791078_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-- Window `w`'s block at grid point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's staging buffer holds its block of the entry array at every point, fetched there or not. -/
theorem before7_0_of {c : Dev nD} (dat : Dat τ (Elt F) Unit ℕ (Pipeline.UD sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
/-- Input window 1's staging buffer holds its block of the entry array at every point, fetched there or not. -/
theorem before7_1_of {c : Dev nD} (dat : Dat τ (Elt F) Unit ℕ (Pipeline.UD sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
/-- Input window 2's staging buffer holds its block of the entry array at every point, fetched there or not. -/
theorem before7_2_of {c : Dev nD} (dat : Dat τ (Elt F) Unit ℕ (Pipeline.UD sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- The whole-block rectangles the body loads and stores through. -/
abbrev r7_0 : Rect S4096x128 := Rect.unit (s := S4096x128) ![0, 0] S4096x128.size inb_S4096x128_S4096x128_0_0
abbrev r7_1 : Rect S128x128 := Rect.unit (s := S128x128) ![0, 0] S128x128.size inb_S128x128_S128x128_0_0
abbrev r7_2 : Rect S1x128 := Rect.unit (s := S1x128) ![0, 0] S1x128.size inb_S1x128_S1x128_0_0
abbrev r7_3 : Rect S4096x128 := Rect.unit (s := S4096x128) ![0, 0] S4096x128.size inb_S4096x128_S4096x128_0_0

/-- The output window's staging buffer after the body, from the three input blocks: its one store, of the layer's payload. -/
def out7_3 (x0 : Vec F S4096x128 .bf16) (x1 : Vec F S128x128 .bf16) (x2 : Vec F S1x128 .f32) : Vec F S4096x128 .f32 :=
  View.canon [⟨r7_3, k7_pay1 (View.ld x0 r7_0) (View.ld x1 r7_1) (View.ld x2 r7_2)⟩]

/-- The one store covers the buffer. -/
theorem cover7_3 (p0 : Vec F S4096x128 .f32) (y : S4096x128.Idx) :
    ∃ pc ∈ ([⟨r7_3, p0⟩] : List (View.Piece (Elt F) S4096x128 .f32)), y ∈ pc.1.set :=
  View.cover_of_tiled [⟨r7_3, p0⟩] S4096x128.size (by rfl) y

set_option maxHeartbeats 1000000 in
/-- The body on whole staging memrefs — the inputs' at contents `x0 x1 x2`, the output's at anything — runs to the continuation
    with the inputs' as they were and the output's at `out7_3 x0 x1 x2`. -/
theorem sound_kernel7 (c : Dev nD) (E : Set ℕ) (i : grid7.Coords) (arg1 : Memref sig .tc .vmem S4096x128 .bf16) (harg1 : arg1.IsWhole) (arg2 : Memref sig .tc .vmem S128x128 .bf16) (harg2 : arg2.IsWhole) (arg3 : Memref sig .tc .vmem S1x128 .f32) (harg3 : arg3.IsWhole) (arg4 : Memref sig .tc .vmem S4096x128 .f32) (harg4 : arg4.IsWhole)
    (x0 : Vec F S4096x128 .bf16) (x1 : Vec F S128x128 .bf16) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out7_3 x0 x1 x2)) -∗ K ⟨⟩))
      ⊢ wp frame (wpE (defs₀ (F := F)) Variants.none c none) E (cc7__dense_kernel i arg1 harg1 arg2 harg2 arg3 harg3 arg4 harg4) K := by
  simp only [cc7__dense_kernel_eq_skeleton]; unfold cc7__dense_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover7_3 _)

/-- The pipeline's proof data on core `c`: the arrays as the region finds them; after the body at point `t` each input's buffer at
    its block and the output's at the payload of the input blocks; the class-A invariant; nothing owed; full shares. -/
def dat7 (c : Dev nD) : Dat τ (Elt F) Unit ℕ (Pipeline.UD sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = out7_3 (iblk7 V c 0 t) (iblk7 V c 1 t) (iblk7 V c 2 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-- What the body is called with at point `t`, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t))

/-- The body at any point: the inputs' memrefs hold their blocks, so the body's triple applies; the invariant and the core's
    dues pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).Φ t.succ = (dat7 V c).Φ t.castSucc from rfl,
    show (dat7 V c).owesAt () t.succ = (dat7 V c).owesAt () t.castSucc from rfl,
    after7_0, after7_1, after7_2, after7_3]
  iintro ⟨HΦ, Ho, ⟨%d0, H0⟩, ⟨%d1, H1⟩, ⟨%d2, H2⟩, ⟨%d3, H3⟩⟩
  iapply (sound_kernel7 c Set.univ (grid7.coords t) _ _ _ _ _ _ _ _ (iblk7 V c 0 t) (iblk7 V c 1 t) (iblk7 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Rg

end
-- ==== Proof.KernelIdealRegion8.lean ====
/-
  Region 8 of `KernelIdeal`'s @main — one dense layer, `act(x · w + b)` on a row tile — as one pipelined call: what each grid point's
  body leaves in the output window's staging buffer (the store's payload of the three input blocks), the body's triple, and
  the pipeline's proof data over ANY contents `V` the region is entered from. The body loads its three operand blocks whole,
  stores one whole block, and touches nothing else, so an input's buffer holds its block of the entry array at every point and
  the output's buffer holds the payload of those blocks.
-/
import proofs.«161272_j16312285791078_1_alg».proof.Proof.Gen.KernelIdeal.Launch
import proofs.«161272_j16312285791078_1_alg».proof.Proof.Gen.KernelIdeal.Skeleton
import proofs.«161272_j16312285791078_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-- Window `w`'s block at grid point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's staging buffer holds its block of the entry array at every point, fetched there or not. -/
theorem before8_0_of {c : Dev nD} (dat : Dat τ (Elt F) Unit ℕ (Pipeline.UD sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
/-- Input window 1's staging buffer holds its block of the entry array at every point, fetched there or not. -/
theorem before8_1_of {c : Dev nD} (dat : Dat τ (Elt F) Unit ℕ (Pipeline.UD sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
/-- Input window 2's staging buffer holds its block of the entry array at every point, fetched there or not. -/
theorem before8_2_of {c : Dev nD} (dat : Dat τ (Elt F) Unit ℕ (Pipeline.UD sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- The whole-block rectangles the body loads and stores through. -/
abbrev r8_0 : Rect S64x448 := Rect.unit (s := S64x448) ![0, 0] S64x448.size inb_S64x448_S64x448_0_0
abbrev r8_1 : Rect S448x128 := Rect.unit (s := S448x128) ![0, 0] S448x128.size inb_S448x128_S448x128_0_0
abbrev r8_2 : Rect S1x128 := Rect.unit (s := S1x128) ![0, 0] S1x128.size inb_S1x128_S1x128_0_0
abbrev r8_3 : Rect S64x128 := Rect.unit (s := S64x128) ![0, 0] S64x128.size inb_S64x128_S64x128_0_0

/-- The output window's staging buffer after the body, from the three input blocks: its one store, of the layer's payload. -/
def out8_3 (x0 : Vec F S64x448 .bf16) (x1 : Vec F S448x128 .bf16) (x2 : Vec F S1x128 .f32) : Vec F S64x128 .f32 :=
  View.canon [⟨r8_3, k8_pay1 (View.ld x0 r8_0) (View.ld x1 r8_1) (View.ld x2 r8_2)⟩]

/-- The one store covers the buffer. -/
theorem cover8_3 (p0 : Vec F S64x128 .f32) (y : S64x128.Idx) :
    ∃ pc ∈ ([⟨r8_3, p0⟩] : List (View.Piece (Elt F) S64x128 .f32)), y ∈ pc.1.set :=
  View.cover_of_tiled [⟨r8_3, p0⟩] S64x128.size (by rfl) y

set_option maxHeartbeats 1000000 in
/-- The body on whole staging memrefs — the inputs' at contents `x0 x1 x2`, the output's at anything — runs to the continuation
    with the inputs' as they were and the output's at `out8_3 x0 x1 x2`. -/
theorem sound_kernel8 (c : Dev nD) (E : Set ℕ) (i : grid8.Coords) (arg1 : Memref sig .tc .vmem S64x448 .bf16) (harg1 : arg1.IsWhole) (arg2 : Memref sig .tc .vmem S448x128 .bf16) (harg2 : arg2.IsWhole) (arg3 : Memref sig .tc .vmem S1x128 .f32) (harg3 : arg3.IsWhole) (arg4 : Memref sig .tc .vmem S64x128 .f32) (harg4 : arg4.IsWhole)
    (x0 : Vec F S64x448 .bf16) (x1 : Vec F S448x128 .bf16) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out8_3 x0 x1 x2)) -∗ K ⟨⟩))
      ⊢ wp frame (wpE (defs₀ (F := F)) Variants.none c none) E (cc8__dense_kernel i arg1 harg1 arg2 harg2 arg3 harg3 arg4 harg4) K := by
  simp only [cc8__dense_kernel_eq_skeleton]; unfold cc8__dense_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover8_3 _)

/-- The pipeline's proof data on core `c`: the arrays as the region finds them; after the body at point `t` each input's buffer at
    its block and the output's at the payload of the input blocks; the class-A invariant; nothing owed; full shares. -/
def dat8 (c : Dev nD) : Dat τ (Elt F) Unit ℕ (Pipeline.UD sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => out8_3 (iblk8 V c 0 t) (iblk8 V c 1 t) (iblk8 V c 2 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = out8_3 (iblk8 V c 0 t) (iblk8 V c 1 t) (iblk8 V c 2 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d

/-- What the body is called with at point `t`, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t))

/-- The body at any point: the inputs' memrefs hold their blocks, so the body's triple applies; the invariant and the core's
    dues pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2]
  rw [show (dat8 V c).Φ t.succ = (dat8 V c).Φ t.castSucc from rfl,
    show (dat8 V c).owesAt () t.succ = (dat8 V c).owesAt () t.castSucc from rfl,
    after8_0, after8_1, after8_2, after8_3]
  iintro ⟨HΦ, Ho, ⟨%d0, H0⟩, ⟨%d1, H1⟩, ⟨%d2, H2⟩, ⟨%d3, H3⟩⟩
  iapply (sound_kernel8 c Set.univ (grid8.coords t) _ _ _ _ _ _ _ _ (iblk8 V c 0 t) (iblk8 V c 1 t) (iblk8 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation8 (c : Dev nD) : BodyObligation (dat8 (F := F) V c) (defs₀ (F := F)) Variants.none () Set.univ := fun t => by
  rw [bigSep_W8, bigSep_W8]
  exact sound_body8 V c t

end Cert.KernelIdeal.Rg

end
-- ==== Proof.KernelIdealRegion9.lean ====
/-
  Region 9 of `KernelIdeal`'s @main — one dense layer, `act(x · w + b)` on a row tile — as one pipelined call: what each grid point's
  body leaves in the output window's staging buffer (the store's payload of the three input blocks), the body's triple, and
  the pipeline's proof data over ANY contents `V` the region is entered from. The body loads its three operand blocks whole,
  stores one whole block, and touches nothing else, so an input's buffer holds its block of the entry array at every point and
  the output's buffer holds the payload of those blocks.
-/
import proofs.«161272_j16312285791078_1_alg».proof.Proof.Gen.KernelIdeal.Launch
import proofs.«161272_j16312285791078_1_alg».proof.Proof.Gen.KernelIdeal.Skeleton
import proofs.«161272_j16312285791078_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-- Window `w`'s block at grid point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's staging buffer holds its block of the entry array at every point, fetched there or not. -/
theorem before9_0_of {c : Dev nD} (dat : Dat τ (Elt F) Unit ℕ (Pipeline.UD sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)
/-- Input window 1's staging buffer holds its block of the entry array at every point, fetched there or not. -/
theorem before9_1_of {c : Dev nD} (dat : Dat τ (Elt F) Unit ℕ (Pipeline.UD sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)
/-- Input window 2's staging buffer holds its block of the entry array at every point, fetched there or not. -/
theorem before9_2_of {c : Dev nD} (dat : Dat τ (Elt F) Unit ℕ (Pipeline.UD sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-- The whole-block rectangles the body loads and stores through. -/
abbrev r9_0 : Rect S64x128 := Rect.unit (s := S64x128) ![0, 0] S64x128.size inb_S64x128_S64x128_0_0
abbrev r9_1 : Rect S128x2 := Rect.unit (s := S128x2) ![0, 0] S128x2.size inb_S128x2_S128x2_0_0
abbrev r9_2 : Rect S1x2 := Rect.unit (s := S1x2) ![0, 0] S1x2.size inb_S1x2_S1x2_0_0
abbrev r9_3 : Rect S64x2 := Rect.unit (s := S64x2) ![0, 0] S64x2.size inb_S64x2_S64x2_0_0

/-- The output window's staging buffer after the body, from the three input blocks: its one store, of the layer's payload. -/
def out9_3 (x0 : Vec F S64x128 .bf16) (x1 : Vec F S128x2 .bf16) (x2 : Vec F S1x2 .f32) : Vec F S64x2 .f32 :=
  View.canon [⟨r9_3, k9_pay1 (View.ld x0 r9_0) (View.ld x1 r9_1) (View.ld x2 r9_2)⟩]

/-- The one store covers the buffer. -/
theorem cover9_3 (p0 : Vec F S64x2 .f32) (y : S64x2.Idx) :
    ∃ pc ∈ ([⟨r9_3, p0⟩] : List (View.Piece (Elt F) S64x2 .f32)), y ∈ pc.1.set :=
  View.cover_of_tiled [⟨r9_3, p0⟩] S64x2.size (by rfl) y

set_option maxHeartbeats 1000000 in
/-- The body on whole staging memrefs — the inputs' at contents `x0 x1 x2`, the output's at anything — runs to the continuation
    with the inputs' as they were and the output's at `out9_3 x0 x1 x2`. -/
theorem sound_kernel9 (c : Dev nD) (E : Set ℕ) (i : grid9.Coords) (arg1 : Memref sig .tc .vmem S64x128 .bf16) (harg1 : arg1.IsWhole) (arg2 : Memref sig .tc .vmem S128x2 .bf16) (harg2 : arg2.IsWhole) (arg3 : Memref sig .tc .vmem S1x2 .f32) (harg3 : arg3.IsWhole) (arg4 : Memref sig .tc .vmem S64x2 .f32) (harg4 : arg4.IsWhole)
    (x0 : Vec F S64x128 .bf16) (x1 : Vec F S128x2 .bf16) (x2 : Vec F S1x2 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out9_3 x0 x1 x2)) -∗ K ⟨⟩))
      ⊢ wp frame (wpE (defs₀ (F := F)) Variants.none c none) E (cc9__dense_kernel i arg1 harg1 arg2 harg2 arg3 harg3 arg4 harg4) K := by
  simp only [cc9__dense_kernel_eq_skeleton]; unfold cc9__dense_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover9_3 _)

/-- The pipeline's proof data on core `c`: the arrays as the region finds them; after the body at point `t` each input's buffer at
    its block and the output's at the payload of the input blocks; the class-A invariant; nothing owed; full shares. -/
def dat9 (c : Dev nD) : Dat τ (Elt F) Unit ℕ (Pipeline.UD sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => out9_3 (iblk9 V c 0 t) (iblk9 V c 1 t) (iblk9 V c 2 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = out9_3 (iblk9 V c 0 t) (iblk9 V c 1 t) (iblk9 V c 2 t) := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d

/-- What the body is called with at point `t`, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t))

/-- The body at any point: the inputs' memrefs hold their blocks, so the body's triple applies; the invariant and the core's
    dues pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2]
  rw [show (dat9 V c).Φ t.succ = (dat9 V c).Φ t.castSucc from rfl,
    show (dat9 V c).owesAt () t.succ = (dat9 V c).owesAt () t.castSucc from rfl,
    after9_0, after9_1, after9_2, after9_3]
  iintro ⟨HΦ, Ho, ⟨%d0, H0⟩, ⟨%d1, H1⟩, ⟨%d2, H2⟩, ⟨%d3, H3⟩⟩
  iapply (sound_kernel9 c Set.univ (grid9.coords t) _ _ _ _ _ _ _ _ (iblk9 V c 0 t) (iblk9 V c 1 t) (iblk9 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation9 (c : Dev nD) : BodyObligation (dat9 (F := F) V c) (defs₀ (F := F)) Variants.none () Set.univ := fun t => by
  rw [bigSep_W9, bigSep_W9]
  exact sound_body9 V c t

end Cert.KernelIdeal.Rg

end
-- ==== Proof.KernelIdealSegs.lean ====
/-
  The run of `KernelIdeal`'s @main as the chain of its 36 items — host stretches and the ten dense-layer regions — with the contents of
  every unscoped buffer named at each boundary: `U0` is the launch memory, a host stretch applies its operations
  (`StableHlo.after`), and a region replaces its output array by what its pipeline leaves there (the proof data's final
  array, `Dat.arrAt 3 N`), every other buffer unchanged. Each region's segment record enters from all unscoped buffers at
  the boundary's contents, splits its four arrays out, runs the pipeline against the region's body obligation, and joins
  the arrays back at the next boundary's contents. The run then ends with every unscoped buffer at `U36`: the arguments
  as launched (no item writes one) and the result array at region 9's final array.
-/
import proofs.«161272_j16312285791078_1_alg».proof.Proof.KernelIdealRegionsP
import proofs.«161272_j16312285791078_1_alg».proof.Proof.KernelIdealRegion0
import proofs.«161272_j16312285791078_1_alg».proof.Proof.KernelIdealRegion1
import proofs.«161272_j16312285791078_1_alg».proof.Proof.KernelIdealRegion2
import proofs.«161272_j16312285791078_1_alg».proof.Proof.KernelIdealRegion3
import proofs.«161272_j16312285791078_1_alg».proof.Proof.KernelIdealRegion4
import proofs.«161272_j16312285791078_1_alg».proof.Proof.KernelIdealRegion5
import proofs.«161272_j16312285791078_1_alg».proof.Proof.KernelIdealRegion6
import proofs.«161272_j16312285791078_1_alg».proof.Proof.KernelIdealRegion7
import proofs.«161272_j16312285791078_1_alg».proof.Proof.KernelIdealRegion8
import proofs.«161272_j16312285791078_1_alg».proof.Proof.KernelIdealRegion9
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Asm

open Cert.KernelIdeal Cert.KernelIdeal.Gen Cert.KernelIdeal.GenP Cert.KernelIdeal.Rg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The contents of the unscoped buffers at each boundary -/

/-- Core `c`'s unscoped buffers at launch. -/
def U0 (c : Dev nD) : Valuation τ sig (Elt F) := fun b => m (c, b)
/-- The same read at the TensorCore's references. -/
abbrev UV0 : (c : Dev nD) → (b : Ref sig .tc) → Buf (Elt F) ((c : Thread nD τ).loc b) := fun c b => U0 m c b
/-- After item 0, the host stretch `hostOps0`. -/
def U1 (c : Dev nD) : Valuation τ sig (Elt F) := StableHlo.after hostOps0 (U0 m c)
abbrev UV1 : (c : Dev nD) → (b : Ref sig .tc) → Buf (Elt F) ((c : Thread nD τ).loc b) := fun c b => U1 m c b
/-- What region 0 leaves in its output array `main_v3`: the pipeline's final array from the entry contents `U1`. -/
def X2 (c : Dev nD) : Buf (Elt F) ((c : Thread nD τ).loc main_v3) := (dat0 (UV1 m) c).arrAt 3 cfg0.N
/-- After item 1, region 0: `main_v3` at the final array, every other buffer as entered. -/
def U2 (c : Dev nD) : Valuation τ sig (Elt F) := Function.update (U1 m c) main_v3 (X2 m c)
theorem U2_self (c : Dev nD) : U2 m c main_v3 = X2 m c := by unfold U2; exact Function.update_self ..
theorem U2_of (c : Dev nD) (r : Ref sig .tc) (h : r ≠ main_v3) : U2 m c r = U1 m c r := by
  unfold U2; exact Function.update_of_ne (StableHlo.devRef_ne_of_ne h : (Proc.devRef .tc r : DevRef τ sig) ≠ Proc.devRef .tc main_v3) _ _
abbrev UV2 : (c : Dev nD) → (b : Ref sig .tc) → Buf (Elt F) ((c : Thread nD τ).loc b) := fun c b => U2 m c b
/-- After item 2, the host stretch `hostOps1`. -/
def U3 (c : Dev nD) : Valuation τ sig (Elt F) := StableHlo.after hostOps1 (U2 m c)
abbrev UV3 : (c : Dev nD) → (b : Ref sig .tc) → Buf (Elt F) ((c : Thread nD τ).loc b) := fun c b => U3 m c b
/-- What region 1 leaves in its output array `main_v7`: the pipeline's final array from the entry contents `U3`. -/
def X4 (c : Dev nD) : Buf (Elt F) ((c : Thread nD τ).loc main_v7) := (dat1 (UV3 m) c).arrAt 3 cfg1.N
/-- After item 3, region 1: `main_v7` at the final array, every other buffer as entered. -/
def U4 (c : Dev nD) : Valuation τ sig (Elt F) := Function.update (U3 m c) main_v7 (X4 m c)
theorem U4_self (c : Dev nD) : U4 m c main_v7 = X4 m c := by unfold U4; exact Function.update_self ..
theorem U4_of (c : Dev nD) (r : Ref sig .tc) (h : r ≠ main_v7) : U4 m c r = U3 m c r := by
  unfold U4; exact Function.update_of_ne (StableHlo.devRef_ne_of_ne h : (Proc.devRef .tc r : DevRef τ sig) ≠ Proc.devRef .tc main_v7) _ _
abbrev UV4 : (c : Dev nD) → (b : Ref sig .tc) → Buf (Elt F) ((c : Thread nD τ).loc b) := fun c b => U4 m c b
/-- After item 4, the host stretch `hostOps2`. -/
def U5 (c : Dev nD) : Valuation τ sig (Elt F) := StableHlo.after hostOps2 (U4 m c)
abbrev UV5 : (c : Dev nD) → (b : Ref sig .tc) → Buf (Elt F) ((c : Thread nD τ).loc b) := fun c b => U5 m c b
/-- What region 2 leaves in its output array `main_v11`: the pipeline's final array from the entry contents `U5`. -/
def X6 (c : Dev nD) : Buf (Elt F) ((c : Thread nD τ).loc main_v11) := (dat2 (UV5 m) c).arrAt 3 cfg2.N
/-- After item 5, region 2: `main_v11` at the final array, every other buffer as entered. -/
def U6 (c : Dev nD) : Valuation τ sig (Elt F) := Function.update (U5 m c) main_v11 (X6 m c)
theorem U6_self (c : Dev nD) : U6 m c main_v11 = X6 m c := by unfold U6; exact Function.update_self ..
theorem U6_of (c : Dev nD) (r : Ref sig .tc) (h : r ≠ main_v11) : U6 m c r = U5 m c r := by
  unfold U6; exact Function.update_of_ne (StableHlo.devRef_ne_of_ne h : (Proc.devRef .tc r : DevRef τ sig) ≠ Proc.devRef .tc main_v11) _ _
abbrev UV6 : (c : Dev nD) → (b : Ref sig .tc) → Buf (Elt F) ((c : Thread nD τ).loc b) := fun c b => U6 m c b
/-- After item 6, the host stretch `hostOps3`. -/
def U7 (c : Dev nD) : Valuation τ sig (Elt F) := StableHlo.after hostOps3 (U6 m c)
abbrev UV7 : (c : Dev nD) → (b : Ref sig .tc) → Buf (Elt F) ((c : Thread nD τ).loc b) := fun c b => U7 m c b
/-- What region 3 leaves in its output array `main_v15`: the pipeline's final array from the entry contents `U7`. -/
def X8 (c : Dev nD) : Buf (Elt F) ((c : Thread nD τ).loc main_v15) := (dat3 (UV7 m) c).arrAt 3 cfg3.N
/-- After item 7, region 3: `main_v15` at the final array, every other buffer as entered. -/
def U8 (c : Dev nD) : Valuation τ sig (Elt F) := Function.update (U7 m c) main_v15 (X8 m c)
theorem U8_self (c : Dev nD) : U8 m c main_v15 = X8 m c := by unfold U8; exact Function.update_self ..
theorem U8_of (c : Dev nD) (r : Ref sig .tc) (h : r ≠ main_v15) : U8 m c r = U7 m c r := by
  unfold U8; exact Function.update_of_ne (StableHlo.devRef_ne_of_ne h : (Proc.devRef .tc r : DevRef τ sig) ≠ Proc.devRef .tc main_v15) _ _
abbrev UV8 : (c : Dev nD) → (b : Ref sig .tc) → Buf (Elt F) ((c : Thread nD τ).loc b) := fun c b => U8 m c b
/-- After item 8, the host stretch `hostOps4`. -/
def U9 (c : Dev nD) : Valuation τ sig (Elt F) := StableHlo.after hostOps4 (U8 m c)
abbrev UV9 : (c : Dev nD) → (b : Ref sig .tc) → Buf (Elt F) ((c : Thread nD τ).loc b) := fun c b => U9 m c b
/-- What region 4 leaves in its output array `main_v20`: the pipeline's final array from the entry contents `U9`. -/
def X10 (c : Dev nD) : Buf (Elt F) ((c : Thread nD τ).loc main_v20) := (dat4 (UV9 m) c).arrAt 3 cfg4.N
/-- After item 9, region 4: `main_v20` at the final array, every other buffer as entered. -/
def U10 (c : Dev nD) : Valuation τ sig (Elt F) := Function.update (U9 m c) main_v20 (X10 m c)
theorem U10_self (c : Dev nD) : U10 m c main_v20 = X10 m c := by unfold U10; exact Function.update_self ..
theorem U10_of (c : Dev nD) (r : Ref sig .tc) (h : r ≠ main_v20) : U10 m c r = U9 m c r := by
  unfold U10; exact Function.update_of_ne (StableHlo.devRef_ne_of_ne h : (Proc.devRef .tc r : DevRef τ sig) ≠ Proc.devRef .tc main_v20) _ _
abbrev UV10 : (c : Dev nD) → (b : Ref sig .tc) → Buf (Elt F) ((c : Thread nD τ).loc b) := fun c b => U10 m c b
/-- After item 10, the host stretch `hostOps5`. -/
def U11 (c : Dev nD) : Valuation τ sig (Elt F) := StableHlo.after hostOps5 (U10 m c)
abbrev UV11 : (c : Dev nD) → (b : Ref sig .tc) → Buf (Elt F) ((c : Thread nD τ).loc b) := fun c b => U11 m c b
/-- After item 11, the host stretch `hostOps5_1`. -/
def U12 (c : Dev nD) : Valuation τ sig (Elt F) := StableHlo.after hostOps5_1 (U11 m c)
abbrev UV12 : (c : Dev nD) → (b : Ref sig .tc) → Buf (Elt F) ((c : Thread nD τ).loc b) := fun c b => U12 m c b
/-- After item 12, the host stretch `hostOps5_2`. -/
def U13 (c : Dev nD) : Valuation τ sig (Elt F) := StableHlo.after hostOps5_2 (U12 m c)
abbrev UV13 : (c : Dev nD) → (b : Ref sig .tc) → Buf (Elt F) ((c : Thread nD τ).loc b) := fun c b => U13 m c b
/-- After item 13, the host stretch `hostOps5_3`. -/
def U14 (c : Dev nD) : Valuation τ sig (Elt F) := StableHlo.after hostOps5_3 (U13 m c)
abbrev UV14 : (c : Dev nD) → (b : Ref sig .tc) → Buf (Elt F) ((c : Thread nD τ).loc b) := fun c b => U14 m c b
/-- After item 14, the host stretch `hostOps5_4`. -/
def U15 (c : Dev nD) : Valuation τ sig (Elt F) := StableHlo.after hostOps5_4 (U14 m c)
abbrev UV15 : (c : Dev nD) → (b : Ref sig .tc) → Buf (Elt F) ((c : Thread nD τ).loc b) := fun c b => U15 m c b
/-- What region 5 leaves in its output array `main_v75`: the pipeline's final array from the entry contents `U15`. -/
def X16 (c : Dev nD) : Buf (Elt F) ((c : Thread nD τ).loc main_v75) := (dat5 (UV15 m) c).arrAt 3 cfg5.N
/-- After item 15, region 5: `main_v75` at the final array, every other buffer as entered. -/
def U16 (c : Dev nD) : Valuation τ sig (Elt F) := Function.update (U15 m c) main_v75 (X16 m c)
theorem U16_self (c : Dev nD) : U16 m c main_v75 = X16 m c := by unfold U16; exact Function.update_self ..
theorem U16_of (c : Dev nD) (r : Ref sig .tc) (h : r ≠ main_v75) : U16 m c r = U15 m c r := by
  unfold U16; exact Function.update_of_ne (StableHlo.devRef_ne_of_ne h : (Proc.devRef .tc r : DevRef τ sig) ≠ Proc.devRef .tc main_v75) _ _
abbrev UV16 : (c : Dev nD) → (b : Ref sig .tc) → Buf (Elt F) ((c : Thread nD τ).loc b) := fun c b => U16 m c b
/-- After item 16, the host stretch `hostOps6`. -/
def U17 (c : Dev nD) : Valuation τ sig (Elt F) := StableHlo.after hostOps6 (U16 m c)
abbrev UV17 : (c : Dev nD) → (b : Ref sig .tc) → Buf (Elt F) ((c : Thread nD τ).loc b) := fun c b => U17 m c b
/-- After item 17, the host stretch `hostOps6_1`. -/
def U18 (c : Dev nD) : Valuation τ sig (Elt F) := StableHlo.after hostOps6_1 (U17 m c)
abbrev UV18 : (c : Dev nD) → (b : Ref sig .tc) → Buf (Elt F) ((c : Thread nD τ).loc b) := fun c b => U18 m c b
/-- After item 18, the host stretch `hostOps6_2`. -/
def U19 (c : Dev nD) : Valuation τ sig (Elt F) := StableHlo.after hostOps6_2 (U18 m c)
abbrev UV19 : (c : Dev nD) → (b : Ref sig .tc) → Buf (Elt F) ((c : Thread nD τ).loc b) := fun c b => U19 m c b
/-- After item 19, the host stretch `hostOps6_3`. -/
def U20 (c : Dev nD) : Valuation τ sig (Elt F) := StableHlo.after hostOps6_3 (U19 m c)
abbrev UV20 : (c : Dev nD) → (b : Ref sig .tc) → Buf (Elt F) ((c : Thread nD τ).loc b) := fun c b => U20 m c b
/-- After item 20, the host stretch `hostOps6_4`. -/
def U21 (c : Dev nD) : Valuation τ sig (Elt F) := StableHlo.after hostOps6_4 (U20 m c)
abbrev UV21 : (c : Dev nD) → (b : Ref sig .tc) → Buf (Elt F) ((c : Thread nD τ).loc b) := fun c b => U21 m c b
/-- What region 6 leaves in its output array `main_v142`: the pipeline's final array from the entry contents `U21`. -/
def X22 (c : Dev nD) : Buf (Elt F) ((c : Thread nD τ).loc main_v142) := (dat6 (UV21 m) c).arrAt 3 cfg6.N
/-- After item 21, region 6: `main_v142` at the final array, every other buffer as entered. -/
def U22 (c : Dev nD) : Valuation τ sig (Elt F) := Function.update (U21 m c) main_v142 (X22 m c)
theorem U22_self (c : Dev nD) : U22 m c main_v142 = X22 m c := by unfold U22; exact Function.update_self ..
theorem U22_of (c : Dev nD) (r : Ref sig .tc) (h : r ≠ main_v142) : U22 m c r = U21 m c r := by
  unfold U22; exact Function.update_of_ne (StableHlo.devRef_ne_of_ne h : (Proc.devRef .tc r : DevRef τ sig) ≠ Proc.devRef .tc main_v142) _ _
abbrev UV22 : (c : Dev nD) → (b : Ref sig .tc) → Buf (Elt F) ((c : Thread nD τ).loc b) := fun c b => U22 m c b
/-- After item 22, the host stretch `hostOps7`. -/
def U23 (c : Dev nD) : Valuation τ sig (Elt F) := StableHlo.after hostOps7 (U22 m c)
abbrev UV23 : (c : Dev nD) → (b : Ref sig .tc) → Buf (Elt F) ((c : Thread nD τ).loc b) := fun c b => U23 m c b
/-- After item 23, the host stretch `hostOps7_1`. -/
def U24 (c : Dev nD) : Valuation τ sig (Elt F) := StableHlo.after hostOps7_1 (U23 m c)
abbrev UV24 : (c : Dev nD) → (b : Ref sig .tc) → Buf (Elt F) ((c : Thread nD τ).loc b) := fun c b => U24 m c b
/-- After item 24, the host stretch `hostOps7_2`. -/
def U25 (c : Dev nD) : Valuation τ sig (Elt F) := StableHlo.after hostOps7_2 (U24 m c)
abbrev UV25 : (c : Dev nD) → (b : Ref sig .tc) → Buf (Elt F) ((c : Thread nD τ).loc b) := fun c b => U25 m c b
/-- After item 25, the host stretch `hostOps7_3`. -/
def U26 (c : Dev nD) : Valuation τ sig (Elt F) := StableHlo.after hostOps7_3 (U25 m c)
abbrev UV26 : (c : Dev nD) → (b : Ref sig .tc) → Buf (Elt F) ((c : Thread nD τ).loc b) := fun c b => U26 m c b
/-- After item 26, the host stretch `hostOps7_4`. -/
def U27 (c : Dev nD) : Valuation τ sig (Elt F) := StableHlo.after hostOps7_4 (U26 m c)
abbrev UV27 : (c : Dev nD) → (b : Ref sig .tc) → Buf (Elt F) ((c : Thread nD τ).loc b) := fun c b => U27 m c b
/-- What region 7 leaves in its output array `main_v197`: the pipeline's final array from the entry contents `U27`. -/
def X28 (c : Dev nD) : Buf (Elt F) ((c : Thread nD τ).loc main_v197) := (dat7 (UV27 m) c).arrAt 3 cfg7.N
/-- After item 27, region 7: `main_v197` at the final array, every other buffer as entered. -/
def U28 (c : Dev nD) : Valuation τ sig (Elt F) := Function.update (U27 m c) main_v197 (X28 m c)
theorem U28_self (c : Dev nD) : U28 m c main_v197 = X28 m c := by unfold U28; exact Function.update_self ..
theorem U28_of (c : Dev nD) (r : Ref sig .tc) (h : r ≠ main_v197) : U28 m c r = U27 m c r := by
  unfold U28; exact Function.update_of_ne (StableHlo.devRef_ne_of_ne h : (Proc.devRef .tc r : DevRef τ sig) ≠ Proc.devRef .tc main_v197) _ _
abbrev UV28 : (c : Dev nD) → (b : Ref sig .tc) → Buf (Elt F) ((c : Thread nD τ).loc b) := fun c b => U28 m c b
/-- After item 28, the host stretch `hostOps8`. -/
def U29 (c : Dev nD) : Valuation τ sig (Elt F) := StableHlo.after hostOps8 (U28 m c)
abbrev UV29 : (c : Dev nD) → (b : Ref sig .tc) → Buf (Elt F) ((c : Thread nD τ).loc b) := fun c b => U29 m c b
/-- After item 29, the host stretch `hostOps8_1`. -/
def U30 (c : Dev nD) : Valuation τ sig (Elt F) := StableHlo.after hostOps8_1 (U29 m c)
abbrev UV30 : (c : Dev nD) → (b : Ref sig .tc) → Buf (Elt F) ((c : Thread nD τ).loc b) := fun c b => U30 m c b
/-- After item 30, the host stretch `hostOps8_2`. -/
def U31 (c : Dev nD) : Valuation τ sig (Elt F) := StableHlo.after hostOps8_2 (U30 m c)
abbrev UV31 : (c : Dev nD) → (b : Ref sig .tc) → Buf (Elt F) ((c : Thread nD τ).loc b) := fun c b => U31 m c b
/-- After item 31, the host stretch `hostOps8_3`. -/
def U32 (c : Dev nD) : Valuation τ sig (Elt F) := StableHlo.after hostOps8_3 (U31 m c)
abbrev UV32 : (c : Dev nD) → (b : Ref sig .tc) → Buf (Elt F) ((c : Thread nD τ).loc b) := fun c b => U32 m c b
/-- After item 32, the host stretch `hostOps8_4`. -/
def U33 (c : Dev nD) : Valuation τ sig (Elt F) := StableHlo.after hostOps8_4 (U32 m c)
abbrev UV33 : (c : Dev nD) → (b : Ref sig .tc) → Buf (Elt F) ((c : Thread nD τ).loc b) := fun c b => U33 m c b
/-- What region 8 leaves in its output array `main_v264`: the pipeline's final array from the entry contents `U33`. -/
def X34 (c : Dev nD) : Buf (Elt F) ((c : Thread nD τ).loc main_v264) := (dat8 (UV33 m) c).arrAt 3 cfg8.N
/-- After item 33, region 8: `main_v264` at the final array, every other buffer as entered. -/
def U34 (c : Dev nD) : Valuation τ sig (Elt F) := Function.update (U33 m c) main_v264 (X34 m c)
theorem U34_self (c : Dev nD) : U34 m c main_v264 = X34 m c := by unfold U34; exact Function.update_self ..
theorem U34_of (c : Dev nD) (r : Ref sig .tc) (h : r ≠ main_v264) : U34 m c r = U33 m c r := by
  unfold U34; exact Function.update_of_ne (StableHlo.devRef_ne_of_ne h : (Proc.devRef .tc r : DevRef τ sig) ≠ Proc.devRef .tc main_v264) _ _
abbrev UV34 : (c : Dev nD) → (b : Ref sig .tc) → Buf (Elt F) ((c : Thread nD τ).loc b) := fun c b => U34 m c b
/-- After item 34, the host stretch `hostOps9`. -/
def U35 (c : Dev nD) : Valuation τ sig (Elt F) := StableHlo.after hostOps9 (U34 m c)
abbrev UV35 : (c : Dev nD) → (b : Ref sig .tc) → Buf (Elt F) ((c : Thread nD τ).loc b) := fun c b => U35 m c b
/-- What region 9 leaves in its output array `main_v268`: the pipeline's final array from the entry contents `U35`. -/
def X36 (c : Dev nD) : Buf (Elt F) ((c : Thread nD τ).loc main_v268) := (dat9 (UV35 m) c).arrAt 3 cfg9.N
/-- After item 35, region 9: `main_v268` at the final array, every other buffer as entered. -/
def U36 (c : Dev nD) : Valuation τ sig (Elt F) := Function.update (U35 m c) main_v268 (X36 m c)
theorem U36_self (c : Dev nD) : U36 m c main_v268 = X36 m c := by unfold U36; exact Function.update_self ..
theorem U36_of (c : Dev nD) (r : Ref sig .tc) (h : r ≠ main_v268) : U36 m c r = U35 m c r := by
  unfold U36; exact Function.update_of_ne (StableHlo.devRef_ne_of_ne h : (Proc.devRef .tc r : DevRef τ sig) ≠ Proc.devRef .tc main_v268) _ _
abbrev UV36 : (c : Dev nD) → (b : Ref sig .tc) → Buf (Elt F) ((c : Thread nD τ).loc b) := fun c b => U36 m c b

/-! ## The generated boundary valuations at these contents -/

/-- What the regions leave, as the generated valuations take it: item J−1's buffers read off `U J`. -/
def outs : Outs (F := F) := fun J r c => match J with
  | 2 => U2 m c r
  | 4 => U4 m c r
  | 6 => U6 m c r
  | 8 => U8 m c r
  | 10 => U10 m c r
  | 16 => U16 m c r
  | 22 => U22 m c r
  | 28 => U28 m c r
  | 34 => U34 m c r
  | 36 => U36 m c r
  | _ => U0 m c r

theorem V0_eq (c : Dev nD) : V0 m c = U0 m c := rfl
theorem V1_eq (c : Dev nD) : V1 m c = U1 m c := by
  show StableHlo.after hostOps0 (V0 m c) = _
  rw [V0_eq m c]; rfl
theorem V2_eq (c : Dev nD) : V2 m (outs m) c = U2 m c := by
  show Function.update (V1 m c) (main_v3 : DevRef τ sig) (U2 m c main_v3) = _
  rw [V1_eq m c, U2_self m c]; rfl
theorem V3_eq (c : Dev nD) : V3 m (outs m) c = U3 m c := by
  show StableHlo.after hostOps1 (V2 m (outs m) c) = _
  rw [V2_eq m c]; rfl
theorem V4_eq (c : Dev nD) : V4 m (outs m) c = U4 m c := by
  show Function.update (V3 m (outs m) c) (main_v7 : DevRef τ sig) (U4 m c main_v7) = _
  rw [V3_eq m c, U4_self m c]; rfl
theorem V5_eq (c : Dev nD) : V5 m (outs m) c = U5 m c := by
  show StableHlo.after hostOps2 (V4 m (outs m) c) = _
  rw [V4_eq m c]; rfl
theorem V6_eq (c : Dev nD) : V6 m (outs m) c = U6 m c := by
  show Function.update (V5 m (outs m) c) (main_v11 : DevRef τ sig) (U6 m c main_v11) = _
  rw [V5_eq m c, U6_self m c]; rfl
theorem V7_eq (c : Dev nD) : V7 m (outs m) c = U7 m c := by
  show StableHlo.after hostOps3 (V6 m (outs m) c) = _
  rw [V6_eq m c]; rfl
theorem V8_eq (c : Dev nD) : V8 m (outs m) c = U8 m c := by
  show Function.update (V7 m (outs m) c) (main_v15 : DevRef τ sig) (U8 m c main_v15) = _
  rw [V7_eq m c, U8_self m c]; rfl
theorem V9_eq (c : Dev nD) : V9 m (outs m) c = U9 m c := by
  show StableHlo.after hostOps4 (V8 m (outs m) c) = _
  rw [V8_eq m c]; rfl
theorem V10_eq (c : Dev nD) : V10 m (outs m) c = U10 m c := by
  show Function.update (V9 m (outs m) c) (main_v20 : DevRef τ sig) (U10 m c main_v20) = _
  rw [V9_eq m c, U10_self m c]; rfl
theorem V11_eq (c : Dev nD) : V11 m (outs m) c = U11 m c := by
  show StableHlo.after hostOps5 (V10 m (outs m) c) = _
  rw [V10_eq m c]; rfl
theorem V12_eq (c : Dev nD) : V12 m (outs m) c = U12 m c := by
  show StableHlo.after hostOps5_1 (V11 m (outs m) c) = _
  rw [V11_eq m c]; rfl
theorem V13_eq (c : Dev nD) : V13 m (outs m) c = U13 m c := by
  show StableHlo.after hostOps5_2 (V12 m (outs m) c) = _
  rw [V12_eq m c]; rfl
theorem V14_eq (c : Dev nD) : V14 m (outs m) c = U14 m c := by
  show StableHlo.after hostOps5_3 (V13 m (outs m) c) = _
  rw [V13_eq m c]; rfl
theorem V15_eq (c : Dev nD) : V15 m (outs m) c = U15 m c := by
  show StableHlo.after hostOps5_4 (V14 m (outs m) c) = _
  rw [V14_eq m c]; rfl
theorem V16_eq (c : Dev nD) : V16 m (outs m) c = U16 m c := by
  show Function.update (V15 m (outs m) c) (main_v75 : DevRef τ sig) (U16 m c main_v75) = _
  rw [V15_eq m c, U16_self m c]; rfl
theorem V17_eq (c : Dev nD) : V17 m (outs m) c = U17 m c := by
  show StableHlo.after hostOps6 (V16 m (outs m) c) = _
  rw [V16_eq m c]; rfl
theorem V18_eq (c : Dev nD) : V18 m (outs m) c = U18 m c := by
  show StableHlo.after hostOps6_1 (V17 m (outs m) c) = _
  rw [V17_eq m c]; rfl
theorem V19_eq (c : Dev nD) : V19 m (outs m) c = U19 m c := by
  show StableHlo.after hostOps6_2 (V18 m (outs m) c) = _
  rw [V18_eq m c]; rfl
theorem V20_eq (c : Dev nD) : V20 m (outs m) c = U20 m c := by
  show StableHlo.after hostOps6_3 (V19 m (outs m) c) = _
  rw [V19_eq m c]; rfl
theorem V21_eq (c : Dev nD) : V21 m (outs m) c = U21 m c := by
  show StableHlo.after hostOps6_4 (V20 m (outs m) c) = _
  rw [V20_eq m c]; rfl
theorem V22_eq (c : Dev nD) : V22 m (outs m) c = U22 m c := by
  show Function.update (V21 m (outs m) c) (main_v142 : DevRef τ sig) (U22 m c main_v142) = _
  rw [V21_eq m c, U22_self m c]; rfl
theorem V23_eq (c : Dev nD) : V23 m (outs m) c = U23 m c := by
  show StableHlo.after hostOps7 (V22 m (outs m) c) = _
  rw [V22_eq m c]; rfl
theorem V24_eq (c : Dev nD) : V24 m (outs m) c = U24 m c := by
  show StableHlo.after hostOps7_1 (V23 m (outs m) c) = _
  rw [V23_eq m c]; rfl
theorem V25_eq (c : Dev nD) : V25 m (outs m) c = U25 m c := by
  show StableHlo.after hostOps7_2 (V24 m (outs m) c) = _
  rw [V24_eq m c]; rfl
theorem V26_eq (c : Dev nD) : V26 m (outs m) c = U26 m c := by
  show StableHlo.after hostOps7_3 (V25 m (outs m) c) = _
  rw [V25_eq m c]; rfl
theorem V27_eq (c : Dev nD) : V27 m (outs m) c = U27 m c := by
  show StableHlo.after hostOps7_4 (V26 m (outs m) c) = _
  rw [V26_eq m c]; rfl
theorem V28_eq (c : Dev nD) : V28 m (outs m) c = U28 m c := by
  show Function.update (V27 m (outs m) c) (main_v197 : DevRef τ sig) (U28 m c main_v197) = _
  rw [V27_eq m c, U28_self m c]; rfl
theorem V29_eq (c : Dev nD) : V29 m (outs m) c = U29 m c := by
  show StableHlo.after hostOps8 (V28 m (outs m) c) = _
  rw [V28_eq m c]; rfl
theorem V30_eq (c : Dev nD) : V30 m (outs m) c = U30 m c := by
  show StableHlo.after hostOps8_1 (V29 m (outs m) c) = _
  rw [V29_eq m c]; rfl
theorem V31_eq (c : Dev nD) : V31 m (outs m) c = U31 m c := by
  show StableHlo.after hostOps8_2 (V30 m (outs m) c) = _
  rw [V30_eq m c]; rfl
theorem V32_eq (c : Dev nD) : V32 m (outs m) c = U32 m c := by
  show StableHlo.after hostOps8_3 (V31 m (outs m) c) = _
  rw [V31_eq m c]; rfl
theorem V33_eq (c : Dev nD) : V33 m (outs m) c = U33 m c := by
  show StableHlo.after hostOps8_4 (V32 m (outs m) c) = _
  rw [V32_eq m c]; rfl
theorem V34_eq (c : Dev nD) : V34 m (outs m) c = U34 m c := by
  show Function.update (V33 m (outs m) c) (main_v264 : DevRef τ sig) (U34 m c main_v264) = _
  rw [V33_eq m c, U34_self m c]; rfl
theorem V35_eq (c : Dev nD) : V35 m (outs m) c = U35 m c := by
  show StableHlo.after hostOps9 (V34 m (outs m) c) = _
  rw [V34_eq m c]; rfl
theorem V36_eq (c : Dev nD) : V36 m (outs m) c = U36 m c := by
  show Function.update (V35 m (outs m) c) (main_v268 : DevRef τ sig) (U36 m c main_v268) = _
  rw [V35_eq m c, U36_self m c]; rfl

/-! ## The arguments end as launched -/
theorem U36_main_arg0 (c : Dev nD) : U36 m c main_arg0 = m ((c : Thread nD τ).loc main_arg0) :=
  (congrFun (V36_eq m c) _).symm.trans (V36_main_arg0 m (outs m) c)
theorem U36_main_arg1 (c : Dev nD) : U36 m c main_arg1 = m ((c : Thread nD τ).loc main_arg1) :=
  (congrFun (V36_eq m c) _).symm.trans (V36_main_arg1 m (outs m) c)
theorem U36_main_arg2 (c : Dev nD) : U36 m c main_arg2 = m ((c : Thread nD τ).loc main_arg2) :=
  (congrFun (V36_eq m c) _).symm.trans (V36_main_arg2 m (outs m) c)
theorem U36_main_arg3 (c : Dev nD) : U36 m c main_arg3 = m ((c : Thread nD τ).loc main_arg3) :=
  (congrFun (V36_eq m c) _).symm.trans (V36_main_arg3 m (outs m) c)
theorem U36_main_arg4 (c : Dev nD) : U36 m c main_arg4 = m ((c : Thread nD τ).loc main_arg4) :=
  (congrFun (V36_eq m c) _).symm.trans (V36_main_arg4 m (outs m) c)
theorem U36_main_arg5 (c : Dev nD) : U36 m c main_arg5 = m ((c : Thread nD τ).loc main_arg5) :=
  (congrFun (V36_eq m c) _).symm.trans (V36_main_arg5 m (outs m) c)
theorem U36_main_arg6 (c : Dev nD) : U36 m c main_arg6 = m ((c : Thread nD τ).loc main_arg6) :=
  (congrFun (V36_eq m c) _).symm.trans (V36_main_arg6 m (outs m) c)
theorem U36_main_arg7 (c : Dev nD) : U36 m c main_arg7 = m ((c : Thread nD τ).loc main_arg7) :=
  (congrFun (V36_eq m c) _).symm.trans (V36_main_arg7 m (outs m) c)
theorem U36_main_arg8 (c : Dev nD) : U36 m c main_arg8 = m ((c : Thread nD τ).loc main_arg8) :=
  (congrFun (V36_eq m c) _).symm.trans (V36_main_arg8 m (outs m) c)
theorem U36_main_arg9 (c : Dev nD) : U36 m c main_arg9 = m ((c : Thread nD τ).loc main_arg9) :=
  (congrFun (V36_eq m c) _).symm.trans (V36_main_arg9 m (outs m) c)
theorem U36_main_arg10 (c : Dev nD) : U36 m c main_arg10 = m ((c : Thread nD τ).loc main_arg10) :=
  (congrFun (V36_eq m c) _).symm.trans (V36_main_arg10 m (outs m) c)
theorem U36_main_arg11 (c : Dev nD) : U36 m c main_arg11 = m ((c : Thread nD τ).loc main_arg11) :=
  (congrFun (V36_eq m c) _).symm.trans (V36_main_arg11 m (outs m) c)
theorem U36_main_arg12 (c : Dev nD) : U36 m c main_arg12 = m ((c : Thread nD τ).loc main_arg12) :=
  (congrFun (V36_eq m c) _).symm.trans (V36_main_arg12 m (outs m) c)
theorem U36_main_arg13 (c : Dev nD) : U36 m c main_arg13 = m ((c : Thread nD τ).loc main_arg13) :=
  (congrFun (V36_eq m c) _).symm.trans (V36_main_arg13 m (outs m) c)
theorem U36_main_arg14 (c : Dev nD) : U36 m c main_arg14 = m ((c : Thread nD τ).loc main_arg14) :=
  (congrFun (V36_eq m c) _).symm.trans (V36_main_arg14 m (outs m) c)
theorem U36_main_arg15 (c : Dev nD) : U36 m c main_arg15 = m ((c : Thread nD τ).loc main_arg15) :=
  (congrFun (V36_eq m c) _).symm.trans (V36_main_arg15 m (outs m) c)
theorem U36_main_arg16 (c : Dev nD) : U36 m c main_arg16 = m ((c : Thread nD τ).loc main_arg16) :=
  (congrFun (V36_eq m c) _).symm.trans (V36_main_arg16 m (outs m) c)
theorem U36_main_arg17 (c : Dev nD) : U36 m c main_arg17 = m ((c : Thread nD τ).loc main_arg17) :=
  (congrFun (V36_eq m c) _).symm.trans (V36_main_arg17 m (outs m) c)
theorem U36_main_arg18 (c : Dev nD) : U36 m c main_arg18 = m ((c : Thread nD τ).loc main_arg18) :=
  (congrFun (V36_eq m c) _).symm.trans (V36_main_arg18 m (outs m) c)
theorem U36_main_arg19 (c : Dev nD) : U36 m c main_arg19 = m ((c : Thread nD τ).loc main_arg19) :=
  (congrFun (V36_eq m c) _).symm.trans (V36_main_arg19 m (outs m) c)
theorem U36_main_arg20 (c : Dev nD) : U36 m c main_arg20 = m ((c : Thread nD τ).loc main_arg20) :=
  (congrFun (V36_eq m c) _).symm.trans (V36_main_arg20 m (outs m) c)
theorem U36_main_arg21 (c : Dev nD) : U36 m c main_arg21 = m ((c : Thread nD τ).loc main_arg21) :=
  (congrFun (V36_eq m c) _).symm.trans (V36_main_arg21 m (outs m) c)
theorem U36_main_arg22 (c : Dev nD) : U36 m c main_arg22 = m ((c : Thread nD τ).loc main_arg22) :=
  (congrFun (V36_eq m c) _).symm.trans (V36_main_arg22 m (outs m) c)
theorem U36_main_arg23 (c : Dev nD) : U36 m c main_arg23 = m ((c : Thread nD τ).loc main_arg23) :=
  (congrFun (V36_eq m c) _).symm.trans (V36_main_arg23 m (outs m) c)
theorem U36_main_arg24 (c : Dev nD) : U36 m c main_arg24 = m ((c : Thread nD τ).loc main_arg24) :=
  (congrFun (V36_eq m c) _).symm.trans (V36_main_arg24 m (outs m) c)
theorem U36_main_arg25 (c : Dev nD) : U36 m c main_arg25 = m ((c : Thread nD τ).loc main_arg25) :=
  (congrFun (V36_eq m c) _).symm.trans (V36_main_arg25 m (outs m) c)
theorem U36_main_arg26 (c : Dev nD) : U36 m c main_arg26 = m ((c : Thread nD τ).loc main_arg26) :=
  (congrFun (V36_eq m c) _).symm.trans (V36_main_arg26 m (outs m) c)
theorem U36_main_arg27 (c : Dev nD) : U36 m c main_arg27 = m ((c : Thread nD τ).loc main_arg27) :=
  (congrFun (V36_eq m c) _).symm.trans (V36_main_arg27 m (outs m) c)

/-! ## The proof data family and the thread state -/

/-- Every pipeline's proof data, each at its region's entry contents. -/
def pdats : (p : Fin 10) → (c : Dev nD) → Dat τ (Elt F) Unit ℕ (Pipeline.UD sig nD τ) ℕ (cfgs p) c
  | ⟨0, _⟩ => fun c => dat0 (UV1 m) c
  | ⟨1, _⟩ => fun c => dat1 (UV3 m) c
  | ⟨2, _⟩ => fun c => dat2 (UV5 m) c
  | ⟨3, _⟩ => fun c => dat3 (UV7 m) c
  | ⟨4, _⟩ => fun c => dat4 (UV9 m) c
  | ⟨5, _⟩ => fun c => dat5 (UV15 m) c
  | ⟨6, _⟩ => fun c => dat6 (UV21 m) c
  | ⟨7, _⟩ => fun c => dat7 (UV27 m) c
  | ⟨8, _⟩ => fun c => dat8 (UV33 m) c
  | ⟨9, _⟩ => fun c => dat9 (UV35 m) c
abbrev 𝒱₀ : Variants := Variants.none
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
abbrev E : Fin 11 → Dev nD → sProp 𝕄 := fun _ c => R (F := F) c

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option maxHeartbeats 4000000 in
/-- At region 0's exit each of its arrays holds what the pipeline leaves: an input array its entry contents, the output the final array. -/
theorem hF0 (c : Dev nD) : ∀ w : Fin cfg0.W, (dat0 (UV1 m) c).arrAt w cfg0.N = UV2 m c (Pipeline.arrRef spec0 w)
  | ⟨0, _⟩ => ((dat0 (UV1 m) c).arrAt_in 0 rfl _).trans ((A_eq0 (UV1 m) c 0).trans (U2_of m c (Pipeline.arrRef spec0 0) (by decide)).symm)
  | ⟨1, _⟩ => ((dat0 (UV1 m) c).arrAt_in 1 rfl _).trans ((A_eq0 (UV1 m) c 1).trans (U2_of m c (Pipeline.arrRef spec0 1) (by decide)).symm)
  | ⟨2, _⟩ => ((dat0 (UV1 m) c).arrAt_in 2 rfl _).trans ((A_eq0 (UV1 m) c 2).trans (U2_of m c (Pipeline.arrRef spec0 2) (by decide)).symm)
  | ⟨3, _⟩ => (U2_self m c).symm
/-- and every other buffer what it held at entry. -/
theorem hrest0 (c : Dev nD) : ∀ b, b ∉ Finset.univ.image (Pipeline.arrRef spec0) → UV2 m c b = UV1 m c b :=
  fun b hb => U2_of m c b fun e => hb (Finset.mem_image.mpr ⟨3, Finset.mem_univ _, e.symm⟩)

set_option backward.isDefEq.respectTransparency.types false in
/-- Region 0 over the thread state: entered from every unscoped buffer at `U1`, left at `U2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (UV1 m) c).loose
  hwaits := Pipeline.hwaits_of_owed_zero _ _ _ _ L lv 0 fun _ _ => rfl
  pre c := iprop(StableHlo.held (c : Thread nD τ) (Pipeline.ucRefs τ sig) (U1 m c) ∗ R c)
  post c := iprop(StableHlo.held (c : Thread nD τ) (Pipeline.ucRefs τ sig) (U2 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (UV1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (UV1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (UV1 m c) (UV2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 4000000 in
/-- At region 1's exit each of its arrays holds what the pipeline leaves: an input array its entry contents, the output the final array. -/
theorem hF1 (c : Dev nD) : ∀ w : Fin cfg1.W, (dat1 (UV3 m) c).arrAt w cfg1.N = UV4 m c (Pipeline.arrRef spec1 w)
  | ⟨0, _⟩ => ((dat1 (UV3 m) c).arrAt_in 0 rfl _).trans ((A_eq1 (UV3 m) c 0).trans (U4_of m c (Pipeline.arrRef spec1 0) (by decide)).symm)
  | ⟨1, _⟩ => ((dat1 (UV3 m) c).arrAt_in 1 rfl _).trans ((A_eq1 (UV3 m) c 1).trans (U4_of m c (Pipeline.arrRef spec1 1) (by decide)).symm)
  | ⟨2, _⟩ => ((dat1 (UV3 m) c).arrAt_in 2 rfl _).trans ((A_eq1 (UV3 m) c 2).trans (U4_of m c (Pipeline.arrRef spec1 2) (by decide)).symm)
  | ⟨3, _⟩ => (U4_self m c).symm
/-- and every other buffer what it held at entry. -/
theorem hrest1 (c : Dev nD) : ∀ b, b ∉ Finset.univ.image (Pipeline.arrRef spec1) → UV4 m c b = UV3 m c b :=
  fun b hb => U4_of m c b fun e => hb (Finset.mem_image.mpr ⟨3, Finset.mem_univ _, e.symm⟩)

set_option backward.isDefEq.respectTransparency.types false in
/-- Region 1 over the thread state: entered from every unscoped buffer at `U3`, left at `U4`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (UV3 m) c).loose
  hwaits := Pipeline.hwaits_of_owed_zero _ _ _ _ L lv 1 fun _ _ => rfl
  pre c := iprop(StableHlo.held (c : Thread nD τ) (Pipeline.ucRefs τ sig) (U3 m c) ∗ R c)
  post c := iprop(StableHlo.held (c : Thread nD τ) (Pipeline.ucRefs τ sig) (U4 m c) ∗ R c)
  X c := iprop(∃ r, prngReg c r)
  Y c := iprop(∃ r, prngReg c r)
  Z c := Pipeline.unscopedRest (Ix := Unit) (Name := ℕ) (U := Pipeline.UD sig nD τ) (Lvl := ℕ) spec1 c (UV3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (UV3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (UV3 m c) (UV4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 4000000 in
/-- At region 2's exit each of its arrays holds what the pipeline leaves: an input array its entry contents, the output the final array. -/
theorem hF2 (c : Dev nD) : ∀ w : Fin cfg2.W, (dat2 (UV5 m) c).arrAt w cfg2.N = UV6 m c (Pipeline.arrRef spec2 w)
  | ⟨0, _⟩ => ((dat2 (UV5 m) c).arrAt_in 0 rfl _).trans ((A_eq2 (UV5 m) c 0).trans (U6_of m c (Pipeline.arrRef spec2 0) (by decide)).symm)
  | ⟨1, _⟩ => ((dat2 (UV5 m) c).arrAt_in 1 rfl _).trans ((A_eq2 (UV5 m) c 1).trans (U6_of m c (Pipeline.arrRef spec2 1) (by decide)).symm)
  | ⟨2, _⟩ => ((dat2 (UV5 m) c).arrAt_in 2 rfl _).trans ((A_eq2 (UV5 m) c 2).trans (U6_of m c (Pipeline.arrRef spec2 2) (by decide)).symm)
  | ⟨3, _⟩ => (U6_self m c).symm
/-- and every other buffer what it held at entry. -/
theorem hrest2 (c : Dev nD) : ∀ b, b ∉ Finset.univ.image (Pipeline.arrRef spec2) → UV6 m c b = UV5 m c b :=
  fun b hb => U6_of m c b fun e => hb (Finset.mem_image.mpr ⟨3, Finset.mem_univ _, e.symm⟩)

set_option backward.isDefEq.respectTransparency.types false in
/-- Region 2 over the thread state: entered from every unscoped buffer at `U5`, left at `U6`. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (UV5 m) c).loose
  hwaits := Pipeline.hwaits_of_owed_zero _ _ _ _ L lv 2 fun _ _ => rfl
  pre c := iprop(StableHlo.held (c : Thread nD τ) (Pipeline.ucRefs τ sig) (U5 m c) ∗ R c)
  post c := iprop(StableHlo.held (c : Thread nD τ) (Pipeline.ucRefs τ sig) (U6 m c) ∗ R c)
  X c := iprop(∃ r, prngReg c r)
  Y c := iprop(∃ r, prngReg c r)
  Z c := Pipeline.unscopedRest (Ix := Unit) (Name := ℕ) (U := Pipeline.UD sig nD τ) (Lvl := ℕ) spec2 c (UV5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (UV5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := Pipeline.UD sig nD τ) (Lvl := ℕ)
      launch2.win launch2.arr_whole c (pdats m) ((pdats m 2 c).share_full fun _ => rfl)
      (UV5 m c) (UV6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 4000000 in
/-- At region 3's exit each of its arrays holds what the pipeline leaves: an input array its entry contents, the output the final array. -/
theorem hF3 (c : Dev nD) : ∀ w : Fin cfg3.W, (dat3 (UV7 m) c).arrAt w cfg3.N = UV8 m c (Pipeline.arrRef spec3 w)
  | ⟨0, _⟩ => ((dat3 (UV7 m) c).arrAt_in 0 rfl _).trans ((A_eq3 (UV7 m) c 0).trans (U8_of m c (Pipeline.arrRef spec3 0) (by decide)).symm)
  | ⟨1, _⟩ => ((dat3 (UV7 m) c).arrAt_in 1 rfl _).trans ((A_eq3 (UV7 m) c 1).trans (U8_of m c (Pipeline.arrRef spec3 1) (by decide)).symm)
  | ⟨2, _⟩ => ((dat3 (UV7 m) c).arrAt_in 2 rfl _).trans ((A_eq3 (UV7 m) c 2).trans (U8_of m c (Pipeline.arrRef spec3 2) (by decide)).symm)
  | ⟨3, _⟩ => (U8_self m c).symm
/-- and every other buffer what it held at entry. -/
theorem hrest3 (c : Dev nD) : ∀ b, b ∉ Finset.univ.image (Pipeline.arrRef spec3) → UV8 m c b = UV7 m c b :=
  fun b hb => U8_of m c b fun e => hb (Finset.mem_image.mpr ⟨3, Finset.mem_univ _, e.symm⟩)

set_option backward.isDefEq.respectTransparency.types false in
/-- Region 3 over the thread state: entered from every unscoped buffer at `U7`, left at `U8`. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (UV7 m) c).loose
  hwaits := Pipeline.hwaits_of_owed_zero _ _ _ _ L lv 3 fun _ _ => rfl
  pre c := iprop(StableHlo.held (c : Thread nD τ) (Pipeline.ucRefs τ sig) (U7 m c) ∗ R c)
  post c := iprop(StableHlo.held (c : Thread nD τ) (Pipeline.ucRefs τ sig) (U8 m c) ∗ R c)
  X c := iprop(∃ r, prngReg c r)
  Y c := iprop(∃ r, prngReg c r)
  Z c := Pipeline.unscopedRest (Ix := Unit) (Name := ℕ) (U := Pipeline.UD sig nD τ) (Lvl := ℕ) spec3 c (UV7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (UV7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := Pipeline.UD sig nD τ) (Lvl := ℕ)
      launch3.win launch3.arr_whole c (pdats m) ((pdats m 3 c).share_full fun _ => rfl)
      (UV7 m c) (UV8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 4000000 in
/-- At region 4's exit each of its arrays holds what the pipeline leaves: an input array its entry contents, the output the final array. -/
theorem hF4 (c : Dev nD) : ∀ w : Fin cfg4.W, (dat4 (UV9 m) c).arrAt w cfg4.N = UV10 m c (Pipeline.arrRef spec4 w)
  | ⟨0, _⟩ => ((dat4 (UV9 m) c).arrAt_in 0 rfl _).trans ((A_eq4 (UV9 m) c 0).trans (U10_of m c (Pipeline.arrRef spec4 0) (by decide)).symm)
  | ⟨1, _⟩ => ((dat4 (UV9 m) c).arrAt_in 1 rfl _).trans ((A_eq4 (UV9 m) c 1).trans (U10_of m c (Pipeline.arrRef spec4 1) (by decide)).symm)
  | ⟨2, _⟩ => ((dat4 (UV9 m) c).arrAt_in 2 rfl _).trans ((A_eq4 (UV9 m) c 2).trans (U10_of m c (Pipeline.arrRef spec4 2) (by decide)).symm)
  | ⟨3, _⟩ => (U10_self m c).symm
/-- and every other buffer what it held at entry. -/
theorem hrest4 (c : Dev nD) : ∀ b, b ∉ Finset.univ.image (Pipeline.arrRef spec4) → UV10 m c b = UV9 m c b :=
  fun b hb => U10_of m c b fun e => hb (Finset.mem_image.mpr ⟨3, Finset.mem_univ _, e.symm⟩)

set_option backward.isDefEq.respectTransparency.types false in
/-- Region 4 over the thread state: entered from every unscoped buffer at `U9`, left at `U10`. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (UV9 m) c).loose
  hwaits := Pipeline.hwaits_of_owed_zero _ _ _ _ L lv 4 fun _ _ => rfl
  pre c := iprop(StableHlo.held (c : Thread nD τ) (Pipeline.ucRefs τ sig) (U9 m c) ∗ R c)
  post c := iprop(StableHlo.held (c : Thread nD τ) (Pipeline.ucRefs τ sig) (U10 m c) ∗ R c)
  X c := iprop(∃ r, prngReg c r)
  Y c := iprop(∃ r, prngReg c r)
  Z c := Pipeline.unscopedRest (Ix := Unit) (Name := ℕ) (U := Pipeline.UD sig nD τ) (Lvl := ℕ) spec4 c (UV9 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (UV9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := Pipeline.UD sig nD τ) (Lvl := ℕ)
      launch4.win launch4.arr_whole c (pdats m) ((pdats m 4 c).share_full fun _ => rfl)
      (UV9 m c) (UV10 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 4000000 in
/-- At region 5's exit each of its arrays holds what the pipeline leaves: an input array its entry contents, the output the final array. -/
theorem hF5 (c : Dev nD) : ∀ w : Fin cfg5.W, (dat5 (UV15 m) c).arrAt w cfg5.N = UV16 m c (Pipeline.arrRef spec5 w)
  | ⟨0, _⟩ => ((dat5 (UV15 m) c).arrAt_in 0 rfl _).trans ((A_eq5 (UV15 m) c 0).trans (U16_of m c (Pipeline.arrRef spec5 0) (by decide)).symm)
  | ⟨1, _⟩ => ((dat5 (UV15 m) c).arrAt_in 1 rfl _).trans ((A_eq5 (UV15 m) c 1).trans (U16_of m c (Pipeline.arrRef spec5 1) (by decide)).symm)
  | ⟨2, _⟩ => ((dat5 (UV15 m) c).arrAt_in 2 rfl _).trans ((A_eq5 (UV15 m) c 2).trans (U16_of m c (Pipeline.arrRef spec5 2) (by decide)).symm)
  | ⟨3, _⟩ => (U16_self m c).symm
/-- and every other buffer what it held at entry. -/
theorem hrest5 (c : Dev nD) : ∀ b, b ∉ Finset.univ.image (Pipeline.arrRef spec5) → UV16 m c b = UV15 m c b :=
  fun b hb => U16_of m c b fun e => hb (Finset.mem_image.mpr ⟨3, Finset.mem_univ _, e.symm⟩)

set_option backward.isDefEq.respectTransparency.types false in
/-- Region 5 over the thread state: entered from every unscoped buffer at `U15`, left at `U16`. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (UV15 m) c).loose
  hwaits := Pipeline.hwaits_of_owed_zero _ _ _ _ L lv 5 fun _ _ => rfl
  pre c := iprop(StableHlo.held (c : Thread nD τ) (Pipeline.ucRefs τ sig) (U15 m c) ∗ R c)
  post c := iprop(StableHlo.held (c : Thread nD τ) (Pipeline.ucRefs τ sig) (U16 m c) ∗ R c)
  X c := iprop(∃ r, prngReg c r)
  Y c := iprop(∃ r, prngReg c r)
  Z c := Pipeline.unscopedRest (Ix := Unit) (Name := ℕ) (U := Pipeline.UD sig nD τ) (Lvl := ℕ) spec5 c (UV15 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (UV15 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := Pipeline.UD sig nD τ) (Lvl := ℕ)
      launch5.win launch5.arr_whole c (pdats m) ((pdats m 5 c).share_full fun _ => rfl)
      (UV15 m c) (UV16 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 4000000 in
/-- At region 6's exit each of its arrays holds what the pipeline leaves: an input array its entry contents, the output the final array. -/
theorem hF6 (c : Dev nD) : ∀ w : Fin cfg6.W, (dat6 (UV21 m) c).arrAt w cfg6.N = UV22 m c (Pipeline.arrRef spec6 w)
  | ⟨0, _⟩ => ((dat6 (UV21 m) c).arrAt_in 0 rfl _).trans ((A_eq6 (UV21 m) c 0).trans (U22_of m c (Pipeline.arrRef spec6 0) (by decide)).symm)
  | ⟨1, _⟩ => ((dat6 (UV21 m) c).arrAt_in 1 rfl _).trans ((A_eq6 (UV21 m) c 1).trans (U22_of m c (Pipeline.arrRef spec6 1) (by decide)).symm)
  | ⟨2, _⟩ => ((dat6 (UV21 m) c).arrAt_in 2 rfl _).trans ((A_eq6 (UV21 m) c 2).trans (U22_of m c (Pipeline.arrRef spec6 2) (by decide)).symm)
  | ⟨3, _⟩ => (U22_self m c).symm
/-- and every other buffer what it held at entry. -/
theorem hrest6 (c : Dev nD) : ∀ b, b ∉ Finset.univ.image (Pipeline.arrRef spec6) → UV22 m c b = UV21 m c b :=
  fun b hb => U22_of m c b fun e => hb (Finset.mem_image.mpr ⟨3, Finset.mem_univ _, e.symm⟩)

set_option backward.isDefEq.respectTransparency.types false in
/-- Region 6 over the thread state: entered from every unscoped buffer at `U21`, left at `U22`. -/
def reg6 : Pipeline.RegionSeg (pcfgs (F := F)) adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (UV21 m) c).loose
  hwaits := Pipeline.hwaits_of_owed_zero _ _ _ _ L lv 6 fun _ _ => rfl
  pre c := iprop(StableHlo.held (c : Thread nD τ) (Pipeline.ucRefs τ sig) (U21 m c) ∗ R c)
  post c := iprop(StableHlo.held (c : Thread nD τ) (Pipeline.ucRefs τ sig) (U22 m c) ∗ R c)
  X c := iprop(∃ r, prngReg c r)
  Y c := iprop(∃ r, prngReg c r)
  Z c := Pipeline.unscopedRest (Ix := Unit) (Name := ℕ) (U := Pipeline.UD sig nD τ) (Lvl := ℕ) spec6 c (UV21 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (UV21 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := Pipeline.UD sig nD τ) (Lvl := ℕ)
      launch6.win launch6.arr_whole c (pdats m) ((pdats m 6 c).share_full fun _ => rfl)
      (UV21 m c) (UV22 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 4000000 in
/-- At region 7's exit each of its arrays holds what the pipeline leaves: an input array its entry contents, the output the final array. -/
theorem hF7 (c : Dev nD) : ∀ w : Fin cfg7.W, (dat7 (UV27 m) c).arrAt w cfg7.N = UV28 m c (Pipeline.arrRef spec7 w)
  | ⟨0, _⟩ => ((dat7 (UV27 m) c).arrAt_in 0 rfl _).trans ((A_eq7 (UV27 m) c 0).trans (U28_of m c (Pipeline.arrRef spec7 0) (by decide)).symm)
  | ⟨1, _⟩ => ((dat7 (UV27 m) c).arrAt_in 1 rfl _).trans ((A_eq7 (UV27 m) c 1).trans (U28_of m c (Pipeline.arrRef spec7 1) (by decide)).symm)
  | ⟨2, _⟩ => ((dat7 (UV27 m) c).arrAt_in 2 rfl _).trans ((A_eq7 (UV27 m) c 2).trans (U28_of m c (Pipeline.arrRef spec7 2) (by decide)).symm)
  | ⟨3, _⟩ => (U28_self m c).symm
/-- and every other buffer what it held at entry. -/
theorem hrest7 (c : Dev nD) : ∀ b, b ∉ Finset.univ.image (Pipeline.arrRef spec7) → UV28 m c b = UV27 m c b :=
  fun b hb => U28_of m c b fun e => hb (Finset.mem_image.mpr ⟨3, Finset.mem_univ _, e.symm⟩)

set_option backward.isDefEq.respectTransparency.types false in
/-- Region 7 over the thread state: entered from every unscoped buffer at `U27`, left at `U28`. -/
def reg7 : Pipeline.RegionSeg (pcfgs (F := F)) adm (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (UV27 m) c).loose
  hwaits := Pipeline.hwaits_of_owed_zero _ _ _ _ L lv 7 fun _ _ => rfl
  pre c := iprop(StableHlo.held (c : Thread nD τ) (Pipeline.ucRefs τ sig) (U27 m c) ∗ R c)
  post c := iprop(StableHlo.held (c : Thread nD τ) (Pipeline.ucRefs τ sig) (U28 m c) ∗ R c)
  X c := iprop(∃ r, prngReg c r)
  Y c := iprop(∃ r, prngReg c r)
  Z c := Pipeline.unscopedRest (Ix := Unit) (Name := ℕ) (U := Pipeline.UD sig nD τ) (Lvl := ℕ) spec7 c (UV27 m c)
  hentry c := by
    rw [Pipeline.ownSems0_none]
    have hsplit := Pipeline.arrays_of_unscopedBufs (p := 7) (pcfgs (F := F)) adm (pdats m) launch7.win launch7.arr_whole c
      ((pdats m 7 c).share_full fun _ => rfl) (UV27 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := Pipeline.UD sig nD τ) (Lvl := ℕ)
      launch7.win launch7.arr_whole c (pdats m) ((pdats m 7 c).share_full fun _ => rfl)
      (UV27 m c) (UV28 m c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 4000000 in
/-- At region 8's exit each of its arrays holds what the pipeline leaves: an input array its entry contents, the output the final array. -/
theorem hF8 (c : Dev nD) : ∀ w : Fin cfg8.W, (dat8 (UV33 m) c).arrAt w cfg8.N = UV34 m c (Pipeline.arrRef spec8 w)
  | ⟨0, _⟩ => ((dat8 (UV33 m) c).arrAt_in 0 rfl _).trans ((A_eq8 (UV33 m) c 0).trans (U34_of m c (Pipeline.arrRef spec8 0) (by decide)).symm)
  | ⟨1, _⟩ => ((dat8 (UV33 m) c).arrAt_in 1 rfl _).trans ((A_eq8 (UV33 m) c 1).trans (U34_of m c (Pipeline.arrRef spec8 1) (by decide)).symm)
  | ⟨2, _⟩ => ((dat8 (UV33 m) c).arrAt_in 2 rfl _).trans ((A_eq8 (UV33 m) c 2).trans (U34_of m c (Pipeline.arrRef spec8 2) (by decide)).symm)
  | ⟨3, _⟩ => (U34_self m c).symm
/-- and every other buffer what it held at entry. -/
theorem hrest8 (c : Dev nD) : ∀ b, b ∉ Finset.univ.image (Pipeline.arrRef spec8) → UV34 m c b = UV33 m c b :=
  fun b hb => U34_of m c b fun e => hb (Finset.mem_image.mpr ⟨3, Finset.mem_univ _, e.symm⟩)

set_option backward.isDefEq.respectTransparency.types false in
/-- Region 8 over the thread state: entered from every unscoped buffer at `U33`, left at `U34`. -/
def reg8 : Pipeline.RegionSeg (pcfgs (F := F)) adm (pdats m) () defs₀ 𝒱₀ L lv 8 where
  win := launch8.win.to₀
  block_pos := launch8.block_pos
  stage_whole := launch8.stage_whole
  K := PEmpty
  osem k := k.elim
  ho := Pipeline.OwnSemFacts.none _
  hbody c := (body_obligation8 (UV33 m) c).loose
  hwaits := Pipeline.hwaits_of_owed_zero _ _ _ _ L lv 8 fun _ _ => rfl
  pre c := iprop(StableHlo.held (c : Thread nD τ) (Pipeline.ucRefs τ sig) (U33 m c) ∗ R c)
  post c := iprop(StableHlo.held (c : Thread nD τ) (Pipeline.ucRefs τ sig) (U34 m c) ∗ R c)
  X c := iprop(∃ r, prngReg c r)
  Y c := iprop(∃ r, prngReg c r)
  Z c := Pipeline.unscopedRest (Ix := Unit) (Name := ℕ) (U := Pipeline.UD sig nD τ) (Lvl := ℕ) spec8 c (UV33 m c)
  hentry c := by
    rw [Pipeline.ownSems0_none]
    have hsplit := Pipeline.arrays_of_unscopedBufs (p := 8) (pcfgs (F := F)) adm (pdats m) launch8.win launch8.arr_whole c
      ((pdats m 8 c).share_full fun _ => rfl) (UV33 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := Pipeline.UD sig nD τ) (Lvl := ℕ)
      launch8.win launch8.arr_whole c (pdats m) ((pdats m 8 c).share_full fun _ => rfl)
      (UV33 m c) (UV34 m c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 4000000 in
/-- At region 9's exit each of its arrays holds what the pipeline leaves: an input array its entry contents, the output the final array. -/
theorem hF9 (c : Dev nD) : ∀ w : Fin cfg9.W, (dat9 (UV35 m) c).arrAt w cfg9.N = UV36 m c (Pipeline.arrRef spec9 w)
  | ⟨0, _⟩ => ((dat9 (UV35 m) c).arrAt_in 0 rfl _).trans ((A_eq9 (UV35 m) c 0).trans (U36_of m c (Pipeline.arrRef spec9 0) (by decide)).symm)
  | ⟨1, _⟩ => ((dat9 (UV35 m) c).arrAt_in 1 rfl _).trans ((A_eq9 (UV35 m) c 1).trans (U36_of m c (Pipeline.arrRef spec9 1) (by decide)).symm)
  | ⟨2, _⟩ => ((dat9 (UV35 m) c).arrAt_in 2 rfl _).trans ((A_eq9 (UV35 m) c 2).trans (U36_of m c (Pipeline.arrRef spec9 2) (by decide)).symm)
  | ⟨3, _⟩ => (U36_self m c).symm
/-- and every other buffer what it held at entry. -/
theorem hrest9 (c : Dev nD) : ∀ b, b ∉ Finset.univ.image (Pipeline.arrRef spec9) → UV36 m c b = UV35 m c b :=
  fun b hb => U36_of m c b fun e => hb (Finset.mem_image.mpr ⟨3, Finset.mem_univ _, e.symm⟩)

set_option backward.isDefEq.respectTransparency.types false in
/-- Region 9 over the thread state: entered from every unscoped buffer at `U35`, left at `U36`. -/
def reg9 : Pipeline.RegionSeg (pcfgs (F := F)) adm (pdats m) () defs₀ 𝒱₀ L lv 9 where
  win := launch9.win.to₀
  block_pos := launch9.block_pos
  stage_whole := launch9.stage_whole
  K := PEmpty
  osem k := k.elim
  ho := Pipeline.OwnSemFacts.none _
  hbody c := (body_obligation9 (UV35 m) c).loose
  hwaits := Pipeline.hwaits_of_owed_zero _ _ _ _ L lv 9 fun _ _ => rfl
  pre c := iprop(StableHlo.held (c : Thread nD τ) (Pipeline.ucRefs τ sig) (U35 m c) ∗ R c)
  post c := iprop(StableHlo.held (c : Thread nD τ) (Pipeline.ucRefs τ sig) (U36 m c) ∗ R c)
  X c := iprop(∃ r, prngReg c r)
  Y c := iprop(∃ r, prngReg c r)
  Z c := Pipeline.unscopedRest (Ix := Unit) (Name := ℕ) (U := Pipeline.UD sig nD τ) (Lvl := ℕ) spec9 c (UV35 m c)
  hentry c := by
    rw [Pipeline.ownSems0_none]
    have hsplit := Pipeline.arrays_of_unscopedBufs (p := 9) (pcfgs (F := F)) adm (pdats m) launch9.win launch9.arr_whole c
      ((pdats m 9 c).share_full fun _ => rfl) (UV35 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := Pipeline.UD sig nD τ) (Lvl := ℕ)
      launch9.win launch9.arr_whole c (pdats m) ((pdats m 9 c).share_full fun _ => rfl)
      (UV35 m c) (UV36 m c) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Asm

end
-- ==== Proof.KernelIdealRun.lean ====
/-
  The run of `KernelIdeal`'s @main over its 36 segments: @main is the segments' run, the thread states chain from the launch to the last boundary, and the last boundary's contents are read against the final memory — the frame (every argument array as launched) and the run with the result array named.
-/
import proofs.«161272_j16312285791078_1_alg».proof.Proof.KernelIdealSegs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Asm

open Cert.KernelIdeal Cert.KernelIdeal.Gen Cert.KernelIdeal.GenP Cert.KernelIdeal.Rg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## @main as the run of its segments -/

theorem hpre0 (c : Dev nD) : iprop(StableHlo.held (c : Thread nD τ) (Pipeline.ucRefs τ sig) (V1 m c) ∗ E (F := F) 0 c) ⊢ (reg0 m).pre c := by
  rw [V1_eq m c]; exact .rfl
theorem hpre1 (c : Dev nD) : iprop(StableHlo.held (c : Thread nD τ) (Pipeline.ucRefs τ sig) (V3 m (outs m) c) ∗ E (F := F) 1 c) ⊢ (reg1 m).pre c := by
  rw [V3_eq m c]; exact .rfl
theorem hpre2 (c : Dev nD) : iprop(StableHlo.held (c : Thread nD τ) (Pipeline.ucRefs τ sig) (V5 m (outs m) c) ∗ E (F := F) 2 c) ⊢ (reg2 m).pre c := by
  rw [V5_eq m c]; exact .rfl
theorem hpre3 (c : Dev nD) : iprop(StableHlo.held (c : Thread nD τ) (Pipeline.ucRefs τ sig) (V7 m (outs m) c) ∗ E (F := F) 3 c) ⊢ (reg3 m).pre c := by
  rw [V7_eq m c]; exact .rfl
theorem hpre4 (c : Dev nD) : iprop(StableHlo.held (c : Thread nD τ) (Pipeline.ucRefs τ sig) (V9 m (outs m) c) ∗ E (F := F) 4 c) ⊢ (reg4 m).pre c := by
  rw [V9_eq m c]; exact .rfl
theorem hpre5 (c : Dev nD) : iprop(StableHlo.held (c : Thread nD τ) (Pipeline.ucRefs τ sig) (V15 m (outs m) c) ∗ E (F := F) 5 c) ⊢ (reg5 m).pre c := by
  rw [V15_eq m c]; exact .rfl
theorem hpre6 (c : Dev nD) : iprop(StableHlo.held (c : Thread nD τ) (Pipeline.ucRefs τ sig) (V21 m (outs m) c) ∗ E (F := F) 6 c) ⊢ (reg6 m).pre c := by
  rw [V21_eq m c]; exact .rfl
theorem hpre7 (c : Dev nD) : iprop(StableHlo.held (c : Thread nD τ) (Pipeline.ucRefs τ sig) (V27 m (outs m) c) ∗ E (F := F) 7 c) ⊢ (reg7 m).pre c := by
  rw [V27_eq m c]; exact .rfl
theorem hpre8 (c : Dev nD) : iprop(StableHlo.held (c : Thread nD τ) (Pipeline.ucRefs τ sig) (V33 m (outs m) c) ∗ E (F := F) 8 c) ⊢ (reg8 m).pre c := by
  rw [V33_eq m c]; exact .rfl
theorem hpre9 (c : Dev nD) : iprop(StableHlo.held (c : Thread nD τ) (Pipeline.ucRefs τ sig) (V35 m (outs m) c) ∗ E (F := F) 9 c) ⊢ (reg9 m).pre c := by
  rw [V35_eq m c]; exact .rfl
theorem hpost0 (c : Dev nD) : (reg0 m).post c ⊢ iprop(StableHlo.held (c : Thread nD τ) (Pipeline.ucRefs τ sig) (V2 m (outs m) c) ∗ E (F := F) 1 c) := by
  rw [V2_eq m c]; exact .rfl
theorem hpost1 (c : Dev nD) : (reg1 m).post c ⊢ iprop(StableHlo.held (c : Thread nD τ) (Pipeline.ucRefs τ sig) (V4 m (outs m) c) ∗ E (F := F) 2 c) := by
  rw [V4_eq m c]; exact .rfl
theorem hpost2 (c : Dev nD) : (reg2 m).post c ⊢ iprop(StableHlo.held (c : Thread nD τ) (Pipeline.ucRefs τ sig) (V6 m (outs m) c) ∗ E (F := F) 3 c) := by
  rw [V6_eq m c]; exact .rfl
theorem hpost3 (c : Dev nD) : (reg3 m).post c ⊢ iprop(StableHlo.held (c : Thread nD τ) (Pipeline.ucRefs τ sig) (V8 m (outs m) c) ∗ E (F := F) 4 c) := by
  rw [V8_eq m c]; exact .rfl
theorem hpost4 (c : Dev nD) : (reg4 m).post c ⊢ iprop(StableHlo.held (c : Thread nD τ) (Pipeline.ucRefs τ sig) (V10 m (outs m) c) ∗ E (F := F) 5 c) := by
  rw [V10_eq m c]; exact .rfl
theorem hpost5 (c : Dev nD) : (reg5 m).post c ⊢ iprop(StableHlo.held (c : Thread nD τ) (Pipeline.ucRefs τ sig) (V16 m (outs m) c) ∗ E (F := F) 6 c) := by
  rw [V16_eq m c]; exact .rfl
theorem hpost6 (c : Dev nD) : (reg6 m).post c ⊢ iprop(StableHlo.held (c : Thread nD τ) (Pipeline.ucRefs τ sig) (V22 m (outs m) c) ∗ E (F := F) 7 c) := by
  rw [V22_eq m c]; exact .rfl
theorem hpost7 (c : Dev nD) : (reg7 m).post c ⊢ iprop(StableHlo.held (c : Thread nD τ) (Pipeline.ucRefs τ sig) (V28 m (outs m) c) ∗ E (F := F) 8 c) := by
  rw [V28_eq m c]; exact .rfl
theorem hpost8 (c : Dev nD) : (reg8 m).post c ⊢ iprop(StableHlo.held (c : Thread nD τ) (Pipeline.ucRefs τ sig) (V34 m (outs m) c) ∗ E (F := F) 9 c) := by
  rw [V34_eq m c]; exact .rfl
/-- The last region's exit is the run's last thread state beside the core owing nothing. -/
theorem hlast (c : Dev nD) : (reg9 m).post c ⊢ (iprop(iprop(StableHlo.held (c : Thread nD τ) (Pipeline.ucRefs τ sig) (U36 m c) ∗ ∃ r, prngReg c r)
    ∗ ∃ W, owes (c : Thread nD τ) (0 : CellTallies nD τ sig Unit) W) : sProp 𝕄) := by
  show (iprop(StableHlo.held (c : Thread nD τ) (Pipeline.ucRefs τ sig) (U36 m c) ∗ R (F := F) c) : sProp 𝕄) ⊢ _
  iintro ⟨Hh, Hp, Ho⟩
  isplitl [Hh Hp]
  · isplitl [Hh]; · iexact Hh
    iexact Hp
  iexact Ho

/-- @main's 36 items as segments on core `c`: the host stretches' from the generated valuations, the regions' the records above. -/
abbrev segsAll (c : Dev nD) : List (Seg (pcfgs (F := F)) adm (pdats m) () defs₀ 𝒱₀ L lv) :=
  segs m (outs m) 𝒱₀ L lv E () (pdats m) (reg0 m) (reg1 m) (reg2 m) (reg3 m) (reg4 m) (reg5 m) (reg6 m) (reg7 m) (reg8 m) (reg9 m) c

/-- @main IS the run of the segments: its chain of items, then the segments' run against that chain. -/
theorem main_run (c : Dev nD) : main (F := F) c = Seg.run (segsAll m c) := (main_chain c).trans (by chain_rfl)

set_option backward.isDefEq.respectTransparency.types false in
/-- THE RUN: from any memory with zero counters every weakly fair execution of @main terminates, nothing faulting, and every
    final state holds each unscoped buffer at the last boundary's contents `U36`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = U36 m c b) :=
  Pipeline.θ_run_regions_kit_dev (pcfgs (F := F)) adm (pdats m) () cellOf_inj embL defs₀ 𝒱₀ L lv m ρ main (fun c => segsAll m c)
    (fun c Q => by rw [main_run m c])
    (fun c => by simp only [segsAll, segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ E (F := F) 0 c))
    (Tₙ := fun c => iprop(StableHlo.held (c : Thread nD τ) (Pipeline.ucRefs τ sig) (U36 m c) ∗ ∃ r, prngReg c r))
    (hch := fun c => ⟨.rfl, hpre0 m c, hpost0 m c, hpre1 m c, hpost1 m c, hpre2 m c, hpost2 m c, hpre3 m c, hpost3 m c, hpre4 m c, hpost4 m c, .rfl, .rfl, .rfl, .rfl, hpre5 m c, hpost5 m c, .rfl, .rfl, .rfl, .rfl, hpre6 m c, hpost6 m c, .rfl, .rfl, .rfl, .rfl, hpre7 m c, hpost7 m c, .rfl, .rfl, .rfl, .rfl, hpre8 m c, hpost8 m c, hpre9 m c, hlast m c⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U36 m c b)
    (hfin := fun c s' => by
      iintro ⟨⟨Hh, -⟩, HSI⟩
      unfold StableHlo.held
      imodintro
      iapply (pointsTo_read_all (Pipeline.ucRefs τ sig) (fun b => (((c : Thread nD τ)).1, b)) (U36 m c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) :=
  (θ_run defs _ _).mono (fun _ h c =>
    ⟨(h c _ (mem_uc main_arg0 (by decide))).trans (U36_main_arg0 m c),
     (h c _ (mem_uc main_arg1 (by decide))).trans (U36_main_arg1 m c),
     (h c _ (mem_uc main_arg2 (by decide))).trans (U36_main_arg2 m c),
     (h c _ (mem_uc main_arg3 (by decide))).trans (U36_main_arg3 m c),
     (h c _ (mem_uc main_arg4 (by decide))).trans (U36_main_arg4 m c),
     (h c _ (mem_uc main_arg5 (by decide))).trans (U36_main_arg5 m c),
     (h c _ (mem_uc main_arg6 (by decide))).trans (U36_main_arg6 m c),
     (h c _ (mem_uc main_arg7 (by decide))).trans (U36_main_arg7 m c),
     (h c _ (mem_uc main_arg8 (by decide))).trans (U36_main_arg8 m c),
     (h c _ (mem_uc main_arg9 (by decide))).trans (U36_main_arg9 m c),
     (h c _ (mem_uc main_arg10 (by decide))).trans (U36_main_arg10 m c),
     (h c _ (mem_uc main_arg11 (by decide))).trans (U36_main_arg11 m c),
     (h c _ (mem_uc main_arg12 (by decide))).trans (U36_main_arg12 m c),
     (h c _ (mem_uc main_arg13 (by decide))).trans (U36_main_arg13 m c),
     (h c _ (mem_uc main_arg14 (by decide))).trans (U36_main_arg14 m c),
     (h c _ (mem_uc main_arg15 (by decide))).trans (U36_main_arg15 m c),
     (h c _ (mem_uc main_arg16 (by decide))).trans (U36_main_arg16 m c),
     (h c _ (mem_uc main_arg17 (by decide))).trans (U36_main_arg17 m c),
     (h c _ (mem_uc main_arg18 (by decide))).trans (U36_main_arg18 m c),
     (h c _ (mem_uc main_arg19 (by decide))).trans (U36_main_arg19 m c),
     (h c _ (mem_uc main_arg20 (by decide))).trans (U36_main_arg20 m c),
     (h c _ (mem_uc main_arg21 (by decide))).trans (U36_main_arg21 m c),
     (h c _ (mem_uc main_arg22 (by decide))).trans (U36_main_arg22 m c),
     (h c _ (mem_uc main_arg23 (by decide))).trans (U36_main_arg23 m c),
     (h c _ (mem_uc main_arg24 (by decide))).trans (U36_main_arg24 m c),
     (h c _ (mem_uc main_arg25 (by decide))).trans (U36_main_arg25 m c),
     (h c _ (mem_uc main_arg26 (by decide))).trans (U36_main_arg26 m c),
     (h c _ (mem_uc main_arg27 (by decide))).trans (U36_main_arg27 m c)⟩) (run_all m ρ)

/-- THE RUN WITH THE RESULT NAMED: the result array ends at region 9's final array, every argument array as launched. -/
theorem run_named : θ_run defs (onTc (τ := τ) (main (F := F))) ⟨m, fun _ => 0, ρ⟩ (fun r => ∀ c : Dev nD,
      r.2.mem ((c.tc : Thread nD τ).loc main_v268) = X36 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) :=
  (θ_run defs _ _).mono (fun _ h c =>
    ⟨(h c _ (mem_uc main_v268 (by decide))).trans (U36_self m c),
     (h c _ (mem_uc main_arg0 (by decide))).trans (U36_main_arg0 m c),
     (h c _ (mem_uc main_arg1 (by decide))).trans (U36_main_arg1 m c),
     (h c _ (mem_uc main_arg2 (by decide))).trans (U36_main_arg2 m c),
     (h c _ (mem_uc main_arg3 (by decide))).trans (U36_main_arg3 m c),
     (h c _ (mem_uc main_arg4 (by decide))).trans (U36_main_arg4 m c),
     (h c _ (mem_uc main_arg5 (by decide))).trans (U36_main_arg5 m c),
     (h c _ (mem_uc main_arg6 (by decide))).trans (U36_main_arg6 m c),
     (h c _ (mem_uc main_arg7 (by decide))).trans (U36_main_arg7 m c),
     (h c _ (mem_uc main_arg8 (by decide))).trans (U36_main_arg8 m c),
     (h c _ (mem_uc main_arg9 (by decide))).trans (U36_main_arg9 m c),
     (h c _ (mem_uc main_arg10 (by decide))).trans (U36_main_arg10 m c),
     (h c _ (mem_uc main_arg11 (by decide))).trans (U36_main_arg11 m c),
     (h c _ (mem_uc main_arg12 (by decide))).trans (U36_main_arg12 m c),
     (h c _ (mem_uc main_arg13 (by decide))).trans (U36_main_arg13 m c),
     (h c _ (mem_uc main_arg14 (by decide))).trans (U36_main_arg14 m c),
     (h c _ (mem_uc main_arg15 (by decide))).trans (U36_main_arg15 m c),
     (h c _ (mem_uc main_arg16 (by decide))).trans (U36_main_arg16 m c),
     (h c _ (mem_uc main_arg17 (by decide))).trans (U36_main_arg17 m c),
     (h c _ (mem_uc main_arg18 (by decide))).trans (U36_main_arg18 m c),
     (h c _ (mem_uc main_arg19 (by decide))).trans (U36_main_arg19 m c),
     (h c _ (mem_uc main_arg20 (by decide))).trans (U36_main_arg20 m c),
     (h c _ (mem_uc main_arg21 (by decide))).trans (U36_main_arg21 m c),
     (h c _ (mem_uc main_arg22 (by decide))).trans (U36_main_arg22 m c),
     (h c _ (mem_uc main_arg23 (by decide))).trans (U36_main_arg23 m c),
     (h c _ (mem_uc main_arg24 (by decide))).trans (U36_main_arg24 m c),
     (h c _ (mem_uc main_arg25 (by decide))).trans (U36_main_arg25 m c),
     (h c _ (mem_uc main_arg26 (by decide))).trans (U36_main_arg26 m c),
     (h c _ (mem_uc main_arg27 (by decide))).trans (U36_main_arg27 m c)⟩) (run_all m ρ)

end Cert.KernelIdeal.Asm

end
-- ==== Proof.RefVals.lean ====
/- The reference's computation as pure functions: one named value per operation of its @main, each the
   operation's function applied to the values of its operands, over a record of the twenty-eight argument arrays. -/
import proofs.«161272_j16312285791078_1_alg».proof.Proof.Gen.ReferenceIdeal
import Idealize.ShloMosaic.Lib.StableHlo.Run

noncomputable section

namespace Cert.Proof.RefSide

open Cert.ReferenceIdeal Cert.ReferenceIdeal.Gen Idealize.ShloMosaic Idealize.ShloMosaic.TcCoe Idealize.SL.Sem Idealize.ShloMosaic.StableHlo

variable {F : FTy → Type} [FloatOps F]

/-- The twenty-eight argument arrays of the reference, as one record. -/
structure Args (F : FTy → Type) where
  a0 : (⟨S64x18640, .f32⟩ : BufTy).Contents (Elt F)
  a1 : (⟨S64x21, .f32⟩ : BufTy).Contents (Elt F)
  a2 : (⟨S100000x9, .f32⟩ : BufTy).Contents (Elt F)
  a3 : (⟨S4096x9, .f32⟩ : BufTy).Contents (Elt F)
  a4 : (⟨S2x1600000, .i32⟩ : BufTy).Contents (Elt F)
  a5 : (⟨S100000, .i32⟩ : BufTy).Contents (Elt F)
  a6 : (⟨S2x16384, .i32⟩ : BufTy).Contents (Elt F)
  a7 : (⟨S4096, .i32⟩ : BufTy).Contents (Elt F)
  a8 : (⟨S18640x128, .f32⟩ : BufTy).Contents (Elt F)
  a9 : (⟨S128, .f32⟩ : BufTy).Contents (Elt F)
  a10 : (⟨S128x128, .f32⟩ : BufTy).Contents (Elt F)
  a11 : (⟨S128, .f32⟩ : BufTy).Contents (Elt F)
  a12 : (⟨S21x64, .f32⟩ : BufTy).Contents (Elt F)
  a13 : (⟨S64, .f32⟩ : BufTy).Contents (Elt F)
  a14 : (⟨S64x64, .f32⟩ : BufTy).Contents (Elt F)
  a15 : (⟨S64, .f32⟩ : BufTy).Contents (Elt F)
  a16 : (⟨S9x128, .f32⟩ : BufTy).Contents (Elt F)
  a17 : (⟨S128, .f32⟩ : BufTy).Contents (Elt F)
  a18 : (⟨S128x128, .f32⟩ : BufTy).Contents (Elt F)
  a19 : (⟨S128, .f32⟩ : BufTy).Contents (Elt F)
  a20 : (⟨S9x128, .f32⟩ : BufTy).Contents (Elt F)
  a21 : (⟨S128, .f32⟩ : BufTy).Contents (Elt F)
  a22 : (⟨S128x128, .f32⟩ : BufTy).Contents (Elt F)
  a23 : (⟨S128, .f32⟩ : BufTy).Contents (Elt F)
  a24 : (⟨S448x128, .f32⟩ : BufTy).Contents (Elt F)
  a25 : (⟨S128, .f32⟩ : BufTy).Contents (Elt F)
  a26 : (⟨S128x2, .f32⟩ : BufTy).Contents (Elt F)
  a27 : (⟨S2, .f32⟩ : BufTy).Contents (Elt F)

def val_main_v0 (A : Args F) : (⟨S64x128, .f32⟩ : BufTy).Contents (Elt F) :=
  Host.dotGeneral dot_S64x18640_S18640x128_S64x128_1_0_0_1_n_n none A.a0 A.a8
def val_main_v1 (A : Args F) : (⟨S1x128, .f32⟩ : BufTy).Contents (Elt F) :=
  broadcastInDim S1x128 ![1] bcast_S128_S1x128_1 A.a9
def val_main_v2 (A : Args F) : (⟨S64x128, .f32⟩ : BufTy).Contents (Elt F) :=
  broadcastInDim S64x128 ![0, 1] bcast_S1x128_S64x128_0_1 (val_main_v1 A)
def val_main_v3 (A : Args F) : (⟨S64x128, .f32⟩ : BufTy).Contents (Elt F) :=
  addf (val_main_v0 A) (val_main_v2 A)
def val_main_call0_cst (A : Args F) : (⟨S_, .f32⟩ : BufTy).Contents (Elt F) :=
  constant S_ .f32 0x00000000#32
def val_main_call0_v0 (A : Args F) : (⟨S64x128, .f32⟩ : BufTy).Contents (Elt F) :=
  broadcastInDim S64x128 ![] bcast_S_S64x128 (val_main_call0_cst A)
def val_main_v4 (A : Args F) : (⟨S64x128, .f32⟩ : BufTy).Contents (Elt F) :=
  maximumf (val_main_v3 A) (val_main_call0_v0 A)
def val_main_v5 (A : Args F) : (⟨S64x128, .f32⟩ : BufTy).Contents (Elt F) :=
  Host.dotGeneral dot_S64x128_S128x128_S64x128_1_0_0_1_n_n none (val_main_v4 A) A.a10
def val_main_v6 (A : Args F) : (⟨S1x128, .f32⟩ : BufTy).Contents (Elt F) :=
  broadcastInDim S1x128 ![1] bcast_S128_S1x128_1 A.a11
def val_main_v7 (A : Args F) : (⟨S64x128, .f32⟩ : BufTy).Contents (Elt F) :=
  broadcastInDim S64x128 ![0, 1] bcast_S1x128_S64x128_0_1 (val_main_v6 A)
def val_main_v8 (A : Args F) : (⟨S64x128, .f32⟩ : BufTy).Contents (Elt F) :=
  addf (val_main_v5 A) (val_main_v7 A)
def val_main_call1_cst (A : Args F) : (⟨S_, .f32⟩ : BufTy).Contents (Elt F) :=
  constant S_ .f32 0x00000000#32
def val_main_call1_v0 (A : Args F) : (⟨S64x128, .f32⟩ : BufTy).Contents (Elt F) :=
  broadcastInDim S64x128 ![] bcast_S_S64x128 (val_main_call1_cst A)
def val_main_v9 (A : Args F) : (⟨S64x128, .f32⟩ : BufTy).Contents (Elt F) :=
  maximumf (val_main_v8 A) (val_main_call1_v0 A)
def val_main_v10 (A : Args F) : (⟨S64x64, .f32⟩ : BufTy).Contents (Elt F) :=
  Host.dotGeneral dot_S64x21_S21x64_S64x64_1_0_0_1_n_n none A.a1 A.a12
def val_main_v11 (A : Args F) : (⟨S1x64, .f32⟩ : BufTy).Contents (Elt F) :=
  broadcastInDim S1x64 ![1] bcast_S64_S1x64_1 A.a13
def val_main_v12 (A : Args F) : (⟨S64x64, .f32⟩ : BufTy).Contents (Elt F) :=
  broadcastInDim S64x64 ![0, 1] bcast_S1x64_S64x64_0_1 (val_main_v11 A)
def val_main_v13 (A : Args F) : (⟨S64x64, .f32⟩ : BufTy).Contents (Elt F) :=
  addf (val_main_v10 A) (val_main_v12 A)
def val_main_call2_cst (A : Args F) : (⟨S_, .f32⟩ : BufTy).Contents (Elt F) :=
  constant S_ .f32 0x00000000#32
def val_main_call2_v0 (A : Args F) : (⟨S64x64, .f32⟩ : BufTy).Contents (Elt F) :=
  broadcastInDim S64x64 ![] bcast_S_S64x64 (val_main_call2_cst A)
def val_main_v14 (A : Args F) : (⟨S64x64, .f32⟩ : BufTy).Contents (Elt F) :=
  maximumf (val_main_v13 A) (val_main_call2_v0 A)
def val_main_v15 (A : Args F) : (⟨S64x64, .f32⟩ : BufTy).Contents (Elt F) :=
  Host.dotGeneral dot_S64x64_S64x64_S64x64_1_0_0_1_n_n none (val_main_v14 A) A.a14
def val_main_v16 (A : Args F) : (⟨S1x64, .f32⟩ : BufTy).Contents (Elt F) :=
  broadcastInDim S1x64 ![1] bcast_S64_S1x64_1 A.a15
def val_main_v17 (A : Args F) : (⟨S64x64, .f32⟩ : BufTy).Contents (Elt F) :=
  broadcastInDim S64x64 ![0, 1] bcast_S1x64_S64x64_0_1 (val_main_v16 A)
def val_main_v18 (A : Args F) : (⟨S64x64, .f32⟩ : BufTy).Contents (Elt F) :=
  addf (val_main_v15 A) (val_main_v17 A)
def val_main_call3_cst (A : Args F) : (⟨S_, .f32⟩ : BufTy).Contents (Elt F) :=
  constant S_ .f32 0x00000000#32
def val_main_call3_v0 (A : Args F) : (⟨S64x64, .f32⟩ : BufTy).Contents (Elt F) :=
  broadcastInDim S64x64 ![] bcast_S_S64x64 (val_main_call3_cst A)
def val_main_v19 (A : Args F) : (⟨S64x64, .f32⟩ : BufTy).Contents (Elt F) :=
  maximumf (val_main_v18 A) (val_main_call3_v0 A)
def val_main_v20 (A : Args F) : (⟨S100000x128, .f32⟩ : BufTy).Contents (Elt F) :=
  Host.dotGeneral dot_S100000x9_S9x128_S100000x128_1_0_0_1_n_n none A.a2 A.a16
def val_main_v21 (A : Args F) : (⟨S1x1600000, .i32⟩ : BufTy).Contents (Elt F) :=
  extractStridedSlice S1x1600000 ![0, 0] A.a4 slices_S2x1600000_S1x1600000_0_0
def val_main_v22 (A : Args F) : (⟨S1600000, .i32⟩ : BufTy).Contents (Elt F) :=
  shapeCast _ (val_main_v21 A) shapeCasts_S1x1600000_S1600000
def val_main_v23 (A : Args F) : (⟨S100000, .i32⟩ : BufTy).Contents (Elt F) :=
  iotaInDim S100000 32 0
def val_main_v24 (A : Args F) : (⟨S1700000, .i32⟩ : BufTy).Contents (Elt F) :=
  concatenate S1700000 0 [⟨S1600000, (val_main_v22 A)⟩, ⟨S100000, (val_main_v23 A)⟩] concatenates_S1600000_S100000_S1700000_d0
def val_main_v25 (A : Args F) : (⟨S1x1600000, .i32⟩ : BufTy).Contents (Elt F) :=
  extractStridedSlice S1x1600000 ![1, 0] A.a4 slices_S2x1600000_S1x1600000_1_0
def val_main_v26 (A : Args F) : (⟨S1600000, .i32⟩ : BufTy).Contents (Elt F) :=
  shapeCast _ (val_main_v25 A) shapeCasts_S1x1600000_S1600000
def val_main_v27 (A : Args F) : (⟨S100000, .i32⟩ : BufTy).Contents (Elt F) :=
  iotaInDim S100000 32 0
def val_main_v28 (A : Args F) : (⟨S1700000, .i32⟩ : BufTy).Contents (Elt F) :=
  concatenate S1700000 0 [⟨S1600000, (val_main_v26 A)⟩, ⟨S100000, (val_main_v27 A)⟩] concatenates_S1600000_S100000_S1700000_d0
def val_main_cst (A : Args F) : (⟨S_, .f32⟩ : BufTy).Contents (Elt F) :=
  constant S_ .f32 0x3F800000#32
def val_main_v29 (A : Args F) : (⟨S1700000, .f32⟩ : BufTy).Contents (Elt F) :=
  broadcastInDim S1700000 ![] bcast_S_S1700000 (val_main_cst A)
def val_main_cst_0 (A : Args F) : (⟨S_, .f32⟩ : BufTy).Contents (Elt F) :=
  constant S_ .f32 0x00000000#32
def val_main_v30 (A : Args F) : (⟨S100000, .f32⟩ : BufTy).Contents (Elt F) :=
  broadcastInDim S100000 ![] bcast_S_S100000 (val_main_cst_0 A)
def val_main_v31 (A : Args F) : (⟨S1700000x1, .i32⟩ : BufTy).Contents (Elt F) :=
  broadcastInDim S1700000x1 ![0] bcast_S1700000_S1700000x1_0 (val_main_v28 A)
def val_main_v32 (A : Args F) : (⟨S100000, .f32⟩ : BufTy).Contents (Elt F) :=
  Host.scatterAdd scatter_S100000_S1700000x1_S1700000_n_0_0_1 (val_main_v30 A) (val_main_v31 A) (val_main_v29 A)
def val_main_cst_1 (A : Args F) : (⟨S_, .f32⟩ : BufTy).Contents (Elt F) :=
  constant S_ .f32 0x00000000#32
def val_main_v33 (A : Args F) : (⟨S100000, .f32⟩ : BufTy).Contents (Elt F) :=
  broadcastInDim S100000 ![] bcast_S_S100000 (val_main_cst_1 A)
def val_main_v34 (A : Args F) : (⟨S100000, .i1⟩ : BufTy).Contents (Elt F) :=
  cmpf .ogt (val_main_v32 A) (val_main_v33 A)
def val_main_cst_2 (A : Args F) : (⟨S_, .f32⟩ : BufTy).Contents (Elt F) :=
  constant S_ .f32 0x2B8CBCCC#32
def val_main_v35 (A : Args F) : (⟨S100000, .f32⟩ : BufTy).Contents (Elt F) :=
  broadcastInDim S100000 ![] bcast_S_S100000 (val_main_cst_2 A)
def val_main_v36 (A : Args F) : (⟨S100000, .f32⟩ : BufTy).Contents (Elt F) :=
  maximumf (val_main_v32 A) (val_main_v35 A)
def val_main_v37 (A : Args F) : (⟨S100000, .f32⟩ : BufTy).Contents (Elt F) :=
  Host.rsqrt (val_main_v36 A)
def val_main_cst_3 (A : Args F) : (⟨S_, .f32⟩ : BufTy).Contents (Elt F) :=
  constant S_ .f32 0x00000000#32
def val_main_call4_v0 (A : Args F) : (⟨S_, .f32⟩ : BufTy).Contents (Elt F) :=
  id (val_main_cst_3 A)
def val_main_call4_v1 (A : Args F) : (⟨S100000, .f32⟩ : BufTy).Contents (Elt F) :=
  broadcastInDim S100000 ![] bcast_S_S100000 (val_main_call4_v0 A)
def val_main_v38 (A : Args F) : (⟨S100000, .f32⟩ : BufTy).Contents (Elt F) :=
  select (val_main_v34 A) (val_main_v37 A) (val_main_call4_v1 A)
def val_main_c (A : Args F) : (⟨S_, .i32⟩ : BufTy).Contents (Elt F) :=
  constantI S_ 32 0#32
def val_main_v39 (A : Args F) : (⟨S1700000, .i32⟩ : BufTy).Contents (Elt F) :=
  broadcastInDim S1700000 ![] bcast_S_S1700000 (val_main_c A)
def val_main_v40 (A : Args F) : (⟨S1700000, .i1⟩ : BufTy).Contents (Elt F) :=
  cmpi .slt (val_main_v24 A) (val_main_v39 A)
def val_main_c_4 (A : Args F) : (⟨S_, .i32⟩ : BufTy).Contents (Elt F) :=
  constantI S_ 32 100000#32
def val_main_v41 (A : Args F) : (⟨S1700000, .i32⟩ : BufTy).Contents (Elt F) :=
  broadcastInDim S1700000 ![] bcast_S_S1700000 (val_main_c_4 A)
def val_main_v42 (A : Args F) : (⟨S1700000, .i32⟩ : BufTy).Contents (Elt F) :=
  addi (val_main_v24 A) (val_main_v41 A)
def val_main_v43 (A : Args F) : (⟨S1700000, .i32⟩ : BufTy).Contents (Elt F) :=
  select (val_main_v40 A) (val_main_v42 A) (val_main_v24 A)
def val_main_v44 (A : Args F) : (⟨S1700000x1, .i32⟩ : BufTy).Contents (Elt F) :=
  broadcastInDim S1700000x1 ![0] bcast_S1700000_S1700000x1_0 (val_main_v43 A)
def val_main_v45 (A : Args F) : (⟨S1700000, .f32⟩ : BufTy).Contents (Elt F) :=
  Host.gather gather_S100000_S1700000x1_S1700000_n_0_n_n_0_1_1 (val_main_v38 A) (val_main_v44 A)
def val_main_c_5 (A : Args F) : (⟨S_, .i32⟩ : BufTy).Contents (Elt F) :=
  constantI S_ 32 0#32
def val_main_v46 (A : Args F) : (⟨S1700000, .i32⟩ : BufTy).Contents (Elt F) :=
  broadcastInDim S1700000 ![] bcast_S_S1700000 (val_main_c_5 A)
def val_main_v47 (A : Args F) : (⟨S1700000, .i1⟩ : BufTy).Contents (Elt F) :=
  cmpi .slt (val_main_v28 A) (val_main_v46 A)
def val_main_c_6 (A : Args F) : (⟨S_, .i32⟩ : BufTy).Contents (Elt F) :=
  constantI S_ 32 100000#32
def val_main_v48 (A : Args F) : (⟨S1700000, .i32⟩ : BufTy).Contents (Elt F) :=
  broadcastInDim S1700000 ![] bcast_S_S1700000 (val_main_c_6 A)
def val_main_v49 (A : Args F) : (⟨S1700000, .i32⟩ : BufTy).Contents (Elt F) :=
  addi (val_main_v28 A) (val_main_v48 A)
def val_main_v50 (A : Args F) : (⟨S1700000, .i32⟩ : BufTy).Contents (Elt F) :=
  select (val_main_v47 A) (val_main_v49 A) (val_main_v28 A)
def val_main_v51 (A : Args F) : (⟨S1700000x1, .i32⟩ : BufTy).Contents (Elt F) :=
  broadcastInDim S1700000x1 ![0] bcast_S1700000_S1700000x1_0 (val_main_v50 A)
def val_main_v52 (A : Args F) : (⟨S1700000, .f32⟩ : BufTy).Contents (Elt F) :=
  Host.gather gather_S100000_S1700000x1_S1700000_n_0_n_n_0_1_1 (val_main_v38 A) (val_main_v51 A)
def val_main_v53 (A : Args F) : (⟨S1700000, .f32⟩ : BufTy).Contents (Elt F) :=
  mulf (val_main_v45 A) (val_main_v52 A)
def val_main_v54 (A : Args F) : (⟨S1700000x1, .f32⟩ : BufTy).Contents (Elt F) :=
  broadcastInDim S1700000x1 ![0] bcast_S1700000_S1700000x1_0 (val_main_v53 A)
def val_main_c_7 (A : Args F) : (⟨S_, .i32⟩ : BufTy).Contents (Elt F) :=
  constantI S_ 32 0#32
def val_main_v55 (A : Args F) : (⟨S1700000, .i32⟩ : BufTy).Contents (Elt F) :=
  broadcastInDim S1700000 ![] bcast_S_S1700000 (val_main_c_7 A)
def val_main_v56 (A : Args F) : (⟨S1700000, .i1⟩ : BufTy).Contents (Elt F) :=
  cmpi .slt (val_main_v24 A) (val_main_v55 A)
def val_main_c_8 (A : Args F) : (⟨S_, .i32⟩ : BufTy).Contents (Elt F) :=
  constantI S_ 32 100000#32
def val_main_v57 (A : Args F) : (⟨S1700000, .i32⟩ : BufTy).Contents (Elt F) :=
  broadcastInDim S1700000 ![] bcast_S_S1700000 (val_main_c_8 A)
def val_main_v58 (A : Args F) : (⟨S1700000, .i32⟩ : BufTy).Contents (Elt F) :=
  addi (val_main_v24 A) (val_main_v57 A)
def val_main_v59 (A : Args F) : (⟨S1700000, .i32⟩ : BufTy).Contents (Elt F) :=
  select (val_main_v56 A) (val_main_v58 A) (val_main_v24 A)
def val_main_v60 (A : Args F) : (⟨S1700000x1, .i32⟩ : BufTy).Contents (Elt F) :=
  broadcastInDim S1700000x1 ![0] bcast_S1700000_S1700000x1_0 (val_main_v59 A)
def val_main_v61 (A : Args F) : (⟨S1700000x128, .f32⟩ : BufTy).Contents (Elt F) :=
  Host.gather gather_S100000x128_S1700000x1_S1700000x128_1_0_n_n_0_1_1128 (val_main_v20 A) (val_main_v60 A)
def val_main_v62 (A : Args F) : (⟨S1700000x128, .f32⟩ : BufTy).Contents (Elt F) :=
  broadcastInDim S1700000x128 ![0, 1] bcast_S1700000x1_S1700000x128_0_1 (val_main_v54 A)
def val_main_v63 (A : Args F) : (⟨S1700000x128, .f32⟩ : BufTy).Contents (Elt F) :=
  mulf (val_main_v62 A) (val_main_v61 A)
def val_main_cst_9 (A : Args F) : (⟨S_, .f32⟩ : BufTy).Contents (Elt F) :=
  constant S_ .f32 0x00000000#32
def val_main_v64 (A : Args F) : (⟨S100000x128, .f32⟩ : BufTy).Contents (Elt F) :=
  broadcastInDim S100000x128 ![] bcast_S_S100000x128 (val_main_cst_9 A)
def val_main_v65 (A : Args F) : (⟨S1700000x1, .i32⟩ : BufTy).Contents (Elt F) :=
  broadcastInDim S1700000x1 ![0] bcast_S1700000_S1700000x1_0 (val_main_v28 A)
def val_main_v66 (A : Args F) : (⟨S100000x128, .f32⟩ : BufTy).Contents (Elt F) :=
  Host.scatterAdd scatter_S100000x128_S1700000x1_S1700000x128_1_0_0_1 (val_main_v64 A) (val_main_v65 A) (val_main_v63 A)
def val_main_v67 (A : Args F) : (⟨S1x128, .f32⟩ : BufTy).Contents (Elt F) :=
  broadcastInDim S1x128 ![1] bcast_S128_S1x128_1 A.a17
def val_main_v68 (A : Args F) : (⟨S100000x128, .f32⟩ : BufTy).Contents (Elt F) :=
  broadcastInDim S100000x128 ![0, 1] bcast_S1x128_S100000x128_0_1 (val_main_v67 A)
def val_main_v69 (A : Args F) : (⟨S100000x128, .f32⟩ : BufTy).Contents (Elt F) :=
  addf (val_main_v66 A) (val_main_v68 A)
def val_main_call5_cst (A : Args F) : (⟨S_, .f32⟩ : BufTy).Contents (Elt F) :=
  constant S_ .f32 0x00000000#32
def val_main_call5_v0 (A : Args F) : (⟨S100000x128, .f32⟩ : BufTy).Contents (Elt F) :=
  broadcastInDim S100000x128 ![] bcast_S_S100000x128 (val_main_call5_cst A)
def val_main_v70 (A : Args F) : (⟨S100000x128, .f32⟩ : BufTy).Contents (Elt F) :=
  maximumf (val_main_v69 A) (val_main_call5_v0 A)
def val_main_v71 (A : Args F) : (⟨S100000x128, .f32⟩ : BufTy).Contents (Elt F) :=
  Host.dotGeneral dot_S100000x128_S128x128_S100000x128_1_0_0_1_n_n none (val_main_v70 A) A.a18
def val_main_v72 (A : Args F) : (⟨S1x1600000, .i32⟩ : BufTy).Contents (Elt F) :=
  extractStridedSlice S1x1600000 ![0, 0] A.a4 slices_S2x1600000_S1x1600000_0_0
def val_main_v73 (A : Args F) : (⟨S1600000, .i32⟩ : BufTy).Contents (Elt F) :=
  shapeCast _ (val_main_v72 A) shapeCasts_S1x1600000_S1600000
def val_main_v74 (A : Args F) : (⟨S100000, .i32⟩ : BufTy).Contents (Elt F) :=
  iotaInDim S100000 32 0
def val_main_v75 (A : Args F) : (⟨S1700000, .i32⟩ : BufTy).Contents (Elt F) :=
  concatenate S1700000 0 [⟨S1600000, (val_main_v73 A)⟩, ⟨S100000, (val_main_v74 A)⟩] concatenates_S1600000_S100000_S1700000_d0
def val_main_v76 (A : Args F) : (⟨S1x1600000, .i32⟩ : BufTy).Contents (Elt F) :=
  extractStridedSlice S1x1600000 ![1, 0] A.a4 slices_S2x1600000_S1x1600000_1_0
def val_main_v77 (A : Args F) : (⟨S1600000, .i32⟩ : BufTy).Contents (Elt F) :=
  shapeCast _ (val_main_v76 A) shapeCasts_S1x1600000_S1600000
def val_main_v78 (A : Args F) : (⟨S100000, .i32⟩ : BufTy).Contents (Elt F) :=
  iotaInDim S100000 32 0
def val_main_v79 (A : Args F) : (⟨S1700000, .i32⟩ : BufTy).Contents (Elt F) :=
  concatenate S1700000 0 [⟨S1600000, (val_main_v77 A)⟩, ⟨S100000, (val_main_v78 A)⟩] concatenates_S1600000_S100000_S1700000_d0
def val_main_cst_10 (A : Args F) : (⟨S_, .f32⟩ : BufTy).Contents (Elt F) :=
  constant S_ .f32 0x3F800000#32
def val_main_v80 (A : Args F) : (⟨S1700000, .f32⟩ : BufTy).Contents (Elt F) :=
  broadcastInDim S1700000 ![] bcast_S_S1700000 (val_main_cst_10 A)
def val_main_cst_11 (A : Args F) : (⟨S_, .f32⟩ : BufTy).Contents (Elt F) :=
  constant S_ .f32 0x00000000#32
def val_main_v81 (A : Args F) : (⟨S100000, .f32⟩ : BufTy).Contents (Elt F) :=
  broadcastInDim S100000 ![] bcast_S_S100000 (val_main_cst_11 A)
def val_main_v82 (A : Args F) : (⟨S1700000x1, .i32⟩ : BufTy).Contents (Elt F) :=
  broadcastInDim S1700000x1 ![0] bcast_S1700000_S1700000x1_0 (val_main_v79 A)
def val_main_v83 (A : Args F) : (⟨S100000, .f32⟩ : BufTy).Contents (Elt F) :=
  Host.scatterAdd scatter_S100000_S1700000x1_S1700000_n_0_0_1 (val_main_v81 A) (val_main_v82 A) (val_main_v80 A)
def val_main_cst_12 (A : Args F) : (⟨S_, .f32⟩ : BufTy).Contents (Elt F) :=
  constant S_ .f32 0x00000000#32
def val_main_v84 (A : Args F) : (⟨S100000, .f32⟩ : BufTy).Contents (Elt F) :=
  broadcastInDim S100000 ![] bcast_S_S100000 (val_main_cst_12 A)
def val_main_v85 (A : Args F) : (⟨S100000, .i1⟩ : BufTy).Contents (Elt F) :=
  cmpf .ogt (val_main_v83 A) (val_main_v84 A)
def val_main_cst_13 (A : Args F) : (⟨S_, .f32⟩ : BufTy).Contents (Elt F) :=
  constant S_ .f32 0x2B8CBCCC#32
def val_main_v86 (A : Args F) : (⟨S100000, .f32⟩ : BufTy).Contents (Elt F) :=
  broadcastInDim S100000 ![] bcast_S_S100000 (val_main_cst_13 A)
def val_main_v87 (A : Args F) : (⟨S100000, .f32⟩ : BufTy).Contents (Elt F) :=
  maximumf (val_main_v83 A) (val_main_v86 A)
def val_main_v88 (A : Args F) : (⟨S100000, .f32⟩ : BufTy).Contents (Elt F) :=
  Host.rsqrt (val_main_v87 A)
def val_main_cst_14 (A : Args F) : (⟨S_, .f32⟩ : BufTy).Contents (Elt F) :=
  constant S_ .f32 0x00000000#32
def val_main_call6_v0 (A : Args F) : (⟨S_, .f32⟩ : BufTy).Contents (Elt F) :=
  id (val_main_cst_14 A)
def val_main_call6_v1 (A : Args F) : (⟨S100000, .f32⟩ : BufTy).Contents (Elt F) :=
  broadcastInDim S100000 ![] bcast_S_S100000 (val_main_call6_v0 A)
def val_main_v89 (A : Args F) : (⟨S100000, .f32⟩ : BufTy).Contents (Elt F) :=
  select (val_main_v85 A) (val_main_v88 A) (val_main_call6_v1 A)
def val_main_c_15 (A : Args F) : (⟨S_, .i32⟩ : BufTy).Contents (Elt F) :=
  constantI S_ 32 0#32
def val_main_v90 (A : Args F) : (⟨S1700000, .i32⟩ : BufTy).Contents (Elt F) :=
  broadcastInDim S1700000 ![] bcast_S_S1700000 (val_main_c_15 A)
def val_main_v91 (A : Args F) : (⟨S1700000, .i1⟩ : BufTy).Contents (Elt F) :=
  cmpi .slt (val_main_v75 A) (val_main_v90 A)
def val_main_c_16 (A : Args F) : (⟨S_, .i32⟩ : BufTy).Contents (Elt F) :=
  constantI S_ 32 100000#32
def val_main_v92 (A : Args F) : (⟨S1700000, .i32⟩ : BufTy).Contents (Elt F) :=
  broadcastInDim S1700000 ![] bcast_S_S1700000 (val_main_c_16 A)
def val_main_v93 (A : Args F) : (⟨S1700000, .i32⟩ : BufTy).Contents (Elt F) :=
  addi (val_main_v75 A) (val_main_v92 A)
def val_main_v94 (A : Args F) : (⟨S1700000, .i32⟩ : BufTy).Contents (Elt F) :=
  select (val_main_v91 A) (val_main_v93 A) (val_main_v75 A)
def val_main_v95 (A : Args F) : (⟨S1700000x1, .i32⟩ : BufTy).Contents (Elt F) :=
  broadcastInDim S1700000x1 ![0] bcast_S1700000_S1700000x1_0 (val_main_v94 A)
def val_main_v96 (A : Args F) : (⟨S1700000, .f32⟩ : BufTy).Contents (Elt F) :=
  Host.gather gather_S100000_S1700000x1_S1700000_n_0_n_n_0_1_1 (val_main_v89 A) (val_main_v95 A)
def val_main_c_17 (A : Args F) : (⟨S_, .i32⟩ : BufTy).Contents (Elt F) :=
  constantI S_ 32 0#32
def val_main_v97 (A : Args F) : (⟨S1700000, .i32⟩ : BufTy).Contents (Elt F) :=
  broadcastInDim S1700000 ![] bcast_S_S1700000 (val_main_c_17 A)
def val_main_v98 (A : Args F) : (⟨S1700000, .i1⟩ : BufTy).Contents (Elt F) :=
  cmpi .slt (val_main_v79 A) (val_main_v97 A)
def val_main_c_18 (A : Args F) : (⟨S_, .i32⟩ : BufTy).Contents (Elt F) :=
  constantI S_ 32 100000#32
def val_main_v99 (A : Args F) : (⟨S1700000, .i32⟩ : BufTy).Contents (Elt F) :=
  broadcastInDim S1700000 ![] bcast_S_S1700000 (val_main_c_18 A)
def val_main_v100 (A : Args F) : (⟨S1700000, .i32⟩ : BufTy).Contents (Elt F) :=
  addi (val_main_v79 A) (val_main_v99 A)
def val_main_v101 (A : Args F) : (⟨S1700000, .i32⟩ : BufTy).Contents (Elt F) :=
  select (val_main_v98 A) (val_main_v100 A) (val_main_v79 A)
def val_main_v102 (A : Args F) : (⟨S1700000x1, .i32⟩ : BufTy).Contents (Elt F) :=
  broadcastInDim S1700000x1 ![0] bcast_S1700000_S1700000x1_0 (val_main_v101 A)
def val_main_v103 (A : Args F) : (⟨S1700000, .f32⟩ : BufTy).Contents (Elt F) :=
  Host.gather gather_S100000_S1700000x1_S1700000_n_0_n_n_0_1_1 (val_main_v89 A) (val_main_v102 A)
def val_main_v104 (A : Args F) : (⟨S1700000, .f32⟩ : BufTy).Contents (Elt F) :=
  mulf (val_main_v96 A) (val_main_v103 A)
def val_main_v105 (A : Args F) : (⟨S1700000x1, .f32⟩ : BufTy).Contents (Elt F) :=
  broadcastInDim S1700000x1 ![0] bcast_S1700000_S1700000x1_0 (val_main_v104 A)
def val_main_c_19 (A : Args F) : (⟨S_, .i32⟩ : BufTy).Contents (Elt F) :=
  constantI S_ 32 0#32
def val_main_v106 (A : Args F) : (⟨S1700000, .i32⟩ : BufTy).Contents (Elt F) :=
  broadcastInDim S1700000 ![] bcast_S_S1700000 (val_main_c_19 A)
def val_main_v107 (A : Args F) : (⟨S1700000, .i1⟩ : BufTy).Contents (Elt F) :=
  cmpi .slt (val_main_v75 A) (val_main_v106 A)
def val_main_c_20 (A : Args F) : (⟨S_, .i32⟩ : BufTy).Contents (Elt F) :=
  constantI S_ 32 100000#32
def val_main_v108 (A : Args F) : (⟨S1700000, .i32⟩ : BufTy).Contents (Elt F) :=
  broadcastInDim S1700000 ![] bcast_S_S1700000 (val_main_c_20 A)
def val_main_v109 (A : Args F) : (⟨S1700000, .i32⟩ : BufTy).Contents (Elt F) :=
  addi (val_main_v75 A) (val_main_v108 A)
def val_main_v110 (A : Args F) : (⟨S1700000, .i32⟩ : BufTy).Contents (Elt F) :=
  select (val_main_v107 A) (val_main_v109 A) (val_main_v75 A)
def val_main_v111 (A : Args F) : (⟨S1700000x1, .i32⟩ : BufTy).Contents (Elt F) :=
  broadcastInDim S1700000x1 ![0] bcast_S1700000_S1700000x1_0 (val_main_v110 A)
def val_main_v112 (A : Args F) : (⟨S1700000x128, .f32⟩ : BufTy).Contents (Elt F) :=
  Host.gather gather_S100000x128_S1700000x1_S1700000x128_1_0_n_n_0_1_1128 (val_main_v71 A) (val_main_v111 A)
def val_main_v113 (A : Args F) : (⟨S1700000x128, .f32⟩ : BufTy).Contents (Elt F) :=
  broadcastInDim S1700000x128 ![0, 1] bcast_S1700000x1_S1700000x128_0_1 (val_main_v105 A)
def val_main_v114 (A : Args F) : (⟨S1700000x128, .f32⟩ : BufTy).Contents (Elt F) :=
  mulf (val_main_v113 A) (val_main_v112 A)
def val_main_cst_21 (A : Args F) : (⟨S_, .f32⟩ : BufTy).Contents (Elt F) :=
  constant S_ .f32 0x00000000#32
def val_main_v115 (A : Args F) : (⟨S100000x128, .f32⟩ : BufTy).Contents (Elt F) :=
  broadcastInDim S100000x128 ![] bcast_S_S100000x128 (val_main_cst_21 A)
def val_main_v116 (A : Args F) : (⟨S1700000x1, .i32⟩ : BufTy).Contents (Elt F) :=
  broadcastInDim S1700000x1 ![0] bcast_S1700000_S1700000x1_0 (val_main_v79 A)
def val_main_v117 (A : Args F) : (⟨S100000x128, .f32⟩ : BufTy).Contents (Elt F) :=
  Host.scatterAdd scatter_S100000x128_S1700000x1_S1700000x128_1_0_0_1 (val_main_v115 A) (val_main_v116 A) (val_main_v114 A)
def val_main_v118 (A : Args F) : (⟨S1x128, .f32⟩ : BufTy).Contents (Elt F) :=
  broadcastInDim S1x128 ![1] bcast_S128_S1x128_1 A.a19
def val_main_v119 (A : Args F) : (⟨S100000x128, .f32⟩ : BufTy).Contents (Elt F) :=
  broadcastInDim S100000x128 ![0, 1] bcast_S1x128_S100000x128_0_1 (val_main_v118 A)
def val_main_v120 (A : Args F) : (⟨S100000x128, .f32⟩ : BufTy).Contents (Elt F) :=
  addf (val_main_v117 A) (val_main_v119 A)
def val_main_call7_cst (A : Args F) : (⟨S_, .f32⟩ : BufTy).Contents (Elt F) :=
  constant S_ .f32 0x00000000#32
def val_main_call7_v0 (A : Args F) : (⟨S100000x128, .f32⟩ : BufTy).Contents (Elt F) :=
  broadcastInDim S100000x128 ![] bcast_S_S100000x128 (val_main_call7_cst A)
def val_main_v121 (A : Args F) : (⟨S100000x128, .f32⟩ : BufTy).Contents (Elt F) :=
  maximumf (val_main_v120 A) (val_main_call7_v0 A)
def val_main_cst_22 (A : Args F) : (⟨S_, .f32⟩ : BufTy).Contents (Elt F) :=
  constant S_ .f32 0x00000000#32
def val_main_v122 (A : Args F) : (⟨S64x128, .f32⟩ : BufTy).Contents (Elt F) :=
  broadcastInDim S64x128 ![] bcast_S_S64x128 (val_main_cst_22 A)
def val_main_v123 (A : Args F) : (⟨S100000x1, .i32⟩ : BufTy).Contents (Elt F) :=
  broadcastInDim S100000x1 ![0] bcast_S100000_S100000x1_0 A.a5
def val_main_v124 (A : Args F) : (⟨S64x128, .f32⟩ : BufTy).Contents (Elt F) :=
  Host.scatterAdd scatter_S64x128_S100000x1_S100000x128_1_0_0_1 (val_main_v122 A) (val_main_v123 A) (val_main_v121 A)
def val_main_cst_23 (A : Args F) : (⟨S_, .f32⟩ : BufTy).Contents (Elt F) :=
  constant S_ .f32 0x3F800000#32
def val_main_v125 (A : Args F) : (⟨S100000, .f32⟩ : BufTy).Contents (Elt F) :=
  broadcastInDim S100000 ![] bcast_S_S100000 (val_main_cst_23 A)
def val_main_cst_24 (A : Args F) : (⟨S_, .f32⟩ : BufTy).Contents (Elt F) :=
  constant S_ .f32 0x00000000#32
def val_main_v126 (A : Args F) : (⟨S64, .f32⟩ : BufTy).Contents (Elt F) :=
  broadcastInDim S64 ![] bcast_S_S64 (val_main_cst_24 A)
def val_main_v127 (A : Args F) : (⟨S100000x1, .i32⟩ : BufTy).Contents (Elt F) :=
  broadcastInDim S100000x1 ![0] bcast_S100000_S100000x1_0 A.a5
def val_main_v128 (A : Args F) : (⟨S64, .f32⟩ : BufTy).Contents (Elt F) :=
  Host.scatterAdd scatter_S64_S100000x1_S100000_n_0_0_1 (val_main_v126 A) (val_main_v127 A) (val_main_v125 A)
def val_main_cst_25 (A : Args F) : (⟨S_, .f32⟩ : BufTy).Contents (Elt F) :=
  constant S_ .f32 0x3F800000#32
def val_main_v129 (A : Args F) : (⟨S64, .f32⟩ : BufTy).Contents (Elt F) :=
  broadcastInDim S64 ![] bcast_S_S64 (val_main_cst_25 A)
def val_main_v130 (A : Args F) : (⟨S64, .f32⟩ : BufTy).Contents (Elt F) :=
  maximumf (val_main_v128 A) (val_main_v129 A)
def val_main_v131 (A : Args F) : (⟨S64x1, .f32⟩ : BufTy).Contents (Elt F) :=
  broadcastInDim S64x1 ![0] bcast_S64_S64x1_0 (val_main_v130 A)
def val_main_v132 (A : Args F) : (⟨S64x128, .f32⟩ : BufTy).Contents (Elt F) :=
  broadcastInDim S64x128 ![0, 1] bcast_S64x1_S64x128_0_1 (val_main_v131 A)
def val_main_v133 (A : Args F) : (⟨S64x128, .f32⟩ : BufTy).Contents (Elt F) :=
  Host.divf (val_main_v124 A) (val_main_v132 A)
def val_main_v134 (A : Args F) : (⟨S4096x128, .f32⟩ : BufTy).Contents (Elt F) :=
  Host.dotGeneral dot_S4096x9_S9x128_S4096x128_1_0_0_1_n_n none A.a3 A.a20
def val_main_v135 (A : Args F) : (⟨S1x16384, .i32⟩ : BufTy).Contents (Elt F) :=
  extractStridedSlice S1x16384 ![0, 0] A.a6 slices_S2x16384_S1x16384_0_0
def val_main_v136 (A : Args F) : (⟨S16384, .i32⟩ : BufTy).Contents (Elt F) :=
  shapeCast _ (val_main_v135 A) shapeCasts_S1x16384_S16384
def val_main_v137 (A : Args F) : (⟨S4096, .i32⟩ : BufTy).Contents (Elt F) :=
  iotaInDim S4096 32 0
def val_main_v138 (A : Args F) : (⟨S20480, .i32⟩ : BufTy).Contents (Elt F) :=
  concatenate S20480 0 [⟨S16384, (val_main_v136 A)⟩, ⟨S4096, (val_main_v137 A)⟩] concatenates_S16384_S4096_S20480_d0
def val_main_v139 (A : Args F) : (⟨S1x16384, .i32⟩ : BufTy).Contents (Elt F) :=
  extractStridedSlice S1x16384 ![1, 0] A.a6 slices_S2x16384_S1x16384_1_0
def val_main_v140 (A : Args F) : (⟨S16384, .i32⟩ : BufTy).Contents (Elt F) :=
  shapeCast _ (val_main_v139 A) shapeCasts_S1x16384_S16384
def val_main_v141 (A : Args F) : (⟨S4096, .i32⟩ : BufTy).Contents (Elt F) :=
  iotaInDim S4096 32 0
def val_main_v142 (A : Args F) : (⟨S20480, .i32⟩ : BufTy).Contents (Elt F) :=
  concatenate S20480 0 [⟨S16384, (val_main_v140 A)⟩, ⟨S4096, (val_main_v141 A)⟩] concatenates_S16384_S4096_S20480_d0
def val_main_cst_26 (A : Args F) : (⟨S_, .f32⟩ : BufTy).Contents (Elt F) :=
  constant S_ .f32 0x3F800000#32
def val_main_v143 (A : Args F) : (⟨S20480, .f32⟩ : BufTy).Contents (Elt F) :=
  broadcastInDim S20480 ![] bcast_S_S20480 (val_main_cst_26 A)
def val_main_cst_27 (A : Args F) : (⟨S_, .f32⟩ : BufTy).Contents (Elt F) :=
  constant S_ .f32 0x00000000#32
def val_main_v144 (A : Args F) : (⟨S4096, .f32⟩ : BufTy).Contents (Elt F) :=
  broadcastInDim S4096 ![] bcast_S_S4096 (val_main_cst_27 A)
def val_main_v145 (A : Args F) : (⟨S20480x1, .i32⟩ : BufTy).Contents (Elt F) :=
  broadcastInDim S20480x1 ![0] bcast_S20480_S20480x1_0 (val_main_v142 A)
def val_main_v146 (A : Args F) : (⟨S4096, .f32⟩ : BufTy).Contents (Elt F) :=
  Host.scatterAdd scatter_S4096_S20480x1_S20480_n_0_0_1 (val_main_v144 A) (val_main_v145 A) (val_main_v143 A)
def val_main_cst_28 (A : Args F) : (⟨S_, .f32⟩ : BufTy).Contents (Elt F) :=
  constant S_ .f32 0x00000000#32
def val_main_v147 (A : Args F) : (⟨S4096, .f32⟩ : BufTy).Contents (Elt F) :=
  broadcastInDim S4096 ![] bcast_S_S4096 (val_main_cst_28 A)
def val_main_v148 (A : Args F) : (⟨S4096, .i1⟩ : BufTy).Contents (Elt F) :=
  cmpf .ogt (val_main_v146 A) (val_main_v147 A)
def val_main_cst_29 (A : Args F) : (⟨S_, .f32⟩ : BufTy).Contents (Elt F) :=
  constant S_ .f32 0x2B8CBCCC#32
def val_main_v149 (A : Args F) : (⟨S4096, .f32⟩ : BufTy).Contents (Elt F) :=
  broadcastInDim S4096 ![] bcast_S_S4096 (val_main_cst_29 A)
def val_main_v150 (A : Args F) : (⟨S4096, .f32⟩ : BufTy).Contents (Elt F) :=
  maximumf (val_main_v146 A) (val_main_v149 A)
def val_main_v151 (A : Args F) : (⟨S4096, .f32⟩ : BufTy).Contents (Elt F) :=
  Host.rsqrt (val_main_v150 A)
def val_main_cst_30 (A : Args F) : (⟨S_, .f32⟩ : BufTy).Contents (Elt F) :=
  constant S_ .f32 0x00000000#32
def val_main_call8_v0 (A : Args F) : (⟨S_, .f32⟩ : BufTy).Contents (Elt F) :=
  id (val_main_cst_30 A)
def val_main_call8_v1 (A : Args F) : (⟨S4096, .f32⟩ : BufTy).Contents (Elt F) :=
  broadcastInDim S4096 ![] bcast_S_S4096 (val_main_call8_v0 A)
def val_main_v152 (A : Args F) : (⟨S4096, .f32⟩ : BufTy).Contents (Elt F) :=
  select (val_main_v148 A) (val_main_v151 A) (val_main_call8_v1 A)
def val_main_c_31 (A : Args F) : (⟨S_, .i32⟩ : BufTy).Contents (Elt F) :=
  constantI S_ 32 0#32
def val_main_v153 (A : Args F) : (⟨S20480, .i32⟩ : BufTy).Contents (Elt F) :=
  broadcastInDim S20480 ![] bcast_S_S20480 (val_main_c_31 A)
def val_main_v154 (A : Args F) : (⟨S20480, .i1⟩ : BufTy).Contents (Elt F) :=
  cmpi .slt (val_main_v138 A) (val_main_v153 A)
def val_main_c_32 (A : Args F) : (⟨S_, .i32⟩ : BufTy).Contents (Elt F) :=
  constantI S_ 32 4096#32
def val_main_v155 (A : Args F) : (⟨S20480, .i32⟩ : BufTy).Contents (Elt F) :=
  broadcastInDim S20480 ![] bcast_S_S20480 (val_main_c_32 A)
def val_main_v156 (A : Args F) : (⟨S20480, .i32⟩ : BufTy).Contents (Elt F) :=
  addi (val_main_v138 A) (val_main_v155 A)
def val_main_v157 (A : Args F) : (⟨S20480, .i32⟩ : BufTy).Contents (Elt F) :=
  select (val_main_v154 A) (val_main_v156 A) (val_main_v138 A)
def val_main_v158 (A : Args F) : (⟨S20480x1, .i32⟩ : BufTy).Contents (Elt F) :=
  broadcastInDim S20480x1 ![0] bcast_S20480_S20480x1_0 (val_main_v157 A)
def val_main_v159 (A : Args F) : (⟨S20480, .f32⟩ : BufTy).Contents (Elt F) :=
  Host.gather gather_S4096_S20480x1_S20480_n_0_n_n_0_1_1 (val_main_v152 A) (val_main_v158 A)
def val_main_c_33 (A : Args F) : (⟨S_, .i32⟩ : BufTy).Contents (Elt F) :=
  constantI S_ 32 0#32
def val_main_v160 (A : Args F) : (⟨S20480, .i32⟩ : BufTy).Contents (Elt F) :=
  broadcastInDim S20480 ![] bcast_S_S20480 (val_main_c_33 A)
def val_main_v161 (A : Args F) : (⟨S20480, .i1⟩ : BufTy).Contents (Elt F) :=
  cmpi .slt (val_main_v142 A) (val_main_v160 A)
def val_main_c_34 (A : Args F) : (⟨S_, .i32⟩ : BufTy).Contents (Elt F) :=
  constantI S_ 32 4096#32
def val_main_v162 (A : Args F) : (⟨S20480, .i32⟩ : BufTy).Contents (Elt F) :=
  broadcastInDim S20480 ![] bcast_S_S20480 (val_main_c_34 A)
def val_main_v163 (A : Args F) : (⟨S20480, .i32⟩ : BufTy).Contents (Elt F) :=
  addi (val_main_v142 A) (val_main_v162 A)
def val_main_v164 (A : Args F) : (⟨S20480, .i32⟩ : BufTy).Contents (Elt F) :=
  select (val_main_v161 A) (val_main_v163 A) (val_main_v142 A)
def val_main_v165 (A : Args F) : (⟨S20480x1, .i32⟩ : BufTy).Contents (Elt F) :=
  broadcastInDim S20480x1 ![0] bcast_S20480_S20480x1_0 (val_main_v164 A)
def val_main_v166 (A : Args F) : (⟨S20480, .f32⟩ : BufTy).Contents (Elt F) :=
  Host.gather gather_S4096_S20480x1_S20480_n_0_n_n_0_1_1 (val_main_v152 A) (val_main_v165 A)
def val_main_v167 (A : Args F) : (⟨S20480, .f32⟩ : BufTy).Contents (Elt F) :=
  mulf (val_main_v159 A) (val_main_v166 A)
def val_main_v168 (A : Args F) : (⟨S20480x1, .f32⟩ : BufTy).Contents (Elt F) :=
  broadcastInDim S20480x1 ![0] bcast_S20480_S20480x1_0 (val_main_v167 A)
def val_main_c_35 (A : Args F) : (⟨S_, .i32⟩ : BufTy).Contents (Elt F) :=
  constantI S_ 32 0#32
def val_main_v169 (A : Args F) : (⟨S20480, .i32⟩ : BufTy).Contents (Elt F) :=
  broadcastInDim S20480 ![] bcast_S_S20480 (val_main_c_35 A)
def val_main_v170 (A : Args F) : (⟨S20480, .i1⟩ : BufTy).Contents (Elt F) :=
  cmpi .slt (val_main_v138 A) (val_main_v169 A)
def val_main_c_36 (A : Args F) : (⟨S_, .i32⟩ : BufTy).Contents (Elt F) :=
  constantI S_ 32 4096#32
def val_main_v171 (A : Args F) : (⟨S20480, .i32⟩ : BufTy).Contents (Elt F) :=
  broadcastInDim S20480 ![] bcast_S_S20480 (val_main_c_36 A)
def val_main_v172 (A : Args F) : (⟨S20480, .i32⟩ : BufTy).Contents (Elt F) :=
  addi (val_main_v138 A) (val_main_v171 A)
def val_main_v173 (A : Args F) : (⟨S20480, .i32⟩ : BufTy).Contents (Elt F) :=
  select (val_main_v170 A) (val_main_v172 A) (val_main_v138 A)
def val_main_v174 (A : Args F) : (⟨S20480x1, .i32⟩ : BufTy).Contents (Elt F) :=
  broadcastInDim S20480x1 ![0] bcast_S20480_S20480x1_0 (val_main_v173 A)
def val_main_v175 (A : Args F) : (⟨S20480x128, .f32⟩ : BufTy).Contents (Elt F) :=
  Host.gather gather_S4096x128_S20480x1_S20480x128_1_0_n_n_0_1_1128 (val_main_v134 A) (val_main_v174 A)
def val_main_v176 (A : Args F) : (⟨S20480x128, .f32⟩ : BufTy).Contents (Elt F) :=
  broadcastInDim S20480x128 ![0, 1] bcast_S20480x1_S20480x128_0_1 (val_main_v168 A)
def val_main_v177 (A : Args F) : (⟨S20480x128, .f32⟩ : BufTy).Contents (Elt F) :=
  mulf (val_main_v176 A) (val_main_v175 A)
def val_main_cst_37 (A : Args F) : (⟨S_, .f32⟩ : BufTy).Contents (Elt F) :=
  constant S_ .f32 0x00000000#32
def val_main_v178 (A : Args F) : (⟨S4096x128, .f32⟩ : BufTy).Contents (Elt F) :=
  broadcastInDim S4096x128 ![] bcast_S_S4096x128 (val_main_cst_37 A)
def val_main_v179 (A : Args F) : (⟨S20480x1, .i32⟩ : BufTy).Contents (Elt F) :=
  broadcastInDim S20480x1 ![0] bcast_S20480_S20480x1_0 (val_main_v142 A)
def val_main_v180 (A : Args F) : (⟨S4096x128, .f32⟩ : BufTy).Contents (Elt F) :=
  Host.scatterAdd scatter_S4096x128_S20480x1_S20480x128_1_0_0_1 (val_main_v178 A) (val_main_v179 A) (val_main_v177 A)
def val_main_v181 (A : Args F) : (⟨S1x128, .f32⟩ : BufTy).Contents (Elt F) :=
  broadcastInDim S1x128 ![1] bcast_S128_S1x128_1 A.a21
def val_main_v182 (A : Args F) : (⟨S4096x128, .f32⟩ : BufTy).Contents (Elt F) :=
  broadcastInDim S4096x128 ![0, 1] bcast_S1x128_S4096x128_0_1 (val_main_v181 A)
def val_main_v183 (A : Args F) : (⟨S4096x128, .f32⟩ : BufTy).Contents (Elt F) :=
  addf (val_main_v180 A) (val_main_v182 A)
def val_main_call9_cst (A : Args F) : (⟨S_, .f32⟩ : BufTy).Contents (Elt F) :=
  constant S_ .f32 0x00000000#32
def val_main_call9_v0 (A : Args F) : (⟨S4096x128, .f32⟩ : BufTy).Contents (Elt F) :=
  broadcastInDim S4096x128 ![] bcast_S_S4096x128 (val_main_call9_cst A)
def val_main_v184 (A : Args F) : (⟨S4096x128, .f32⟩ : BufTy).Contents (Elt F) :=
  maximumf (val_main_v183 A) (val_main_call9_v0 A)
def val_main_v185 (A : Args F) : (⟨S4096x128, .f32⟩ : BufTy).Contents (Elt F) :=
  Host.dotGeneral dot_S4096x128_S128x128_S4096x128_1_0_0_1_n_n none (val_main_v184 A) A.a22
def val_main_v186 (A : Args F) : (⟨S1x16384, .i32⟩ : BufTy).Contents (Elt F) :=
  extractStridedSlice S1x16384 ![0, 0] A.a6 slices_S2x16384_S1x16384_0_0
def val_main_v187 (A : Args F) : (⟨S16384, .i32⟩ : BufTy).Contents (Elt F) :=
  shapeCast _ (val_main_v186 A) shapeCasts_S1x16384_S16384
def val_main_v188 (A : Args F) : (⟨S4096, .i32⟩ : BufTy).Contents (Elt F) :=
  iotaInDim S4096 32 0
def val_main_v189 (A : Args F) : (⟨S20480, .i32⟩ : BufTy).Contents (Elt F) :=
  concatenate S20480 0 [⟨S16384, (val_main_v187 A)⟩, ⟨S4096, (val_main_v188 A)⟩] concatenates_S16384_S4096_S20480_d0
def val_main_v190 (A : Args F) : (⟨S1x16384, .i32⟩ : BufTy).Contents (Elt F) :=
  extractStridedSlice S1x16384 ![1, 0] A.a6 slices_S2x16384_S1x16384_1_0
def val_main_v191 (A : Args F) : (⟨S16384, .i32⟩ : BufTy).Contents (Elt F) :=
  shapeCast _ (val_main_v190 A) shapeCasts_S1x16384_S16384
def val_main_v192 (A : Args F) : (⟨S4096, .i32⟩ : BufTy).Contents (Elt F) :=
  iotaInDim S4096 32 0
def val_main_v193 (A : Args F) : (⟨S20480, .i32⟩ : BufTy).Contents (Elt F) :=
  concatenate S20480 0 [⟨S16384, (val_main_v191 A)⟩, ⟨S4096, (val_main_v192 A)⟩] concatenates_S16384_S4096_S20480_d0
def val_main_cst_38 (A : Args F) : (⟨S_, .f32⟩ : BufTy).Contents (Elt F) :=
  constant S_ .f32 0x3F800000#32
def val_main_v194 (A : Args F) : (⟨S20480, .f32⟩ : BufTy).Contents (Elt F) :=
  broadcastInDim S20480 ![] bcast_S_S20480 (val_main_cst_38 A)
def val_main_cst_39 (A : Args F) : (⟨S_, .f32⟩ : BufTy).Contents (Elt F) :=
  constant S_ .f32 0x00000000#32
def val_main_v195 (A : Args F) : (⟨S4096, .f32⟩ : BufTy).Contents (Elt F) :=
  broadcastInDim S4096 ![] bcast_S_S4096 (val_main_cst_39 A)
def val_main_v196 (A : Args F) : (⟨S20480x1, .i32⟩ : BufTy).Contents (Elt F) :=
  broadcastInDim S20480x1 ![0] bcast_S20480_S20480x1_0 (val_main_v193 A)
def val_main_v197 (A : Args F) : (⟨S4096, .f32⟩ : BufTy).Contents (Elt F) :=
  Host.scatterAdd scatter_S4096_S20480x1_S20480_n_0_0_1 (val_main_v195 A) (val_main_v196 A) (val_main_v194 A)
def val_main_cst_40 (A : Args F) : (⟨S_, .f32⟩ : BufTy).Contents (Elt F) :=
  constant S_ .f32 0x00000000#32
def val_main_v198 (A : Args F) : (⟨S4096, .f32⟩ : BufTy).Contents (Elt F) :=
  broadcastInDim S4096 ![] bcast_S_S4096 (val_main_cst_40 A)
def val_main_v199 (A : Args F) : (⟨S4096, .i1⟩ : BufTy).Contents (Elt F) :=
  cmpf .ogt (val_main_v197 A) (val_main_v198 A)
def val_main_cst_41 (A : Args F) : (⟨S_, .f32⟩ : BufTy).Contents (Elt F) :=
  constant S_ .f32 0x2B8CBCCC#32
def val_main_v200 (A : Args F) : (⟨S4096, .f32⟩ : BufTy).Contents (Elt F) :=
  broadcastInDim S4096 ![] bcast_S_S4096 (val_main_cst_41 A)
def val_main_v201 (A : Args F) : (⟨S4096, .f32⟩ : BufTy).Contents (Elt F) :=
  maximumf (val_main_v197 A) (val_main_v200 A)
def val_main_v202 (A : Args F) : (⟨S4096, .f32⟩ : BufTy).Contents (Elt F) :=
  Host.rsqrt (val_main_v201 A)
def val_main_cst_42 (A : Args F) : (⟨S_, .f32⟩ : BufTy).Contents (Elt F) :=
  constant S_ .f32 0x00000000#32
def val_main_call10_v0 (A : Args F) : (⟨S_, .f32⟩ : BufTy).Contents (Elt F) :=
  id (val_main_cst_42 A)
def val_main_call10_v1 (A : Args F) : (⟨S4096, .f32⟩ : BufTy).Contents (Elt F) :=
  broadcastInDim S4096 ![] bcast_S_S4096 (val_main_call10_v0 A)
def val_main_v203 (A : Args F) : (⟨S4096, .f32⟩ : BufTy).Contents (Elt F) :=
  select (val_main_v199 A) (val_main_v202 A) (val_main_call10_v1 A)
def val_main_c_43 (A : Args F) : (⟨S_, .i32⟩ : BufTy).Contents (Elt F) :=
  constantI S_ 32 0#32
def val_main_v204 (A : Args F) : (⟨S20480, .i32⟩ : BufTy).Contents (Elt F) :=
  broadcastInDim S20480 ![] bcast_S_S20480 (val_main_c_43 A)
def val_main_v205 (A : Args F) : (⟨S20480, .i1⟩ : BufTy).Contents (Elt F) :=
  cmpi .slt (val_main_v189 A) (val_main_v204 A)
def val_main_c_44 (A : Args F) : (⟨S_, .i32⟩ : BufTy).Contents (Elt F) :=
  constantI S_ 32 4096#32
def val_main_v206 (A : Args F) : (⟨S20480, .i32⟩ : BufTy).Contents (Elt F) :=
  broadcastInDim S20480 ![] bcast_S_S20480 (val_main_c_44 A)
def val_main_v207 (A : Args F) : (⟨S20480, .i32⟩ : BufTy).Contents (Elt F) :=
  addi (val_main_v189 A) (val_main_v206 A)
def val_main_v208 (A : Args F) : (⟨S20480, .i32⟩ : BufTy).Contents (Elt F) :=
  select (val_main_v205 A) (val_main_v207 A) (val_main_v189 A)
def val_main_v209 (A : Args F) : (⟨S20480x1, .i32⟩ : BufTy).Contents (Elt F) :=
  broadcastInDim S20480x1 ![0] bcast_S20480_S20480x1_0 (val_main_v208 A)
def val_main_v210 (A : Args F) : (⟨S20480, .f32⟩ : BufTy).Contents (Elt F) :=
  Host.gather gather_S4096_S20480x1_S20480_n_0_n_n_0_1_1 (val_main_v203 A) (val_main_v209 A)
def val_main_c_45 (A : Args F) : (⟨S_, .i32⟩ : BufTy).Contents (Elt F) :=
  constantI S_ 32 0#32
def val_main_v211 (A : Args F) : (⟨S20480, .i32⟩ : BufTy).Contents (Elt F) :=
  broadcastInDim S20480 ![] bcast_S_S20480 (val_main_c_45 A)
def val_main_v212 (A : Args F) : (⟨S20480, .i1⟩ : BufTy).Contents (Elt F) :=
  cmpi .slt (val_main_v193 A) (val_main_v211 A)
def val_main_c_46 (A : Args F) : (⟨S_, .i32⟩ : BufTy).Contents (Elt F) :=
  constantI S_ 32 4096#32
def val_main_v213 (A : Args F) : (⟨S20480, .i32⟩ : BufTy).Contents (Elt F) :=
  broadcastInDim S20480 ![] bcast_S_S20480 (val_main_c_46 A)
def val_main_v214 (A : Args F) : (⟨S20480, .i32⟩ : BufTy).Contents (Elt F) :=
  addi (val_main_v193 A) (val_main_v213 A)
def val_main_v215 (A : Args F) : (⟨S20480, .i32⟩ : BufTy).Contents (Elt F) :=
  select (val_main_v212 A) (val_main_v214 A) (val_main_v193 A)
def val_main_v216 (A : Args F) : (⟨S20480x1, .i32⟩ : BufTy).Contents (Elt F) :=
  broadcastInDim S20480x1 ![0] bcast_S20480_S20480x1_0 (val_main_v215 A)
def val_main_v217 (A : Args F) : (⟨S20480, .f32⟩ : BufTy).Contents (Elt F) :=
  Host.gather gather_S4096_S20480x1_S20480_n_0_n_n_0_1_1 (val_main_v203 A) (val_main_v216 A)
def val_main_v218 (A : Args F) : (⟨S20480, .f32⟩ : BufTy).Contents (Elt F) :=
  mulf (val_main_v210 A) (val_main_v217 A)
def val_main_v219 (A : Args F) : (⟨S20480x1, .f32⟩ : BufTy).Contents (Elt F) :=
  broadcastInDim S20480x1 ![0] bcast_S20480_S20480x1_0 (val_main_v218 A)
def val_main_c_47 (A : Args F) : (⟨S_, .i32⟩ : BufTy).Contents (Elt F) :=
  constantI S_ 32 0#32
def val_main_v220 (A : Args F) : (⟨S20480, .i32⟩ : BufTy).Contents (Elt F) :=
  broadcastInDim S20480 ![] bcast_S_S20480 (val_main_c_47 A)
def val_main_v221 (A : Args F) : (⟨S20480, .i1⟩ : BufTy).Contents (Elt F) :=
  cmpi .slt (val_main_v189 A) (val_main_v220 A)
def val_main_c_48 (A : Args F) : (⟨S_, .i32⟩ : BufTy).Contents (Elt F) :=
  constantI S_ 32 4096#32
def val_main_v222 (A : Args F) : (⟨S20480, .i32⟩ : BufTy).Contents (Elt F) :=
  broadcastInDim S20480 ![] bcast_S_S20480 (val_main_c_48 A)
def val_main_v223 (A : Args F) : (⟨S20480, .i32⟩ : BufTy).Contents (Elt F) :=
  addi (val_main_v189 A) (val_main_v222 A)
def val_main_v224 (A : Args F) : (⟨S20480, .i32⟩ : BufTy).Contents (Elt F) :=
  select (val_main_v221 A) (val_main_v223 A) (val_main_v189 A)
def val_main_v225 (A : Args F) : (⟨S20480x1, .i32⟩ : BufTy).Contents (Elt F) :=
  broadcastInDim S20480x1 ![0] bcast_S20480_S20480x1_0 (val_main_v224 A)
def val_main_v226 (A : Args F) : (⟨S20480x128, .f32⟩ : BufTy).Contents (Elt F) :=
  Host.gather gather_S4096x128_S20480x1_S20480x128_1_0_n_n_0_1_1128 (val_main_v185 A) (val_main_v225 A)
def val_main_v227 (A : Args F) : (⟨S20480x128, .f32⟩ : BufTy).Contents (Elt F) :=
  broadcastInDim S20480x128 ![0, 1] bcast_S20480x1_S20480x128_0_1 (val_main_v219 A)
def val_main_v228 (A : Args F) : (⟨S20480x128, .f32⟩ : BufTy).Contents (Elt F) :=
  mulf (val_main_v227 A) (val_main_v226 A)
def val_main_cst_49 (A : Args F) : (⟨S_, .f32⟩ : BufTy).Contents (Elt F) :=
  constant S_ .f32 0x00000000#32
def val_main_v229 (A : Args F) : (⟨S4096x128, .f32⟩ : BufTy).Contents (Elt F) :=
  broadcastInDim S4096x128 ![] bcast_S_S4096x128 (val_main_cst_49 A)
def val_main_v230 (A : Args F) : (⟨S20480x1, .i32⟩ : BufTy).Contents (Elt F) :=
  broadcastInDim S20480x1 ![0] bcast_S20480_S20480x1_0 (val_main_v193 A)
def val_main_v231 (A : Args F) : (⟨S4096x128, .f32⟩ : BufTy).Contents (Elt F) :=
  Host.scatterAdd scatter_S4096x128_S20480x1_S20480x128_1_0_0_1 (val_main_v229 A) (val_main_v230 A) (val_main_v228 A)
def val_main_v232 (A : Args F) : (⟨S1x128, .f32⟩ : BufTy).Contents (Elt F) :=
  broadcastInDim S1x128 ![1] bcast_S128_S1x128_1 A.a23
def val_main_v233 (A : Args F) : (⟨S4096x128, .f32⟩ : BufTy).Contents (Elt F) :=
  broadcastInDim S4096x128 ![0, 1] bcast_S1x128_S4096x128_0_1 (val_main_v232 A)
def val_main_v234 (A : Args F) : (⟨S4096x128, .f32⟩ : BufTy).Contents (Elt F) :=
  addf (val_main_v231 A) (val_main_v233 A)
def val_main_call11_cst (A : Args F) : (⟨S_, .f32⟩ : BufTy).Contents (Elt F) :=
  constant S_ .f32 0x00000000#32
def val_main_call11_v0 (A : Args F) : (⟨S4096x128, .f32⟩ : BufTy).Contents (Elt F) :=
  broadcastInDim S4096x128 ![] bcast_S_S4096x128 (val_main_call11_cst A)
def val_main_v235 (A : Args F) : (⟨S4096x128, .f32⟩ : BufTy).Contents (Elt F) :=
  maximumf (val_main_v234 A) (val_main_call11_v0 A)
def val_main_cst_50 (A : Args F) : (⟨S_, .f32⟩ : BufTy).Contents (Elt F) :=
  constant S_ .f32 0x00000000#32
def val_main_v236 (A : Args F) : (⟨S64x128, .f32⟩ : BufTy).Contents (Elt F) :=
  broadcastInDim S64x128 ![] bcast_S_S64x128 (val_main_cst_50 A)
def val_main_v237 (A : Args F) : (⟨S4096x1, .i32⟩ : BufTy).Contents (Elt F) :=
  broadcastInDim S4096x1 ![0] bcast_S4096_S4096x1_0 A.a7
def val_main_v238 (A : Args F) : (⟨S64x128, .f32⟩ : BufTy).Contents (Elt F) :=
  Host.scatterAdd scatter_S64x128_S4096x1_S4096x128_1_0_0_1 (val_main_v236 A) (val_main_v237 A) (val_main_v235 A)
def val_main_cst_51 (A : Args F) : (⟨S_, .f32⟩ : BufTy).Contents (Elt F) :=
  constant S_ .f32 0x3F800000#32
def val_main_v239 (A : Args F) : (⟨S4096, .f32⟩ : BufTy).Contents (Elt F) :=
  broadcastInDim S4096 ![] bcast_S_S4096 (val_main_cst_51 A)
def val_main_cst_52 (A : Args F) : (⟨S_, .f32⟩ : BufTy).Contents (Elt F) :=
  constant S_ .f32 0x00000000#32
def val_main_v240 (A : Args F) : (⟨S64, .f32⟩ : BufTy).Contents (Elt F) :=
  broadcastInDim S64 ![] bcast_S_S64 (val_main_cst_52 A)
def val_main_v241 (A : Args F) : (⟨S4096x1, .i32⟩ : BufTy).Contents (Elt F) :=
  broadcastInDim S4096x1 ![0] bcast_S4096_S4096x1_0 A.a7
def val_main_v242 (A : Args F) : (⟨S64, .f32⟩ : BufTy).Contents (Elt F) :=
  Host.scatterAdd scatter_S64_S4096x1_S4096_n_0_0_1 (val_main_v240 A) (val_main_v241 A) (val_main_v239 A)
def val_main_cst_53 (A : Args F) : (⟨S_, .f32⟩ : BufTy).Contents (Elt F) :=
  constant S_ .f32 0x3F800000#32
def val_main_v243 (A : Args F) : (⟨S64, .f32⟩ : BufTy).Contents (Elt F) :=
  broadcastInDim S64 ![] bcast_S_S64 (val_main_cst_53 A)
def val_main_v244 (A : Args F) : (⟨S64, .f32⟩ : BufTy).Contents (Elt F) :=
  maximumf (val_main_v242 A) (val_main_v243 A)
def val_main_v245 (A : Args F) : (⟨S64x1, .f32⟩ : BufTy).Contents (Elt F) :=
  broadcastInDim S64x1 ![0] bcast_S64_S64x1_0 (val_main_v244 A)
def val_main_v246 (A : Args F) : (⟨S64x128, .f32⟩ : BufTy).Contents (Elt F) :=
  broadcastInDim S64x128 ![0, 1] bcast_S64x1_S64x128_0_1 (val_main_v245 A)
def val_main_v247 (A : Args F) : (⟨S64x128, .f32⟩ : BufTy).Contents (Elt F) :=
  Host.divf (val_main_v238 A) (val_main_v246 A)
def val_main_v248 (A : Args F) : (⟨S64x448, .f32⟩ : BufTy).Contents (Elt F) :=
  concatenate S64x448 1 [⟨S64x128, (val_main_v9 A)⟩, ⟨S64x64, (val_main_v19 A)⟩, ⟨S64x128, (val_main_v133 A)⟩, ⟨S64x128, (val_main_v247 A)⟩] concatenates_S64x128_S64x64_S64x128_S64x128_S64x448_d1
def val_main_v249 (A : Args F) : (⟨S64x128, .f32⟩ : BufTy).Contents (Elt F) :=
  Host.dotGeneral dot_S64x448_S448x128_S64x128_1_0_0_1_n_n none (val_main_v248 A) A.a24
def val_main_v250 (A : Args F) : (⟨S1x128, .f32⟩ : BufTy).Contents (Elt F) :=
  broadcastInDim S1x128 ![1] bcast_S128_S1x128_1 A.a25
def val_main_v251 (A : Args F) : (⟨S64x128, .f32⟩ : BufTy).Contents (Elt F) :=
  broadcastInDim S64x128 ![0, 1] bcast_S1x128_S64x128_0_1 (val_main_v250 A)
def val_main_v252 (A : Args F) : (⟨S64x128, .f32⟩ : BufTy).Contents (Elt F) :=
  addf (val_main_v249 A) (val_main_v251 A)
def val_main_call12_cst (A : Args F) : (⟨S_, .f32⟩ : BufTy).Contents (Elt F) :=
  constant S_ .f32 0x00000000#32
def val_main_call12_v0 (A : Args F) : (⟨S64x128, .f32⟩ : BufTy).Contents (Elt F) :=
  broadcastInDim S64x128 ![] bcast_S_S64x128 (val_main_call12_cst A)
def val_main_v253 (A : Args F) : (⟨S64x128, .f32⟩ : BufTy).Contents (Elt F) :=
  maximumf (val_main_v252 A) (val_main_call12_v0 A)
def val_main_v254 (A : Args F) : (⟨S64x2, .f32⟩ : BufTy).Contents (Elt F) :=
  Host.dotGeneral dot_S64x128_S128x2_S64x2_1_0_0_1_n_n none (val_main_v253 A) A.a26
def val_main_v255 (A : Args F) : (⟨S1x2, .f32⟩ : BufTy).Contents (Elt F) :=
  broadcastInDim S1x2 ![1] bcast_S2_S1x2_1 A.a27
def val_main_v256 (A : Args F) : (⟨S64x2, .f32⟩ : BufTy).Contents (Elt F) :=
  broadcastInDim S64x2 ![0, 1] bcast_S1x2_S64x2_0_1 (val_main_v255 A)
def val_main_v257 (A : Args F) : (⟨S64x2, .f32⟩ : BufTy).Contents (Elt F) :=
  addf (val_main_v254 A) (val_main_v256 A)
def val_main_call13_cst (A : Args F) : (⟨S_, .f32⟩ : BufTy).Contents (Elt F) :=
  constant S_ .f32 0x00000000#32
def val_main_call13_v0 (A : Args F) : (⟨S64x2, .f32⟩ : BufTy).Contents (Elt F) :=
  broadcastInDim S64x2 ![] bcast_S_S64x2 (val_main_call13_cst A)
def val_main_v258 (A : Args F) : (⟨S64x2, .f32⟩ : BufTy).Contents (Elt F) :=
  maximumf (val_main_v257 A) (val_main_call13_v0 A)

/-- The reference's result, a pure function of its argument arrays. -/
abbrev REF (A : Args F) : (⟨S64x2, .f32⟩ : BufTy).Contents (Elt F) := val_main_v258 A

end Cert.Proof.RefSide

end
-- ==== Proof.RefLib.lean ====
/- Small facts about lines of host operations: what a line writes, and lines run one after the other. -/
import proofs.«161272_j16312285791078_1_alg».proof.Proof.Gen.ReferenceIdeal
import Idealize.ShloMosaic.Lib.StableHlo.Run

noncomputable section

namespace Cert.Proof.RefSide

open Cert.ReferenceIdeal Cert.ReferenceIdeal.Gen Idealize.ShloMosaic Idealize.ShloMosaic.TcCoe Idealize.SL.Sem Idealize.ShloMosaic.StableHlo

variable {F : FTy → Type} [FloatOps F]

/-- An operation that writes exactly the buffer of a reference on a list writes within the list. -/
theorem writes_sub_of_mem {Wl : List (Ref sig .tc)} {op : HloOp τ sig (Elt F)} {y : Ref sig .tc}
    (h : op.writes = {Proc.devRef .tc y}) (hy : y ∈ Wl) :
    op.writes ⊆ ((Wl.map (Proc.devRef (τ := τ) .tc)).toFinset) := by
  rw [h, Finset.singleton_subset_iff, List.mem_toFinset]
  exact List.mem_map.mpr ⟨y, hy, rfl⟩

/-- A property of every element of two lists holds of every element of their concatenation. -/
theorem forall_append' {α : Type} {p : α → Prop} {l₁ l₂ : List α} (h₁ : l₁.Forall p) (h₂ : l₂.Forall p) : (l₁ ++ l₂).Forall p :=
  List.forall_iff_forall_mem.mpr fun x hx =>
    (List.mem_append.mp hx).elim (List.forall_iff_forall_mem.mp h₁ x) (List.forall_iff_forall_mem.mp h₂ x)

theorem fresh_append {l₁ l₂ : List (HloOp τ sig (Elt F))} (h₁ : ∀ op ∈ l₁, op.fresh = ∅) (h₂ : ∀ op ∈ l₂, op.fresh = ∅) :
    ∀ op ∈ l₁ ++ l₂, op.fresh = ∅ :=
  fun op h => (List.mem_append.mp h).elim (h₁ op) (h₂ op)

/-- The buffers after two lines of operations run in a row. -/
theorem after_append' : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append' l₁ l₂]

end Cert.Proof.RefSide

end
-- ==== Proof.RefOpsA.lean ====
/- The reference's @main as lines of host operations, cut into short stretches; for each stretch the buffers it
   writes, that it writes no others, and that it touches TensorCore buffers only. -/
import proofs.«161272_j16312285791078_1_alg».proof.Proof.Gen.ReferenceIdeal
import Idealize.ShloMosaic.Lib.StableHlo.Run
import proofs.«161272_j16312285791078_1_alg».proof.Proof.RefLib

noncomputable section

namespace Cert.Proof.RefSide

open Cert.ReferenceIdeal Cert.ReferenceIdeal.Gen Idealize.ShloMosaic Idealize.ShloMosaic.TcCoe Idealize.SL.Sem Idealize.ShloMosaic.StableHlo

variable {F : FTy → Type} [FloatOps F]
/-- Operations 0 … 11 of the reference's @main, in order. -/
abbrev s0 : List (HloOp τ sig (Elt F)) :=
  binary main_arg0 main_arg8 main_v0 ((fun l r => Host.dotGeneral dot_S64x18640_S18640x128_S64x128_1_0_0_1_n_n none l r) : (⟨S64x18640, .f32⟩ : BufTy).Contents (Elt F) → (⟨S18640x128, .f32⟩ : BufTy).Contents (Elt F) → (⟨S64x128, .f32⟩ : BufTy).Contents (Elt F)) ::
  unary main_arg9 main_v1 (broadcastInDim S1x128 ![1] bcast_S128_S1x128_1 : (⟨S128, .f32⟩ : BufTy).Contents (Elt F) → (⟨S1x128, .f32⟩ : BufTy).Contents (Elt F)) ::
  unary main_v1 main_v2 (broadcastInDim S64x128 ![0, 1] bcast_S1x128_S64x128_0_1 : (⟨S1x128, .f32⟩ : BufTy).Contents (Elt F) → (⟨S64x128, .f32⟩ : BufTy).Contents (Elt F)) ::
  binary main_v0 main_v2 main_v3 (addf : (⟨S64x128, .f32⟩ : BufTy).Contents (Elt F) → (⟨S64x128, .f32⟩ : BufTy).Contents (Elt F) → (⟨S64x128, .f32⟩ : BufTy).Contents (Elt F)) ::
  TRef.nullary (TRef.of (T := ⟨S_, .f32⟩) main_call0_cst) (constant S_ .f32 0x00000000#32) ::
  TRef.unary (TRef.of (T := ⟨S_, .f32⟩) main_call0_cst) (TRef.of (T := ⟨S64x128, .f32⟩) main_call0_v0) (broadcastInDim S64x128 ![] bcast_S_S64x128) ::
  TRef.binary (TRef.of (T := ⟨S64x128, .f32⟩) main_v3) (TRef.of (T := ⟨S64x128, .f32⟩) main_call0_v0) (TRef.of (T := ⟨S64x128, .f32⟩) main_v4) maximumf ::
  binary main_v4 main_arg10 main_v5 ((fun l r => Host.dotGeneral dot_S64x128_S128x128_S64x128_1_0_0_1_n_n none l r) : (⟨S64x128, .f32⟩ : BufTy).Contents (Elt F) → (⟨S128x128, .f32⟩ : BufTy).Contents (Elt F) → (⟨S64x128, .f32⟩ : BufTy).Contents (Elt F)) ::
  unary main_arg11 main_v6 (broadcastInDim S1x128 ![1] bcast_S128_S1x128_1 : (⟨S128, .f32⟩ : BufTy).Contents (Elt F) → (⟨S1x128, .f32⟩ : BufTy).Contents (Elt F)) ::
  unary main_v6 main_v7 (broadcastInDim S64x128 ![0, 1] bcast_S1x128_S64x128_0_1 : (⟨S1x128, .f32⟩ : BufTy).Contents (Elt F) → (⟨S64x128, .f32⟩ : BufTy).Contents (Elt F)) ::
  binary main_v5 main_v7 main_v8 (addf : (⟨S64x128, .f32⟩ : BufTy).Contents (Elt F) → (⟨S64x128, .f32⟩ : BufTy).Contents (Elt F) → (⟨S64x128, .f32⟩ : BufTy).Contents (Elt F)) ::
  TRef.nullary (TRef.of (T := ⟨S_, .f32⟩) main_call1_cst) (constant S_ .f32 0x00000000#32) ::
  []
/-- The buffers those operations write. -/
abbrev w0 : List (Ref sig .tc) := [main_v0, main_v1, main_v2, main_v3, main_call0_cst, main_call0_v0, main_v4, main_v5, main_v6, main_v7, main_v8, main_call1_cst]
theorem hW0 : (s0 (F := F)).Forall fun op => op.writes ⊆ ((w0.map (Proc.devRef (τ := τ) .tc)).toFinset) :=
  ⟨writes_sub_of_mem (y := main_v0) rfl (by decide),
   writes_sub_of_mem (y := main_v1) rfl (by decide),
   writes_sub_of_mem (y := main_v2) rfl (by decide),
   writes_sub_of_mem (y := main_v3) rfl (by decide),
   writes_sub_of_mem (y := main_call0_cst) rfl (by decide),
   writes_sub_of_mem (y := main_call0_v0) rfl (by decide),
   writes_sub_of_mem (y := main_v4) rfl (by decide),
   writes_sub_of_mem (y := main_v5) rfl (by decide),
   writes_sub_of_mem (y := main_v6) rfl (by decide),
   writes_sub_of_mem (y := main_v7) rfl (by decide),
   writes_sub_of_mem (y := main_v8) rfl (by decide),
   writes_sub_of_mem (y := main_call1_cst) rfl (by decide)⟩
theorem keep0 (r : Ref sig .tc) (hr : r ∉ w0) (W : Valuation τ sig (Elt F)) :
    after s0 W (Proc.devRef .tc r) = W (Proc.devRef .tc r) := after_of_writes_sub s0 W hW0 hr
theorem sub0 : (s0 (F := F)).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub ..⟩
theorem fresh0 : ∀ op ∈ (s0 (F := F)), op.fresh = ∅ := by
  intro _ h; (repeat (cases h with | head => rfl | tail _ h => ?_)); exact nomatch h

/-- Operations 12 … 23 of the reference's @main, in order. -/
abbrev s1 : List (HloOp τ sig (Elt F)) :=
  TRef.unary (TRef.of (T := ⟨S_, .f32⟩) main_call1_cst) (TRef.of (T := ⟨S64x128, .f32⟩) main_call1_v0) (broadcastInDim S64x128 ![] bcast_S_S64x128) ::
  TRef.binary (TRef.of (T := ⟨S64x128, .f32⟩) main_v8) (TRef.of (T := ⟨S64x128, .f32⟩) main_call1_v0) (TRef.of (T := ⟨S64x128, .f32⟩) main_v9) maximumf ::
  binary main_arg1 main_arg12 main_v10 ((fun l r => Host.dotGeneral dot_S64x21_S21x64_S64x64_1_0_0_1_n_n none l r) : (⟨S64x21, .f32⟩ : BufTy).Contents (Elt F) → (⟨S21x64, .f32⟩ : BufTy).Contents (Elt F) → (⟨S64x64, .f32⟩ : BufTy).Contents (Elt F)) ::
  unary main_arg13 main_v11 (broadcastInDim S1x64 ![1] bcast_S64_S1x64_1 : (⟨S64, .f32⟩ : BufTy).Contents (Elt F) → (⟨S1x64, .f32⟩ : BufTy).Contents (Elt F)) ::
  unary main_v11 main_v12 (broadcastInDim S64x64 ![0, 1] bcast_S1x64_S64x64_0_1 : (⟨S1x64, .f32⟩ : BufTy).Contents (Elt F) → (⟨S64x64, .f32⟩ : BufTy).Contents (Elt F)) ::
  binary main_v10 main_v12 main_v13 (addf : (⟨S64x64, .f32⟩ : BufTy).Contents (Elt F) → (⟨S64x64, .f32⟩ : BufTy).Contents (Elt F) → (⟨S64x64, .f32⟩ : BufTy).Contents (Elt F)) ::
  TRef.nullary (TRef.of (T := ⟨S_, .f32⟩) main_call2_cst) (constant S_ .f32 0x00000000#32) ::
  TRef.unary (TRef.of (T := ⟨S_, .f32⟩) main_call2_cst) (TRef.of (T := ⟨S64x64, .f32⟩) main_call2_v0) (broadcastInDim S64x64 ![] bcast_S_S64x64) ::
  TRef.binary (TRef.of (T := ⟨S64x64, .f32⟩) main_v13) (TRef.of (T := ⟨S64x64, .f32⟩) main_call2_v0) (TRef.of (T := ⟨S64x64, .f32⟩) main_v14) maximumf ::
  binary main_v14 main_arg14 main_v15 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)) ::
  unary main_arg15 main_v16 (broadcastInDim S1x64 ![1] bcast_S64_S1x64_1 : (⟨S64, .f32⟩ : BufTy).Contents (Elt F) → (⟨S1x64, .f32⟩ : BufTy).Contents (Elt F)) ::
  unary main_v16 main_v17 (broadcastInDim S64x64 ![0, 1] bcast_S1x64_S64x64_0_1 : (⟨S1x64, .f32⟩ : BufTy).Contents (Elt F) → (⟨S64x64, .f32⟩ : BufTy).Contents (Elt F)) ::
  []
/-- The buffers those operations write. -/
abbrev w1 : List (Ref sig .tc) := [main_call1_v0, main_v9, main_v10, main_v11, main_v12, main_v13, main_call2_cst, main_call2_v0, main_v14, main_v15, main_v16, main_v17]
theorem hW1 : (s1 (F := F)).Forall fun op => op.writes ⊆ ((w1.map (Proc.devRef (τ := τ) .tc)).toFinset) :=
  ⟨writes_sub_of_mem (y := main_call1_v0) rfl (by decide),
   writes_sub_of_mem (y := main_v9) rfl (by decide),
   writes_sub_of_mem (y := main_v10) rfl (by decide),
   writes_sub_of_mem (y := main_v11) rfl (by decide),
   writes_sub_of_mem (y := main_v12) rfl (by decide),
   writes_sub_of_mem (y := main_v13) rfl (by decide),
   writes_sub_of_mem (y := main_call2_cst) rfl (by decide),
   writes_sub_of_mem (y := main_call2_v0) rfl (by decide),
   writes_sub_of_mem (y := main_v14) rfl (by decide),
   writes_sub_of_mem (y := main_v15) rfl (by decide),
   writes_sub_of_mem (y := main_v16) rfl (by decide),
   writes_sub_of_mem (y := main_v17) rfl (by decide)⟩
theorem keep1 (r : Ref sig .tc) (hr : r ∉ w1) (W : Valuation τ sig (Elt F)) :
    after s1 W (Proc.devRef .tc r) = W (Proc.devRef .tc r) := after_of_writes_sub s1 W hW1 hr
theorem sub1 : (s1 (F := F)).Forall fun op => op.bufs ⊆ tcRefs τ sig :=
  ⟨unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub ..⟩
theorem fresh1 : ∀ op ∈ (s1 (F := F)), op.fresh = ∅ := by
  intro _ h; (repeat (cases h with | head => rfl | tail _ h => ?_)); exact nomatch h

/-- Operations 24 … 31 of the reference's @main, in order. -/
abbrev s2 : List (HloOp τ sig (Elt F)) :=
  binary main_v15 main_v17 main_v18 (addf : (⟨S64x64, .f32⟩ : BufTy).Contents (Elt F) → (⟨S64x64, .f32⟩ : BufTy).Contents (Elt F) → (⟨S64x64, .f32⟩ : BufTy).Contents (Elt F)) ::
  TRef.nullary (TRef.of (T := ⟨S_, .f32⟩) main_call3_cst) (constant S_ .f32 0x00000000#32) ::
  TRef.unary (TRef.of (T := ⟨S_, .f32⟩) main_call3_cst) (TRef.of (T := ⟨S64x64, .f32⟩) main_call3_v0) (broadcastInDim S64x64 ![] bcast_S_S64x64) ::
  TRef.binary (TRef.of (T := ⟨S64x64, .f32⟩) main_v18) (TRef.of (T := ⟨S64x64, .f32⟩) main_call3_v0) (TRef.of (T := ⟨S64x64, .f32⟩) main_v19) maximumf ::
  binary main_arg2 main_arg16 main_v20 ((fun l r => Host.dotGeneral dot_S100000x9_S9x128_S100000x128_1_0_0_1_n_n none l r) : (⟨S100000x9, .f32⟩ : BufTy).Contents (Elt F) → (⟨S9x128, .f32⟩ : BufTy).Contents (Elt F) → (⟨S100000x128, .f32⟩ : BufTy).Contents (Elt F)) ::
  unary main_arg4 main_v21 ((extractStridedSlice S1x1600000 ![0, 0] · slices_S2x1600000_S1x1600000_0_0) : (⟨S2x1600000, .i32⟩ : BufTy).Contents (Elt F) → (⟨S1x1600000, .i32⟩ : BufTy).Contents (Elt F)) ::
  reshape main_v21 main_v22 rfl shapeCasts_S1x1600000_S1600000 ::
  nullary main_v23 (iotaInDim S100000 32 0) ::
  []
/-- The buffers those operations write. -/
abbrev w2 : List (Ref sig .tc) := [main_v18, main_call3_cst, main_call3_v0, main_v19, main_v20, main_v21, main_v22, main_v23]
theorem hW2 : (s2 (F := F)).Forall fun op => op.writes ⊆ ((w2.map (Proc.devRef (τ := τ) .tc)).toFinset) :=
  ⟨writes_sub_of_mem (y := main_v18) rfl (by decide),
   writes_sub_of_mem (y := main_call3_cst) rfl (by decide),
   writes_sub_of_mem (y := main_call3_v0) rfl (by decide),
   writes_sub_of_mem (y := main_v19) rfl (by decide),
   writes_sub_of_mem (y := main_v20) rfl (by decide),
   writes_sub_of_mem (y := main_v21) rfl (by decide),
   writes_sub_of_mem (y := main_v22) rfl (by decide),
   writes_sub_of_mem (y := main_v23) rfl (by decide)⟩
theorem keep2 (r : Ref sig .tc) (hr : r ∉ w2) (W : Valuation τ sig (Elt F)) :
    after s2 W (Proc.devRef .tc r) = W (Proc.devRef .tc r) := after_of_writes_sub s2 W hW2 hr
theorem sub2 : (s2 (F := F)).Forall fun op => op.bufs ⊆ tcRefs τ sig :=
  ⟨binary_bufs_sub .., nullary_bufs_sub .., unary_bufs_sub .., binary_bufs_sub .., binary_bufs_sub .., unary_bufs_sub .., reshape_bufs_sub .., nullary_bufs_sub ..⟩
theorem fresh2 : ∀ op ∈ (s2 (F := F)), op.fresh = ∅ := by
  intro _ h; (repeat (cases h with | head => rfl | tail _ h => ?_)); exact nomatch h

/-- Operations 32 … 35 of the reference's @main, in order. -/
abbrev s3 : List (HloOp τ sig (Elt F)) :=
  binary main_v22 main_v23 main_v24 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) ::
  unary main_arg4 main_v25 ((extractStridedSlice S1x1600000 ![1, 0] · slices_S2x1600000_S1x1600000_1_0) : (⟨S2x1600000, .i32⟩ : BufTy).Contents (Elt F) → (⟨S1x1600000, .i32⟩ : BufTy).Contents (Elt F)) ::
  reshape main_v25 main_v26 rfl shapeCasts_S1x1600000_S1600000 ::
  nullary main_v27 (iotaInDim S100000 32 0) ::
  []
/-- The buffers those operations write. -/
abbrev w3 : List (Ref sig .tc) := [main_v24, main_v25, main_v26, main_v27]
theorem hW3 : (s3 (F := F)).Forall fun op => op.writes ⊆ ((w3.map (Proc.devRef (τ := τ) .tc)).toFinset) :=
  ⟨writes_sub_of_mem (y := main_v24) rfl (by decide),
   writes_sub_of_mem (y := main_v25) rfl (by decide),
   writes_sub_of_mem (y := main_v26) rfl (by decide),
   writes_sub_of_mem (y := main_v27) rfl (by decide)⟩
theorem keep3 (r : Ref sig .tc) (hr : r ∉ w3) (W : Valuation τ sig (Elt F)) :
    after s3 W (Proc.devRef .tc r) = W (Proc.devRef .tc r) := after_of_writes_sub s3 W hW3 hr
theorem sub3 : (s3 (F := F)).Forall fun op => op.bufs ⊆ tcRefs τ sig :=
  ⟨binary_bufs_sub .., unary_bufs_sub .., reshape_bufs_sub .., nullary_bufs_sub ..⟩
theorem fresh3 : ∀ op ∈ (s3 (F := F)), op.fresh = ∅ := by
  intro _ h; (repeat (cases h with | head => rfl | tail _ h => ?_)); exact nomatch h

/-- Operations 36 … 47 of the reference's @main, in order. -/
abbrev s4 : List (HloOp τ sig (Elt F)) :=
  binary main_v26 main_v27 main_v28 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) ::
  nullary main_cst (constant S_ .f32 0x3F800000#32) ::
  unary main_cst main_v29 (broadcastInDim S1700000 ![] bcast_S_S1700000 : (⟨S_, .f32⟩ : BufTy).Contents (Elt F) → (⟨S1700000, .f32⟩ : BufTy).Contents (Elt F)) ::
  nullary main_cst_0 (constant S_ .f32 0x00000000#32) ::
  unary main_cst_0 main_v30 (broadcastInDim S100000 ![] bcast_S_S100000 : (⟨S_, .f32⟩ : BufTy).Contents (Elt F) → (⟨S100000, .f32⟩ : BufTy).Contents (Elt F)) ::
  unary main_v28 main_v31 (broadcastInDim S1700000x1 ![0] bcast_S1700000_S1700000x1_0 : (⟨S1700000, .i32⟩ : BufTy).Contents (Elt F) → (⟨S1700000x1, .i32⟩ : BufTy).Contents (Elt F)) ::
  ternary main_v30 main_v31 main_v29 main_v32 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)) ::
  nullary main_cst_1 (constant S_ .f32 0x00000000#32) ::
  unary main_cst_1 main_v33 (broadcastInDim S100000 ![] bcast_S_S100000 : (⟨S_, .f32⟩ : BufTy).Contents (Elt F) → (⟨S100000, .f32⟩ : BufTy).Contents (Elt F)) ::
  binary main_v32 main_v33 main_v34 (cmpf .ogt : (⟨S100000, .f32⟩ : BufTy).Contents (Elt F) → (⟨S100000, .f32⟩ : BufTy).Contents (Elt F) → (⟨S100000, .i1⟩ : BufTy).Contents (Elt F)) ::
  nullary main_cst_2 (constant S_ .f32 0x2B8CBCCC#32) ::
  unary main_cst_2 main_v35 (broadcastInDim S100000 ![] bcast_S_S100000 : (⟨S_, .f32⟩ : BufTy).Contents (Elt F) → (⟨S100000, .f32⟩ : BufTy).Contents (Elt F)) ::
  []
/-- The buffers those operations write. -/
abbrev w4 : List (Ref sig .tc) := [main_v28, main_cst, main_v29, main_cst_0, main_v30, main_v31, main_v32, main_cst_1, main_v33, main_v34, main_cst_2, main_v35]
theorem hW4 : (s4 (F := F)).Forall fun op => op.writes ⊆ ((w4.map (Proc.devRef (τ := τ) .tc)).toFinset) :=
  ⟨writes_sub_of_mem (y := main_v28) rfl (by decide),
   writes_sub_of_mem (y := main_cst) rfl (by decide),
   writes_sub_of_mem (y := main_v29) rfl (by decide),
   writes_sub_of_mem (y := main_cst_0) rfl (by decide),
   writes_sub_of_mem (y := main_v30) rfl (by decide),
   writes_sub_of_mem (y := main_v31) rfl (by decide),
   writes_sub_of_mem (y := main_v32) rfl (by decide),
   writes_sub_of_mem (y := main_cst_1) rfl (by decide),
   writes_sub_of_mem (y := main_v33) rfl (by decide),
   writes_sub_of_mem (y := main_v34) rfl (by decide),
   writes_sub_of_mem (y := main_cst_2) rfl (by decide),
   writes_sub_of_mem (y := main_v35) rfl (by decide)⟩
theorem keep4 (r : Ref sig .tc) (hr : r ∉ w4) (W : Valuation τ sig (Elt F)) :
    after s4 W (Proc.devRef .tc r) = W (Proc.devRef .tc r) := after_of_writes_sub s4 W hW4 hr
theorem sub4 : (s4 (F := F)).Forall fun op => op.bufs ⊆ tcRefs τ sig :=
  ⟨binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub ..⟩
theorem fresh4 : ∀ op ∈ (s4 (F := F)), op.fresh = ∅ := by
  intro _ h; (repeat (cases h with | head => rfl | tail _ h => ?_)); exact nomatch h

/-- Operations 48 … 59 of the reference's @main, in order. -/
abbrev s5 : List (HloOp τ sig (Elt F)) :=
  binary main_v32 main_v35 main_v36 (maximumf : (⟨S100000, .f32⟩ : BufTy).Contents (Elt F) → (⟨S100000, .f32⟩ : BufTy).Contents (Elt F) → (⟨S100000, .f32⟩ : BufTy).Contents (Elt F)) ::
  unary main_v36 main_v37 (Host.rsqrt : (⟨S100000, .f32⟩ : BufTy).Contents (Elt F) → (⟨S100000, .f32⟩ : BufTy).Contents (Elt F)) ::
  nullary main_cst_3 (constant S_ .f32 0x00000000#32) ::
  TRef.unary (TRef.of (T := ⟨S_, .f32⟩) main_cst_3) (TRef.of (T := ⟨S_, .f32⟩) main_call4_v0) id ::
  TRef.unary (TRef.of (T := ⟨S_, .f32⟩) main_call4_v0) (TRef.of (T := ⟨S100000, .f32⟩) main_call4_v1) (broadcastInDim S100000 ![] bcast_S_S100000) ::
  TRef.ternary (TRef.of (T := ⟨S100000, .i1⟩) main_v34) (TRef.of (T := ⟨S100000, .f32⟩) main_v37) (TRef.of (T := ⟨S100000, .f32⟩) main_call4_v1) (TRef.of (T := ⟨S100000, .f32⟩) main_v38) select ::
  nullary main_c (constantI S_ 32 0#32) ::
  unary main_c main_v39 (broadcastInDim S1700000 ![] bcast_S_S1700000 : (⟨S_, .i32⟩ : BufTy).Contents (Elt F) → (⟨S1700000, .i32⟩ : BufTy).Contents (Elt F)) ::
  binary main_v24 main_v39 main_v40 (cmpi .slt : (⟨S1700000, .i32⟩ : BufTy).Contents (Elt F) → (⟨S1700000, .i32⟩ : BufTy).Contents (Elt F) → (⟨S1700000, .i1⟩ : BufTy).Contents (Elt F)) ::
  nullary main_c_4 (constantI S_ 32 100000#32) ::
  unary main_c_4 main_v41 (broadcastInDim S1700000 ![] bcast_S_S1700000 : (⟨S_, .i32⟩ : BufTy).Contents (Elt F) → (⟨S1700000, .i32⟩ : BufTy).Contents (Elt F)) ::
  binary main_v24 main_v41 main_v42 (addi : (⟨S1700000, .i32⟩ : BufTy).Contents (Elt F) → (⟨S1700000, .i32⟩ : BufTy).Contents (Elt F) → (⟨S1700000, .i32⟩ : BufTy).Contents (Elt F)) ::
  []
/-- The buffers those operations write. -/
abbrev w5 : List (Ref sig .tc) := [main_v36, main_v37, main_cst_3, main_call4_v0, main_call4_v1, main_v38, main_c, main_v39, main_v40, main_c_4, main_v41, main_v42]
theorem hW5 : (s5 (F := F)).Forall fun op => op.writes ⊆ ((w5.map (Proc.devRef (τ := τ) .tc)).toFinset) :=
  ⟨writes_sub_of_mem (y := main_v36) rfl (by decide),
   writes_sub_of_mem (y := main_v37) rfl (by decide),
   writes_sub_of_mem (y := main_cst_3) rfl (by decide),
   writes_sub_of_mem (y := main_call4_v0) rfl (by decide),
   writes_sub_of_mem (y := main_call4_v1) rfl (by decide),
   writes_sub_of_mem (y := main_v38) rfl (by decide),
   writes_sub_of_mem (y := main_c) rfl (by decide),
   writes_sub_of_mem (y := main_v39) rfl (by decide),
   writes_sub_of_mem (y := main_v40) rfl (by decide),
   writes_sub_of_mem (y := main_c_4) rfl (by decide),
   writes_sub_of_mem (y := main_v41) rfl (by decide),
   writes_sub_of_mem (y := main_v42) rfl (by decide)⟩
theorem keep5 (r : Ref sig .tc) (hr : r ∉ w5) (W : Valuation τ sig (Elt F)) :
    after s5 W (Proc.devRef .tc r) = W (Proc.devRef .tc r) := after_of_writes_sub s5 W hW5 hr
theorem sub5 : (s5 (F := F)).Forall fun op => op.bufs ⊆ tcRefs τ sig :=
  ⟨binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub ..⟩
theorem fresh5 : ∀ op ∈ (s5 (F := F)), op.fresh = ∅ := by
  intro _ h; (repeat (cases h with | head => rfl | tail _ h => ?_)); exact nomatch h

/-- Operations 60 … 69 of the reference's @main, in order. -/
abbrev s6 : List (HloOp τ sig (Elt F)) :=
  ternary main_v40 main_v42 main_v24 main_v43 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)) ::
  unary main_v43 main_v44 (broadcastInDim S1700000x1 ![0] bcast_S1700000_S1700000x1_0 : (⟨S1700000, .i32⟩ : BufTy).Contents (Elt F) → (⟨S1700000x1, .i32⟩ : BufTy).Contents (Elt F)) ::
  binary main_v38 main_v44 main_v45 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)) ::
  nullary main_c_5 (constantI S_ 32 0#32) ::
  unary main_c_5 main_v46 (broadcastInDim S1700000 ![] bcast_S_S1700000 : (⟨S_, .i32⟩ : BufTy).Contents (Elt F) → (⟨S1700000, .i32⟩ : BufTy).Contents (Elt F)) ::
  binary main_v28 main_v46 main_v47 (cmpi .slt : (⟨S1700000, .i32⟩ : BufTy).Contents (Elt F) → (⟨S1700000, .i32⟩ : BufTy).Contents (Elt F) → (⟨S1700000, .i1⟩ : BufTy).Contents (Elt F)) ::
  nullary main_c_6 (constantI S_ 32 100000#32) ::
  unary main_c_6 main_v48 (broadcastInDim S1700000 ![] bcast_S_S1700000 : (⟨S_, .i32⟩ : BufTy).Contents (Elt F) → (⟨S1700000, .i32⟩ : BufTy).Contents (Elt F)) ::
  binary main_v28 main_v48 main_v49 (addi : (⟨S1700000, .i32⟩ : BufTy).Contents (Elt F) → (⟨S1700000, .i32⟩ : BufTy).Contents (Elt F) → (⟨S1700000, .i32⟩ : BufTy).Contents (Elt F)) ::
  ternary main_v47 main_v49 main_v28 main_v50 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)) ::
  []
/-- The buffers those operations write. -/
abbrev w6 : List (Ref sig .tc) := [main_v43, main_v44, main_v45, main_c_5, main_v46, main_v47, main_c_6, main_v48, main_v49, main_v50]
theorem hW6 : (s6 (F := F)).Forall fun op => op.writes ⊆ ((w6.map (Proc.devRef (τ := τ) .tc)).toFinset) :=
  ⟨writes_sub_of_mem (y := main_v43) rfl (by decide),
   writes_sub_of_mem (y := main_v44) rfl (by decide),
   writes_sub_of_mem (y := main_v45) rfl (by decide),
   writes_sub_of_mem (y := main_c_5) rfl (by decide),
   writes_sub_of_mem (y := main_v46) rfl (by decide),
   writes_sub_of_mem (y := main_v47) rfl (by decide),
   writes_sub_of_mem (y := main_c_6) rfl (by decide),
   writes_sub_of_mem (y := main_v48) rfl (by decide),
   writes_sub_of_mem (y := main_v49) rfl (by decide),
   writes_sub_of_mem (y := main_v50) rfl (by decide)⟩
theorem keep6 (r : Ref sig .tc) (hr : r ∉ w6) (W : Valuation τ sig (Elt F)) :
    after s6 W (Proc.devRef .tc r) = W (Proc.devRef .tc r) := after_of_writes_sub s6 W hW6 hr
theorem sub6 : (s6 (F := F)).Forall fun op => op.bufs ⊆ tcRefs τ sig :=
  ⟨ternary_bufs_sub .., unary_bufs_sub .., binary_bufs_sub .., nullary_bufs_sub .., unary_bufs_sub .., binary_bufs_sub .., nullary_bufs_sub .., unary_bufs_sub .., binary_bufs_sub .., ternary_bufs_sub ..⟩
theorem fresh6 : ∀ op ∈ (s6 (F := F)), op.fresh = ∅ := by
  intro _ h; (repeat (cases h with | head => rfl | tail _ h => ?_)); exact nomatch h

/-- Operations 70 … 81 of the reference's @main, in order. -/
abbrev s7 : List (HloOp τ sig (Elt F)) :=
  unary main_v50 main_v51 (broadcastInDim S1700000x1 ![0] bcast_S1700000_S1700000x1_0 : (⟨S1700000, .i32⟩ : BufTy).Contents (Elt F) → (⟨S1700000x1, .i32⟩ : BufTy).Contents (Elt F)) ::
  binary main_v38 main_v51 main_v52 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)) ::
  binary main_v45 main_v52 main_v53 (mulf : (⟨S1700000, .f32⟩ : BufTy).Contents (Elt F) → (⟨S1700000, .f32⟩ : BufTy).Contents (Elt F) → (⟨S1700000, .f32⟩ : BufTy).Contents (Elt F)) ::
  unary main_v53 main_v54 (broadcastInDim S1700000x1 ![0] bcast_S1700000_S1700000x1_0 : (⟨S1700000, .f32⟩ : BufTy).Contents (Elt F) → (⟨S1700000x1, .f32⟩ : BufTy).Contents (Elt F)) ::
  nullary main_c_7 (constantI S_ 32 0#32) ::
  unary main_c_7 main_v55 (broadcastInDim S1700000 ![] bcast_S_S1700000 : (⟨S_, .i32⟩ : BufTy).Contents (Elt F) → (⟨S1700000, .i32⟩ : BufTy).Contents (Elt F)) ::
  binary main_v24 main_v55 main_v56 (cmpi .slt : (⟨S1700000, .i32⟩ : BufTy).Contents (Elt F) → (⟨S1700000, .i32⟩ : BufTy).Contents (Elt F) → (⟨S1700000, .i1⟩ : BufTy).Contents (Elt F)) ::
  nullary main_c_8 (constantI S_ 32 100000#32) ::
  unary main_c_8 main_v57 (broadcastInDim S1700000 ![] bcast_S_S1700000 : (⟨S_, .i32⟩ : BufTy).Contents (Elt F) → (⟨S1700000, .i32⟩ : BufTy).Contents (Elt F)) ::
  binary main_v24 main_v57 main_v58 (addi : (⟨S1700000, .i32⟩ : BufTy).Contents (Elt F) → (⟨S1700000, .i32⟩ : BufTy).Contents (Elt F) → (⟨S1700000, .i32⟩ : BufTy).Contents (Elt F)) ::
  ternary main_v56 main_v58 main_v24 main_v59 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)) ::
  unary main_v59 main_v60 (broadcastInDim S1700000x1 ![0] bcast_S1700000_S1700000x1_0 : (⟨S1700000, .i32⟩ : BufTy).Contents (Elt F) → (⟨S1700000x1, .i32⟩ : BufTy).Contents (Elt F)) ::
  []
/-- The buffers those operations write. -/
abbrev w7 : List (Ref sig .tc) := [main_v51, main_v52, main_v53, main_v54, main_c_7, main_v55, main_v56, main_c_8, main_v57, main_v58, main_v59, main_v60]
theorem hW7 : (s7 (F := F)).Forall fun op => op.writes ⊆ ((w7.map (Proc.devRef (τ := τ) .tc)).toFinset) :=
  ⟨writes_sub_of_mem (y := main_v51) rfl (by decide),
   writes_sub_of_mem (y := main_v52) rfl (by decide),
   writes_sub_of_mem (y := main_v53) rfl (by decide),
   writes_sub_of_mem (y := main_v54) rfl (by decide),
   writes_sub_of_mem (y := main_c_7) rfl (by decide),
   writes_sub_of_mem (y := main_v55) rfl (by decide),
   writes_sub_of_mem (y := main_v56) rfl (by decide),
   writes_sub_of_mem (y := main_c_8) rfl (by decide),
   writes_sub_of_mem (y := main_v57) rfl (by decide),
   writes_sub_of_mem (y := main_v58) rfl (by decide),
   writes_sub_of_mem (y := main_v59) rfl (by decide),
   writes_sub_of_mem (y := main_v60) rfl (by decide)⟩
theorem keep7 (r : Ref sig .tc) (hr : r ∉ w7) (W : Valuation τ sig (Elt F)) :
    after s7 W (Proc.devRef .tc r) = W (Proc.devRef .tc r) := after_of_writes_sub s7 W hW7 hr
theorem sub7 : (s7 (F := F)).Forall fun op => op.bufs ⊆ tcRefs τ sig :=
  ⟨unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub ..⟩
theorem fresh7 : ∀ op ∈ (s7 (F := F)), op.fresh = ∅ := by
  intro _ h; (repeat (cases h with | head => rfl | tail _ h => ?_)); exact nomatch h

/-- Operations 82 … 93 of the reference's @main, in order. -/
abbrev s8 : List (HloOp τ sig (Elt F)) :=
  binary main_v20 main_v60 main_v61 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)) ::
  unary main_v54 main_v62 (broadcastInDim S1700000x128 ![0, 1] bcast_S1700000x1_S1700000x128_0_1 : (⟨S1700000x1, .f32⟩ : BufTy).Contents (Elt F) → (⟨S1700000x128, .f32⟩ : BufTy).Contents (Elt F)) ::
  binary main_v62 main_v61 main_v63 (mulf : (⟨S1700000x128, .f32⟩ : BufTy).Contents (Elt F) → (⟨S1700000x128, .f32⟩ : BufTy).Contents (Elt F) → (⟨S1700000x128, .f32⟩ : BufTy).Contents (Elt F)) ::
  nullary main_cst_9 (constant S_ .f32 0x00000000#32) ::
  unary main_cst_9 main_v64 (broadcastInDim S100000x128 ![] bcast_S_S100000x128 : (⟨S_, .f32⟩ : BufTy).Contents (Elt F) → (⟨S100000x128, .f32⟩ : BufTy).Contents (Elt F)) ::
  unary main_v28 main_v65 (broadcastInDim S1700000x1 ![0] bcast_S1700000_S1700000x1_0 : (⟨S1700000, .i32⟩ : BufTy).Contents (Elt F) → (⟨S1700000x1, .i32⟩ : BufTy).Contents (Elt F)) ::
  ternary main_v64 main_v65 main_v63 main_v66 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)) ::
  unary main_arg17 main_v67 (broadcastInDim S1x128 ![1] bcast_S128_S1x128_1 : (⟨S128, .f32⟩ : BufTy).Contents (Elt F) → (⟨S1x128, .f32⟩ : BufTy).Contents (Elt F)) ::
  unary main_v67 main_v68 (broadcastInDim S100000x128 ![0, 1] bcast_S1x128_S100000x128_0_1 : (⟨S1x128, .f32⟩ : BufTy).Contents (Elt F) → (⟨S100000x128, .f32⟩ : BufTy).Contents (Elt F)) ::
  binary main_v66 main_v68 main_v69 (addf : (⟨S100000x128, .f32⟩ : BufTy).Contents (Elt F) → (⟨S100000x128, .f32⟩ : BufTy).Contents (Elt F) → (⟨S100000x128, .f32⟩ : BufTy).Contents (Elt F)) ::
  TRef.nullary (TRef.of (T := ⟨S_, .f32⟩) main_call5_cst) (constant S_ .f32 0x00000000#32) ::
  TRef.unary (TRef.of (T := ⟨S_, .f32⟩) main_call5_cst) (TRef.of (T := ⟨S100000x128, .f32⟩) main_call5_v0) (broadcastInDim S100000x128 ![] bcast_S_S100000x128) ::
  []
/-- The buffers those operations write. -/
abbrev w8 : List (Ref sig .tc) := [main_v61, main_v62, main_v63, main_cst_9, main_v64, main_v65, main_v66, main_v67, main_v68, main_v69, main_call5_cst, main_call5_v0]
theorem hW8 : (s8 (F := F)).Forall fun op => op.writes ⊆ ((w8.map (Proc.devRef (τ := τ) .tc)).toFinset) :=
  ⟨writes_sub_of_mem (y := main_v61) rfl (by decide),
   writes_sub_of_mem (y := main_v62) rfl (by decide),
   writes_sub_of_mem (y := main_v63) rfl (by decide),
   writes_sub_of_mem (y := main_cst_9) rfl (by decide),
   writes_sub_of_mem (y := main_v64) rfl (by decide),
   writes_sub_of_mem (y := main_v65) rfl (by decide),
   writes_sub_of_mem (y := main_v66) rfl (by decide),
   writes_sub_of_mem (y := main_v67) rfl (by decide),
   writes_sub_of_mem (y := main_v68) rfl (by decide),
   writes_sub_of_mem (y := main_v69) rfl (by decide),
   writes_sub_of_mem (y := main_call5_cst) rfl (by decide),
   writes_sub_of_mem (y := main_call5_v0) rfl (by decide)⟩
theorem keep8 (r : Ref sig .tc) (hr : r ∉ w8) (W : Valuation τ sig (Elt F)) :
    after s8 W (Proc.devRef .tc r) = W (Proc.devRef .tc r) := after_of_writes_sub s8 W hW8 hr
theorem sub8 : (s8 (F := F)).Forall fun op => op.bufs ⊆ tcRefs τ sig :=
  ⟨binary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub ..⟩
theorem fresh8 : ∀ op ∈ (s8 (F := F)), op.fresh = ∅ := by
  intro _ h; (repeat (cases h with | head => rfl | tail _ h => ?_)); exact nomatch h

/-- Operations 94 … 98 of the reference's @main, in order. -/
abbrev s9 : List (HloOp τ sig (Elt F)) :=
  TRef.binary (TRef.of (T := ⟨S100000x128, .f32⟩) main_v69) (TRef.of (T := ⟨S100000x128, .f32⟩) main_call5_v0) (TRef.of (T := ⟨S100000x128, .f32⟩) main_v70) maximumf ::
  binary main_v70 main_arg18 main_v71 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ::
  unary main_arg4 main_v72 ((extractStridedSlice S1x1600000 ![0, 0] · slices_S2x1600000_S1x1600000_0_0) : (⟨S2x1600000, .i32⟩ : BufTy).Contents (Elt F) → (⟨S1x1600000, .i32⟩ : BufTy).Contents (Elt F)) ::
  reshape main_v72 main_v73 rfl shapeCasts_S1x1600000_S1600000 ::
  nullary main_v74 (iotaInDim S100000 32 0) ::
  []
/-- The buffers those operations write. -/
abbrev w9 : List (Ref sig .tc) := [main_v70, main_v71, main_v72, main_v73, main_v74]
theorem hW9 : (s9 (F := F)).Forall fun op => op.writes ⊆ ((w9.map (Proc.devRef (τ := τ) .tc)).toFinset) :=
  ⟨writes_sub_of_mem (y := main_v70) rfl (by decide),
   writes_sub_of_mem (y := main_v71) rfl (by decide),
   writes_sub_of_mem (y := main_v72) rfl (by decide),
   writes_sub_of_mem (y := main_v73) rfl (by decide),
   writes_sub_of_mem (y := main_v74) rfl (by decide)⟩
theorem keep9 (r : Ref sig .tc) (hr : r ∉ w9) (W : Valuation τ sig (Elt F)) :
    after s9 W (Proc.devRef .tc r) = W (Proc.devRef .tc r) := after_of_writes_sub s9 W hW9 hr
theorem sub9 : (s9 (F := F)).Forall fun op => op.bufs ⊆ tcRefs τ sig :=
  ⟨binary_bufs_sub .., binary_bufs_sub .., unary_bufs_sub .., reshape_bufs_sub .., nullary_bufs_sub ..⟩
theorem fresh9 : ∀ op ∈ (s9 (F := F)), op.fresh = ∅ := by
  intro _ h; (repeat (cases h with | head => rfl | tail _ h => ?_)); exact nomatch h

/-- Operations 99 … 102 of the reference's @main, in order. -/
abbrev s10 : List (HloOp τ sig (Elt F)) :=
  binary main_v73 main_v74 main_v75 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) ::
  unary main_arg4 main_v76 ((extractStridedSlice S1x1600000 ![1, 0] · slices_S2x1600000_S1x1600000_1_0) : (⟨S2x1600000, .i32⟩ : BufTy).Contents (Elt F) → (⟨S1x1600000, .i32⟩ : BufTy).Contents (Elt F)) ::
  reshape main_v76 main_v77 rfl shapeCasts_S1x1600000_S1600000 ::
  nullary main_v78 (iotaInDim S100000 32 0) ::
  []
/-- The buffers those operations write. -/
abbrev w10 : List (Ref sig .tc) := [main_v75, main_v76, main_v77, main_v78]
theorem hW10 : (s10 (F := F)).Forall fun op => op.writes ⊆ ((w10.map (Proc.devRef (τ := τ) .tc)).toFinset) :=
  ⟨writes_sub_of_mem (y := main_v75) rfl (by decide),
   writes_sub_of_mem (y := main_v76) rfl (by decide),
   writes_sub_of_mem (y := main_v77) rfl (by decide),
   writes_sub_of_mem (y := main_v78) rfl (by decide)⟩
theorem keep10 (r : Ref sig .tc) (hr : r ∉ w10) (W : Valuation τ sig (Elt F)) :
    after s10 W (Proc.devRef .tc r) = W (Proc.devRef .tc r) := after_of_writes_sub s10 W hW10 hr
theorem sub10 : (s10 (F := F)).Forall fun op => op.bufs ⊆ tcRefs τ sig :=
  ⟨binary_bufs_sub .., unary_bufs_sub .., reshape_bufs_sub .., nullary_bufs_sub ..⟩
theorem fresh10 : ∀ op ∈ (s10 (F := F)), op.fresh = ∅ := by
  intro _ h; (repeat (cases h with | head => rfl | tail _ h => ?_)); exact nomatch h

/-- Operations 103 … 114 of the reference's @main, in order. -/
abbrev s11 : List (HloOp τ sig (Elt F)) :=
  binary main_v77 main_v78 main_v79 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) ::
  nullary main_cst_10 (constant S_ .f32 0x3F800000#32) ::
  unary main_cst_10 main_v80 (broadcastInDim S1700000 ![] bcast_S_S1700000 : (⟨S_, .f32⟩ : BufTy).Contents (Elt F) → (⟨S1700000, .f32⟩ : BufTy).Contents (Elt F)) ::
  nullary main_cst_11 (constant S_ .f32 0x00000000#32) ::
  unary main_cst_11 main_v81 (broadcastInDim S100000 ![] bcast_S_S100000 : (⟨S_, .f32⟩ : BufTy).Contents (Elt F) → (⟨S100000, .f32⟩ : BufTy).Contents (Elt F)) ::
  unary main_v79 main_v82 (broadcastInDim S1700000x1 ![0] bcast_S1700000_S1700000x1_0 : (⟨S1700000, .i32⟩ : BufTy).Contents (Elt F) → (⟨S1700000x1, .i32⟩ : BufTy).Contents (Elt F)) ::
  ternary main_v81 main_v82 main_v80 main_v83 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)) ::
  nullary main_cst_12 (constant S_ .f32 0x00000000#32) ::
  unary main_cst_12 main_v84 (broadcastInDim S100000 ![] bcast_S_S100000 : (⟨S_, .f32⟩ : BufTy).Contents (Elt F) → (⟨S100000, .f32⟩ : BufTy).Contents (Elt F)) ::
  binary main_v83 main_v84 main_v85 (cmpf .ogt : (⟨S100000, .f32⟩ : BufTy).Contents (Elt F) → (⟨S100000, .f32⟩ : BufTy).Contents (Elt F) → (⟨S100000, .i1⟩ : BufTy).Contents (Elt F)) ::
  nullary main_cst_13 (constant S_ .f32 0x2B8CBCCC#32) ::
  unary main_cst_13 main_v86 (broadcastInDim S100000 ![] bcast_S_S100000 : (⟨S_, .f32⟩ : BufTy).Contents (Elt F) → (⟨S100000, .f32⟩ : BufTy).Contents (Elt F)) ::
  []
/-- The buffers those operations write. -/
abbrev w11 : List (Ref sig .tc) := [main_v79, main_cst_10, main_v80, main_cst_11, main_v81, main_v82, main_v83, main_cst_12, main_v84, main_v85, main_cst_13, main_v86]
theorem hW11 : (s11 (F := F)).Forall fun op => op.writes ⊆ ((w11.map (Proc.devRef (τ := τ) .tc)).toFinset) :=
  ⟨writes_sub_of_mem (y := main_v79) rfl (by decide),
   writes_sub_of_mem (y := main_cst_10) rfl (by decide),
   writes_sub_of_mem (y := main_v80) rfl (by decide),
   writes_sub_of_mem (y := main_cst_11) rfl (by decide),
   writes_sub_of_mem (y := main_v81) rfl (by decide),
   writes_sub_of_mem (y := main_v82) rfl (by decide),
   writes_sub_of_mem (y := main_v83) rfl (by decide),
   writes_sub_of_mem (y := main_cst_12) rfl (by decide),
   writes_sub_of_mem (y := main_v84) rfl (by decide),
   writes_sub_of_mem (y := main_v85) rfl (by decide),
   writes_sub_of_mem (y := main_cst_13) rfl (by decide),
   writes_sub_of_mem (y := main_v86) rfl (by decide)⟩
theorem keep11 (r : Ref sig .tc) (hr : r ∉ w11) (W : Valuation τ sig (Elt F)) :
    after s11 W (Proc.devRef .tc r) = W (Proc.devRef .tc r) := after_of_writes_sub s11 W hW11 hr
theorem sub11 : (s11 (F := F)).Forall fun op => op.bufs ⊆ tcRefs τ sig :=
  ⟨binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub ..⟩
theorem fresh11 : ∀ op ∈ (s11 (F := F)), op.fresh = ∅ := by
  intro _ h; (repeat (cases h with | head => rfl | tail _ h => ?_)); exact nomatch h

/-- Operations 115 … 126 of the reference's @main, in order. -/
abbrev s12 : List (HloOp τ sig (Elt F)) :=
  binary main_v83 main_v86 main_v87 (maximumf : (⟨S100000, .f32⟩ : BufTy).Contents (Elt F) → (⟨S100000, .f32⟩ : BufTy).Contents (Elt F) → (⟨S100000, .f32⟩ : BufTy).Contents (Elt F)) ::
  unary main_v87 main_v88 (Host.rsqrt : (⟨S100000, .f32⟩ : BufTy).Contents (Elt F) → (⟨S100000, .f32⟩ : BufTy).Contents (Elt F)) ::
  nullary main_cst_14 (constant S_ .f32 0x00000000#32) ::
  TRef.unary (TRef.of (T := ⟨S_, .f32⟩) main_cst_14) (TRef.of (T := ⟨S_, .f32⟩) main_call6_v0) id ::
  TRef.unary (TRef.of (T := ⟨S_, .f32⟩) main_call6_v0) (TRef.of (T := ⟨S100000, .f32⟩) main_call6_v1) (broadcastInDim S100000 ![] bcast_S_S100000) ::
  TRef.ternary (TRef.of (T := ⟨S100000, .i1⟩) main_v85) (TRef.of (T := ⟨S100000, .f32⟩) main_v88) (TRef.of (T := ⟨S100000, .f32⟩) main_call6_v1) (TRef.of (T := ⟨S100000, .f32⟩) main_v89) select ::
  nullary main_c_15 (constantI S_ 32 0#32) ::
  unary main_c_15 main_v90 (broadcastInDim S1700000 ![] bcast_S_S1700000 : (⟨S_, .i32⟩ : BufTy).Contents (Elt F) → (⟨S1700000, .i32⟩ : BufTy).Contents (Elt F)) ::
  binary main_v75 main_v90 main_v91 (cmpi .slt : (⟨S1700000, .i32⟩ : BufTy).Contents (Elt F) → (⟨S1700000, .i32⟩ : BufTy).Contents (Elt F) → (⟨S1700000, .i1⟩ : BufTy).Contents (Elt F)) ::
  nullary main_c_16 (constantI S_ 32 100000#32) ::
  unary main_c_16 main_v92 (broadcastInDim S1700000 ![] bcast_S_S1700000 : (⟨S_, .i32⟩ : BufTy).Contents (Elt F) → (⟨S1700000, .i32⟩ : BufTy).Contents (Elt F)) ::
  binary main_v75 main_v92 main_v93 (addi : (⟨S1700000, .i32⟩ : BufTy).Contents (Elt F) → (⟨S1700000, .i32⟩ : BufTy).Contents (Elt F) → (⟨S1700000, .i32⟩ : BufTy).Contents (Elt F)) ::
  []
/-- The buffers those operations write. -/
abbrev w12 : List (Ref sig .tc) := [main_v87, main_v88, main_cst_14, main_call6_v0, main_call6_v1, main_v89, main_c_15, main_v90, main_v91, main_c_16, main_v92, main_v93]
theorem hW12 : (s12 (F := F)).Forall fun op => op.writes ⊆ ((w12.map (Proc.devRef (τ := τ) .tc)).toFinset) :=
  ⟨writes_sub_of_mem (y := main_v87) rfl (by decide),
   writes_sub_of_mem (y := main_v88) rfl (by decide),
   writes_sub_of_mem (y := main_cst_14) rfl (by decide),
   writes_sub_of_mem (y := main_call6_v0) rfl (by decide),
   writes_sub_of_mem (y := main_call6_v1) rfl (by decide),
   writes_sub_of_mem (y := main_v89) rfl (by decide),
   writes_sub_of_mem (y := main_c_15) rfl (by decide),
   writes_sub_of_mem (y := main_v90) rfl (by decide),
   writes_sub_of_mem (y := main_v91) rfl (by decide),
   writes_sub_of_mem (y := main_c_16) rfl (by decide),
   writes_sub_of_mem (y := main_v92) rfl (by decide),
   writes_sub_of_mem (y := main_v93) rfl (by decide)⟩
theorem keep12 (r : Ref sig .tc) (hr : r ∉ w12) (W : Valuation τ sig (Elt F)) :
    after s12 W (Proc.devRef .tc r) = W (Proc.devRef .tc r) := after_of_writes_sub s12 W hW12 hr
theorem sub12 : (s12 (F := F)).Forall fun op => op.bufs ⊆ tcRefs τ sig :=
  ⟨binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub ..⟩
theorem fresh12 : ∀ op ∈ (s12 (F := F)), op.fresh = ∅ := by
  intro _ h; (repeat (cases h with | head => rfl | tail _ h => ?_)); exact nomatch h

/-- Operations 127 … 133 of the reference's @main, in order. -/
abbrev s13 : List (HloOp τ sig (Elt F)) :=
  ternary main_v91 main_v93 main_v75 main_v94 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)) ::
  unary main_v94 main_v95 (broadcastInDim S1700000x1 ![0] bcast_S1700000_S1700000x1_0 : (⟨S1700000, .i32⟩ : BufTy).Contents (Elt F) → (⟨S1700000x1, .i32⟩ : BufTy).Contents (Elt F)) ::
  binary main_v89 main_v95 main_v96 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)) ::
  nullary main_c_17 (constantI S_ 32 0#32) ::
  unary main_c_17 main_v97 (broadcastInDim S1700000 ![] bcast_S_S1700000 : (⟨S_, .i32⟩ : BufTy).Contents (Elt F) → (⟨S1700000, .i32⟩ : BufTy).Contents (Elt F)) ::
  binary main_v79 main_v97 main_v98 (cmpi .slt : (⟨S1700000, .i32⟩ : BufTy).Contents (Elt F) → (⟨S1700000, .i32⟩ : BufTy).Contents (Elt F) → (⟨S1700000, .i1⟩ : BufTy).Contents (Elt F)) ::
  nullary main_c_18 (constantI S_ 32 100000#32) ::
  []
/-- The buffers those operations write. -/
abbrev w13 : List (Ref sig .tc) := [main_v94, main_v95, main_v96, main_c_17, main_v97, main_v98, main_c_18]
theorem hW13 : (s13 (F := F)).Forall fun op => op.writes ⊆ ((w13.map (Proc.devRef (τ := τ) .tc)).toFinset) :=
  ⟨writes_sub_of_mem (y := main_v94) rfl (by decide),
   writes_sub_of_mem (y := main_v95) rfl (by decide),
   writes_sub_of_mem (y := main_v96) rfl (by decide),
   writes_sub_of_mem (y := main_c_17) rfl (by decide),
   writes_sub_of_mem (y := main_v97) rfl (by decide),
   writes_sub_of_mem (y := main_v98) rfl (by decide),
   writes_sub_of_mem (y := main_c_18) rfl (by decide)⟩
theorem keep13 (r : Ref sig .tc) (hr : r ∉ w13) (W : Valuation τ sig (Elt F)) :
    after s13 W (Proc.devRef .tc r) = W (Proc.devRef .tc r) := after_of_writes_sub s13 W hW13 hr
theorem sub13 : (s13 (F := F)).Forall fun op => op.bufs ⊆ tcRefs τ sig :=
  ⟨ternary_bufs_sub .., unary_bufs_sub .., binary_bufs_sub .., nullary_bufs_sub .., unary_bufs_sub .., binary_bufs_sub .., nullary_bufs_sub ..⟩
theorem fresh13 : ∀ op ∈ (s13 (F := F)), op.fresh = ∅ := by
  intro _ h; (repeat (cases h with | head => rfl | tail _ h => ?_)); exact nomatch h

/-- Statements 1 … of the reference's @main (its window 0), as one line of operations. -/
abbrev opsP0 : List (HloOp τ sig (Elt F)) := s0 ++ (s1 ++ (s2 ++ (s3 ++ (s4 ++ (s5 ++ (s6))))))
theorem subP0 : (opsP0 (F := F)).Forall fun op => op.bufs ⊆ tcRefs τ sig :=
  forall_append' sub0 (forall_append' sub1 (forall_append' sub2 (forall_append' sub3 (forall_append' sub4 (forall_append' sub5 (sub6))))))
theorem freshP0 : ∀ op ∈ (opsP0 (F := F)), op.fresh = ∅ :=
  fresh_append fresh0 (fresh_append fresh1 (fresh_append fresh2 (fresh_append fresh3 (fresh_append fresh4 (fresh_append fresh5 (fresh6))))))
set_option maxRecDepth 8192 in
set_option maxHeartbeats 4000000 in
theorem part0_eq (c : Dev nD) : main_part0 (F := F) c = seq opsP0 := rfl

/-- Statements 61 … of the reference's @main (its window 1), as one line of operations. -/
abbrev opsP1 : List (HloOp τ sig (Elt F)) := s7 ++ (s8 ++ (s9 ++ (s10 ++ (s11 ++ (s12 ++ (s13))))))
theorem subP1 : (opsP1 (F := F)).Forall fun op => op.bufs ⊆ tcRefs τ sig :=
  forall_append' sub7 (forall_append' sub8 (forall_append' sub9 (forall_append' sub10 (forall_append' sub11 (forall_append' sub12 (sub13))))))
theorem freshP1 : ∀ op ∈ (opsP1 (F := F)), op.fresh = ∅ :=
  fresh_append fresh7 (fresh_append fresh8 (fresh_append fresh9 (fresh_append fresh10 (fresh_append fresh11 (fresh_append fresh12 (fresh13))))))
set_option maxRecDepth 8192 in
set_option maxHeartbeats 4000000 in
theorem part1_eq (c : Dev nD) : main_part1 (F := F) c = seq opsP1 := rfl

end Cert.Proof.RefSide

end
-- ==== Proof.RefOpsB.lean ====
/- The reference's @main as lines of host operations, cut into short stretches; for each stretch the buffers it
   writes, that it writes no others, and that it touches TensorCore buffers only. -/
import proofs.«161272_j16312285791078_1_alg».proof.Proof.Gen.ReferenceIdeal
import Idealize.ShloMosaic.Lib.StableHlo.Run
import proofs.«161272_j16312285791078_1_alg».proof.Proof.RefLib

noncomputable section

namespace Cert.Proof.RefSide

open Cert.ReferenceIdeal Cert.ReferenceIdeal.Gen Idealize.ShloMosaic Idealize.ShloMosaic.TcCoe Idealize.SL.Sem Idealize.ShloMosaic.StableHlo

variable {F : FTy → Type} [FloatOps F]
/-- Operations 134 … 145 of the reference's @main, in order. -/
abbrev s14 : List (HloOp τ sig (Elt F)) :=
  unary main_c_18 main_v99 (broadcastInDim S1700000 ![] bcast_S_S1700000 : (⟨S_, .i32⟩ : BufTy).Contents (Elt F) → (⟨S1700000, .i32⟩ : BufTy).Contents (Elt F)) ::
  binary main_v79 main_v99 main_v100 (addi : (⟨S1700000, .i32⟩ : BufTy).Contents (Elt F) → (⟨S1700000, .i32⟩ : BufTy).Contents (Elt F) → (⟨S1700000, .i32⟩ : BufTy).Contents (Elt F)) ::
  ternary main_v98 main_v100 main_v79 main_v101 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)) ::
  unary main_v101 main_v102 (broadcastInDim S1700000x1 ![0] bcast_S1700000_S1700000x1_0 : (⟨S1700000, .i32⟩ : BufTy).Contents (Elt F) → (⟨S1700000x1, .i32⟩ : BufTy).Contents (Elt F)) ::
  binary main_v89 main_v102 main_v103 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)) ::
  binary main_v96 main_v103 main_v104 (mulf : (⟨S1700000, .f32⟩ : BufTy).Contents (Elt F) → (⟨S1700000, .f32⟩ : BufTy).Contents (Elt F) → (⟨S1700000, .f32⟩ : BufTy).Contents (Elt F)) ::
  unary main_v104 main_v105 (broadcastInDim S1700000x1 ![0] bcast_S1700000_S1700000x1_0 : (⟨S1700000, .f32⟩ : BufTy).Contents (Elt F) → (⟨S1700000x1, .f32⟩ : BufTy).Contents (Elt F)) ::
  nullary main_c_19 (constantI S_ 32 0#32) ::
  unary main_c_19 main_v106 (broadcastInDim S1700000 ![] bcast_S_S1700000 : (⟨S_, .i32⟩ : BufTy).Contents (Elt F) → (⟨S1700000, .i32⟩ : BufTy).Contents (Elt F)) ::
  binary main_v75 main_v106 main_v107 (cmpi .slt : (⟨S1700000, .i32⟩ : BufTy).Contents (Elt F) → (⟨S1700000, .i32⟩ : BufTy).Contents (Elt F) → (⟨S1700000, .i1⟩ : BufTy).Contents (Elt F)) ::
  nullary main_c_20 (constantI S_ 32 100000#32) ::
  unary main_c_20 main_v108 (broadcastInDim S1700000 ![] bcast_S_S1700000 : (⟨S_, .i32⟩ : BufTy).Contents (Elt F) → (⟨S1700000, .i32⟩ : BufTy).Contents (Elt F)) ::
  []
/-- The buffers those operations write. -/
abbrev w14 : List (Ref sig .tc) := [main_v99, main_v100, main_v101, main_v102, main_v103, main_v104, main_v105, main_c_19, main_v106, main_v107, main_c_20, main_v108]
theorem hW14 : (s14 (F := F)).Forall fun op => op.writes ⊆ ((w14.map (Proc.devRef (τ := τ) .tc)).toFinset) :=
  ⟨writes_sub_of_mem (y := main_v99) rfl (by decide),
   writes_sub_of_mem (y := main_v100) rfl (by decide),
   writes_sub_of_mem (y := main_v101) rfl (by decide),
   writes_sub_of_mem (y := main_v102) rfl (by decide),
   writes_sub_of_mem (y := main_v103) rfl (by decide),
   writes_sub_of_mem (y := main_v104) rfl (by decide),
   writes_sub_of_mem (y := main_v105) rfl (by decide),
   writes_sub_of_mem (y := main_c_19) rfl (by decide),
   writes_sub_of_mem (y := main_v106) rfl (by decide),
   writes_sub_of_mem (y := main_v107) rfl (by decide),
   writes_sub_of_mem (y := main_c_20) rfl (by decide),
   writes_sub_of_mem (y := main_v108) rfl (by decide)⟩
theorem keep14 (r : Ref sig .tc) (hr : r ∉ w14) (W : Valuation τ sig (Elt F)) :
    after s14 W (Proc.devRef .tc r) = W (Proc.devRef .tc r) := after_of_writes_sub s14 W hW14 hr
theorem sub14 : (s14 (F := F)).Forall fun op => op.bufs ⊆ tcRefs τ sig :=
  ⟨unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub ..⟩
theorem fresh14 : ∀ op ∈ (s14 (F := F)), op.fresh = ∅ := by
  intro _ h; (repeat (cases h with | head => rfl | tail _ h => ?_)); exact nomatch h

/-- Operations 146 … 157 of the reference's @main, in order. -/
abbrev s15 : List (HloOp τ sig (Elt F)) :=
  binary main_v75 main_v108 main_v109 (addi : (⟨S1700000, .i32⟩ : BufTy).Contents (Elt F) → (⟨S1700000, .i32⟩ : BufTy).Contents (Elt F) → (⟨S1700000, .i32⟩ : BufTy).Contents (Elt F)) ::
  ternary main_v107 main_v109 main_v75 main_v110 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)) ::
  unary main_v110 main_v111 (broadcastInDim S1700000x1 ![0] bcast_S1700000_S1700000x1_0 : (⟨S1700000, .i32⟩ : BufTy).Contents (Elt F) → (⟨S1700000x1, .i32⟩ : BufTy).Contents (Elt F)) ::
  binary main_v71 main_v111 main_v112 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)) ::
  unary main_v105 main_v113 (broadcastInDim S1700000x128 ![0, 1] bcast_S1700000x1_S1700000x128_0_1 : (⟨S1700000x1, .f32⟩ : BufTy).Contents (Elt F) → (⟨S1700000x128, .f32⟩ : BufTy).Contents (Elt F)) ::
  binary main_v113 main_v112 main_v114 (mulf : (⟨S1700000x128, .f32⟩ : BufTy).Contents (Elt F) → (⟨S1700000x128, .f32⟩ : BufTy).Contents (Elt F) → (⟨S1700000x128, .f32⟩ : BufTy).Contents (Elt F)) ::
  nullary main_cst_21 (constant S_ .f32 0x00000000#32) ::
  unary main_cst_21 main_v115 (broadcastInDim S100000x128 ![] bcast_S_S100000x128 : (⟨S_, .f32⟩ : BufTy).Contents (Elt F) → (⟨S100000x128, .f32⟩ : BufTy).Contents (Elt F)) ::
  unary main_v79 main_v116 (broadcastInDim S1700000x1 ![0] bcast_S1700000_S1700000x1_0 : (⟨S1700000, .i32⟩ : BufTy).Contents (Elt F) → (⟨S1700000x1, .i32⟩ : BufTy).Contents (Elt F)) ::
  ternary main_v115 main_v116 main_v114 main_v117 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)) ::
  unary main_arg19 main_v118 (broadcastInDim S1x128 ![1] bcast_S128_S1x128_1 : (⟨S128, .f32⟩ : BufTy).Contents (Elt F) → (⟨S1x128, .f32⟩ : BufTy).Contents (Elt F)) ::
  unary main_v118 main_v119 (broadcastInDim S100000x128 ![0, 1] bcast_S1x128_S100000x128_0_1 : (⟨S1x128, .f32⟩ : BufTy).Contents (Elt F) → (⟨S100000x128, .f32⟩ : BufTy).Contents (Elt F)) ::
  []
/-- The buffers those operations write. -/
abbrev w15 : List (Ref sig .tc) := [main_v109, main_v110, main_v111, main_v112, main_v113, main_v114, main_cst_21, main_v115, main_v116, main_v117, main_v118, main_v119]
theorem hW15 : (s15 (F := F)).Forall fun op => op.writes ⊆ ((w15.map (Proc.devRef (τ := τ) .tc)).toFinset) :=
  ⟨writes_sub_of_mem (y := main_v109) rfl (by decide),
   writes_sub_of_mem (y := main_v110) rfl (by decide),
   writes_sub_of_mem (y := main_v111) rfl (by decide),
   writes_sub_of_mem (y := main_v112) rfl (by decide),
   writes_sub_of_mem (y := main_v113) rfl (by decide),
   writes_sub_of_mem (y := main_v114) rfl (by decide),
   writes_sub_of_mem (y := main_cst_21) rfl (by decide),
   writes_sub_of_mem (y := main_v115) rfl (by decide),
   writes_sub_of_mem (y := main_v116) rfl (by decide),
   writes_sub_of_mem (y := main_v117) rfl (by decide),
   writes_sub_of_mem (y := main_v118) rfl (by decide),
   writes_sub_of_mem (y := main_v119) rfl (by decide)⟩
theorem keep15 (r : Ref sig .tc) (hr : r ∉ w15) (W : Valuation τ sig (Elt F)) :
    after s15 W (Proc.devRef .tc r) = W (Proc.devRef .tc r) := after_of_writes_sub s15 W hW15 hr
theorem sub15 : (s15 (F := F)).Forall fun op => op.bufs ⊆ tcRefs τ sig :=
  ⟨binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub ..⟩
theorem fresh15 : ∀ op ∈ (s15 (F := F)), op.fresh = ∅ := by
  intro _ h; (repeat (cases h with | head => rfl | tail _ h => ?_)); exact nomatch h

/-- Operations 158 … 169 of the reference's @main, in order. -/
abbrev s16 : List (HloOp τ sig (Elt F)) :=
  binary main_v117 main_v119 main_v120 (addf : (⟨S100000x128, .f32⟩ : BufTy).Contents (Elt F) → (⟨S100000x128, .f32⟩ : BufTy).Contents (Elt F) → (⟨S100000x128, .f32⟩ : BufTy).Contents (Elt F)) ::
  TRef.nullary (TRef.of (T := ⟨S_, .f32⟩) main_call7_cst) (constant S_ .f32 0x00000000#32) ::
  TRef.unary (TRef.of (T := ⟨S_, .f32⟩) main_call7_cst) (TRef.of (T := ⟨S100000x128, .f32⟩) main_call7_v0) (broadcastInDim S100000x128 ![] bcast_S_S100000x128) ::
  TRef.binary (TRef.of (T := ⟨S100000x128, .f32⟩) main_v120) (TRef.of (T := ⟨S100000x128, .f32⟩) main_call7_v0) (TRef.of (T := ⟨S100000x128, .f32⟩) main_v121) maximumf ::
  nullary main_cst_22 (constant S_ .f32 0x00000000#32) ::
  unary main_cst_22 main_v122 (broadcastInDim S64x128 ![] bcast_S_S64x128 : (⟨S_, .f32⟩ : BufTy).Contents (Elt F) → (⟨S64x128, .f32⟩ : BufTy).Contents (Elt F)) ::
  unary main_arg5 main_v123 (broadcastInDim S100000x1 ![0] bcast_S100000_S100000x1_0 : (⟨S100000, .i32⟩ : BufTy).Contents (Elt F) → (⟨S100000x1, .i32⟩ : BufTy).Contents (Elt F)) ::
  ternary main_v122 main_v123 main_v121 main_v124 ((fun x i u => Host.scatterAdd scatter_S64x128_S100000x1_S100000x128_1_0_0_1 x i u) : (⟨S64x128, .f32⟩ : BufTy).Contents (Elt F) → (⟨S100000x1, .i32⟩ : BufTy).Contents (Elt F) → (⟨S100000x128, .f32⟩ : BufTy).Contents (Elt F) → (⟨S64x128, .f32⟩ : BufTy).Contents (Elt F)) ::
  nullary main_cst_23 (constant S_ .f32 0x3F800000#32) ::
  unary main_cst_23 main_v125 (broadcastInDim S100000 ![] bcast_S_S100000 : (⟨S_, .f32⟩ : BufTy).Contents (Elt F) → (⟨S100000, .f32⟩ : BufTy).Contents (Elt F)) ::
  nullary main_cst_24 (constant S_ .f32 0x00000000#32) ::
  unary main_cst_24 main_v126 (broadcastInDim S64 ![] bcast_S_S64 : (⟨S_, .f32⟩ : BufTy).Contents (Elt F) → (⟨S64, .f32⟩ : BufTy).Contents (Elt F)) ::
  []
/-- The buffers those operations write. -/
abbrev w16 : List (Ref sig .tc) := [main_v120, main_call7_cst, main_call7_v0, main_v121, main_cst_22, main_v122, main_v123, main_v124, main_cst_23, main_v125, main_cst_24, main_v126]
theorem hW16 : (s16 (F := F)).Forall fun op => op.writes ⊆ ((w16.map (Proc.devRef (τ := τ) .tc)).toFinset) :=
  ⟨writes_sub_of_mem (y := main_v120) rfl (by decide),
   writes_sub_of_mem (y := main_call7_cst) rfl (by decide),
   writes_sub_of_mem (y := main_call7_v0) rfl (by decide),
   writes_sub_of_mem (y := main_v121) rfl (by decide),
   writes_sub_of_mem (y := main_cst_22) rfl (by decide),
   writes_sub_of_mem (y := main_v122) rfl (by decide),
   writes_sub_of_mem (y := main_v123) rfl (by decide),
   writes_sub_of_mem (y := main_v124) rfl (by decide),
   writes_sub_of_mem (y := main_cst_23) rfl (by decide),
   writes_sub_of_mem (y := main_v125) rfl (by decide),
   writes_sub_of_mem (y := main_cst_24) rfl (by decide),
   writes_sub_of_mem (y := main_v126) rfl (by decide)⟩
theorem keep16 (r : Ref sig .tc) (hr : r ∉ w16) (W : Valuation τ sig (Elt F)) :
    after s16 W (Proc.devRef .tc r) = W (Proc.devRef .tc r) := after_of_writes_sub s16 W hW16 hr
theorem sub16 : (s16 (F := F)).Forall fun op => op.bufs ⊆ tcRefs τ sig :=
  ⟨binary_bufs_sub .., nullary_bufs_sub .., unary_bufs_sub .., binary_bufs_sub .., nullary_bufs_sub .., unary_bufs_sub .., unary_bufs_sub .., ternary_bufs_sub .., nullary_bufs_sub .., unary_bufs_sub .., nullary_bufs_sub .., unary_bufs_sub ..⟩
theorem fresh16 : ∀ op ∈ (s16 (F := F)), op.fresh = ∅ := by
  intro _ h; (repeat (cases h with | head => rfl | tail _ h => ?_)); exact nomatch h

/-- Operations 170 … 181 of the reference's @main, in order. -/
abbrev s17 : List (HloOp τ sig (Elt F)) :=
  unary main_arg5 main_v127 (broadcastInDim S100000x1 ![0] bcast_S100000_S100000x1_0 : (⟨S100000, .i32⟩ : BufTy).Contents (Elt F) → (⟨S100000x1, .i32⟩ : BufTy).Contents (Elt F)) ::
  ternary main_v126 main_v127 main_v125 main_v128 ((fun x i u => Host.scatterAdd scatter_S64_S100000x1_S100000_n_0_0_1 x i u) : (⟨S64, .f32⟩ : BufTy).Contents (Elt F) → (⟨S100000x1, .i32⟩ : BufTy).Contents (Elt F) → (⟨S100000, .f32⟩ : BufTy).Contents (Elt F) → (⟨S64, .f32⟩ : BufTy).Contents (Elt F)) ::
  nullary main_cst_25 (constant S_ .f32 0x3F800000#32) ::
  unary main_cst_25 main_v129 (broadcastInDim S64 ![] bcast_S_S64 : (⟨S_, .f32⟩ : BufTy).Contents (Elt F) → (⟨S64, .f32⟩ : BufTy).Contents (Elt F)) ::
  binary main_v128 main_v129 main_v130 (maximumf : (⟨S64, .f32⟩ : BufTy).Contents (Elt F) → (⟨S64, .f32⟩ : BufTy).Contents (Elt F) → (⟨S64, .f32⟩ : BufTy).Contents (Elt F)) ::
  unary main_v130 main_v131 (broadcastInDim S64x1 ![0] bcast_S64_S64x1_0 : (⟨S64, .f32⟩ : BufTy).Contents (Elt F) → (⟨S64x1, .f32⟩ : BufTy).Contents (Elt F)) ::
  unary main_v131 main_v132 (broadcastInDim S64x128 ![0, 1] bcast_S64x1_S64x128_0_1 : (⟨S64x1, .f32⟩ : BufTy).Contents (Elt F) → (⟨S64x128, .f32⟩ : BufTy).Contents (Elt F)) ::
  binary main_v124 main_v132 main_v133 (Host.divf : (⟨S64x128, .f32⟩ : BufTy).Contents (Elt F) → (⟨S64x128, .f32⟩ : BufTy).Contents (Elt F) → (⟨S64x128, .f32⟩ : BufTy).Contents (Elt F)) ::
  binary main_arg3 main_arg20 main_v134 ((fun l r => Host.dotGeneral dot_S4096x9_S9x128_S4096x128_1_0_0_1_n_n none l r) : (⟨S4096x9, .f32⟩ : BufTy).Contents (Elt F) → (⟨S9x128, .f32⟩ : BufTy).Contents (Elt F) → (⟨S4096x128, .f32⟩ : BufTy).Contents (Elt F)) ::
  unary main_arg6 main_v135 ((extractStridedSlice S1x16384 ![0, 0] · slices_S2x16384_S1x16384_0_0) : (⟨S2x16384, .i32⟩ : BufTy).Contents (Elt F) → (⟨S1x16384, .i32⟩ : BufTy).Contents (Elt F)) ::
  reshape main_v135 main_v136 rfl shapeCasts_S1x16384_S16384 ::
  nullary main_v137 (iotaInDim S4096 32 0) ::
  []
/-- The buffers those operations write. -/
abbrev w17 : List (Ref sig .tc) := [main_v127, main_v128, main_cst_25, main_v129, main_v130, main_v131, main_v132, main_v133, main_v134, main_v135, main_v136, main_v137]
theorem hW17 : (s17 (F := F)).Forall fun op => op.writes ⊆ ((w17.map (Proc.devRef (τ := τ) .tc)).toFinset) :=
  ⟨writes_sub_of_mem (y := main_v127) rfl (by decide),
   writes_sub_of_mem (y := main_v128) rfl (by decide),
   writes_sub_of_mem (y := main_cst_25) rfl (by decide),
   writes_sub_of_mem (y := main_v129) rfl (by decide),
   writes_sub_of_mem (y := main_v130) rfl (by decide),
   writes_sub_of_mem (y := main_v131) rfl (by decide),
   writes_sub_of_mem (y := main_v132) rfl (by decide),
   writes_sub_of_mem (y := main_v133) rfl (by decide),
   writes_sub_of_mem (y := main_v134) rfl (by decide),
   writes_sub_of_mem (y := main_v135) rfl (by decide),
   writes_sub_of_mem (y := main_v136) rfl (by decide),
   writes_sub_of_mem (y := main_v137) rfl (by decide)⟩
theorem keep17 (r : Ref sig .tc) (hr : r ∉ w17) (W : Valuation τ sig (Elt F)) :
    after s17 W (Proc.devRef .tc r) = W (Proc.devRef .tc r) := after_of_writes_sub s17 W hW17 hr
theorem sub17 : (s17 (F := F)).Forall fun op => op.bufs ⊆ tcRefs τ sig :=
  ⟨unary_bufs_sub .., ternary_bufs_sub .., nullary_bufs_sub .., unary_bufs_sub .., binary_bufs_sub .., unary_bufs_sub .., unary_bufs_sub .., binary_bufs_sub .., binary_bufs_sub .., unary_bufs_sub .., reshape_bufs_sub .., nullary_bufs_sub ..⟩
theorem fresh17 : ∀ op ∈ (s17 (F := F)), op.fresh = ∅ := by
  intro _ h; (repeat (cases h with | head => rfl | tail _ h => ?_)); exact nomatch h

/-- Operations 182 … 185 of the reference's @main, in order. -/
abbrev s18 : List (HloOp τ sig (Elt F)) :=
  binary main_v136 main_v137 main_v138 ((fun a b => concatenate S20480 0 [⟨S16384, a⟩, ⟨S4096, b⟩] concatenates_S16384_S4096_S20480_d0) : (⟨S16384, .i32⟩ : BufTy).Contents (Elt F) → (⟨S4096, .i32⟩ : BufTy).Contents (Elt F) → (⟨S20480, .i32⟩ : BufTy).Contents (Elt F)) ::
  unary main_arg6 main_v139 ((extractStridedSlice S1x16384 ![1, 0] · slices_S2x16384_S1x16384_1_0) : (⟨S2x16384, .i32⟩ : BufTy).Contents (Elt F) → (⟨S1x16384, .i32⟩ : BufTy).Contents (Elt F)) ::
  reshape main_v139 main_v140 rfl shapeCasts_S1x16384_S16384 ::
  nullary main_v141 (iotaInDim S4096 32 0) ::
  []
/-- The buffers those operations write. -/
abbrev w18 : List (Ref sig .tc) := [main_v138, main_v139, main_v140, main_v141]
theorem hW18 : (s18 (F := F)).Forall fun op => op.writes ⊆ ((w18.map (Proc.devRef (τ := τ) .tc)).toFinset) :=
  ⟨writes_sub_of_mem (y := main_v138) rfl (by decide),
   writes_sub_of_mem (y := main_v139) rfl (by decide),
   writes_sub_of_mem (y := main_v140) rfl (by decide),
   writes_sub_of_mem (y := main_v141) rfl (by decide)⟩
theorem keep18 (r : Ref sig .tc) (hr : r ∉ w18) (W : Valuation τ sig (Elt F)) :
    after s18 W (Proc.devRef .tc r) = W (Proc.devRef .tc r) := after_of_writes_sub s18 W hW18 hr
theorem sub18 : (s18 (F := F)).Forall fun op => op.bufs ⊆ tcRefs τ sig :=
  ⟨binary_bufs_sub .., unary_bufs_sub .., reshape_bufs_sub .., nullary_bufs_sub ..⟩
theorem fresh18 : ∀ op ∈ (s18 (F := F)), op.fresh = ∅ := by
  intro _ h; (repeat (cases h with | head => rfl | tail _ h => ?_)); exact nomatch h

/-- Operations 186 … 195 of the reference's @main, in order. -/
abbrev s19 : List (HloOp τ sig (Elt F)) :=
  binary main_v140 main_v141 main_v142 ((fun a b => concatenate S20480 0 [⟨S16384, a⟩, ⟨S4096, b⟩] concatenates_S16384_S4096_S20480_d0) : (⟨S16384, .i32⟩ : BufTy).Contents (Elt F) → (⟨S4096, .i32⟩ : BufTy).Contents (Elt F) → (⟨S20480, .i32⟩ : BufTy).Contents (Elt F)) ::
  nullary main_cst_26 (constant S_ .f32 0x3F800000#32) ::
  unary main_cst_26 main_v143 (broadcastInDim S20480 ![] bcast_S_S20480 : (⟨S_, .f32⟩ : BufTy).Contents (Elt F) → (⟨S20480, .f32⟩ : BufTy).Contents (Elt F)) ::
  nullary main_cst_27 (constant S_ .f32 0x00000000#32) ::
  unary main_cst_27 main_v144 (broadcastInDim S4096 ![] bcast_S_S4096 : (⟨S_, .f32⟩ : BufTy).Contents (Elt F) → (⟨S4096, .f32⟩ : BufTy).Contents (Elt F)) ::
  unary main_v142 main_v145 (broadcastInDim S20480x1 ![0] bcast_S20480_S20480x1_0 : (⟨S20480, .i32⟩ : BufTy).Contents (Elt F) → (⟨S20480x1, .i32⟩ : BufTy).Contents (Elt F)) ::
  ternary main_v144 main_v145 main_v143 main_v146 ((fun x i u => Host.scatterAdd scatter_S4096_S20480x1_S20480_n_0_0_1 x i u) : (⟨S4096, .f32⟩ : BufTy).Contents (Elt F) → (⟨S20480x1, .i32⟩ : BufTy).Contents (Elt F) → (⟨S20480, .f32⟩ : BufTy).Contents (Elt F) → (⟨S4096, .f32⟩ : BufTy).Contents (Elt F)) ::
  nullary main_cst_28 (constant S_ .f32 0x00000000#32) ::
  unary main_cst_28 main_v147 (broadcastInDim S4096 ![] bcast_S_S4096 : (⟨S_, .f32⟩ : BufTy).Contents (Elt F) → (⟨S4096, .f32⟩ : BufTy).Contents (Elt F)) ::
  binary main_v146 main_v147 main_v148 (cmpf .ogt : (⟨S4096, .f32⟩ : BufTy).Contents (Elt F) → (⟨S4096, .f32⟩ : BufTy).Contents (Elt F) → (⟨S4096, .i1⟩ : BufTy).Contents (Elt F)) ::
  []
/-- The buffers those operations write. -/
abbrev w19 : List (Ref sig .tc) := [main_v142, main_cst_26, main_v143, main_cst_27, main_v144, main_v145, main_v146, main_cst_28, main_v147, main_v148]
theorem hW19 : (s19 (F := F)).Forall fun op => op.writes ⊆ ((w19.map (Proc.devRef (τ := τ) .tc)).toFinset) :=
  ⟨writes_sub_of_mem (y := main_v142) rfl (by decide),
   writes_sub_of_mem (y := main_cst_26) rfl (by decide),
   writes_sub_of_mem (y := main_v143) rfl (by decide),
   writes_sub_of_mem (y := main_cst_27) rfl (by decide),
   writes_sub_of_mem (y := main_v144) rfl (by decide),
   writes_sub_of_mem (y := main_v145) rfl (by decide),
   writes_sub_of_mem (y := main_v146) rfl (by decide),
   writes_sub_of_mem (y := main_cst_28) rfl (by decide),
   writes_sub_of_mem (y := main_v147) rfl (by decide),
   writes_sub_of_mem (y := main_v148) rfl (by decide)⟩
theorem keep19 (r : Ref sig .tc) (hr : r ∉ w19) (W : Valuation τ sig (Elt F)) :
    after s19 W (Proc.devRef .tc r) = W (Proc.devRef .tc r) := after_of_writes_sub s19 W hW19 hr
theorem sub19 : (s19 (F := F)).Forall fun op => op.bufs ⊆ tcRefs τ sig :=
  ⟨binary_bufs_sub .., nullary_bufs_sub .., unary_bufs_sub .., nullary_bufs_sub .., unary_bufs_sub .., unary_bufs_sub .., ternary_bufs_sub .., nullary_bufs_sub .., unary_bufs_sub .., binary_bufs_sub ..⟩
theorem fresh19 : ∀ op ∈ (s19 (F := F)), op.fresh = ∅ := by
  intro _ h; (repeat (cases h with | head => rfl | tail _ h => ?_)); exact nomatch h

/-- Operations 196 … 207 of the reference's @main, in order. -/
abbrev s20 : List (HloOp τ sig (Elt F)) :=
  nullary main_cst_29 (constant S_ .f32 0x2B8CBCCC#32) ::
  unary main_cst_29 main_v149 (broadcastInDim S4096 ![] bcast_S_S4096 : (⟨S_, .f32⟩ : BufTy).Contents (Elt F) → (⟨S4096, .f32⟩ : BufTy).Contents (Elt F)) ::
  binary main_v146 main_v149 main_v150 (maximumf : (⟨S4096, .f32⟩ : BufTy).Contents (Elt F) → (⟨S4096, .f32⟩ : BufTy).Contents (Elt F) → (⟨S4096, .f32⟩ : BufTy).Contents (Elt F)) ::
  unary main_v150 main_v151 (Host.rsqrt : (⟨S4096, .f32⟩ : BufTy).Contents (Elt F) → (⟨S4096, .f32⟩ : BufTy).Contents (Elt F)) ::
  nullary main_cst_30 (constant S_ .f32 0x00000000#32) ::
  TRef.unary (TRef.of (T := ⟨S_, .f32⟩) main_cst_30) (TRef.of (T := ⟨S_, .f32⟩) main_call8_v0) id ::
  TRef.unary (TRef.of (T := ⟨S_, .f32⟩) main_call8_v0) (TRef.of (T := ⟨S4096, .f32⟩) main_call8_v1) (broadcastInDim S4096 ![] bcast_S_S4096) ::
  TRef.ternary (TRef.of (T := ⟨S4096, .i1⟩) main_v148) (TRef.of (T := ⟨S4096, .f32⟩) main_v151) (TRef.of (T := ⟨S4096, .f32⟩) main_call8_v1) (TRef.of (T := ⟨S4096, .f32⟩) main_v152) select ::
  nullary main_c_31 (constantI S_ 32 0#32) ::
  unary main_c_31 main_v153 (broadcastInDim S20480 ![] bcast_S_S20480 : (⟨S_, .i32⟩ : BufTy).Contents (Elt F) → (⟨S20480, .i32⟩ : BufTy).Contents (Elt F)) ::
  binary main_v138 main_v153 main_v154 (cmpi .slt : (⟨S20480, .i32⟩ : BufTy).Contents (Elt F) → (⟨S20480, .i32⟩ : BufTy).Contents (Elt F) → (⟨S20480, .i1⟩ : BufTy).Contents (Elt F)) ::
  nullary main_c_32 (constantI S_ 32 4096#32) ::
  []
/-- The buffers those operations write. -/
abbrev w20 : List (Ref sig .tc) := [main_cst_29, main_v149, main_v150, main_v151, main_cst_30, main_call8_v0, main_call8_v1, main_v152, main_c_31, main_v153, main_v154, main_c_32]
theorem hW20 : (s20 (F := F)).Forall fun op => op.writes ⊆ ((w20.map (Proc.devRef (τ := τ) .tc)).toFinset) :=
  ⟨writes_sub_of_mem (y := main_cst_29) rfl (by decide),
   writes_sub_of_mem (y := main_v149) rfl (by decide),
   writes_sub_of_mem (y := main_v150) rfl (by decide),
   writes_sub_of_mem (y := main_v151) rfl (by decide),
   writes_sub_of_mem (y := main_cst_30) rfl (by decide),
   writes_sub_of_mem (y := main_call8_v0) rfl (by decide),
   writes_sub_of_mem (y := main_call8_v1) rfl (by decide),
   writes_sub_of_mem (y := main_v152) rfl (by decide),
   writes_sub_of_mem (y := main_c_31) rfl (by decide),
   writes_sub_of_mem (y := main_v153) rfl (by decide),
   writes_sub_of_mem (y := main_v154) rfl (by decide),
   writes_sub_of_mem (y := main_c_32) rfl (by decide)⟩
theorem keep20 (r : Ref sig .tc) (hr : r ∉ w20) (W : Valuation τ sig (Elt F)) :
    after s20 W (Proc.devRef .tc r) = W (Proc.devRef .tc r) := after_of_writes_sub s20 W hW20 hr
theorem sub20 : (s20 (F := F)).Forall fun op => op.bufs ⊆ tcRefs τ sig :=
  ⟨nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub ..⟩
theorem fresh20 : ∀ op ∈ (s20 (F := F)), op.fresh = ∅ := by
  intro _ h; (repeat (cases h with | head => rfl | tail _ h => ?_)); exact nomatch h

/-- Operations 208 … 219 of the reference's @main, in order. -/
abbrev s21 : List (HloOp τ sig (Elt F)) :=
  unary main_c_32 main_v155 (broadcastInDim S20480 ![] bcast_S_S20480 : (⟨S_, .i32⟩ : BufTy).Contents (Elt F) → (⟨S20480, .i32⟩ : BufTy).Contents (Elt F)) ::
  binary main_v138 main_v155 main_v156 (addi : (⟨S20480, .i32⟩ : BufTy).Contents (Elt F) → (⟨S20480, .i32⟩ : BufTy).Contents (Elt F) → (⟨S20480, .i32⟩ : BufTy).Contents (Elt F)) ::
  ternary main_v154 main_v156 main_v138 main_v157 (select : (⟨S20480, .i1⟩ : BufTy).Contents (Elt F) → (⟨S20480, .i32⟩ : BufTy).Contents (Elt F) → (⟨S20480, .i32⟩ : BufTy).Contents (Elt F) → (⟨S20480, .i32⟩ : BufTy).Contents (Elt F)) ::
  unary main_v157 main_v158 (broadcastInDim S20480x1 ![0] bcast_S20480_S20480x1_0 : (⟨S20480, .i32⟩ : BufTy).Contents (Elt F) → (⟨S20480x1, .i32⟩ : BufTy).Contents (Elt F)) ::
  binary main_v152 main_v158 main_v159 ((fun x i => Host.gather gather_S4096_S20480x1_S20480_n_0_n_n_0_1_1 x i) : (⟨S4096, .f32⟩ : BufTy).Contents (Elt F) → (⟨S20480x1, .i32⟩ : BufTy).Contents (Elt F) → (⟨S20480, .f32⟩ : BufTy).Contents (Elt F)) ::
  nullary main_c_33 (constantI S_ 32 0#32) ::
  unary main_c_33 main_v160 (broadcastInDim S20480 ![] bcast_S_S20480 : (⟨S_, .i32⟩ : BufTy).Contents (Elt F) → (⟨S20480, .i32⟩ : BufTy).Contents (Elt F)) ::
  binary main_v142 main_v160 main_v161 (cmpi .slt : (⟨S20480, .i32⟩ : BufTy).Contents (Elt F) → (⟨S20480, .i32⟩ : BufTy).Contents (Elt F) → (⟨S20480, .i1⟩ : BufTy).Contents (Elt F)) ::
  nullary main_c_34 (constantI S_ 32 4096#32) ::
  unary main_c_34 main_v162 (broadcastInDim S20480 ![] bcast_S_S20480 : (⟨S_, .i32⟩ : BufTy).Contents (Elt F) → (⟨S20480, .i32⟩ : BufTy).Contents (Elt F)) ::
  binary main_v142 main_v162 main_v163 (addi : (⟨S20480, .i32⟩ : BufTy).Contents (Elt F) → (⟨S20480, .i32⟩ : BufTy).Contents (Elt F) → (⟨S20480, .i32⟩ : BufTy).Contents (Elt F)) ::
  ternary main_v161 main_v163 main_v142 main_v164 (select : (⟨S20480, .i1⟩ : BufTy).Contents (Elt F) → (⟨S20480, .i32⟩ : BufTy).Contents (Elt F) → (⟨S20480, .i32⟩ : BufTy).Contents (Elt F) → (⟨S20480, .i32⟩ : BufTy).Contents (Elt F)) ::
  []
/-- The buffers those operations write. -/
abbrev w21 : List (Ref sig .tc) := [main_v155, main_v156, main_v157, main_v158, main_v159, main_c_33, main_v160, main_v161, main_c_34, main_v162, main_v163, main_v164]
theorem hW21 : (s21 (F := F)).Forall fun op => op.writes ⊆ ((w21.map (Proc.devRef (τ := τ) .tc)).toFinset) :=
  ⟨writes_sub_of_mem (y := main_v155) rfl (by decide),
   writes_sub_of_mem (y := main_v156) rfl (by decide),
   writes_sub_of_mem (y := main_v157) rfl (by decide),
   writes_sub_of_mem (y := main_v158) rfl (by decide),
   writes_sub_of_mem (y := main_v159) rfl (by decide),
   writes_sub_of_mem (y := main_c_33) rfl (by decide),
   writes_sub_of_mem (y := main_v160) rfl (by decide),
   writes_sub_of_mem (y := main_v161) rfl (by decide),
   writes_sub_of_mem (y := main_c_34) rfl (by decide),
   writes_sub_of_mem (y := main_v162) rfl (by decide),
   writes_sub_of_mem (y := main_v163) rfl (by decide),
   writes_sub_of_mem (y := main_v164) rfl (by decide)⟩
theorem keep21 (r : Ref sig .tc) (hr : r ∉ w21) (W : Valuation τ sig (Elt F)) :
    after s21 W (Proc.devRef .tc r) = W (Proc.devRef .tc r) := after_of_writes_sub s21 W hW21 hr
theorem sub21 : (s21 (F := F)).Forall fun op => op.bufs ⊆ tcRefs τ sig :=
  ⟨unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub ..⟩
theorem fresh21 : ∀ op ∈ (s21 (F := F)), op.fresh = ∅ := by
  intro _ h; (repeat (cases h with | head => rfl | tail _ h => ?_)); exact nomatch h

/-- Operations 220 … 231 of the reference's @main, in order. -/
abbrev s22 : List (HloOp τ sig (Elt F)) :=
  unary main_v164 main_v165 (broadcastInDim S20480x1 ![0] bcast_S20480_S20480x1_0 : (⟨S20480, .i32⟩ : BufTy).Contents (Elt F) → (⟨S20480x1, .i32⟩ : BufTy).Contents (Elt F)) ::
  binary main_v152 main_v165 main_v166 ((fun x i => Host.gather gather_S4096_S20480x1_S20480_n_0_n_n_0_1_1 x i) : (⟨S4096, .f32⟩ : BufTy).Contents (Elt F) → (⟨S20480x1, .i32⟩ : BufTy).Contents (Elt F) → (⟨S20480, .f32⟩ : BufTy).Contents (Elt F)) ::
  binary main_v159 main_v166 main_v167 (mulf : (⟨S20480, .f32⟩ : BufTy).Contents (Elt F) → (⟨S20480, .f32⟩ : BufTy).Contents (Elt F) → (⟨S20480, .f32⟩ : BufTy).Contents (Elt F)) ::
  unary main_v167 main_v168 (broadcastInDim S20480x1 ![0] bcast_S20480_S20480x1_0 : (⟨S20480, .f32⟩ : BufTy).Contents (Elt F) → (⟨S20480x1, .f32⟩ : BufTy).Contents (Elt F)) ::
  nullary main_c_35 (constantI S_ 32 0#32) ::
  unary main_c_35 main_v169 (broadcastInDim S20480 ![] bcast_S_S20480 : (⟨S_, .i32⟩ : BufTy).Contents (Elt F) → (⟨S20480, .i32⟩ : BufTy).Contents (Elt F)) ::
  binary main_v138 main_v169 main_v170 (cmpi .slt : (⟨S20480, .i32⟩ : BufTy).Contents (Elt F) → (⟨S20480, .i32⟩ : BufTy).Contents (Elt F) → (⟨S20480, .i1⟩ : BufTy).Contents (Elt F)) ::
  nullary main_c_36 (constantI S_ 32 4096#32) ::
  unary main_c_36 main_v171 (broadcastInDim S20480 ![] bcast_S_S20480 : (⟨S_, .i32⟩ : BufTy).Contents (Elt F) → (⟨S20480, .i32⟩ : BufTy).Contents (Elt F)) ::
  binary main_v138 main_v171 main_v172 (addi : (⟨S20480, .i32⟩ : BufTy).Contents (Elt F) → (⟨S20480, .i32⟩ : BufTy).Contents (Elt F) → (⟨S20480, .i32⟩ : BufTy).Contents (Elt F)) ::
  ternary main_v170 main_v172 main_v138 main_v173 (select : (⟨S20480, .i1⟩ : BufTy).Contents (Elt F) → (⟨S20480, .i32⟩ : BufTy).Contents (Elt F) → (⟨S20480, .i32⟩ : BufTy).Contents (Elt F) → (⟨S20480, .i32⟩ : BufTy).Contents (Elt F)) ::
  unary main_v173 main_v174 (broadcastInDim S20480x1 ![0] bcast_S20480_S20480x1_0 : (⟨S20480, .i32⟩ : BufTy).Contents (Elt F) → (⟨S20480x1, .i32⟩ : BufTy).Contents (Elt F)) ::
  []
/-- The buffers those operations write. -/
abbrev w22 : List (Ref sig .tc) := [main_v165, main_v166, main_v167, main_v168, main_c_35, main_v169, main_v170, main_c_36, main_v171, main_v172, main_v173, main_v174]
theorem hW22 : (s22 (F := F)).Forall fun op => op.writes ⊆ ((w22.map (Proc.devRef (τ := τ) .tc)).toFinset) :=
  ⟨writes_sub_of_mem (y := main_v165) rfl (by decide),
   writes_sub_of_mem (y := main_v166) rfl (by decide),
   writes_sub_of_mem (y := main_v167) rfl (by decide),
   writes_sub_of_mem (y := main_v168) rfl (by decide),
   writes_sub_of_mem (y := main_c_35) rfl (by decide),
   writes_sub_of_mem (y := main_v169) rfl (by decide),
   writes_sub_of_mem (y := main_v170) rfl (by decide),
   writes_sub_of_mem (y := main_c_36) rfl (by decide),
   writes_sub_of_mem (y := main_v171) rfl (by decide),
   writes_sub_of_mem (y := main_v172) rfl (by decide),
   writes_sub_of_mem (y := main_v173) rfl (by decide),
   writes_sub_of_mem (y := main_v174) rfl (by decide)⟩
theorem keep22 (r : Ref sig .tc) (hr : r ∉ w22) (W : Valuation τ sig (Elt F)) :
    after s22 W (Proc.devRef .tc r) = W (Proc.devRef .tc r) := after_of_writes_sub s22 W hW22 hr
theorem sub22 : (s22 (F := F)).Forall fun op => op.bufs ⊆ tcRefs τ sig :=
  ⟨unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub ..⟩
theorem fresh22 : ∀ op ∈ (s22 (F := F)), op.fresh = ∅ := by
  intro _ h; (repeat (cases h with | head => rfl | tail _ h => ?_)); exact nomatch h

/-- Operations 232 … 243 of the reference's @main, in order. -/
abbrev s23 : List (HloOp τ sig (Elt F)) :=
  binary main_v134 main_v174 main_v175 ((fun x i => Host.gather gather_S4096x128_S20480x1_S20480x128_1_0_n_n_0_1_1128 x i) : (⟨S4096x128, .f32⟩ : BufTy).Contents (Elt F) → (⟨S20480x1, .i32⟩ : BufTy).Contents (Elt F) → (⟨S20480x128, .f32⟩ : BufTy).Contents (Elt F)) ::
  unary main_v168 main_v176 (broadcastInDim S20480x128 ![0, 1] bcast_S20480x1_S20480x128_0_1 : (⟨S20480x1, .f32⟩ : BufTy).Contents (Elt F) → (⟨S20480x128, .f32⟩ : BufTy).Contents (Elt F)) ::
  binary main_v176 main_v175 main_v177 (mulf : (⟨S20480x128, .f32⟩ : BufTy).Contents (Elt F) → (⟨S20480x128, .f32⟩ : BufTy).Contents (Elt F) → (⟨S20480x128, .f32⟩ : BufTy).Contents (Elt F)) ::
  nullary main_cst_37 (constant S_ .f32 0x00000000#32) ::
  unary main_cst_37 main_v178 (broadcastInDim S4096x128 ![] bcast_S_S4096x128 : (⟨S_, .f32⟩ : BufTy).Contents (Elt F) → (⟨S4096x128, .f32⟩ : BufTy).Contents (Elt F)) ::
  unary main_v142 main_v179 (broadcastInDim S20480x1 ![0] bcast_S20480_S20480x1_0 : (⟨S20480, .i32⟩ : BufTy).Contents (Elt F) → (⟨S20480x1, .i32⟩ : BufTy).Contents (Elt F)) ::
  ternary main_v178 main_v179 main_v177 main_v180 ((fun x i u => Host.scatterAdd scatter_S4096x128_S20480x1_S20480x128_1_0_0_1 x i u) : (⟨S4096x128, .f32⟩ : BufTy).Contents (Elt F) → (⟨S20480x1, .i32⟩ : BufTy).Contents (Elt F) → (⟨S20480x128, .f32⟩ : BufTy).Contents (Elt F) → (⟨S4096x128, .f32⟩ : BufTy).Contents (Elt F)) ::
  unary main_arg21 main_v181 (broadcastInDim S1x128 ![1] bcast_S128_S1x128_1 : (⟨S128, .f32⟩ : BufTy).Contents (Elt F) → (⟨S1x128, .f32⟩ : BufTy).Contents (Elt F)) ::
  unary main_v181 main_v182 (broadcastInDim S4096x128 ![0, 1] bcast_S1x128_S4096x128_0_1 : (⟨S1x128, .f32⟩ : BufTy).Contents (Elt F) → (⟨S4096x128, .f32⟩ : BufTy).Contents (Elt F)) ::
  binary main_v180 main_v182 main_v183 (addf : (⟨S4096x128, .f32⟩ : BufTy).Contents (Elt F) → (⟨S4096x128, .f32⟩ : BufTy).Contents (Elt F) → (⟨S4096x128, .f32⟩ : BufTy).Contents (Elt F)) ::
  TRef.nullary (TRef.of (T := ⟨S_, .f32⟩) main_call9_cst) (constant S_ .f32 0x00000000#32) ::
  TRef.unary (TRef.of (T := ⟨S_, .f32⟩) main_call9_cst) (TRef.of (T := ⟨S4096x128, .f32⟩) main_call9_v0) (broadcastInDim S4096x128 ![] bcast_S_S4096x128) ::
  []
/-- The buffers those operations write. -/
abbrev w23 : List (Ref sig .tc) := [main_v175, main_v176, main_v177, main_cst_37, main_v178, main_v179, main_v180, main_v181, main_v182, main_v183, main_call9_cst, main_call9_v0]
theorem hW23 : (s23 (F := F)).Forall fun op => op.writes ⊆ ((w23.map (Proc.devRef (τ := τ) .tc)).toFinset) :=
  ⟨writes_sub_of_mem (y := main_v175) rfl (by decide),
   writes_sub_of_mem (y := main_v176) rfl (by decide),
   writes_sub_of_mem (y := main_v177) rfl (by decide),
   writes_sub_of_mem (y := main_cst_37) rfl (by decide),
   writes_sub_of_mem (y := main_v178) rfl (by decide),
   writes_sub_of_mem (y := main_v179) rfl (by decide),
   writes_sub_of_mem (y := main_v180) rfl (by decide),
   writes_sub_of_mem (y := main_v181) rfl (by decide),
   writes_sub_of_mem (y := main_v182) rfl (by decide),
   writes_sub_of_mem (y := main_v183) rfl (by decide),
   writes_sub_of_mem (y := main_call9_cst) rfl (by decide),
   writes_sub_of_mem (y := main_call9_v0) rfl (by decide)⟩
theorem keep23 (r : Ref sig .tc) (hr : r ∉ w23) (W : Valuation τ sig (Elt F)) :
    after s23 W (Proc.devRef .tc r) = W (Proc.devRef .tc r) := after_of_writes_sub s23 W hW23 hr
theorem sub23 : (s23 (F := F)).Forall fun op => op.bufs ⊆ tcRefs τ sig :=
  ⟨binary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub ..⟩
theorem fresh23 : ∀ op ∈ (s23 (F := F)), op.fresh = ∅ := by
  intro _ h; (repeat (cases h with | head => rfl | tail _ h => ?_)); exact nomatch h

/-- Operations 244 … 248 of the reference's @main, in order. -/
abbrev s24 : List (HloOp τ sig (Elt F)) :=
  TRef.binary (TRef.of (T := ⟨S4096x128, .f32⟩) main_v183) (TRef.of (T := ⟨S4096x128, .f32⟩) main_call9_v0) (TRef.of (T := ⟨S4096x128, .f32⟩) main_v184) maximumf ::
  binary main_v184 main_arg22 main_v185 ((fun l r => Host.dotGeneral dot_S4096x128_S128x128_S4096x128_1_0_0_1_n_n none l r) : (⟨S4096x128, .f32⟩ : BufTy).Contents (Elt F) → (⟨S128x128, .f32⟩ : BufTy).Contents (Elt F) → (⟨S4096x128, .f32⟩ : BufTy).Contents (Elt F)) ::
  unary main_arg6 main_v186 ((extractStridedSlice S1x16384 ![0, 0] · slices_S2x16384_S1x16384_0_0) : (⟨S2x16384, .i32⟩ : BufTy).Contents (Elt F) → (⟨S1x16384, .i32⟩ : BufTy).Contents (Elt F)) ::
  reshape main_v186 main_v187 rfl shapeCasts_S1x16384_S16384 ::
  nullary main_v188 (iotaInDim S4096 32 0) ::
  []
/-- The buffers those operations write. -/
abbrev w24 : List (Ref sig .tc) := [main_v184, main_v185, main_v186, main_v187, main_v188]
theorem hW24 : (s24 (F := F)).Forall fun op => op.writes ⊆ ((w24.map (Proc.devRef (τ := τ) .tc)).toFinset) :=
  ⟨writes_sub_of_mem (y := main_v184) rfl (by decide),
   writes_sub_of_mem (y := main_v185) rfl (by decide),
   writes_sub_of_mem (y := main_v186) rfl (by decide),
   writes_sub_of_mem (y := main_v187) rfl (by decide),
   writes_sub_of_mem (y := main_v188) rfl (by decide)⟩
theorem keep24 (r : Ref sig .tc) (hr : r ∉ w24) (W : Valuation τ sig (Elt F)) :
    after s24 W (Proc.devRef .tc r) = W (Proc.devRef .tc r) := after_of_writes_sub s24 W hW24 hr
theorem sub24 : (s24 (F := F)).Forall fun op => op.bufs ⊆ tcRefs τ sig :=
  ⟨binary_bufs_sub .., binary_bufs_sub .., unary_bufs_sub .., reshape_bufs_sub .., nullary_bufs_sub ..⟩
theorem fresh24 : ∀ op ∈ (s24 (F := F)), op.fresh = ∅ := by
  intro _ h; (repeat (cases h with | head => rfl | tail _ h => ?_)); exact nomatch h

/-- Operations 249 … 252 of the reference's @main, in order. -/
abbrev s25 : List (HloOp τ sig (Elt F)) :=
  binary main_v187 main_v188 main_v189 ((fun a b => concatenate S20480 0 [⟨S16384, a⟩, ⟨S4096, b⟩] concatenates_S16384_S4096_S20480_d0) : (⟨S16384, .i32⟩ : BufTy).Contents (Elt F) → (⟨S4096, .i32⟩ : BufTy).Contents (Elt F) → (⟨S20480, .i32⟩ : BufTy).Contents (Elt F)) ::
  unary main_arg6 main_v190 ((extractStridedSlice S1x16384 ![1, 0] · slices_S2x16384_S1x16384_1_0) : (⟨S2x16384, .i32⟩ : BufTy).Contents (Elt F) → (⟨S1x16384, .i32⟩ : BufTy).Contents (Elt F)) ::
  reshape main_v190 main_v191 rfl shapeCasts_S1x16384_S16384 ::
  nullary main_v192 (iotaInDim S4096 32 0) ::
  []
/-- The buffers those operations write. -/
abbrev w25 : List (Ref sig .tc) := [main_v189, main_v190, main_v191, main_v192]
theorem hW25 : (s25 (F := F)).Forall fun op => op.writes ⊆ ((w25.map (Proc.devRef (τ := τ) .tc)).toFinset) :=
  ⟨writes_sub_of_mem (y := main_v189) rfl (by decide),
   writes_sub_of_mem (y := main_v190) rfl (by decide),
   writes_sub_of_mem (y := main_v191) rfl (by decide),
   writes_sub_of_mem (y := main_v192) rfl (by decide)⟩
theorem keep25 (r : Ref sig .tc) (hr : r ∉ w25) (W : Valuation τ sig (Elt F)) :
    after s25 W (Proc.devRef .tc r) = W (Proc.devRef .tc r) := after_of_writes_sub s25 W hW25 hr
theorem sub25 : (s25 (F := F)).Forall fun op => op.bufs ⊆ tcRefs τ sig :=
  ⟨binary_bufs_sub .., unary_bufs_sub .., reshape_bufs_sub .., nullary_bufs_sub ..⟩
theorem fresh25 : ∀ op ∈ (s25 (F := F)), op.fresh = ∅ := by
  intro _ h; (repeat (cases h with | head => rfl | tail _ h => ?_)); exact nomatch h

/-- Operations 253 … 259 of the reference's @main, in order. -/
abbrev s26 : List (HloOp τ sig (Elt F)) :=
  binary main_v191 main_v192 main_v193 ((fun a b => concatenate S20480 0 [⟨S16384, a⟩, ⟨S4096, b⟩] concatenates_S16384_S4096_S20480_d0) : (⟨S16384, .i32⟩ : BufTy).Contents (Elt F) → (⟨S4096, .i32⟩ : BufTy).Contents (Elt F) → (⟨S20480, .i32⟩ : BufTy).Contents (Elt F)) ::
  nullary main_cst_38 (constant S_ .f32 0x3F800000#32) ::
  unary main_cst_38 main_v194 (broadcastInDim S20480 ![] bcast_S_S20480 : (⟨S_, .f32⟩ : BufTy).Contents (Elt F) → (⟨S20480, .f32⟩ : BufTy).Contents (Elt F)) ::
  nullary main_cst_39 (constant S_ .f32 0x00000000#32) ::
  unary main_cst_39 main_v195 (broadcastInDim S4096 ![] bcast_S_S4096 : (⟨S_, .f32⟩ : BufTy).Contents (Elt F) → (⟨S4096, .f32⟩ : BufTy).Contents (Elt F)) ::
  unary main_v193 main_v196 (broadcastInDim S20480x1 ![0] bcast_S20480_S20480x1_0 : (⟨S20480, .i32⟩ : BufTy).Contents (Elt F) → (⟨S20480x1, .i32⟩ : BufTy).Contents (Elt F)) ::
  ternary main_v195 main_v196 main_v194 main_v197 ((fun x i u => Host.scatterAdd scatter_S4096_S20480x1_S20480_n_0_0_1 x i u) : (⟨S4096, .f32⟩ : BufTy).Contents (Elt F) → (⟨S20480x1, .i32⟩ : BufTy).Contents (Elt F) → (⟨S20480, .f32⟩ : BufTy).Contents (Elt F) → (⟨S4096, .f32⟩ : BufTy).Contents (Elt F)) ::
  []
/-- The buffers those operations write. -/
abbrev w26 : List (Ref sig .tc) := [main_v193, main_cst_38, main_v194, main_cst_39, main_v195, main_v196, main_v197]
theorem hW26 : (s26 (F := F)).Forall fun op => op.writes ⊆ ((w26.map (Proc.devRef (τ := τ) .tc)).toFinset) :=
  ⟨writes_sub_of_mem (y := main_v193) rfl (by decide),
   writes_sub_of_mem (y := main_cst_38) rfl (by decide),
   writes_sub_of_mem (y := main_v194) rfl (by decide),
   writes_sub_of_mem (y := main_cst_39) rfl (by decide),
   writes_sub_of_mem (y := main_v195) rfl (by decide),
   writes_sub_of_mem (y := main_v196) rfl (by decide),
   writes_sub_of_mem (y := main_v197) rfl (by decide)⟩
theorem keep26 (r : Ref sig .tc) (hr : r ∉ w26) (W : Valuation τ sig (Elt F)) :
    after s26 W (Proc.devRef .tc r) = W (Proc.devRef .tc r) := after_of_writes_sub s26 W hW26 hr
theorem sub26 : (s26 (F := F)).Forall fun op => op.bufs ⊆ tcRefs τ sig :=
  ⟨binary_bufs_sub .., nullary_bufs_sub .., unary_bufs_sub .., nullary_bufs_sub .., unary_bufs_sub .., unary_bufs_sub .., ternary_bufs_sub ..⟩
theorem fresh26 : ∀ op ∈ (s26 (F := F)), op.fresh = ∅ := by
  intro _ h; (repeat (cases h with | head => rfl | tail _ h => ?_)); exact nomatch h

/-- Statements 121 … of the reference's @main (its window 2), as one line of operations. -/
abbrev opsP2 : List (HloOp τ sig (Elt F)) := s14 ++ (s15 ++ (s16 ++ (s17 ++ (s18 ++ (s19)))))
theorem subP2 : (opsP2 (F := F)).Forall fun op => op.bufs ⊆ tcRefs τ sig :=
  forall_append' sub14 (forall_append' sub15 (forall_append' sub16 (forall_append' sub17 (forall_append' sub18 (sub19)))))
theorem freshP2 : ∀ op ∈ (opsP2 (F := F)), op.fresh = ∅ :=
  fresh_append fresh14 (fresh_append fresh15 (fresh_append fresh16 (fresh_append fresh17 (fresh_append fresh18 (fresh19)))))
set_option maxRecDepth 8192 in
set_option maxHeartbeats 4000000 in
theorem part2_eq (c : Dev nD) : main_part2 (F := F) c = seq opsP2 := rfl

/-- Statements 181 … of the reference's @main (its window 3), as one line of operations. -/
abbrev opsP3 : List (HloOp τ sig (Elt F)) := s20 ++ (s21 ++ (s22 ++ (s23 ++ (s24 ++ (s25 ++ (s26))))))
theorem subP3 : (opsP3 (F := F)).Forall fun op => op.bufs ⊆ tcRefs τ sig :=
  forall_append' sub20 (forall_append' sub21 (forall_append' sub22 (forall_append' sub23 (forall_append' sub24 (forall_append' sub25 (sub26))))))
theorem freshP3 : ∀ op ∈ (opsP3 (F := F)), op.fresh = ∅ :=
  fresh_append fresh20 (fresh_append fresh21 (fresh_append fresh22 (fresh_append fresh23 (fresh_append fresh24 (fresh_append fresh25 (fresh26))))))
set_option maxRecDepth 8192 in
set_option maxHeartbeats 4000000 in
theorem part3_eq (c : Dev nD) : main_part3 (F := F) c = seq opsP3 := rfl

end Cert.Proof.RefSide

end
-- ==== Proof.RefOpsC.lean ====
/- The reference's @main as lines of host operations, cut into short stretches; for each stretch the buffers it
   writes, that it writes no others, and that it touches TensorCore buffers only. -/
import proofs.«161272_j16312285791078_1_alg».proof.Proof.Gen.ReferenceIdeal
import Idealize.ShloMosaic.Lib.StableHlo.Run
import proofs.«161272_j16312285791078_1_alg».proof.Proof.RefLib

noncomputable section

namespace Cert.Proof.RefSide

open Cert.ReferenceIdeal Cert.ReferenceIdeal.Gen Idealize.ShloMosaic Idealize.ShloMosaic.TcCoe Idealize.SL.Sem Idealize.ShloMosaic.StableHlo

variable {F : FTy → Type} [FloatOps F]
/-- Operations 260 … 271 of the reference's @main, in order. -/
abbrev s27 : List (HloOp τ sig (Elt F)) :=
  nullary main_cst_40 (constant S_ .f32 0x00000000#32) ::
  unary main_cst_40 main_v198 (broadcastInDim S4096 ![] bcast_S_S4096 : (⟨S_, .f32⟩ : BufTy).Contents (Elt F) → (⟨S4096, .f32⟩ : BufTy).Contents (Elt F)) ::
  binary main_v197 main_v198 main_v199 (cmpf .ogt : (⟨S4096, .f32⟩ : BufTy).Contents (Elt F) → (⟨S4096, .f32⟩ : BufTy).Contents (Elt F) → (⟨S4096, .i1⟩ : BufTy).Contents (Elt F)) ::
  nullary main_cst_41 (constant S_ .f32 0x2B8CBCCC#32) ::
  unary main_cst_41 main_v200 (broadcastInDim S4096 ![] bcast_S_S4096 : (⟨S_, .f32⟩ : BufTy).Contents (Elt F) → (⟨S4096, .f32⟩ : BufTy).Contents (Elt F)) ::
  binary main_v197 main_v200 main_v201 (maximumf : (⟨S4096, .f32⟩ : BufTy).Contents (Elt F) → (⟨S4096, .f32⟩ : BufTy).Contents (Elt F) → (⟨S4096, .f32⟩ : BufTy).Contents (Elt F)) ::
  unary main_v201 main_v202 (Host.rsqrt : (⟨S4096, .f32⟩ : BufTy).Contents (Elt F) → (⟨S4096, .f32⟩ : BufTy).Contents (Elt F)) ::
  nullary main_cst_42 (constant S_ .f32 0x00000000#32) ::
  TRef.unary (TRef.of (T := ⟨S_, .f32⟩) main_cst_42) (TRef.of (T := ⟨S_, .f32⟩) main_call10_v0) id ::
  TRef.unary (TRef.of (T := ⟨S_, .f32⟩) main_call10_v0) (TRef.of (T := ⟨S4096, .f32⟩) main_call10_v1) (broadcastInDim S4096 ![] bcast_S_S4096) ::
  TRef.ternary (TRef.of (T := ⟨S4096, .i1⟩) main_v199) (TRef.of (T := ⟨S4096, .f32⟩) main_v202) (TRef.of (T := ⟨S4096, .f32⟩) main_call10_v1) (TRef.of (T := ⟨S4096, .f32⟩) main_v203) select ::
  nullary main_c_43 (constantI S_ 32 0#32) ::
  []
/-- The buffers those operations write. -/
abbrev w27 : List (Ref sig .tc) := [main_cst_40, main_v198, main_v199, main_cst_41, main_v200, main_v201, main_v202, main_cst_42, main_call10_v0, main_call10_v1, main_v203, main_c_43]
theorem hW27 : (s27 (F := F)).Forall fun op => op.writes ⊆ ((w27.map (Proc.devRef (τ := τ) .tc)).toFinset) :=
  ⟨writes_sub_of_mem (y := main_cst_40) rfl (by decide),
   writes_sub_of_mem (y := main_v198) rfl (by decide),
   writes_sub_of_mem (y := main_v199) rfl (by decide),
   writes_sub_of_mem (y := main_cst_41) rfl (by decide),
   writes_sub_of_mem (y := main_v200) rfl (by decide),
   writes_sub_of_mem (y := main_v201) rfl (by decide),
   writes_sub_of_mem (y := main_v202) rfl (by decide),
   writes_sub_of_mem (y := main_cst_42) rfl (by decide),
   writes_sub_of_mem (y := main_call10_v0) rfl (by decide),
   writes_sub_of_mem (y := main_call10_v1) rfl (by decide),
   writes_sub_of_mem (y := main_v203) rfl (by decide),
   writes_sub_of_mem (y := main_c_43) rfl (by decide)⟩
theorem keep27 (r : Ref sig .tc) (hr : r ∉ w27) (W : Valuation τ sig (Elt F)) :
    after s27 W (Proc.devRef .tc r) = W (Proc.devRef .tc r) := after_of_writes_sub s27 W hW27 hr
theorem sub27 : (s27 (F := F)).Forall fun op => op.bufs ⊆ tcRefs τ sig :=
  ⟨nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub ..⟩
theorem fresh27 : ∀ op ∈ (s27 (F := F)), op.fresh = ∅ := by
  intro _ h; (repeat (cases h with | head => rfl | tail _ h => ?_)); exact nomatch h

/-- Operations 272 … 283 of the reference's @main, in order. -/
abbrev s28 : List (HloOp τ sig (Elt F)) :=
  unary main_c_43 main_v204 (broadcastInDim S20480 ![] bcast_S_S20480 : (⟨S_, .i32⟩ : BufTy).Contents (Elt F) → (⟨S20480, .i32⟩ : BufTy).Contents (Elt F)) ::
  binary main_v189 main_v204 main_v205 (cmpi .slt : (⟨S20480, .i32⟩ : BufTy).Contents (Elt F) → (⟨S20480, .i32⟩ : BufTy).Contents (Elt F) → (⟨S20480, .i1⟩ : BufTy).Contents (Elt F)) ::
  nullary main_c_44 (constantI S_ 32 4096#32) ::
  unary main_c_44 main_v206 (broadcastInDim S20480 ![] bcast_S_S20480 : (⟨S_, .i32⟩ : BufTy).Contents (Elt F) → (⟨S20480, .i32⟩ : BufTy).Contents (Elt F)) ::
  binary main_v189 main_v206 main_v207 (addi : (⟨S20480, .i32⟩ : BufTy).Contents (Elt F) → (⟨S20480, .i32⟩ : BufTy).Contents (Elt F) → (⟨S20480, .i32⟩ : BufTy).Contents (Elt F)) ::
  ternary main_v205 main_v207 main_v189 main_v208 (select : (⟨S20480, .i1⟩ : BufTy).Contents (Elt F) → (⟨S20480, .i32⟩ : BufTy).Contents (Elt F) → (⟨S20480, .i32⟩ : BufTy).Contents (Elt F) → (⟨S20480, .i32⟩ : BufTy).Contents (Elt F)) ::
  unary main_v208 main_v209 (broadcastInDim S20480x1 ![0] bcast_S20480_S20480x1_0 : (⟨S20480, .i32⟩ : BufTy).Contents (Elt F) → (⟨S20480x1, .i32⟩ : BufTy).Contents (Elt F)) ::
  binary main_v203 main_v209 main_v210 ((fun x i => Host.gather gather_S4096_S20480x1_S20480_n_0_n_n_0_1_1 x i) : (⟨S4096, .f32⟩ : BufTy).Contents (Elt F) → (⟨S20480x1, .i32⟩ : BufTy).Contents (Elt F) → (⟨S20480, .f32⟩ : BufTy).Contents (Elt F)) ::
  nullary main_c_45 (constantI S_ 32 0#32) ::
  unary main_c_45 main_v211 (broadcastInDim S20480 ![] bcast_S_S20480 : (⟨S_, .i32⟩ : BufTy).Contents (Elt F) → (⟨S20480, .i32⟩ : BufTy).Contents (Elt F)) ::
  binary main_v193 main_v211 main_v212 (cmpi .slt : (⟨S20480, .i32⟩ : BufTy).Contents (Elt F) → (⟨S20480, .i32⟩ : BufTy).Contents (Elt F) → (⟨S20480, .i1⟩ : BufTy).Contents (Elt F)) ::
  nullary main_c_46 (constantI S_ 32 4096#32) ::
  []
/-- The buffers those operations write. -/
abbrev w28 : List (Ref sig .tc) := [main_v204, main_v205, main_c_44, main_v206, main_v207, main_v208, main_v209, main_v210, main_c_45, main_v211, main_v212, main_c_46]
theorem hW28 : (s28 (F := F)).Forall fun op => op.writes ⊆ ((w28.map (Proc.devRef (τ := τ) .tc)).toFinset) :=
  ⟨writes_sub_of_mem (y := main_v204) rfl (by decide),
   writes_sub_of_mem (y := main_v205) rfl (by decide),
   writes_sub_of_mem (y := main_c_44) rfl (by decide),
   writes_sub_of_mem (y := main_v206) rfl (by decide),
   writes_sub_of_mem (y := main_v207) rfl (by decide),
   writes_sub_of_mem (y := main_v208) rfl (by decide),
   writes_sub_of_mem (y := main_v209) rfl (by decide),
   writes_sub_of_mem (y := main_v210) rfl (by decide),
   writes_sub_of_mem (y := main_c_45) rfl (by decide),
   writes_sub_of_mem (y := main_v211) rfl (by decide),
   writes_sub_of_mem (y := main_v212) rfl (by decide),
   writes_sub_of_mem (y := main_c_46) rfl (by decide)⟩
theorem keep28 (r : Ref sig .tc) (hr : r ∉ w28) (W : Valuation τ sig (Elt F)) :
    after s28 W (Proc.devRef .tc r) = W (Proc.devRef .tc r) := after_of_writes_sub s28 W hW28 hr
theorem sub28 : (s28 (F := F)).Forall fun op => op.bufs ⊆ tcRefs τ sig :=
  ⟨unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub ..⟩
theorem fresh28 : ∀ op ∈ (s28 (F := F)), op.fresh = ∅ := by
  intro _ h; (repeat (cases h with | head => rfl | tail _ h => ?_)); exact nomatch h

/-- Operations 284 … 295 of the reference's @main, in order. -/
abbrev s29 : List (HloOp τ sig (Elt F)) :=
  unary main_c_46 main_v213 (broadcastInDim S20480 ![] bcast_S_S20480 : (⟨S_, .i32⟩ : BufTy).Contents (Elt F) → (⟨S20480, .i32⟩ : BufTy).Contents (Elt F)) ::
  binary main_v193 main_v213 main_v214 (addi : (⟨S20480, .i32⟩ : BufTy).Contents (Elt F) → (⟨S20480, .i32⟩ : BufTy).Contents (Elt F) → (⟨S20480, .i32⟩ : BufTy).Contents (Elt F)) ::
  ternary main_v212 main_v214 main_v193 main_v215 (select : (⟨S20480, .i1⟩ : BufTy).Contents (Elt F) → (⟨S20480, .i32⟩ : BufTy).Contents (Elt F) → (⟨S20480, .i32⟩ : BufTy).Contents (Elt F) → (⟨S20480, .i32⟩ : BufTy).Contents (Elt F)) ::
  unary main_v215 main_v216 (broadcastInDim S20480x1 ![0] bcast_S20480_S20480x1_0 : (⟨S20480, .i32⟩ : BufTy).Contents (Elt F) → (⟨S20480x1, .i32⟩ : BufTy).Contents (Elt F)) ::
  binary main_v203 main_v216 main_v217 ((fun x i => Host.gather gather_S4096_S20480x1_S20480_n_0_n_n_0_1_1 x i) : (⟨S4096, .f32⟩ : BufTy).Contents (Elt F) → (⟨S20480x1, .i32⟩ : BufTy).Contents (Elt F) → (⟨S20480, .f32⟩ : BufTy).Contents (Elt F)) ::
  binary main_v210 main_v217 main_v218 (mulf : (⟨S20480, .f32⟩ : BufTy).Contents (Elt F) → (⟨S20480, .f32⟩ : BufTy).Contents (Elt F) → (⟨S20480, .f32⟩ : BufTy).Contents (Elt F)) ::
  unary main_v218 main_v219 (broadcastInDim S20480x1 ![0] bcast_S20480_S20480x1_0 : (⟨S20480, .f32⟩ : BufTy).Contents (Elt F) → (⟨S20480x1, .f32⟩ : BufTy).Contents (Elt F)) ::
  nullary main_c_47 (constantI S_ 32 0#32) ::
  unary main_c_47 main_v220 (broadcastInDim S20480 ![] bcast_S_S20480 : (⟨S_, .i32⟩ : BufTy).Contents (Elt F) → (⟨S20480, .i32⟩ : BufTy).Contents (Elt F)) ::
  binary main_v189 main_v220 main_v221 (cmpi .slt : (⟨S20480, .i32⟩ : BufTy).Contents (Elt F) → (⟨S20480, .i32⟩ : BufTy).Contents (Elt F) → (⟨S20480, .i1⟩ : BufTy).Contents (Elt F)) ::
  nullary main_c_48 (constantI S_ 32 4096#32) ::
  unary main_c_48 main_v222 (broadcastInDim S20480 ![] bcast_S_S20480 : (⟨S_, .i32⟩ : BufTy).Contents (Elt F) → (⟨S20480, .i32⟩ : BufTy).Contents (Elt F)) ::
  []
/-- The buffers those operations write. -/
abbrev w29 : List (Ref sig .tc) := [main_v213, main_v214, main_v215, main_v216, main_v217, main_v218, main_v219, main_c_47, main_v220, main_v221, main_c_48, main_v222]
theorem hW29 : (s29 (F := F)).Forall fun op => op.writes ⊆ ((w29.map (Proc.devRef (τ := τ) .tc)).toFinset) :=
  ⟨writes_sub_of_mem (y := main_v213) rfl (by decide),
   writes_sub_of_mem (y := main_v214) rfl (by decide),
   writes_sub_of_mem (y := main_v215) rfl (by decide),
   writes_sub_of_mem (y := main_v216) rfl (by decide),
   writes_sub_of_mem (y := main_v217) rfl (by decide),
   writes_sub_of_mem (y := main_v218) rfl (by decide),
   writes_sub_of_mem (y := main_v219) rfl (by decide),
   writes_sub_of_mem (y := main_c_47) rfl (by decide),
   writes_sub_of_mem (y := main_v220) rfl (by decide),
   writes_sub_of_mem (y := main_v221) rfl (by decide),
   writes_sub_of_mem (y := main_c_48) rfl (by decide),
   writes_sub_of_mem (y := main_v222) rfl (by decide)⟩
theorem keep29 (r : Ref sig .tc) (hr : r ∉ w29) (W : Valuation τ sig (Elt F)) :
    after s29 W (Proc.devRef .tc r) = W (Proc.devRef .tc r) := after_of_writes_sub s29 W hW29 hr
theorem sub29 : (s29 (F := F)).Forall fun op => op.bufs ⊆ tcRefs τ sig :=
  ⟨unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub ..⟩
theorem fresh29 : ∀ op ∈ (s29 (F := F)), op.fresh = ∅ := by
  intro _ h; (repeat (cases h with | head => rfl | tail _ h => ?_)); exact nomatch h

/-- Operations 296 … 307 of the reference's @main, in order. -/
abbrev s30 : List (HloOp τ sig (Elt F)) :=
  binary main_v189 main_v222 main_v223 (addi : (⟨S20480, .i32⟩ : BufTy).Contents (Elt F) → (⟨S20480, .i32⟩ : BufTy).Contents (Elt F) → (⟨S20480, .i32⟩ : BufTy).Contents (Elt F)) ::
  ternary main_v221 main_v223 main_v189 main_v224 (select : (⟨S20480, .i1⟩ : BufTy).Contents (Elt F) → (⟨S20480, .i32⟩ : BufTy).Contents (Elt F) → (⟨S20480, .i32⟩ : BufTy).Contents (Elt F) → (⟨S20480, .i32⟩ : BufTy).Contents (Elt F)) ::
  unary main_v224 main_v225 (broadcastInDim S20480x1 ![0] bcast_S20480_S20480x1_0 : (⟨S20480, .i32⟩ : BufTy).Contents (Elt F) → (⟨S20480x1, .i32⟩ : BufTy).Contents (Elt F)) ::
  binary main_v185 main_v225 main_v226 ((fun x i => Host.gather gather_S4096x128_S20480x1_S20480x128_1_0_n_n_0_1_1128 x i) : (⟨S4096x128, .f32⟩ : BufTy).Contents (Elt F) → (⟨S20480x1, .i32⟩ : BufTy).Contents (Elt F) → (⟨S20480x128, .f32⟩ : BufTy).Contents (Elt F)) ::
  unary main_v219 main_v227 (broadcastInDim S20480x128 ![0, 1] bcast_S20480x1_S20480x128_0_1 : (⟨S20480x1, .f32⟩ : BufTy).Contents (Elt F) → (⟨S20480x128, .f32⟩ : BufTy).Contents (Elt F)) ::
  binary main_v227 main_v226 main_v228 (mulf : (⟨S20480x128, .f32⟩ : BufTy).Contents (Elt F) → (⟨S20480x128, .f32⟩ : BufTy).Contents (Elt F) → (⟨S20480x128, .f32⟩ : BufTy).Contents (Elt F)) ::
  nullary main_cst_49 (constant S_ .f32 0x00000000#32) ::
  unary main_cst_49 main_v229 (broadcastInDim S4096x128 ![] bcast_S_S4096x128 : (⟨S_, .f32⟩ : BufTy).Contents (Elt F) → (⟨S4096x128, .f32⟩ : BufTy).Contents (Elt F)) ::
  unary main_v193 main_v230 (broadcastInDim S20480x1 ![0] bcast_S20480_S20480x1_0 : (⟨S20480, .i32⟩ : BufTy).Contents (Elt F) → (⟨S20480x1, .i32⟩ : BufTy).Contents (Elt F)) ::
  ternary main_v229 main_v230 main_v228 main_v231 ((fun x i u => Host.scatterAdd scatter_S4096x128_S20480x1_S20480x128_1_0_0_1 x i u) : (⟨S4096x128, .f32⟩ : BufTy).Contents (Elt F) → (⟨S20480x1, .i32⟩ : BufTy).Contents (Elt F) → (⟨S20480x128, .f32⟩ : BufTy).Contents (Elt F) → (⟨S4096x128, .f32⟩ : BufTy).Contents (Elt F)) ::
  unary main_arg23 main_v232 (broadcastInDim S1x128 ![1] bcast_S128_S1x128_1 : (⟨S128, .f32⟩ : BufTy).Contents (Elt F) → (⟨S1x128, .f32⟩ : BufTy).Contents (Elt F)) ::
  unary main_v232 main_v233 (broadcastInDim S4096x128 ![0, 1] bcast_S1x128_S4096x128_0_1 : (⟨S1x128, .f32⟩ : BufTy).Contents (Elt F) → (⟨S4096x128, .f32⟩ : BufTy).Contents (Elt F)) ::
  []
/-- The buffers those operations write. -/
abbrev w30 : List (Ref sig .tc) := [main_v223, main_v224, main_v225, main_v226, main_v227, main_v228, main_cst_49, main_v229, main_v230, main_v231, main_v232, main_v233]
theorem hW30 : (s30 (F := F)).Forall fun op => op.writes ⊆ ((w30.map (Proc.devRef (τ := τ) .tc)).toFinset) :=
  ⟨writes_sub_of_mem (y := main_v223) rfl (by decide),
   writes_sub_of_mem (y := main_v224) rfl (by decide),
   writes_sub_of_mem (y := main_v225) rfl (by decide),
   writes_sub_of_mem (y := main_v226) rfl (by decide),
   writes_sub_of_mem (y := main_v227) rfl (by decide),
   writes_sub_of_mem (y := main_v228) rfl (by decide),
   writes_sub_of_mem (y := main_cst_49) rfl (by decide),
   writes_sub_of_mem (y := main_v229) rfl (by decide),
   writes_sub_of_mem (y := main_v230) rfl (by decide),
   writes_sub_of_mem (y := main_v231) rfl (by decide),
   writes_sub_of_mem (y := main_v232) rfl (by decide),
   writes_sub_of_mem (y := main_v233) rfl (by decide)⟩
theorem keep30 (r : Ref sig .tc) (hr : r ∉ w30) (W : Valuation τ sig (Elt F)) :
    after s30 W (Proc.devRef .tc r) = W (Proc.devRef .tc r) := after_of_writes_sub s30 W hW30 hr
theorem sub30 : (s30 (F := F)).Forall fun op => op.bufs ⊆ tcRefs τ sig :=
  ⟨binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub ..⟩
theorem fresh30 : ∀ op ∈ (s30 (F := F)), op.fresh = ∅ := by
  intro _ h; (repeat (cases h with | head => rfl | tail _ h => ?_)); exact nomatch h

/-- Operations 308 … 319 of the reference's @main, in order. -/
abbrev s31 : List (HloOp τ sig (Elt F)) :=
  binary main_v231 main_v233 main_v234 (addf : (⟨S4096x128, .f32⟩ : BufTy).Contents (Elt F) → (⟨S4096x128, .f32⟩ : BufTy).Contents (Elt F) → (⟨S4096x128, .f32⟩ : BufTy).Contents (Elt F)) ::
  TRef.nullary (TRef.of (T := ⟨S_, .f32⟩) main_call11_cst) (constant S_ .f32 0x00000000#32) ::
  TRef.unary (TRef.of (T := ⟨S_, .f32⟩) main_call11_cst) (TRef.of (T := ⟨S4096x128, .f32⟩) main_call11_v0) (broadcastInDim S4096x128 ![] bcast_S_S4096x128) ::
  TRef.binary (TRef.of (T := ⟨S4096x128, .f32⟩) main_v234) (TRef.of (T := ⟨S4096x128, .f32⟩) main_call11_v0) (TRef.of (T := ⟨S4096x128, .f32⟩) main_v235) maximumf ::
  nullary main_cst_50 (constant S_ .f32 0x00000000#32) ::
  unary main_cst_50 main_v236 (broadcastInDim S64x128 ![] bcast_S_S64x128 : (⟨S_, .f32⟩ : BufTy).Contents (Elt F) → (⟨S64x128, .f32⟩ : BufTy).Contents (Elt F)) ::
  unary main_arg7 main_v237 (broadcastInDim S4096x1 ![0] bcast_S4096_S4096x1_0 : (⟨S4096, .i32⟩ : BufTy).Contents (Elt F) → (⟨S4096x1, .i32⟩ : BufTy).Contents (Elt F)) ::
  ternary main_v236 main_v237 main_v235 main_v238 ((fun x i u => Host.scatterAdd scatter_S64x128_S4096x1_S4096x128_1_0_0_1 x i u) : (⟨S64x128, .f32⟩ : BufTy).Contents (Elt F) → (⟨S4096x1, .i32⟩ : BufTy).Contents (Elt F) → (⟨S4096x128, .f32⟩ : BufTy).Contents (Elt F) → (⟨S64x128, .f32⟩ : BufTy).Contents (Elt F)) ::
  nullary main_cst_51 (constant S_ .f32 0x3F800000#32) ::
  unary main_cst_51 main_v239 (broadcastInDim S4096 ![] bcast_S_S4096 : (⟨S_, .f32⟩ : BufTy).Contents (Elt F) → (⟨S4096, .f32⟩ : BufTy).Contents (Elt F)) ::
  nullary main_cst_52 (constant S_ .f32 0x00000000#32) ::
  unary main_cst_52 main_v240 (broadcastInDim S64 ![] bcast_S_S64 : (⟨S_, .f32⟩ : BufTy).Contents (Elt F) → (⟨S64, .f32⟩ : BufTy).Contents (Elt F)) ::
  []
/-- The buffers those operations write. -/
abbrev w31 : List (Ref sig .tc) := [main_v234, main_call11_cst, main_call11_v0, main_v235, main_cst_50, main_v236, main_v237, main_v238, main_cst_51, main_v239, main_cst_52, main_v240]
theorem hW31 : (s31 (F := F)).Forall fun op => op.writes ⊆ ((w31.map (Proc.devRef (τ := τ) .tc)).toFinset) :=
  ⟨writes_sub_of_mem (y := main_v234) rfl (by decide),
   writes_sub_of_mem (y := main_call11_cst) rfl (by decide),
   writes_sub_of_mem (y := main_call11_v0) rfl (by decide),
   writes_sub_of_mem (y := main_v235) rfl (by decide),
   writes_sub_of_mem (y := main_cst_50) rfl (by decide),
   writes_sub_of_mem (y := main_v236) rfl (by decide),
   writes_sub_of_mem (y := main_v237) rfl (by decide),
   writes_sub_of_mem (y := main_v238) rfl (by decide),
   writes_sub_of_mem (y := main_cst_51) rfl (by decide),
   writes_sub_of_mem (y := main_v239) rfl (by decide),
   writes_sub_of_mem (y := main_cst_52) rfl (by decide),
   writes_sub_of_mem (y := main_v240) rfl (by decide)⟩
theorem keep31 (r : Ref sig .tc) (hr : r ∉ w31) (W : Valuation τ sig (Elt F)) :
    after s31 W (Proc.devRef .tc r) = W (Proc.devRef .tc r) := after_of_writes_sub s31 W hW31 hr
theorem sub31 : (s31 (F := F)).Forall fun op => op.bufs ⊆ tcRefs τ sig :=
  ⟨binary_bufs_sub .., nullary_bufs_sub .., unary_bufs_sub .., binary_bufs_sub .., nullary_bufs_sub .., unary_bufs_sub .., unary_bufs_sub .., ternary_bufs_sub .., nullary_bufs_sub .., unary_bufs_sub .., nullary_bufs_sub .., unary_bufs_sub ..⟩
theorem fresh31 : ∀ op ∈ (s31 (F := F)), op.fresh = ∅ := by
  intro _ h; (repeat (cases h with | head => rfl | tail _ h => ?_)); exact nomatch h

/-- Operations 320 … 323 of the reference's @main, in order. -/
abbrev s32 : List (HloOp τ sig (Elt F)) :=
  unary main_arg7 main_v241 (broadcastInDim S4096x1 ![0] bcast_S4096_S4096x1_0 : (⟨S4096, .i32⟩ : BufTy).Contents (Elt F) → (⟨S4096x1, .i32⟩ : BufTy).Contents (Elt F)) ::
  ternary main_v240 main_v241 main_v239 main_v242 ((fun x i u => Host.scatterAdd scatter_S64_S4096x1_S4096_n_0_0_1 x i u) : (⟨S64, .f32⟩ : BufTy).Contents (Elt F) → (⟨S4096x1, .i32⟩ : BufTy).Contents (Elt F) → (⟨S4096, .f32⟩ : BufTy).Contents (Elt F) → (⟨S64, .f32⟩ : BufTy).Contents (Elt F)) ::
  nullary main_cst_53 (constant S_ .f32 0x3F800000#32) ::
  unary main_cst_53 main_v243 (broadcastInDim S64 ![] bcast_S_S64 : (⟨S_, .f32⟩ : BufTy).Contents (Elt F) → (⟨S64, .f32⟩ : BufTy).Contents (Elt F)) ::
  []
/-- The buffers those operations write. -/
abbrev w32 : List (Ref sig .tc) := [main_v241, main_v242, main_cst_53, main_v243]
theorem hW32 : (s32 (F := F)).Forall fun op => op.writes ⊆ ((w32.map (Proc.devRef (τ := τ) .tc)).toFinset) :=
  ⟨writes_sub_of_mem (y := main_v241) rfl (by decide),
   writes_sub_of_mem (y := main_v242) rfl (by decide),
   writes_sub_of_mem (y := main_cst_53) rfl (by decide),
   writes_sub_of_mem (y := main_v243) rfl (by decide)⟩
theorem keep32 (r : Ref sig .tc) (hr : r ∉ w32) (W : Valuation τ sig (Elt F)) :
    after s32 W (Proc.devRef .tc r) = W (Proc.devRef .tc r) := after_of_writes_sub s32 W hW32 hr
theorem sub32 : (s32 (F := F)).Forall fun op => op.bufs ⊆ tcRefs τ sig :=
  ⟨unary_bufs_sub .., ternary_bufs_sub .., nullary_bufs_sub .., unary_bufs_sub ..⟩
theorem fresh32 : ∀ op ∈ (s32 (F := F)), op.fresh = ∅ := by
  intro _ h; (repeat (cases h with | head => rfl | tail _ h => ?_)); exact nomatch h

/-- Operations 324 … 327 of the reference's @main, in order. -/
abbrev s33 : List (HloOp τ sig (Elt F)) :=
  binary main_v242 main_v243 main_v244 (maximumf : (⟨S64, .f32⟩ : BufTy).Contents (Elt F) → (⟨S64, .f32⟩ : BufTy).Contents (Elt F) → (⟨S64, .f32⟩ : BufTy).Contents (Elt F)) ::
  unary main_v244 main_v245 (broadcastInDim S64x1 ![0] bcast_S64_S64x1_0 : (⟨S64, .f32⟩ : BufTy).Contents (Elt F) → (⟨S64x1, .f32⟩ : BufTy).Contents (Elt F)) ::
  unary main_v245 main_v246 (broadcastInDim S64x128 ![0, 1] bcast_S64x1_S64x128_0_1 : (⟨S64x1, .f32⟩ : BufTy).Contents (Elt F) → (⟨S64x128, .f32⟩ : BufTy).Contents (Elt F)) ::
  binary main_v238 main_v246 main_v247 (Host.divf : (⟨S64x128, .f32⟩ : BufTy).Contents (Elt F) → (⟨S64x128, .f32⟩ : BufTy).Contents (Elt F) → (⟨S64x128, .f32⟩ : BufTy).Contents (Elt F)) ::
  []
/-- The buffers those operations write. -/
abbrev w33 : List (Ref sig .tc) := [main_v244, main_v245, main_v246, main_v247]
theorem hW33 : (s33 (F := F)).Forall fun op => op.writes ⊆ ((w33.map (Proc.devRef (τ := τ) .tc)).toFinset) :=
  ⟨writes_sub_of_mem (y := main_v244) rfl (by decide),
   writes_sub_of_mem (y := main_v245) rfl (by decide),
   writes_sub_of_mem (y := main_v246) rfl (by decide),
   writes_sub_of_mem (y := main_v247) rfl (by decide)⟩
theorem keep33 (r : Ref sig .tc) (hr : r ∉ w33) (W : Valuation τ sig (Elt F)) :
    after s33 W (Proc.devRef .tc r) = W (Proc.devRef .tc r) := after_of_writes_sub s33 W hW33 hr
theorem sub33 : (s33 (F := F)).Forall fun op => op.bufs ⊆ tcRefs τ sig :=
  ⟨binary_bufs_sub .., unary_bufs_sub .., unary_bufs_sub .., binary_bufs_sub ..⟩
theorem fresh33 : ∀ op ∈ (s33 (F := F)), op.fresh = ∅ := by
  intro _ h; (repeat (cases h with | head => rfl | tail _ h => ?_)); exact nomatch h

/-- Operations 328 … 339 of the reference's @main, in order. -/
abbrev s34 : List (HloOp τ sig (Elt F)) :=
  nary ![main_v9, main_v19, main_v133, main_v247] main_v248 (fun u => concatenate S64x448 1 [⟨S64x128, u 0⟩, ⟨S64x64, u 1⟩, ⟨S64x128, u 2⟩, ⟨S64x128, u 3⟩] concatenates_S64x128_S64x64_S64x128_S64x128_S64x448_d1) ::
  binary main_v248 main_arg24 main_v249 ((fun l r => Host.dotGeneral dot_S64x448_S448x128_S64x128_1_0_0_1_n_n none l r) : (⟨S64x448, .f32⟩ : BufTy).Contents (Elt F) → (⟨S448x128, .f32⟩ : BufTy).Contents (Elt F) → (⟨S64x128, .f32⟩ : BufTy).Contents (Elt F)) ::
  unary main_arg25 main_v250 (broadcastInDim S1x128 ![1] bcast_S128_S1x128_1 : (⟨S128, .f32⟩ : BufTy).Contents (Elt F) → (⟨S1x128, .f32⟩ : BufTy).Contents (Elt F)) ::
  unary main_v250 main_v251 (broadcastInDim S64x128 ![0, 1] bcast_S1x128_S64x128_0_1 : (⟨S1x128, .f32⟩ : BufTy).Contents (Elt F) → (⟨S64x128, .f32⟩ : BufTy).Contents (Elt F)) ::
  binary main_v249 main_v251 main_v252 (addf : (⟨S64x128, .f32⟩ : BufTy).Contents (Elt F) → (⟨S64x128, .f32⟩ : BufTy).Contents (Elt F) → (⟨S64x128, .f32⟩ : BufTy).Contents (Elt F)) ::
  TRef.nullary (TRef.of (T := ⟨S_, .f32⟩) main_call12_cst) (constant S_ .f32 0x00000000#32) ::
  TRef.unary (TRef.of (T := ⟨S_, .f32⟩) main_call12_cst) (TRef.of (T := ⟨S64x128, .f32⟩) main_call12_v0) (broadcastInDim S64x128 ![] bcast_S_S64x128) ::
  TRef.binary (TRef.of (T := ⟨S64x128, .f32⟩) main_v252) (TRef.of (T := ⟨S64x128, .f32⟩) main_call12_v0) (TRef.of (T := ⟨S64x128, .f32⟩) main_v253) maximumf ::
  binary main_v253 main_arg26 main_v254 ((fun l r => Host.dotGeneral dot_S64x128_S128x2_S64x2_1_0_0_1_n_n none l r) : (⟨S64x128, .f32⟩ : BufTy).Contents (Elt F) → (⟨S128x2, .f32⟩ : BufTy).Contents (Elt F) → (⟨S64x2, .f32⟩ : BufTy).Contents (Elt F)) ::
  unary main_arg27 main_v255 (broadcastInDim S1x2 ![1] bcast_S2_S1x2_1 : (⟨S2, .f32⟩ : BufTy).Contents (Elt F) → (⟨S1x2, .f32⟩ : BufTy).Contents (Elt F)) ::
  unary main_v255 main_v256 (broadcastInDim S64x2 ![0, 1] bcast_S1x2_S64x2_0_1 : (⟨S1x2, .f32⟩ : BufTy).Contents (Elt F) → (⟨S64x2, .f32⟩ : BufTy).Contents (Elt F)) ::
  binary main_v254 main_v256 main_v257 (addf : (⟨S64x2, .f32⟩ : BufTy).Contents (Elt F) → (⟨S64x2, .f32⟩ : BufTy).Contents (Elt F) → (⟨S64x2, .f32⟩ : BufTy).Contents (Elt F)) ::
  []
/-- The buffers those operations write. -/
abbrev w34 : List (Ref sig .tc) := [main_v248, main_v249, main_v250, main_v251, main_v252, main_call12_cst, main_call12_v0, main_v253, main_v254, main_v255, main_v256, main_v257]
theorem hW34 : (s34 (F := F)).Forall fun op => op.writes ⊆ ((w34.map (Proc.devRef (τ := τ) .tc)).toFinset) :=
  ⟨writes_sub_of_mem (y := main_v248) rfl (by decide),
   writes_sub_of_mem (y := main_v249) rfl (by decide),
   writes_sub_of_mem (y := main_v250) rfl (by decide),
   writes_sub_of_mem (y := main_v251) rfl (by decide),
   writes_sub_of_mem (y := main_v252) rfl (by decide),
   writes_sub_of_mem (y := main_call12_cst) rfl (by decide),
   writes_sub_of_mem (y := main_call12_v0) rfl (by decide),
   writes_sub_of_mem (y := main_v253) rfl (by decide),
   writes_sub_of_mem (y := main_v254) rfl (by decide),
   writes_sub_of_mem (y := main_v255) rfl (by decide),
   writes_sub_of_mem (y := main_v256) rfl (by decide),
   writes_sub_of_mem (y := main_v257) rfl (by decide)⟩
theorem keep34 (r : Ref sig .tc) (hr : r ∉ w34) (W : Valuation τ sig (Elt F)) :
    after s34 W (Proc.devRef .tc r) = W (Proc.devRef .tc r) := after_of_writes_sub s34 W hW34 hr
theorem sub34 : (s34 (F := F)).Forall fun op => op.bufs ⊆ tcRefs τ sig :=
  ⟨nary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩
theorem fresh34 : ∀ op ∈ (s34 (F := F)), op.fresh = ∅ := by
  intro _ h; (repeat (cases h with | head => rfl | tail _ h => ?_)); exact nomatch h

/-- Operations 340 … 342 of the reference's @main, in order. -/
abbrev s35 : List (HloOp τ sig (Elt F)) :=
  TRef.nullary (TRef.of (T := ⟨S_, .f32⟩) main_call13_cst) (constant S_ .f32 0x00000000#32) ::
  TRef.unary (TRef.of (T := ⟨S_, .f32⟩) main_call13_cst) (TRef.of (T := ⟨S64x2, .f32⟩) main_call13_v0) (broadcastInDim S64x2 ![] bcast_S_S64x2) ::
  TRef.binary (TRef.of (T := ⟨S64x2, .f32⟩) main_v257) (TRef.of (T := ⟨S64x2, .f32⟩) main_call13_v0) (TRef.of (T := ⟨S64x2, .f32⟩) main_v258) maximumf ::
  []
/-- The buffers those operations write. -/
abbrev w35 : List (Ref sig .tc) := [main_call13_cst, main_call13_v0, main_v258]
theorem hW35 : (s35 (F := F)).Forall fun op => op.writes ⊆ ((w35.map (Proc.devRef (τ := τ) .tc)).toFinset) :=
  ⟨writes_sub_of_mem (y := main_call13_cst) rfl (by decide),
   writes_sub_of_mem (y := main_call13_v0) rfl (by decide),
   writes_sub_of_mem (y := main_v258) rfl (by decide)⟩
theorem keep35 (r : Ref sig .tc) (hr : r ∉ w35) (W : Valuation τ sig (Elt F)) :
    after s35 W (Proc.devRef .tc r) = W (Proc.devRef .tc r) := after_of_writes_sub s35 W hW35 hr
theorem sub35 : (s35 (F := F)).Forall fun op => op.bufs ⊆ tcRefs τ sig :=
  ⟨nullary_bufs_sub .., unary_bufs_sub .., binary_bufs_sub ..⟩
theorem fresh35 : ∀ op ∈ (s35 (F := F)), op.fresh = ∅ := by
  intro _ h; (repeat (cases h with | head => rfl | tail _ h => ?_)); exact nomatch h

/-- Statements 241 … of the reference's @main (its window 4), as one line of operations. -/
abbrev opsP4 : List (HloOp τ sig (Elt F)) := s27 ++ (s28 ++ (s29 ++ (s30 ++ (s31 ++ (s32)))))
theorem subP4 : (opsP4 (F := F)).Forall fun op => op.bufs ⊆ tcRefs τ sig :=
  forall_append' sub27 (forall_append' sub28 (forall_append' sub29 (forall_append' sub30 (forall_append' sub31 (sub32)))))
theorem freshP4 : ∀ op ∈ (opsP4 (F := F)), op.fresh = ∅ :=
  fresh_append fresh27 (fresh_append fresh28 (fresh_append fresh29 (fresh_append fresh30 (fresh_append fresh31 (fresh32)))))
set_option maxRecDepth 8192 in
set_option maxHeartbeats 4000000 in
theorem part4_eq (c : Dev nD) : main_part4 (F := F) c = seq opsP4 := rfl

/-- Statements 301 … of the reference's @main (its window 5), as one line of operations. -/
abbrev opsP5 : List (HloOp τ sig (Elt F)) := s33 ++ (s34 ++ (s35))
theorem subP5 : (opsP5 (F := F)).Forall fun op => op.bufs ⊆ tcRefs τ sig :=
  forall_append' sub33 (forall_append' sub34 (sub35))
theorem freshP5 : ∀ op ∈ (opsP5 (F := F)), op.fresh = ∅ :=
  fresh_append fresh33 (fresh_append fresh34 (fresh35))
set_option maxRecDepth 8192 in
set_option maxHeartbeats 4000000 in
theorem part5_eq (c : Dev nD) : main_part5 (F := F) c = seq opsP5 := rfl

end Cert.Proof.RefSide

end
-- ==== Proof.RefMain.lean ====
/- The reference's @main is its operations run in order, and its run: every weakly fair execution terminates with each
   buffer at the operations' fold over the launch contents. -/
import proofs.«161272_j16312285791078_1_alg».proof.Proof.Gen.ReferenceIdeal
import Idealize.ShloMosaic.Lib.StableHlo.Run
import proofs.«161272_j16312285791078_1_alg».proof.Proof.RefOpsA
import proofs.«161272_j16312285791078_1_alg».proof.Proof.RefOpsB
import proofs.«161272_j16312285791078_1_alg».proof.Proof.RefOpsC

noncomputable section

namespace Cert.Proof.RefSide

open Cert.ReferenceIdeal Cert.ReferenceIdeal.Gen Idealize.ShloMosaic Idealize.ShloMosaic.TcCoe Idealize.SL.Sem Idealize.ShloMosaic.StableHlo

variable {F : FTy → Type} [FloatOps F]

/-- The reference's @main as one line of operations: its six windows in a row. -/
abbrev ops : List (HloOp τ sig (Elt F)) := opsP0 ++ (opsP1 ++ (opsP2 ++ (opsP3 ++ (opsP4 ++ (opsP5)))))

theorem main_eq (c : Dev nD) : main (F := F) c = seq ops := by
  unfold main
  rw [part0_eq, part1_eq, part2_eq, part3_eq, part4_eq, part5_eq]
  simp only [ops, opsP0, opsP1, opsP2, opsP3, opsP4, opsP5, seq_append]

theorem scopedRefs_eq : (Finset.univ.filter fun b : Ref sig .tc => b.isScoped) = ∅ := by decide
theorem scopedSems_eq : (Finset.univ.filter fun sm : SemLoc sig => sm.isScoped .tc) = ∅ := by decide

theorem ops_sub : (ops (F := F)).Forall fun op => op.bufs ⊆ tcRefs τ sig :=
  forall_append' subP0 (forall_append' subP1 (forall_append' subP2 (forall_append' subP3 (forall_append' subP4 (subP5)))))

theorem ops_fresh : ∀ op ∈ (ops (F := F)), op.fresh = ∅ :=
  fresh_append freshP0 (fresh_append freshP1 (fresh_append freshP2 (fresh_append freshP3 (fresh_append freshP4 (freshP5)))))

/-- Every weakly fair execution of the reference terminates, each TensorCore buffer ending at the fold of the
    operations over its launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ (fun _ => ops_fresh)

end Cert.Proof.RefSide

end
-- ==== Proof.RefSt0.lean ====
/- What each stretch of the reference's @main leaves in the buffers it writes that later operations read: the named
   value of that buffer, given that the buffers the stretch reads from before it hold their named values. -/
import proofs.«161272_j16312285791078_1_alg».proof.Proof.Gen.ReferenceIdeal
import Idealize.ShloMosaic.Lib.StableHlo.Run
import proofs.«161272_j16312285791078_1_alg».proof.Proof.RefVals
import proofs.«161272_j16312285791078_1_alg».proof.Proof.RefOpsA

noncomputable section

namespace Cert.Proof.RefSide

open Cert.ReferenceIdeal Cert.ReferenceIdeal.Gen Idealize.ShloMosaic Idealize.ShloMosaic.TcCoe Idealize.SL.Sem Idealize.ShloMosaic.StableHlo

variable {F : FTy → Type} [FloatOps F]
theorem st0_v8 (W : Valuation τ sig (Elt F)) (A : Args F)
    (h_arg0 : W (Proc.devRef .tc main_arg0) = A.a0) (h_arg8 : W (Proc.devRef .tc main_arg8) = A.a8) (h_arg9 : W (Proc.devRef .tc main_arg9) = A.a9) (h_arg10 : W (Proc.devRef .tc main_arg10) = A.a10) (h_arg11 : W (Proc.devRef .tc main_arg11) = A.a11) :
    after s0 W (Proc.devRef .tc main_v8) = val_main_v8 A := by
  after_results_simp
  try simp only [TRef.toBuf, TRef.ofBuf, cast_eq, h_arg0, h_arg8, h_arg9, h_arg10, h_arg11]
  all_goals rfl

theorem st0_call1_cst (W : Valuation τ sig (Elt F)) (A : Args F) :
    after s0 W (Proc.devRef .tc main_call1_cst) = val_main_call1_cst A := by
  after_results_simp
  try simp only [TRef.toBuf, TRef.ofBuf, cast_eq]
  all_goals rfl

theorem st1_v9 (W : Valuation τ sig (Elt F)) (A : Args F)
    (h_v8 : W (Proc.devRef .tc main_v8) = val_main_v8 A) (h_call1_cst : W (Proc.devRef .tc main_call1_cst) = val_main_call1_cst A) :
    after s1 W (Proc.devRef .tc main_v9) = val_main_v9 A := by
  after_results_simp
  try simp only [TRef.toBuf, TRef.ofBuf, cast_eq, h_v8, h_call1_cst]
  all_goals rfl

theorem st1_v15 (W : Valuation τ sig (Elt F)) (A : Args F)
    (h_arg1 : W (Proc.devRef .tc main_arg1) = A.a1) (h_arg12 : W (Proc.devRef .tc main_arg12) = A.a12) (h_arg13 : W (Proc.devRef .tc main_arg13) = A.a13) (h_arg14 : W (Proc.devRef .tc main_arg14) = A.a14) :
    after s1 W (Proc.devRef .tc main_v15) = val_main_v15 A := by
  after_results_simp
  try simp only [TRef.toBuf, TRef.ofBuf, cast_eq, h_arg1, h_arg12, h_arg13, h_arg14]
  all_goals rfl

theorem st1_v17 (W : Valuation τ sig (Elt F)) (A : Args F)
    (h_arg15 : W (Proc.devRef .tc main_arg15) = A.a15) :
    after s1 W (Proc.devRef .tc main_v17) = val_main_v17 A := by
  after_results_simp
  try simp only [TRef.toBuf, TRef.ofBuf, cast_eq, h_arg15]
  all_goals rfl

theorem st2_v19 (W : Valuation τ sig (Elt F)) (A : Args F)
    (h_v15 : W (Proc.devRef .tc main_v15) = val_main_v15 A) (h_v17 : W (Proc.devRef .tc main_v17) = val_main_v17 A) :
    after s2 W (Proc.devRef .tc main_v19) = val_main_v19 A := by
  after_results_simp
  try simp only [TRef.toBuf, TRef.ofBuf, cast_eq, h_v15, h_v17]
  all_goals rfl

theorem st2_v20 (W : Valuation τ sig (Elt F)) (A : Args F)
    (h_arg2 : W (Proc.devRef .tc main_arg2) = A.a2) (h_arg16 : W (Proc.devRef .tc main_arg16) = A.a16) :
    after s2 W (Proc.devRef .tc main_v20) = val_main_v20 A := by
  after_results_simp
  try simp only [TRef.toBuf, TRef.ofBuf, cast_eq, h_arg2, h_arg16]
  all_goals rfl

theorem st2_v22 (W : Valuation τ sig (Elt F)) (A : Args F)
    (h_arg4 : W (Proc.devRef .tc main_arg4) = A.a4) :
    after s2 W (Proc.devRef .tc main_v22) = val_main_v22 A := by
  after_results_simp
  try simp only [TRef.toBuf, TRef.ofBuf, cast_eq, h_arg4]
  all_goals rfl

theorem st2_v23 (W : Valuation τ sig (Elt F)) (A : Args F) :
    after s2 W (Proc.devRef .tc main_v23) = val_main_v23 A := by
  after_results_simp
  try simp only [TRef.toBuf, TRef.ofBuf, cast_eq]
  all_goals rfl

theorem st3_v24 (W : Valuation τ sig (Elt F)) (A : Args F)
    (h_v22 : W (Proc.devRef .tc main_v22) = val_main_v22 A) (h_v23 : W (Proc.devRef .tc main_v23) = val_main_v23 A) :
    after s3 W (Proc.devRef .tc main_v24) = val_main_v24 A := by
  after_results_simp
  try simp only [TRef.toBuf, TRef.ofBuf, cast_eq, h_v22, h_v23]
  try rw [h_v22]
  try rw [h_v23]
  all_goals rfl

theorem st3_v26 (W : Valuation τ sig (Elt F)) (A : Args F)
    (h_arg4 : W (Proc.devRef .tc main_arg4) = A.a4) :
    after s3 W (Proc.devRef .tc main_v26) = val_main_v26 A := by
  after_results_simp
  try simp only [TRef.toBuf, TRef.ofBuf, cast_eq, h_arg4]
  all_goals rfl

theorem st3_v27 (W : Valuation τ sig (Elt F)) (A : Args F) :
    after s3 W (Proc.devRef .tc main_v27) = val_main_v27 A := by
  after_results_simp
  try simp only [TRef.toBuf, TRef.ofBuf, cast_eq]
  all_goals rfl

theorem st4_v28 (W : Valuation τ sig (Elt F)) (A : Args F)
    (h_v26 : W (Proc.devRef .tc main_v26) = val_main_v26 A) (h_v27 : W (Proc.devRef .tc main_v27) = val_main_v27 A) :
    after s4 W (Proc.devRef .tc main_v28) = val_main_v28 A := by
  after_results_simp
  try simp only [TRef.toBuf, TRef.ofBuf, cast_eq, h_v26, h_v27]
  try rw [h_v26]
  try rw [h_v27]
  all_goals rfl

theorem st4_v32 (W : Valuation τ sig (Elt F)) (A : Args F)
    (h_v26 : W (Proc.devRef .tc main_v26) = val_main_v26 A) (h_v27 : W (Proc.devRef .tc main_v27) = val_main_v27 A) :
    after s4 W (Proc.devRef .tc main_v32) = val_main_v32 A := by
  after_results_simp
  try simp only [TRef.toBuf, TRef.ofBuf, cast_eq, h_v26, h_v27]
  try rw [h_v26]
  try rw [h_v27]
  all_goals rfl

theorem st4_v34 (W : Valuation τ sig (Elt F)) (A : Args F)
    (h_v26 : W (Proc.devRef .tc main_v26) = val_main_v26 A) (h_v27 : W (Proc.devRef .tc main_v27) = val_main_v27 A) :
    after s4 W (Proc.devRef .tc main_v34) = val_main_v34 A := by
  after_results_simp
  try simp only [TRef.toBuf, TRef.ofBuf, cast_eq, h_v26, h_v27]
  try rw [h_v26]
  try rw [h_v27]
  all_goals rfl

theorem st4_v35 (W : Valuation τ sig (Elt F)) (A : Args F) :
    after s4 W (Proc.devRef .tc main_v35) = val_main_v35 A := by
  after_results_simp
  try simp only [TRef.toBuf, TRef.ofBuf, cast_eq]
  all_goals rfl

theorem st5_v38 (W : Valuation τ sig (Elt F)) (A : Args F)
    (h_v34 : W (Proc.devRef .tc main_v34) = val_main_v34 A) (h_v32 : W (Proc.devRef .tc main_v32) = val_main_v32 A) (h_v35 : W (Proc.devRef .tc main_v35) = val_main_v35 A) :
    after s5 W (Proc.devRef .tc main_v38) = val_main_v38 A := by
  after_results_simp
  try simp only [TRef.toBuf, TRef.ofBuf, cast_eq, h_v34, h_v32, h_v35]
  all_goals rfl

theorem st5_v40 (W : Valuation τ sig (Elt F)) (A : Args F)
    (h_v24 : W (Proc.devRef .tc main_v24) = val_main_v24 A) :
    after s5 W (Proc.devRef .tc main_v40) = val_main_v40 A := by
  after_results_simp
  try simp only [TRef.toBuf, TRef.ofBuf, cast_eq, h_v24]
  all_goals rfl

theorem st5_v42 (W : Valuation τ sig (Elt F)) (A : Args F)
    (h_v24 : W (Proc.devRef .tc main_v24) = val_main_v24 A) :
    after s5 W (Proc.devRef .tc main_v42) = val_main_v42 A := by
  after_results_simp
  try simp only [TRef.toBuf, TRef.ofBuf, cast_eq, h_v24]
  all_goals rfl

theorem st6_v45 (W : Valuation τ sig (Elt F)) (A : Args F)
    (h_v38 : W (Proc.devRef .tc main_v38) = val_main_v38 A) (h_v40 : W (Proc.devRef .tc main_v40) = val_main_v40 A) (h_v42 : W (Proc.devRef .tc main_v42) = val_main_v42 A) (h_v24 : W (Proc.devRef .tc main_v24) = val_main_v24 A) :
    after s6 W (Proc.devRef .tc main_v45) = val_main_v45 A := by
  after_results_simp
  try simp only [TRef.toBuf, TRef.ofBuf, cast_eq, h_v38, h_v40, h_v42, h_v24]
  all_goals rfl

theorem st6_v50 (W : Valuation τ sig (Elt F)) (A : Args F)
    (h_v28 : W (Proc.devRef .tc main_v28) = val_main_v28 A) :
    after s6 W (Proc.devRef .tc main_v50) = val_main_v50 A := by
  after_results_simp
  try simp only [TRef.toBuf, TRef.ofBuf, cast_eq, h_v28]
  all_goals rfl

end Cert.Proof.RefSide

end
-- ==== Proof.RefSt1.lean ====
/- What each stretch of the reference's @main leaves in the buffers it writes that later operations read: the named
   value of that buffer, given that the buffers the stretch reads from before it hold their named values. -/
import proofs.«161272_j16312285791078_1_alg».proof.Proof.Gen.ReferenceIdeal
import Idealize.ShloMosaic.Lib.StableHlo.Run
import proofs.«161272_j16312285791078_1_alg».proof.Proof.RefVals
import proofs.«161272_j16312285791078_1_alg».proof.Proof.RefOpsA

noncomputable section

namespace Cert.Proof.RefSide

open Cert.ReferenceIdeal Cert.ReferenceIdeal.Gen Idealize.ShloMosaic Idealize.ShloMosaic.TcCoe Idealize.SL.Sem Idealize.ShloMosaic.StableHlo

variable {F : FTy → Type} [FloatOps F]
theorem st7_v54 (W : Valuation τ sig (Elt F)) (A : Args F)
    (h_v45 : W (Proc.devRef .tc main_v45) = val_main_v45 A) (h_v38 : W (Proc.devRef .tc main_v38) = val_main_v38 A) (h_v50 : W (Proc.devRef .tc main_v50) = val_main_v50 A) :
    after s7 W (Proc.devRef .tc main_v54) = val_main_v54 A := by
  after_results_simp
  try simp only [TRef.toBuf, TRef.ofBuf, cast_eq, h_v45, h_v38, h_v50]
  all_goals rfl

theorem st7_v60 (W : Valuation τ sig (Elt F)) (A : Args F)
    (h_v24 : W (Proc.devRef .tc main_v24) = val_main_v24 A) :
    after s7 W (Proc.devRef .tc main_v60) = val_main_v60 A := by
  after_results_simp
  try simp only [TRef.toBuf, TRef.ofBuf, cast_eq, h_v24]
  all_goals rfl

theorem st8_v69 (W : Valuation τ sig (Elt F)) (A : Args F)
    (h_v28 : W (Proc.devRef .tc main_v28) = val_main_v28 A) (h_v54 : W (Proc.devRef .tc main_v54) = val_main_v54 A) (h_v20 : W (Proc.devRef .tc main_v20) = val_main_v20 A) (h_v60 : W (Proc.devRef .tc main_v60) = val_main_v60 A) (h_arg17 : W (Proc.devRef .tc main_arg17) = A.a17) :
    after s8 W (Proc.devRef .tc main_v69) = val_main_v69 A := by
  after_results_simp
  try simp only [TRef.toBuf, TRef.ofBuf, cast_eq, h_v28, h_v54, h_v20, h_v60, h_arg17]
  all_goals rfl

theorem st8_call5_v0 (W : Valuation τ sig (Elt F)) (A : Args F) :
    after s8 W (Proc.devRef .tc main_call5_v0) = val_main_call5_v0 A := by
  after_results_simp
  try simp only [TRef.toBuf, TRef.ofBuf, cast_eq]
  all_goals rfl

theorem st9_v71 (W : Valuation τ sig (Elt F)) (A : Args F)
    (h_v69 : W (Proc.devRef .tc main_v69) = val_main_v69 A) (h_call5_v0 : W (Proc.devRef .tc main_call5_v0) = val_main_call5_v0 A) (h_arg18 : W (Proc.devRef .tc main_arg18) = A.a18) :
    after s9 W (Proc.devRef .tc main_v71) = val_main_v71 A := by
  after_results_simp
  try simp only [TRef.toBuf, TRef.ofBuf, cast_eq, h_v69, h_call5_v0, h_arg18]
  all_goals rfl

theorem st9_v73 (W : Valuation τ sig (Elt F)) (A : Args F)
    (h_arg4 : W (Proc.devRef .tc main_arg4) = A.a4) :
    after s9 W (Proc.devRef .tc main_v73) = val_main_v73 A := by
  after_results_simp
  try simp only [TRef.toBuf, TRef.ofBuf, cast_eq, h_arg4]
  all_goals rfl

theorem st9_v74 (W : Valuation τ sig (Elt F)) (A : Args F) :
    after s9 W (Proc.devRef .tc main_v74) = val_main_v74 A := by
  after_results_simp
  try simp only [TRef.toBuf, TRef.ofBuf, cast_eq]
  all_goals rfl

theorem st10_v75 (W : Valuation τ sig (Elt F)) (A : Args F)
    (h_v73 : W (Proc.devRef .tc main_v73) = val_main_v73 A) (h_v74 : W (Proc.devRef .tc main_v74) = val_main_v74 A) :
    after s10 W (Proc.devRef .tc main_v75) = val_main_v75 A := by
  after_results_simp
  try simp only [TRef.toBuf, TRef.ofBuf, cast_eq, h_v73, h_v74]
  try rw [h_v73]
  try rw [h_v74]
  all_goals rfl

theorem st10_v77 (W : Valuation τ sig (Elt F)) (A : Args F)
    (h_arg4 : W (Proc.devRef .tc main_arg4) = A.a4) :
    after s10 W (Proc.devRef .tc main_v77) = val_main_v77 A := by
  after_results_simp
  try simp only [TRef.toBuf, TRef.ofBuf, cast_eq, h_arg4]
  all_goals rfl

theorem st10_v78 (W : Valuation τ sig (Elt F)) (A : Args F) :
    after s10 W (Proc.devRef .tc main_v78) = val_main_v78 A := by
  after_results_simp
  try simp only [TRef.toBuf, TRef.ofBuf, cast_eq]
  all_goals rfl

theorem st11_v79 (W : Valuation τ sig (Elt F)) (A : Args F)
    (h_v77 : W (Proc.devRef .tc main_v77) = val_main_v77 A) (h_v78 : W (Proc.devRef .tc main_v78) = val_main_v78 A) :
    after s11 W (Proc.devRef .tc main_v79) = val_main_v79 A := by
  after_results_simp
  try simp only [TRef.toBuf, TRef.ofBuf, cast_eq, h_v77, h_v78]
  try rw [h_v77]
  try rw [h_v78]
  all_goals rfl

theorem st11_v83 (W : Valuation τ sig (Elt F)) (A : Args F)
    (h_v77 : W (Proc.devRef .tc main_v77) = val_main_v77 A) (h_v78 : W (Proc.devRef .tc main_v78) = val_main_v78 A) :
    after s11 W (Proc.devRef .tc main_v83) = val_main_v83 A := by
  after_results_simp
  try simp only [TRef.toBuf, TRef.ofBuf, cast_eq, h_v77, h_v78]
  try rw [h_v77]
  try rw [h_v78]
  all_goals rfl

theorem st11_v85 (W : Valuation τ sig (Elt F)) (A : Args F)
    (h_v77 : W (Proc.devRef .tc main_v77) = val_main_v77 A) (h_v78 : W (Proc.devRef .tc main_v78) = val_main_v78 A) :
    after s11 W (Proc.devRef .tc main_v85) = val_main_v85 A := by
  after_results_simp
  try simp only [TRef.toBuf, TRef.ofBuf, cast_eq, h_v77, h_v78]
  try rw [h_v77]
  try rw [h_v78]
  all_goals rfl

theorem st11_v86 (W : Valuation τ sig (Elt F)) (A : Args F) :
    after s11 W (Proc.devRef .tc main_v86) = val_main_v86 A := by
  after_results_simp
  try simp only [TRef.toBuf, TRef.ofBuf, cast_eq]
  all_goals rfl

theorem st12_v89 (W : Valuation τ sig (Elt F)) (A : Args F)
    (h_v85 : W (Proc.devRef .tc main_v85) = val_main_v85 A) (h_v83 : W (Proc.devRef .tc main_v83) = val_main_v83 A) (h_v86 : W (Proc.devRef .tc main_v86) = val_main_v86 A) :
    after s12 W (Proc.devRef .tc main_v89) = val_main_v89 A := by
  after_results_simp
  try simp only [TRef.toBuf, TRef.ofBuf, cast_eq, h_v85, h_v83, h_v86]
  all_goals rfl

theorem st12_v91 (W : Valuation τ sig (Elt F)) (A : Args F)
    (h_v75 : W (Proc.devRef .tc main_v75) = val_main_v75 A) :
    after s12 W (Proc.devRef .tc main_v91) = val_main_v91 A := by
  after_results_simp
  try simp only [TRef.toBuf, TRef.ofBuf, cast_eq, h_v75]
  all_goals rfl

theorem st12_v93 (W : Valuation τ sig (Elt F)) (A : Args F)
    (h_v75 : W (Proc.devRef .tc main_v75) = val_main_v75 A) :
    after s12 W (Proc.devRef .tc main_v93) = val_main_v93 A := by
  after_results_simp
  try simp only [TRef.toBuf, TRef.ofBuf, cast_eq, h_v75]
  all_goals rfl

theorem st13_v96 (W : Valuation τ sig (Elt F)) (A : Args F)
    (h_v89 : W (Proc.devRef .tc main_v89) = val_main_v89 A) (h_v91 : W (Proc.devRef .tc main_v91) = val_main_v91 A) (h_v93 : W (Proc.devRef .tc main_v93) = val_main_v93 A) (h_v75 : W (Proc.devRef .tc main_v75) = val_main_v75 A) :
    after s13 W (Proc.devRef .tc main_v96) = val_main_v96 A := by
  after_results_simp
  try simp only [TRef.toBuf, TRef.ofBuf, cast_eq, h_v89, h_v91, h_v93, h_v75]
  all_goals rfl

theorem st13_v98 (W : Valuation τ sig (Elt F)) (A : Args F)
    (h_v79 : W (Proc.devRef .tc main_v79) = val_main_v79 A) :
    after s13 W (Proc.devRef .tc main_v98) = val_main_v98 A := by
  after_results_simp
  try simp only [TRef.toBuf, TRef.ofBuf, cast_eq, h_v79]
  all_goals rfl

theorem st13_c_18 (W : Valuation τ sig (Elt F)) (A : Args F) :
    after s13 W (Proc.devRef .tc main_c_18) = val_main_c_18 A := by
  after_results_simp
  try simp only [TRef.toBuf, TRef.ofBuf, cast_eq]
  all_goals rfl

end Cert.Proof.RefSide

end
-- ==== Proof.RefSt2.lean ====
/- What each stretch of the reference's @main leaves in the buffers it writes that later operations read: the named
   value of that buffer, given that the buffers the stretch reads from before it hold their named values. -/
import proofs.«161272_j16312285791078_1_alg».proof.Proof.Gen.ReferenceIdeal
import Idealize.ShloMosaic.Lib.StableHlo.Run
import proofs.«161272_j16312285791078_1_alg».proof.Proof.RefVals
import proofs.«161272_j16312285791078_1_alg».proof.Proof.RefOpsB

noncomputable section

namespace Cert.Proof.RefSide

open Cert.ReferenceIdeal Cert.ReferenceIdeal.Gen Idealize.ShloMosaic Idealize.ShloMosaic.TcCoe Idealize.SL.Sem Idealize.ShloMosaic.StableHlo

variable {F : FTy → Type} [FloatOps F]
theorem st14_v105 (W : Valuation τ sig (Elt F)) (A : Args F)
    (h_v96 : W (Proc.devRef .tc main_v96) = val_main_v96 A) (h_v89 : W (Proc.devRef .tc main_v89) = val_main_v89 A) (h_v98 : W (Proc.devRef .tc main_v98) = val_main_v98 A) (h_v79 : W (Proc.devRef .tc main_v79) = val_main_v79 A) (h_c_18 : W (Proc.devRef .tc main_c_18) = val_main_c_18 A) :
    after s14 W (Proc.devRef .tc main_v105) = val_main_v105 A := by
  after_results_simp
  try simp only [TRef.toBuf, TRef.ofBuf, cast_eq, h_v96, h_v89, h_v98, h_v79, h_c_18]
  all_goals rfl

theorem st14_v107 (W : Valuation τ sig (Elt F)) (A : Args F)
    (h_v75 : W (Proc.devRef .tc main_v75) = val_main_v75 A) :
    after s14 W (Proc.devRef .tc main_v107) = val_main_v107 A := by
  after_results_simp
  try simp only [TRef.toBuf, TRef.ofBuf, cast_eq, h_v75]
  all_goals rfl

theorem st14_v108 (W : Valuation τ sig (Elt F)) (A : Args F) :
    after s14 W (Proc.devRef .tc main_v108) = val_main_v108 A := by
  after_results_simp
  try simp only [TRef.toBuf, TRef.ofBuf, cast_eq]
  all_goals rfl

theorem st15_v117 (W : Valuation τ sig (Elt F)) (A : Args F)
    (h_v79 : W (Proc.devRef .tc main_v79) = val_main_v79 A) (h_v105 : W (Proc.devRef .tc main_v105) = val_main_v105 A) (h_v71 : W (Proc.devRef .tc main_v71) = val_main_v71 A) (h_v107 : W (Proc.devRef .tc main_v107) = val_main_v107 A) (h_v75 : W (Proc.devRef .tc main_v75) = val_main_v75 A) (h_v108 : W (Proc.devRef .tc main_v108) = val_main_v108 A) :
    after s15 W (Proc.devRef .tc main_v117) = val_main_v117 A := by
  after_results_simp
  try simp only [TRef.toBuf, TRef.ofBuf, cast_eq, h_v79, h_v105, h_v71, h_v107, h_v75, h_v108]
  all_goals rfl

theorem st15_v119 (W : Valuation τ sig (Elt F)) (A : Args F)
    (h_arg19 : W (Proc.devRef .tc main_arg19) = A.a19) :
    after s15 W (Proc.devRef .tc main_v119) = val_main_v119 A := by
  after_results_simp
  try simp only [TRef.toBuf, TRef.ofBuf, cast_eq, h_arg19]
  all_goals rfl

theorem st16_v124 (W : Valuation τ sig (Elt F)) (A : Args F)
    (h_arg5 : W (Proc.devRef .tc main_arg5) = A.a5) (h_v117 : W (Proc.devRef .tc main_v117) = val_main_v117 A) (h_v119 : W (Proc.devRef .tc main_v119) = val_main_v119 A) :
    after s16 W (Proc.devRef .tc main_v124) = val_main_v124 A := by
  after_results_simp
  try simp only [TRef.toBuf, TRef.ofBuf, cast_eq, h_arg5, h_v117, h_v119]
  all_goals rfl

theorem st16_v125 (W : Valuation τ sig (Elt F)) (A : Args F) :
    after s16 W (Proc.devRef .tc main_v125) = val_main_v125 A := by
  after_results_simp
  try simp only [TRef.toBuf, TRef.ofBuf, cast_eq]
  all_goals rfl

theorem st16_v126 (W : Valuation τ sig (Elt F)) (A : Args F) :
    after s16 W (Proc.devRef .tc main_v126) = val_main_v126 A := by
  after_results_simp
  try simp only [TRef.toBuf, TRef.ofBuf, cast_eq]
  all_goals rfl

theorem st17_v133 (W : Valuation τ sig (Elt F)) (A : Args F)
    (h_v124 : W (Proc.devRef .tc main_v124) = val_main_v124 A) (h_v126 : W (Proc.devRef .tc main_v126) = val_main_v126 A) (h_arg5 : W (Proc.devRef .tc main_arg5) = A.a5) (h_v125 : W (Proc.devRef .tc main_v125) = val_main_v125 A) :
    after s17 W (Proc.devRef .tc main_v133) = val_main_v133 A := by
  after_results_simp
  try simp only [TRef.toBuf, TRef.ofBuf, cast_eq, h_v124, h_v126, h_arg5, h_v125]
  all_goals rfl

theorem st17_v134 (W : Valuation τ sig (Elt F)) (A : Args F)
    (h_arg3 : W (Proc.devRef .tc main_arg3) = A.a3) (h_arg20 : W (Proc.devRef .tc main_arg20) = A.a20) :
    after s17 W (Proc.devRef .tc main_v134) = val_main_v134 A := by
  after_results_simp
  try simp only [TRef.toBuf, TRef.ofBuf, cast_eq, h_arg3, h_arg20]
  all_goals rfl

theorem st17_v136 (W : Valuation τ sig (Elt F)) (A : Args F)
    (h_arg6 : W (Proc.devRef .tc main_arg6) = A.a6) :
    after s17 W (Proc.devRef .tc main_v136) = val_main_v136 A := by
  after_results_simp
  try simp only [TRef.toBuf, TRef.ofBuf, cast_eq, h_arg6]
  all_goals rfl

theorem st17_v137 (W : Valuation τ sig (Elt F)) (A : Args F) :
    after s17 W (Proc.devRef .tc main_v137) = val_main_v137 A := by
  after_results_simp
  try simp only [TRef.toBuf, TRef.ofBuf, cast_eq]
  all_goals rfl

theorem st18_v138 (W : Valuation τ sig (Elt F)) (A : Args F)
    (h_v136 : W (Proc.devRef .tc main_v136) = val_main_v136 A) (h_v137 : W (Proc.devRef .tc main_v137) = val_main_v137 A) :
    after s18 W (Proc.devRef .tc main_v138) = val_main_v138 A := by
  after_results_simp
  try simp only [TRef.toBuf, TRef.ofBuf, cast_eq, h_v136, h_v137]
  try rw [h_v136]
  try rw [h_v137]
  all_goals rfl

theorem st18_v140 (W : Valuation τ sig (Elt F)) (A : Args F)
    (h_arg6 : W (Proc.devRef .tc main_arg6) = A.a6) :
    after s18 W (Proc.devRef .tc main_v140) = val_main_v140 A := by
  after_results_simp
  try simp only [TRef.toBuf, TRef.ofBuf, cast_eq, h_arg6]
  all_goals rfl

theorem st18_v141 (W : Valuation τ sig (Elt F)) (A : Args F) :
    after s18 W (Proc.devRef .tc main_v141) = val_main_v141 A := by
  after_results_simp
  try simp only [TRef.toBuf, TRef.ofBuf, cast_eq]
  all_goals rfl

theorem st19_v142 (W : Valuation τ sig (Elt F)) (A : Args F)
    (h_v140 : W (Proc.devRef .tc main_v140) = val_main_v140 A) (h_v141 : W (Proc.devRef .tc main_v141) = val_main_v141 A) :
    after s19 W (Proc.devRef .tc main_v142) = val_main_v142 A := by
  after_results_simp
  try simp only [TRef.toBuf, TRef.ofBuf, cast_eq, h_v140, h_v141]
  try rw [h_v140]
  try rw [h_v141]
  all_goals rfl

theorem st19_v146 (W : Valuation τ sig (Elt F)) (A : Args F)
    (h_v140 : W (Proc.devRef .tc main_v140) = val_main_v140 A) (h_v141 : W (Proc.devRef .tc main_v141) = val_main_v141 A) :
    after s19 W (Proc.devRef .tc main_v146) = val_main_v146 A := by
  after_results_simp
  try simp only [TRef.toBuf, TRef.ofBuf, cast_eq, h_v140, h_v141]
  try rw [h_v140]
  try rw [h_v141]
  all_goals rfl

theorem st19_v148 (W : Valuation τ sig (Elt F)) (A : Args F)
    (h_v140 : W (Proc.devRef .tc main_v140) = val_main_v140 A) (h_v141 : W (Proc.devRef .tc main_v141) = val_main_v141 A) :
    after s19 W (Proc.devRef .tc main_v148) = val_main_v148 A := by
  after_results_simp
  try simp only [TRef.toBuf, TRef.ofBuf, cast_eq, h_v140, h_v141]
  try rw [h_v140]
  try rw [h_v141]
  all_goals rfl

end Cert.Proof.RefSide

end
-- ==== Proof.RefSt3.lean ====
/- What each stretch of the reference's @main leaves in the buffers it writes that later operations read: the named
   value of that buffer, given that the buffers the stretch reads from before it hold their named values. -/
import proofs.«161272_j16312285791078_1_alg».proof.Proof.Gen.ReferenceIdeal
import Idealize.ShloMosaic.Lib.StableHlo.Run
import proofs.«161272_j16312285791078_1_alg».proof.Proof.RefVals
import proofs.«161272_j16312285791078_1_alg».proof.Proof.RefOpsB

noncomputable section

namespace Cert.Proof.RefSide

open Cert.ReferenceIdeal Cert.ReferenceIdeal.Gen Idealize.ShloMosaic Idealize.ShloMosaic.TcCoe Idealize.SL.Sem Idealize.ShloMosaic.StableHlo

variable {F : FTy → Type} [FloatOps F]
theorem st20_v152 (W : Valuation τ sig (Elt F)) (A : Args F)
    (h_v148 : W (Proc.devRef .tc main_v148) = val_main_v148 A) (h_v146 : W (Proc.devRef .tc main_v146) = val_main_v146 A) :
    after s20 W (Proc.devRef .tc main_v152) = val_main_v152 A := by
  after_results_simp
  try simp only [TRef.toBuf, TRef.ofBuf, cast_eq, h_v148, h_v146]
  all_goals rfl

theorem st20_v154 (W : Valuation τ sig (Elt F)) (A : Args F)
    (h_v138 : W (Proc.devRef .tc main_v138) = val_main_v138 A) :
    after s20 W (Proc.devRef .tc main_v154) = val_main_v154 A := by
  after_results_simp
  try simp only [TRef.toBuf, TRef.ofBuf, cast_eq, h_v138]
  all_goals rfl

theorem st20_c_32 (W : Valuation τ sig (Elt F)) (A : Args F) :
    after s20 W (Proc.devRef .tc main_c_32) = val_main_c_32 A := by
  after_results_simp
  try simp only [TRef.toBuf, TRef.ofBuf, cast_eq]
  all_goals rfl

theorem st21_v159 (W : Valuation τ sig (Elt F)) (A : Args F)
    (h_v152 : W (Proc.devRef .tc main_v152) = val_main_v152 A) (h_v154 : W (Proc.devRef .tc main_v154) = val_main_v154 A) (h_v138 : W (Proc.devRef .tc main_v138) = val_main_v138 A) (h_c_32 : W (Proc.devRef .tc main_c_32) = val_main_c_32 A) :
    after s21 W (Proc.devRef .tc main_v159) = val_main_v159 A := by
  after_results_simp
  try simp only [TRef.toBuf, TRef.ofBuf, cast_eq, h_v152, h_v154, h_v138, h_c_32]
  all_goals rfl

theorem st21_v164 (W : Valuation τ sig (Elt F)) (A : Args F)
    (h_v142 : W (Proc.devRef .tc main_v142) = val_main_v142 A) :
    after s21 W (Proc.devRef .tc main_v164) = val_main_v164 A := by
  after_results_simp
  try simp only [TRef.toBuf, TRef.ofBuf, cast_eq, h_v142]
  all_goals rfl

theorem st22_v168 (W : Valuation τ sig (Elt F)) (A : Args F)
    (h_v159 : W (Proc.devRef .tc main_v159) = val_main_v159 A) (h_v152 : W (Proc.devRef .tc main_v152) = val_main_v152 A) (h_v164 : W (Proc.devRef .tc main_v164) = val_main_v164 A) :
    after s22 W (Proc.devRef .tc main_v168) = val_main_v168 A := by
  after_results_simp
  try simp only [TRef.toBuf, TRef.ofBuf, cast_eq, h_v159, h_v152, h_v164]
  all_goals rfl

theorem st22_v174 (W : Valuation τ sig (Elt F)) (A : Args F)
    (h_v138 : W (Proc.devRef .tc main_v138) = val_main_v138 A) :
    after s22 W (Proc.devRef .tc main_v174) = val_main_v174 A := by
  after_results_simp
  try simp only [TRef.toBuf, TRef.ofBuf, cast_eq, h_v138]
  all_goals rfl

theorem st23_v183 (W : Valuation τ sig (Elt F)) (A : Args F)
    (h_v142 : W (Proc.devRef .tc main_v142) = val_main_v142 A) (h_v168 : W (Proc.devRef .tc main_v168) = val_main_v168 A) (h_v134 : W (Proc.devRef .tc main_v134) = val_main_v134 A) (h_v174 : W (Proc.devRef .tc main_v174) = val_main_v174 A) (h_arg21 : W (Proc.devRef .tc main_arg21) = A.a21) :
    after s23 W (Proc.devRef .tc main_v183) = val_main_v183 A := by
  after_results_simp
  try simp only [TRef.toBuf, TRef.ofBuf, cast_eq, h_v142, h_v168, h_v134, h_v174, h_arg21]
  all_goals rfl

theorem st23_call9_v0 (W : Valuation τ sig (Elt F)) (A : Args F) :
    after s23 W (Proc.devRef .tc main_call9_v0) = val_main_call9_v0 A := by
  after_results_simp
  try simp only [TRef.toBuf, TRef.ofBuf, cast_eq]
  all_goals rfl

theorem st24_v185 (W : Valuation τ sig (Elt F)) (A : Args F)
    (h_v183 : W (Proc.devRef .tc main_v183) = val_main_v183 A) (h_call9_v0 : W (Proc.devRef .tc main_call9_v0) = val_main_call9_v0 A) (h_arg22 : W (Proc.devRef .tc main_arg22) = A.a22) :
    after s24 W (Proc.devRef .tc main_v185) = val_main_v185 A := by
  after_results_simp
  try simp only [TRef.toBuf, TRef.ofBuf, cast_eq, h_v183, h_call9_v0, h_arg22]
  all_goals rfl

theorem st24_v187 (W : Valuation τ sig (Elt F)) (A : Args F)
    (h_arg6 : W (Proc.devRef .tc main_arg6) = A.a6) :
    after s24 W (Proc.devRef .tc main_v187) = val_main_v187 A := by
  after_results_simp
  try simp only [TRef.toBuf, TRef.ofBuf, cast_eq, h_arg6]
  all_goals rfl

theorem st24_v188 (W : Valuation τ sig (Elt F)) (A : Args F) :
    after s24 W (Proc.devRef .tc main_v188) = val_main_v188 A := by
  after_results_simp
  try simp only [TRef.toBuf, TRef.ofBuf, cast_eq]
  all_goals rfl

theorem st25_v189 (W : Valuation τ sig (Elt F)) (A : Args F)
    (h_v187 : W (Proc.devRef .tc main_v187) = val_main_v187 A) (h_v188 : W (Proc.devRef .tc main_v188) = val_main_v188 A) :
    after s25 W (Proc.devRef .tc main_v189) = val_main_v189 A := by
  after_results_simp
  try simp only [TRef.toBuf, TRef.ofBuf, cast_eq, h_v187, h_v188]
  try rw [h_v187]
  try rw [h_v188]
  all_goals rfl

theorem st25_v191 (W : Valuation τ sig (Elt F)) (A : Args F)
    (h_arg6 : W (Proc.devRef .tc main_arg6) = A.a6) :
    after s25 W (Proc.devRef .tc main_v191) = val_main_v191 A := by
  after_results_simp
  try simp only [TRef.toBuf, TRef.ofBuf, cast_eq, h_arg6]
  all_goals rfl

theorem st25_v192 (W : Valuation τ sig (Elt F)) (A : Args F) :
    after s25 W (Proc.devRef .tc main_v192) = val_main_v192 A := by
  after_results_simp
  try simp only [TRef.toBuf, TRef.ofBuf, cast_eq]
  all_goals rfl

theorem st26_v193 (W : Valuation τ sig (Elt F)) (A : Args F)
    (h_v191 : W (Proc.devRef .tc main_v191) = val_main_v191 A) (h_v192 : W (Proc.devRef .tc main_v192) = val_main_v192 A) :
    after s26 W (Proc.devRef .tc main_v193) = val_main_v193 A := by
  after_results_simp
  try simp only [TRef.toBuf, TRef.ofBuf, cast_eq, h_v191, h_v192]
  try rw [h_v191]
  try rw [h_v192]
  all_goals rfl

theorem st26_v197 (W : Valuation τ sig (Elt F)) (A : Args F)
    (h_v191 : W (Proc.devRef .tc main_v191) = val_main_v191 A) (h_v192 : W (Proc.devRef .tc main_v192) = val_main_v192 A) :
    after s26 W (Proc.devRef .tc main_v197) = val_main_v197 A := by
  after_results_simp
  try simp only [TRef.toBuf, TRef.ofBuf, cast_eq, h_v191, h_v192]
  try rw [h_v191]
  try rw [h_v192]
  all_goals rfl

end Cert.Proof.RefSide

end
-- ==== Proof.RefSt4.lean ====
/- What each stretch of the reference's @main leaves in the buffers it writes that later operations read: the named
   value of that buffer, given that the buffers the stretch reads from before it hold their named values. -/
import proofs.«161272_j16312285791078_1_alg».proof.Proof.Gen.ReferenceIdeal
import Idealize.ShloMosaic.Lib.StableHlo.Run
import proofs.«161272_j16312285791078_1_alg».proof.Proof.RefVals
import proofs.«161272_j16312285791078_1_alg».proof.Proof.RefOpsC

noncomputable section

namespace Cert.Proof.RefSide

open Cert.ReferenceIdeal Cert.ReferenceIdeal.Gen Idealize.ShloMosaic Idealize.ShloMosaic.TcCoe Idealize.SL.Sem Idealize.ShloMosaic.StableHlo

variable {F : FTy → Type} [FloatOps F]
theorem st27_v203 (W : Valuation τ sig (Elt F)) (A : Args F)
    (h_v197 : W (Proc.devRef .tc main_v197) = val_main_v197 A) :
    after s27 W (Proc.devRef .tc main_v203) = val_main_v203 A := by
  after_results_simp
  try simp only [TRef.toBuf, TRef.ofBuf, cast_eq, h_v197]
  all_goals rfl

theorem st27_c_43 (W : Valuation τ sig (Elt F)) (A : Args F) :
    after s27 W (Proc.devRef .tc main_c_43) = val_main_c_43 A := by
  after_results_simp
  try simp only [TRef.toBuf, TRef.ofBuf, cast_eq]
  all_goals rfl

theorem st28_v210 (W : Valuation τ sig (Elt F)) (A : Args F)
    (h_v203 : W (Proc.devRef .tc main_v203) = val_main_v203 A) (h_v189 : W (Proc.devRef .tc main_v189) = val_main_v189 A) (h_c_43 : W (Proc.devRef .tc main_c_43) = val_main_c_43 A) :
    after s28 W (Proc.devRef .tc main_v210) = val_main_v210 A := by
  after_results_simp
  try simp only [TRef.toBuf, TRef.ofBuf, cast_eq, h_v203, h_v189, h_c_43]
  all_goals rfl

theorem st28_v212 (W : Valuation τ sig (Elt F)) (A : Args F)
    (h_v193 : W (Proc.devRef .tc main_v193) = val_main_v193 A) :
    after s28 W (Proc.devRef .tc main_v212) = val_main_v212 A := by
  after_results_simp
  try simp only [TRef.toBuf, TRef.ofBuf, cast_eq, h_v193]
  all_goals rfl

theorem st28_c_46 (W : Valuation τ sig (Elt F)) (A : Args F) :
    after s28 W (Proc.devRef .tc main_c_46) = val_main_c_46 A := by
  after_results_simp
  try simp only [TRef.toBuf, TRef.ofBuf, cast_eq]
  all_goals rfl

theorem st29_v219 (W : Valuation τ sig (Elt F)) (A : Args F)
    (h_v210 : W (Proc.devRef .tc main_v210) = val_main_v210 A) (h_v203 : W (Proc.devRef .tc main_v203) = val_main_v203 A) (h_v212 : W (Proc.devRef .tc main_v212) = val_main_v212 A) (h_v193 : W (Proc.devRef .tc main_v193) = val_main_v193 A) (h_c_46 : W (Proc.devRef .tc main_c_46) = val_main_c_46 A) :
    after s29 W (Proc.devRef .tc main_v219) = val_main_v219 A := by
  after_results_simp
  try simp only [TRef.toBuf, TRef.ofBuf, cast_eq, h_v210, h_v203, h_v212, h_v193, h_c_46]
  all_goals rfl

theorem st29_v221 (W : Valuation τ sig (Elt F)) (A : Args F)
    (h_v189 : W (Proc.devRef .tc main_v189) = val_main_v189 A) :
    after s29 W (Proc.devRef .tc main_v221) = val_main_v221 A := by
  after_results_simp
  try simp only [TRef.toBuf, TRef.ofBuf, cast_eq, h_v189]
  all_goals rfl

theorem st29_v222 (W : Valuation τ sig (Elt F)) (A : Args F) :
    after s29 W (Proc.devRef .tc main_v222) = val_main_v222 A := by
  after_results_simp
  try simp only [TRef.toBuf, TRef.ofBuf, cast_eq]
  all_goals rfl

theorem st30_v231 (W : Valuation τ sig (Elt F)) (A : Args F)
    (h_v193 : W (Proc.devRef .tc main_v193) = val_main_v193 A) (h_v219 : W (Proc.devRef .tc main_v219) = val_main_v219 A) (h_v185 : W (Proc.devRef .tc main_v185) = val_main_v185 A) (h_v221 : W (Proc.devRef .tc main_v221) = val_main_v221 A) (h_v189 : W (Proc.devRef .tc main_v189) = val_main_v189 A) (h_v222 : W (Proc.devRef .tc main_v222) = val_main_v222 A) :
    after s30 W (Proc.devRef .tc main_v231) = val_main_v231 A := by
  after_results_simp
  try simp only [TRef.toBuf, TRef.ofBuf, cast_eq, h_v193, h_v219, h_v185, h_v221, h_v189, h_v222]
  all_goals rfl

theorem st30_v233 (W : Valuation τ sig (Elt F)) (A : Args F)
    (h_arg23 : W (Proc.devRef .tc main_arg23) = A.a23) :
    after s30 W (Proc.devRef .tc main_v233) = val_main_v233 A := by
  after_results_simp
  try simp only [TRef.toBuf, TRef.ofBuf, cast_eq, h_arg23]
  all_goals rfl

theorem st31_v238 (W : Valuation τ sig (Elt F)) (A : Args F)
    (h_arg7 : W (Proc.devRef .tc main_arg7) = A.a7) (h_v231 : W (Proc.devRef .tc main_v231) = val_main_v231 A) (h_v233 : W (Proc.devRef .tc main_v233) = val_main_v233 A) :
    after s31 W (Proc.devRef .tc main_v238) = val_main_v238 A := by
  after_results_simp
  try simp only [TRef.toBuf, TRef.ofBuf, cast_eq, h_arg7, h_v231, h_v233]
  all_goals rfl

theorem st31_v239 (W : Valuation τ sig (Elt F)) (A : Args F) :
    after s31 W (Proc.devRef .tc main_v239) = val_main_v239 A := by
  after_results_simp
  try simp only [TRef.toBuf, TRef.ofBuf, cast_eq]
  all_goals rfl

theorem st31_v240 (W : Valuation τ sig (Elt F)) (A : Args F) :
    after s31 W (Proc.devRef .tc main_v240) = val_main_v240 A := by
  after_results_simp
  try simp only [TRef.toBuf, TRef.ofBuf, cast_eq]
  all_goals rfl

theorem st32_v242 (W : Valuation τ sig (Elt F)) (A : Args F)
    (h_v240 : W (Proc.devRef .tc main_v240) = val_main_v240 A) (h_arg7 : W (Proc.devRef .tc main_arg7) = A.a7) (h_v239 : W (Proc.devRef .tc main_v239) = val_main_v239 A) :
    after s32 W (Proc.devRef .tc main_v242) = val_main_v242 A := by
  after_results_simp
  try simp only [TRef.toBuf, TRef.ofBuf, cast_eq, h_v240, h_arg7, h_v239]
  all_goals rfl

theorem st32_v243 (W : Valuation τ sig (Elt F)) (A : Args F) :
    after s32 W (Proc.devRef .tc main_v243) = val_main_v243 A := by
  after_results_simp
  try simp only [TRef.toBuf, TRef.ofBuf, cast_eq]
  all_goals rfl

end Cert.Proof.RefSide

end
-- ==== Proof.RefSt5.lean ====
/- What each stretch of the reference's @main leaves in the buffers it writes that later operations read: the named
   value of that buffer, given that the buffers the stretch reads from before it hold their named values. -/
import proofs.«161272_j16312285791078_1_alg».proof.Proof.Gen.ReferenceIdeal
import Idealize.ShloMosaic.Lib.StableHlo.Run
import proofs.«161272_j16312285791078_1_alg».proof.Proof.RefVals
import proofs.«161272_j16312285791078_1_alg».proof.Proof.RefOpsC

noncomputable section

namespace Cert.Proof.RefSide

open Cert.ReferenceIdeal Cert.ReferenceIdeal.Gen Idealize.ShloMosaic Idealize.ShloMosaic.TcCoe Idealize.SL.Sem Idealize.ShloMosaic.StableHlo

variable {F : FTy → Type} [FloatOps F]
theorem st33_v247 (W : Valuation τ sig (Elt F)) (A : Args F)
    (h_v238 : W (Proc.devRef .tc main_v238) = val_main_v238 A) (h_v242 : W (Proc.devRef .tc main_v242) = val_main_v242 A) (h_v243 : W (Proc.devRef .tc main_v243) = val_main_v243 A) :
    after s33 W (Proc.devRef .tc main_v247) = val_main_v247 A := by
  after_results_simp
  try simp only [TRef.toBuf, TRef.ofBuf, cast_eq, h_v238, h_v242, h_v243]
  all_goals rfl

theorem st34_v257 (W : Valuation τ sig (Elt F)) (A : Args F)
    (h_v9 : W (Proc.devRef .tc main_v9) = val_main_v9 A) (h_v19 : W (Proc.devRef .tc main_v19) = val_main_v19 A) (h_v133 : W (Proc.devRef .tc main_v133) = val_main_v133 A) (h_v247 : W (Proc.devRef .tc main_v247) = val_main_v247 A) (h_arg24 : W (Proc.devRef .tc main_arg24) = A.a24) (h_arg25 : W (Proc.devRef .tc main_arg25) = A.a25) (h_arg26 : W (Proc.devRef .tc main_arg26) = A.a26) (h_arg27 : W (Proc.devRef .tc main_arg27) = A.a27) :
    after s34 W (Proc.devRef .tc main_v257) = val_main_v257 A := by
  have h_v9' : W (Proc.devRef .tc ((![main_v9, main_v19, main_v133, main_v247] : Fin 4 → Ref sig .tc) 0)) = val_main_v9 A := h_v9
  have h_v19' : W (Proc.devRef .tc ((![main_v9, main_v19, main_v133, main_v247] : Fin 4 → Ref sig .tc) 1)) = val_main_v19 A := h_v19
  have h_v133' : W (Proc.devRef .tc ((![main_v9, main_v19, main_v133, main_v247] : Fin 4 → Ref sig .tc) 2)) = val_main_v133 A := h_v133
  have h_v247' : W (Proc.devRef .tc ((![main_v9, main_v19, main_v133, main_v247] : Fin 4 → Ref sig .tc) 3)) = val_main_v247 A := h_v247
  after_results_simp
  try simp only [TRef.toBuf, TRef.ofBuf, cast_eq, h_v9, h_v19, h_v133, h_v247, h_arg24, h_arg25, h_arg26, h_arg27]
  try rw [h_v9']
  try rw [h_v19']
  try rw [h_v133']
  try rw [h_v247']
  all_goals rfl

theorem st35_v258 (W : Valuation τ sig (Elt F)) (A : Args F)
    (h_v257 : W (Proc.devRef .tc main_v257) = val_main_v257 A) :
    after s35 W (Proc.devRef .tc main_v258) = val_main_v258 A := by
  after_results_simp
  try simp only [TRef.toBuf, TRef.ofBuf, cast_eq, h_v257]
  all_goals rfl

end Cert.Proof.RefSide

end
-- ==== Proof.RefRun.lean ====
/- The reference's run read back: its result is the pure function `REF` of its argument arrays, every argument array
   is left unchanged, and with that its frame. The fold over the whole line is taken stretch by stretch. -/
import proofs.«161272_j16312285791078_1_alg».proof.Defs
import proofs.«161272_j16312285791078_1_alg».proof.Proof.Gen.Pre_finite_inputs
import proofs.«161272_j16312285791078_1_alg».proof.Proof.Gen.ReferenceIdeal
import Idealize.ShloMosaic.Lib.StableHlo.Run
import proofs.«161272_j16312285791078_1_alg».proof.Proof.RefVals
import proofs.«161272_j16312285791078_1_alg».proof.Proof.RefMain
import proofs.«161272_j16312285791078_1_alg».proof.Proof.RefSt0
import proofs.«161272_j16312285791078_1_alg».proof.Proof.RefSt1
import proofs.«161272_j16312285791078_1_alg».proof.Proof.RefSt2
import proofs.«161272_j16312285791078_1_alg».proof.Proof.RefSt3
import proofs.«161272_j16312285791078_1_alg».proof.Proof.RefSt4
import proofs.«161272_j16312285791078_1_alg».proof.Proof.RefSt5

noncomputable section

namespace Cert.Proof.RefSide

open Cert.ReferenceIdeal Cert.ReferenceIdeal.Gen Idealize.ShloMosaic Idealize.ShloMosaic.TcCoe Idealize.SL.Sem Idealize.ShloMosaic.StableHlo

variable {F : FTy → Type} [FloatOps F]
/-- The buffers after the first stretches of the reference's @main, stretch by stretch. -/
def W0 (V : Valuation τ sig (Elt F)) : Valuation τ sig (Elt F) := after s0 V
def W1 (V : Valuation τ sig (Elt F)) : Valuation τ sig (Elt F) := after s1 (W0 V)
def W2 (V : Valuation τ sig (Elt F)) : Valuation τ sig (Elt F) := after s2 (W1 V)
def W3 (V : Valuation τ sig (Elt F)) : Valuation τ sig (Elt F) := after s3 (W2 V)
def W4 (V : Valuation τ sig (Elt F)) : Valuation τ sig (Elt F) := after s4 (W3 V)
def W5 (V : Valuation τ sig (Elt F)) : Valuation τ sig (Elt F) := after s5 (W4 V)
def W6 (V : Valuation τ sig (Elt F)) : Valuation τ sig (Elt F) := after s6 (W5 V)
def W7 (V : Valuation τ sig (Elt F)) : Valuation τ sig (Elt F) := after s7 (W6 V)
def W8 (V : Valuation τ sig (Elt F)) : Valuation τ sig (Elt F) := after s8 (W7 V)
def W9 (V : Valuation τ sig (Elt F)) : Valuation τ sig (Elt F) := after s9 (W8 V)
def W10 (V : Valuation τ sig (Elt F)) : Valuation τ sig (Elt F) := after s10 (W9 V)
def W11 (V : Valuation τ sig (Elt F)) : Valuation τ sig (Elt F) := after s11 (W10 V)
def W12 (V : Valuation τ sig (Elt F)) : Valuation τ sig (Elt F) := after s12 (W11 V)
def W13 (V : Valuation τ sig (Elt F)) : Valuation τ sig (Elt F) := after s13 (W12 V)
def W14 (V : Valuation τ sig (Elt F)) : Valuation τ sig (Elt F) := after s14 (W13 V)
def W15 (V : Valuation τ sig (Elt F)) : Valuation τ sig (Elt F) := after s15 (W14 V)
def W16 (V : Valuation τ sig (Elt F)) : Valuation τ sig (Elt F) := after s16 (W15 V)
def W17 (V : Valuation τ sig (Elt F)) : Valuation τ sig (Elt F) := after s17 (W16 V)
def W18 (V : Valuation τ sig (Elt F)) : Valuation τ sig (Elt F) := after s18 (W17 V)
def W19 (V : Valuation τ sig (Elt F)) : Valuation τ sig (Elt F) := after s19 (W18 V)
def W20 (V : Valuation τ sig (Elt F)) : Valuation τ sig (Elt F) := after s20 (W19 V)
def W21 (V : Valuation τ sig (Elt F)) : Valuation τ sig (Elt F) := after s21 (W20 V)
def W22 (V : Valuation τ sig (Elt F)) : Valuation τ sig (Elt F) := after s22 (W21 V)
def W23 (V : Valuation τ sig (Elt F)) : Valuation τ sig (Elt F) := after s23 (W22 V)
def W24 (V : Valuation τ sig (Elt F)) : Valuation τ sig (Elt F) := after s24 (W23 V)
def W25 (V : Valuation τ sig (Elt F)) : Valuation τ sig (Elt F) := after s25 (W24 V)
def W26 (V : Valuation τ sig (Elt F)) : Valuation τ sig (Elt F) := after s26 (W25 V)
def W27 (V : Valuation τ sig (Elt F)) : Valuation τ sig (Elt F) := after s27 (W26 V)
def W28 (V : Valuation τ sig (Elt F)) : Valuation τ sig (Elt F) := after s28 (W27 V)
def W29 (V : Valuation τ sig (Elt F)) : Valuation τ sig (Elt F) := after s29 (W28 V)
def W30 (V : Valuation τ sig (Elt F)) : Valuation τ sig (Elt F) := after s30 (W29 V)
def W31 (V : Valuation τ sig (Elt F)) : Valuation τ sig (Elt F) := after s31 (W30 V)
def W32 (V : Valuation τ sig (Elt F)) : Valuation τ sig (Elt F) := after s32 (W31 V)
def W33 (V : Valuation τ sig (Elt F)) : Valuation τ sig (Elt F) := after s33 (W32 V)
def W34 (V : Valuation τ sig (Elt F)) : Valuation τ sig (Elt F) := after s34 (W33 V)
def W35 (V : Valuation τ sig (Elt F)) : Valuation τ sig (Elt F) := after s35 (W34 V)

/-- The whole line's fold is the last of them. -/
theorem after_ops (V : Valuation τ sig (Elt F)) : after ops V = W35 V := by
  simp only [ops, opsP0, opsP1, opsP2, opsP3, opsP4, opsP5, after_append']
  rfl

/-- The argument arrays a valuation holds. -/
def argsOf (V : Valuation τ sig (Elt F)) : Args F :=
  ⟨V (Proc.devRef .tc main_arg0),
   V (Proc.devRef .tc main_arg1),
   V (Proc.devRef .tc main_arg2),
   V (Proc.devRef .tc main_arg3),
   V (Proc.devRef .tc main_arg4),
   V (Proc.devRef .tc main_arg5),
   V (Proc.devRef .tc main_arg6),
   V (Proc.devRef .tc main_arg7),
   V (Proc.devRef .tc main_arg8),
   V (Proc.devRef .tc main_arg9),
   V (Proc.devRef .tc main_arg10),
   V (Proc.devRef .tc main_arg11),
   V (Proc.devRef .tc main_arg12),
   V (Proc.devRef .tc main_arg13),
   V (Proc.devRef .tc main_arg14),
   V (Proc.devRef .tc main_arg15),
   V (Proc.devRef .tc main_arg16),
   V (Proc.devRef .tc main_arg17),
   V (Proc.devRef .tc main_arg18),
   V (Proc.devRef .tc main_arg19),
   V (Proc.devRef .tc main_arg20),
   V (Proc.devRef .tc main_arg21),
   V (Proc.devRef .tc main_arg22),
   V (Proc.devRef .tc main_arg23),
   V (Proc.devRef .tc main_arg24),
   V (Proc.devRef .tc main_arg25),
   V (Proc.devRef .tc main_arg26),
   V (Proc.devRef .tc main_arg27)⟩

/-! A reference none of the first stretches writes keeps its launch contents. -/
abbrev wUp0 : List (Ref sig .tc) := w0
theorem arg0 (r : Ref sig .tc) (h : r ∉ wUp0) (V : Valuation τ sig (Elt F)) : W0 V (Proc.devRef .tc r) = V (Proc.devRef .tc r) :=
  keep0 r h V
abbrev wUp1 : List (Ref sig .tc) := w1 ++ wUp0
theorem arg1 (r : Ref sig .tc) (h : r ∉ wUp1) (V : Valuation τ sig (Elt F)) : W1 V (Proc.devRef .tc r) = V (Proc.devRef .tc r) :=
  (keep1 r (fun hm => h (List.mem_append_left _ hm)) (W0 V)).trans (arg0 r (fun hm => h (List.mem_append_right _ hm)) V)
abbrev wUp2 : List (Ref sig .tc) := w2 ++ wUp1
theorem arg2 (r : Ref sig .tc) (h : r ∉ wUp2) (V : Valuation τ sig (Elt F)) : W2 V (Proc.devRef .tc r) = V (Proc.devRef .tc r) :=
  (keep2 r (fun hm => h (List.mem_append_left _ hm)) (W1 V)).trans (arg1 r (fun hm => h (List.mem_append_right _ hm)) V)
abbrev wUp3 : List (Ref sig .tc) := w3 ++ wUp2
theorem arg3 (r : Ref sig .tc) (h : r ∉ wUp3) (V : Valuation τ sig (Elt F)) : W3 V (Proc.devRef .tc r) = V (Proc.devRef .tc r) :=
  (keep3 r (fun hm => h (List.mem_append_left _ hm)) (W2 V)).trans (arg2 r (fun hm => h (List.mem_append_right _ hm)) V)
abbrev wUp4 : List (Ref sig .tc) := w4 ++ wUp3
theorem arg4 (r : Ref sig .tc) (h : r ∉ wUp4) (V : Valuation τ sig (Elt F)) : W4 V (Proc.devRef .tc r) = V (Proc.devRef .tc r) :=
  (keep4 r (fun hm => h (List.mem_append_left _ hm)) (W3 V)).trans (arg3 r (fun hm => h (List.mem_append_right _ hm)) V)
abbrev wUp5 : List (Ref sig .tc) := w5 ++ wUp4
theorem arg5 (r : Ref sig .tc) (h : r ∉ wUp5) (V : Valuation τ sig (Elt F)) : W5 V (Proc.devRef .tc r) = V (Proc.devRef .tc r) :=
  (keep5 r (fun hm => h (List.mem_append_left _ hm)) (W4 V)).trans (arg4 r (fun hm => h (List.mem_append_right _ hm)) V)
abbrev wUp6 : List (Ref sig .tc) := w6 ++ wUp5
theorem arg6 (r : Ref sig .tc) (h : r ∉ wUp6) (V : Valuation τ sig (Elt F)) : W6 V (Proc.devRef .tc r) = V (Proc.devRef .tc r) :=
  (keep6 r (fun hm => h (List.mem_append_left _ hm)) (W5 V)).trans (arg5 r (fun hm => h (List.mem_append_right _ hm)) V)
abbrev wUp7 : List (Ref sig .tc) := w7 ++ wUp6
theorem arg7 (r : Ref sig .tc) (h : r ∉ wUp7) (V : Valuation τ sig (Elt F)) : W7 V (Proc.devRef .tc r) = V (Proc.devRef .tc r) :=
  (keep7 r (fun hm => h (List.mem_append_left _ hm)) (W6 V)).trans (arg6 r (fun hm => h (List.mem_append_right _ hm)) V)
abbrev wUp8 : List (Ref sig .tc) := w8 ++ wUp7
theorem arg8 (r : Ref sig .tc) (h : r ∉ wUp8) (V : Valuation τ sig (Elt F)) : W8 V (Proc.devRef .tc r) = V (Proc.devRef .tc r) :=
  (keep8 r (fun hm => h (List.mem_append_left _ hm)) (W7 V)).trans (arg7 r (fun hm => h (List.mem_append_right _ hm)) V)
abbrev wUp9 : List (Ref sig .tc) := w9 ++ wUp8
theorem arg9 (r : Ref sig .tc) (h : r ∉ wUp9) (V : Valuation τ sig (Elt F)) : W9 V (Proc.devRef .tc r) = V (Proc.devRef .tc r) :=
  (keep9 r (fun hm => h (List.mem_append_left _ hm)) (W8 V)).trans (arg8 r (fun hm => h (List.mem_append_right _ hm)) V)
abbrev wUp10 : List (Ref sig .tc) := w10 ++ wUp9
theorem arg10 (r : Ref sig .tc) (h : r ∉ wUp10) (V : Valuation τ sig (Elt F)) : W10 V (Proc.devRef .tc r) = V (Proc.devRef .tc r) :=
  (keep10 r (fun hm => h (List.mem_append_left _ hm)) (W9 V)).trans (arg9 r (fun hm => h (List.mem_append_right _ hm)) V)
abbrev wUp11 : List (Ref sig .tc) := w11 ++ wUp10
theorem arg11 (r : Ref sig .tc) (h : r ∉ wUp11) (V : Valuation τ sig (Elt F)) : W11 V (Proc.devRef .tc r) = V (Proc.devRef .tc r) :=
  (keep11 r (fun hm => h (List.mem_append_left _ hm)) (W10 V)).trans (arg10 r (fun hm => h (List.mem_append_right _ hm)) V)
abbrev wUp12 : List (Ref sig .tc) := w12 ++ wUp11
theorem arg12 (r : Ref sig .tc) (h : r ∉ wUp12) (V : Valuation τ sig (Elt F)) : W12 V (Proc.devRef .tc r) = V (Proc.devRef .tc r) :=
  (keep12 r (fun hm => h (List.mem_append_left _ hm)) (W11 V)).trans (arg11 r (fun hm => h (List.mem_append_right _ hm)) V)
abbrev wUp13 : List (Ref sig .tc) := w13 ++ wUp12
theorem arg13 (r : Ref sig .tc) (h : r ∉ wUp13) (V : Valuation τ sig (Elt F)) : W13 V (Proc.devRef .tc r) = V (Proc.devRef .tc r) :=
  (keep13 r (fun hm => h (List.mem_append_left _ hm)) (W12 V)).trans (arg12 r (fun hm => h (List.mem_append_right _ hm)) V)
abbrev wUp14 : List (Ref sig .tc) := w14 ++ wUp13
theorem arg14 (r : Ref sig .tc) (h : r ∉ wUp14) (V : Valuation τ sig (Elt F)) : W14 V (Proc.devRef .tc r) = V (Proc.devRef .tc r) :=
  (keep14 r (fun hm => h (List.mem_append_left _ hm)) (W13 V)).trans (arg13 r (fun hm => h (List.mem_append_right _ hm)) V)
abbrev wUp15 : List (Ref sig .tc) := w15 ++ wUp14
theorem arg15 (r : Ref sig .tc) (h : r ∉ wUp15) (V : Valuation τ sig (Elt F)) : W15 V (Proc.devRef .tc r) = V (Proc.devRef .tc r) :=
  (keep15 r (fun hm => h (List.mem_append_left _ hm)) (W14 V)).trans (arg14 r (fun hm => h (List.mem_append_right _ hm)) V)
abbrev wUp16 : List (Ref sig .tc) := w16 ++ wUp15
theorem arg16 (r : Ref sig .tc) (h : r ∉ wUp16) (V : Valuation τ sig (Elt F)) : W16 V (Proc.devRef .tc r) = V (Proc.devRef .tc r) :=
  (keep16 r (fun hm => h (List.mem_append_left _ hm)) (W15 V)).trans (arg15 r (fun hm => h (List.mem_append_right _ hm)) V)
abbrev wUp17 : List (Ref sig .tc) := w17 ++ wUp16
theorem arg17 (r : Ref sig .tc) (h : r ∉ wUp17) (V : Valuation τ sig (Elt F)) : W17 V (Proc.devRef .tc r) = V (Proc.devRef .tc r) :=
  (keep17 r (fun hm => h (List.mem_append_left _ hm)) (W16 V)).trans (arg16 r (fun hm => h (List.mem_append_right _ hm)) V)
abbrev wUp18 : List (Ref sig .tc) := w18 ++ wUp17
theorem arg18 (r : Ref sig .tc) (h : r ∉ wUp18) (V : Valuation τ sig (Elt F)) : W18 V (Proc.devRef .tc r) = V (Proc.devRef .tc r) :=
  (keep18 r (fun hm => h (List.mem_append_left _ hm)) (W17 V)).trans (arg17 r (fun hm => h (List.mem_append_right _ hm)) V)
abbrev wUp19 : List (Ref sig .tc) := w19 ++ wUp18
theorem arg19 (r : Ref sig .tc) (h : r ∉ wUp19) (V : Valuation τ sig (Elt F)) : W19 V (Proc.devRef .tc r) = V (Proc.devRef .tc r) :=
  (keep19 r (fun hm => h (List.mem_append_left _ hm)) (W18 V)).trans (arg18 r (fun hm => h (List.mem_append_right _ hm)) V)
abbrev wUp20 : List (Ref sig .tc) := w20 ++ wUp19
theorem arg20 (r : Ref sig .tc) (h : r ∉ wUp20) (V : Valuation τ sig (Elt F)) : W20 V (Proc.devRef .tc r) = V (Proc.devRef .tc r) :=
  (keep20 r (fun hm => h (List.mem_append_left _ hm)) (W19 V)).trans (arg19 r (fun hm => h (List.mem_append_right _ hm)) V)
abbrev wUp21 : List (Ref sig .tc) := w21 ++ wUp20
theorem arg21 (r : Ref sig .tc) (h : r ∉ wUp21) (V : Valuation τ sig (Elt F)) : W21 V (Proc.devRef .tc r) = V (Proc.devRef .tc r) :=
  (keep21 r (fun hm => h (List.mem_append_left _ hm)) (W20 V)).trans (arg20 r (fun hm => h (List.mem_append_right _ hm)) V)
abbrev wUp22 : List (Ref sig .tc) := w22 ++ wUp21
theorem arg22 (r : Ref sig .tc) (h : r ∉ wUp22) (V : Valuation τ sig (Elt F)) : W22 V (Proc.devRef .tc r) = V (Proc.devRef .tc r) :=
  (keep22 r (fun hm => h (List.mem_append_left _ hm)) (W21 V)).trans (arg21 r (fun hm => h (List.mem_append_right _ hm)) V)
abbrev wUp23 : List (Ref sig .tc) := w23 ++ wUp22
theorem arg23 (r : Ref sig .tc) (h : r ∉ wUp23) (V : Valuation τ sig (Elt F)) : W23 V (Proc.devRef .tc r) = V (Proc.devRef .tc r) :=
  (keep23 r (fun hm => h (List.mem_append_left _ hm)) (W22 V)).trans (arg22 r (fun hm => h (List.mem_append_right _ hm)) V)
abbrev wUp24 : List (Ref sig .tc) := w24 ++ wUp23
theorem arg24 (r : Ref sig .tc) (h : r ∉ wUp24) (V : Valuation τ sig (Elt F)) : W24 V (Proc.devRef .tc r) = V (Proc.devRef .tc r) :=
  (keep24 r (fun hm => h (List.mem_append_left _ hm)) (W23 V)).trans (arg23 r (fun hm => h (List.mem_append_right _ hm)) V)
abbrev wUp25 : List (Ref sig .tc) := w25 ++ wUp24
theorem arg25 (r : Ref sig .tc) (h : r ∉ wUp25) (V : Valuation τ sig (Elt F)) : W25 V (Proc.devRef .tc r) = V (Proc.devRef .tc r) :=
  (keep25 r (fun hm => h (List.mem_append_left _ hm)) (W24 V)).trans (arg24 r (fun hm => h (List.mem_append_right _ hm)) V)
abbrev wUp26 : List (Ref sig .tc) := w26 ++ wUp25
theorem arg26 (r : Ref sig .tc) (h : r ∉ wUp26) (V : Valuation τ sig (Elt F)) : W26 V (Proc.devRef .tc r) = V (Proc.devRef .tc r) :=
  (keep26 r (fun hm => h (List.mem_append_left _ hm)) (W25 V)).trans (arg25 r (fun hm => h (List.mem_append_right _ hm)) V)
abbrev wUp27 : List (Ref sig .tc) := w27 ++ wUp26
theorem arg27 (r : Ref sig .tc) (h : r ∉ wUp27) (V : Valuation τ sig (Elt F)) : W27 V (Proc.devRef .tc r) = V (Proc.devRef .tc r) :=
  (keep27 r (fun hm => h (List.mem_append_left _ hm)) (W26 V)).trans (arg26 r (fun hm => h (List.mem_append_right _ hm)) V)
abbrev wUp28 : List (Ref sig .tc) := w28 ++ wUp27
theorem arg28 (r : Ref sig .tc) (h : r ∉ wUp28) (V : Valuation τ sig (Elt F)) : W28 V (Proc.devRef .tc r) = V (Proc.devRef .tc r) :=
  (keep28 r (fun hm => h (List.mem_append_left _ hm)) (W27 V)).trans (arg27 r (fun hm => h (List.mem_append_right _ hm)) V)
abbrev wUp29 : List (Ref sig .tc) := w29 ++ wUp28
theorem arg29 (r : Ref sig .tc) (h : r ∉ wUp29) (V : Valuation τ sig (Elt F)) : W29 V (Proc.devRef .tc r) = V (Proc.devRef .tc r) :=
  (keep29 r (fun hm => h (List.mem_append_left _ hm)) (W28 V)).trans (arg28 r (fun hm => h (List.mem_append_right _ hm)) V)
abbrev wUp30 : List (Ref sig .tc) := w30 ++ wUp29
theorem arg30 (r : Ref sig .tc) (h : r ∉ wUp30) (V : Valuation τ sig (Elt F)) : W30 V (Proc.devRef .tc r) = V (Proc.devRef .tc r) :=
  (keep30 r (fun hm => h (List.mem_append_left _ hm)) (W29 V)).trans (arg29 r (fun hm => h (List.mem_append_right _ hm)) V)
abbrev wUp31 : List (Ref sig .tc) := w31 ++ wUp30
theorem arg31 (r : Ref sig .tc) (h : r ∉ wUp31) (V : Valuation τ sig (Elt F)) : W31 V (Proc.devRef .tc r) = V (Proc.devRef .tc r) :=
  (keep31 r (fun hm => h (List.mem_append_left _ hm)) (W30 V)).trans (arg30 r (fun hm => h (List.mem_append_right _ hm)) V)
abbrev wUp32 : List (Ref sig .tc) := w32 ++ wUp31
theorem arg32 (r : Ref sig .tc) (h : r ∉ wUp32) (V : Valuation τ sig (Elt F)) : W32 V (Proc.devRef .tc r) = V (Proc.devRef .tc r) :=
  (keep32 r (fun hm => h (List.mem_append_left _ hm)) (W31 V)).trans (arg31 r (fun hm => h (List.mem_append_right _ hm)) V)
abbrev wUp33 : List (Ref sig .tc) := w33 ++ wUp32
theorem arg33 (r : Ref sig .tc) (h : r ∉ wUp33) (V : Valuation τ sig (Elt F)) : W33 V (Proc.devRef .tc r) = V (Proc.devRef .tc r) :=
  (keep33 r (fun hm => h (List.mem_append_left _ hm)) (W32 V)).trans (arg32 r (fun hm => h (List.mem_append_right _ hm)) V)
abbrev wUp34 : List (Ref sig .tc) := w34 ++ wUp33
theorem arg34 (r : Ref sig .tc) (h : r ∉ wUp34) (V : Valuation τ sig (Elt F)) : W34 V (Proc.devRef .tc r) = V (Proc.devRef .tc r) :=
  (keep34 r (fun hm => h (List.mem_append_left _ hm)) (W33 V)).trans (arg33 r (fun hm => h (List.mem_append_right _ hm)) V)
abbrev wUp35 : List (Ref sig .tc) := w35 ++ wUp34
theorem arg35 (r : Ref sig .tc) (h : r ∉ wUp35) (V : Valuation τ sig (Elt F)) : W35 V (Proc.devRef .tc r) = V (Proc.devRef .tc r) :=
  (keep35 r (fun hm => h (List.mem_append_left _ hm)) (W34 V)).trans (arg34 r (fun hm => h (List.mem_append_right _ hm)) V)

/-! Each buffer a later stretch reads holds its named value. -/
theorem at0_v8 (V : Valuation τ sig (Elt F)) : W0 V (Proc.devRef .tc main_v8) = val_main_v8 (argsOf V) :=
  st0_v8 V (argsOf V) rfl rfl rfl rfl rfl
theorem at0_call1_cst (V : Valuation τ sig (Elt F)) : W0 V (Proc.devRef .tc main_call1_cst) = val_main_call1_cst (argsOf V) :=
  st0_call1_cst V (argsOf V)
theorem at1_v9 (V : Valuation τ sig (Elt F)) : W1 V (Proc.devRef .tc main_v9) = val_main_v9 (argsOf V) :=
  st1_v9 (W0 V) (argsOf V) (at0_v8 V) (at0_call1_cst V)
theorem at1_v15 (V : Valuation τ sig (Elt F)) : W1 V (Proc.devRef .tc main_v15) = val_main_v15 (argsOf V) :=
  st1_v15 (W0 V) (argsOf V) (arg0 main_arg1 (by decide) V) (arg0 main_arg12 (by decide) V) (arg0 main_arg13 (by decide) V) (arg0 main_arg14 (by decide) V)
theorem at1_v17 (V : Valuation τ sig (Elt F)) : W1 V (Proc.devRef .tc main_v17) = val_main_v17 (argsOf V) :=
  st1_v17 (W0 V) (argsOf V) (arg0 main_arg15 (by decide) V)
theorem at2_v9 (V : Valuation τ sig (Elt F)) : W2 V (Proc.devRef .tc main_v9) = val_main_v9 (argsOf V) :=
  (keep2 main_v9 (by decide) (W1 V)).trans (at1_v9 V)
theorem at2_v19 (V : Valuation τ sig (Elt F)) : W2 V (Proc.devRef .tc main_v19) = val_main_v19 (argsOf V) :=
  st2_v19 (W1 V) (argsOf V) (at1_v15 V) (at1_v17 V)
theorem at2_v20 (V : Valuation τ sig (Elt F)) : W2 V (Proc.devRef .tc main_v20) = val_main_v20 (argsOf V) :=
  st2_v20 (W1 V) (argsOf V) (arg1 main_arg2 (by decide) V) (arg1 main_arg16 (by decide) V)
theorem at2_v22 (V : Valuation τ sig (Elt F)) : W2 V (Proc.devRef .tc main_v22) = val_main_v22 (argsOf V) :=
  st2_v22 (W1 V) (argsOf V) (arg1 main_arg4 (by decide) V)
theorem at2_v23 (V : Valuation τ sig (Elt F)) : W2 V (Proc.devRef .tc main_v23) = val_main_v23 (argsOf V) :=
  st2_v23 (W1 V) (argsOf V)
theorem at3_v9 (V : Valuation τ sig (Elt F)) : W3 V (Proc.devRef .tc main_v9) = val_main_v9 (argsOf V) :=
  (keep3 main_v9 (by decide) (W2 V)).trans (at2_v9 V)
theorem at3_v19 (V : Valuation τ sig (Elt F)) : W3 V (Proc.devRef .tc main_v19) = val_main_v19 (argsOf V) :=
  (keep3 main_v19 (by decide) (W2 V)).trans (at2_v19 V)
theorem at3_v20 (V : Valuation τ sig (Elt F)) : W3 V (Proc.devRef .tc main_v20) = val_main_v20 (argsOf V) :=
  (keep3 main_v20 (by decide) (W2 V)).trans (at2_v20 V)
theorem at3_v24 (V : Valuation τ sig (Elt F)) : W3 V (Proc.devRef .tc main_v24) = val_main_v24 (argsOf V) :=
  st3_v24 (W2 V) (argsOf V) (at2_v22 V) (at2_v23 V)
theorem at3_v26 (V : Valuation τ sig (Elt F)) : W3 V (Proc.devRef .tc main_v26) = val_main_v26 (argsOf V) :=
  st3_v26 (W2 V) (argsOf V) (arg2 main_arg4 (by decide) V)
theorem at3_v27 (V : Valuation τ sig (Elt F)) : W3 V (Proc.devRef .tc main_v27) = val_main_v27 (argsOf V) :=
  st3_v27 (W2 V) (argsOf V)
theorem at4_v9 (V : Valuation τ sig (Elt F)) : W4 V (Proc.devRef .tc main_v9) = val_main_v9 (argsOf V) :=
  (keep4 main_v9 (by decide) (W3 V)).trans (at3_v9 V)
theorem at4_v19 (V : Valuation τ sig (Elt F)) : W4 V (Proc.devRef .tc main_v19) = val_main_v19 (argsOf V) :=
  (keep4 main_v19 (by decide) (W3 V)).trans (at3_v19 V)
theorem at4_v20 (V : Valuation τ sig (Elt F)) : W4 V (Proc.devRef .tc main_v20) = val_main_v20 (argsOf V) :=
  (keep4 main_v20 (by decide) (W3 V)).trans (at3_v20 V)
theorem at4_v24 (V : Valuation τ sig (Elt F)) : W4 V (Proc.devRef .tc main_v24) = val_main_v24 (argsOf V) :=
  (keep4 main_v24 (by decide) (W3 V)).trans (at3_v24 V)
theorem at4_v28 (V : Valuation τ sig (Elt F)) : W4 V (Proc.devRef .tc main_v28) = val_main_v28 (argsOf V) :=
  st4_v28 (W3 V) (argsOf V) (at3_v26 V) (at3_v27 V)
theorem at4_v32 (V : Valuation τ sig (Elt F)) : W4 V (Proc.devRef .tc main_v32) = val_main_v32 (argsOf V) :=
  st4_v32 (W3 V) (argsOf V) (at3_v26 V) (at3_v27 V)
theorem at4_v34 (V : Valuation τ sig (Elt F)) : W4 V (Proc.devRef .tc main_v34) = val_main_v34 (argsOf V) :=
  st4_v34 (W3 V) (argsOf V) (at3_v26 V) (at3_v27 V)
theorem at4_v35 (V : Valuation τ sig (Elt F)) : W4 V (Proc.devRef .tc main_v35) = val_main_v35 (argsOf V) :=
  st4_v35 (W3 V) (argsOf V)
theorem at5_v9 (V : Valuation τ sig (Elt F)) : W5 V (Proc.devRef .tc main_v9) = val_main_v9 (argsOf V) :=
  (keep5 main_v9 (by decide) (W4 V)).trans (at4_v9 V)
theorem at5_v19 (V : Valuation τ sig (Elt F)) : W5 V (Proc.devRef .tc main_v19) = val_main_v19 (argsOf V) :=
  (keep5 main_v19 (by decide) (W4 V)).trans (at4_v19 V)
theorem at5_v20 (V : Valuation τ sig (Elt F)) : W5 V (Proc.devRef .tc main_v20) = val_main_v20 (argsOf V) :=
  (keep5 main_v20 (by decide) (W4 V)).trans (at4_v20 V)
theorem at5_v24 (V : Valuation τ sig (Elt F)) : W5 V (Proc.devRef .tc main_v24) = val_main_v24 (argsOf V) :=
  (keep5 main_v24 (by decide) (W4 V)).trans (at4_v24 V)
theorem at5_v28 (V : Valuation τ sig (Elt F)) : W5 V (Proc.devRef .tc main_v28) = val_main_v28 (argsOf V) :=
  (keep5 main_v28 (by decide) (W4 V)).trans (at4_v28 V)
theorem at5_v38 (V : Valuation τ sig (Elt F)) : W5 V (Proc.devRef .tc main_v38) = val_main_v38 (argsOf V) :=
  st5_v38 (W4 V) (argsOf V) (at4_v34 V) (at4_v32 V) (at4_v35 V)
theorem at5_v40 (V : Valuation τ sig (Elt F)) : W5 V (Proc.devRef .tc main_v40) = val_main_v40 (argsOf V) :=
  st5_v40 (W4 V) (argsOf V) (at4_v24 V)
theorem at5_v42 (V : Valuation τ sig (Elt F)) : W5 V (Proc.devRef .tc main_v42) = val_main_v42 (argsOf V) :=
  st5_v42 (W4 V) (argsOf V) (at4_v24 V)
theorem at6_v9 (V : Valuation τ sig (Elt F)) : W6 V (Proc.devRef .tc main_v9) = val_main_v9 (argsOf V) :=
  (keep6 main_v9 (by decide) (W5 V)).trans (at5_v9 V)
theorem at6_v19 (V : Valuation τ sig (Elt F)) : W6 V (Proc.devRef .tc main_v19) = val_main_v19 (argsOf V) :=
  (keep6 main_v19 (by decide) (W5 V)).trans (at5_v19 V)
theorem at6_v20 (V : Valuation τ sig (Elt F)) : W6 V (Proc.devRef .tc main_v20) = val_main_v20 (argsOf V) :=
  (keep6 main_v20 (by decide) (W5 V)).trans (at5_v20 V)
theorem at6_v24 (V : Valuation τ sig (Elt F)) : W6 V (Proc.devRef .tc main_v24) = val_main_v24 (argsOf V) :=
  (keep6 main_v24 (by decide) (W5 V)).trans (at5_v24 V)
theorem at6_v28 (V : Valuation τ sig (Elt F)) : W6 V (Proc.devRef .tc main_v28) = val_main_v28 (argsOf V) :=
  (keep6 main_v28 (by decide) (W5 V)).trans (at5_v28 V)
theorem at6_v38 (V : Valuation τ sig (Elt F)) : W6 V (Proc.devRef .tc main_v38) = val_main_v38 (argsOf V) :=
  (keep6 main_v38 (by decide) (W5 V)).trans (at5_v38 V)
theorem at6_v45 (V : Valuation τ sig (Elt F)) : W6 V (Proc.devRef .tc main_v45) = val_main_v45 (argsOf V) :=
  st6_v45 (W5 V) (argsOf V) (at5_v38 V) (at5_v40 V) (at5_v42 V) (at5_v24 V)
theorem at6_v50 (V : Valuation τ sig (Elt F)) : W6 V (Proc.devRef .tc main_v50) = val_main_v50 (argsOf V) :=
  st6_v50 (W5 V) (argsOf V) (at5_v28 V)
theorem at7_v9 (V : Valuation τ sig (Elt F)) : W7 V (Proc.devRef .tc main_v9) = val_main_v9 (argsOf V) :=
  (keep7 main_v9 (by decide) (W6 V)).trans (at6_v9 V)
theorem at7_v19 (V : Valuation τ sig (Elt F)) : W7 V (Proc.devRef .tc main_v19) = val_main_v19 (argsOf V) :=
  (keep7 main_v19 (by decide) (W6 V)).trans (at6_v19 V)
theorem at7_v20 (V : Valuation τ sig (Elt F)) : W7 V (Proc.devRef .tc main_v20) = val_main_v20 (argsOf V) :=
  (keep7 main_v20 (by decide) (W6 V)).trans (at6_v20 V)
theorem at7_v28 (V : Valuation τ sig (Elt F)) : W7 V (Proc.devRef .tc main_v28) = val_main_v28 (argsOf V) :=
  (keep7 main_v28 (by decide) (W6 V)).trans (at6_v28 V)
theorem at7_v54 (V : Valuation τ sig (Elt F)) : W7 V (Proc.devRef .tc main_v54) = val_main_v54 (argsOf V) :=
  st7_v54 (W6 V) (argsOf V) (at6_v45 V) (at6_v38 V) (at6_v50 V)
theorem at7_v60 (V : Valuation τ sig (Elt F)) : W7 V (Proc.devRef .tc main_v60) = val_main_v60 (argsOf V) :=
  st7_v60 (W6 V) (argsOf V) (at6_v24 V)
theorem at8_v9 (V : Valuation τ sig (Elt F)) : W8 V (Proc.devRef .tc main_v9) = val_main_v9 (argsOf V) :=
  (keep8 main_v9 (by decide) (W7 V)).trans (at7_v9 V)
theorem at8_v19 (V : Valuation τ sig (Elt F)) : W8 V (Proc.devRef .tc main_v19) = val_main_v19 (argsOf V) :=
  (keep8 main_v19 (by decide) (W7 V)).trans (at7_v19 V)
theorem at8_v69 (V : Valuation τ sig (Elt F)) : W8 V (Proc.devRef .tc main_v69) = val_main_v69 (argsOf V) :=
  st8_v69 (W7 V) (argsOf V) (at7_v28 V) (at7_v54 V) (at7_v20 V) (at7_v60 V) (arg7 main_arg17 (by decide) V)
theorem at8_call5_v0 (V : Valuation τ sig (Elt F)) : W8 V (Proc.devRef .tc main_call5_v0) = val_main_call5_v0 (argsOf V) :=
  st8_call5_v0 (W7 V) (argsOf V)
theorem at9_v9 (V : Valuation τ sig (Elt F)) : W9 V (Proc.devRef .tc main_v9) = val_main_v9 (argsOf V) :=
  (keep9 main_v9 (by decide) (W8 V)).trans (at8_v9 V)
theorem at9_v19 (V : Valuation τ sig (Elt F)) : W9 V (Proc.devRef .tc main_v19) = val_main_v19 (argsOf V) :=
  (keep9 main_v19 (by decide) (W8 V)).trans (at8_v19 V)
theorem at9_v71 (V : Valuation τ sig (Elt F)) : W9 V (Proc.devRef .tc main_v71) = val_main_v71 (argsOf V) :=
  st9_v71 (W8 V) (argsOf V) (at8_v69 V) (at8_call5_v0 V) (arg8 main_arg18 (by decide) V)
theorem at9_v73 (V : Valuation τ sig (Elt F)) : W9 V (Proc.devRef .tc main_v73) = val_main_v73 (argsOf V) :=
  st9_v73 (W8 V) (argsOf V) (arg8 main_arg4 (by decide) V)
theorem at9_v74 (V : Valuation τ sig (Elt F)) : W9 V (Proc.devRef .tc main_v74) = val_main_v74 (argsOf V) :=
  st9_v74 (W8 V) (argsOf V)
theorem at10_v9 (V : Valuation τ sig (Elt F)) : W10 V (Proc.devRef .tc main_v9) = val_main_v9 (argsOf V) :=
  (keep10 main_v9 (by decide) (W9 V)).trans (at9_v9 V)
theorem at10_v19 (V : Valuation τ sig (Elt F)) : W10 V (Proc.devRef .tc main_v19) = val_main_v19 (argsOf V) :=
  (keep10 main_v19 (by decide) (W9 V)).trans (at9_v19 V)
theorem at10_v71 (V : Valuation τ sig (Elt F)) : W10 V (Proc.devRef .tc main_v71) = val_main_v71 (argsOf V) :=
  (keep10 main_v71 (by decide) (W9 V)).trans (at9_v71 V)
theorem at10_v75 (V : Valuation τ sig (Elt F)) : W10 V (Proc.devRef .tc main_v75) = val_main_v75 (argsOf V) :=
  st10_v75 (W9 V) (argsOf V) (at9_v73 V) (at9_v74 V)
theorem at10_v77 (V : Valuation τ sig (Elt F)) : W10 V (Proc.devRef .tc main_v77) = val_main_v77 (argsOf V) :=
  st10_v77 (W9 V) (argsOf V) (arg9 main_arg4 (by decide) V)
theorem at10_v78 (V : Valuation τ sig (Elt F)) : W10 V (Proc.devRef .tc main_v78) = val_main_v78 (argsOf V) :=
  st10_v78 (W9 V) (argsOf V)
theorem at11_v9 (V : Valuation τ sig (Elt F)) : W11 V (Proc.devRef .tc main_v9) = val_main_v9 (argsOf V) :=
  (keep11 main_v9 (by decide) (W10 V)).trans (at10_v9 V)
theorem at11_v19 (V : Valuation τ sig (Elt F)) : W11 V (Proc.devRef .tc main_v19) = val_main_v19 (argsOf V) :=
  (keep11 main_v19 (by decide) (W10 V)).trans (at10_v19 V)
theorem at11_v71 (V : Valuation τ sig (Elt F)) : W11 V (Proc.devRef .tc main_v71) = val_main_v71 (argsOf V) :=
  (keep11 main_v71 (by decide) (W10 V)).trans (at10_v71 V)
theorem at11_v75 (V : Valuation τ sig (Elt F)) : W11 V (Proc.devRef .tc main_v75) = val_main_v75 (argsOf V) :=
  (keep11 main_v75 (by decide) (W10 V)).trans (at10_v75 V)
theorem at11_v79 (V : Valuation τ sig (Elt F)) : W11 V (Proc.devRef .tc main_v79) = val_main_v79 (argsOf V) :=
  st11_v79 (W10 V) (argsOf V) (at10_v77 V) (at10_v78 V)
theorem at11_v83 (V : Valuation τ sig (Elt F)) : W11 V (Proc.devRef .tc main_v83) = val_main_v83 (argsOf V) :=
  st11_v83 (W10 V) (argsOf V) (at10_v77 V) (at10_v78 V)
theorem at11_v85 (V : Valuation τ sig (Elt F)) : W11 V (Proc.devRef .tc main_v85) = val_main_v85 (argsOf V) :=
  st11_v85 (W10 V) (argsOf V) (at10_v77 V) (at10_v78 V)
theorem at11_v86 (V : Valuation τ sig (Elt F)) : W11 V (Proc.devRef .tc main_v86) = val_main_v86 (argsOf V) :=
  st11_v86 (W10 V) (argsOf V)
theorem at12_v9 (V : Valuation τ sig (Elt F)) : W12 V (Proc.devRef .tc main_v9) = val_main_v9 (argsOf V) :=
  (keep12 main_v9 (by decide) (W11 V)).trans (at11_v9 V)
theorem at12_v19 (V : Valuation τ sig (Elt F)) : W12 V (Proc.devRef .tc main_v19) = val_main_v19 (argsOf V) :=
  (keep12 main_v19 (by decide) (W11 V)).trans (at11_v19 V)
theorem at12_v71 (V : Valuation τ sig (Elt F)) : W12 V (Proc.devRef .tc main_v71) = val_main_v71 (argsOf V) :=
  (keep12 main_v71 (by decide) (W11 V)).trans (at11_v71 V)
theorem at12_v75 (V : Valuation τ sig (Elt F)) : W12 V (Proc.devRef .tc main_v75) = val_main_v75 (argsOf V) :=
  (keep12 main_v75 (by decide) (W11 V)).trans (at11_v75 V)
theorem at12_v79 (V : Valuation τ sig (Elt F)) : W12 V (Proc.devRef .tc main_v79) = val_main_v79 (argsOf V) :=
  (keep12 main_v79 (by decide) (W11 V)).trans (at11_v79 V)
theorem at12_v89 (V : Valuation τ sig (Elt F)) : W12 V (Proc.devRef .tc main_v89) = val_main_v89 (argsOf V) :=
  st12_v89 (W11 V) (argsOf V) (at11_v85 V) (at11_v83 V) (at11_v86 V)
theorem at12_v91 (V : Valuation τ sig (Elt F)) : W12 V (Proc.devRef .tc main_v91) = val_main_v91 (argsOf V) :=
  st12_v91 (W11 V) (argsOf V) (at11_v75 V)
theorem at12_v93 (V : Valuation τ sig (Elt F)) : W12 V (Proc.devRef .tc main_v93) = val_main_v93 (argsOf V) :=
  st12_v93 (W11 V) (argsOf V) (at11_v75 V)
theorem at13_v9 (V : Valuation τ sig (Elt F)) : W13 V (Proc.devRef .tc main_v9) = val_main_v9 (argsOf V) :=
  (keep13 main_v9 (by decide) (W12 V)).trans (at12_v9 V)
theorem at13_v19 (V : Valuation τ sig (Elt F)) : W13 V (Proc.devRef .tc main_v19) = val_main_v19 (argsOf V) :=
  (keep13 main_v19 (by decide) (W12 V)).trans (at12_v19 V)
theorem at13_v71 (V : Valuation τ sig (Elt F)) : W13 V (Proc.devRef .tc main_v71) = val_main_v71 (argsOf V) :=
  (keep13 main_v71 (by decide) (W12 V)).trans (at12_v71 V)
theorem at13_v75 (V : Valuation τ sig (Elt F)) : W13 V (Proc.devRef .tc main_v75) = val_main_v75 (argsOf V) :=
  (keep13 main_v75 (by decide) (W12 V)).trans (at12_v75 V)
theorem at13_v79 (V : Valuation τ sig (Elt F)) : W13 V (Proc.devRef .tc main_v79) = val_main_v79 (argsOf V) :=
  (keep13 main_v79 (by decide) (W12 V)).trans (at12_v79 V)
theorem at13_v89 (V : Valuation τ sig (Elt F)) : W13 V (Proc.devRef .tc main_v89) = val_main_v89 (argsOf V) :=
  (keep13 main_v89 (by decide) (W12 V)).trans (at12_v89 V)
theorem at13_v96 (V : Valuation τ sig (Elt F)) : W13 V (Proc.devRef .tc main_v96) = val_main_v96 (argsOf V) :=
  st13_v96 (W12 V) (argsOf V) (at12_v89 V) (at12_v91 V) (at12_v93 V) (at12_v75 V)
theorem at13_v98 (V : Valuation τ sig (Elt F)) : W13 V (Proc.devRef .tc main_v98) = val_main_v98 (argsOf V) :=
  st13_v98 (W12 V) (argsOf V) (at12_v79 V)
theorem at13_c_18 (V : Valuation τ sig (Elt F)) : W13 V (Proc.devRef .tc main_c_18) = val_main_c_18 (argsOf V) :=
  st13_c_18 (W12 V) (argsOf V)
theorem at14_v9 (V : Valuation τ sig (Elt F)) : W14 V (Proc.devRef .tc main_v9) = val_main_v9 (argsOf V) :=
  (keep14 main_v9 (by decide) (W13 V)).trans (at13_v9 V)
theorem at14_v19 (V : Valuation τ sig (Elt F)) : W14 V (Proc.devRef .tc main_v19) = val_main_v19 (argsOf V) :=
  (keep14 main_v19 (by decide) (W13 V)).trans (at13_v19 V)
theorem at14_v71 (V : Valuation τ sig (Elt F)) : W14 V (Proc.devRef .tc main_v71) = val_main_v71 (argsOf V) :=
  (keep14 main_v71 (by decide) (W13 V)).trans (at13_v71 V)
theorem at14_v75 (V : Valuation τ sig (Elt F)) : W14 V (Proc.devRef .tc main_v75) = val_main_v75 (argsOf V) :=
  (keep14 main_v75 (by decide) (W13 V)).trans (at13_v75 V)
theorem at14_v79 (V : Valuation τ sig (Elt F)) : W14 V (Proc.devRef .tc main_v79) = val_main_v79 (argsOf V) :=
  (keep14 main_v79 (by decide) (W13 V)).trans (at13_v79 V)
theorem at14_v105 (V : Valuation τ sig (Elt F)) : W14 V (Proc.devRef .tc main_v105) = val_main_v105 (argsOf V) :=
  st14_v105 (W13 V) (argsOf V) (at13_v96 V) (at13_v89 V) (at13_v98 V) (at13_v79 V) (at13_c_18 V)
theorem at14_v107 (V : Valuation τ sig (Elt F)) : W14 V (Proc.devRef .tc main_v107) = val_main_v107 (argsOf V) :=
  st14_v107 (W13 V) (argsOf V) (at13_v75 V)
theorem at14_v108 (V : Valuation τ sig (Elt F)) : W14 V (Proc.devRef .tc main_v108) = val_main_v108 (argsOf V) :=
  st14_v108 (W13 V) (argsOf V)
theorem at15_v9 (V : Valuation τ sig (Elt F)) : W15 V (Proc.devRef .tc main_v9) = val_main_v9 (argsOf V) :=
  (keep15 main_v9 (by decide) (W14 V)).trans (at14_v9 V)
theorem at15_v19 (V : Valuation τ sig (Elt F)) : W15 V (Proc.devRef .tc main_v19) = val_main_v19 (argsOf V) :=
  (keep15 main_v19 (by decide) (W14 V)).trans (at14_v19 V)
theorem at15_v117 (V : Valuation τ sig (Elt F)) : W15 V (Proc.devRef .tc main_v117) = val_main_v117 (argsOf V) :=
  st15_v117 (W14 V) (argsOf V) (at14_v79 V) (at14_v105 V) (at14_v71 V) (at14_v107 V) (at14_v75 V) (at14_v108 V)
theorem at15_v119 (V : Valuation τ sig (Elt F)) : W15 V (Proc.devRef .tc main_v119) = val_main_v119 (argsOf V) :=
  st15_v119 (W14 V) (argsOf V) (arg14 main_arg19 (by decide) V)
theorem at16_v9 (V : Valuation τ sig (Elt F)) : W16 V (Proc.devRef .tc main_v9) = val_main_v9 (argsOf V) :=
  (keep16 main_v9 (by decide) (W15 V)).trans (at15_v9 V)
theorem at16_v19 (V : Valuation τ sig (Elt F)) : W16 V (Proc.devRef .tc main_v19) = val_main_v19 (argsOf V) :=
  (keep16 main_v19 (by decide) (W15 V)).trans (at15_v19 V)
theorem at16_v124 (V : Valuation τ sig (Elt F)) : W16 V (Proc.devRef .tc main_v124) = val_main_v124 (argsOf V) :=
  st16_v124 (W15 V) (argsOf V) (arg15 main_arg5 (by decide) V) (at15_v117 V) (at15_v119 V)
theorem at16_v125 (V : Valuation τ sig (Elt F)) : W16 V (Proc.devRef .tc main_v125) = val_main_v125 (argsOf V) :=
  st16_v125 (W15 V) (argsOf V)
theorem at16_v126 (V : Valuation τ sig (Elt F)) : W16 V (Proc.devRef .tc main_v126) = val_main_v126 (argsOf V) :=
  st16_v126 (W15 V) (argsOf V)
theorem at17_v9 (V : Valuation τ sig (Elt F)) : W17 V (Proc.devRef .tc main_v9) = val_main_v9 (argsOf V) :=
  (keep17 main_v9 (by decide) (W16 V)).trans (at16_v9 V)
theorem at17_v19 (V : Valuation τ sig (Elt F)) : W17 V (Proc.devRef .tc main_v19) = val_main_v19 (argsOf V) :=
  (keep17 main_v19 (by decide) (W16 V)).trans (at16_v19 V)
theorem at17_v133 (V : Valuation τ sig (Elt F)) : W17 V (Proc.devRef .tc main_v133) = val_main_v133 (argsOf V) :=
  st17_v133 (W16 V) (argsOf V) (at16_v124 V) (at16_v126 V) (arg16 main_arg5 (by decide) V) (at16_v125 V)
theorem at17_v134 (V : Valuation τ sig (Elt F)) : W17 V (Proc.devRef .tc main_v134) = val_main_v134 (argsOf V) :=
  st17_v134 (W16 V) (argsOf V) (arg16 main_arg3 (by decide) V) (arg16 main_arg20 (by decide) V)
theorem at17_v136 (V : Valuation τ sig (Elt F)) : W17 V (Proc.devRef .tc main_v136) = val_main_v136 (argsOf V) :=
  st17_v136 (W16 V) (argsOf V) (arg16 main_arg6 (by decide) V)
theorem at17_v137 (V : Valuation τ sig (Elt F)) : W17 V (Proc.devRef .tc main_v137) = val_main_v137 (argsOf V) :=
  st17_v137 (W16 V) (argsOf V)
theorem at18_v9 (V : Valuation τ sig (Elt F)) : W18 V (Proc.devRef .tc main_v9) = val_main_v9 (argsOf V) :=
  (keep18 main_v9 (by decide) (W17 V)).trans (at17_v9 V)
theorem at18_v19 (V : Valuation τ sig (Elt F)) : W18 V (Proc.devRef .tc main_v19) = val_main_v19 (argsOf V) :=
  (keep18 main_v19 (by decide) (W17 V)).trans (at17_v19 V)
theorem at18_v133 (V : Valuation τ sig (Elt F)) : W18 V (Proc.devRef .tc main_v133) = val_main_v133 (argsOf V) :=
  (keep18 main_v133 (by decide) (W17 V)).trans (at17_v133 V)
theorem at18_v134 (V : Valuation τ sig (Elt F)) : W18 V (Proc.devRef .tc main_v134) = val_main_v134 (argsOf V) :=
  (keep18 main_v134 (by decide) (W17 V)).trans (at17_v134 V)
theorem at18_v138 (V : Valuation τ sig (Elt F)) : W18 V (Proc.devRef .tc main_v138) = val_main_v138 (argsOf V) :=
  st18_v138 (W17 V) (argsOf V) (at17_v136 V) (at17_v137 V)
theorem at18_v140 (V : Valuation τ sig (Elt F)) : W18 V (Proc.devRef .tc main_v140) = val_main_v140 (argsOf V) :=
  st18_v140 (W17 V) (argsOf V) (arg17 main_arg6 (by decide) V)
theorem at18_v141 (V : Valuation τ sig (Elt F)) : W18 V (Proc.devRef .tc main_v141) = val_main_v141 (argsOf V) :=
  st18_v141 (W17 V) (argsOf V)
theorem at19_v9 (V : Valuation τ sig (Elt F)) : W19 V (Proc.devRef .tc main_v9) = val_main_v9 (argsOf V) :=
  (keep19 main_v9 (by decide) (W18 V)).trans (at18_v9 V)
theorem at19_v19 (V : Valuation τ sig (Elt F)) : W19 V (Proc.devRef .tc main_v19) = val_main_v19 (argsOf V) :=
  (keep19 main_v19 (by decide) (W18 V)).trans (at18_v19 V)
theorem at19_v133 (V : Valuation τ sig (Elt F)) : W19 V (Proc.devRef .tc main_v133) = val_main_v133 (argsOf V) :=
  (keep19 main_v133 (by decide) (W18 V)).trans (at18_v133 V)
theorem at19_v134 (V : Valuation τ sig (Elt F)) : W19 V (Proc.devRef .tc main_v134) = val_main_v134 (argsOf V) :=
  (keep19 main_v134 (by decide) (W18 V)).trans (at18_v134 V)
theorem at19_v138 (V : Valuation τ sig (Elt F)) : W19 V (Proc.devRef .tc main_v138) = val_main_v138 (argsOf V) :=
  (keep19 main_v138 (by decide) (W18 V)).trans (at18_v138 V)
theorem at19_v142 (V : Valuation τ sig (Elt F)) : W19 V (Proc.devRef .tc main_v142) = val_main_v142 (argsOf V) :=
  st19_v142 (W18 V) (argsOf V) (at18_v140 V) (at18_v141 V)
theorem at19_v146 (V : Valuation τ sig (Elt F)) : W19 V (Proc.devRef .tc main_v146) = val_main_v146 (argsOf V) :=
  st19_v146 (W18 V) (argsOf V) (at18_v140 V) (at18_v141 V)
theorem at19_v148 (V : Valuation τ sig (Elt F)) : W19 V (Proc.devRef .tc main_v148) = val_main_v148 (argsOf V) :=
  st19_v148 (W18 V) (argsOf V) (at18_v140 V) (at18_v141 V)
theorem at20_v9 (V : Valuation τ sig (Elt F)) : W20 V (Proc.devRef .tc main_v9) = val_main_v9 (argsOf V) :=
  (keep20 main_v9 (by decide) (W19 V)).trans (at19_v9 V)
theorem at20_v19 (V : Valuation τ sig (Elt F)) : W20 V (Proc.devRef .tc main_v19) = val_main_v19 (argsOf V) :=
  (keep20 main_v19 (by decide) (W19 V)).trans (at19_v19 V)
theorem at20_v133 (V : Valuation τ sig (Elt F)) : W20 V (Proc.devRef .tc main_v133) = val_main_v133 (argsOf V) :=
  (keep20 main_v133 (by decide) (W19 V)).trans (at19_v133 V)
theorem at20_v134 (V : Valuation τ sig (Elt F)) : W20 V (Proc.devRef .tc main_v134) = val_main_v134 (argsOf V) :=
  (keep20 main_v134 (by decide) (W19 V)).trans (at19_v134 V)
theorem at20_v138 (V : Valuation τ sig (Elt F)) : W20 V (Proc.devRef .tc main_v138) = val_main_v138 (argsOf V) :=
  (keep20 main_v138 (by decide) (W19 V)).trans (at19_v138 V)
theorem at20_v142 (V : Valuation τ sig (Elt F)) : W20 V (Proc.devRef .tc main_v142) = val_main_v142 (argsOf V) :=
  (keep20 main_v142 (by decide) (W19 V)).trans (at19_v142 V)
theorem at20_v152 (V : Valuation τ sig (Elt F)) : W20 V (Proc.devRef .tc main_v152) = val_main_v152 (argsOf V) :=
  st20_v152 (W19 V) (argsOf V) (at19_v148 V) (at19_v146 V)
theorem at20_v154 (V : Valuation τ sig (Elt F)) : W20 V (Proc.devRef .tc main_v154) = val_main_v154 (argsOf V) :=
  st20_v154 (W19 V) (argsOf V) (at19_v138 V)
theorem at20_c_32 (V : Valuation τ sig (Elt F)) : W20 V (Proc.devRef .tc main_c_32) = val_main_c_32 (argsOf V) :=
  st20_c_32 (W19 V) (argsOf V)
theorem at21_v9 (V : Valuation τ sig (Elt F)) : W21 V (Proc.devRef .tc main_v9) = val_main_v9 (argsOf V) :=
  (keep21 main_v9 (by decide) (W20 V)).trans (at20_v9 V)
theorem at21_v19 (V : Valuation τ sig (Elt F)) : W21 V (Proc.devRef .tc main_v19) = val_main_v19 (argsOf V) :=
  (keep21 main_v19 (by decide) (W20 V)).trans (at20_v19 V)
theorem at21_v133 (V : Valuation τ sig (Elt F)) : W21 V (Proc.devRef .tc main_v133) = val_main_v133 (argsOf V) :=
  (keep21 main_v133 (by decide) (W20 V)).trans (at20_v133 V)
theorem at21_v134 (V : Valuation τ sig (Elt F)) : W21 V (Proc.devRef .tc main_v134) = val_main_v134 (argsOf V) :=
  (keep21 main_v134 (by decide) (W20 V)).trans (at20_v134 V)
theorem at21_v138 (V : Valuation τ sig (Elt F)) : W21 V (Proc.devRef .tc main_v138) = val_main_v138 (argsOf V) :=
  (keep21 main_v138 (by decide) (W20 V)).trans (at20_v138 V)
theorem at21_v142 (V : Valuation τ sig (Elt F)) : W21 V (Proc.devRef .tc main_v142) = val_main_v142 (argsOf V) :=
  (keep21 main_v142 (by decide) (W20 V)).trans (at20_v142 V)
theorem at21_v152 (V : Valuation τ sig (Elt F)) : W21 V (Proc.devRef .tc main_v152) = val_main_v152 (argsOf V) :=
  (keep21 main_v152 (by decide) (W20 V)).trans (at20_v152 V)
theorem at21_v159 (V : Valuation τ sig (Elt F)) : W21 V (Proc.devRef .tc main_v159) = val_main_v159 (argsOf V) :=
  st21_v159 (W20 V) (argsOf V) (at20_v152 V) (at20_v154 V) (at20_v138 V) (at20_c_32 V)
theorem at21_v164 (V : Valuation τ sig (Elt F)) : W21 V (Proc.devRef .tc main_v164) = val_main_v164 (argsOf V) :=
  st21_v164 (W20 V) (argsOf V) (at20_v142 V)
theorem at22_v9 (V : Valuation τ sig (Elt F)) : W22 V (Proc.devRef .tc main_v9) = val_main_v9 (argsOf V) :=
  (keep22 main_v9 (by decide) (W21 V)).trans (at21_v9 V)
theorem at22_v19 (V : Valuation τ sig (Elt F)) : W22 V (Proc.devRef .tc main_v19) = val_main_v19 (argsOf V) :=
  (keep22 main_v19 (by decide) (W21 V)).trans (at21_v19 V)
theorem at22_v133 (V : Valuation τ sig (Elt F)) : W22 V (Proc.devRef .tc main_v133) = val_main_v133 (argsOf V) :=
  (keep22 main_v133 (by decide) (W21 V)).trans (at21_v133 V)
theorem at22_v134 (V : Valuation τ sig (Elt F)) : W22 V (Proc.devRef .tc main_v134) = val_main_v134 (argsOf V) :=
  (keep22 main_v134 (by decide) (W21 V)).trans (at21_v134 V)
theorem at22_v142 (V : Valuation τ sig (Elt F)) : W22 V (Proc.devRef .tc main_v142) = val_main_v142 (argsOf V) :=
  (keep22 main_v142 (by decide) (W21 V)).trans (at21_v142 V)
theorem at22_v168 (V : Valuation τ sig (Elt F)) : W22 V (Proc.devRef .tc main_v168) = val_main_v168 (argsOf V) :=
  st22_v168 (W21 V) (argsOf V) (at21_v159 V) (at21_v152 V) (at21_v164 V)
theorem at22_v174 (V : Valuation τ sig (Elt F)) : W22 V (Proc.devRef .tc main_v174) = val_main_v174 (argsOf V) :=
  st22_v174 (W21 V) (argsOf V) (at21_v138 V)
theorem at23_v9 (V : Valuation τ sig (Elt F)) : W23 V (Proc.devRef .tc main_v9) = val_main_v9 (argsOf V) :=
  (keep23 main_v9 (by decide) (W22 V)).trans (at22_v9 V)
theorem at23_v19 (V : Valuation τ sig (Elt F)) : W23 V (Proc.devRef .tc main_v19) = val_main_v19 (argsOf V) :=
  (keep23 main_v19 (by decide) (W22 V)).trans (at22_v19 V)
theorem at23_v133 (V : Valuation τ sig (Elt F)) : W23 V (Proc.devRef .tc main_v133) = val_main_v133 (argsOf V) :=
  (keep23 main_v133 (by decide) (W22 V)).trans (at22_v133 V)
theorem at23_v183 (V : Valuation τ sig (Elt F)) : W23 V (Proc.devRef .tc main_v183) = val_main_v183 (argsOf V) :=
  st23_v183 (W22 V) (argsOf V) (at22_v142 V) (at22_v168 V) (at22_v134 V) (at22_v174 V) (arg22 main_arg21 (by decide) V)
theorem at23_call9_v0 (V : Valuation τ sig (Elt F)) : W23 V (Proc.devRef .tc main_call9_v0) = val_main_call9_v0 (argsOf V) :=
  st23_call9_v0 (W22 V) (argsOf V)
theorem at24_v9 (V : Valuation τ sig (Elt F)) : W24 V (Proc.devRef .tc main_v9) = val_main_v9 (argsOf V) :=
  (keep24 main_v9 (by decide) (W23 V)).trans (at23_v9 V)
theorem at24_v19 (V : Valuation τ sig (Elt F)) : W24 V (Proc.devRef .tc main_v19) = val_main_v19 (argsOf V) :=
  (keep24 main_v19 (by decide) (W23 V)).trans (at23_v19 V)
theorem at24_v133 (V : Valuation τ sig (Elt F)) : W24 V (Proc.devRef .tc main_v133) = val_main_v133 (argsOf V) :=
  (keep24 main_v133 (by decide) (W23 V)).trans (at23_v133 V)
theorem at24_v185 (V : Valuation τ sig (Elt F)) : W24 V (Proc.devRef .tc main_v185) = val_main_v185 (argsOf V) :=
  st24_v185 (W23 V) (argsOf V) (at23_v183 V) (at23_call9_v0 V) (arg23 main_arg22 (by decide) V)
theorem at24_v187 (V : Valuation τ sig (Elt F)) : W24 V (Proc.devRef .tc main_v187) = val_main_v187 (argsOf V) :=
  st24_v187 (W23 V) (argsOf V) (arg23 main_arg6 (by decide) V)
theorem at24_v188 (V : Valuation τ sig (Elt F)) : W24 V (Proc.devRef .tc main_v188) = val_main_v188 (argsOf V) :=
  st24_v188 (W23 V) (argsOf V)
theorem at25_v9 (V : Valuation τ sig (Elt F)) : W25 V (Proc.devRef .tc main_v9) = val_main_v9 (argsOf V) :=
  (keep25 main_v9 (by decide) (W24 V)).trans (at24_v9 V)
theorem at25_v19 (V : Valuation τ sig (Elt F)) : W25 V (Proc.devRef .tc main_v19) = val_main_v19 (argsOf V) :=
  (keep25 main_v19 (by decide) (W24 V)).trans (at24_v19 V)
theorem at25_v133 (V : Valuation τ sig (Elt F)) : W25 V (Proc.devRef .tc main_v133) = val_main_v133 (argsOf V) :=
  (keep25 main_v133 (by decide) (W24 V)).trans (at24_v133 V)
theorem at25_v185 (V : Valuation τ sig (Elt F)) : W25 V (Proc.devRef .tc main_v185) = val_main_v185 (argsOf V) :=
  (keep25 main_v185 (by decide) (W24 V)).trans (at24_v185 V)
theorem at25_v189 (V : Valuation τ sig (Elt F)) : W25 V (Proc.devRef .tc main_v189) = val_main_v189 (argsOf V) :=
  st25_v189 (W24 V) (argsOf V) (at24_v187 V) (at24_v188 V)
theorem at25_v191 (V : Valuation τ sig (Elt F)) : W25 V (Proc.devRef .tc main_v191) = val_main_v191 (argsOf V) :=
  st25_v191 (W24 V) (argsOf V) (arg24 main_arg6 (by decide) V)
theorem at25_v192 (V : Valuation τ sig (Elt F)) : W25 V (Proc.devRef .tc main_v192) = val_main_v192 (argsOf V) :=
  st25_v192 (W24 V) (argsOf V)
theorem at26_v9 (V : Valuation τ sig (Elt F)) : W26 V (Proc.devRef .tc main_v9) = val_main_v9 (argsOf V) :=
  (keep26 main_v9 (by decide) (W25 V)).trans (at25_v9 V)
theorem at26_v19 (V : Valuation τ sig (Elt F)) : W26 V (Proc.devRef .tc main_v19) = val_main_v19 (argsOf V) :=
  (keep26 main_v19 (by decide) (W25 V)).trans (at25_v19 V)
theorem at26_v133 (V : Valuation τ sig (Elt F)) : W26 V (Proc.devRef .tc main_v133) = val_main_v133 (argsOf V) :=
  (keep26 main_v133 (by decide) (W25 V)).trans (at25_v133 V)
theorem at26_v185 (V : Valuation τ sig (Elt F)) : W26 V (Proc.devRef .tc main_v185) = val_main_v185 (argsOf V) :=
  (keep26 main_v185 (by decide) (W25 V)).trans (at25_v185 V)
theorem at26_v189 (V : Valuation τ sig (Elt F)) : W26 V (Proc.devRef .tc main_v189) = val_main_v189 (argsOf V) :=
  (keep26 main_v189 (by decide) (W25 V)).trans (at25_v189 V)
theorem at26_v193 (V : Valuation τ sig (Elt F)) : W26 V (Proc.devRef .tc main_v193) = val_main_v193 (argsOf V) :=
  st26_v193 (W25 V) (argsOf V) (at25_v191 V) (at25_v192 V)
theorem at26_v197 (V : Valuation τ sig (Elt F)) : W26 V (Proc.devRef .tc main_v197) = val_main_v197 (argsOf V) :=
  st26_v197 (W25 V) (argsOf V) (at25_v191 V) (at25_v192 V)
theorem at27_v9 (V : Valuation τ sig (Elt F)) : W27 V (Proc.devRef .tc main_v9) = val_main_v9 (argsOf V) :=
  (keep27 main_v9 (by decide) (W26 V)).trans (at26_v9 V)
theorem at27_v19 (V : Valuation τ sig (Elt F)) : W27 V (Proc.devRef .tc main_v19) = val_main_v19 (argsOf V) :=
  (keep27 main_v19 (by decide) (W26 V)).trans (at26_v19 V)
theorem at27_v133 (V : Valuation τ sig (Elt F)) : W27 V (Proc.devRef .tc main_v133) = val_main_v133 (argsOf V) :=
  (keep27 main_v133 (by decide) (W26 V)).trans (at26_v133 V)
theorem at27_v185 (V : Valuation τ sig (Elt F)) : W27 V (Proc.devRef .tc main_v185) = val_main_v185 (argsOf V) :=
  (keep27 main_v185 (by decide) (W26 V)).trans (at26_v185 V)
theorem at27_v189 (V : Valuation τ sig (Elt F)) : W27 V (Proc.devRef .tc main_v189) = val_main_v189 (argsOf V) :=
  (keep27 main_v189 (by decide) (W26 V)).trans (at26_v189 V)
theorem at27_v193 (V : Valuation τ sig (Elt F)) : W27 V (Proc.devRef .tc main_v193) = val_main_v193 (argsOf V) :=
  (keep27 main_v193 (by decide) (W26 V)).trans (at26_v193 V)
theorem at27_v203 (V : Valuation τ sig (Elt F)) : W27 V (Proc.devRef .tc main_v203) = val_main_v203 (argsOf V) :=
  st27_v203 (W26 V) (argsOf V) (at26_v197 V)
theorem at27_c_43 (V : Valuation τ sig (Elt F)) : W27 V (Proc.devRef .tc main_c_43) = val_main_c_43 (argsOf V) :=
  st27_c_43 (W26 V) (argsOf V)
theorem at28_v9 (V : Valuation τ sig (Elt F)) : W28 V (Proc.devRef .tc main_v9) = val_main_v9 (argsOf V) :=
  (keep28 main_v9 (by decide) (W27 V)).trans (at27_v9 V)
theorem at28_v19 (V : Valuation τ sig (Elt F)) : W28 V (Proc.devRef .tc main_v19) = val_main_v19 (argsOf V) :=
  (keep28 main_v19 (by decide) (W27 V)).trans (at27_v19 V)
theorem at28_v133 (V : Valuation τ sig (Elt F)) : W28 V (Proc.devRef .tc main_v133) = val_main_v133 (argsOf V) :=
  (keep28 main_v133 (by decide) (W27 V)).trans (at27_v133 V)
theorem at28_v185 (V : Valuation τ sig (Elt F)) : W28 V (Proc.devRef .tc main_v185) = val_main_v185 (argsOf V) :=
  (keep28 main_v185 (by decide) (W27 V)).trans (at27_v185 V)
theorem at28_v189 (V : Valuation τ sig (Elt F)) : W28 V (Proc.devRef .tc main_v189) = val_main_v189 (argsOf V) :=
  (keep28 main_v189 (by decide) (W27 V)).trans (at27_v189 V)
theorem at28_v193 (V : Valuation τ sig (Elt F)) : W28 V (Proc.devRef .tc main_v193) = val_main_v193 (argsOf V) :=
  (keep28 main_v193 (by decide) (W27 V)).trans (at27_v193 V)
theorem at28_v203 (V : Valuation τ sig (Elt F)) : W28 V (Proc.devRef .tc main_v203) = val_main_v203 (argsOf V) :=
  (keep28 main_v203 (by decide) (W27 V)).trans (at27_v203 V)
theorem at28_v210 (V : Valuation τ sig (Elt F)) : W28 V (Proc.devRef .tc main_v210) = val_main_v210 (argsOf V) :=
  st28_v210 (W27 V) (argsOf V) (at27_v203 V) (at27_v189 V) (at27_c_43 V)
theorem at28_v212 (V : Valuation τ sig (Elt F)) : W28 V (Proc.devRef .tc main_v212) = val_main_v212 (argsOf V) :=
  st28_v212 (W27 V) (argsOf V) (at27_v193 V)
theorem at28_c_46 (V : Valuation τ sig (Elt F)) : W28 V (Proc.devRef .tc main_c_46) = val_main_c_46 (argsOf V) :=
  st28_c_46 (W27 V) (argsOf V)
theorem at29_v9 (V : Valuation τ sig (Elt F)) : W29 V (Proc.devRef .tc main_v9) = val_main_v9 (argsOf V) :=
  (keep29 main_v9 (by decide) (W28 V)).trans (at28_v9 V)
theorem at29_v19 (V : Valuation τ sig (Elt F)) : W29 V (Proc.devRef .tc main_v19) = val_main_v19 (argsOf V) :=
  (keep29 main_v19 (by decide) (W28 V)).trans (at28_v19 V)
theorem at29_v133 (V : Valuation τ sig (Elt F)) : W29 V (Proc.devRef .tc main_v133) = val_main_v133 (argsOf V) :=
  (keep29 main_v133 (by decide) (W28 V)).trans (at28_v133 V)
theorem at29_v185 (V : Valuation τ sig (Elt F)) : W29 V (Proc.devRef .tc main_v185) = val_main_v185 (argsOf V) :=
  (keep29 main_v185 (by decide) (W28 V)).trans (at28_v185 V)
theorem at29_v189 (V : Valuation τ sig (Elt F)) : W29 V (Proc.devRef .tc main_v189) = val_main_v189 (argsOf V) :=
  (keep29 main_v189 (by decide) (W28 V)).trans (at28_v189 V)
theorem at29_v193 (V : Valuation τ sig (Elt F)) : W29 V (Proc.devRef .tc main_v193) = val_main_v193 (argsOf V) :=
  (keep29 main_v193 (by decide) (W28 V)).trans (at28_v193 V)
theorem at29_v219 (V : Valuation τ sig (Elt F)) : W29 V (Proc.devRef .tc main_v219) = val_main_v219 (argsOf V) :=
  st29_v219 (W28 V) (argsOf V) (at28_v210 V) (at28_v203 V) (at28_v212 V) (at28_v193 V) (at28_c_46 V)
theorem at29_v221 (V : Valuation τ sig (Elt F)) : W29 V (Proc.devRef .tc main_v221) = val_main_v221 (argsOf V) :=
  st29_v221 (W28 V) (argsOf V) (at28_v189 V)
theorem at29_v222 (V : Valuation τ sig (Elt F)) : W29 V (Proc.devRef .tc main_v222) = val_main_v222 (argsOf V) :=
  st29_v222 (W28 V) (argsOf V)
theorem at30_v9 (V : Valuation τ sig (Elt F)) : W30 V (Proc.devRef .tc main_v9) = val_main_v9 (argsOf V) :=
  (keep30 main_v9 (by decide) (W29 V)).trans (at29_v9 V)
theorem at30_v19 (V : Valuation τ sig (Elt F)) : W30 V (Proc.devRef .tc main_v19) = val_main_v19 (argsOf V) :=
  (keep30 main_v19 (by decide) (W29 V)).trans (at29_v19 V)
theorem at30_v133 (V : Valuation τ sig (Elt F)) : W30 V (Proc.devRef .tc main_v133) = val_main_v133 (argsOf V) :=
  (keep30 main_v133 (by decide) (W29 V)).trans (at29_v133 V)
theorem at30_v231 (V : Valuation τ sig (Elt F)) : W30 V (Proc.devRef .tc main_v231) = val_main_v231 (argsOf V) :=
  st30_v231 (W29 V) (argsOf V) (at29_v193 V) (at29_v219 V) (at29_v185 V) (at29_v221 V) (at29_v189 V) (at29_v222 V)
theorem at30_v233 (V : Valuation τ sig (Elt F)) : W30 V (Proc.devRef .tc main_v233) = val_main_v233 (argsOf V) :=
  st30_v233 (W29 V) (argsOf V) (arg29 main_arg23 (by decide) V)
theorem at31_v9 (V : Valuation τ sig (Elt F)) : W31 V (Proc.devRef .tc main_v9) = val_main_v9 (argsOf V) :=
  (keep31 main_v9 (by decide) (W30 V)).trans (at30_v9 V)
theorem at31_v19 (V : Valuation τ sig (Elt F)) : W31 V (Proc.devRef .tc main_v19) = val_main_v19 (argsOf V) :=
  (keep31 main_v19 (by decide) (W30 V)).trans (at30_v19 V)
theorem at31_v133 (V : Valuation τ sig (Elt F)) : W31 V (Proc.devRef .tc main_v133) = val_main_v133 (argsOf V) :=
  (keep31 main_v133 (by decide) (W30 V)).trans (at30_v133 V)
theorem at31_v238 (V : Valuation τ sig (Elt F)) : W31 V (Proc.devRef .tc main_v238) = val_main_v238 (argsOf V) :=
  st31_v238 (W30 V) (argsOf V) (arg30 main_arg7 (by decide) V) (at30_v231 V) (at30_v233 V)
theorem at31_v239 (V : Valuation τ sig (Elt F)) : W31 V (Proc.devRef .tc main_v239) = val_main_v239 (argsOf V) :=
  st31_v239 (W30 V) (argsOf V)
theorem at31_v240 (V : Valuation τ sig (Elt F)) : W31 V (Proc.devRef .tc main_v240) = val_main_v240 (argsOf V) :=
  st31_v240 (W30 V) (argsOf V)
theorem at32_v9 (V : Valuation τ sig (Elt F)) : W32 V (Proc.devRef .tc main_v9) = val_main_v9 (argsOf V) :=
  (keep32 main_v9 (by decide) (W31 V)).trans (at31_v9 V)
theorem at32_v19 (V : Valuation τ sig (Elt F)) : W32 V (Proc.devRef .tc main_v19) = val_main_v19 (argsOf V) :=
  (keep32 main_v19 (by decide) (W31 V)).trans (at31_v19 V)
theorem at32_v133 (V : Valuation τ sig (Elt F)) : W32 V (Proc.devRef .tc main_v133) = val_main_v133 (argsOf V) :=
  (keep32 main_v133 (by decide) (W31 V)).trans (at31_v133 V)
theorem at32_v238 (V : Valuation τ sig (Elt F)) : W32 V (Proc.devRef .tc main_v238) = val_main_v238 (argsOf V) :=
  (keep32 main_v238 (by decide) (W31 V)).trans (at31_v238 V)
theorem at32_v242 (V : Valuation τ sig (Elt F)) : W32 V (Proc.devRef .tc main_v242) = val_main_v242 (argsOf V) :=
  st32_v242 (W31 V) (argsOf V) (at31_v240 V) (arg31 main_arg7 (by decide) V) (at31_v239 V)
theorem at32_v243 (V : Valuation τ sig (Elt F)) : W32 V (Proc.devRef .tc main_v243) = val_main_v243 (argsOf V) :=
  st32_v243 (W31 V) (argsOf V)
theorem at33_v9 (V : Valuation τ sig (Elt F)) : W33 V (Proc.devRef .tc main_v9) = val_main_v9 (argsOf V) :=
  (keep33 main_v9 (by decide) (W32 V)).trans (at32_v9 V)
theorem at33_v19 (V : Valuation τ sig (Elt F)) : W33 V (Proc.devRef .tc main_v19) = val_main_v19 (argsOf V) :=
  (keep33 main_v19 (by decide) (W32 V)).trans (at32_v19 V)
theorem at33_v133 (V : Valuation τ sig (Elt F)) : W33 V (Proc.devRef .tc main_v133) = val_main_v133 (argsOf V) :=
  (keep33 main_v133 (by decide) (W32 V)).trans (at32_v133 V)
theorem at33_v247 (V : Valuation τ sig (Elt F)) : W33 V (Proc.devRef .tc main_v247) = val_main_v247 (argsOf V) :=
  st33_v247 (W32 V) (argsOf V) (at32_v238 V) (at32_v242 V) (at32_v243 V)
theorem at34_v257 (V : Valuation τ sig (Elt F)) : W34 V (Proc.devRef .tc main_v257) = val_main_v257 (argsOf V) :=
  st34_v257 (W33 V) (argsOf V) (at33_v9 V) (at33_v19 V) (at33_v133 V) (at33_v247 V) (arg33 main_arg24 (by decide) V) (arg33 main_arg25 (by decide) V) (arg33 main_arg26 (by decide) V) (arg33 main_arg27 (by decide) V)
theorem at35_v258 (V : Valuation τ sig (Elt F)) : W35 V (Proc.devRef .tc main_v258) = val_main_v258 (argsOf V) :=
  st35_v258 (W34 V) (argsOf V) (at34_v257 V)

/-- The argument arrays a launch memory holds on a device. -/
abbrev argsAt (m : (ℓ : Loc nD τ sig) → Buf (Elt F) ℓ) (c : Dev nD) : Args F := argsOf (launchContents m c)

/-- On every device, for any float values, from any memory with zero counters: every weakly fair execution of the
    reference terminates with its result the pure function `REF` of the argument arrays, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v258) = REF (argsAt m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27) :=
  (θ_run defs _ _).mono (fun _ h c =>
    ⟨(h c main_v258).trans ((congrFun (after_ops _) _).trans (at35_v258 (launchContents m c))),
     (h c main_arg0).trans ((congrFun (after_ops _) _).trans (arg35 main_arg0 (by decide) (launchContents m c))),
     (h c main_arg1).trans ((congrFun (after_ops _) _).trans (arg35 main_arg1 (by decide) (launchContents m c))),
     (h c main_arg2).trans ((congrFun (after_ops _) _).trans (arg35 main_arg2 (by decide) (launchContents m c))),
     (h c main_arg3).trans ((congrFun (after_ops _) _).trans (arg35 main_arg3 (by decide) (launchContents m c))),
     (h c main_arg4).trans ((congrFun (after_ops _) _).trans (arg35 main_arg4 (by decide) (launchContents m c))),
     (h c main_arg5).trans ((congrFun (after_ops _) _).trans (arg35 main_arg5 (by decide) (launchContents m c))),
     (h c main_arg6).trans ((congrFun (after_ops _) _).trans (arg35 main_arg6 (by decide) (launchContents m c))),
     (h c main_arg7).trans ((congrFun (after_ops _) _).trans (arg35 main_arg7 (by decide) (launchContents m c))),
     (h c main_arg8).trans ((congrFun (after_ops _) _).trans (arg35 main_arg8 (by decide) (launchContents m c))),
     (h c main_arg9).trans ((congrFun (after_ops _) _).trans (arg35 main_arg9 (by decide) (launchContents m c))),
     (h c main_arg10).trans ((congrFun (after_ops _) _).trans (arg35 main_arg10 (by decide) (launchContents m c))),
     (h c main_arg11).trans ((congrFun (after_ops _) _).trans (arg35 main_arg11 (by decide) (launchContents m c))),
     (h c main_arg12).trans ((congrFun (after_ops _) _).trans (arg35 main_arg12 (by decide) (launchContents m c))),
     (h c main_arg13).trans ((congrFun (after_ops _) _).trans (arg35 main_arg13 (by decide) (launchContents m c))),
     (h c main_arg14).trans ((congrFun (after_ops _) _).trans (arg35 main_arg14 (by decide) (launchContents m c))),
     (h c main_arg15).trans ((congrFun (after_ops _) _).trans (arg35 main_arg15 (by decide) (launchContents m c))),
     (h c main_arg16).trans ((congrFun (after_ops _) _).trans (arg35 main_arg16 (by decide) (launchContents m c))),
     (h c main_arg17).trans ((congrFun (after_ops _) _).trans (arg35 main_arg17 (by decide) (launchContents m c))),
     (h c main_arg18).trans ((congrFun (after_ops _) _).trans (arg35 main_arg18 (by decide) (launchContents m c))),
     (h c main_arg19).trans ((congrFun (after_ops _) _).trans (arg35 main_arg19 (by decide) (launchContents m c))),
     (h c main_arg20).trans ((congrFun (after_ops _) _).trans (arg35 main_arg20 (by decide) (launchContents m c))),
     (h c main_arg21).trans ((congrFun (after_ops _) _).trans (arg35 main_arg21 (by decide) (launchContents m c))),
     (h c main_arg22).trans ((congrFun (after_ops _) _).trans (arg35 main_arg22 (by decide) (launchContents m c))),
     (h c main_arg23).trans ((congrFun (after_ops _) _).trans (arg35 main_arg23 (by decide) (launchContents m c))),
     (h c main_arg24).trans ((congrFun (after_ops _) _).trans (arg35 main_arg24 (by decide) (launchContents m c))),
     (h c main_arg25).trans ((congrFun (after_ops _) _).trans (arg35 main_arg25 (by decide) (launchContents m c))),
     (h c main_arg26).trans ((congrFun (after_ops _) _).trans (arg35 main_arg26 (by decide) (launchContents m c))),
     (h c main_arg27).trans ((congrFun (after_ops _) _).trans (arg35 main_arg27 (by decide) (launchContents m c)))⟩)
    (run_after m ρ)

/-- The reference runs to the end, faults nowhere and leaves its twenty-eight argument arrays as it found them. -/
theorem frame_ri : Cert.frame_ReferenceIdeal (hReferenceIdeal := Cert.ReferenceIdeal.Gen.facts)
    (hPre_finite_inputs := Cert.Pre_finite_inputs.Gen.facts) :=
  fun m ρ _ => (θ_run Cert.ReferenceIdeal.defs _ _).mono (fun _ h c => (h c).2) (run (F := Ideal) m ρ)

end Cert.Proof.RefSide

end
-- ==== Proof.KernelIdealKeep.lean ====
/-
  What the items of `KernelIdeal`'s @main leave untouched, along the boundary contents `U0 … U36`: a host stretch keeps every
  buffer it does not write, a region every buffer but its output array. From these, the buffers that are produced early and
  read late (the two metadata heads' outputs and the pooled protein features, read by the concatenate) and each argument
  array at the boundaries where a stretch reads it are walked back to where they were written — an argument to the launch memory.
-/
import proofs.«161272_j16312285791078_1_alg».proof.Proof.KernelIdealSegs

set_option maxRecDepth 16384

noncomputable section

namespace Cert.KernelIdeal.Asm

open Cert.KernelIdeal Cert.KernelIdeal.Gen Cert.KernelIdeal.GenP Cert.KernelIdeal.Rg
open Idealize.ShloMosaic Idealize.ShloMosaic.TcCoe

variable {F : FTy → Type} [FloatOps F]
variable (m : (ℓ : Loc nD τ sig) → Buf (Elt F) ℓ)

/-! ## One item -/

theorem U1_keep (c : Dev nD) (r : Ref sig .tc) (h : r ∉ hostOps0_W) : U1 m c r = U0 m c r := by
  unfold U1; exact StableHlo.after_of_writes_sub hostOps0 _ hostOps0_writes h
theorem U3_keep (c : Dev nD) (r : Ref sig .tc) (h : r ∉ hostOps1_W) : U3 m c r = U2 m c r := by
  unfold U3; exact StableHlo.after_of_writes_sub hostOps1 _ hostOps1_writes h
theorem U5_keep (c : Dev nD) (r : Ref sig .tc) (h : r ∉ hostOps2_W) : U5 m c r = U4 m c r := by
  unfold U5; exact StableHlo.after_of_writes_sub hostOps2 _ hostOps2_writes h
theorem U7_keep (c : Dev nD) (r : Ref sig .tc) (h : r ∉ hostOps3_W) : U7 m c r = U6 m c r := by
  unfold U7; exact StableHlo.after_of_writes_sub hostOps3 _ hostOps3_writes h
theorem U9_keep (c : Dev nD) (r : Ref sig .tc) (h : r ∉ hostOps4_W) : U9 m c r = U8 m c r := by
  unfold U9; exact StableHlo.after_of_writes_sub hostOps4 _ hostOps4_writes h
theorem U11_keep (c : Dev nD) (r : Ref sig .tc) (h : r ∉ hostOps5_W) : U11 m c r = U10 m c r := by
  unfold U11; exact StableHlo.after_of_writes_sub hostOps5 _ hostOps5_writes h
theorem U12_keep (c : Dev nD) (r : Ref sig .tc) (h : r ∉ hostOps5_1_W) : U12 m c r = U11 m c r := by
  unfold U12; exact StableHlo.after_of_writes_sub hostOps5_1 _ hostOps5_1_writes h
theorem U13_keep (c : Dev nD) (r : Ref sig .tc) (h : r ∉ hostOps5_2_W) : U13 m c r = U12 m c r := by
  unfold U13; exact StableHlo.after_of_writes_sub hostOps5_2 _ hostOps5_2_writes h
theorem U14_keep (c : Dev nD) (r : Ref sig .tc) (h : r ∉ hostOps5_3_W) : U14 m c r = U13 m c r := by
  unfold U14; exact StableHlo.after_of_writes_sub hostOps5_3 _ hostOps5_3_writes h
theorem U15_keep (c : Dev nD) (r : Ref sig .tc) (h : r ∉ hostOps5_4_W) : U15 m c r = U14 m c r := by
  unfold U15; exact StableHlo.after_of_writes_sub hostOps5_4 _ hostOps5_4_writes h
theorem U17_keep (c : Dev nD) (r : Ref sig .tc) (h : r ∉ hostOps6_W) : U17 m c r = U16 m c r := by
  unfold U17; exact StableHlo.after_of_writes_sub hostOps6 _ hostOps6_writes h
theorem U18_keep (c : Dev nD) (r : Ref sig .tc) (h : r ∉ hostOps6_1_W) : U18 m c r = U17 m c r := by
  unfold U18; exact StableHlo.after_of_writes_sub hostOps6_1 _ hostOps6_1_writes h
theorem U19_keep (c : Dev nD) (r : Ref sig .tc) (h : r ∉ hostOps6_2_W) : U19 m c r = U18 m c r := by
  unfold U19; exact StableHlo.after_of_writes_sub hostOps6_2 _ hostOps6_2_writes h
theorem U20_keep (c : Dev nD) (r : Ref sig .tc) (h : r ∉ hostOps6_3_W) : U20 m c r = U19 m c r := by
  unfold U20; exact StableHlo.after_of_writes_sub hostOps6_3 _ hostOps6_3_writes h
theorem U21_keep (c : Dev nD) (r : Ref sig .tc) (h : r ∉ hostOps6_4_W) : U21 m c r = U20 m c r := by
  unfold U21; exact StableHlo.after_of_writes_sub hostOps6_4 _ hostOps6_4_writes h
theorem U23_keep (c : Dev nD) (r : Ref sig .tc) (h : r ∉ hostOps7_W) : U23 m c r = U22 m c r := by
  unfold U23; exact StableHlo.after_of_writes_sub hostOps7 _ hostOps7_writes h
theorem U24_keep (c : Dev nD) (r : Ref sig .tc) (h : r ∉ hostOps7_1_W) : U24 m c r = U23 m c r := by
  unfold U24; exact StableHlo.after_of_writes_sub hostOps7_1 _ hostOps7_1_writes h
theorem U25_keep (c : Dev nD) (r : Ref sig .tc) (h : r ∉ hostOps7_2_W) : U25 m c r = U24 m c r := by
  unfold U25; exact StableHlo.after_of_writes_sub hostOps7_2 _ hostOps7_2_writes h
theorem U26_keep (c : Dev nD) (r : Ref sig .tc) (h : r ∉ hostOps7_3_W) : U26 m c r = U25 m c r := by
  unfold U26; exact StableHlo.after_of_writes_sub hostOps7_3 _ hostOps7_3_writes h
theorem U27_keep (c : Dev nD) (r : Ref sig .tc) (h : r ∉ hostOps7_4_W) : U27 m c r = U26 m c r := by
  unfold U27; exact StableHlo.after_of_writes_sub hostOps7_4 _ hostOps7_4_writes h
theorem U29_keep (c : Dev nD) (r : Ref sig .tc) (h : r ∉ hostOps8_W) : U29 m c r = U28 m c r := by
  unfold U29; exact StableHlo.after_of_writes_sub hostOps8 _ hostOps8_writes h
theorem U30_keep (c : Dev nD) (r : Ref sig .tc) (h : r ∉ hostOps8_1_W) : U30 m c r = U29 m c r := by
  unfold U30; exact StableHlo.after_of_writes_sub hostOps8_1 _ hostOps8_1_writes h
theorem U31_keep (c : Dev nD) (r : Ref sig .tc) (h : r ∉ hostOps8_2_W) : U31 m c r = U30 m c r := by
  unfold U31; exact StableHlo.after_of_writes_sub hostOps8_2 _ hostOps8_2_writes h
theorem U32_keep (c : Dev nD) (r : Ref sig .tc) (h : r ∉ hostOps8_3_W) : U32 m c r = U31 m c r := by
  unfold U32; exact StableHlo.after_of_writes_sub hostOps8_3 _ hostOps8_3_writes h
theorem U33_keep (c : Dev nD) (r : Ref sig .tc) (h : r ∉ hostOps8_4_W) : U33 m c r = U32 m c r := by
  unfold U33; exact StableHlo.after_of_writes_sub hostOps8_4 _ hostOps8_4_writes h
theorem U35_keep (c : Dev nD) (r : Ref sig .tc) (h : r ∉ hostOps9_W) : U35 m c r = U34 m c r := by
  unfold U35; exact StableHlo.after_of_writes_sub hostOps9 _ hostOps9_writes h

/-! ## Buffers written early and read late -/

theorem main_v7_at5 (c : Dev nD) : U5 m c main_v7 = U4 m c main_v7 := U5_keep m c main_v7 (by decide)
theorem main_v7_at6 (c : Dev nD) : U6 m c main_v7 = U4 m c main_v7 := (U6_of m c main_v7 (by decide)).trans (main_v7_at5 m c)
theorem main_v7_at7 (c : Dev nD) : U7 m c main_v7 = U4 m c main_v7 := (U7_keep m c main_v7 (by decide)).trans (main_v7_at6 m c)
theorem main_v7_at8 (c : Dev nD) : U8 m c main_v7 = U4 m c main_v7 := (U8_of m c main_v7 (by decide)).trans (main_v7_at7 m c)
theorem main_v7_at9 (c : Dev nD) : U9 m c main_v7 = U4 m c main_v7 := (U9_keep m c main_v7 (by decide)).trans (main_v7_at8 m c)
theorem main_v7_at10 (c : Dev nD) : U10 m c main_v7 = U4 m c main_v7 := (U10_of m c main_v7 (by decide)).trans (main_v7_at9 m c)
theorem main_v7_at11 (c : Dev nD) : U11 m c main_v7 = U4 m c main_v7 := (U11_keep m c main_v7 (by decide)).trans (main_v7_at10 m c)
theorem main_v7_at12 (c : Dev nD) : U12 m c main_v7 = U4 m c main_v7 := (U12_keep m c main_v7 (by decide)).trans (main_v7_at11 m c)
theorem main_v7_at13 (c : Dev nD) : U13 m c main_v7 = U4 m c main_v7 := (U13_keep m c main_v7 (by decide)).trans (main_v7_at12 m c)
theorem main_v7_at14 (c : Dev nD) : U14 m c main_v7 = U4 m c main_v7 := (U14_keep m c main_v7 (by decide)).trans (main_v7_at13 m c)
theorem main_v7_at15 (c : Dev nD) : U15 m c main_v7 = U4 m c main_v7 := (U15_keep m c main_v7 (by decide)).trans (main_v7_at14 m c)
theorem main_v7_at16 (c : Dev nD) : U16 m c main_v7 = U4 m c main_v7 := (U16_of m c main_v7 (by decide)).trans (main_v7_at15 m c)
theorem main_v7_at17 (c : Dev nD) : U17 m c main_v7 = U4 m c main_v7 := (U17_keep m c main_v7 (by decide)).trans (main_v7_at16 m c)
theorem main_v7_at18 (c : Dev nD) : U18 m c main_v7 = U4 m c main_v7 := (U18_keep m c main_v7 (by decide)).trans (main_v7_at17 m c)
theorem main_v7_at19 (c : Dev nD) : U19 m c main_v7 = U4 m c main_v7 := (U19_keep m c main_v7 (by decide)).trans (main_v7_at18 m c)
theorem main_v7_at20 (c : Dev nD) : U20 m c main_v7 = U4 m c main_v7 := (U20_keep m c main_v7 (by decide)).trans (main_v7_at19 m c)
theorem main_v7_at21 (c : Dev nD) : U21 m c main_v7 = U4 m c main_v7 := (U21_keep m c main_v7 (by decide)).trans (main_v7_at20 m c)
theorem main_v7_at22 (c : Dev nD) : U22 m c main_v7 = U4 m c main_v7 := (U22_of m c main_v7 (by decide)).trans (main_v7_at21 m c)
theorem main_v7_at23 (c : Dev nD) : U23 m c main_v7 = U4 m c main_v7 := (U23_keep m c main_v7 (by decide)).trans (main_v7_at22 m c)
theorem main_v7_at24 (c : Dev nD) : U24 m c main_v7 = U4 m c main_v7 := (U24_keep m c main_v7 (by decide)).trans (main_v7_at23 m c)
theorem main_v7_at25 (c : Dev nD) : U25 m c main_v7 = U4 m c main_v7 := (U25_keep m c main_v7 (by decide)).trans (main_v7_at24 m c)
theorem main_v7_at26 (c : Dev nD) : U26 m c main_v7 = U4 m c main_v7 := (U26_keep m c main_v7 (by decide)).trans (main_v7_at25 m c)
theorem main_v7_at27 (c : Dev nD) : U27 m c main_v7 = U4 m c main_v7 := (U27_keep m c main_v7 (by decide)).trans (main_v7_at26 m c)
theorem main_v7_at28 (c : Dev nD) : U28 m c main_v7 = U4 m c main_v7 := (U28_of m c main_v7 (by decide)).trans (main_v7_at27 m c)
theorem main_v7_at29 (c : Dev nD) : U29 m c main_v7 = U4 m c main_v7 := (U29_keep m c main_v7 (by decide)).trans (main_v7_at28 m c)
theorem main_v7_at30 (c : Dev nD) : U30 m c main_v7 = U4 m c main_v7 := (U30_keep m c main_v7 (by decide)).trans (main_v7_at29 m c)
theorem main_v7_at31 (c : Dev nD) : U31 m c main_v7 = U4 m c main_v7 := (U31_keep m c main_v7 (by decide)).trans (main_v7_at30 m c)
theorem main_v7_at32 (c : Dev nD) : U32 m c main_v7 = U4 m c main_v7 := (U32_keep m c main_v7 (by decide)).trans (main_v7_at31 m c)
theorem main_v15_at9 (c : Dev nD) : U9 m c main_v15 = U8 m c main_v15 := U9_keep m c main_v15 (by decide)
theorem main_v15_at10 (c : Dev nD) : U10 m c main_v15 = U8 m c main_v15 := (U10_of m c main_v15 (by decide)).trans (main_v15_at9 m c)
theorem main_v15_at11 (c : Dev nD) : U11 m c main_v15 = U8 m c main_v15 := (U11_keep m c main_v15 (by decide)).trans (main_v15_at10 m c)
theorem main_v15_at12 (c : Dev nD) : U12 m c main_v15 = U8 m c main_v15 := (U12_keep m c main_v15 (by decide)).trans (main_v15_at11 m c)
theorem main_v15_at13 (c : Dev nD) : U13 m c main_v15 = U8 m c main_v15 := (U13_keep m c main_v15 (by decide)).trans (main_v15_at12 m c)
theorem main_v15_at14 (c : Dev nD) : U14 m c main_v15 = U8 m c main_v15 := (U14_keep m c main_v15 (by decide)).trans (main_v15_at13 m c)
theorem main_v15_at15 (c : Dev nD) : U15 m c main_v15 = U8 m c main_v15 := (U15_keep m c main_v15 (by decide)).trans (main_v15_at14 m c)
theorem main_v15_at16 (c : Dev nD) : U16 m c main_v15 = U8 m c main_v15 := (U16_of m c main_v15 (by decide)).trans (main_v15_at15 m c)
theorem main_v15_at17 (c : Dev nD) : U17 m c main_v15 = U8 m c main_v15 := (U17_keep m c main_v15 (by decide)).trans (main_v15_at16 m c)
theorem main_v15_at18 (c : Dev nD) : U18 m c main_v15 = U8 m c main_v15 := (U18_keep m c main_v15 (by decide)).trans (main_v15_at17 m c)
theorem main_v15_at19 (c : Dev nD) : U19 m c main_v15 = U8 m c main_v15 := (U19_keep m c main_v15 (by decide)).trans (main_v15_at18 m c)
theorem main_v15_at20 (c : Dev nD) : U20 m c main_v15 = U8 m c main_v15 := (U20_keep m c main_v15 (by decide)).trans (main_v15_at19 m c)
theorem main_v15_at21 (c : Dev nD) : U21 m c main_v15 = U8 m c main_v15 := (U21_keep m c main_v15 (by decide)).trans (main_v15_at20 m c)
theorem main_v15_at22 (c : Dev nD) : U22 m c main_v15 = U8 m c main_v15 := (U22_of m c main_v15 (by decide)).trans (main_v15_at21 m c)
theorem main_v15_at23 (c : Dev nD) : U23 m c main_v15 = U8 m c main_v15 := (U23_keep m c main_v15 (by decide)).trans (main_v15_at22 m c)
theorem main_v15_at24 (c : Dev nD) : U24 m c main_v15 = U8 m c main_v15 := (U24_keep m c main_v15 (by decide)).trans (main_v15_at23 m c)
theorem main_v15_at25 (c : Dev nD) : U25 m c main_v15 = U8 m c main_v15 := (U25_keep m c main_v15 (by decide)).trans (main_v15_at24 m c)
theorem main_v15_at26 (c : Dev nD) : U26 m c main_v15 = U8 m c main_v15 := (U26_keep m c main_v15 (by decide)).trans (main_v15_at25 m c)
theorem main_v15_at27 (c : Dev nD) : U27 m c main_v15 = U8 m c main_v15 := (U27_keep m c main_v15 (by decide)).trans (main_v15_at26 m c)
theorem main_v15_at28 (c : Dev nD) : U28 m c main_v15 = U8 m c main_v15 := (U28_of m c main_v15 (by decide)).trans (main_v15_at27 m c)
theorem main_v15_at29 (c : Dev nD) : U29 m c main_v15 = U8 m c main_v15 := (U29_keep m c main_v15 (by decide)).trans (main_v15_at28 m c)
theorem main_v15_at30 (c : Dev nD) : U30 m c main_v15 = U8 m c main_v15 := (U30_keep m c main_v15 (by decide)).trans (main_v15_at29 m c)
theorem main_v15_at31 (c : Dev nD) : U31 m c main_v15 = U8 m c main_v15 := (U31_keep m c main_v15 (by decide)).trans (main_v15_at30 m c)
theorem main_v15_at32 (c : Dev nD) : U32 m c main_v15 = U8 m c main_v15 := (U32_keep m c main_v15 (by decide)).trans (main_v15_at31 m c)
theorem main_v137_at22 (c : Dev nD) : U22 m c main_v137 = U21 m c main_v137 := U22_of m c main_v137 (by decide)
theorem main_v137_at23 (c : Dev nD) : U23 m c main_v137 = U21 m c main_v137 := (U23_keep m c main_v137 (by decide)).trans (main_v137_at22 m c)
theorem main_v137_at24 (c : Dev nD) : U24 m c main_v137 = U21 m c main_v137 := (U24_keep m c main_v137 (by decide)).trans (main_v137_at23 m c)
theorem main_v137_at25 (c : Dev nD) : U25 m c main_v137 = U21 m c main_v137 := (U25_keep m c main_v137 (by decide)).trans (main_v137_at24 m c)
theorem main_v137_at26 (c : Dev nD) : U26 m c main_v137 = U21 m c main_v137 := (U26_keep m c main_v137 (by decide)).trans (main_v137_at25 m c)
theorem main_v137_at27 (c : Dev nD) : U27 m c main_v137 = U21 m c main_v137 := (U27_keep m c main_v137 (by decide)).trans (main_v137_at26 m c)
theorem main_v137_at28 (c : Dev nD) : U28 m c main_v137 = U21 m c main_v137 := (U28_of m c main_v137 (by decide)).trans (main_v137_at27 m c)
theorem main_v137_at29 (c : Dev nD) : U29 m c main_v137 = U21 m c main_v137 := (U29_keep m c main_v137 (by decide)).trans (main_v137_at28 m c)
theorem main_v137_at30 (c : Dev nD) : U30 m c main_v137 = U21 m c main_v137 := (U30_keep m c main_v137 (by decide)).trans (main_v137_at29 m c)
theorem main_v137_at31 (c : Dev nD) : U31 m c main_v137 = U21 m c main_v137 := (U31_keep m c main_v137 (by decide)).trans (main_v137_at30 m c)
theorem main_v137_at32 (c : Dev nD) : U32 m c main_v137 = U21 m c main_v137 := (U32_keep m c main_v137 (by decide)).trans (main_v137_at31 m c)

/-! ## The arguments at the boundaries where they are read -/

theorem arg0_at0 (c : Dev nD) : U0 m c main_arg0 = m ((c : Thread nD τ).loc main_arg0) := rfl
theorem arg1_at0 (c : Dev nD) : U0 m c main_arg1 = m ((c : Thread nD τ).loc main_arg1) := rfl
theorem arg1_at1 (c : Dev nD) : U1 m c main_arg1 = m ((c : Thread nD τ).loc main_arg1) := (U1_keep m c main_arg1 (by decide)).trans (arg1_at0 m c)
theorem arg1_at2 (c : Dev nD) : U2 m c main_arg1 = m ((c : Thread nD τ).loc main_arg1) := (U2_of m c main_arg1 (by decide)).trans (arg1_at1 m c)
theorem arg1_at3 (c : Dev nD) : U3 m c main_arg1 = m ((c : Thread nD τ).loc main_arg1) := (U3_keep m c main_arg1 (by decide)).trans (arg1_at2 m c)
theorem arg1_at4 (c : Dev nD) : U4 m c main_arg1 = m ((c : Thread nD τ).loc main_arg1) := (U4_of m c main_arg1 (by decide)).trans (arg1_at3 m c)
theorem arg2_at0 (c : Dev nD) : U0 m c main_arg2 = m ((c : Thread nD τ).loc main_arg2) := rfl
theorem arg2_at1 (c : Dev nD) : U1 m c main_arg2 = m ((c : Thread nD τ).loc main_arg2) := (U1_keep m c main_arg2 (by decide)).trans (arg2_at0 m c)
theorem arg2_at2 (c : Dev nD) : U2 m c main_arg2 = m ((c : Thread nD τ).loc main_arg2) := (U2_of m c main_arg2 (by decide)).trans (arg2_at1 m c)
theorem arg2_at3 (c : Dev nD) : U3 m c main_arg2 = m ((c : Thread nD τ).loc main_arg2) := (U3_keep m c main_arg2 (by decide)).trans (arg2_at2 m c)
theorem arg2_at4 (c : Dev nD) : U4 m c main_arg2 = m ((c : Thread nD τ).loc main_arg2) := (U4_of m c main_arg2 (by decide)).trans (arg2_at3 m c)
theorem arg2_at5 (c : Dev nD) : U5 m c main_arg2 = m ((c : Thread nD τ).loc main_arg2) := (U5_keep m c main_arg2 (by decide)).trans (arg2_at4 m c)
theorem arg2_at6 (c : Dev nD) : U6 m c main_arg2 = m ((c : Thread nD τ).loc main_arg2) := (U6_of m c main_arg2 (by decide)).trans (arg2_at5 m c)
theorem arg2_at7 (c : Dev nD) : U7 m c main_arg2 = m ((c : Thread nD τ).loc main_arg2) := (U7_keep m c main_arg2 (by decide)).trans (arg2_at6 m c)
theorem arg2_at8 (c : Dev nD) : U8 m c main_arg2 = m ((c : Thread nD τ).loc main_arg2) := (U8_of m c main_arg2 (by decide)).trans (arg2_at7 m c)
theorem arg3_at0 (c : Dev nD) : U0 m c main_arg3 = m ((c : Thread nD τ).loc main_arg3) := rfl
theorem arg3_at1 (c : Dev nD) : U1 m c main_arg3 = m ((c : Thread nD τ).loc main_arg3) := (U1_keep m c main_arg3 (by decide)).trans (arg3_at0 m c)
theorem arg3_at2 (c : Dev nD) : U2 m c main_arg3 = m ((c : Thread nD τ).loc main_arg3) := (U2_of m c main_arg3 (by decide)).trans (arg3_at1 m c)
theorem arg3_at3 (c : Dev nD) : U3 m c main_arg3 = m ((c : Thread nD τ).loc main_arg3) := (U3_keep m c main_arg3 (by decide)).trans (arg3_at2 m c)
theorem arg3_at4 (c : Dev nD) : U4 m c main_arg3 = m ((c : Thread nD τ).loc main_arg3) := (U4_of m c main_arg3 (by decide)).trans (arg3_at3 m c)
theorem arg3_at5 (c : Dev nD) : U5 m c main_arg3 = m ((c : Thread nD τ).loc main_arg3) := (U5_keep m c main_arg3 (by decide)).trans (arg3_at4 m c)
theorem arg3_at6 (c : Dev nD) : U6 m c main_arg3 = m ((c : Thread nD τ).loc main_arg3) := (U6_of m c main_arg3 (by decide)).trans (arg3_at5 m c)
theorem arg3_at7 (c : Dev nD) : U7 m c main_arg3 = m ((c : Thread nD τ).loc main_arg3) := (U7_keep m c main_arg3 (by decide)).trans (arg3_at6 m c)
theorem arg3_at8 (c : Dev nD) : U8 m c main_arg3 = m ((c : Thread nD τ).loc main_arg3) := (U8_of m c main_arg3 (by decide)).trans (arg3_at7 m c)
theorem arg3_at9 (c : Dev nD) : U9 m c main_arg3 = m ((c : Thread nD τ).loc main_arg3) := (U9_keep m c main_arg3 (by decide)).trans (arg3_at8 m c)
theorem arg3_at10 (c : Dev nD) : U10 m c main_arg3 = m ((c : Thread nD τ).loc main_arg3) := (U10_of m c main_arg3 (by decide)).trans (arg3_at9 m c)
theorem arg3_at11 (c : Dev nD) : U11 m c main_arg3 = m ((c : Thread nD τ).loc main_arg3) := (U11_keep m c main_arg3 (by decide)).trans (arg3_at10 m c)
theorem arg3_at12 (c : Dev nD) : U12 m c main_arg3 = m ((c : Thread nD τ).loc main_arg3) := (U12_keep m c main_arg3 (by decide)).trans (arg3_at11 m c)
theorem arg3_at13 (c : Dev nD) : U13 m c main_arg3 = m ((c : Thread nD τ).loc main_arg3) := (U13_keep m c main_arg3 (by decide)).trans (arg3_at12 m c)
theorem arg3_at14 (c : Dev nD) : U14 m c main_arg3 = m ((c : Thread nD τ).loc main_arg3) := (U14_keep m c main_arg3 (by decide)).trans (arg3_at13 m c)
theorem arg3_at15 (c : Dev nD) : U15 m c main_arg3 = m ((c : Thread nD τ).loc main_arg3) := (U15_keep m c main_arg3 (by decide)).trans (arg3_at14 m c)
theorem arg3_at16 (c : Dev nD) : U16 m c main_arg3 = m ((c : Thread nD τ).loc main_arg3) := (U16_of m c main_arg3 (by decide)).trans (arg3_at15 m c)
theorem arg3_at17 (c : Dev nD) : U17 m c main_arg3 = m ((c : Thread nD τ).loc main_arg3) := (U17_keep m c main_arg3 (by decide)).trans (arg3_at16 m c)
theorem arg3_at18 (c : Dev nD) : U18 m c main_arg3 = m ((c : Thread nD τ).loc main_arg3) := (U18_keep m c main_arg3 (by decide)).trans (arg3_at17 m c)
theorem arg3_at19 (c : Dev nD) : U19 m c main_arg3 = m ((c : Thread nD τ).loc main_arg3) := (U19_keep m c main_arg3 (by decide)).trans (arg3_at18 m c)
theorem arg3_at20 (c : Dev nD) : U20 m c main_arg3 = m ((c : Thread nD τ).loc main_arg3) := (U20_keep m c main_arg3 (by decide)).trans (arg3_at19 m c)
theorem arg4_at0 (c : Dev nD) : U0 m c main_arg4 = m ((c : Thread nD τ).loc main_arg4) := rfl
theorem arg4_at1 (c : Dev nD) : U1 m c main_arg4 = m ((c : Thread nD τ).loc main_arg4) := (U1_keep m c main_arg4 (by decide)).trans (arg4_at0 m c)
theorem arg4_at2 (c : Dev nD) : U2 m c main_arg4 = m ((c : Thread nD τ).loc main_arg4) := (U2_of m c main_arg4 (by decide)).trans (arg4_at1 m c)
theorem arg4_at3 (c : Dev nD) : U3 m c main_arg4 = m ((c : Thread nD τ).loc main_arg4) := (U3_keep m c main_arg4 (by decide)).trans (arg4_at2 m c)
theorem arg4_at4 (c : Dev nD) : U4 m c main_arg4 = m ((c : Thread nD τ).loc main_arg4) := (U4_of m c main_arg4 (by decide)).trans (arg4_at3 m c)
theorem arg4_at5 (c : Dev nD) : U5 m c main_arg4 = m ((c : Thread nD τ).loc main_arg4) := (U5_keep m c main_arg4 (by decide)).trans (arg4_at4 m c)
theorem arg4_at6 (c : Dev nD) : U6 m c main_arg4 = m ((c : Thread nD τ).loc main_arg4) := (U6_of m c main_arg4 (by decide)).trans (arg4_at5 m c)
theorem arg4_at7 (c : Dev nD) : U7 m c main_arg4 = m ((c : Thread nD τ).loc main_arg4) := (U7_keep m c main_arg4 (by decide)).trans (arg4_at6 m c)
theorem arg4_at8 (c : Dev nD) : U8 m c main_arg4 = m ((c : Thread nD τ).loc main_arg4) := (U8_of m c main_arg4 (by decide)).trans (arg4_at7 m c)
theorem arg4_at9 (c : Dev nD) : U9 m c main_arg4 = m ((c : Thread nD τ).loc main_arg4) := (U9_keep m c main_arg4 (by decide)).trans (arg4_at8 m c)
theorem arg4_at10 (c : Dev nD) : U10 m c main_arg4 = m ((c : Thread nD τ).loc main_arg4) := (U10_of m c main_arg4 (by decide)).trans (arg4_at9 m c)
theorem arg4_at11 (c : Dev nD) : U11 m c main_arg4 = m ((c : Thread nD τ).loc main_arg4) := (U11_keep m c main_arg4 (by decide)).trans (arg4_at10 m c)
theorem arg4_at12 (c : Dev nD) : U12 m c main_arg4 = m ((c : Thread nD τ).loc main_arg4) := (U12_keep m c main_arg4 (by decide)).trans (arg4_at11 m c)
theorem arg4_at13 (c : Dev nD) : U13 m c main_arg4 = m ((c : Thread nD τ).loc main_arg4) := (U13_keep m c main_arg4 (by decide)).trans (arg4_at12 m c)
theorem arg4_at14 (c : Dev nD) : U14 m c main_arg4 = m ((c : Thread nD τ).loc main_arg4) := (U14_keep m c main_arg4 (by decide)).trans (arg4_at13 m c)
theorem arg4_at15 (c : Dev nD) : U15 m c main_arg4 = m ((c : Thread nD τ).loc main_arg4) := (U15_keep m c main_arg4 (by decide)).trans (arg4_at14 m c)
theorem arg4_at16 (c : Dev nD) : U16 m c main_arg4 = m ((c : Thread nD τ).loc main_arg4) := (U16_of m c main_arg4 (by decide)).trans (arg4_at15 m c)
theorem arg4_at17 (c : Dev nD) : U17 m c main_arg4 = m ((c : Thread nD τ).loc main_arg4) := (U17_keep m c main_arg4 (by decide)).trans (arg4_at16 m c)
theorem arg4_at18 (c : Dev nD) : U18 m c main_arg4 = m ((c : Thread nD τ).loc main_arg4) := (U18_keep m c main_arg4 (by decide)).trans (arg4_at17 m c)
theorem arg4_at19 (c : Dev nD) : U19 m c main_arg4 = m ((c : Thread nD τ).loc main_arg4) := (U19_keep m c main_arg4 (by decide)).trans (arg4_at18 m c)
theorem arg4_at20 (c : Dev nD) : U20 m c main_arg4 = m ((c : Thread nD τ).loc main_arg4) := (U20_keep m c main_arg4 (by decide)).trans (arg4_at19 m c)
theorem arg5_at0 (c : Dev nD) : U0 m c main_arg5 = m ((c : Thread nD τ).loc main_arg5) := rfl
theorem arg5_at1 (c : Dev nD) : U1 m c main_arg5 = m ((c : Thread nD τ).loc main_arg5) := (U1_keep m c main_arg5 (by decide)).trans (arg5_at0 m c)
theorem arg5_at2 (c : Dev nD) : U2 m c main_arg5 = m ((c : Thread nD τ).loc main_arg5) := (U2_of m c main_arg5 (by decide)).trans (arg5_at1 m c)
theorem arg5_at3 (c : Dev nD) : U3 m c main_arg5 = m ((c : Thread nD τ).loc main_arg5) := (U3_keep m c main_arg5 (by decide)).trans (arg5_at2 m c)
theorem arg5_at4 (c : Dev nD) : U4 m c main_arg5 = m ((c : Thread nD τ).loc main_arg5) := (U4_of m c main_arg5 (by decide)).trans (arg5_at3 m c)
theorem arg5_at5 (c : Dev nD) : U5 m c main_arg5 = m ((c : Thread nD τ).loc main_arg5) := (U5_keep m c main_arg5 (by decide)).trans (arg5_at4 m c)
theorem arg5_at6 (c : Dev nD) : U6 m c main_arg5 = m ((c : Thread nD τ).loc main_arg5) := (U6_of m c main_arg5 (by decide)).trans (arg5_at5 m c)
theorem arg5_at7 (c : Dev nD) : U7 m c main_arg5 = m ((c : Thread nD τ).loc main_arg5) := (U7_keep m c main_arg5 (by decide)).trans (arg5_at6 m c)
theorem arg5_at8 (c : Dev nD) : U8 m c main_arg5 = m ((c : Thread nD τ).loc main_arg5) := (U8_of m c main_arg5 (by decide)).trans (arg5_at7 m c)
theorem arg5_at9 (c : Dev nD) : U9 m c main_arg5 = m ((c : Thread nD τ).loc main_arg5) := (U9_keep m c main_arg5 (by decide)).trans (arg5_at8 m c)
theorem arg5_at10 (c : Dev nD) : U10 m c main_arg5 = m ((c : Thread nD τ).loc main_arg5) := (U10_of m c main_arg5 (by decide)).trans (arg5_at9 m c)
theorem arg5_at11 (c : Dev nD) : U11 m c main_arg5 = m ((c : Thread nD τ).loc main_arg5) := (U11_keep m c main_arg5 (by decide)).trans (arg5_at10 m c)
theorem arg5_at12 (c : Dev nD) : U12 m c main_arg5 = m ((c : Thread nD τ).loc main_arg5) := (U12_keep m c main_arg5 (by decide)).trans (arg5_at11 m c)
theorem arg5_at13 (c : Dev nD) : U13 m c main_arg5 = m ((c : Thread nD τ).loc main_arg5) := (U13_keep m c main_arg5 (by decide)).trans (arg5_at12 m c)
theorem arg5_at14 (c : Dev nD) : U14 m c main_arg5 = m ((c : Thread nD τ).loc main_arg5) := (U14_keep m c main_arg5 (by decide)).trans (arg5_at13 m c)
theorem arg5_at15 (c : Dev nD) : U15 m c main_arg5 = m ((c : Thread nD τ).loc main_arg5) := (U15_keep m c main_arg5 (by decide)).trans (arg5_at14 m c)
theorem arg5_at16 (c : Dev nD) : U16 m c main_arg5 = m ((c : Thread nD τ).loc main_arg5) := (U16_of m c main_arg5 (by decide)).trans (arg5_at15 m c)
theorem arg5_at17 (c : Dev nD) : U17 m c main_arg5 = m ((c : Thread nD τ).loc main_arg5) := (U17_keep m c main_arg5 (by decide)).trans (arg5_at16 m c)
theorem arg5_at18 (c : Dev nD) : U18 m c main_arg5 = m ((c : Thread nD τ).loc main_arg5) := (U18_keep m c main_arg5 (by decide)).trans (arg5_at17 m c)
theorem arg5_at19 (c : Dev nD) : U19 m c main_arg5 = m ((c : Thread nD τ).loc main_arg5) := (U19_keep m c main_arg5 (by decide)).trans (arg5_at18 m c)
theorem arg5_at20 (c : Dev nD) : U20 m c main_arg5 = m ((c : Thread nD τ).loc main_arg5) := (U20_keep m c main_arg5 (by decide)).trans (arg5_at19 m c)
theorem arg6_at0 (c : Dev nD) : U0 m c main_arg6 = m ((c : Thread nD τ).loc main_arg6) := rfl
theorem arg6_at1 (c : Dev nD) : U1 m c main_arg6 = m ((c : Thread nD τ).loc main_arg6) := (U1_keep m c main_arg6 (by decide)).trans (arg6_at0 m c)
theorem arg6_at2 (c : Dev nD) : U2 m c main_arg6 = m ((c : Thread nD τ).loc main_arg6) := (U2_of m c main_arg6 (by decide)).trans (arg6_at1 m c)
theorem arg6_at3 (c : Dev nD) : U3 m c main_arg6 = m ((c : Thread nD τ).loc main_arg6) := (U3_keep m c main_arg6 (by decide)).trans (arg6_at2 m c)
theorem arg6_at4 (c : Dev nD) : U4 m c main_arg6 = m ((c : Thread nD τ).loc main_arg6) := (U4_of m c main_arg6 (by decide)).trans (arg6_at3 m c)
theorem arg6_at5 (c : Dev nD) : U5 m c main_arg6 = m ((c : Thread nD τ).loc main_arg6) := (U5_keep m c main_arg6 (by decide)).trans (arg6_at4 m c)
theorem arg6_at6 (c : Dev nD) : U6 m c main_arg6 = m ((c : Thread nD τ).loc main_arg6) := (U6_of m c main_arg6 (by decide)).trans (arg6_at5 m c)
theorem arg6_at7 (c : Dev nD) : U7 m c main_arg6 = m ((c : Thread nD τ).loc main_arg6) := (U7_keep m c main_arg6 (by decide)).trans (arg6_at6 m c)
theorem arg6_at8 (c : Dev nD) : U8 m c main_arg6 = m ((c : Thread nD τ).loc main_arg6) := (U8_of m c main_arg6 (by decide)).trans (arg6_at7 m c)
theorem arg6_at9 (c : Dev nD) : U9 m c main_arg6 = m ((c : Thread nD τ).loc main_arg6) := (U9_keep m c main_arg6 (by decide)).trans (arg6_at8 m c)
theorem arg6_at10 (c : Dev nD) : U10 m c main_arg6 = m ((c : Thread nD τ).loc main_arg6) := (U10_of m c main_arg6 (by decide)).trans (arg6_at9 m c)
theorem arg6_at11 (c : Dev nD) : U11 m c main_arg6 = m ((c : Thread nD τ).loc main_arg6) := (U11_keep m c main_arg6 (by decide)).trans (arg6_at10 m c)
theorem arg6_at12 (c : Dev nD) : U12 m c main_arg6 = m ((c : Thread nD τ).loc main_arg6) := (U12_keep m c main_arg6 (by decide)).trans (arg6_at11 m c)
theorem arg6_at13 (c : Dev nD) : U13 m c main_arg6 = m ((c : Thread nD τ).loc main_arg6) := (U13_keep m c main_arg6 (by decide)).trans (arg6_at12 m c)
theorem arg6_at14 (c : Dev nD) : U14 m c main_arg6 = m ((c : Thread nD τ).loc main_arg6) := (U14_keep m c main_arg6 (by decide)).trans (arg6_at13 m c)
theorem arg6_at15 (c : Dev nD) : U15 m c main_arg6 = m ((c : Thread nD τ).loc main_arg6) := (U15_keep m c main_arg6 (by decide)).trans (arg6_at14 m c)
theorem arg6_at16 (c : Dev nD) : U16 m c main_arg6 = m ((c : Thread nD τ).loc main_arg6) := (U16_of m c main_arg6 (by decide)).trans (arg6_at15 m c)
theorem arg6_at17 (c : Dev nD) : U17 m c main_arg6 = m ((c : Thread nD τ).loc main_arg6) := (U17_keep m c main_arg6 (by decide)).trans (arg6_at16 m c)
theorem arg6_at18 (c : Dev nD) : U18 m c main_arg6 = m ((c : Thread nD τ).loc main_arg6) := (U18_keep m c main_arg6 (by decide)).trans (arg6_at17 m c)
theorem arg6_at19 (c : Dev nD) : U19 m c main_arg6 = m ((c : Thread nD τ).loc main_arg6) := (U19_keep m c main_arg6 (by decide)).trans (arg6_at18 m c)
theorem arg6_at20 (c : Dev nD) : U20 m c main_arg6 = m ((c : Thread nD τ).loc main_arg6) := (U20_keep m c main_arg6 (by decide)).trans (arg6_at19 m c)
theorem arg6_at21 (c : Dev nD) : U21 m c main_arg6 = m ((c : Thread nD τ).loc main_arg6) := (U21_keep m c main_arg6 (by decide)).trans (arg6_at20 m c)
theorem arg6_at22 (c : Dev nD) : U22 m c main_arg6 = m ((c : Thread nD τ).loc main_arg6) := (U22_of m c main_arg6 (by decide)).trans (arg6_at21 m c)
theorem arg6_at23 (c : Dev nD) : U23 m c main_arg6 = m ((c : Thread nD τ).loc main_arg6) := (U23_keep m c main_arg6 (by decide)).trans (arg6_at22 m c)
theorem arg6_at24 (c : Dev nD) : U24 m c main_arg6 = m ((c : Thread nD τ).loc main_arg6) := (U24_keep m c main_arg6 (by decide)).trans (arg6_at23 m c)
theorem arg6_at25 (c : Dev nD) : U25 m c main_arg6 = m ((c : Thread nD τ).loc main_arg6) := (U25_keep m c main_arg6 (by decide)).trans (arg6_at24 m c)
theorem arg6_at26 (c : Dev nD) : U26 m c main_arg6 = m ((c : Thread nD τ).loc main_arg6) := (U26_keep m c main_arg6 (by decide)).trans (arg6_at25 m c)
theorem arg6_at27 (c : Dev nD) : U27 m c main_arg6 = m ((c : Thread nD τ).loc main_arg6) := (U27_keep m c main_arg6 (by decide)).trans (arg6_at26 m c)
theorem arg6_at28 (c : Dev nD) : U28 m c main_arg6 = m ((c : Thread nD τ).loc main_arg6) := (U28_of m c main_arg6 (by decide)).trans (arg6_at27 m c)
theorem arg6_at29 (c : Dev nD) : U29 m c main_arg6 = m ((c : Thread nD τ).loc main_arg6) := (U29_keep m c main_arg6 (by decide)).trans (arg6_at28 m c)
theorem arg6_at30 (c : Dev nD) : U30 m c main_arg6 = m ((c : Thread nD τ).loc main_arg6) := (U30_keep m c main_arg6 (by decide)).trans (arg6_at29 m c)
theorem arg6_at31 (c : Dev nD) : U31 m c main_arg6 = m ((c : Thread nD τ).loc main_arg6) := (U31_keep m c main_arg6 (by decide)).trans (arg6_at30 m c)
theorem arg6_at32 (c : Dev nD) : U32 m c main_arg6 = m ((c : Thread nD τ).loc main_arg6) := (U32_keep m c main_arg6 (by decide)).trans (arg6_at31 m c)
theorem arg7_at0 (c : Dev nD) : U0 m c main_arg7 = m ((c : Thread nD τ).loc main_arg7) := rfl
theorem arg7_at1 (c : Dev nD) : U1 m c main_arg7 = m ((c : Thread nD τ).loc main_arg7) := (U1_keep m c main_arg7 (by decide)).trans (arg7_at0 m c)
theorem arg7_at2 (c : Dev nD) : U2 m c main_arg7 = m ((c : Thread nD τ).loc main_arg7) := (U2_of m c main_arg7 (by decide)).trans (arg7_at1 m c)
theorem arg7_at3 (c : Dev nD) : U3 m c main_arg7 = m ((c : Thread nD τ).loc main_arg7) := (U3_keep m c main_arg7 (by decide)).trans (arg7_at2 m c)
theorem arg7_at4 (c : Dev nD) : U4 m c main_arg7 = m ((c : Thread nD τ).loc main_arg7) := (U4_of m c main_arg7 (by decide)).trans (arg7_at3 m c)
theorem arg7_at5 (c : Dev nD) : U5 m c main_arg7 = m ((c : Thread nD τ).loc main_arg7) := (U5_keep m c main_arg7 (by decide)).trans (arg7_at4 m c)
theorem arg7_at6 (c : Dev nD) : U6 m c main_arg7 = m ((c : Thread nD τ).loc main_arg7) := (U6_of m c main_arg7 (by decide)).trans (arg7_at5 m c)
theorem arg7_at7 (c : Dev nD) : U7 m c main_arg7 = m ((c : Thread nD τ).loc main_arg7) := (U7_keep m c main_arg7 (by decide)).trans (arg7_at6 m c)
theorem arg7_at8 (c : Dev nD) : U8 m c main_arg7 = m ((c : Thread nD τ).loc main_arg7) := (U8_of m c main_arg7 (by decide)).trans (arg7_at7 m c)
theorem arg7_at9 (c : Dev nD) : U9 m c main_arg7 = m ((c : Thread nD τ).loc main_arg7) := (U9_keep m c main_arg7 (by decide)).trans (arg7_at8 m c)
theorem arg7_at10 (c : Dev nD) : U10 m c main_arg7 = m ((c : Thread nD τ).loc main_arg7) := (U10_of m c main_arg7 (by decide)).trans (arg7_at9 m c)
theorem arg7_at11 (c : Dev nD) : U11 m c main_arg7 = m ((c : Thread nD τ).loc main_arg7) := (U11_keep m c main_arg7 (by decide)).trans (arg7_at10 m c)
theorem arg7_at12 (c : Dev nD) : U12 m c main_arg7 = m ((c : Thread nD τ).loc main_arg7) := (U12_keep m c main_arg7 (by decide)).trans (arg7_at11 m c)
theorem arg7_at13 (c : Dev nD) : U13 m c main_arg7 = m ((c : Thread nD τ).loc main_arg7) := (U13_keep m c main_arg7 (by decide)).trans (arg7_at12 m c)
theorem arg7_at14 (c : Dev nD) : U14 m c main_arg7 = m ((c : Thread nD τ).loc main_arg7) := (U14_keep m c main_arg7 (by decide)).trans (arg7_at13 m c)
theorem arg7_at15 (c : Dev nD) : U15 m c main_arg7 = m ((c : Thread nD τ).loc main_arg7) := (U15_keep m c main_arg7 (by decide)).trans (arg7_at14 m c)
theorem arg7_at16 (c : Dev nD) : U16 m c main_arg7 = m ((c : Thread nD τ).loc main_arg7) := (U16_of m c main_arg7 (by decide)).trans (arg7_at15 m c)
theorem arg7_at17 (c : Dev nD) : U17 m c main_arg7 = m ((c : Thread nD τ).loc main_arg7) := (U17_keep m c main_arg7 (by decide)).trans (arg7_at16 m c)
theorem arg7_at18 (c : Dev nD) : U18 m c main_arg7 = m ((c : Thread nD τ).loc main_arg7) := (U18_keep m c main_arg7 (by decide)).trans (arg7_at17 m c)
theorem arg7_at19 (c : Dev nD) : U19 m c main_arg7 = m ((c : Thread nD τ).loc main_arg7) := (U19_keep m c main_arg7 (by decide)).trans (arg7_at18 m c)
theorem arg7_at20 (c : Dev nD) : U20 m c main_arg7 = m ((c : Thread nD τ).loc main_arg7) := (U20_keep m c main_arg7 (by decide)).trans (arg7_at19 m c)
theorem arg7_at21 (c : Dev nD) : U21 m c main_arg7 = m ((c : Thread nD τ).loc main_arg7) := (U21_keep m c main_arg7 (by decide)).trans (arg7_at20 m c)
theorem arg7_at22 (c : Dev nD) : U22 m c main_arg7 = m ((c : Thread nD τ).loc main_arg7) := (U22_of m c main_arg7 (by decide)).trans (arg7_at21 m c)
theorem arg7_at23 (c : Dev nD) : U23 m c main_arg7 = m ((c : Thread nD τ).loc main_arg7) := (U23_keep m c main_arg7 (by decide)).trans (arg7_at22 m c)
theorem arg7_at24 (c : Dev nD) : U24 m c main_arg7 = m ((c : Thread nD τ).loc main_arg7) := (U24_keep m c main_arg7 (by decide)).trans (arg7_at23 m c)
theorem arg7_at25 (c : Dev nD) : U25 m c main_arg7 = m ((c : Thread nD τ).loc main_arg7) := (U25_keep m c main_arg7 (by decide)).trans (arg7_at24 m c)
theorem arg7_at26 (c : Dev nD) : U26 m c main_arg7 = m ((c : Thread nD τ).loc main_arg7) := (U26_keep m c main_arg7 (by decide)).trans (arg7_at25 m c)
theorem arg7_at27 (c : Dev nD) : U27 m c main_arg7 = m ((c : Thread nD τ).loc main_arg7) := (U27_keep m c main_arg7 (by decide)).trans (arg7_at26 m c)
theorem arg7_at28 (c : Dev nD) : U28 m c main_arg7 = m ((c : Thread nD τ).loc main_arg7) := (U28_of m c main_arg7 (by decide)).trans (arg7_at27 m c)
theorem arg7_at29 (c : Dev nD) : U29 m c main_arg7 = m ((c : Thread nD τ).loc main_arg7) := (U29_keep m c main_arg7 (by decide)).trans (arg7_at28 m c)
theorem arg7_at30 (c : Dev nD) : U30 m c main_arg7 = m ((c : Thread nD τ).loc main_arg7) := (U30_keep m c main_arg7 (by decide)).trans (arg7_at29 m c)
theorem arg7_at31 (c : Dev nD) : U31 m c main_arg7 = m ((c : Thread nD τ).loc main_arg7) := (U31_keep m c main_arg7 (by decide)).trans (arg7_at30 m c)
theorem arg7_at32 (c : Dev nD) : U32 m c main_arg7 = m ((c : Thread nD τ).loc main_arg7) := (U32_keep m c main_arg7 (by decide)).trans (arg7_at31 m c)
theorem arg8_at0 (c : Dev nD) : U0 m c main_arg8 = m ((c : Thread nD τ).loc main_arg8) := rfl
theorem arg9_at0 (c : Dev nD) : U0 m c main_arg9 = m ((c : Thread nD τ).loc main_arg9) := rfl
theorem arg10_at0 (c : Dev nD) : U0 m c main_arg10 = m ((c : Thread nD τ).loc main_arg10) := rfl
theorem arg10_at1 (c : Dev nD) : U1 m c main_arg10 = m ((c : Thread nD τ).loc main_arg10) := (U1_keep m c main_arg10 (by decide)).trans (arg10_at0 m c)
theorem arg10_at2 (c : Dev nD) : U2 m c main_arg10 = m ((c : Thread nD τ).loc main_arg10) := (U2_of m c main_arg10 (by decide)).trans (arg10_at1 m c)
theorem arg11_at0 (c : Dev nD) : U0 m c main_arg11 = m ((c : Thread nD τ).loc main_arg11) := rfl
theorem arg11_at1 (c : Dev nD) : U1 m c main_arg11 = m ((c : Thread nD τ).loc main_arg11) := (U1_keep m c main_arg11 (by decide)).trans (arg11_at0 m c)
theorem arg11_at2 (c : Dev nD) : U2 m c main_arg11 = m ((c : Thread nD τ).loc main_arg11) := (U2_of m c main_arg11 (by decide)).trans (arg11_at1 m c)
theorem arg12_at0 (c : Dev nD) : U0 m c main_arg12 = m ((c : Thread nD τ).loc main_arg12) := rfl
theorem arg12_at1 (c : Dev nD) : U1 m c main_arg12 = m ((c : Thread nD τ).loc main_arg12) := (U1_keep m c main_arg12 (by decide)).trans (arg12_at0 m c)
theorem arg12_at2 (c : Dev nD) : U2 m c main_arg12 = m ((c : Thread nD τ).loc main_arg12) := (U2_of m c main_arg12 (by decide)).trans (arg12_at1 m c)
theorem arg12_at3 (c : Dev nD) : U3 m c main_arg12 = m ((c : Thread nD τ).loc main_arg12) := (U3_keep m c main_arg12 (by decide)).trans (arg12_at2 m c)
theorem arg12_at4 (c : Dev nD) : U4 m c main_arg12 = m ((c : Thread nD τ).loc main_arg12) := (U4_of m c main_arg12 (by decide)).trans (arg12_at3 m c)
theorem arg13_at0 (c : Dev nD) : U0 m c main_arg13 = m ((c : Thread nD τ).loc main_arg13) := rfl
theorem arg13_at1 (c : Dev nD) : U1 m c main_arg13 = m ((c : Thread nD τ).loc main_arg13) := (U1_keep m c main_arg13 (by decide)).trans (arg13_at0 m c)
theorem arg13_at2 (c : Dev nD) : U2 m c main_arg13 = m ((c : Thread nD τ).loc main_arg13) := (U2_of m c main_arg13 (by decide)).trans (arg13_at1 m c)
theorem arg13_at3 (c : Dev nD) : U3 m c main_arg13 = m ((c : Thread nD τ).loc main_arg13) := (U3_keep m c main_arg13 (by decide)).trans (arg13_at2 m c)
theorem arg13_at4 (c : Dev nD) : U4 m c main_arg13 = m ((c : Thread nD τ).loc main_arg13) := (U4_of m c main_arg13 (by decide)).trans (arg13_at3 m c)
theorem arg14_at0 (c : Dev nD) : U0 m c main_arg14 = m ((c : Thread nD τ).loc main_arg14) := rfl
theorem arg14_at1 (c : Dev nD) : U1 m c main_arg14 = m ((c : Thread nD τ).loc main_arg14) := (U1_keep m c main_arg14 (by decide)).trans (arg14_at0 m c)
theorem arg14_at2 (c : Dev nD) : U2 m c main_arg14 = m ((c : Thread nD τ).loc main_arg14) := (U2_of m c main_arg14 (by decide)).trans (arg14_at1 m c)
theorem arg14_at3 (c : Dev nD) : U3 m c main_arg14 = m ((c : Thread nD τ).loc main_arg14) := (U3_keep m c main_arg14 (by decide)).trans (arg14_at2 m c)
theorem arg14_at4 (c : Dev nD) : U4 m c main_arg14 = m ((c : Thread nD τ).loc main_arg14) := (U4_of m c main_arg14 (by decide)).trans (arg14_at3 m c)
theorem arg14_at5 (c : Dev nD) : U5 m c main_arg14 = m ((c : Thread nD τ).loc main_arg14) := (U5_keep m c main_arg14 (by decide)).trans (arg14_at4 m c)
theorem arg14_at6 (c : Dev nD) : U6 m c main_arg14 = m ((c : Thread nD τ).loc main_arg14) := (U6_of m c main_arg14 (by decide)).trans (arg14_at5 m c)
theorem arg15_at0 (c : Dev nD) : U0 m c main_arg15 = m ((c : Thread nD τ).loc main_arg15) := rfl
theorem arg15_at1 (c : Dev nD) : U1 m c main_arg15 = m ((c : Thread nD τ).loc main_arg15) := (U1_keep m c main_arg15 (by decide)).trans (arg15_at0 m c)
theorem arg15_at2 (c : Dev nD) : U2 m c main_arg15 = m ((c : Thread nD τ).loc main_arg15) := (U2_of m c main_arg15 (by decide)).trans (arg15_at1 m c)
theorem arg15_at3 (c : Dev nD) : U3 m c main_arg15 = m ((c : Thread nD τ).loc main_arg15) := (U3_keep m c main_arg15 (by decide)).trans (arg15_at2 m c)
theorem arg15_at4 (c : Dev nD) : U4 m c main_arg15 = m ((c : Thread nD τ).loc main_arg15) := (U4_of m c main_arg15 (by decide)).trans (arg15_at3 m c)
theorem arg15_at5 (c : Dev nD) : U5 m c main_arg15 = m ((c : Thread nD τ).loc main_arg15) := (U5_keep m c main_arg15 (by decide)).trans (arg15_at4 m c)
theorem arg15_at6 (c : Dev nD) : U6 m c main_arg15 = m ((c : Thread nD τ).loc main_arg15) := (U6_of m c main_arg15 (by decide)).trans (arg15_at5 m c)
theorem arg16_at0 (c : Dev nD) : U0 m c main_arg16 = m ((c : Thread nD τ).loc main_arg16) := rfl
theorem arg16_at1 (c : Dev nD) : U1 m c main_arg16 = m ((c : Thread nD τ).loc main_arg16) := (U1_keep m c main_arg16 (by decide)).trans (arg16_at0 m c)
theorem arg16_at2 (c : Dev nD) : U2 m c main_arg16 = m ((c : Thread nD τ).loc main_arg16) := (U2_of m c main_arg16 (by decide)).trans (arg16_at1 m c)
theorem arg16_at3 (c : Dev nD) : U3 m c main_arg16 = m ((c : Thread nD τ).loc main_arg16) := (U3_keep m c main_arg16 (by decide)).trans (arg16_at2 m c)
theorem arg16_at4 (c : Dev nD) : U4 m c main_arg16 = m ((c : Thread nD τ).loc main_arg16) := (U4_of m c main_arg16 (by decide)).trans (arg16_at3 m c)
theorem arg16_at5 (c : Dev nD) : U5 m c main_arg16 = m ((c : Thread nD τ).loc main_arg16) := (U5_keep m c main_arg16 (by decide)).trans (arg16_at4 m c)
theorem arg16_at6 (c : Dev nD) : U6 m c main_arg16 = m ((c : Thread nD τ).loc main_arg16) := (U6_of m c main_arg16 (by decide)).trans (arg16_at5 m c)
theorem arg16_at7 (c : Dev nD) : U7 m c main_arg16 = m ((c : Thread nD τ).loc main_arg16) := (U7_keep m c main_arg16 (by decide)).trans (arg16_at6 m c)
theorem arg16_at8 (c : Dev nD) : U8 m c main_arg16 = m ((c : Thread nD τ).loc main_arg16) := (U8_of m c main_arg16 (by decide)).trans (arg16_at7 m c)
theorem arg17_at0 (c : Dev nD) : U0 m c main_arg17 = m ((c : Thread nD τ).loc main_arg17) := rfl
theorem arg17_at1 (c : Dev nD) : U1 m c main_arg17 = m ((c : Thread nD τ).loc main_arg17) := (U1_keep m c main_arg17 (by decide)).trans (arg17_at0 m c)
theorem arg17_at2 (c : Dev nD) : U2 m c main_arg17 = m ((c : Thread nD τ).loc main_arg17) := (U2_of m c main_arg17 (by decide)).trans (arg17_at1 m c)
theorem arg17_at3 (c : Dev nD) : U3 m c main_arg17 = m ((c : Thread nD τ).loc main_arg17) := (U3_keep m c main_arg17 (by decide)).trans (arg17_at2 m c)
theorem arg17_at4 (c : Dev nD) : U4 m c main_arg17 = m ((c : Thread nD τ).loc main_arg17) := (U4_of m c main_arg17 (by decide)).trans (arg17_at3 m c)
theorem arg17_at5 (c : Dev nD) : U5 m c main_arg17 = m ((c : Thread nD τ).loc main_arg17) := (U5_keep m c main_arg17 (by decide)).trans (arg17_at4 m c)
theorem arg17_at6 (c : Dev nD) : U6 m c main_arg17 = m ((c : Thread nD τ).loc main_arg17) := (U6_of m c main_arg17 (by decide)).trans (arg17_at5 m c)
theorem arg17_at7 (c : Dev nD) : U7 m c main_arg17 = m ((c : Thread nD τ).loc main_arg17) := (U7_keep m c main_arg17 (by decide)).trans (arg17_at6 m c)
theorem arg17_at8 (c : Dev nD) : U8 m c main_arg17 = m ((c : Thread nD τ).loc main_arg17) := (U8_of m c main_arg17 (by decide)).trans (arg17_at7 m c)
theorem arg17_at9 (c : Dev nD) : U9 m c main_arg17 = m ((c : Thread nD τ).loc main_arg17) := (U9_keep m c main_arg17 (by decide)).trans (arg17_at8 m c)
theorem arg17_at10 (c : Dev nD) : U10 m c main_arg17 = m ((c : Thread nD τ).loc main_arg17) := (U10_of m c main_arg17 (by decide)).trans (arg17_at9 m c)
theorem arg17_at11 (c : Dev nD) : U11 m c main_arg17 = m ((c : Thread nD τ).loc main_arg17) := (U11_keep m c main_arg17 (by decide)).trans (arg17_at10 m c)
theorem arg17_at12 (c : Dev nD) : U12 m c main_arg17 = m ((c : Thread nD τ).loc main_arg17) := (U12_keep m c main_arg17 (by decide)).trans (arg17_at11 m c)
theorem arg17_at13 (c : Dev nD) : U13 m c main_arg17 = m ((c : Thread nD τ).loc main_arg17) := (U13_keep m c main_arg17 (by decide)).trans (arg17_at12 m c)
theorem arg17_at14 (c : Dev nD) : U14 m c main_arg17 = m ((c : Thread nD τ).loc main_arg17) := (U14_keep m c main_arg17 (by decide)).trans (arg17_at13 m c)
theorem arg18_at0 (c : Dev nD) : U0 m c main_arg18 = m ((c : Thread nD τ).loc main_arg18) := rfl
theorem arg18_at1 (c : Dev nD) : U1 m c main_arg18 = m ((c : Thread nD τ).loc main_arg18) := (U1_keep m c main_arg18 (by decide)).trans (arg18_at0 m c)
theorem arg18_at2 (c : Dev nD) : U2 m c main_arg18 = m ((c : Thread nD τ).loc main_arg18) := (U2_of m c main_arg18 (by decide)).trans (arg18_at1 m c)
theorem arg18_at3 (c : Dev nD) : U3 m c main_arg18 = m ((c : Thread nD τ).loc main_arg18) := (U3_keep m c main_arg18 (by decide)).trans (arg18_at2 m c)
theorem arg18_at4 (c : Dev nD) : U4 m c main_arg18 = m ((c : Thread nD τ).loc main_arg18) := (U4_of m c main_arg18 (by decide)).trans (arg18_at3 m c)
theorem arg18_at5 (c : Dev nD) : U5 m c main_arg18 = m ((c : Thread nD τ).loc main_arg18) := (U5_keep m c main_arg18 (by decide)).trans (arg18_at4 m c)
theorem arg18_at6 (c : Dev nD) : U6 m c main_arg18 = m ((c : Thread nD τ).loc main_arg18) := (U6_of m c main_arg18 (by decide)).trans (arg18_at5 m c)
theorem arg18_at7 (c : Dev nD) : U7 m c main_arg18 = m ((c : Thread nD τ).loc main_arg18) := (U7_keep m c main_arg18 (by decide)).trans (arg18_at6 m c)
theorem arg18_at8 (c : Dev nD) : U8 m c main_arg18 = m ((c : Thread nD τ).loc main_arg18) := (U8_of m c main_arg18 (by decide)).trans (arg18_at7 m c)
theorem arg18_at9 (c : Dev nD) : U9 m c main_arg18 = m ((c : Thread nD τ).loc main_arg18) := (U9_keep m c main_arg18 (by decide)).trans (arg18_at8 m c)
theorem arg18_at10 (c : Dev nD) : U10 m c main_arg18 = m ((c : Thread nD τ).loc main_arg18) := (U10_of m c main_arg18 (by decide)).trans (arg18_at9 m c)
theorem arg18_at11 (c : Dev nD) : U11 m c main_arg18 = m ((c : Thread nD τ).loc main_arg18) := (U11_keep m c main_arg18 (by decide)).trans (arg18_at10 m c)
theorem arg18_at12 (c : Dev nD) : U12 m c main_arg18 = m ((c : Thread nD τ).loc main_arg18) := (U12_keep m c main_arg18 (by decide)).trans (arg18_at11 m c)
theorem arg18_at13 (c : Dev nD) : U13 m c main_arg18 = m ((c : Thread nD τ).loc main_arg18) := (U13_keep m c main_arg18 (by decide)).trans (arg18_at12 m c)
theorem arg18_at14 (c : Dev nD) : U14 m c main_arg18 = m ((c : Thread nD τ).loc main_arg18) := (U14_keep m c main_arg18 (by decide)).trans (arg18_at13 m c)
theorem arg19_at0 (c : Dev nD) : U0 m c main_arg19 = m ((c : Thread nD τ).loc main_arg19) := rfl
theorem arg19_at1 (c : Dev nD) : U1 m c main_arg19 = m ((c : Thread nD τ).loc main_arg19) := (U1_keep m c main_arg19 (by decide)).trans (arg19_at0 m c)
theorem arg19_at2 (c : Dev nD) : U2 m c main_arg19 = m ((c : Thread nD τ).loc main_arg19) := (U2_of m c main_arg19 (by decide)).trans (arg19_at1 m c)
theorem arg19_at3 (c : Dev nD) : U3 m c main_arg19 = m ((c : Thread nD τ).loc main_arg19) := (U3_keep m c main_arg19 (by decide)).trans (arg19_at2 m c)
theorem arg19_at4 (c : Dev nD) : U4 m c main_arg19 = m ((c : Thread nD τ).loc main_arg19) := (U4_of m c main_arg19 (by decide)).trans (arg19_at3 m c)
theorem arg19_at5 (c : Dev nD) : U5 m c main_arg19 = m ((c : Thread nD τ).loc main_arg19) := (U5_keep m c main_arg19 (by decide)).trans (arg19_at4 m c)
theorem arg19_at6 (c : Dev nD) : U6 m c main_arg19 = m ((c : Thread nD τ).loc main_arg19) := (U6_of m c main_arg19 (by decide)).trans (arg19_at5 m c)
theorem arg19_at7 (c : Dev nD) : U7 m c main_arg19 = m ((c : Thread nD τ).loc main_arg19) := (U7_keep m c main_arg19 (by decide)).trans (arg19_at6 m c)
theorem arg19_at8 (c : Dev nD) : U8 m c main_arg19 = m ((c : Thread nD τ).loc main_arg19) := (U8_of m c main_arg19 (by decide)).trans (arg19_at7 m c)
theorem arg19_at9 (c : Dev nD) : U9 m c main_arg19 = m ((c : Thread nD τ).loc main_arg19) := (U9_keep m c main_arg19 (by decide)).trans (arg19_at8 m c)
theorem arg19_at10 (c : Dev nD) : U10 m c main_arg19 = m ((c : Thread nD τ).loc main_arg19) := (U10_of m c main_arg19 (by decide)).trans (arg19_at9 m c)
theorem arg19_at11 (c : Dev nD) : U11 m c main_arg19 = m ((c : Thread nD τ).loc main_arg19) := (U11_keep m c main_arg19 (by decide)).trans (arg19_at10 m c)
theorem arg19_at12 (c : Dev nD) : U12 m c main_arg19 = m ((c : Thread nD τ).loc main_arg19) := (U12_keep m c main_arg19 (by decide)).trans (arg19_at11 m c)
theorem arg19_at13 (c : Dev nD) : U13 m c main_arg19 = m ((c : Thread nD τ).loc main_arg19) := (U13_keep m c main_arg19 (by decide)).trans (arg19_at12 m c)
theorem arg19_at14 (c : Dev nD) : U14 m c main_arg19 = m ((c : Thread nD τ).loc main_arg19) := (U14_keep m c main_arg19 (by decide)).trans (arg19_at13 m c)
theorem arg19_at15 (c : Dev nD) : U15 m c main_arg19 = m ((c : Thread nD τ).loc main_arg19) := (U15_keep m c main_arg19 (by decide)).trans (arg19_at14 m c)
theorem arg19_at16 (c : Dev nD) : U16 m c main_arg19 = m ((c : Thread nD τ).loc main_arg19) := (U16_of m c main_arg19 (by decide)).trans (arg19_at15 m c)
theorem arg19_at17 (c : Dev nD) : U17 m c main_arg19 = m ((c : Thread nD τ).loc main_arg19) := (U17_keep m c main_arg19 (by decide)).trans (arg19_at16 m c)
theorem arg19_at18 (c : Dev nD) : U18 m c main_arg19 = m ((c : Thread nD τ).loc main_arg19) := (U18_keep m c main_arg19 (by decide)).trans (arg19_at17 m c)
theorem arg19_at19 (c : Dev nD) : U19 m c main_arg19 = m ((c : Thread nD τ).loc main_arg19) := (U19_keep m c main_arg19 (by decide)).trans (arg19_at18 m c)
theorem arg19_at20 (c : Dev nD) : U20 m c main_arg19 = m ((c : Thread nD τ).loc main_arg19) := (U20_keep m c main_arg19 (by decide)).trans (arg19_at19 m c)
theorem arg20_at0 (c : Dev nD) : U0 m c main_arg20 = m ((c : Thread nD τ).loc main_arg20) := rfl
theorem arg20_at1 (c : Dev nD) : U1 m c main_arg20 = m ((c : Thread nD τ).loc main_arg20) := (U1_keep m c main_arg20 (by decide)).trans (arg20_at0 m c)
theorem arg20_at2 (c : Dev nD) : U2 m c main_arg20 = m ((c : Thread nD τ).loc main_arg20) := (U2_of m c main_arg20 (by decide)).trans (arg20_at1 m c)
theorem arg20_at3 (c : Dev nD) : U3 m c main_arg20 = m ((c : Thread nD τ).loc main_arg20) := (U3_keep m c main_arg20 (by decide)).trans (arg20_at2 m c)
theorem arg20_at4 (c : Dev nD) : U4 m c main_arg20 = m ((c : Thread nD τ).loc main_arg20) := (U4_of m c main_arg20 (by decide)).trans (arg20_at3 m c)
theorem arg20_at5 (c : Dev nD) : U5 m c main_arg20 = m ((c : Thread nD τ).loc main_arg20) := (U5_keep m c main_arg20 (by decide)).trans (arg20_at4 m c)
theorem arg20_at6 (c : Dev nD) : U6 m c main_arg20 = m ((c : Thread nD τ).loc main_arg20) := (U6_of m c main_arg20 (by decide)).trans (arg20_at5 m c)
theorem arg20_at7 (c : Dev nD) : U7 m c main_arg20 = m ((c : Thread nD τ).loc main_arg20) := (U7_keep m c main_arg20 (by decide)).trans (arg20_at6 m c)
theorem arg20_at8 (c : Dev nD) : U8 m c main_arg20 = m ((c : Thread nD τ).loc main_arg20) := (U8_of m c main_arg20 (by decide)).trans (arg20_at7 m c)
theorem arg20_at9 (c : Dev nD) : U9 m c main_arg20 = m ((c : Thread nD τ).loc main_arg20) := (U9_keep m c main_arg20 (by decide)).trans (arg20_at8 m c)
theorem arg20_at10 (c : Dev nD) : U10 m c main_arg20 = m ((c : Thread nD τ).loc main_arg20) := (U10_of m c main_arg20 (by decide)).trans (arg20_at9 m c)
theorem arg20_at11 (c : Dev nD) : U11 m c main_arg20 = m ((c : Thread nD τ).loc main_arg20) := (U11_keep m c main_arg20 (by decide)).trans (arg20_at10 m c)
theorem arg20_at12 (c : Dev nD) : U12 m c main_arg20 = m ((c : Thread nD τ).loc main_arg20) := (U12_keep m c main_arg20 (by decide)).trans (arg20_at11 m c)
theorem arg20_at13 (c : Dev nD) : U13 m c main_arg20 = m ((c : Thread nD τ).loc main_arg20) := (U13_keep m c main_arg20 (by decide)).trans (arg20_at12 m c)
theorem arg20_at14 (c : Dev nD) : U14 m c main_arg20 = m ((c : Thread nD τ).loc main_arg20) := (U14_keep m c main_arg20 (by decide)).trans (arg20_at13 m c)
theorem arg20_at15 (c : Dev nD) : U15 m c main_arg20 = m ((c : Thread nD τ).loc main_arg20) := (U15_keep m c main_arg20 (by decide)).trans (arg20_at14 m c)
theorem arg20_at16 (c : Dev nD) : U16 m c main_arg20 = m ((c : Thread nD τ).loc main_arg20) := (U16_of m c main_arg20 (by decide)).trans (arg20_at15 m c)
theorem arg20_at17 (c : Dev nD) : U17 m c main_arg20 = m ((c : Thread nD τ).loc main_arg20) := (U17_keep m c main_arg20 (by decide)).trans (arg20_at16 m c)
theorem arg20_at18 (c : Dev nD) : U18 m c main_arg20 = m ((c : Thread nD τ).loc main_arg20) := (U18_keep m c main_arg20 (by decide)).trans (arg20_at17 m c)
theorem arg20_at19 (c : Dev nD) : U19 m c main_arg20 = m ((c : Thread nD τ).loc main_arg20) := (U19_keep m c main_arg20 (by decide)).trans (arg20_at18 m c)
theorem arg20_at20 (c : Dev nD) : U20 m c main_arg20 = m ((c : Thread nD τ).loc main_arg20) := (U20_keep m c main_arg20 (by decide)).trans (arg20_at19 m c)
theorem arg21_at0 (c : Dev nD) : U0 m c main_arg21 = m ((c : Thread nD τ).loc main_arg21) := rfl
theorem arg21_at1 (c : Dev nD) : U1 m c main_arg21 = m ((c : Thread nD τ).loc main_arg21) := (U1_keep m c main_arg21 (by decide)).trans (arg21_at0 m c)
theorem arg21_at2 (c : Dev nD) : U2 m c main_arg21 = m ((c : Thread nD τ).loc main_arg21) := (U2_of m c main_arg21 (by decide)).trans (arg21_at1 m c)
theorem arg21_at3 (c : Dev nD) : U3 m c main_arg21 = m ((c : Thread nD τ).loc main_arg21) := (U3_keep m c main_arg21 (by decide)).trans (arg21_at2 m c)
theorem arg21_at4 (c : Dev nD) : U4 m c main_arg21 = m ((c : Thread nD τ).loc main_arg21) := (U4_of m c main_arg21 (by decide)).trans (arg21_at3 m c)
theorem arg21_at5 (c : Dev nD) : U5 m c main_arg21 = m ((c : Thread nD τ).loc main_arg21) := (U5_keep m c main_arg21 (by decide)).trans (arg21_at4 m c)
theorem arg21_at6 (c : Dev nD) : U6 m c main_arg21 = m ((c : Thread nD τ).loc main_arg21) := (U6_of m c main_arg21 (by decide)).trans (arg21_at5 m c)
theorem arg21_at7 (c : Dev nD) : U7 m c main_arg21 = m ((c : Thread nD τ).loc main_arg21) := (U7_keep m c main_arg21 (by decide)).trans (arg21_at6 m c)
theorem arg21_at8 (c : Dev nD) : U8 m c main_arg21 = m ((c : Thread nD τ).loc main_arg21) := (U8_of m c main_arg21 (by decide)).trans (arg21_at7 m c)
theorem arg21_at9 (c : Dev nD) : U9 m c main_arg21 = m ((c : Thread nD τ).loc main_arg21) := (U9_keep m c main_arg21 (by decide)).trans (arg21_at8 m c)
theorem arg21_at10 (c : Dev nD) : U10 m c main_arg21 = m ((c : Thread nD τ).loc main_arg21) := (U10_of m c main_arg21 (by decide)).trans (arg21_at9 m c)
theorem arg21_at11 (c : Dev nD) : U11 m c main_arg21 = m ((c : Thread nD τ).loc main_arg21) := (U11_keep m c main_arg21 (by decide)).trans (arg21_at10 m c)
theorem arg21_at12 (c : Dev nD) : U12 m c main_arg21 = m ((c : Thread nD τ).loc main_arg21) := (U12_keep m c main_arg21 (by decide)).trans (arg21_at11 m c)
theorem arg21_at13 (c : Dev nD) : U13 m c main_arg21 = m ((c : Thread nD τ).loc main_arg21) := (U13_keep m c main_arg21 (by decide)).trans (arg21_at12 m c)
theorem arg21_at14 (c : Dev nD) : U14 m c main_arg21 = m ((c : Thread nD τ).loc main_arg21) := (U14_keep m c main_arg21 (by decide)).trans (arg21_at13 m c)
theorem arg21_at15 (c : Dev nD) : U15 m c main_arg21 = m ((c : Thread nD τ).loc main_arg21) := (U15_keep m c main_arg21 (by decide)).trans (arg21_at14 m c)
theorem arg21_at16 (c : Dev nD) : U16 m c main_arg21 = m ((c : Thread nD τ).loc main_arg21) := (U16_of m c main_arg21 (by decide)).trans (arg21_at15 m c)
theorem arg21_at17 (c : Dev nD) : U17 m c main_arg21 = m ((c : Thread nD τ).loc main_arg21) := (U17_keep m c main_arg21 (by decide)).trans (arg21_at16 m c)
theorem arg21_at18 (c : Dev nD) : U18 m c main_arg21 = m ((c : Thread nD τ).loc main_arg21) := (U18_keep m c main_arg21 (by decide)).trans (arg21_at17 m c)
theorem arg21_at19 (c : Dev nD) : U19 m c main_arg21 = m ((c : Thread nD τ).loc main_arg21) := (U19_keep m c main_arg21 (by decide)).trans (arg21_at18 m c)
theorem arg21_at20 (c : Dev nD) : U20 m c main_arg21 = m ((c : Thread nD τ).loc main_arg21) := (U20_keep m c main_arg21 (by decide)).trans (arg21_at19 m c)
theorem arg21_at21 (c : Dev nD) : U21 m c main_arg21 = m ((c : Thread nD τ).loc main_arg21) := (U21_keep m c main_arg21 (by decide)).trans (arg21_at20 m c)
theorem arg21_at22 (c : Dev nD) : U22 m c main_arg21 = m ((c : Thread nD τ).loc main_arg21) := (U22_of m c main_arg21 (by decide)).trans (arg21_at21 m c)
theorem arg21_at23 (c : Dev nD) : U23 m c main_arg21 = m ((c : Thread nD τ).loc main_arg21) := (U23_keep m c main_arg21 (by decide)).trans (arg21_at22 m c)
theorem arg21_at24 (c : Dev nD) : U24 m c main_arg21 = m ((c : Thread nD τ).loc main_arg21) := (U24_keep m c main_arg21 (by decide)).trans (arg21_at23 m c)
theorem arg21_at25 (c : Dev nD) : U25 m c main_arg21 = m ((c : Thread nD τ).loc main_arg21) := (U25_keep m c main_arg21 (by decide)).trans (arg21_at24 m c)
theorem arg21_at26 (c : Dev nD) : U26 m c main_arg21 = m ((c : Thread nD τ).loc main_arg21) := (U26_keep m c main_arg21 (by decide)).trans (arg21_at25 m c)
theorem arg22_at0 (c : Dev nD) : U0 m c main_arg22 = m ((c : Thread nD τ).loc main_arg22) := rfl
theorem arg22_at1 (c : Dev nD) : U1 m c main_arg22 = m ((c : Thread nD τ).loc main_arg22) := (U1_keep m c main_arg22 (by decide)).trans (arg22_at0 m c)
theorem arg22_at2 (c : Dev nD) : U2 m c main_arg22 = m ((c : Thread nD τ).loc main_arg22) := (U2_of m c main_arg22 (by decide)).trans (arg22_at1 m c)
theorem arg22_at3 (c : Dev nD) : U3 m c main_arg22 = m ((c : Thread nD τ).loc main_arg22) := (U3_keep m c main_arg22 (by decide)).trans (arg22_at2 m c)
theorem arg22_at4 (c : Dev nD) : U4 m c main_arg22 = m ((c : Thread nD τ).loc main_arg22) := (U4_of m c main_arg22 (by decide)).trans (arg22_at3 m c)
theorem arg22_at5 (c : Dev nD) : U5 m c main_arg22 = m ((c : Thread nD τ).loc main_arg22) := (U5_keep m c main_arg22 (by decide)).trans (arg22_at4 m c)
theorem arg22_at6 (c : Dev nD) : U6 m c main_arg22 = m ((c : Thread nD τ).loc main_arg22) := (U6_of m c main_arg22 (by decide)).trans (arg22_at5 m c)
theorem arg22_at7 (c : Dev nD) : U7 m c main_arg22 = m ((c : Thread nD τ).loc main_arg22) := (U7_keep m c main_arg22 (by decide)).trans (arg22_at6 m c)
theorem arg22_at8 (c : Dev nD) : U8 m c main_arg22 = m ((c : Thread nD τ).loc main_arg22) := (U8_of m c main_arg22 (by decide)).trans (arg22_at7 m c)
theorem arg22_at9 (c : Dev nD) : U9 m c main_arg22 = m ((c : Thread nD τ).loc main_arg22) := (U9_keep m c main_arg22 (by decide)).trans (arg22_at8 m c)
theorem arg22_at10 (c : Dev nD) : U10 m c main_arg22 = m ((c : Thread nD τ).loc main_arg22) := (U10_of m c main_arg22 (by decide)).trans (arg22_at9 m c)
theorem arg22_at11 (c : Dev nD) : U11 m c main_arg22 = m ((c : Thread nD τ).loc main_arg22) := (U11_keep m c main_arg22 (by decide)).trans (arg22_at10 m c)
theorem arg22_at12 (c : Dev nD) : U12 m c main_arg22 = m ((c : Thread nD τ).loc main_arg22) := (U12_keep m c main_arg22 (by decide)).trans (arg22_at11 m c)
theorem arg22_at13 (c : Dev nD) : U13 m c main_arg22 = m ((c : Thread nD τ).loc main_arg22) := (U13_keep m c main_arg22 (by decide)).trans (arg22_at12 m c)
theorem arg22_at14 (c : Dev nD) : U14 m c main_arg22 = m ((c : Thread nD τ).loc main_arg22) := (U14_keep m c main_arg22 (by decide)).trans (arg22_at13 m c)
theorem arg22_at15 (c : Dev nD) : U15 m c main_arg22 = m ((c : Thread nD τ).loc main_arg22) := (U15_keep m c main_arg22 (by decide)).trans (arg22_at14 m c)
theorem arg22_at16 (c : Dev nD) : U16 m c main_arg22 = m ((c : Thread nD τ).loc main_arg22) := (U16_of m c main_arg22 (by decide)).trans (arg22_at15 m c)
theorem arg22_at17 (c : Dev nD) : U17 m c main_arg22 = m ((c : Thread nD τ).loc main_arg22) := (U17_keep m c main_arg22 (by decide)).trans (arg22_at16 m c)
theorem arg22_at18 (c : Dev nD) : U18 m c main_arg22 = m ((c : Thread nD τ).loc main_arg22) := (U18_keep m c main_arg22 (by decide)).trans (arg22_at17 m c)
theorem arg22_at19 (c : Dev nD) : U19 m c main_arg22 = m ((c : Thread nD τ).loc main_arg22) := (U19_keep m c main_arg22 (by decide)).trans (arg22_at18 m c)
theorem arg22_at20 (c : Dev nD) : U20 m c main_arg22 = m ((c : Thread nD τ).loc main_arg22) := (U20_keep m c main_arg22 (by decide)).trans (arg22_at19 m c)
theorem arg22_at21 (c : Dev nD) : U21 m c main_arg22 = m ((c : Thread nD τ).loc main_arg22) := (U21_keep m c main_arg22 (by decide)).trans (arg22_at20 m c)
theorem arg22_at22 (c : Dev nD) : U22 m c main_arg22 = m ((c : Thread nD τ).loc main_arg22) := (U22_of m c main_arg22 (by decide)).trans (arg22_at21 m c)
theorem arg22_at23 (c : Dev nD) : U23 m c main_arg22 = m ((c : Thread nD τ).loc main_arg22) := (U23_keep m c main_arg22 (by decide)).trans (arg22_at22 m c)
theorem arg22_at24 (c : Dev nD) : U24 m c main_arg22 = m ((c : Thread nD τ).loc main_arg22) := (U24_keep m c main_arg22 (by decide)).trans (arg22_at23 m c)
theorem arg22_at25 (c : Dev nD) : U25 m c main_arg22 = m ((c : Thread nD τ).loc main_arg22) := (U25_keep m c main_arg22 (by decide)).trans (arg22_at24 m c)
theorem arg22_at26 (c : Dev nD) : U26 m c main_arg22 = m ((c : Thread nD τ).loc main_arg22) := (U26_keep m c main_arg22 (by decide)).trans (arg22_at25 m c)
theorem arg23_at0 (c : Dev nD) : U0 m c main_arg23 = m ((c : Thread nD τ).loc main_arg23) := rfl
theorem arg23_at1 (c : Dev nD) : U1 m c main_arg23 = m ((c : Thread nD τ).loc main_arg23) := (U1_keep m c main_arg23 (by decide)).trans (arg23_at0 m c)
theorem arg23_at2 (c : Dev nD) : U2 m c main_arg23 = m ((c : Thread nD τ).loc main_arg23) := (U2_of m c main_arg23 (by decide)).trans (arg23_at1 m c)
theorem arg23_at3 (c : Dev nD) : U3 m c main_arg23 = m ((c : Thread nD τ).loc main_arg23) := (U3_keep m c main_arg23 (by decide)).trans (arg23_at2 m c)
theorem arg23_at4 (c : Dev nD) : U4 m c main_arg23 = m ((c : Thread nD τ).loc main_arg23) := (U4_of m c main_arg23 (by decide)).trans (arg23_at3 m c)
theorem arg23_at5 (c : Dev nD) : U5 m c main_arg23 = m ((c : Thread nD τ).loc main_arg23) := (U5_keep m c main_arg23 (by decide)).trans (arg23_at4 m c)
theorem arg23_at6 (c : Dev nD) : U6 m c main_arg23 = m ((c : Thread nD τ).loc main_arg23) := (U6_of m c main_arg23 (by decide)).trans (arg23_at5 m c)
theorem arg23_at7 (c : Dev nD) : U7 m c main_arg23 = m ((c : Thread nD τ).loc main_arg23) := (U7_keep m c main_arg23 (by decide)).trans (arg23_at6 m c)
theorem arg23_at8 (c : Dev nD) : U8 m c main_arg23 = m ((c : Thread nD τ).loc main_arg23) := (U8_of m c main_arg23 (by decide)).trans (arg23_at7 m c)
theorem arg23_at9 (c : Dev nD) : U9 m c main_arg23 = m ((c : Thread nD τ).loc main_arg23) := (U9_keep m c main_arg23 (by decide)).trans (arg23_at8 m c)
theorem arg23_at10 (c : Dev nD) : U10 m c main_arg23 = m ((c : Thread nD τ).loc main_arg23) := (U10_of m c main_arg23 (by decide)).trans (arg23_at9 m c)
theorem arg23_at11 (c : Dev nD) : U11 m c main_arg23 = m ((c : Thread nD τ).loc main_arg23) := (U11_keep m c main_arg23 (by decide)).trans (arg23_at10 m c)
theorem arg23_at12 (c : Dev nD) : U12 m c main_arg23 = m ((c : Thread nD τ).loc main_arg23) := (U12_keep m c main_arg23 (by decide)).trans (arg23_at11 m c)
theorem arg23_at13 (c : Dev nD) : U13 m c main_arg23 = m ((c : Thread nD τ).loc main_arg23) := (U13_keep m c main_arg23 (by decide)).trans (arg23_at12 m c)
theorem arg23_at14 (c : Dev nD) : U14 m c main_arg23 = m ((c : Thread nD τ).loc main_arg23) := (U14_keep m c main_arg23 (by decide)).trans (arg23_at13 m c)
theorem arg23_at15 (c : Dev nD) : U15 m c main_arg23 = m ((c : Thread nD τ).loc main_arg23) := (U15_keep m c main_arg23 (by decide)).trans (arg23_at14 m c)
theorem arg23_at16 (c : Dev nD) : U16 m c main_arg23 = m ((c : Thread nD τ).loc main_arg23) := (U16_of m c main_arg23 (by decide)).trans (arg23_at15 m c)
theorem arg23_at17 (c : Dev nD) : U17 m c main_arg23 = m ((c : Thread nD τ).loc main_arg23) := (U17_keep m c main_arg23 (by decide)).trans (arg23_at16 m c)
theorem arg23_at18 (c : Dev nD) : U18 m c main_arg23 = m ((c : Thread nD τ).loc main_arg23) := (U18_keep m c main_arg23 (by decide)).trans (arg23_at17 m c)
theorem arg23_at19 (c : Dev nD) : U19 m c main_arg23 = m ((c : Thread nD τ).loc main_arg23) := (U19_keep m c main_arg23 (by decide)).trans (arg23_at18 m c)
theorem arg23_at20 (c : Dev nD) : U20 m c main_arg23 = m ((c : Thread nD τ).loc main_arg23) := (U20_keep m c main_arg23 (by decide)).trans (arg23_at19 m c)
theorem arg23_at21 (c : Dev nD) : U21 m c main_arg23 = m ((c : Thread nD τ).loc main_arg23) := (U21_keep m c main_arg23 (by decide)).trans (arg23_at20 m c)
theorem arg23_at22 (c : Dev nD) : U22 m c main_arg23 = m ((c : Thread nD τ).loc main_arg23) := (U22_of m c main_arg23 (by decide)).trans (arg23_at21 m c)
theorem arg23_at23 (c : Dev nD) : U23 m c main_arg23 = m ((c : Thread nD τ).loc main_arg23) := (U23_keep m c main_arg23 (by decide)).trans (arg23_at22 m c)
theorem arg23_at24 (c : Dev nD) : U24 m c main_arg23 = m ((c : Thread nD τ).loc main_arg23) := (U24_keep m c main_arg23 (by decide)).trans (arg23_at23 m c)
theorem arg23_at25 (c : Dev nD) : U25 m c main_arg23 = m ((c : Thread nD τ).loc main_arg23) := (U25_keep m c main_arg23 (by decide)).trans (arg23_at24 m c)
theorem arg23_at26 (c : Dev nD) : U26 m c main_arg23 = m ((c : Thread nD τ).loc main_arg23) := (U26_keep m c main_arg23 (by decide)).trans (arg23_at25 m c)
theorem arg23_at27 (c : Dev nD) : U27 m c main_arg23 = m ((c : Thread nD τ).loc main_arg23) := (U27_keep m c main_arg23 (by decide)).trans (arg23_at26 m c)
theorem arg23_at28 (c : Dev nD) : U28 m c main_arg23 = m ((c : Thread nD τ).loc main_arg23) := (U28_of m c main_arg23 (by decide)).trans (arg23_at27 m c)
theorem arg23_at29 (c : Dev nD) : U29 m c main_arg23 = m ((c : Thread nD τ).loc main_arg23) := (U29_keep m c main_arg23 (by decide)).trans (arg23_at28 m c)
theorem arg23_at30 (c : Dev nD) : U30 m c main_arg23 = m ((c : Thread nD τ).loc main_arg23) := (U30_keep m c main_arg23 (by decide)).trans (arg23_at29 m c)
theorem arg23_at31 (c : Dev nD) : U31 m c main_arg23 = m ((c : Thread nD τ).loc main_arg23) := (U31_keep m c main_arg23 (by decide)).trans (arg23_at30 m c)
theorem arg23_at32 (c : Dev nD) : U32 m c main_arg23 = m ((c : Thread nD τ).loc main_arg23) := (U32_keep m c main_arg23 (by decide)).trans (arg23_at31 m c)
theorem arg24_at0 (c : Dev nD) : U0 m c main_arg24 = m ((c : Thread nD τ).loc main_arg24) := rfl
theorem arg24_at1 (c : Dev nD) : U1 m c main_arg24 = m ((c : Thread nD τ).loc main_arg24) := (U1_keep m c main_arg24 (by decide)).trans (arg24_at0 m c)
theorem arg24_at2 (c : Dev nD) : U2 m c main_arg24 = m ((c : Thread nD τ).loc main_arg24) := (U2_of m c main_arg24 (by decide)).trans (arg24_at1 m c)
theorem arg24_at3 (c : Dev nD) : U3 m c main_arg24 = m ((c : Thread nD τ).loc main_arg24) := (U3_keep m c main_arg24 (by decide)).trans (arg24_at2 m c)
theorem arg24_at4 (c : Dev nD) : U4 m c main_arg24 = m ((c : Thread nD τ).loc main_arg24) := (U4_of m c main_arg24 (by decide)).trans (arg24_at3 m c)
theorem arg24_at5 (c : Dev nD) : U5 m c main_arg24 = m ((c : Thread nD τ).loc main_arg24) := (U5_keep m c main_arg24 (by decide)).trans (arg24_at4 m c)
theorem arg24_at6 (c : Dev nD) : U6 m c main_arg24 = m ((c : Thread nD τ).loc main_arg24) := (U6_of m c main_arg24 (by decide)).trans (arg24_at5 m c)
theorem arg24_at7 (c : Dev nD) : U7 m c main_arg24 = m ((c : Thread nD τ).loc main_arg24) := (U7_keep m c main_arg24 (by decide)).trans (arg24_at6 m c)
theorem arg24_at8 (c : Dev nD) : U8 m c main_arg24 = m ((c : Thread nD τ).loc main_arg24) := (U8_of m c main_arg24 (by decide)).trans (arg24_at7 m c)
theorem arg24_at9 (c : Dev nD) : U9 m c main_arg24 = m ((c : Thread nD τ).loc main_arg24) := (U9_keep m c main_arg24 (by decide)).trans (arg24_at8 m c)
theorem arg24_at10 (c : Dev nD) : U10 m c main_arg24 = m ((c : Thread nD τ).loc main_arg24) := (U10_of m c main_arg24 (by decide)).trans (arg24_at9 m c)
theorem arg24_at11 (c : Dev nD) : U11 m c main_arg24 = m ((c : Thread nD τ).loc main_arg24) := (U11_keep m c main_arg24 (by decide)).trans (arg24_at10 m c)
theorem arg24_at12 (c : Dev nD) : U12 m c main_arg24 = m ((c : Thread nD τ).loc main_arg24) := (U12_keep m c main_arg24 (by decide)).trans (arg24_at11 m c)
theorem arg24_at13 (c : Dev nD) : U13 m c main_arg24 = m ((c : Thread nD τ).loc main_arg24) := (U13_keep m c main_arg24 (by decide)).trans (arg24_at12 m c)
theorem arg24_at14 (c : Dev nD) : U14 m c main_arg24 = m ((c : Thread nD τ).loc main_arg24) := (U14_keep m c main_arg24 (by decide)).trans (arg24_at13 m c)
theorem arg24_at15 (c : Dev nD) : U15 m c main_arg24 = m ((c : Thread nD τ).loc main_arg24) := (U15_keep m c main_arg24 (by decide)).trans (arg24_at14 m c)
theorem arg24_at16 (c : Dev nD) : U16 m c main_arg24 = m ((c : Thread nD τ).loc main_arg24) := (U16_of m c main_arg24 (by decide)).trans (arg24_at15 m c)
theorem arg24_at17 (c : Dev nD) : U17 m c main_arg24 = m ((c : Thread nD τ).loc main_arg24) := (U17_keep m c main_arg24 (by decide)).trans (arg24_at16 m c)
theorem arg24_at18 (c : Dev nD) : U18 m c main_arg24 = m ((c : Thread nD τ).loc main_arg24) := (U18_keep m c main_arg24 (by decide)).trans (arg24_at17 m c)
theorem arg24_at19 (c : Dev nD) : U19 m c main_arg24 = m ((c : Thread nD τ).loc main_arg24) := (U19_keep m c main_arg24 (by decide)).trans (arg24_at18 m c)
theorem arg24_at20 (c : Dev nD) : U20 m c main_arg24 = m ((c : Thread nD τ).loc main_arg24) := (U20_keep m c main_arg24 (by decide)).trans (arg24_at19 m c)
theorem arg24_at21 (c : Dev nD) : U21 m c main_arg24 = m ((c : Thread nD τ).loc main_arg24) := (U21_keep m c main_arg24 (by decide)).trans (arg24_at20 m c)
theorem arg24_at22 (c : Dev nD) : U22 m c main_arg24 = m ((c : Thread nD τ).loc main_arg24) := (U22_of m c main_arg24 (by decide)).trans (arg24_at21 m c)
theorem arg24_at23 (c : Dev nD) : U23 m c main_arg24 = m ((c : Thread nD τ).loc main_arg24) := (U23_keep m c main_arg24 (by decide)).trans (arg24_at22 m c)
theorem arg24_at24 (c : Dev nD) : U24 m c main_arg24 = m ((c : Thread nD τ).loc main_arg24) := (U24_keep m c main_arg24 (by decide)).trans (arg24_at23 m c)
theorem arg24_at25 (c : Dev nD) : U25 m c main_arg24 = m ((c : Thread nD τ).loc main_arg24) := (U25_keep m c main_arg24 (by decide)).trans (arg24_at24 m c)
theorem arg24_at26 (c : Dev nD) : U26 m c main_arg24 = m ((c : Thread nD τ).loc main_arg24) := (U26_keep m c main_arg24 (by decide)).trans (arg24_at25 m c)
theorem arg24_at27 (c : Dev nD) : U27 m c main_arg24 = m ((c : Thread nD τ).loc main_arg24) := (U27_keep m c main_arg24 (by decide)).trans (arg24_at26 m c)
theorem arg24_at28 (c : Dev nD) : U28 m c main_arg24 = m ((c : Thread nD τ).loc main_arg24) := (U28_of m c main_arg24 (by decide)).trans (arg24_at27 m c)
theorem arg24_at29 (c : Dev nD) : U29 m c main_arg24 = m ((c : Thread nD τ).loc main_arg24) := (U29_keep m c main_arg24 (by decide)).trans (arg24_at28 m c)
theorem arg24_at30 (c : Dev nD) : U30 m c main_arg24 = m ((c : Thread nD τ).loc main_arg24) := (U30_keep m c main_arg24 (by decide)).trans (arg24_at29 m c)
theorem arg24_at31 (c : Dev nD) : U31 m c main_arg24 = m ((c : Thread nD τ).loc main_arg24) := (U31_keep m c main_arg24 (by decide)).trans (arg24_at30 m c)
theorem arg24_at32 (c : Dev nD) : U32 m c main_arg24 = m ((c : Thread nD τ).loc main_arg24) := (U32_keep m c main_arg24 (by decide)).trans (arg24_at31 m c)
theorem arg25_at0 (c : Dev nD) : U0 m c main_arg25 = m ((c : Thread nD τ).loc main_arg25) := rfl
theorem arg25_at1 (c : Dev nD) : U1 m c main_arg25 = m ((c : Thread nD τ).loc main_arg25) := (U1_keep m c main_arg25 (by decide)).trans (arg25_at0 m c)
theorem arg25_at2 (c : Dev nD) : U2 m c main_arg25 = m ((c : Thread nD τ).loc main_arg25) := (U2_of m c main_arg25 (by decide)).trans (arg25_at1 m c)
theorem arg25_at3 (c : Dev nD) : U3 m c main_arg25 = m ((c : Thread nD τ).loc main_arg25) := (U3_keep m c main_arg25 (by decide)).trans (arg25_at2 m c)
theorem arg25_at4 (c : Dev nD) : U4 m c main_arg25 = m ((c : Thread nD τ).loc main_arg25) := (U4_of m c main_arg25 (by decide)).trans (arg25_at3 m c)
theorem arg25_at5 (c : Dev nD) : U5 m c main_arg25 = m ((c : Thread nD τ).loc main_arg25) := (U5_keep m c main_arg25 (by decide)).trans (arg25_at4 m c)
theorem arg25_at6 (c : Dev nD) : U6 m c main_arg25 = m ((c : Thread nD τ).loc main_arg25) := (U6_of m c main_arg25 (by decide)).trans (arg25_at5 m c)
theorem arg25_at7 (c : Dev nD) : U7 m c main_arg25 = m ((c : Thread nD τ).loc main_arg25) := (U7_keep m c main_arg25 (by decide)).trans (arg25_at6 m c)
theorem arg25_at8 (c : Dev nD) : U8 m c main_arg25 = m ((c : Thread nD τ).loc main_arg25) := (U8_of m c main_arg25 (by decide)).trans (arg25_at7 m c)
theorem arg25_at9 (c : Dev nD) : U9 m c main_arg25 = m ((c : Thread nD τ).loc main_arg25) := (U9_keep m c main_arg25 (by decide)).trans (arg25_at8 m c)
theorem arg25_at10 (c : Dev nD) : U10 m c main_arg25 = m ((c : Thread nD τ).loc main_arg25) := (U10_of m c main_arg25 (by decide)).trans (arg25_at9 m c)
theorem arg25_at11 (c : Dev nD) : U11 m c main_arg25 = m ((c : Thread nD τ).loc main_arg25) := (U11_keep m c main_arg25 (by decide)).trans (arg25_at10 m c)
theorem arg25_at12 (c : Dev nD) : U12 m c main_arg25 = m ((c : Thread nD τ).loc main_arg25) := (U12_keep m c main_arg25 (by decide)).trans (arg25_at11 m c)
theorem arg25_at13 (c : Dev nD) : U13 m c main_arg25 = m ((c : Thread nD τ).loc main_arg25) := (U13_keep m c main_arg25 (by decide)).trans (arg25_at12 m c)
theorem arg25_at14 (c : Dev nD) : U14 m c main_arg25 = m ((c : Thread nD τ).loc main_arg25) := (U14_keep m c main_arg25 (by decide)).trans (arg25_at13 m c)
theorem arg25_at15 (c : Dev nD) : U15 m c main_arg25 = m ((c : Thread nD τ).loc main_arg25) := (U15_keep m c main_arg25 (by decide)).trans (arg25_at14 m c)
theorem arg25_at16 (c : Dev nD) : U16 m c main_arg25 = m ((c : Thread nD τ).loc main_arg25) := (U16_of m c main_arg25 (by decide)).trans (arg25_at15 m c)
theorem arg25_at17 (c : Dev nD) : U17 m c main_arg25 = m ((c : Thread nD τ).loc main_arg25) := (U17_keep m c main_arg25 (by decide)).trans (arg25_at16 m c)
theorem arg25_at18 (c : Dev nD) : U18 m c main_arg25 = m ((c : Thread nD τ).loc main_arg25) := (U18_keep m c main_arg25 (by decide)).trans (arg25_at17 m c)
theorem arg25_at19 (c : Dev nD) : U19 m c main_arg25 = m ((c : Thread nD τ).loc main_arg25) := (U19_keep m c main_arg25 (by decide)).trans (arg25_at18 m c)
theorem arg25_at20 (c : Dev nD) : U20 m c main_arg25 = m ((c : Thread nD τ).loc main_arg25) := (U20_keep m c main_arg25 (by decide)).trans (arg25_at19 m c)
theorem arg25_at21 (c : Dev nD) : U21 m c main_arg25 = m ((c : Thread nD τ).loc main_arg25) := (U21_keep m c main_arg25 (by decide)).trans (arg25_at20 m c)
theorem arg25_at22 (c : Dev nD) : U22 m c main_arg25 = m ((c : Thread nD τ).loc main_arg25) := (U22_of m c main_arg25 (by decide)).trans (arg25_at21 m c)
theorem arg25_at23 (c : Dev nD) : U23 m c main_arg25 = m ((c : Thread nD τ).loc main_arg25) := (U23_keep m c main_arg25 (by decide)).trans (arg25_at22 m c)
theorem arg25_at24 (c : Dev nD) : U24 m c main_arg25 = m ((c : Thread nD τ).loc main_arg25) := (U24_keep m c main_arg25 (by decide)).trans (arg25_at23 m c)
theorem arg25_at25 (c : Dev nD) : U25 m c main_arg25 = m ((c : Thread nD τ).loc main_arg25) := (U25_keep m c main_arg25 (by decide)).trans (arg25_at24 m c)
theorem arg25_at26 (c : Dev nD) : U26 m c main_arg25 = m ((c : Thread nD τ).loc main_arg25) := (U26_keep m c main_arg25 (by decide)).trans (arg25_at25 m c)
theorem arg25_at27 (c : Dev nD) : U27 m c main_arg25 = m ((c : Thread nD τ).loc main_arg25) := (U27_keep m c main_arg25 (by decide)).trans (arg25_at26 m c)
theorem arg25_at28 (c : Dev nD) : U28 m c main_arg25 = m ((c : Thread nD τ).loc main_arg25) := (U28_of m c main_arg25 (by decide)).trans (arg25_at27 m c)
theorem arg25_at29 (c : Dev nD) : U29 m c main_arg25 = m ((c : Thread nD τ).loc main_arg25) := (U29_keep m c main_arg25 (by decide)).trans (arg25_at28 m c)
theorem arg25_at30 (c : Dev nD) : U30 m c main_arg25 = m ((c : Thread nD τ).loc main_arg25) := (U30_keep m c main_arg25 (by decide)).trans (arg25_at29 m c)
theorem arg25_at31 (c : Dev nD) : U31 m c main_arg25 = m ((c : Thread nD τ).loc main_arg25) := (U31_keep m c main_arg25 (by decide)).trans (arg25_at30 m c)
theorem arg25_at32 (c : Dev nD) : U32 m c main_arg25 = m ((c : Thread nD τ).loc main_arg25) := (U32_keep m c main_arg25 (by decide)).trans (arg25_at31 m c)
theorem arg26_at0 (c : Dev nD) : U0 m c main_arg26 = m ((c : Thread nD τ).loc main_arg26) := rfl
theorem arg26_at1 (c : Dev nD) : U1 m c main_arg26 = m ((c : Thread nD τ).loc main_arg26) := (U1_keep m c main_arg26 (by decide)).trans (arg26_at0 m c)
theorem arg26_at2 (c : Dev nD) : U2 m c main_arg26 = m ((c : Thread nD τ).loc main_arg26) := (U2_of m c main_arg26 (by decide)).trans (arg26_at1 m c)
theorem arg26_at3 (c : Dev nD) : U3 m c main_arg26 = m ((c : Thread nD τ).loc main_arg26) := (U3_keep m c main_arg26 (by decide)).trans (arg26_at2 m c)
theorem arg26_at4 (c : Dev nD) : U4 m c main_arg26 = m ((c : Thread nD τ).loc main_arg26) := (U4_of m c main_arg26 (by decide)).trans (arg26_at3 m c)
theorem arg26_at5 (c : Dev nD) : U5 m c main_arg26 = m ((c : Thread nD τ).loc main_arg26) := (U5_keep m c main_arg26 (by decide)).trans (arg26_at4 m c)
theorem arg26_at6 (c : Dev nD) : U6 m c main_arg26 = m ((c : Thread nD τ).loc main_arg26) := (U6_of m c main_arg26 (by decide)).trans (arg26_at5 m c)
theorem arg26_at7 (c : Dev nD) : U7 m c main_arg26 = m ((c : Thread nD τ).loc main_arg26) := (U7_keep m c main_arg26 (by decide)).trans (arg26_at6 m c)
theorem arg26_at8 (c : Dev nD) : U8 m c main_arg26 = m ((c : Thread nD τ).loc main_arg26) := (U8_of m c main_arg26 (by decide)).trans (arg26_at7 m c)
theorem arg26_at9 (c : Dev nD) : U9 m c main_arg26 = m ((c : Thread nD τ).loc main_arg26) := (U9_keep m c main_arg26 (by decide)).trans (arg26_at8 m c)
theorem arg26_at10 (c : Dev nD) : U10 m c main_arg26 = m ((c : Thread nD τ).loc main_arg26) := (U10_of m c main_arg26 (by decide)).trans (arg26_at9 m c)
theorem arg26_at11 (c : Dev nD) : U11 m c main_arg26 = m ((c : Thread nD τ).loc main_arg26) := (U11_keep m c main_arg26 (by decide)).trans (arg26_at10 m c)
theorem arg26_at12 (c : Dev nD) : U12 m c main_arg26 = m ((c : Thread nD τ).loc main_arg26) := (U12_keep m c main_arg26 (by decide)).trans (arg26_at11 m c)
theorem arg26_at13 (c : Dev nD) : U13 m c main_arg26 = m ((c : Thread nD τ).loc main_arg26) := (U13_keep m c main_arg26 (by decide)).trans (arg26_at12 m c)
theorem arg26_at14 (c : Dev nD) : U14 m c main_arg26 = m ((c : Thread nD τ).loc main_arg26) := (U14_keep m c main_arg26 (by decide)).trans (arg26_at13 m c)
theorem arg26_at15 (c : Dev nD) : U15 m c main_arg26 = m ((c : Thread nD τ).loc main_arg26) := (U15_keep m c main_arg26 (by decide)).trans (arg26_at14 m c)
theorem arg26_at16 (c : Dev nD) : U16 m c main_arg26 = m ((c : Thread nD τ).loc main_arg26) := (U16_of m c main_arg26 (by decide)).trans (arg26_at15 m c)
theorem arg26_at17 (c : Dev nD) : U17 m c main_arg26 = m ((c : Thread nD τ).loc main_arg26) := (U17_keep m c main_arg26 (by decide)).trans (arg26_at16 m c)
theorem arg26_at18 (c : Dev nD) : U18 m c main_arg26 = m ((c : Thread nD τ).loc main_arg26) := (U18_keep m c main_arg26 (by decide)).trans (arg26_at17 m c)
theorem arg26_at19 (c : Dev nD) : U19 m c main_arg26 = m ((c : Thread nD τ).loc main_arg26) := (U19_keep m c main_arg26 (by decide)).trans (arg26_at18 m c)
theorem arg26_at20 (c : Dev nD) : U20 m c main_arg26 = m ((c : Thread nD τ).loc main_arg26) := (U20_keep m c main_arg26 (by decide)).trans (arg26_at19 m c)
theorem arg26_at21 (c : Dev nD) : U21 m c main_arg26 = m ((c : Thread nD τ).loc main_arg26) := (U21_keep m c main_arg26 (by decide)).trans (arg26_at20 m c)
theorem arg26_at22 (c : Dev nD) : U22 m c main_arg26 = m ((c : Thread nD τ).loc main_arg26) := (U22_of m c main_arg26 (by decide)).trans (arg26_at21 m c)
theorem arg26_at23 (c : Dev nD) : U23 m c main_arg26 = m ((c : Thread nD τ).loc main_arg26) := (U23_keep m c main_arg26 (by decide)).trans (arg26_at22 m c)
theorem arg26_at24 (c : Dev nD) : U24 m c main_arg26 = m ((c : Thread nD τ).loc main_arg26) := (U24_keep m c main_arg26 (by decide)).trans (arg26_at23 m c)
theorem arg26_at25 (c : Dev nD) : U25 m c main_arg26 = m ((c : Thread nD τ).loc main_arg26) := (U25_keep m c main_arg26 (by decide)).trans (arg26_at24 m c)
theorem arg26_at26 (c : Dev nD) : U26 m c main_arg26 = m ((c : Thread nD τ).loc main_arg26) := (U26_keep m c main_arg26 (by decide)).trans (arg26_at25 m c)
theorem arg26_at27 (c : Dev nD) : U27 m c main_arg26 = m ((c : Thread nD τ).loc main_arg26) := (U27_keep m c main_arg26 (by decide)).trans (arg26_at26 m c)
theorem arg26_at28 (c : Dev nD) : U28 m c main_arg26 = m ((c : Thread nD τ).loc main_arg26) := (U28_of m c main_arg26 (by decide)).trans (arg26_at27 m c)
theorem arg26_at29 (c : Dev nD) : U29 m c main_arg26 = m ((c : Thread nD τ).loc main_arg26) := (U29_keep m c main_arg26 (by decide)).trans (arg26_at28 m c)
theorem arg26_at30 (c : Dev nD) : U30 m c main_arg26 = m ((c : Thread nD τ).loc main_arg26) := (U30_keep m c main_arg26 (by decide)).trans (arg26_at29 m c)
theorem arg26_at31 (c : Dev nD) : U31 m c main_arg26 = m ((c : Thread nD τ).loc main_arg26) := (U31_keep m c main_arg26 (by decide)).trans (arg26_at30 m c)
theorem arg26_at32 (c : Dev nD) : U32 m c main_arg26 = m ((c : Thread nD τ).loc main_arg26) := (U32_keep m c main_arg26 (by decide)).trans (arg26_at31 m c)
theorem arg26_at33 (c : Dev nD) : U33 m c main_arg26 = m ((c : Thread nD τ).loc main_arg26) := (U33_keep m c main_arg26 (by decide)).trans (arg26_at32 m c)
theorem arg26_at34 (c : Dev nD) : U34 m c main_arg26 = m ((c : Thread nD τ).loc main_arg26) := (U34_of m c main_arg26 (by decide)).trans (arg26_at33 m c)
theorem arg27_at0 (c : Dev nD) : U0 m c main_arg27 = m ((c : Thread nD τ).loc main_arg27) := rfl
theorem arg27_at1 (c : Dev nD) : U1 m c main_arg27 = m ((c : Thread nD τ).loc main_arg27) := (U1_keep m c main_arg27 (by decide)).trans (arg27_at0 m c)
theorem arg27_at2 (c : Dev nD) : U2 m c main_arg27 = m ((c : Thread nD τ).loc main_arg27) := (U2_of m c main_arg27 (by decide)).trans (arg27_at1 m c)
theorem arg27_at3 (c : Dev nD) : U3 m c main_arg27 = m ((c : Thread nD τ).loc main_arg27) := (U3_keep m c main_arg27 (by decide)).trans (arg27_at2 m c)
theorem arg27_at4 (c : Dev nD) : U4 m c main_arg27 = m ((c : Thread nD τ).loc main_arg27) := (U4_of m c main_arg27 (by decide)).trans (arg27_at3 m c)
theorem arg27_at5 (c : Dev nD) : U5 m c main_arg27 = m ((c : Thread nD τ).loc main_arg27) := (U5_keep m c main_arg27 (by decide)).trans (arg27_at4 m c)
theorem arg27_at6 (c : Dev nD) : U6 m c main_arg27 = m ((c : Thread nD τ).loc main_arg27) := (U6_of m c main_arg27 (by decide)).trans (arg27_at5 m c)
theorem arg27_at7 (c : Dev nD) : U7 m c main_arg27 = m ((c : Thread nD τ).loc main_arg27) := (U7_keep m c main_arg27 (by decide)).trans (arg27_at6 m c)
theorem arg27_at8 (c : Dev nD) : U8 m c main_arg27 = m ((c : Thread nD τ).loc main_arg27) := (U8_of m c main_arg27 (by decide)).trans (arg27_at7 m c)
theorem arg27_at9 (c : Dev nD) : U9 m c main_arg27 = m ((c : Thread nD τ).loc main_arg27) := (U9_keep m c main_arg27 (by decide)).trans (arg27_at8 m c)
theorem arg27_at10 (c : Dev nD) : U10 m c main_arg27 = m ((c : Thread nD τ).loc main_arg27) := (U10_of m c main_arg27 (by decide)).trans (arg27_at9 m c)
theorem arg27_at11 (c : Dev nD) : U11 m c main_arg27 = m ((c : Thread nD τ).loc main_arg27) := (U11_keep m c main_arg27 (by decide)).trans (arg27_at10 m c)
theorem arg27_at12 (c : Dev nD) : U12 m c main_arg27 = m ((c : Thread nD τ).loc main_arg27) := (U12_keep m c main_arg27 (by decide)).trans (arg27_at11 m c)
theorem arg27_at13 (c : Dev nD) : U13 m c main_arg27 = m ((c : Thread nD τ).loc main_arg27) := (U13_keep m c main_arg27 (by decide)).trans (arg27_at12 m c)
theorem arg27_at14 (c : Dev nD) : U14 m c main_arg27 = m ((c : Thread nD τ).loc main_arg27) := (U14_keep m c main_arg27 (by decide)).trans (arg27_at13 m c)
theorem arg27_at15 (c : Dev nD) : U15 m c main_arg27 = m ((c : Thread nD τ).loc main_arg27) := (U15_keep m c main_arg27 (by decide)).trans (arg27_at14 m c)
theorem arg27_at16 (c : Dev nD) : U16 m c main_arg27 = m ((c : Thread nD τ).loc main_arg27) := (U16_of m c main_arg27 (by decide)).trans (arg27_at15 m c)
theorem arg27_at17 (c : Dev nD) : U17 m c main_arg27 = m ((c : Thread nD τ).loc main_arg27) := (U17_keep m c main_arg27 (by decide)).trans (arg27_at16 m c)
theorem arg27_at18 (c : Dev nD) : U18 m c main_arg27 = m ((c : Thread nD τ).loc main_arg27) := (U18_keep m c main_arg27 (by decide)).trans (arg27_at17 m c)
theorem arg27_at19 (c : Dev nD) : U19 m c main_arg27 = m ((c : Thread nD τ).loc main_arg27) := (U19_keep m c main_arg27 (by decide)).trans (arg27_at18 m c)
theorem arg27_at20 (c : Dev nD) : U20 m c main_arg27 = m ((c : Thread nD τ).loc main_arg27) := (U20_keep m c main_arg27 (by decide)).trans (arg27_at19 m c)
theorem arg27_at21 (c : Dev nD) : U21 m c main_arg27 = m ((c : Thread nD τ).loc main_arg27) := (U21_keep m c main_arg27 (by decide)).trans (arg27_at20 m c)
theorem arg27_at22 (c : Dev nD) : U22 m c main_arg27 = m ((c : Thread nD τ).loc main_arg27) := (U22_of m c main_arg27 (by decide)).trans (arg27_at21 m c)
theorem arg27_at23 (c : Dev nD) : U23 m c main_arg27 = m ((c : Thread nD τ).loc main_arg27) := (U23_keep m c main_arg27 (by decide)).trans (arg27_at22 m c)
theorem arg27_at24 (c : Dev nD) : U24 m c main_arg27 = m ((c : Thread nD τ).loc main_arg27) := (U24_keep m c main_arg27 (by decide)).trans (arg27_at23 m c)
theorem arg27_at25 (c : Dev nD) : U25 m c main_arg27 = m ((c : Thread nD τ).loc main_arg27) := (U25_keep m c main_arg27 (by decide)).trans (arg27_at24 m c)
theorem arg27_at26 (c : Dev nD) : U26 m c main_arg27 = m ((c : Thread nD τ).loc main_arg27) := (U26_keep m c main_arg27 (by decide)).trans (arg27_at25 m c)
theorem arg27_at27 (c : Dev nD) : U27 m c main_arg27 = m ((c : Thread nD τ).loc main_arg27) := (U27_keep m c main_arg27 (by decide)).trans (arg27_at26 m c)
theorem arg27_at28 (c : Dev nD) : U28 m c main_arg27 = m ((c : Thread nD τ).loc main_arg27) := (U28_of m c main_arg27 (by decide)).trans (arg27_at27 m c)
theorem arg27_at29 (c : Dev nD) : U29 m c main_arg27 = m ((c : Thread nD τ).loc main_arg27) := (U29_keep m c main_arg27 (by decide)).trans (arg27_at28 m c)
theorem arg27_at30 (c : Dev nD) : U30 m c main_arg27 = m ((c : Thread nD τ).loc main_arg27) := (U30_keep m c main_arg27 (by decide)).trans (arg27_at29 m c)
theorem arg27_at31 (c : Dev nD) : U31 m c main_arg27 = m ((c : Thread nD τ).loc main_arg27) := (U31_keep m c main_arg27 (by decide)).trans (arg27_at30 m c)
theorem arg27_at32 (c : Dev nD) : U32 m c main_arg27 = m ((c : Thread nD τ).loc main_arg27) := (U32_keep m c main_arg27 (by decide)).trans (arg27_at31 m c)
theorem arg27_at33 (c : Dev nD) : U33 m c main_arg27 = m ((c : Thread nD τ).loc main_arg27) := (U33_keep m c main_arg27 (by decide)).trans (arg27_at32 m c)
theorem arg27_at34 (c : Dev nD) : U34 m c main_arg27 = m ((c : Thread nD τ).loc main_arg27) := (U34_of m c main_arg27 (by decide)).trans (arg27_at33 m c)

end Cert.KernelIdeal.Asm

end
-- ==== Proof.KIFinal0.lean ====
/-
  Region 0 of `KernelIdeal`'s @main — one dense layer on a grid of ONE point — read as a whole array: each window's one block
  sits at block index 0 on both axes, so an element of the block has the same coordinates in the array; hence each input block is
  its whole operand array, what the point writes back is the layer's payload of the three operand arrays, and that one block covers
  the output array. The output array after the region is therefore the payload of the operand arrays as the region finds them.
-/
import proofs.«161272_j16312285791078_1_alg».proof.Proof.KernelIdealRegion0
import Idealize.ShloMosaic.Lib.Pipeline.Value

set_option maxRecDepth 16384

noncomputable section

namespace Cert.KernelIdeal.Fin

open Cert.KernelIdeal Cert.KernelIdeal.Gen Cert.KernelIdeal.Rg
open Idealize.ShloMosaic Idealize.ShloMosaic.TcCoe
open Idealize.ShloMosaic.Pipeline (Dat Cfg Window)

variable {F : FTy → Type} [FloatOps F]

-- the TensorCore's buffer contents when the region is entered
variable (V : (c : Dev nD) → (b : Ref sig .tc) → Buf (Elt F) ((c : Thread nD τ).loc b))

/-- The zero offsets of the whole-block rectangles, as a constant function. -/
theorem hz0 : (![0, 0] : Fin 2 → Nat) = fun _ => 0 := funext fun a => by fin_cases a <;> rfl

/-- The printed index maps, decided over the grid: every window's block index is 0 on both axes at every point. -/
theorem idx0 : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- An element of window 0's block has, in the array, the coordinates it has in the block (index × size + coordinate, at index 0). -/
theorem emb0_0 (t : Fin cfg0.N) (y : S64x18640.Idx) : ((cfg0.win 0).blk t).view.emb y = y := by
  obtain ⟨e0, e1, -⟩ := idx0 t
  funext a; apply Fin.ext
  match a with
  | ⟨0, _⟩ => show win0_0.index t (0 : Fin 2) * 64 + 1 * (y 0).val = (y 0).val; omega
  | ⟨1, _⟩ => show win0_0.index t (1 : Fin 2) * 18640 + 1 * (y 1).val = (y 1).val; omega

/-- An element of window 1's block has, in the array, the coordinates it has in the block (index × size + coordinate, at index 0). -/
theorem emb0_1 (t : Fin cfg0.N) (y : S18640x128.Idx) : ((cfg0.win 1).blk t).view.emb y = y := by
  obtain ⟨-, -, e0, e1, -⟩ := idx0 t
  funext a; apply Fin.ext
  match a with
  | ⟨0, _⟩ => show win0_1.index t (0 : Fin 2) * 18640 + 1 * (y 0).val = (y 0).val; omega
  | ⟨1, _⟩ => show win0_1.index t (1 : Fin 2) * 128 + 1 * (y 1).val = (y 1).val; omega

/-- An element of window 2's block has, in the array, the coordinates it has in the block (index × size + coordinate, at index 0). -/
theorem emb0_2 (t : Fin cfg0.N) (y : S1x128.Idx) : ((cfg0.win 2).blk t).view.emb y = y := by
  obtain ⟨-, -, -, -, e0, e1, -⟩ := idx0 t
  funext a; apply Fin.ext
  match a with
  | ⟨0, _⟩ => show win0_2.index t (0 : Fin 2) * 1 + 1 * (y 0).val = (y 0).val; omega
  | ⟨1, _⟩ => show win0_2.index t (1 : Fin 2) * 128 + 1 * (y 1).val = (y 1).val; omega

/-- An element of window 3's block has, in the array, the coordinates it has in the block (index × size + coordinate, at index 0). -/
theorem emb0_3 (t : Fin cfg0.N) (y : S64x128.Idx) : ((cfg0.win 3).blk t).view.emb y = y := by
  obtain ⟨-, -, -, -, -, -, e0, e1⟩ := idx0 t
  funext a; apply Fin.ext
  match a with
  | ⟨0, _⟩ => show win0_3.index t (0 : Fin 2) * 64 + 1 * (y 0).val = (y 0).val; omega
  | ⟨1, _⟩ => show win0_3.index t (1 : Fin 2) * 128 + 1 * (y 1).val = (y 1).val; omega

/-- Input window 0's block at the point is its whole array. -/
theorem iblk0_0_eq (c : Dev nD) (t : Fin cfg0.N) : iblk0 V c 0 t = (V c main_v0 : S64x18640.Idx → Elt F .bf16) := by
  funext y
  show V c main_v0 (((cfg0.win 0).blk t).view.emb y) = V c main_v0 y
  rw [emb0_0]

/-- Input window 1's block at the point is its whole array. -/
theorem iblk0_1_eq (c : Dev nD) (t : Fin cfg0.N) : iblk0 V c 1 t = (V c main_v1 : S18640x128.Idx → Elt F .bf16) := by
  funext y
  show V c main_v1 (((cfg0.win 1).blk t).view.emb y) = V c main_v1 y
  rw [emb0_1]

/-- Input window 2's block at the point is its whole array. -/
theorem iblk0_2_eq (c : Dev nD) (t : Fin cfg0.N) : iblk0 V c 2 t = (V c main_v2 : S1x128.Idx → Elt F .f32) := by
  funext y
  show V c main_v2 (((cfg0.win 2).blk t).view.emb y) = V c main_v2 y
  rw [emb0_2]

/-- WHAT THE POINT WRITES BACK is the layer's payload of the three operand arrays — which is also the (whole) block of that payload
    the point's rectangle names. -/
theorem flushed0_eq (c : Dev nD) (t : Fin cfg0.N) :
    (dat0 V c).flushed 3 t = ((cfg0.win 3).blk t).view.read (Elt F) (k0_pay1 (V c main_v0) (V c main_v1) (V c main_v2) : S64x128.Idx → Elt F .f32) := by
  show (cfg0.win 3).cut (grid0.coords t) ((dat0 V c).after 3 t) = _
  rw [after0_3]
  unfold out0_3
  rw [View.canon_unit_zero hz0]
  simp only [View.ld_unit_zero (S := S64x18640) hz0, View.ld_unit_zero (S := S18640x128) hz0, View.ld_unit_zero (S := S1x128) hz0]
  rw [iblk0_0_eq, iblk0_1_eq, iblk0_2_eq]
  funext y
  show k0_pay1 (V c main_v0) (V c main_v1) (V c main_v2) y = k0_pay1 (V c main_v0) (V c main_v1) (V c main_v2) (((cfg0.win 3).blk t).view.emb y)
  rw [emb0_3]

/-- The one point's block covers the output array. -/
theorem cover0 (i : S64x128.Idx) : ∃ t : Fin cfg0.N, (cfg0.win 3).flush t = true ∧ i ∈ ((cfg0.win 3).blk t).view.set := by
  refine ⟨t0_0, flush0_3 t0_0, ?_⟩
  rw [← emb0_3 t0_0 i]
  exact ((cfg0.win 3).blk t0_0).view.emb_mem_set i

/-- THE OUTPUT ARRAY after the region: the layer's payload of the operand arrays as the region finds them. -/
theorem final0 (c : Dev nD) :
    (dat0 V c).arrAt 3 cfg0.N = (k0_pay1 (V c main_v0) (V c main_v1) (V c main_v2) : S64x128.Idx → Elt F .f32) :=
  (dat0 V c).arrAt_eq_of_cover 3 _ (fun t _ => flushed0_eq V c t) cover0

end Cert.KernelIdeal.Fin

end
-- ==== Proof.KIFinal1.lean ====
/-
  Region 1 of `KernelIdeal`'s @main — one dense layer on a grid of ONE point — read as a whole array: each window's one block
  sits at block index 0 on both axes, so an element of the block has the same coordinates in the array; hence each input block is
  its whole operand array, what the point writes back is the layer's payload of the three operand arrays, and that one block covers
  the output array. The output array after the region is therefore the payload of the operand arrays as the region finds them.
-/
import proofs.«161272_j16312285791078_1_alg».proof.Proof.KernelIdealRegion1
import Idealize.ShloMosaic.Lib.Pipeline.Value

set_option maxRecDepth 16384

noncomputable section

namespace Cert.KernelIdeal.Fin

open Cert.KernelIdeal Cert.KernelIdeal.Gen Cert.KernelIdeal.Rg
open Idealize.ShloMosaic Idealize.ShloMosaic.TcCoe
open Idealize.ShloMosaic.Pipeline (Dat Cfg Window)

variable {F : FTy → Type} [FloatOps F]

-- the TensorCore's buffer contents when the region is entered
variable (V : (c : Dev nD) → (b : Ref sig .tc) → Buf (Elt F) ((c : Thread nD τ).loc b))

/-- The zero offsets of the whole-block rectangles, as a constant function. -/
theorem hz1 : (![0, 0] : Fin 2 → Nat) = fun _ => 0 := funext fun a => by fin_cases a <;> rfl

/-- The printed index maps, decided over the grid: every window's block index is 0 on both axes at every point. -/
theorem idx1 : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

/-- An element of window 0's block has, in the array, the coordinates it has in the block (index × size + coordinate, at index 0). -/
theorem emb1_0 (t : Fin cfg1.N) (y : S64x128.Idx) : ((cfg1.win 0).blk t).view.emb y = y := by
  obtain ⟨e0, e1, -⟩ := idx1 t
  funext a; apply Fin.ext
  match a with
  | ⟨0, _⟩ => show win1_0.index t (0 : Fin 2) * 64 + 1 * (y 0).val = (y 0).val; omega
  | ⟨1, _⟩ => show win1_0.index t (1 : Fin 2) * 128 + 1 * (y 1).val = (y 1).val; omega

/-- An element of window 1's block has, in the array, the coordinates it has in the block (index × size + coordinate, at index 0). -/
theorem emb1_1 (t : Fin cfg1.N) (y : S128x128.Idx) : ((cfg1.win 1).blk t).view.emb y = y := by
  obtain ⟨-, -, e0, e1, -⟩ := idx1 t
  funext a; apply Fin.ext
  match a with
  | ⟨0, _⟩ => show win1_1.index t (0 : Fin 2) * 128 + 1 * (y 0).val = (y 0).val; omega
  | ⟨1, _⟩ => show win1_1.index t (1 : Fin 2) * 128 + 1 * (y 1).val = (y 1).val; omega

/-- An element of window 2's block has, in the array, the coordinates it has in the block (index × size + coordinate, at index 0). -/
theorem emb1_2 (t : Fin cfg1.N) (y : S1x128.Idx) : ((cfg1.win 2).blk t).view.emb y = y := by
  obtain ⟨-, -, -, -, e0, e1, -⟩ := idx1 t
  funext a; apply Fin.ext
  match a with
  | ⟨0, _⟩ => show win1_2.index t (0 : Fin 2) * 1 + 1 * (y 0).val = (y 0).val; omega
  | ⟨1, _⟩ => show win1_2.index t (1 : Fin 2) * 128 + 1 * (y 1).val = (y 1).val; omega

/-- An element of window 3's block has, in the array, the coordinates it has in the block (index × size + coordinate, at index 0). -/
theorem emb1_3 (t : Fin cfg1.N) (y : S64x128.Idx) : ((cfg1.win 3).blk t).view.emb y = y := by
  obtain ⟨-, -, -, -, -, -, e0, e1⟩ := idx1 t
  funext a; apply Fin.ext
  match a with
  | ⟨0, _⟩ => show win1_3.index t (0 : Fin 2) * 64 + 1 * (y 0).val = (y 0).val; omega
  | ⟨1, _⟩ => show win1_3.index t (1 : Fin 2) * 128 + 1 * (y 1).val = (y 1).val; omega

/-- Input window 0's block at the point is its whole array. -/
theorem iblk1_0_eq (c : Dev nD) (t : Fin cfg1.N) : iblk1 V c 0 t = (V c main_v4 : S64x128.Idx → Elt F .bf16) := by
  funext y
  show V c main_v4 (((cfg1.win 0).blk t).view.emb y) = V c main_v4 y
  rw [emb1_0]

/-- Input window 1's block at the point is its whole array. -/
theorem iblk1_1_eq (c : Dev nD) (t : Fin cfg1.N) : iblk1 V c 1 t = (V c main_v5 : S128x128.Idx → Elt F .bf16) := by
  funext y
  show V c main_v5 (((cfg1.win 1).blk t).view.emb y) = V c main_v5 y
  rw [emb1_1]

/-- Input window 2's block at the point is its whole array. -/
theorem iblk1_2_eq (c : Dev nD) (t : Fin cfg1.N) : iblk1 V c 2 t = (V c main_v6 : S1x128.Idx → Elt F .f32) := by
  funext y
  show V c main_v6 (((cfg1.win 2).blk t).view.emb y) = V c main_v6 y
  rw [emb1_2]

/-- WHAT THE POINT WRITES BACK is the layer's payload of the three operand arrays — which is also the (whole) block of that payload
    the point's rectangle names. -/
theorem flushed1_eq (c : Dev nD) (t : Fin cfg1.N) :
    (dat1 V c).flushed 3 t = ((cfg1.win 3).blk t).view.read (Elt F) (k1_pay1 (V c main_v4) (V c main_v5) (V c main_v6) : S64x128.Idx → Elt F .f32) := by
  show (cfg1.win 3).cut (grid1.coords t) ((dat1 V c).after 3 t) = _
  rw [after1_3]
  unfold out1_3
  rw [View.canon_unit_zero hz1]
  simp only [View.ld_unit_zero (S := S64x128) hz1, View.ld_unit_zero (S := S128x128) hz1, View.ld_unit_zero (S := S1x128) hz1]
  rw [iblk1_0_eq, iblk1_1_eq, iblk1_2_eq]
  funext y
  show k1_pay1 (V c main_v4) (V c main_v5) (V c main_v6) y = k1_pay1 (V c main_v4) (V c main_v5) (V c main_v6) (((cfg1.win 3).blk t).view.emb y)
  rw [emb1_3]

/-- The one point's block covers the output array. -/
theorem cover1 (i : S64x128.Idx) : ∃ t : Fin cfg1.N, (cfg1.win 3).flush t = true ∧ i ∈ ((cfg1.win 3).blk t).view.set := by
  refine ⟨t1_0, flush1_3 t1_0, ?_⟩
  rw [← emb1_3 t1_0 i]
  exact ((cfg1.win 3).blk t1_0).view.emb_mem_set i

/-- THE OUTPUT ARRAY after the region: the layer's payload of the operand arrays as the region finds them. -/
theorem final1 (c : Dev nD) :
    (dat1 V c).arrAt 3 cfg1.N = (k1_pay1 (V c main_v4) (V c main_v5) (V c main_v6) : S64x128.Idx → Elt F .f32) :=
  (dat1 V c).arrAt_eq_of_cover 3 _ (fun t _ => flushed1_eq V c t) cover1

end Cert.KernelIdeal.Fin

end
-- ==== Proof.KIFinal2.lean ====
/-
  Region 2 of `KernelIdeal`'s @main — one dense layer on a grid of ONE point — read as a whole array: each window's one block
  sits at block index 0 on both axes, so an element of the block has the same coordinates in the array; hence each input block is
  its whole operand array, what the point writes back is the layer's payload of the three operand arrays, and that one block covers
  the output array. The output array after the region is therefore the payload of the operand arrays as the region finds them.
-/
import proofs.«161272_j16312285791078_1_alg».proof.Proof.KernelIdealRegion2
import Idealize.ShloMosaic.Lib.Pipeline.Value

set_option maxRecDepth 16384

noncomputable section

namespace Cert.KernelIdeal.Fin

open Cert.KernelIdeal Cert.KernelIdeal.Gen Cert.KernelIdeal.Rg
open Idealize.ShloMosaic Idealize.ShloMosaic.TcCoe
open Idealize.ShloMosaic.Pipeline (Dat Cfg Window)

variable {F : FTy → Type} [FloatOps F]

-- the TensorCore's buffer contents when the region is entered
variable (V : (c : Dev nD) → (b : Ref sig .tc) → Buf (Elt F) ((c : Thread nD τ).loc b))

/-- The zero offsets of the whole-block rectangles, as a constant function. -/
theorem hz2 : (![0, 0] : Fin 2 → Nat) = fun _ => 0 := funext fun a => by fin_cases a <;> rfl

/-- The printed index maps, decided over the grid: every window's block index is 0 on both axes at every point. -/
theorem idx2 : ∀ t : Fin cfg2.N,
    win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0 :=
  (by decide +kernel : ∀ t : Fin grid2.N, _)

/-- An element of window 0's block has, in the array, the coordinates it has in the block (index × size + coordinate, at index 0). -/
theorem emb2_0 (t : Fin cfg2.N) (y : S64x21.Idx) : ((cfg2.win 0).blk t).view.emb y = y := by
  obtain ⟨e0, e1, -⟩ := idx2 t
  funext a; apply Fin.ext
  match a with
  | ⟨0, _⟩ => show win2_0.index t (0 : Fin 2) * 64 + 1 * (y 0).val = (y 0).val; omega
  | ⟨1, _⟩ => show win2_0.index t (1 : Fin 2) * 21 + 1 * (y 1).val = (y 1).val; omega

/-- An element of window 1's block has, in the array, the coordinates it has in the block (index × size + coordinate, at index 0). -/
theorem emb2_1 (t : Fin cfg2.N) (y : S21x64.Idx) : ((cfg2.win 1).blk t).view.emb y = y := by
  obtain ⟨-, -, e0, e1, -⟩ := idx2 t
  funext a; apply Fin.ext
  match a with
  | ⟨0, _⟩ => show win2_1.index t (0 : Fin 2) * 21 + 1 * (y 0).val = (y 0).val; omega
  | ⟨1, _⟩ => show win2_1.index t (1 : Fin 2) * 64 + 1 * (y 1).val = (y 1).val; omega

/-- An element of window 2's block has, in the array, the coordinates it has in the block (index × size + coordinate, at index 0). -/
theorem emb2_2 (t : Fin cfg2.N) (y : S1x64.Idx) : ((cfg2.win 2).blk t).view.emb y = y := by
  obtain ⟨-, -, -, -, e0, e1, -⟩ := idx2 t
  funext a; apply Fin.ext
  match a with
  | ⟨0, _⟩ => show win2_2.index t (0 : Fin 2) * 1 + 1 * (y 0).val = (y 0).val; omega
  | ⟨1, _⟩ => show win2_2.index t (1 : Fin 2) * 64 + 1 * (y 1).val = (y 1).val; omega

/-- An element of window 3's block has, in the array, the coordinates it has in the block (index × size + coordinate, at index 0). -/
theorem emb2_3 (t : Fin cfg2.N) (y : S64x64.Idx) : ((cfg2.win 3).blk t).view.emb y = y := by
  obtain ⟨-, -, -, -, -, -, e0, e1⟩ := idx2 t
  funext a; apply Fin.ext
  match a with
  | ⟨0, _⟩ => show win2_3.index t (0 : Fin 2) * 64 + 1 * (y 0).val = (y 0).val; omega
  | ⟨1, _⟩ => show win2_3.index t (1 : Fin 2) * 64 + 1 * (y 1).val = (y 1).val; omega

/-- Input window 0's block at the point is its whole array. -/
theorem iblk2_0_eq (c : Dev nD) (t : Fin cfg2.N) : iblk2 V c 0 t = (V c main_v8 : S64x21.Idx → Elt F .bf16) := by
  funext y
  show V c main_v8 (((cfg2.win 0).blk t).view.emb y) = V c main_v8 y
  rw [emb2_0]

/-- Input window 1's block at the point is its whole array. -/
theorem iblk2_1_eq (c : Dev nD) (t : Fin cfg2.N) : iblk2 V c 1 t = (V c main_v9 : S21x64.Idx → Elt F .bf16) := by
  funext y
  show V c main_v9 (((cfg2.win 1).blk t).view.emb y) = V c main_v9 y
  rw [emb2_1]

/-- Input window 2's block at the point is its whole array. -/
theorem iblk2_2_eq (c : Dev nD) (t : Fin cfg2.N) : iblk2 V c 2 t = (V c main_v10 : S1x64.Idx → Elt F .f32) := by
  funext y
  show V c main_v10 (((cfg2.win 2).blk t).view.emb y) = V c main_v10 y
  rw [emb2_2]

/-- WHAT THE POINT WRITES BACK is the layer's payload of the three operand arrays — which is also the (whole) block of that payload
    the point's rectangle names. -/
theorem flushed2_eq (c : Dev nD) (t : Fin cfg2.N) :
    (dat2 V c).flushed 3 t = ((cfg2.win 3).blk t).view.read (Elt F) (k2_pay1 (V c main_v8) (V c main_v9) (V c main_v10) : S64x64.Idx → Elt F .f32) := by
  show (cfg2.win 3).cut (grid2.coords t) ((dat2 V c).after 3 t) = _
  rw [after2_3]
  unfold out2_3
  rw [View.canon_unit_zero hz2]
  simp only [View.ld_unit_zero (S := S64x21) hz2, View.ld_unit_zero (S := S21x64) hz2, View.ld_unit_zero (S := S1x64) hz2]
  rw [iblk2_0_eq, iblk2_1_eq, iblk2_2_eq]
  funext y
  show k2_pay1 (V c main_v8) (V c main_v9) (V c main_v10) y = k2_pay1 (V c main_v8) (V c main_v9) (V c main_v10) (((cfg2.win 3).blk t).view.emb y)
  rw [emb2_3]

/-- The one point's block covers the output array. -/
theorem cover2 (i : S64x64.Idx) : ∃ t : Fin cfg2.N, (cfg2.win 3).flush t = true ∧ i ∈ ((cfg2.win 3).blk t).view.set := by
  refine ⟨t2_0, flush2_3 t2_0, ?_⟩
  rw [← emb2_3 t2_0 i]
  exact ((cfg2.win 3).blk t2_0).view.emb_mem_set i

/-- THE OUTPUT ARRAY after the region: the layer's payload of the operand arrays as the region finds them. -/
theorem final2 (c : Dev nD) :
    (dat2 V c).arrAt 3 cfg2.N = (k2_pay1 (V c main_v8) (V c main_v9) (V c main_v10) : S64x64.Idx → Elt F .f32) :=
  (dat2 V c).arrAt_eq_of_cover 3 _ (fun t _ => flushed2_eq V c t) cover2

end Cert.KernelIdeal.Fin

end
-- ==== Proof.KIFinal3.lean ====
/-
  Region 3 of `KernelIdeal`'s @main — one dense layer on a grid of ONE point — read as a whole array: each window's one block
  sits at block index 0 on both axes, so an element of the block has the same coordinates in the array; hence each input block is
  its whole operand array, what the point writes back is the layer's payload of the three operand arrays, and that one block covers
  the output array. The output array after the region is therefore the payload of the operand arrays as the region finds them.
-/
import proofs.«161272_j16312285791078_1_alg».proof.Proof.KernelIdealRegion3
import Idealize.ShloMosaic.Lib.Pipeline.Value

set_option maxRecDepth 16384

noncomputable section

namespace Cert.KernelIdeal.Fin

open Cert.KernelIdeal Cert.KernelIdeal.Gen Cert.KernelIdeal.Rg
open Idealize.ShloMosaic Idealize.ShloMosaic.TcCoe
open Idealize.ShloMosaic.Pipeline (Dat Cfg Window)

variable {F : FTy → Type} [FloatOps F]

-- the TensorCore's buffer contents when the region is entered
variable (V : (c : Dev nD) → (b : Ref sig .tc) → Buf (Elt F) ((c : Thread nD τ).loc b))

/-- The zero offsets of the whole-block rectangles, as a constant function. -/
theorem hz3 : (![0, 0] : Fin 2 → Nat) = fun _ => 0 := funext fun a => by fin_cases a <;> rfl

/-- The printed index maps, decided over the grid: every window's block index is 0 on both axes at every point. -/
theorem idx3 : ∀ t : Fin cfg3.N,
    win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0 :=
  (by decide +kernel : ∀ t : Fin grid3.N, _)

/-- An element of window 0's block has, in the array, the coordinates it has in the block (index × size + coordinate, at index 0). -/
theorem emb3_0 (t : Fin cfg3.N) (y : S64x64.Idx) : ((cfg3.win 0).blk t).view.emb y = y := by
  obtain ⟨e0, e1, -⟩ := idx3 t
  funext a; apply Fin.ext
  match a with
  | ⟨0, _⟩ => show win3_0.index t (0 : Fin 2) * 64 + 1 * (y 0).val = (y 0).val; omega
  | ⟨1, _⟩ => show win3_0.index t (1 : Fin 2) * 64 + 1 * (y 1).val = (y 1).val; omega

/-- An element of window 1's block has, in the array, the coordinates it has in the block (index × size + coordinate, at index 0). -/
theorem emb3_1 (t : Fin cfg3.N) (y : S64x64.Idx) : ((cfg3.win 1).blk t).view.emb y = y := by
  obtain ⟨-, -, e0, e1, -⟩ := idx3 t
  funext a; apply Fin.ext
  match a with
  | ⟨0, _⟩ => show win3_1.index t (0 : Fin 2) * 64 + 1 * (y 0).val = (y 0).val; omega
  | ⟨1, _⟩ => show win3_1.index t (1 : Fin 2) * 64 + 1 * (y 1).val = (y 1).val; omega

/-- An element of window 2's block has, in the array, the coordinates it has in the block (index × size + coordinate, at index 0). -/
theorem emb3_2 (t : Fin cfg3.N) (y : S1x64.Idx) : ((cfg3.win 2).blk t).view.emb y = y := by
  obtain ⟨-, -, -, -, e0, e1, -⟩ := idx3 t
  funext a; apply Fin.ext
  match a with
  | ⟨0, _⟩ => show win3_2.index t (0 : Fin 2) * 1 + 1 * (y 0).val = (y 0).val; omega
  | ⟨1, _⟩ => show win3_2.index t (1 : Fin 2) * 64 + 1 * (y 1).val = (y 1).val; omega

/-- An element of window 3's block has, in the array, the coordinates it has in the block (index × size + coordinate, at index 0). -/
theorem emb3_3 (t : Fin cfg3.N) (y : S64x64.Idx) : ((cfg3.win 3).blk t).view.emb y = y := by
  obtain ⟨-, -, -, -, -, -, e0, e1⟩ := idx3 t
  funext a; apply Fin.ext
  match a with
  | ⟨0, _⟩ => show win3_3.index t (0 : Fin 2) * 64 + 1 * (y 0).val = (y 0).val; omega
  | ⟨1, _⟩ => show win3_3.index t (1 : Fin 2) * 64 + 1 * (y 1).val = (y 1).val; omega

/-- Input window 0's block at the point is its whole array. -/
theorem iblk3_0_eq (c : Dev nD) (t : Fin cfg3.N) : iblk3 V c 0 t = (V c main_v12 : S64x64.Idx → Elt F .bf16) := by
  funext y
  show V c main_v12 (((cfg3.win 0).blk t).view.emb y) = V c main_v12 y
  rw [emb3_0]

/-- Input window 1's block at the point is its whole array. -/
theorem iblk3_1_eq (c : Dev nD) (t : Fin cfg3.N) : iblk3 V c 1 t = (V c main_v13 : S64x64.Idx → Elt F .bf16) := by
  funext y
  show V c main_v13 (((cfg3.win 1).blk t).view.emb y) = V c main_v13 y
  rw [emb3_1]

/-- Input window 2's block at the point is its whole array. -/
theorem iblk3_2_eq (c : Dev nD) (t : Fin cfg3.N) : iblk3 V c 2 t = (V c main_v14 : S1x64.Idx → Elt F .f32) := by
  funext y
  show V c main_v14 (((cfg3.win 2).blk t).view.emb y) = V c main_v14 y
  rw [emb3_2]

/-- WHAT THE POINT WRITES BACK is the layer's payload of the three operand arrays — which is also the (whole) block of that payload
    the point's rectangle names. -/
theorem flushed3_eq (c : Dev nD) (t : Fin cfg3.N) :
    (dat3 V c).flushed 3 t = ((cfg3.win 3).blk t).view.read (Elt F) (k3_pay1 (V c main_v12) (V c main_v13) (V c main_v14) : S64x64.Idx → Elt F .f32) := by
  show (cfg3.win 3).cut (grid3.coords t) ((dat3 V c).after 3 t) = _
  rw [after3_3]
  unfold out3_3
  rw [View.canon_unit_zero hz3]
  simp only [View.ld_unit_zero (S := S64x64) hz3, View.ld_unit_zero (S := S1x64) hz3]
  rw [iblk3_0_eq, iblk3_1_eq, iblk3_2_eq]
  funext y
  show k3_pay1 (V c main_v12) (V c main_v13) (V c main_v14) y = k3_pay1 (V c main_v12) (V c main_v13) (V c main_v14) (((cfg3.win 3).blk t).view.emb y)
  rw [emb3_3]

/-- The one point's block covers the output array. -/
theorem cover3 (i : S64x64.Idx) : ∃ t : Fin cfg3.N, (cfg3.win 3).flush t = true ∧ i ∈ ((cfg3.win 3).blk t).view.set := by
  refine ⟨t3_0, flush3_3 t3_0, ?_⟩
  rw [← emb3_3 t3_0 i]
  exact ((cfg3.win 3).blk t3_0).view.emb_mem_set i

/-- THE OUTPUT ARRAY after the region: the layer's payload of the operand arrays as the region finds them. -/
theorem final3 (c : Dev nD) :
    (dat3 V c).arrAt 3 cfg3.N = (k3_pay1 (V c main_v12) (V c main_v13) (V c main_v14) : S64x64.Idx → Elt F .f32) :=
  (dat3 V c).arrAt_eq_of_cover 3 _ (fun t _ => flushed3_eq V c t) cover3

end Cert.KernelIdeal.Fin

end
-- ==== Proof.KIFinal8.lean ====
/-
  Region 8 of `KernelIdeal`'s @main — one dense layer on a grid of ONE point — read as a whole array: each window's one block
  sits at block index 0 on both axes, so an element of the block has the same coordinates in the array; hence each input block is
  its whole operand array, what the point writes back is the layer's payload of the three operand arrays, and that one block covers
  the output array. The output array after the region is therefore the payload of the operand arrays as the region finds them.
-/
import proofs.«161272_j16312285791078_1_alg».proof.Proof.KernelIdealRegion8
import Idealize.ShloMosaic.Lib.Pipeline.Value

set_option maxRecDepth 16384

noncomputable section

namespace Cert.KernelIdeal.Fin

open Cert.KernelIdeal Cert.KernelIdeal.Gen Cert.KernelIdeal.Rg
open Idealize.ShloMosaic Idealize.ShloMosaic.TcCoe
open Idealize.ShloMosaic.Pipeline (Dat Cfg Window)

variable {F : FTy → Type} [FloatOps F]

-- the TensorCore's buffer contents when the region is entered
variable (V : (c : Dev nD) → (b : Ref sig .tc) → Buf (Elt F) ((c : Thread nD τ).loc b))

/-- The zero offsets of the whole-block rectangles, as a constant function. -/
theorem hz8 : (![0, 0] : Fin 2 → Nat) = fun _ => 0 := funext fun a => by fin_cases a <;> rfl

/-- The printed index maps, decided over the grid: every window's block index is 0 on both axes at every point. -/
theorem idx8 : ∀ t : Fin cfg8.N,
    win8_0.index t (0 : Fin 2) = 0 ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0 :=
  (by decide +kernel : ∀ t : Fin grid8.N, _)

/-- An element of window 0's block has, in the array, the coordinates it has in the block (index × size + coordinate, at index 0). -/
theorem emb8_0 (t : Fin cfg8.N) (y : S64x448.Idx) : ((cfg8.win 0).blk t).view.emb y = y := by
  obtain ⟨e0, e1, -⟩ := idx8 t
  funext a; apply Fin.ext
  match a with
  | ⟨0, _⟩ => show win8_0.index t (0 : Fin 2) * 64 + 1 * (y 0).val = (y 0).val; omega
  | ⟨1, _⟩ => show win8_0.index t (1 : Fin 2) * 448 + 1 * (y 1).val = (y 1).val; omega

/-- An element of window 1's block has, in the array, the coordinates it has in the block (index × size + coordinate, at index 0). -/
theorem emb8_1 (t : Fin cfg8.N) (y : S448x128.Idx) : ((cfg8.win 1).blk t).view.emb y = y := by
  obtain ⟨-, -, e0, e1, -⟩ := idx8 t
  funext a; apply Fin.ext
  match a with
  | ⟨0, _⟩ => show win8_1.index t (0 : Fin 2) * 448 + 1 * (y 0).val = (y 0).val; omega
  | ⟨1, _⟩ => show win8_1.index t (1 : Fin 2) * 128 + 1 * (y 1).val = (y 1).val; omega

/-- An element of window 2's block has, in the array, the coordinates it has in the block (index × size + coordinate, at index 0). -/
theorem emb8_2 (t : Fin cfg8.N) (y : S1x128.Idx) : ((cfg8.win 2).blk t).view.emb y = y := by
  obtain ⟨-, -, -, -, e0, e1, -⟩ := idx8 t
  funext a; apply Fin.ext
  match a with
  | ⟨0, _⟩ => show win8_2.index t (0 : Fin 2) * 1 + 1 * (y 0).val = (y 0).val; omega
  | ⟨1, _⟩ => show win8_2.index t (1 : Fin 2) * 128 + 1 * (y 1).val = (y 1).val; omega

/-- An element of window 3's block has, in the array, the coordinates it has in the block (index × size + coordinate, at index 0). -/
theorem emb8_3 (t : Fin cfg8.N) (y : S64x128.Idx) : ((cfg8.win 3).blk t).view.emb y = y := by
  obtain ⟨-, -, -, -, -, -, e0, e1⟩ := idx8 t
  funext a; apply Fin.ext
  match a with
  | ⟨0, _⟩ => show win8_3.index t (0 : Fin 2) * 64 + 1 * (y 0).val = (y 0).val; omega
  | ⟨1, _⟩ => show win8_3.index t (1 : Fin 2) * 128 + 1 * (y 1).val = (y 1).val; omega

/-- Input window 0's block at the point is its whole array. -/
theorem iblk8_0_eq (c : Dev nD) (t : Fin cfg8.N) : iblk8 V c 0 t = (V c main_v261 : S64x448.Idx → Elt F .bf16) := by
  funext y
  show V c main_v261 (((cfg8.win 0).blk t).view.emb y) = V c main_v261 y
  rw [emb8_0]

/-- Input window 1's block at the point is its whole array. -/
theorem iblk8_1_eq (c : Dev nD) (t : Fin cfg8.N) : iblk8 V c 1 t = (V c main_v262 : S448x128.Idx → Elt F .bf16) := by
  funext y
  show V c main_v262 (((cfg8.win 1).blk t).view.emb y) = V c main_v262 y
  rw [emb8_1]

/-- Input window 2's block at the point is its whole array. -/
theorem iblk8_2_eq (c : Dev nD) (t : Fin cfg8.N) : iblk8 V c 2 t = (V c main_v263 : S1x128.Idx → Elt F .f32) := by
  funext y
  show V c main_v263 (((cfg8.win 2).blk t).view.emb y) = V c main_v263 y
  rw [emb8_2]

/-- WHAT THE POINT WRITES BACK is the layer's payload of the three operand arrays — which is also the (whole) block of that payload
    the point's rectangle names. -/
theorem flushed8_eq (c : Dev nD) (t : Fin cfg8.N) :
    (dat8 V c).flushed 3 t = ((cfg8.win 3).blk t).view.read (Elt F) (k8_pay1 (V c main_v261) (V c main_v262) (V c main_v263) : S64x128.Idx → Elt F .f32) := by
  show (cfg8.win 3).cut (grid8.coords t) ((dat8 V c).after 3 t) = _
  rw [after8_3]
  unfold out8_3
  rw [View.canon_unit_zero hz8]
  simp only [View.ld_unit_zero (S := S64x448) hz8, View.ld_unit_zero (S := S448x128) hz8, View.ld_unit_zero (S := S1x128) hz8]
  rw [iblk8_0_eq, iblk8_1_eq, iblk8_2_eq]
  funext y
  show k8_pay1 (V c main_v261) (V c main_v262) (V c main_v263) y = k8_pay1 (V c main_v261) (V c main_v262) (V c main_v263) (((cfg8.win 3).blk t).view.emb y)
  rw [emb8_3]

/-- The one point's block covers the output array. -/
theorem cover8 (i : S64x128.Idx) : ∃ t : Fin cfg8.N, (cfg8.win 3).flush t = true ∧ i ∈ ((cfg8.win 3).blk t).view.set := by
  refine ⟨t8_0, flush8_3 t8_0, ?_⟩
  rw [← emb8_3 t8_0 i]
  exact ((cfg8.win 3).blk t8_0).view.emb_mem_set i

/-- THE OUTPUT ARRAY after the region: the layer's payload of the operand arrays as the region finds them. -/
theorem final8 (c : Dev nD) :
    (dat8 V c).arrAt 3 cfg8.N = (k8_pay1 (V c main_v261) (V c main_v262) (V c main_v263) : S64x128.Idx → Elt F .f32) :=
  (dat8 V c).arrAt_eq_of_cover 3 _ (fun t _ => flushed8_eq V c t) cover8

end Cert.KernelIdeal.Fin

end
-- ==== Proof.KIFinal9.lean ====
/-
  Region 9 of `KernelIdeal`'s @main — one dense layer on a grid of ONE point — read as a whole array: each window's one block
  sits at block index 0 on both axes, so an element of the block has the same coordinates in the array; hence each input block is
  its whole operand array, what the point writes back is the layer's payload of the three operand arrays, and that one block covers
  the output array. The output array after the region is therefore the payload of the operand arrays as the region finds them.
-/
import proofs.«161272_j16312285791078_1_alg».proof.Proof.KernelIdealRegion9
import Idealize.ShloMosaic.Lib.Pipeline.Value

set_option maxRecDepth 16384

noncomputable section

namespace Cert.KernelIdeal.Fin

open Cert.KernelIdeal Cert.KernelIdeal.Gen Cert.KernelIdeal.Rg
open Idealize.ShloMosaic Idealize.ShloMosaic.TcCoe
open Idealize.ShloMosaic.Pipeline (Dat Cfg Window)

variable {F : FTy → Type} [FloatOps F]

-- the TensorCore's buffer contents when the region is entered
variable (V : (c : Dev nD) → (b : Ref sig .tc) → Buf (Elt F) ((c : Thread nD τ).loc b))

/-- The zero offsets of the whole-block rectangles, as a constant function. -/
theorem hz9 : (![0, 0] : Fin 2 → Nat) = fun _ => 0 := funext fun a => by fin_cases a <;> rfl

/-- The printed index maps, decided over the grid: every window's block index is 0 on both axes at every point. -/
theorem idx9 : ∀ t : Fin cfg9.N,
    win9_0.index t (0 : Fin 2) = 0 ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0 :=
  (by decide +kernel : ∀ t : Fin grid9.N, _)

/-- An element of window 0's block has, in the array, the coordinates it has in the block (index × size + coordinate, at index 0). -/
theorem emb9_0 (t : Fin cfg9.N) (y : S64x128.Idx) : ((cfg9.win 0).blk t).view.emb y = y := by
  obtain ⟨e0, e1, -⟩ := idx9 t
  funext a; apply Fin.ext
  match a with
  | ⟨0, _⟩ => show win9_0.index t (0 : Fin 2) * 64 + 1 * (y 0).val = (y 0).val; omega
  | ⟨1, _⟩ => show win9_0.index t (1 : Fin 2) * 128 + 1 * (y 1).val = (y 1).val; omega

/-- An element of window 1's block has, in the array, the coordinates it has in the block (index × size + coordinate, at index 0). -/
theorem emb9_1 (t : Fin cfg9.N) (y : S128x2.Idx) : ((cfg9.win 1).blk t).view.emb y = y := by
  obtain ⟨-, -, e0, e1, -⟩ := idx9 t
  funext a; apply Fin.ext
  match a with
  | ⟨0, _⟩ => show win9_1.index t (0 : Fin 2) * 128 + 1 * (y 0).val = (y 0).val; omega
  | ⟨1, _⟩ => show win9_1.index t (1 : Fin 2) * 2 + 1 * (y 1).val = (y 1).val; omega

/-- An element of window 2's block has, in the array, the coordinates it has in the block (index × size + coordinate, at index 0). -/
theorem emb9_2 (t : Fin cfg9.N) (y : S1x2.Idx) : ((cfg9.win 2).blk t).view.emb y = y := by
  obtain ⟨-, -, -, -, e0, e1, -⟩ := idx9 t
  funext a; apply Fin.ext
  match a with
  | ⟨0, _⟩ => show win9_2.index t (0 : Fin 2) * 1 + 1 * (y 0).val = (y 0).val; omega
  | ⟨1, _⟩ => show win9_2.index t (1 : Fin 2) * 2 + 1 * (y 1).val = (y 1).val; omega

/-- An element of window 3's block has, in the array, the coordinates it has in the block (index × size + coordinate, at index 0). -/
theorem emb9_3 (t : Fin cfg9.N) (y : S64x2.Idx) : ((cfg9.win 3).blk t).view.emb y = y := by
  obtain ⟨-, -, -, -, -, -, e0, e1⟩ := idx9 t
  funext a; apply Fin.ext
  match a with
  | ⟨0, _⟩ => show win9_3.index t (0 : Fin 2) * 64 + 1 * (y 0).val = (y 0).val; omega
  | ⟨1, _⟩ => show win9_3.index t (1 : Fin 2) * 2 + 1 * (y 1).val = (y 1).val; omega

/-- Input window 0's block at the point is its whole array. -/
theorem iblk9_0_eq (c : Dev nD) (t : Fin cfg9.N) : iblk9 V c 0 t = (V c main_v265 : S64x128.Idx → Elt F .bf16) := by
  funext y
  show V c main_v265 (((cfg9.win 0).blk t).view.emb y) = V c main_v265 y
  rw [emb9_0]

/-- Input window 1's block at the point is its whole array. -/
theorem iblk9_1_eq (c : Dev nD) (t : Fin cfg9.N) : iblk9 V c 1 t = (V c main_v266 : S128x2.Idx → Elt F .bf16) := by
  funext y
  show V c main_v266 (((cfg9.win 1).blk t).view.emb y) = V c main_v266 y
  rw [emb9_1]

/-- Input window 2's block at the point is its whole array. -/
theorem iblk9_2_eq (c : Dev nD) (t : Fin cfg9.N) : iblk9 V c 2 t = (V c main_v267 : S1x2.Idx → Elt F .f32) := by
  funext y
  show V c main_v267 (((cfg9.win 2).blk t).view.emb y) = V c main_v267 y
  rw [emb9_2]

/-- WHAT THE POINT WRITES BACK is the layer's payload of the three operand arrays — which is also the (whole) block of that payload
    the point's rectangle names. -/
theorem flushed9_eq (c : Dev nD) (t : Fin cfg9.N) :
    (dat9 V c).flushed 3 t = ((cfg9.win 3).blk t).view.read (Elt F) (k9_pay1 (V c main_v265) (V c main_v266) (V c main_v267) : S64x2.Idx → Elt F .f32) := by
  show (cfg9.win 3).cut (grid9.coords t) ((dat9 V c).after 3 t) = _
  rw [after9_3]
  unfold out9_3
  rw [View.canon_unit_zero hz9]
  simp only [View.ld_unit_zero (S := S64x128) hz9, View.ld_unit_zero (S := S128x2) hz9, View.ld_unit_zero (S := S1x2) hz9]
  rw [iblk9_0_eq, iblk9_1_eq, iblk9_2_eq]
  funext y
  show k9_pay1 (V c main_v265) (V c main_v266) (V c main_v267) y = k9_pay1 (V c main_v265) (V c main_v266) (V c main_v267) (((cfg9.win 3).blk t).view.emb y)
  rw [emb9_3]

/-- The one point's block covers the output array. -/
theorem cover9 (i : S64x2.Idx) : ∃ t : Fin cfg9.N, (cfg9.win 3).flush t = true ∧ i ∈ ((cfg9.win 3).blk t).view.set := by
  refine ⟨t9_0, flush9_3 t9_0, ?_⟩
  rw [← emb9_3 t9_0 i]
  exact ((cfg9.win 3).blk t9_0).view.emb_mem_set i

/-- THE OUTPUT ARRAY after the region: the layer's payload of the operand arrays as the region finds them. -/
theorem final9 (c : Dev nD) :
    (dat9 V c).arrAt 3 cfg9.N = (k9_pay1 (V c main_v265) (V c main_v266) (V c main_v267) : S64x2.Idx → Elt F .f32) :=
  (dat9 V c).arrAt_eq_of_cover 3 _ (fun t _ => flushed9_eq V c t) cover9

end Cert.KernelIdeal.Fin

end
-- ==== Proof.KIHost0.lean ====
/-
  What the host stretches 0 … 4 of the idealized kernel's @main leave in the buffers the first five dense layers read,
  over any contents the stretch is entered from: one equation per buffer, the right side the stretch's own operations
  applied as printed.
-/
import proofs.«161272_j16312285791078_1_alg».proof.Proof.Gen.KernelIdeal.Launch
import Idealize.ShloMosaic.Lib.StableHlo.Run
import Idealize.ShloMosaic.PureOps.Ideal

set_option maxRecDepth 2180

noncomputable section

namespace Cert.KernelIdeal.HostRead

open Idealize.ShloMosaic Idealize.ShloMosaic.TcCoe
open Cert.KernelIdeal Cert.KernelIdeal.Gen

/-! Stretches 0–3: each region's two matrix operands are the entry arrays rounded to bf16 (the identity at the
    extended reals), and its bias the entry vector viewed as one row. -/

theorem read0_main_v0 (V : Valuation τ sig (Elt Ideal)) :
    StableHlo.after (hostOps0 (F := Ideal)) V (Proc.devRef .tc main_v0)
      = truncf (F := Ideal) (s := S64x18640) (φ := .f32) .bf16 (V (Proc.devRef .tc main_arg0)) bitsLt_bf16_f32 := by
  after_results_simp

theorem read0_main_v1 (V : Valuation τ sig (Elt Ideal)) :
    StableHlo.after (hostOps0 (F := Ideal)) V (Proc.devRef .tc main_v1)
      = truncf (F := Ideal) (s := S18640x128) (φ := .f32) .bf16 (V (Proc.devRef .tc main_arg8)) bitsLt_bf16_f32 := by
  after_results_simp

theorem read0_main_v2 (V : Valuation τ sig (Elt Ideal)) :
    StableHlo.after (hostOps0 (F := Ideal)) V (Proc.devRef .tc main_v2)
      = shapeCast S1x128 (V (Proc.devRef .tc main_arg9)) shapeCasts_S128_S1x128 := by
  after_results_simp
  rfl

theorem read1_main_v4 (V : Valuation τ sig (Elt Ideal)) :
    StableHlo.after (hostOps1 (F := Ideal)) V (Proc.devRef .tc main_v4)
      = truncf (F := Ideal) (s := S64x128) (φ := .f32) .bf16 (V (Proc.devRef .tc main_v3)) bitsLt_bf16_f32 := by
  after_results_simp

theorem read1_main_v5 (V : Valuation τ sig (Elt Ideal)) :
    StableHlo.after (hostOps1 (F := Ideal)) V (Proc.devRef .tc main_v5)
      = truncf (F := Ideal) (s := S128x128) (φ := .f32) .bf16 (V (Proc.devRef .tc main_arg10)) bitsLt_bf16_f32 := by
  after_results_simp

theorem read1_main_v6 (V : Valuation τ sig (Elt Ideal)) :
    StableHlo.after (hostOps1 (F := Ideal)) V (Proc.devRef .tc main_v6)
      = shapeCast S1x128 (V (Proc.devRef .tc main_arg11)) shapeCasts_S128_S1x128 := by
  after_results_simp
  rfl

theorem read2_main_v8 (V : Valuation τ sig (Elt Ideal)) :
    StableHlo.after (hostOps2 (F := Ideal)) V (Proc.devRef .tc main_v8)
      = truncf (F := Ideal) (s := S64x21) (φ := .f32) .bf16 (V (Proc.devRef .tc main_arg1)) bitsLt_bf16_f32 := by
  after_results_simp

theorem read2_main_v9 (V : Valuation τ sig (Elt Ideal)) :
    StableHlo.after (hostOps2 (F := Ideal)) V (Proc.devRef .tc main_v9)
      = truncf (F := Ideal) (s := S21x64) (φ := .f32) .bf16 (V (Proc.devRef .tc main_arg12)) bitsLt_bf16_f32 := by
  after_results_simp

theorem read2_main_v10 (V : Valuation τ sig (Elt Ideal)) :
    StableHlo.after (hostOps2 (F := Ideal)) V (Proc.devRef .tc main_v10)
      = shapeCast S1x64 (V (Proc.devRef .tc main_arg13)) shapeCasts_S64_S1x64 := by
  after_results_simp
  rfl

theorem read3_main_v12 (V : Valuation τ sig (Elt Ideal)) :
    StableHlo.after (hostOps3 (F := Ideal)) V (Proc.devRef .tc main_v12)
      = truncf (F := Ideal) (s := S64x64) (φ := .f32) .bf16 (V (Proc.devRef .tc main_v11)) bitsLt_bf16_f32 := by
  after_results_simp

theorem read3_main_v13 (V : Valuation τ sig (Elt Ideal)) :
    StableHlo.after (hostOps3 (F := Ideal)) V (Proc.devRef .tc main_v13)
      = truncf (F := Ideal) (s := S64x64) (φ := .f32) .bf16 (V (Proc.devRef .tc main_arg14)) bitsLt_bf16_f32 := by
  after_results_simp

theorem read3_main_v14 (V : Valuation τ sig (Elt Ideal)) :
    StableHlo.after (hostOps3 (F := Ideal)) V (Proc.devRef .tc main_v14)
      = shapeCast S1x64 (V (Proc.devRef .tc main_arg15)) shapeCasts_S64_S1x64 := by
  after_results_simp
  rfl

/-! Stretch 4: the first graph layer's operands; its bias is the zero vector, one row. -/

theorem read4_main_v17 (V : Valuation τ sig (Elt Ideal)) :
    StableHlo.after (hostOps4 (F := Ideal)) V (Proc.devRef .tc main_v17)
      = truncf (F := Ideal) (s := S100000x9) (φ := .f32) .bf16 (V (Proc.devRef .tc main_arg2)) bitsLt_bf16_f32 := by
  after_results_simp

theorem read4_main_v18 (V : Valuation τ sig (Elt Ideal)) :
    StableHlo.after (hostOps4 (F := Ideal)) V (Proc.devRef .tc main_v18)
      = truncf (F := Ideal) (s := S9x128) (φ := .f32) .bf16 (V (Proc.devRef .tc main_arg16)) bitsLt_bf16_f32 := by
  after_results_simp

theorem read4_main_v19 (V : Valuation τ sig (Elt Ideal)) :
    StableHlo.after (hostOps4 (F := Ideal)) V (Proc.devRef .tc main_v19)
      = shapeCast S1x128 (broadcastInDim S128 ![] bcast_S_S128 (constant (F := Ideal) S_ .f32 0x00000000#32)) shapeCasts_S128_S1x128 := by
  after_results_simp
  rfl

end Cert.KernelIdeal.HostRead
-- ==== Proof.KIHostFn.lean ====
/-
  The host-side computations of the idealized kernel's @main between its dense layers, named as pure functions of the
  arrays they read: a graph-convolution layer (edge lists with self loops, degrees, symmetric normalization, weighted
  aggregation, bias, relu) at the two graph sizes, and the mean pooling. Each body is the host operations' own functions
  composed as printed, at the extended reals.
-/
import proofs.«161272_j16312285791078_1_alg».proof.Proof.Gen.KernelIdeal.Launch
import Idealize.ShloMosaic.Lib.StableHlo.Run
import Idealize.ShloMosaic.PureOps.Ideal

set_option maxRecDepth 2180

noncomputable section

namespace Cert.KernelIdeal.HostFn

open Idealize.ShloMosaic Idealize.ShloMosaic.TcCoe
open Cert.KernelIdeal Cert.KernelIdeal.Gen

/-- Contents of a 32-bit integer, a float32, a bf16 and a one-bit array of shape `s`, at the extended reals. -/
abbrev I32 (s : Shape) : Type := (⟨s, .i32⟩ : BufTy).Contents (Elt Ideal)
abbrev F32 (s : Shape) : Type := (⟨s, .f32⟩ : BufTy).Contents (Elt Ideal)
abbrev BF16 (s : Shape) : Type := (⟨s, .bf16⟩ : BufTy).Contents (Elt Ideal)
abbrev I1 (s : Shape) : Type := (⟨s, .i1⟩ : BufTy).Contents (Elt Ideal)

/-! ### One graph-convolution layer on 100000 nodes and 1600000 edges, as the host operations compute it -/

/-- An edge-index row followed by the node numbers (the self loops). -/
def catB (a : I32 S1600000) (b : I32 S100000) : I32 S1700000 :=
  concatenate S1700000 0 [⟨S1600000, a⟩, ⟨S100000, b⟩] concatenates_S1600000_S100000_S1700000_d0
/-- Row 0 of the edge index (the sources), with the self loops. -/
def edgeSrcB (e : I32 S2x1600000) : I32 S1700000 :=
  catB (shapeCast S1600000 (extractStridedSlice S1x1600000 ![0, 0] e slices_S2x1600000_S1x1600000_0_0) shapeCasts_S1x1600000_S1600000) (iotaInDim S100000 32 0)
/-- Row 1 of the edge index (the targets), with the self loops. -/
def edgeDstB (e : I32 S2x1600000) : I32 S1700000 :=
  catB (shapeCast S1600000 (extractStridedSlice S1x1600000 ![1, 0] e slices_S2x1600000_S1x1600000_1_0) shapeCasts_S1x1600000_S1600000) (iotaInDim S100000 32 0)
/-- The degree of each node: ones summed over the edges into their targets. -/
def degB (dst : I32 S1700000) : F32 S100000 :=
  Host.scatterAdd scatter_S100000_S1700000x1_S1700000_n_0_0_1
    (broadcastInDim S100000 ![] bcast_S_S100000 (constant (F := Ideal) S_ .f32 0x00000000#32))
    (broadcastInDim S1700000x1 ![0] bcast_S1700000_S1700000x1_0 dst)
    (broadcastInDim S1700000 ![] bcast_S_S1700000 (constant (F := Ideal) S_ .f32 0x3F800000#32))
/-- Whether the degree is positive. -/
def degPosB (dst : I32 S1700000) : I1 S100000 :=
  cmpf .ogt (degB dst) (broadcastInDim S100000 ![] bcast_S_S100000 (constant (F := Ideal) S_ .f32 0x00000000#32))
/-- The reciprocal square root of the degree, clamped below. -/
def degRsqrtB (dst : I32 S1700000) : F32 S100000 :=
  Host.rsqrt (maximumf (degB dst) (broadcastInDim S100000 ![] bcast_S_S100000 (constant (F := Ideal) S_ .f32 0x2B8CBCCC#32)))
/-- deg^(-1/2) where the degree is positive, else 0. -/
def dinvB (dst : I32 S1700000) : F32 S100000 :=
  select (degPosB dst) (degRsqrtB dst) (broadcastInDim S100000 ![] bcast_S_S100000 (constant (F := Ideal) S_ .f32 0x00000000#32))
/-- A node number made non-negative (a negative one counts from the end). -/
def wrapB (i : I32 S1700000) : I32 S1700000 :=
  select (cmpi .slt i (broadcastInDim S1700000 ![] bcast_S_S1700000 (constantI S_ 32 0#32)))
    (addi i (broadcastInDim S1700000 ![] bcast_S_S1700000 (constantI S_ 32 100000#32))) i
/-- A per-node vector read at each edge's node. -/
def atNodeB (d : F32 S100000) (i : I32 S1700000) : F32 S1700000 :=
  Host.gather gather_S100000_S1700000x1_S1700000_n_0_n_n_0_1_1 d (broadcastInDim S1700000x1 ![0] bcast_S1700000_S1700000x1_0 (wrapB i))
/-- The edge weights deg^(-1/2)[source] · deg^(-1/2)[target], as a column. -/
def edgeNormB (gs : F32 S1700000) (d : F32 S100000) (dst : I32 S1700000) : F32 S1700000x1 :=
  broadcastInDim S1700000x1 ![0] bcast_S1700000_S1700000x1_0 (mulf (F := Ideal) (s := S1700000) (φ := .f32) gs (atNodeB d dst))
/-- The weighted messages: each edge's source row times the edge's weight. -/
def msgsB (nb : F32 S1700000x1) (h : F32 S100000x128) (src : I32 S1700000) : F32 S1700000x128 :=
  mulf (F := Ideal) (s := S1700000x128) (φ := .f32) (broadcastInDim S1700000x128 ![0, 1] bcast_S1700000x1_S1700000x128_0_1 nb)
    (Host.gather gather_S100000x128_S1700000x1_S1700000x128_1_0_n_n_0_1_1128 h (broadcastInDim S1700000x1 ![0] bcast_S1700000_S1700000x1_0 (wrapB src)))
/-- The messages summed into their targets, plus the bias row. -/
def aggBiasB (m : F32 S1700000x128) (dst : I32 S1700000) (b : F32 S128) : F32 S100000x128 :=
  addf (Host.scatterAdd scatter_S100000x128_S1700000x1_S1700000x128_1_0_0_1
          (broadcastInDim S100000x128 ![] bcast_S_S100000x128 (constant (F := Ideal) S_ .f32 0x00000000#32))
          (broadcastInDim S1700000x1 ![0] bcast_S1700000_S1700000x1_0 dst) m)
    (broadcastInDim S100000x128 ![0, 1] bcast_S1x128_S100000x128_0_1 (broadcastInDim S1x128 ![1] bcast_S128_S1x128_1 b))
/-- max(·, 0). -/
def reluB (x : F32 S100000x128) : F32 S100000x128 :=
  maximumf x (broadcastInDim S100000x128 ![] bcast_S_S100000x128 (constant (F := Ideal) S_ .f32 0x00000000#32))
/-- The whole layer: normalized aggregation of the rows of `h` along the edges `e`, bias `b`, relu. -/
def gcnLayerB (h : F32 S100000x128) (e : I32 S2x1600000) (b : F32 S128) : F32 S100000x128 :=
  reluB (aggBiasB
    (msgsB (edgeNormB (atNodeB (dinvB (edgeDstB e)) (edgeSrcB e)) (dinvB (edgeDstB e)) (edgeDstB e)) h (edgeSrcB e))
    (edgeDstB e) b)

/-! ### One graph-convolution layer on 4096 nodes and 16384 edges, as the host operations compute it -/

/-- An edge-index row followed by the node numbers (the self loops). -/
def catS (a : I32 S16384) (b : I32 S4096) : I32 S20480 :=
  concatenate S20480 0 [⟨S16384, a⟩, ⟨S4096, b⟩] concatenates_S16384_S4096_S20480_d0
/-- Row 0 of the edge index (the sources), with the self loops. -/
def edgeSrcS (e : I32 S2x16384) : I32 S20480 :=
  catS (shapeCast S16384 (extractStridedSlice S1x16384 ![0, 0] e slices_S2x16384_S1x16384_0_0) shapeCasts_S1x16384_S16384) (iotaInDim S4096 32 0)
/-- Row 1 of the edge index (the targets), with the self loops. -/
def edgeDstS (e : I32 S2x16384) : I32 S20480 :=
  catS (shapeCast S16384 (extractStridedSlice S1x16384 ![1, 0] e slices_S2x16384_S1x16384_1_0) shapeCasts_S1x16384_S16384) (iotaInDim S4096 32 0)
/-- The degree of each node: ones summed over the edges into their targets. -/
def degS (dst : I32 S20480) : F32 S4096 :=
  Host.scatterAdd scatter_S4096_S20480x1_S20480_n_0_0_1
    (broadcastInDim S4096 ![] bcast_S_S4096 (constant (F := Ideal) S_ .f32 0x00000000#32))
    (broadcastInDim S20480x1 ![0] bcast_S20480_S20480x1_0 dst)
    (broadcastInDim S20480 ![] bcast_S_S20480 (constant (F := Ideal) S_ .f32 0x3F800000#32))
/-- Whether the degree is positive. -/
def degPosS (dst : I32 S20480) : I1 S4096 :=
  cmpf .ogt (degS dst) (broadcastInDim S4096 ![] bcast_S_S4096 (constant (F := Ideal) S_ .f32 0x00000000#32))
/-- The reciprocal square root of the degree, clamped below. -/
def degRsqrtS (dst : I32 S20480) : F32 S4096 :=
  Host.rsqrt (maximumf (degS dst) (broadcastInDim S4096 ![] bcast_S_S4096 (constant (F := Ideal) S_ .f32 0x2B8CBCCC#32)))
/-- deg^(-1/2) where the degree is positive, else 0. -/
def dinvS (dst : I32 S20480) : F32 S4096 :=
  select (degPosS dst) (degRsqrtS dst) (broadcastInDim S4096 ![] bcast_S_S4096 (constant (F := Ideal) S_ .f32 0x00000000#32))
/-- A node number made non-negative (a negative one counts from the end). -/
def wrapS (i : I32 S20480) : I32 S20480 :=
  select (cmpi .slt i (broadcastInDim S20480 ![] bcast_S_S20480 (constantI S_ 32 0#32)))
    (addi i (broadcastInDim S20480 ![] bcast_S_S20480 (constantI S_ 32 4096#32))) i
/-- A per-node vector read at each edge's node. -/
def atNodeS (d : F32 S4096) (i : I32 S20480) : F32 S20480 :=
  Host.gather gather_S4096_S20480x1_S20480_n_0_n_n_0_1_1 d (broadcastInDim S20480x1 ![0] bcast_S20480_S20480x1_0 (wrapS i))
/-- The edge weights deg^(-1/2)[source] · deg^(-1/2)[target], as a column. -/
def edgeNormS (gs : F32 S20480) (d : F32 S4096) (dst : I32 S20480) : F32 S20480x1 :=
  broadcastInDim S20480x1 ![0] bcast_S20480_S20480x1_0 (mulf (F := Ideal) (s := S20480) (φ := .f32) gs (atNodeS d dst))
/-- The weighted messages: each edge's source row times the edge's weight. -/
def msgsS (nb : F32 S20480x1) (h : F32 S4096x128) (src : I32 S20480) : F32 S20480x128 :=
  mulf (F := Ideal) (s := S20480x128) (φ := .f32) (broadcastInDim S20480x128 ![0, 1] bcast_S20480x1_S20480x128_0_1 nb)
    (Host.gather gather_S4096x128_S20480x1_S20480x128_1_0_n_n_0_1_1128 h (broadcastInDim S20480x1 ![0] bcast_S20480_S20480x1_0 (wrapS src)))
/-- The messages summed into their targets, plus the bias row. -/
def aggBiasS (m : F32 S20480x128) (dst : I32 S20480) (b : F32 S128) : F32 S4096x128 :=
  addf (Host.scatterAdd scatter_S4096x128_S20480x1_S20480x128_1_0_0_1
          (broadcastInDim S4096x128 ![] bcast_S_S4096x128 (constant (F := Ideal) S_ .f32 0x00000000#32))
          (broadcastInDim S20480x1 ![0] bcast_S20480_S20480x1_0 dst) m)
    (broadcastInDim S4096x128 ![0, 1] bcast_S1x128_S4096x128_0_1 (broadcastInDim S1x128 ![1] bcast_S128_S1x128_1 b))
/-- max(·, 0). -/
def reluS (x : F32 S4096x128) : F32 S4096x128 :=
  maximumf x (broadcastInDim S4096x128 ![] bcast_S_S4096x128 (constant (F := Ideal) S_ .f32 0x00000000#32))
/-- The whole layer: normalized aggregation of the rows of `h` along the edges `e`, bias `b`, relu. -/
def gcnLayerS (h : F32 S4096x128) (e : I32 S2x16384) (b : F32 S128) : F32 S4096x128 :=
  reluS (aggBiasS
    (msgsS (edgeNormS (atNodeS (dinvS (edgeDstS e)) (edgeSrcS e)) (dinvS (edgeDstS e)) (edgeDstS e)) h (edgeSrcS e))
    (edgeDstS e) b)

/-! ### Mean pooling over the batch, and the concatenation of the four feature blocks -/

/-- The mean of the rows of `x` over each of the 64 graphs of the batch (`batch` numbers each node's graph): the segment
    sum divided by the segment size, at least 1. -/
def meanPoolB (x : F32 S100000x128) (batch : I32 S100000) : F32 S64x128 :=
  Host.divf (F := Ideal)
    (Host.scatterAdd scatter_S64x128_S100000x1_S100000x128_1_0_0_1
      (broadcastInDim S64x128 ![] bcast_S_S64x128 (constant (F := Ideal) S_ .f32 0x00000000#32))
      (broadcastInDim S100000x1 ![0] bcast_S100000_S100000x1_0 batch) x)
    (broadcastInDim S64x128 ![0, 1] bcast_S64x1_S64x128_0_1
      (broadcastInDim S64x1 ![0] bcast_S64_S64x1_0
        (maximumf (F := Ideal) (s := S64) (φ := .f32)
          (Host.scatterAdd scatter_S64_S100000x1_S100000_n_0_0_1
            (broadcastInDim S64 ![] bcast_S_S64 (constant (F := Ideal) S_ .f32 0x00000000#32))
            (broadcastInDim S100000x1 ![0] bcast_S100000_S100000x1_0 batch)
            (broadcastInDim S100000 ![] bcast_S_S100000 (constant (F := Ideal) S_ .f32 0x3F800000#32)))
          (broadcastInDim S64 ![] bcast_S_S64 (constant (F := Ideal) S_ .f32 0x3F800000#32)))))

/-- The mean of the rows of `x` over each of the 64 graphs of the batch (`batch` numbers each node's graph): the segment
    sum divided by the segment size, at least 1. -/
def meanPoolS (x : F32 S4096x128) (batch : I32 S4096) : F32 S64x128 :=
  Host.divf (F := Ideal)
    (Host.scatterAdd scatter_S64x128_S4096x1_S4096x128_1_0_0_1
      (broadcastInDim S64x128 ![] bcast_S_S64x128 (constant (F := Ideal) S_ .f32 0x00000000#32))
      (broadcastInDim S4096x1 ![0] bcast_S4096_S4096x1_0 batch) x)
    (broadcastInDim S64x128 ![0, 1] bcast_S64x1_S64x128_0_1
      (broadcastInDim S64x1 ![0] bcast_S64_S64x1_0
        (maximumf (F := Ideal) (s := S64) (φ := .f32)
          (Host.scatterAdd scatter_S64_S4096x1_S4096_n_0_0_1
            (broadcastInDim S64 ![] bcast_S_S64 (constant (F := Ideal) S_ .f32 0x00000000#32))
            (broadcastInDim S4096x1 ![0] bcast_S4096_S4096x1_0 batch)
            (broadcastInDim S4096 ![] bcast_S_S4096 (constant (F := Ideal) S_ .f32 0x3F800000#32)))
          (broadcastInDim S64 ![] bcast_S_S64 (constant (F := Ideal) S_ .f32 0x3F800000#32)))))

/-- The four feature blocks side by side. -/
def cat4 (a : F32 S64x128) (b : F32 S64x64) (c : F32 S64x128) (d : F32 S64x128) : F32 S64x448 :=
  concatenate S64x448 1 [⟨S64x128, a⟩, ⟨S64x64, b⟩, ⟨S64x128, c⟩, ⟨S64x128, d⟩] concatenates_S64x128_S64x64_S64x128_S64x128_S64x448_d1

end Cert.KernelIdeal.HostFn

namespace Cert.KernelIdeal.HostRead

open Idealize.ShloMosaic Idealize.ShloMosaic.TcCoe
open Cert.KernelIdeal Cert.KernelIdeal.Gen

/-- Two lines of operations run one after the other. -/
theorem after_app {Val : EltTy → Type} : ∀ (l₁ l₂ : List (HloOp τ sig Val)) (V : Valuation τ sig Val),
    StableHlo.after (l₁ ++ l₂) V = StableHlo.after l₂ (StableHlo.after l₁ V)
  | [], _, _ => rfl
  | op :: l₁, l₂, V => by rw [List.cons_append, StableHlo.after_cons, StableHlo.after_cons, after_app l₁ l₂]

/-- A line of operations run from `V` is its first `n` run from `V`, then the rest run from what those leave. -/
theorem after_split {Val : EltTy → Type} (n : Nat) (l : List (HloOp τ sig Val)) (V : Valuation τ sig Val) :
    StableHlo.after l V = StableHlo.after (l.drop n) (StableHlo.after (l.take n) V) := by
  rw [← after_app, List.take_append_drop]

end Cert.KernelIdeal.HostRead
-- ==== Proof.KIHost8.lean ====
/-
  What the host stretches 8 … 8_4 of the idealized kernel's @main — the second graph-convolution layer on the small graph, the mean pooling over the batch, the concatenation of the four feature blocks, and the next dense layer's operand conversions — leave in the buffers later items read, over any
  contents the stretches are entered from. The stretches are read in pieces (the pieces after each concatenation
  separately), each piece over variable contents, and the pieces are joined by substituting what the earlier piece leaves
  for the later piece's inputs.
-/
import proofs.«161272_j16312285791078_1_alg».proof.Proof.KIHostFn

set_option maxRecDepth 2180

noncomputable section

namespace Cert.KernelIdeal.HostRead

open Idealize.ShloMosaic Idealize.ShloMosaic.TcCoe
open Cert.KernelIdeal Cert.KernelIdeal.Gen Cert.KernelIdeal.HostFn

/-! ## Stretch 8: the edge lists, the degrees -/

theorem s8A_r0 (W : Valuation τ sig (Elt Ideal)) (e : I32 S2x16384) (he : W (Proc.devRef .tc main_arg6) = e) :
    StableHlo.after (List.take 3 (hostOps8 (F := Ideal))) W (Proc.devRef .tc main_v199) = shapeCast S16384 (extractStridedSlice S1x16384 ![0, 0] e slices_S2x16384_S1x16384_0_0) shapeCasts_S1x16384_S16384 := by
  subst he
  simp only [hostOps8, hostOps8_2, List.take_succ_cons, List.take_zero, List.drop_succ_cons, List.drop_zero]
  after_results_simp <;> (try rfl)

theorem s8A_i0 (W : Valuation τ sig (Elt Ideal))  :
    StableHlo.after (List.take 3 (hostOps8 (F := Ideal))) W (Proc.devRef .tc main_v200) = iotaInDim S4096 32 0 := by
  simp only [hostOps8, hostOps8_2, List.take_succ_cons, List.take_zero, List.drop_succ_cons, List.drop_zero]
  after_results_simp <;> (try rfl)

/-- What these operations leave alone: every buffer they do not write. -/
theorem s8A_fr (W : Valuation τ sig (Elt Ideal)) (r : Ref sig .tc) (hr : r ∉ ([main_v198, main_v199, main_v200] : List (Ref sig .tc))) :
    StableHlo.after (List.take 3 (hostOps8 (F := Ideal))) W (Proc.devRef .tc r) = W (Proc.devRef .tc r) :=
  StableHlo.after_of_writes_sub _ W (W := [main_v198, main_v199, main_v200]) (by
    simp only [hostOps8, hostOps8_2, List.take_succ_cons, List.take_zero, List.drop_succ_cons, List.drop_zero]
    simp only [List.Forall]
    refine ⟨?_, ?_, ?_⟩ <;> (simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide))) hr

theorem s8B_src (W : Valuation τ sig (Elt Ideal)) (a : I32 S16384) (b : I32 S4096) (ha : W (Proc.devRef .tc main_v199) = a) (hb : W (Proc.devRef .tc main_v200) = b) :
    StableHlo.after (List.take 4 (List.drop 3 (hostOps8 (F := Ideal)))) W (Proc.devRef .tc main_v201) = catS a b := by
  subst ha; subst hb
  simp only [hostOps8, hostOps8_2, List.take_succ_cons, List.take_zero, List.drop_succ_cons, List.drop_zero]
  after_results_simp <;> (try rfl)

theorem s8B_r1 (W : Valuation τ sig (Elt Ideal)) (e : I32 S2x16384) (he : W (Proc.devRef .tc main_arg6) = e) :
    StableHlo.after (List.take 4 (List.drop 3 (hostOps8 (F := Ideal)))) W (Proc.devRef .tc main_v203) = shapeCast S16384 (extractStridedSlice S1x16384 ![1, 0] e slices_S2x16384_S1x16384_1_0) shapeCasts_S1x16384_S16384 := by
  subst he
  simp only [hostOps8, hostOps8_2, List.take_succ_cons, List.take_zero, List.drop_succ_cons, List.drop_zero]
  after_results_simp <;> (try rfl)

theorem s8B_i1 (W : Valuation τ sig (Elt Ideal))  :
    StableHlo.after (List.take 4 (List.drop 3 (hostOps8 (F := Ideal)))) W (Proc.devRef .tc main_v204) = iotaInDim S4096 32 0 := by
  simp only [hostOps8, hostOps8_2, List.take_succ_cons, List.take_zero, List.drop_succ_cons, List.drop_zero]
  after_results_simp <;> (try rfl)

theorem s8C_dst (W : Valuation τ sig (Elt Ideal)) (a : I32 S16384) (b : I32 S4096) (ha : W (Proc.devRef .tc main_v203) = a) (hb : W (Proc.devRef .tc main_v204) = b) :
    StableHlo.after (List.drop 4 (List.drop 3 (hostOps8 (F := Ideal)))) W (Proc.devRef .tc main_v205) = catS a b := by
  subst ha; subst hb
  simp only [hostOps8, hostOps8_2, List.take_succ_cons, List.take_zero, List.drop_succ_cons, List.drop_zero]
  after_results_simp <;> (try rfl)

theorem s8C_gt (W : Valuation τ sig (Elt Ideal)) (a : I32 S16384) (b : I32 S4096) (ha : W (Proc.devRef .tc main_v203) = a) (hb : W (Proc.devRef .tc main_v204) = b) :
    StableHlo.after (List.drop 4 (List.drop 3 (hostOps8 (F := Ideal)))) W (Proc.devRef .tc main_v211) = degPosS (catS a b) := by
  subst ha; subst hb
  simp only [hostOps8, hostOps8_2, List.take_succ_cons, List.take_zero, List.drop_succ_cons, List.drop_zero]
  after_results_simp <;> (try rfl)

theorem s8C_rs (W : Valuation τ sig (Elt Ideal)) (a : I32 S16384) (b : I32 S4096) (ha : W (Proc.devRef .tc main_v203) = a) (hb : W (Proc.devRef .tc main_v204) = b) :
    StableHlo.after (List.drop 4 (List.drop 3 (hostOps8 (F := Ideal)))) W (Proc.devRef .tc main_v214) = degRsqrtS (catS a b) := by
  subst ha; subst hb
  simp only [hostOps8, hostOps8_2, List.take_succ_cons, List.take_zero, List.drop_succ_cons, List.drop_zero]
  after_results_simp <;> (try rfl)

theorem s8C_cw (W : Valuation τ sig (Elt Ideal))  :
    StableHlo.after (List.drop 4 (List.drop 3 (hostOps8 (F := Ideal)))) W (Proc.devRef .tc main_cst_46) = constant (F := Ideal) S_ .f32 0x00000000#32 := by
  simp only [hostOps8, hostOps8_2, List.take_succ_cons, List.take_zero, List.drop_succ_cons, List.drop_zero]
  after_results_simp <;> (try rfl)

/-- What these operations leave alone: every buffer they do not write. -/
theorem s8C_fr (W : Valuation τ sig (Elt Ideal)) (r : Ref sig .tc) (hr : r ∉ ([main_v205, main_cst_42, main_v206, main_cst_43, main_v207, main_v208, main_v209, main_cst_44, main_v210, main_v211, main_cst_45, main_v212, main_v213, main_v214, main_cst_46] : List (Ref sig .tc))) :
    StableHlo.after (List.drop 4 (List.drop 3 (hostOps8 (F := Ideal)))) W (Proc.devRef .tc r) = W (Proc.devRef .tc r) :=
  StableHlo.after_of_writes_sub _ W (W := [main_v205, main_cst_42, main_v206, main_cst_43, main_v207, main_v208, main_v209, main_cst_44, main_v210, main_v211, main_cst_45, main_v212, main_v213, main_v214, main_cst_46]) (by
    simp only [hostOps8, hostOps8_2, List.take_succ_cons, List.take_zero, List.drop_succ_cons, List.drop_zero]
    simp only [List.Forall]
    refine ⟨?_, ?_, ?_, ?_, ?_, ?_, ?_, ?_, ?_, ?_, ?_, ?_, ?_, ?_, ?_⟩ <;> (simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide))) hr

/-- After stretch 8: the sources with the self loops. -/
theorem rd8_src (V : Valuation τ sig (Elt Ideal)) : StableHlo.after (hostOps8 (F := Ideal)) V (Proc.devRef .tc main_v201) = edgeSrcS (V (Proc.devRef .tc main_arg6)) := by
  rw [after_split 3 (hostOps8 (F := Ideal)), after_split 4 (List.drop 3 (hostOps8 (F := Ideal)))]
  exact (s8C_fr _ main_v201 (by decide)).trans (s8B_src _ _ _ (s8A_r0 V _ rfl) (s8A_i0 V))
/-- After stretch 8: the targets with the self loops. -/
theorem rd8_dst (V : Valuation τ sig (Elt Ideal)) : StableHlo.after (hostOps8 (F := Ideal)) V (Proc.devRef .tc main_v205) = edgeDstS (V (Proc.devRef .tc main_arg6)) := by
  rw [after_split 3 (hostOps8 (F := Ideal)), after_split 4 (List.drop 3 (hostOps8 (F := Ideal)))]
  exact s8C_dst _ _ _ (s8B_r1 _ _ (s8A_fr V main_arg6 (by decide))) (s8B_i1 _)
theorem rd8_gt (V : Valuation τ sig (Elt Ideal)) : StableHlo.after (hostOps8 (F := Ideal)) V (Proc.devRef .tc main_v211) = degPosS (edgeDstS (V (Proc.devRef .tc main_arg6))) := by
  rw [after_split 3 (hostOps8 (F := Ideal)), after_split 4 (List.drop 3 (hostOps8 (F := Ideal)))]
  exact s8C_gt _ _ _ (s8B_r1 _ _ (s8A_fr V main_arg6 (by decide))) (s8B_i1 _)
theorem rd8_rs (V : Valuation τ sig (Elt Ideal)) : StableHlo.after (hostOps8 (F := Ideal)) V (Proc.devRef .tc main_v214) = degRsqrtS (edgeDstS (V (Proc.devRef .tc main_arg6))) := by
  rw [after_split 3 (hostOps8 (F := Ideal)), after_split 4 (List.drop 3 (hostOps8 (F := Ideal)))]
  exact s8C_rs _ _ _ (s8B_r1 _ _ (s8A_fr V main_arg6 (by decide))) (s8B_i1 _)
theorem rd8_cw (V : Valuation τ sig (Elt Ideal)) : StableHlo.after (hostOps8 (F := Ideal)) V (Proc.devRef .tc main_cst_46) = constant (F := Ideal) S_ .f32 0x00000000#32 := by
  rw [after_split 3 (hostOps8 (F := Ideal)), after_split 4 (List.drop 3 (hostOps8 (F := Ideal)))]
  exact s8C_cw _

/-- What these operations leave alone: every buffer they do not write. -/
theorem fr8_0 (W : Valuation τ sig (Elt Ideal)) (r : Ref sig .tc) (hr : r ∉ ([main_v198, main_v199, main_v200, main_v201, main_v202, main_v203, main_v204, main_v205, main_cst_42, main_v206, main_cst_43, main_v207, main_v208, main_v209, main_cst_44, main_v210, main_v211, main_cst_45, main_v212, main_v213, main_v214, main_cst_46] : List (Ref sig .tc))) :
    StableHlo.after (hostOps8 (F := Ideal)) W (Proc.devRef .tc r) = W (Proc.devRef .tc r) :=
  StableHlo.after_of_writes_sub _ W (W := [main_v198, main_v199, main_v200, main_v201, main_v202, main_v203, main_v204, main_v205, main_cst_42, main_v206, main_cst_43, main_v207, main_v208, main_v209, main_cst_44, main_v210, main_v211, main_cst_45, main_v212, main_v213, main_v214, main_cst_46]) (by
    simp only [List.Forall]
    refine ⟨?_, ?_, ?_, ?_, ?_, ?_, ?_, ?_, ?_, ?_, ?_, ?_, ?_, ?_, ?_, ?_, ?_, ?_, ?_, ?_, ?_, ?_⟩ <;> (simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide))) hr

/-! ## Stretch 8_1: deg^(-1/2), zero where the degree is zero -/

theorem rd8_1_dinv (W : Valuation τ sig (Elt Ideal)) (g : I1 S4096) (r : F32 S4096) (c : F32 S_) (hg : W (Proc.devRef .tc main_v211) = g) (hr : W (Proc.devRef .tc main_v214) = r) (hc : W (Proc.devRef .tc main_cst_46) = c) :
    StableHlo.after (hostOps8_1 (F := Ideal)) W (Proc.devRef .tc main_v215) = select g r (broadcastInDim S4096 ![] bcast_S_S4096 c) := by
  subst hg; subst hr; subst hc
  after_results_simp <;> (try simp only [StableHlo.TRef.toBuf, StableHlo.TRef.ofBuf, cast_eq, id]) <;> (try rfl)

/-- What these operations leave alone: every buffer they do not write. -/
theorem fr8_1 (W : Valuation τ sig (Elt Ideal)) (r : Ref sig .tc) (hr : r ∉ ([main_call6_v0, main_call6_v1, main_v215] : List (Ref sig .tc))) :
    StableHlo.after (hostOps8_1 (F := Ideal)) W (Proc.devRef .tc r) = W (Proc.devRef .tc r) :=
  StableHlo.after_of_writes_sub _ W (W := [main_call6_v0, main_call6_v1, main_v215]) (by
    simp only [List.Forall]
    refine ⟨?_, ?_, ?_⟩ <;> (simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide))) hr

/-! ## Stretch 8_2: the weighted messages summed into their targets, plus the bias -/

theorem s8D_g1 (W : Valuation τ sig (Elt Ideal)) (d : F32 S4096) (s : I32 S20480) (hd : W (Proc.devRef .tc main_v215) = d) (hs : W (Proc.devRef .tc main_v201) = s) :
    StableHlo.after (List.take 9 (hostOps8_2 (F := Ideal))) W (Proc.devRef .tc main_v222) = atNodeS d s := by
  subst hd; subst hs
  simp only [hostOps8, hostOps8_2, List.take_succ_cons, List.take_zero, List.drop_succ_cons, List.drop_zero]
  after_results_simp <;> (try rfl)

/-- What these operations leave alone: every buffer they do not write. -/
theorem s8D_fr (W : Valuation τ sig (Elt Ideal)) (r : Ref sig .tc) (hr : r ∉ ([main_c_47, main_v216, main_v217, main_c_48, main_v218, main_v219, main_v220, main_v221, main_v222] : List (Ref sig .tc))) :
    StableHlo.after (List.take 9 (hostOps8_2 (F := Ideal))) W (Proc.devRef .tc r) = W (Proc.devRef .tc r) :=
  StableHlo.after_of_writes_sub _ W (W := [main_c_47, main_v216, main_v217, main_c_48, main_v218, main_v219, main_v220, main_v221, main_v222]) (by
    simp only [hostOps8, hostOps8_2, List.take_succ_cons, List.take_zero, List.drop_succ_cons, List.drop_zero]
    simp only [List.Forall]
    refine ⟨?_, ?_, ?_, ?_, ?_, ?_, ?_, ?_, ?_⟩ <;> (simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide))) hr

theorem s8E_nb (W : Valuation τ sig (Elt Ideal)) (g : F32 S20480) (d : F32 S4096) (t : I32 S20480) (hg : W (Proc.devRef .tc main_v222) = g) (hd : W (Proc.devRef .tc main_v215) = d) (ht : W (Proc.devRef .tc main_v205) = t) :
    StableHlo.after (List.take 11 (List.drop 9 (hostOps8_2 (F := Ideal)))) W (Proc.devRef .tc main_v231) = edgeNormS g d t := by
  subst hg; subst hd; subst ht
  simp only [hostOps8, hostOps8_2, List.take_succ_cons, List.take_zero, List.drop_succ_cons, List.drop_zero]
  after_results_simp <;> (try rfl)

/-- What these operations leave alone: every buffer they do not write. -/
theorem s8E_fr (W : Valuation τ sig (Elt Ideal)) (r : Ref sig .tc) (hr : r ∉ ([main_c_49, main_v223, main_v224, main_c_50, main_v225, main_v226, main_v227, main_v228, main_v229, main_v230, main_v231] : List (Ref sig .tc))) :
    StableHlo.after (List.take 11 (List.drop 9 (hostOps8_2 (F := Ideal)))) W (Proc.devRef .tc r) = W (Proc.devRef .tc r) :=
  StableHlo.after_of_writes_sub _ W (W := [main_c_49, main_v223, main_v224, main_c_50, main_v225, main_v226, main_v227, main_v228, main_v229, main_v230, main_v231]) (by
    simp only [hostOps8, hostOps8_2, List.take_succ_cons, List.take_zero, List.drop_succ_cons, List.drop_zero]
    simp only [List.Forall]
    refine ⟨?_, ?_, ?_, ?_, ?_, ?_, ?_, ?_, ?_, ?_, ?_⟩ <;> (simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide))) hr

theorem s8F_m (W : Valuation τ sig (Elt Ideal)) (nb : F32 S20480x1) (h : F32 S4096x128) (s : I32 S20480) (hnb : W (Proc.devRef .tc main_v231) = nb) (hh : W (Proc.devRef .tc main_v197) = h) (hs : W (Proc.devRef .tc main_v201) = s) :
    StableHlo.after (List.take 11 (List.drop 11 (List.drop 9 (hostOps8_2 (F := Ideal))))) W (Proc.devRef .tc main_v240) = msgsS nb h s := by
  subst hnb; subst hh; subst hs
  simp only [hostOps8, hostOps8_2, List.take_succ_cons, List.take_zero, List.drop_succ_cons, List.drop_zero]
  after_results_simp <;> (try rfl)

/-- What these operations leave alone: every buffer they do not write. -/
theorem s8F_fr (W : Valuation τ sig (Elt Ideal)) (r : Ref sig .tc) (hr : r ∉ ([main_c_51, main_v232, main_v233, main_c_52, main_v234, main_v235, main_v236, main_v237, main_v238, main_v239, main_v240] : List (Ref sig .tc))) :
    StableHlo.after (List.take 11 (List.drop 11 (List.drop 9 (hostOps8_2 (F := Ideal))))) W (Proc.devRef .tc r) = W (Proc.devRef .tc r) :=
  StableHlo.after_of_writes_sub _ W (W := [main_c_51, main_v232, main_v233, main_c_52, main_v234, main_v235, main_v236, main_v237, main_v238, main_v239, main_v240]) (by
    simp only [hostOps8, hostOps8_2, List.take_succ_cons, List.take_zero, List.drop_succ_cons, List.drop_zero]
    simp only [List.Forall]
    refine ⟨?_, ?_, ?_, ?_, ?_, ?_, ?_, ?_, ?_, ?_, ?_⟩ <;> (simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide))) hr

theorem s8G_agg (W : Valuation τ sig (Elt Ideal)) (m : F32 S20480x128) (t : I32 S20480) (b : F32 S128) (hm : W (Proc.devRef .tc main_v240) = m) (ht : W (Proc.devRef .tc main_v205) = t) (hb : W (Proc.devRef .tc main_arg23) = b) :
    StableHlo.after (List.drop 11 (List.drop 11 (List.drop 9 (hostOps8_2 (F := Ideal))))) W (Proc.devRef .tc main_v246) = aggBiasS m t b := by
  subst hm; subst ht; subst hb
  simp only [hostOps8, hostOps8_2, List.take_succ_cons, List.take_zero, List.drop_succ_cons, List.drop_zero]
  after_results_simp <;> (try rfl)

/-- After stretch 8_2, from contents `W` holding deg^(-1/2) `d`, the edge lists `s`, `t`, the rows `h` and the bias `b`. -/
theorem rd8_2_agg (W : Valuation τ sig (Elt Ideal)) (d : F32 S4096) (s t : I32 S20480) (h : F32 S4096x128) (b : F32 S128)
    (hd : W (Proc.devRef .tc main_v215) = d) (hs : W (Proc.devRef .tc main_v201) = s) (ht : W (Proc.devRef .tc main_v205) = t) (hh : W (Proc.devRef .tc main_v197) = h) (hb : W (Proc.devRef .tc main_arg23) = b) :
    StableHlo.after (hostOps8_2 (F := Ideal)) W (Proc.devRef .tc main_v246) = aggBiasS (msgsS (edgeNormS (atNodeS d s) d t) h s) t b := by
  rw [after_split 9 (hostOps8_2 (F := Ideal)), after_split 11 (List.drop 9 (hostOps8_2 (F := Ideal))), after_split 11 (List.drop 11 (List.drop 9 (hostOps8_2 (F := Ideal))))]
  exact s8G_agg _ _ _ _
    (s8F_m _ _ _ _ (s8E_nb _ _ _ _ (s8D_g1 W _ _ hd hs) ((s8D_fr W main_v215 (by decide)).trans hd) ((s8D_fr W main_v205 (by decide)).trans ht))
      ((s8E_fr _ main_v197 (by decide)).trans ((s8D_fr W main_v197 (by decide)).trans hh)) ((s8E_fr _ main_v201 (by decide)).trans ((s8D_fr W main_v201 (by decide)).trans hs)))
    ((s8F_fr _ main_v205 (by decide)).trans ((s8E_fr _ main_v205 (by decide)).trans ((s8D_fr W main_v205 (by decide)).trans ht)))
    ((s8F_fr _ main_arg23 (by decide)).trans ((s8E_fr _ main_arg23 (by decide)).trans ((s8D_fr W main_arg23 (by decide)).trans hb)))

/-- What these operations leave alone: every buffer they do not write. -/
theorem fr8_2 (W : Valuation τ sig (Elt Ideal)) (r : Ref sig .tc) (hr : r ∉ ([main_c_47, main_v216, main_v217, main_c_48, main_v218, main_v219, main_v220, main_v221, main_v222, main_c_49, main_v223, main_v224, main_c_50, main_v225, main_v226, main_v227, main_v228, main_v229, main_v230, main_v231, main_c_51, main_v232, main_v233, main_c_52, main_v234, main_v235, main_v236, main_v237, main_v238, main_v239, main_v240, main_cst_53, main_v241, main_v242, main_v243, main_v244, main_v245, main_v246] : List (Ref sig .tc))) :
    StableHlo.after (hostOps8_2 (F := Ideal)) W (Proc.devRef .tc r) = W (Proc.devRef .tc r) :=
  StableHlo.after_of_writes_sub _ W (W := [main_c_47, main_v216, main_v217, main_c_48, main_v218, main_v219, main_v220, main_v221, main_v222, main_c_49, main_v223, main_v224, main_c_50, main_v225, main_v226, main_v227, main_v228, main_v229, main_v230, main_v231, main_c_51, main_v232, main_v233, main_c_52, main_v234, main_v235, main_v236, main_v237, main_v238, main_v239, main_v240, main_cst_53, main_v241, main_v242, main_v243, main_v244, main_v245, main_v246]) (by
    simp only [List.Forall]
    refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> (simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide))) hr

/-! ## Stretch 8_3: relu -/

theorem rd8_3_out (W : Valuation τ sig (Elt Ideal)) (x : F32 S4096x128) (hx : W (Proc.devRef .tc main_v246) = x) :
    StableHlo.after (hostOps8_3 (F := Ideal)) W (Proc.devRef .tc main_v247) = reluS x := by
  subst hx
  after_results_simp <;> (try simp only [StableHlo.TRef.toBuf, StableHlo.TRef.ofBuf, cast_eq, id]) <;> (try rfl)

/-- What these operations leave alone: every buffer they do not write. -/
theorem fr8_3 (W : Valuation τ sig (Elt Ideal)) (r : Ref sig .tc) (hr : r ∉ ([main_call7_cst, main_call7_v0, main_v247] : List (Ref sig .tc))) :
    StableHlo.after (hostOps8_3 (F := Ideal)) W (Proc.devRef .tc r) = W (Proc.devRef .tc r) :=
  StableHlo.after_of_writes_sub _ W (W := [main_call7_cst, main_call7_v0, main_v247]) (by
    simp only [List.Forall]
    refine ⟨?_, ?_, ?_⟩ <;> (simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide))) hr

/-- The layer's output after stretches 8 … 8_3, over any contents `V`. -/
theorem rd8_out (V : Valuation τ sig (Elt Ideal)) :
    StableHlo.after (hostOps8_3 (F := Ideal)) (StableHlo.after (hostOps8_2 (F := Ideal)) (StableHlo.after (hostOps8_1 (F := Ideal)) (StableHlo.after (hostOps8 (F := Ideal)) V))) (Proc.devRef .tc main_v247)
      = gcnLayerS (V (Proc.devRef .tc main_v197)) (V (Proc.devRef .tc main_arg6)) (V (Proc.devRef .tc main_arg23)) :=
  rd8_3_out _ _ (rd8_2_agg _ _ _ _ _ _ (rd8_1_dinv _ _ _ _ (rd8_gt V) (rd8_rs V) (rd8_cw V))
    ((fr8_1 _ main_v201 (by decide)).trans (rd8_src V)) ((fr8_1 _ main_v205 (by decide)).trans (rd8_dst V))
    ((fr8_1 _ main_v197 (by decide)).trans (fr8_0 V main_v197 (by decide))) ((fr8_1 _ main_arg23 (by decide)).trans (fr8_0 V main_arg23 (by decide))))

/-! Buffers none of stretches 8 … 8_3 writes keep their contents through them. -/

theorem fr8_through_main_arg7 (V : Valuation τ sig (Elt Ideal)) :
    StableHlo.after (hostOps8_3 (F := Ideal)) (StableHlo.after (hostOps8_2 (F := Ideal)) (StableHlo.after (hostOps8_1 (F := Ideal)) (StableHlo.after (hostOps8 (F := Ideal)) V))) (Proc.devRef .tc main_arg7) = V (Proc.devRef .tc main_arg7) :=
  (fr8_3 _ main_arg7 (by decide)).trans ((fr8_2 _ main_arg7 (by decide)).trans ((fr8_1 _ main_arg7 (by decide)).trans (fr8_0 V main_arg7 (by decide))))

theorem fr8_through_main_v7 (V : Valuation τ sig (Elt Ideal)) :
    StableHlo.after (hostOps8_3 (F := Ideal)) (StableHlo.after (hostOps8_2 (F := Ideal)) (StableHlo.after (hostOps8_1 (F := Ideal)) (StableHlo.after (hostOps8 (F := Ideal)) V))) (Proc.devRef .tc main_v7) = V (Proc.devRef .tc main_v7) :=
  (fr8_3 _ main_v7 (by decide)).trans ((fr8_2 _ main_v7 (by decide)).trans ((fr8_1 _ main_v7 (by decide)).trans (fr8_0 V main_v7 (by decide))))

theorem fr8_through_main_v15 (V : Valuation τ sig (Elt Ideal)) :
    StableHlo.after (hostOps8_3 (F := Ideal)) (StableHlo.after (hostOps8_2 (F := Ideal)) (StableHlo.after (hostOps8_1 (F := Ideal)) (StableHlo.after (hostOps8 (F := Ideal)) V))) (Proc.devRef .tc main_v15) = V (Proc.devRef .tc main_v15) :=
  (fr8_3 _ main_v15 (by decide)).trans ((fr8_2 _ main_v15 (by decide)).trans ((fr8_1 _ main_v15 (by decide)).trans (fr8_0 V main_v15 (by decide))))

theorem fr8_through_main_v137 (V : Valuation τ sig (Elt Ideal)) :
    StableHlo.after (hostOps8_3 (F := Ideal)) (StableHlo.after (hostOps8_2 (F := Ideal)) (StableHlo.after (hostOps8_1 (F := Ideal)) (StableHlo.after (hostOps8 (F := Ideal)) V))) (Proc.devRef .tc main_v137) = V (Proc.devRef .tc main_v137) :=
  (fr8_3 _ main_v137 (by decide)).trans ((fr8_2 _ main_v137 (by decide)).trans ((fr8_1 _ main_v137 (by decide)).trans (fr8_0 V main_v137 (by decide))))

theorem fr8_through_main_arg24 (V : Valuation τ sig (Elt Ideal)) :
    StableHlo.after (hostOps8_3 (F := Ideal)) (StableHlo.after (hostOps8_2 (F := Ideal)) (StableHlo.after (hostOps8_1 (F := Ideal)) (StableHlo.after (hostOps8 (F := Ideal)) V))) (Proc.devRef .tc main_arg24) = V (Proc.devRef .tc main_arg24) :=
  (fr8_3 _ main_arg24 (by decide)).trans ((fr8_2 _ main_arg24 (by decide)).trans ((fr8_1 _ main_arg24 (by decide)).trans (fr8_0 V main_arg24 (by decide))))

theorem fr8_through_main_arg25 (V : Valuation τ sig (Elt Ideal)) :
    StableHlo.after (hostOps8_3 (F := Ideal)) (StableHlo.after (hostOps8_2 (F := Ideal)) (StableHlo.after (hostOps8_1 (F := Ideal)) (StableHlo.after (hostOps8 (F := Ideal)) V))) (Proc.devRef .tc main_arg25) = V (Proc.devRef .tc main_arg25) :=
  (fr8_3 _ main_arg25 (by decide)).trans ((fr8_2 _ main_arg25 (by decide)).trans ((fr8_1 _ main_arg25 (by decide)).trans (fr8_0 V main_arg25 (by decide))))

/-! ## Stretch 8_4: the mean pooling over the batch, the four feature blocks side by side, the next dense layer's operands -/

theorem s8P_pool (W : Valuation τ sig (Elt Ideal)) (o : F32 S4096x128) (bt : I32 S4096) (ho : W (Proc.devRef .tc main_v247) = o) (hbt : W (Proc.devRef .tc main_arg7) = bt) :
    StableHlo.after (List.take 16 (hostOps8_4 (F := Ideal))) W (Proc.devRef .tc main_v259) = meanPoolS o bt := by
  subst ho; subst hbt
  simp only [hostOps8_4, List.take_succ_cons, List.take_zero, List.drop_succ_cons, List.drop_zero]
  after_results_simp <;> (try rfl)

/-- What these operations leave alone: every buffer they do not write. -/
theorem s8P_fr (W : Valuation τ sig (Elt Ideal)) (r : Ref sig .tc) (hr : r ∉ ([main_cst_54, main_v248, main_v249, main_v250, main_cst_55, main_v251, main_cst_56, main_v252, main_v253, main_v254, main_cst_57, main_v255, main_v256, main_v257, main_v258, main_v259] : List (Ref sig .tc))) :
    StableHlo.after (List.take 16 (hostOps8_4 (F := Ideal))) W (Proc.devRef .tc r) = W (Proc.devRef .tc r) :=
  StableHlo.after_of_writes_sub _ W (W := [main_cst_54, main_v248, main_v249, main_v250, main_cst_55, main_v251, main_cst_56, main_v252, main_v253, main_v254, main_cst_57, main_v255, main_v256, main_v257, main_v258, main_v259]) (by
    simp only [hostOps8_4, List.take_succ_cons, List.take_zero, List.drop_succ_cons, List.drop_zero]
    simp only [List.Forall]
    refine ⟨?_, ?_, ?_, ?_, ?_, ?_, ?_, ?_, ?_, ?_, ?_, ?_, ?_, ?_, ?_, ?_⟩ <;> (simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide))) hr

theorem s8Q_cat (W : Valuation τ sig (Elt Ideal)) (a : F32 S64x128) (b : F32 S64x64) (c : F32 S64x128) (d : F32 S64x128) (ha : W (Proc.devRef .tc main_v7) = a) (hb : W (Proc.devRef .tc main_v15) = b) (hc : W (Proc.devRef .tc main_v137) = c) (hd : W (Proc.devRef .tc main_v259) = d) :
    StableHlo.after (List.drop 16 (hostOps8_4 (F := Ideal))) W (Proc.devRef .tc main_v260) = cat4 a b c d := by
  subst ha; subst hb; subst hc; subst hd
  simp only [hostOps8_4, List.take_succ_cons, List.take_zero, List.drop_succ_cons, List.drop_zero]
  after_results_simp <;> (try rfl)

theorem s8Q_x (W : Valuation τ sig (Elt Ideal)) (a : F32 S64x128) (b : F32 S64x64) (c : F32 S64x128) (d : F32 S64x128) (ha : W (Proc.devRef .tc main_v7) = a) (hb : W (Proc.devRef .tc main_v15) = b) (hc : W (Proc.devRef .tc main_v137) = c) (hd : W (Proc.devRef .tc main_v259) = d) :
    StableHlo.after (List.drop 16 (hostOps8_4 (F := Ideal))) W (Proc.devRef .tc main_v261) = truncf (F := Ideal) (s := S64x448) (φ := .f32) .bf16 (cat4 a b c d) bitsLt_bf16_f32 := by
  subst ha; subst hb; subst hc; subst hd
  simp only [hostOps8_4, List.take_succ_cons, List.take_zero, List.drop_succ_cons, List.drop_zero]
  after_results_simp <;> (try rfl)

theorem s8Q_w (W : Valuation τ sig (Elt Ideal)) (w : F32 S448x128) (hw : W (Proc.devRef .tc main_arg24) = w) :
    StableHlo.after (List.drop 16 (hostOps8_4 (F := Ideal))) W (Proc.devRef .tc main_v262) = truncf (F := Ideal) (s := S448x128) (φ := .f32) .bf16 w bitsLt_bf16_f32 := by
  subst hw
  simp only [hostOps8_4, List.take_succ_cons, List.take_zero, List.drop_succ_cons, List.drop_zero]
  after_results_simp <;> (try rfl)

theorem s8Q_b (W : Valuation τ sig (Elt Ideal)) (b : F32 S128) (hb : W (Proc.devRef .tc main_arg25) = b) :
    StableHlo.after (List.drop 16 (hostOps8_4 (F := Ideal))) W (Proc.devRef .tc main_v263) = shapeCast S1x128 b shapeCasts_S128_S1x128 := by
  subst hb
  simp only [hostOps8_4, List.take_succ_cons, List.take_zero, List.drop_succ_cons, List.drop_zero]
  after_results_simp <;> (try rfl)

/-- What these operations leave alone: every buffer they do not write. -/
theorem s8Q_fr (W : Valuation τ sig (Elt Ideal)) (r : Ref sig .tc) (hr : r ∉ ([main_v260, main_v261, main_v262, main_v263] : List (Ref sig .tc))) :
    StableHlo.after (List.drop 16 (hostOps8_4 (F := Ideal))) W (Proc.devRef .tc r) = W (Proc.devRef .tc r) :=
  StableHlo.after_of_writes_sub _ W (W := [main_v260, main_v261, main_v262, main_v263]) (by
    simp only [hostOps8_4, List.take_succ_cons, List.take_zero, List.drop_succ_cons, List.drop_zero]
    simp only [List.Forall]
    refine ⟨?_, ?_, ?_, ?_⟩ <;> (simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide))) hr

theorem rd8_4_pool (W : Valuation τ sig (Elt Ideal)) (o : F32 S4096x128) (bt : I32 S4096) (ho : W (Proc.devRef .tc main_v247) = o) (hbt : W (Proc.devRef .tc main_arg7) = bt) :
    StableHlo.after (hostOps8_4 (F := Ideal)) W (Proc.devRef .tc main_v259) = meanPoolS o bt := by
  rw [after_split 16 (hostOps8_4 (F := Ideal))]
  exact (s8Q_fr _ main_v259 (by decide)).trans (s8P_pool W _ _ ho hbt)
theorem rd8_4_cat (W : Valuation τ sig (Elt Ideal)) (a : F32 S64x128) (b : F32 S64x64) (c : F32 S64x128) (o : F32 S4096x128) (bt : I32 S4096)
    (ha : W (Proc.devRef .tc main_v7) = a) (hb : W (Proc.devRef .tc main_v15) = b) (hc : W (Proc.devRef .tc main_v137) = c) (ho : W (Proc.devRef .tc main_v247) = o) (hbt : W (Proc.devRef .tc main_arg7) = bt) :
    StableHlo.after (hostOps8_4 (F := Ideal)) W (Proc.devRef .tc main_v260) = cat4 a b c (meanPoolS o bt) := by
  rw [after_split 16 (hostOps8_4 (F := Ideal))]
  exact s8Q_cat _ _ _ _ _ ((s8P_fr W main_v7 (by decide)).trans ha) ((s8P_fr W main_v15 (by decide)).trans hb) ((s8P_fr W main_v137 (by decide)).trans hc) (s8P_pool W _ _ ho hbt)
theorem rd8_4_x (W : Valuation τ sig (Elt Ideal)) (a : F32 S64x128) (b : F32 S64x64) (c : F32 S64x128) (o : F32 S4096x128) (bt : I32 S4096)
    (ha : W (Proc.devRef .tc main_v7) = a) (hb : W (Proc.devRef .tc main_v15) = b) (hc : W (Proc.devRef .tc main_v137) = c) (ho : W (Proc.devRef .tc main_v247) = o) (hbt : W (Proc.devRef .tc main_arg7) = bt) :
    StableHlo.after (hostOps8_4 (F := Ideal)) W (Proc.devRef .tc main_v261) = truncf (F := Ideal) (s := S64x448) (φ := .f32) .bf16 (cat4 a b c (meanPoolS o bt)) bitsLt_bf16_f32 := by
  rw [after_split 16 (hostOps8_4 (F := Ideal))]
  exact s8Q_x _ _ _ _ _ ((s8P_fr W main_v7 (by decide)).trans ha) ((s8P_fr W main_v15 (by decide)).trans hb) ((s8P_fr W main_v137 (by decide)).trans hc) (s8P_pool W _ _ ho hbt)
theorem rd8_4_w (W : Valuation τ sig (Elt Ideal)) (w : F32 S448x128) (hw : W (Proc.devRef .tc main_arg24) = w) :
    StableHlo.after (hostOps8_4 (F := Ideal)) W (Proc.devRef .tc main_v262) = truncf (F := Ideal) (s := S448x128) (φ := .f32) .bf16 w bitsLt_bf16_f32 := by
  rw [after_split 16 (hostOps8_4 (F := Ideal))]
  exact s8Q_w _ _ ((s8P_fr W main_arg24 (by decide)).trans hw)
theorem rd8_4_b (W : Valuation τ sig (Elt Ideal)) (b : F32 S128) (hb : W (Proc.devRef .tc main_arg25) = b) :
    StableHlo.after (hostOps8_4 (F := Ideal)) W (Proc.devRef .tc main_v263) = shapeCast S1x128 b shapeCasts_S128_S1x128 := by
  rw [after_split 16 (hostOps8_4 (F := Ideal))]
  exact s8Q_b _ _ ((s8P_fr W main_arg25 (by decide)).trans hb)

/-! ## The five stretches in a row -/

/-- The pooled features of the small graph. -/
theorem read8_main_v259 (V : Valuation τ sig (Elt Ideal)) :
    StableHlo.after (hostOps8_4 (F := Ideal)) (StableHlo.after (hostOps8_3 (F := Ideal)) (StableHlo.after (hostOps8_2 (F := Ideal)) (StableHlo.after (hostOps8_1 (F := Ideal)) (StableHlo.after (hostOps8 (F := Ideal)) V)))) (Proc.devRef .tc main_v259)
      = meanPoolS (gcnLayerS (V (Proc.devRef .tc main_v197)) (V (Proc.devRef .tc main_arg6)) (V (Proc.devRef .tc main_arg23))) (V (Proc.devRef .tc main_arg7)) :=
  rd8_4_pool _ _ _ (rd8_out V) (fr8_through_main_arg7 V)
/-- The four feature blocks side by side: the two dense branches' outputs and the two graphs' pooled features. -/
theorem read8_main_v260 (V : Valuation τ sig (Elt Ideal)) :
    StableHlo.after (hostOps8_4 (F := Ideal)) (StableHlo.after (hostOps8_3 (F := Ideal)) (StableHlo.after (hostOps8_2 (F := Ideal)) (StableHlo.after (hostOps8_1 (F := Ideal)) (StableHlo.after (hostOps8 (F := Ideal)) V)))) (Proc.devRef .tc main_v260)
      = cat4 (V (Proc.devRef .tc main_v7)) (V (Proc.devRef .tc main_v15)) (V (Proc.devRef .tc main_v137)) (meanPoolS (gcnLayerS (V (Proc.devRef .tc main_v197)) (V (Proc.devRef .tc main_arg6)) (V (Proc.devRef .tc main_arg23))) (V (Proc.devRef .tc main_arg7))) :=
  rd8_4_cat _ _ _ _ _ _ (fr8_through_main_v7 V) (fr8_through_main_v15 V) (fr8_through_main_v137 V) (rd8_out V) (fr8_through_main_arg7 V)
/-- The next layer's input rows: that array rounded to bf16. -/
theorem read8_main_v261 (V : Valuation τ sig (Elt Ideal)) :
    StableHlo.after (hostOps8_4 (F := Ideal)) (StableHlo.after (hostOps8_3 (F := Ideal)) (StableHlo.after (hostOps8_2 (F := Ideal)) (StableHlo.after (hostOps8_1 (F := Ideal)) (StableHlo.after (hostOps8 (F := Ideal)) V)))) (Proc.devRef .tc main_v261)
      = truncf (F := Ideal) (s := S64x448) (φ := .f32) .bf16 (cat4 (V (Proc.devRef .tc main_v7)) (V (Proc.devRef .tc main_v15)) (V (Proc.devRef .tc main_v137)) (meanPoolS (gcnLayerS (V (Proc.devRef .tc main_v197)) (V (Proc.devRef .tc main_arg6)) (V (Proc.devRef .tc main_arg23))) (V (Proc.devRef .tc main_arg7)))) bitsLt_bf16_f32 :=
  rd8_4_x _ _ _ _ _ _ (fr8_through_main_v7 V) (fr8_through_main_v15 V) (fr8_through_main_v137 V) (rd8_out V) (fr8_through_main_arg7 V)
/-- The next layer's weights: the entry array rounded to bf16. -/
theorem read8_main_v262 (V : Valuation τ sig (Elt Ideal)) :
    StableHlo.after (hostOps8_4 (F := Ideal)) (StableHlo.after (hostOps8_3 (F := Ideal)) (StableHlo.after (hostOps8_2 (F := Ideal)) (StableHlo.after (hostOps8_1 (F := Ideal)) (StableHlo.after (hostOps8 (F := Ideal)) V)))) (Proc.devRef .tc main_v262)
      = truncf (F := Ideal) (s := S448x128) (φ := .f32) .bf16 (V (Proc.devRef .tc main_arg24)) bitsLt_bf16_f32 :=
  rd8_4_w _ _ (fr8_through_main_arg24 V)
/-- The next layer's bias: the entry vector as one row. -/
theorem read8_main_v263 (V : Valuation τ sig (Elt Ideal)) :
    StableHlo.after (hostOps8_4 (F := Ideal)) (StableHlo.after (hostOps8_3 (F := Ideal)) (StableHlo.after (hostOps8_2 (F := Ideal)) (StableHlo.after (hostOps8_1 (F := Ideal)) (StableHlo.after (hostOps8 (F := Ideal)) V)))) (Proc.devRef .tc main_v263)
      = shapeCast S1x128 (V (Proc.devRef .tc main_arg25)) shapeCasts_S128_S1x128 :=
  rd8_4_b _ _ (fr8_through_main_arg25 V)

end Cert.KernelIdeal.HostRead
-- ==== Proof.KIHost9.lean ====
/-
  What host stretch 9 of the idealized kernel's @main leaves in the buffers the last dense layer reads, over any
  contents it is entered from.
-/
import proofs.«161272_j16312285791078_1_alg».proof.Proof.Gen.KernelIdeal.Launch
import Idealize.ShloMosaic.Lib.StableHlo.Run
import Idealize.ShloMosaic.PureOps.Ideal

set_option maxRecDepth 2180

noncomputable section

namespace Cert.KernelIdeal.HostRead

open Idealize.ShloMosaic Idealize.ShloMosaic.TcCoe
open Cert.KernelIdeal Cert.KernelIdeal.Gen

/-! Stretch 9: the last dense layer's operands. -/

theorem read9_main_v265 (V : Valuation τ sig (Elt Ideal)) :
    StableHlo.after (hostOps9 (F := Ideal)) V (Proc.devRef .tc main_v265)
      = truncf (F := Ideal) (s := S64x128) (φ := .f32) .bf16 (V (Proc.devRef .tc main_v264)) bitsLt_bf16_f32 := by
  after_results_simp

theorem read9_main_v266 (V : Valuation τ sig (Elt Ideal)) :
    StableHlo.after (hostOps9 (F := Ideal)) V (Proc.devRef .tc main_v266)
      = truncf (F := Ideal) (s := S128x2) (φ := .f32) .bf16 (V (Proc.devRef .tc main_arg26)) bitsLt_bf16_f32 := by
  after_results_simp

theorem read9_main_v267 (V : Valuation τ sig (Elt Ideal)) :
    StableHlo.after (hostOps9 (F := Ideal)) V (Proc.devRef .tc main_v267)
      = shapeCast S1x2 (V (Proc.devRef .tc main_arg27)) shapeCasts_S2_S1x2 := by
  after_results_simp
  rfl

end Cert.KernelIdeal.HostRead
-- ==== Proof.DenseEq0.lean ====
/-
  Dense layer 0 over the extended reals: the value the kernel's body stores, applied to the layer's three operands as
  the program hands them over (x and w converted to bf16, the bias vector of length 128 reshaped to one row), is the
  reference's max (x · w + b) 0, for x of 64 rows and 18640 columns and w of 18640 rows and 128 columns. At row p and column q both
  sides are max (∑ k, x[p,k] * w[k,q] + b[q]) 0, because
  • a change of float format is the identity on extended reals;
  • a matrix product accumulated from the zero matrix and the host's product are the same sum over the contracted axis,
    the two programs' dimension numbers being one and the same record;
  • the bias reaches column q either as the one row [1,128] repeated down the rows, or through the two broadcasts
    [128] → [1,128] → [64,128] along the column axis;
  • the zero literal is the extended real 0, whether it is spread as a scalar or as a rank-0 tensor.
-/
import proofs.«161272_j16312285791078_1_alg».proof.Proof.Gen.KernelIdeal.Skeleton
import proofs.«161272_j16312285791078_1_alg».proof.ReferenceIdeal
import Idealize.ShloMosaic.Lib.ValueLayout
import Idealize.ShloMosaic.PureOps.Ideal.Laws

noncomputable section

namespace Cert.Bridge

open Idealize.ShloMosaic Idealize.ShloMosaic.ValueIdx

variable [Cert.ReferenceIdeal.Facts₀]

/-- The two programs contract the same axes: their dimension-number records are equal. -/
theorem dot0_eq :
    Cert.KernelIdeal.dot_S64x18640_S18640x128_S64x128_1_0_0_1_n_n
      = Cert.ReferenceIdeal.dot_S64x18640_S18640x128_S64x128_1_0_0_1_n_n := rfl

/-- The product at an index: accumulated from the zero matrix on the converted operands, it is the host's product of the
    operands themselves — both are the sum over the contracted axis of the entries' products. -/
theorem prod0 (X : FVec Ideal Cert.KernelIdeal.S64x18640 .f32) (W : FVec Ideal Cert.KernelIdeal.S18640x128 .f32)
    (j : Cert.KernelIdeal.S64x128.Idx) :
    matmul (F := Ideal) Cert.KernelIdeal.dot_S64x18640_S18640x128_S64x128_1_0_0_1_n_n none
        (truncf .bf16 X Cert.KernelIdeal.Facts₀.bitsLt_bf16_f32) (truncf .bf16 W Cert.KernelIdeal.Facts₀.bitsLt_bf16_f32)
        (constant Cert.KernelIdeal.S64x128 .f32 0x00000000#32) j
      = Host.dotGeneral (F := Ideal) Cert.ReferenceIdeal.dot_S64x18640_S18640x128_S64x128_1_0_0_1_n_n none X W j := by
  refine (Ideal.matmul_constant_zero_apply _ none _ _ j).trans ?_
  refine Eq.trans ?_ (Ideal.dotGeneral_apply _ none .single X W j).symm
  rw [dot0_eq]
  rfl

/-- The kernel's bias operand: the vector reshaped to one row, that row repeated down the rows, reads the vector at the
    column. -/
theorem biasK0 (B : FVec Ideal Cert.KernelIdeal.S128 .f32) (p : Fin 64) (q : Fin 128) :
    broadcastTo Cert.KernelIdeal.S64x128
        (shapeCast Cert.KernelIdeal.S1x128 B Cert.KernelIdeal.Facts₀.shapeCasts_S128_S1x128)
        Cert.KernelIdeal.Gen.broadcasts_S1x128_S64x128 (ix2 p q) = B (ix1 q) :=
  (broadcastTo_1b_ab_apply _ _ p q).trans (shapeCast_a_1a_apply B _ 0 q)

/-- The reference's bias operand: the vector broadcast to one row along the column axis and then to every row reads the
    vector at the column. -/
theorem biasR0 (B : FVec Ideal Cert.ReferenceIdeal.S128 .f32) (p : Fin 64) (q : Fin 128) :
    broadcastInDim Cert.ReferenceIdeal.S64x128 ![0, 1] Cert.ReferenceIdeal.Facts₀.bcast_S1x128_S64x128_0_1
        (broadcastInDim Cert.ReferenceIdeal.S1x128 ![1] Cert.ReferenceIdeal.Facts₀.bcast_S128_S1x128_1 B) (ix2 p q)
      = B (ix1 q) := by
  refine (broadcastInDim_apply _ _ _ (ix2 p q) (ix2 (0 : Fin 1) q) fun a => ?_).trans
    (broadcastInDim_apply _ _ B (ix2 (0 : Fin 1) q) (ix1 q) fun a => ?_)
  · match a with
    | ⟨0, _⟩ => rfl
    | ⟨1, _⟩ => rfl
  · match a with
    | ⟨0, _⟩ => rfl

/-- The reference's zero: the rank-0 zero literal broadcast to the matrix is that literal's value at every index. -/
theorem zeroR0 (j : Cert.ReferenceIdeal.S64x128.Idx) :
    broadcastInDim Cert.ReferenceIdeal.S64x128 ![] Cert.ReferenceIdeal.Facts₀.bcast_S_S64x128
        (constant (F := Ideal) Cert.ReferenceIdeal.S_ .f32 0x00000000#32) j = Ideal.ofBits .f32 0x00000000#32 :=
  broadcastInDim_apply _ _ _ j ix0 fun a => a.elim0

/-- The layer: the kernel's stored value of the converted operands is the reference's max (x · w + b) 0. -/
theorem dense_eq0 (X : FVec Ideal Cert.KernelIdeal.S64x18640 .f32) (W : FVec Ideal Cert.KernelIdeal.S18640x128 .f32)
    (B : FVec Ideal Cert.KernelIdeal.S128 .f32) :
    Cert.KernelIdeal.Gen.k0_pay1 (F := Ideal)
        (truncf .bf16 X Cert.KernelIdeal.Facts₀.bitsLt_bf16_f32)
        (truncf .bf16 W Cert.KernelIdeal.Facts₀.bitsLt_bf16_f32)
        (shapeCast Cert.KernelIdeal.S1x128 B Cert.KernelIdeal.Facts₀.shapeCasts_S128_S1x128)
      = maximumf
          (addf (Host.dotGeneral (F := Ideal) Cert.ReferenceIdeal.dot_S64x18640_S18640x128_S64x128_1_0_0_1_n_n none X W)
            (broadcastInDim Cert.ReferenceIdeal.S64x128 ![0, 1] Cert.ReferenceIdeal.Facts₀.bcast_S1x128_S64x128_0_1
              (broadcastInDim Cert.ReferenceIdeal.S1x128 ![1] Cert.ReferenceIdeal.Facts₀.bcast_S128_S1x128_1 B)))
          (broadcastInDim Cert.ReferenceIdeal.S64x128 ![] Cert.ReferenceIdeal.Facts₀.bcast_S_S64x128
            (constant (F := Ideal) Cert.ReferenceIdeal.S_ .f32 0x00000000#32)) := by
  funext i
  obtain ⟨p, q, rfl⟩ : ∃ (p : Fin 64) (q : Fin 128), i = ix2 p q := ⟨i 0, i 1, eq_ix2 i⟩
  unfold Cert.KernelIdeal.Gen.k0_pay1
  simp only [maximumf_apply, addf_apply, broadcast_apply, shapeCast_self]
  rw [prod0 X W (ix2 p q), biasK0 B p q, biasR0 B p q, zeroR0 (ix2 p q)]
  rfl

end Cert.Bridge
-- ==== Proof.DenseEq1.lean ====
/-
  Dense layer 1 over the extended reals: the value the kernel's body stores, applied to the layer's three operands as
  the program hands them over (x and w converted to bf16, the bias vector of length 128 reshaped to one row), is the
  reference's max (x · w + b) 0, for x of 64 rows and 128 columns and w of 128 rows and 128 columns. At row p and column q both
  sides are max (∑ k, x[p,k] * w[k,q] + b[q]) 0, because
  • a change of float format is the identity on extended reals;
  • a matrix product accumulated from the zero matrix and the host's product are the same sum over the contracted axis,
    the two programs' dimension numbers being one and the same record;
  • the bias reaches column q either as the one row [1,128] repeated down the rows, or through the two broadcasts
    [128] → [1,128] → [64,128] along the column axis;
  • the zero literal is the extended real 0, whether it is spread as a scalar or as a rank-0 tensor.
-/
import proofs.«161272_j16312285791078_1_alg».proof.Proof.Gen.KernelIdeal.Skeleton
import proofs.«161272_j16312285791078_1_alg».proof.ReferenceIdeal
import Idealize.ShloMosaic.Lib.ValueLayout
import Idealize.ShloMosaic.PureOps.Ideal.Laws

noncomputable section

namespace Cert.Bridge

open Idealize.ShloMosaic Idealize.ShloMosaic.ValueIdx

variable [Cert.ReferenceIdeal.Facts₀]

/-- The two programs contract the same axes: their dimension-number records are equal. -/
theorem dot1_eq :
    Cert.KernelIdeal.dot_S64x128_S128x128_S64x128_1_0_0_1_n_n
      = Cert.ReferenceIdeal.dot_S64x128_S128x128_S64x128_1_0_0_1_n_n := rfl

/-- The product at an index: accumulated from the zero matrix on the converted operands, it is the host's product of the
    operands themselves — both are the sum over the contracted axis of the entries' products. -/
theorem prod1 (X : FVec Ideal Cert.KernelIdeal.S64x128 .f32) (W : FVec Ideal Cert.KernelIdeal.S128x128 .f32)
    (j : Cert.KernelIdeal.S64x128.Idx) :
    matmul (F := Ideal) Cert.KernelIdeal.dot_S64x128_S128x128_S64x128_1_0_0_1_n_n none
        (truncf .bf16 X Cert.KernelIdeal.Facts₀.bitsLt_bf16_f32) (truncf .bf16 W Cert.KernelIdeal.Facts₀.bitsLt_bf16_f32)
        (constant Cert.KernelIdeal.S64x128 .f32 0x00000000#32) j
      = Host.dotGeneral (F := Ideal) Cert.ReferenceIdeal.dot_S64x128_S128x128_S64x128_1_0_0_1_n_n none X W j := by
  refine (Ideal.matmul_constant_zero_apply _ none _ _ j).trans ?_
  refine Eq.trans ?_ (Ideal.dotGeneral_apply _ none .single X W j).symm
  rw [dot1_eq]
  rfl

/-- The kernel's bias operand: the vector reshaped to one row, that row repeated down the rows, reads the vector at the
    column. -/
theorem biasK1 (B : FVec Ideal Cert.KernelIdeal.S128 .f32) (p : Fin 64) (q : Fin 128) :
    broadcastTo Cert.KernelIdeal.S64x128
        (shapeCast Cert.KernelIdeal.S1x128 B Cert.KernelIdeal.Facts₀.shapeCasts_S128_S1x128)
        Cert.KernelIdeal.Gen.broadcasts_S1x128_S64x128 (ix2 p q) = B (ix1 q) :=
  (broadcastTo_1b_ab_apply _ _ p q).trans (shapeCast_a_1a_apply B _ 0 q)

/-- The reference's bias operand: the vector broadcast to one row along the column axis and then to every row reads the
    vector at the column. -/
theorem biasR1 (B : FVec Ideal Cert.ReferenceIdeal.S128 .f32) (p : Fin 64) (q : Fin 128) :
    broadcastInDim Cert.ReferenceIdeal.S64x128 ![0, 1] Cert.ReferenceIdeal.Facts₀.bcast_S1x128_S64x128_0_1
        (broadcastInDim Cert.ReferenceIdeal.S1x128 ![1] Cert.ReferenceIdeal.Facts₀.bcast_S128_S1x128_1 B) (ix2 p q)
      = B (ix1 q) := by
  refine (broadcastInDim_apply _ _ _ (ix2 p q) (ix2 (0 : Fin 1) q) fun a => ?_).trans
    (broadcastInDim_apply _ _ B (ix2 (0 : Fin 1) q) (ix1 q) fun a => ?_)
  · match a with
    | ⟨0, _⟩ => rfl
    | ⟨1, _⟩ => rfl
  · match a with
    | ⟨0, _⟩ => rfl

/-- The reference's zero: the rank-0 zero literal broadcast to the matrix is that literal's value at every index. -/
theorem zeroR1 (j : Cert.ReferenceIdeal.S64x128.Idx) :
    broadcastInDim Cert.ReferenceIdeal.S64x128 ![] Cert.ReferenceIdeal.Facts₀.bcast_S_S64x128
        (constant (F := Ideal) Cert.ReferenceIdeal.S_ .f32 0x00000000#32) j = Ideal.ofBits .f32 0x00000000#32 :=
  broadcastInDim_apply _ _ _ j ix0 fun a => a.elim0

/-- The layer: the kernel's stored value of the converted operands is the reference's max (x · w + b) 0. -/
theorem dense_eq1 (X : FVec Ideal Cert.KernelIdeal.S64x128 .f32) (W : FVec Ideal Cert.KernelIdeal.S128x128 .f32)
    (B : FVec Ideal Cert.KernelIdeal.S128 .f32) :
    Cert.KernelIdeal.Gen.k1_pay1 (F := Ideal)
        (truncf .bf16 X Cert.KernelIdeal.Facts₀.bitsLt_bf16_f32)
        (truncf .bf16 W Cert.KernelIdeal.Facts₀.bitsLt_bf16_f32)
        (shapeCast Cert.KernelIdeal.S1x128 B Cert.KernelIdeal.Facts₀.shapeCasts_S128_S1x128)
      = maximumf
          (addf (Host.dotGeneral (F := Ideal) Cert.ReferenceIdeal.dot_S64x128_S128x128_S64x128_1_0_0_1_n_n none X W)
            (broadcastInDim Cert.ReferenceIdeal.S64x128 ![0, 1] Cert.ReferenceIdeal.Facts₀.bcast_S1x128_S64x128_0_1
              (broadcastInDim Cert.ReferenceIdeal.S1x128 ![1] Cert.ReferenceIdeal.Facts₀.bcast_S128_S1x128_1 B)))
          (broadcastInDim Cert.ReferenceIdeal.S64x128 ![] Cert.ReferenceIdeal.Facts₀.bcast_S_S64x128
            (constant (F := Ideal) Cert.ReferenceIdeal.S_ .f32 0x00000000#32)) := by
  funext i
  obtain ⟨p, q, rfl⟩ : ∃ (p : Fin 64) (q : Fin 128), i = ix2 p q := ⟨i 0, i 1, eq_ix2 i⟩
  unfold Cert.KernelIdeal.Gen.k1_pay1
  simp only [maximumf_apply, addf_apply, broadcast_apply, shapeCast_self]
  rw [prod1 X W (ix2 p q), biasK1 B p q, biasR1 B p q, zeroR1 (ix2 p q)]
  rfl

end Cert.Bridge
-- ==== Proof.DenseEq2.lean ====
/-
  Dense layer 2 over the extended reals: the value the kernel's body stores, applied to the layer's three operands as
  the program hands them over (x and w converted to bf16, the bias vector of length 64 reshaped to one row), is the
  reference's max (x · w + b) 0, for x of 64 rows and 21 columns and w of 21 rows and 64 columns. At row p and column q both
  sides are max (∑ k, x[p,k] * w[k,q] + b[q]) 0, because
  • a change of float format is the identity on extended reals;
  • a matrix product accumulated from the zero matrix and the host's product are the same sum over the contracted axis,
    the two programs' dimension numbers being one and the same record;
  • the bias reaches column q either as the one row [1,64] repeated down the rows, or through the two broadcasts
    [64] → [1,64] → [64,64] along the column axis;
  • the zero literal is the extended real 0, whether it is spread as a scalar or as a rank-0 tensor.
-/
import proofs.«161272_j16312285791078_1_alg».proof.Proof.Gen.KernelIdeal.Skeleton
import proofs.«161272_j16312285791078_1_alg».proof.ReferenceIdeal
import Idealize.ShloMosaic.Lib.ValueLayout
import Idealize.ShloMosaic.PureOps.Ideal.Laws

noncomputable section

namespace Cert.Bridge

open Idealize.ShloMosaic Idealize.ShloMosaic.ValueIdx

variable [Cert.ReferenceIdeal.Facts₀]

/-- The two programs contract the same axes: their dimension-number records are equal. -/
theorem dot2_eq :
    Cert.KernelIdeal.dot_S64x21_S21x64_S64x64_1_0_0_1_n_n
      = Cert.ReferenceIdeal.dot_S64x21_S21x64_S64x64_1_0_0_1_n_n := rfl

/-- The product at an index: accumulated from the zero matrix on the converted operands, it is the host's product of the
    operands themselves — both are the sum over the contracted axis of the entries' products. -/
theorem prod2 (X : FVec Ideal Cert.KernelIdeal.S64x21 .f32) (W : FVec Ideal Cert.KernelIdeal.S21x64 .f32)
    (j : Cert.KernelIdeal.S64x64.Idx) :
    matmul (F := Ideal) Cert.KernelIdeal.dot_S64x21_S21x64_S64x64_1_0_0_1_n_n none
        (truncf .bf16 X Cert.KernelIdeal.Facts₀.bitsLt_bf16_f32) (truncf .bf16 W Cert.KernelIdeal.Facts₀.bitsLt_bf16_f32)
        (constant Cert.KernelIdeal.S64x64 .f32 0x00000000#32) j
      = Host.dotGeneral (F := Ideal) Cert.ReferenceIdeal.dot_S64x21_S21x64_S64x64_1_0_0_1_n_n none X W j := by
  refine (Ideal.matmul_constant_zero_apply _ none _ _ j).trans ?_
  refine Eq.trans ?_ (Ideal.dotGeneral_apply _ none .single X W j).symm
  rw [dot2_eq]
  rfl

/-- The kernel's bias operand: the vector reshaped to one row, that row repeated down the rows, reads the vector at the
    column. -/
theorem biasK2 (B : FVec Ideal Cert.KernelIdeal.S64 .f32) (p : Fin 64) (q : Fin 64) :
    broadcastTo Cert.KernelIdeal.S64x64
        (shapeCast Cert.KernelIdeal.S1x64 B Cert.KernelIdeal.Facts₀.shapeCasts_S64_S1x64)
        Cert.KernelIdeal.Gen.broadcasts_S1x64_S64x64 (ix2 p q) = B (ix1 q) :=
  (broadcastTo_1b_ab_apply _ _ p q).trans (shapeCast_a_1a_apply B _ 0 q)

/-- The reference's bias operand: the vector broadcast to one row along the column axis and then to every row reads the
    vector at the column. -/
theorem biasR2 (B : FVec Ideal Cert.ReferenceIdeal.S64 .f32) (p : Fin 64) (q : Fin 64) :
    broadcastInDim Cert.ReferenceIdeal.S64x64 ![0, 1] Cert.ReferenceIdeal.Facts₀.bcast_S1x64_S64x64_0_1
        (broadcastInDim Cert.ReferenceIdeal.S1x64 ![1] Cert.ReferenceIdeal.Facts₀.bcast_S64_S1x64_1 B) (ix2 p q)
      = B (ix1 q) := by
  refine (broadcastInDim_apply _ _ _ (ix2 p q) (ix2 (0 : Fin 1) q) fun a => ?_).trans
    (broadcastInDim_apply _ _ B (ix2 (0 : Fin 1) q) (ix1 q) fun a => ?_)
  · match a with
    | ⟨0, _⟩ => rfl
    | ⟨1, _⟩ => rfl
  · match a with
    | ⟨0, _⟩ => rfl

/-- The reference's zero: the rank-0 zero literal broadcast to the matrix is that literal's value at every index. -/
theorem zeroR2 (j : Cert.ReferenceIdeal.S64x64.Idx) :
    broadcastInDim Cert.ReferenceIdeal.S64x64 ![] Cert.ReferenceIdeal.Facts₀.bcast_S_S64x64
        (constant (F := Ideal) Cert.ReferenceIdeal.S_ .f32 0x00000000#32) j = Ideal.ofBits .f32 0x00000000#32 :=
  broadcastInDim_apply _ _ _ j ix0 fun a => a.elim0

/-- The layer: the kernel's stored value of the converted operands is the reference's max (x · w + b) 0. -/
theorem dense_eq2 (X : FVec Ideal Cert.KernelIdeal.S64x21 .f32) (W : FVec Ideal Cert.KernelIdeal.S21x64 .f32)
    (B : FVec Ideal Cert.KernelIdeal.S64 .f32) :
    Cert.KernelIdeal.Gen.k2_pay1 (F := Ideal)
        (truncf .bf16 X Cert.KernelIdeal.Facts₀.bitsLt_bf16_f32)
        (truncf .bf16 W Cert.KernelIdeal.Facts₀.bitsLt_bf16_f32)
        (shapeCast Cert.KernelIdeal.S1x64 B Cert.KernelIdeal.Facts₀.shapeCasts_S64_S1x64)
      = maximumf
          (addf (Host.dotGeneral (F := Ideal) Cert.ReferenceIdeal.dot_S64x21_S21x64_S64x64_1_0_0_1_n_n none X W)
            (broadcastInDim Cert.ReferenceIdeal.S64x64 ![0, 1] Cert.ReferenceIdeal.Facts₀.bcast_S1x64_S64x64_0_1
              (broadcastInDim Cert.ReferenceIdeal.S1x64 ![1] Cert.ReferenceIdeal.Facts₀.bcast_S64_S1x64_1 B)))
          (broadcastInDim Cert.ReferenceIdeal.S64x64 ![] Cert.ReferenceIdeal.Facts₀.bcast_S_S64x64
            (constant (F := Ideal) Cert.ReferenceIdeal.S_ .f32 0x00000000#32)) := by
  funext i
  obtain ⟨p, q, rfl⟩ : ∃ (p : Fin 64) (q : Fin 64), i = ix2 p q := ⟨i 0, i 1, eq_ix2 i⟩
  unfold Cert.KernelIdeal.Gen.k2_pay1
  simp only [maximumf_apply, addf_apply, broadcast_apply, shapeCast_self]
  rw [prod2 X W (ix2 p q), biasK2 B p q, biasR2 B p q, zeroR2 (ix2 p q)]
  rfl

end Cert.Bridge
-- ==== Proof.DenseEq3.lean ====
/-
  Dense layer 3 over the extended reals: the value the kernel's body stores, applied to the layer's three operands as
  the program hands them over (x and w converted to bf16, the bias vector of length 64 reshaped to one row), is the
  reference's max (x · w + b) 0, for x of 64 rows and 64 columns and w of 64 rows and 64 columns. At row p and column q both
  sides are max (∑ k, x[p,k] * w[k,q] + b[q]) 0, because
  • a change of float format is the identity on extended reals;
  • a matrix product accumulated from the zero matrix and the host's product are the same sum over the contracted axis,
    the two programs' dimension numbers being one and the same record;
  • the bias reaches column q either as the one row [1,64] repeated down the rows, or through the two broadcasts
    [64] → [1,64] → [64,64] along the column axis;
  • the zero literal is the extended real 0, whether it is spread as a scalar or as a rank-0 tensor.
-/
import proofs.«161272_j16312285791078_1_alg».proof.Proof.Gen.KernelIdeal.Skeleton
import proofs.«161272_j16312285791078_1_alg».proof.ReferenceIdeal
import Idealize.ShloMosaic.Lib.ValueLayout
import Idealize.ShloMosaic.PureOps.Ideal.Laws

noncomputable section

namespace Cert.Bridge

open Idealize.ShloMosaic Idealize.ShloMosaic.ValueIdx

variable [Cert.ReferenceIdeal.Facts₀]

/-- The two programs contract the same axes: their dimension-number records are equal. -/
theorem dot3_eq :
    Cert.KernelIdeal.dot_S64x64_S64x64_S64x64_1_0_0_1_n_n
      = Cert.ReferenceIdeal.dot_S64x64_S64x64_S64x64_1_0_0_1_n_n := rfl

/-- The product at an index: accumulated from the zero matrix on the converted operands, it is the host's product of the
    operands themselves — both are the sum over the contracted axis of the entries' products. -/
theorem prod3 (X : FVec Ideal Cert.KernelIdeal.S64x64 .f32) (W : FVec Ideal Cert.KernelIdeal.S64x64 .f32)
    (j : Cert.KernelIdeal.S64x64.Idx) :
    matmul (F := Ideal) Cert.KernelIdeal.dot_S64x64_S64x64_S64x64_1_0_0_1_n_n none
        (truncf .bf16 X Cert.KernelIdeal.Facts₀.bitsLt_bf16_f32) (truncf .bf16 W Cert.KernelIdeal.Facts₀.bitsLt_bf16_f32)
        (constant Cert.KernelIdeal.S64x64 .f32 0x00000000#32) j
      = Host.dotGeneral (F := Ideal) Cert.ReferenceIdeal.dot_S64x64_S64x64_S64x64_1_0_0_1_n_n none X W j := by
  refine (Ideal.matmul_constant_zero_apply _ none _ _ j).trans ?_
  refine Eq.trans ?_ (Ideal.dotGeneral_apply _ none .single X W j).symm
  rw [dot3_eq]
  rfl

/-- The kernel's bias operand: the vector reshaped to one row, that row repeated down the rows, reads the vector at the
    column. -/
theorem biasK3 (B : FVec Ideal Cert.KernelIdeal.S64 .f32) (p : Fin 64) (q : Fin 64) :
    broadcastTo Cert.KernelIdeal.S64x64
        (shapeCast Cert.KernelIdeal.S1x64 B Cert.KernelIdeal.Facts₀.shapeCasts_S64_S1x64)
        Cert.KernelIdeal.Gen.broadcasts_S1x64_S64x64 (ix2 p q) = B (ix1 q) :=
  (broadcastTo_1b_ab_apply _ _ p q).trans (shapeCast_a_1a_apply B _ 0 q)

/-- The reference's bias operand: the vector broadcast to one row along the column axis and then to every row reads the
    vector at the column. -/
theorem biasR3 (B : FVec Ideal Cert.ReferenceIdeal.S64 .f32) (p : Fin 64) (q : Fin 64) :
    broadcastInDim Cert.ReferenceIdeal.S64x64 ![0, 1] Cert.ReferenceIdeal.Facts₀.bcast_S1x64_S64x64_0_1
        (broadcastInDim Cert.ReferenceIdeal.S1x64 ![1] Cert.ReferenceIdeal.Facts₀.bcast_S64_S1x64_1 B) (ix2 p q)
      = B (ix1 q) := by
  refine (broadcastInDim_apply _ _ _ (ix2 p q) (ix2 (0 : Fin 1) q) fun a => ?_).trans
    (broadcastInDim_apply _ _ B (ix2 (0 : Fin 1) q) (ix1 q) fun a => ?_)
  · match a with
    | ⟨0, _⟩ => rfl
    | ⟨1, _⟩ => rfl
  · match a with
    | ⟨0, _⟩ => rfl

/-- The reference's zero: the rank-0 zero literal broadcast to the matrix is that literal's value at every index. -/
theorem zeroR3 (j : Cert.ReferenceIdeal.S64x64.Idx) :
    broadcastInDim Cert.ReferenceIdeal.S64x64 ![] Cert.ReferenceIdeal.Facts₀.bcast_S_S64x64
        (constant (F := Ideal) Cert.ReferenceIdeal.S_ .f32 0x00000000#32) j = Ideal.ofBits .f32 0x00000000#32 :=
  broadcastInDim_apply _ _ _ j ix0 fun a => a.elim0

/-- The layer: the kernel's stored value of the converted operands is the reference's max (x · w + b) 0. -/
theorem dense_eq3 (X : FVec Ideal Cert.KernelIdeal.S64x64 .f32) (W : FVec Ideal Cert.KernelIdeal.S64x64 .f32)
    (B : FVec Ideal Cert.KernelIdeal.S64 .f32) :
    Cert.KernelIdeal.Gen.k3_pay1 (F := Ideal)
        (truncf .bf16 X Cert.KernelIdeal.Facts₀.bitsLt_bf16_f32)
        (truncf .bf16 W Cert.KernelIdeal.Facts₀.bitsLt_bf16_f32)
        (shapeCast Cert.KernelIdeal.S1x64 B Cert.KernelIdeal.Facts₀.shapeCasts_S64_S1x64)
      = maximumf
          (addf (Host.dotGeneral (F := Ideal) Cert.ReferenceIdeal.dot_S64x64_S64x64_S64x64_1_0_0_1_n_n none X W)
            (broadcastInDim Cert.ReferenceIdeal.S64x64 ![0, 1] Cert.ReferenceIdeal.Facts₀.bcast_S1x64_S64x64_0_1
              (broadcastInDim Cert.ReferenceIdeal.S1x64 ![1] Cert.ReferenceIdeal.Facts₀.bcast_S64_S1x64_1 B)))
          (broadcastInDim Cert.ReferenceIdeal.S64x64 ![] Cert.ReferenceIdeal.Facts₀.bcast_S_S64x64
            (constant (F := Ideal) Cert.ReferenceIdeal.S_ .f32 0x00000000#32)) := by
  funext i
  obtain ⟨p, q, rfl⟩ : ∃ (p : Fin 64) (q : Fin 64), i = ix2 p q := ⟨i 0, i 1, eq_ix2 i⟩
  unfold Cert.KernelIdeal.Gen.k3_pay1
  simp only [maximumf_apply, addf_apply, broadcast_apply, shapeCast_self]
  rw [prod3 X W (ix2 p q), biasK3 B p q, biasR3 B p q, zeroR3 (ix2 p q)]
  rfl

end Cert.Bridge
-- ==== Proof.DenseEq8.lean ====
/-
  Dense layer 8 over the extended reals: the value the kernel's body stores, applied to the layer's three operands as
  the program hands them over (x and w converted to bf16, the bias vector of length 128 reshaped to one row), is the
  reference's max (x · w + b) 0, for x of 64 rows and 448 columns and w of 448 rows and 128 columns. At row p and column q both
  sides are max (∑ k, x[p,k] * w[k,q] + b[q]) 0, because
  • a change of float format is the identity on extended reals;
  • a matrix product accumulated from the zero matrix and the host's product are the same sum over the contracted axis,
    the two programs' dimension numbers being one and the same record;
  • the bias reaches column q either as the one row [1,128] repeated down the rows, or through the two broadcasts
    [128] → [1,128] → [64,128] along the column axis;
  • the zero literal is the extended real 0, whether it is spread as a scalar or as a rank-0 tensor.
-/
import proofs.«161272_j16312285791078_1_alg».proof.Proof.Gen.KernelIdeal.Skeleton
import proofs.«161272_j16312285791078_1_alg».proof.ReferenceIdeal
import Idealize.ShloMosaic.Lib.ValueLayout
import Idealize.ShloMosaic.PureOps.Ideal.Laws

noncomputable section

namespace Cert.Bridge

open Idealize.ShloMosaic Idealize.ShloMosaic.ValueIdx

variable [Cert.ReferenceIdeal.Facts₀]

/-- The two programs contract the same axes: their dimension-number records are equal. -/
theorem dot8_eq :
    Cert.KernelIdeal.dot_S64x448_S448x128_S64x128_1_0_0_1_n_n
      = Cert.ReferenceIdeal.dot_S64x448_S448x128_S64x128_1_0_0_1_n_n := rfl

/-- The product at an index: accumulated from the zero matrix on the converted operands, it is the host's product of the
    operands themselves — both are the sum over the contracted axis of the entries' products. -/
theorem prod8 (X : FVec Ideal Cert.KernelIdeal.S64x448 .f32) (W : FVec Ideal Cert.KernelIdeal.S448x128 .f32)
    (j : Cert.KernelIdeal.S64x128.Idx) :
    matmul (F := Ideal) Cert.KernelIdeal.dot_S64x448_S448x128_S64x128_1_0_0_1_n_n none
        (truncf .bf16 X Cert.KernelIdeal.Facts₀.bitsLt_bf16_f32) (truncf .bf16 W Cert.KernelIdeal.Facts₀.bitsLt_bf16_f32)
        (constant Cert.KernelIdeal.S64x128 .f32 0x00000000#32) j
      = Host.dotGeneral (F := Ideal) Cert.ReferenceIdeal.dot_S64x448_S448x128_S64x128_1_0_0_1_n_n none X W j := by
  refine (Ideal.matmul_constant_zero_apply _ none _ _ j).trans ?_
  refine Eq.trans ?_ (Ideal.dotGeneral_apply _ none .single X W j).symm
  rw [dot8_eq]
  rfl

/-- The kernel's bias operand: the vector reshaped to one row, that row repeated down the rows, reads the vector at the
    column. -/
theorem biasK8 (B : FVec Ideal Cert.KernelIdeal.S128 .f32) (p : Fin 64) (q : Fin 128) :
    broadcastTo Cert.KernelIdeal.S64x128
        (shapeCast Cert.KernelIdeal.S1x128 B Cert.KernelIdeal.Facts₀.shapeCasts_S128_S1x128)
        Cert.KernelIdeal.Gen.broadcasts_S1x128_S64x128 (ix2 p q) = B (ix1 q) :=
  (broadcastTo_1b_ab_apply _ _ p q).trans (shapeCast_a_1a_apply B _ 0 q)

/-- The reference's bias operand: the vector broadcast to one row along the column axis and then to every row reads the
    vector at the column. -/
theorem biasR8 (B : FVec Ideal Cert.ReferenceIdeal.S128 .f32) (p : Fin 64) (q : Fin 128) :
    broadcastInDim Cert.ReferenceIdeal.S64x128 ![0, 1] Cert.ReferenceIdeal.Facts₀.bcast_S1x128_S64x128_0_1
        (broadcastInDim Cert.ReferenceIdeal.S1x128 ![1] Cert.ReferenceIdeal.Facts₀.bcast_S128_S1x128_1 B) (ix2 p q)
      = B (ix1 q) := by
  refine (broadcastInDim_apply _ _ _ (ix2 p q) (ix2 (0 : Fin 1) q) fun a => ?_).trans
    (broadcastInDim_apply _ _ B (ix2 (0 : Fin 1) q) (ix1 q) fun a => ?_)
  · match a with
    | ⟨0, _⟩ => rfl
    | ⟨1, _⟩ => rfl
  · match a with
    | ⟨0, _⟩ => rfl

/-- The reference's zero: the rank-0 zero literal broadcast to the matrix is that literal's value at every index. -/
theorem zeroR8 (j : Cert.ReferenceIdeal.S64x128.Idx) :
    broadcastInDim Cert.ReferenceIdeal.S64x128 ![] Cert.ReferenceIdeal.Facts₀.bcast_S_S64x128
        (constant (F := Ideal) Cert.ReferenceIdeal.S_ .f32 0x00000000#32) j = Ideal.ofBits .f32 0x00000000#32 :=
  broadcastInDim_apply _ _ _ j ix0 fun a => a.elim0

/-- The layer: the kernel's stored value of the converted operands is the reference's max (x · w + b) 0. -/
theorem dense_eq8 (X : FVec Ideal Cert.KernelIdeal.S64x448 .f32) (W : FVec Ideal Cert.KernelIdeal.S448x128 .f32)
    (B : FVec Ideal Cert.KernelIdeal.S128 .f32) :
    Cert.KernelIdeal.Gen.k8_pay1 (F := Ideal)
        (truncf .bf16 X Cert.KernelIdeal.Facts₀.bitsLt_bf16_f32)
        (truncf .bf16 W Cert.KernelIdeal.Facts₀.bitsLt_bf16_f32)
        (shapeCast Cert.KernelIdeal.S1x128 B Cert.KernelIdeal.Facts₀.shapeCasts_S128_S1x128)
      = maximumf
          (addf (Host.dotGeneral (F := Ideal) Cert.ReferenceIdeal.dot_S64x448_S448x128_S64x128_1_0_0_1_n_n none X W)
            (broadcastInDim Cert.ReferenceIdeal.S64x128 ![0, 1] Cert.ReferenceIdeal.Facts₀.bcast_S1x128_S64x128_0_1
              (broadcastInDim Cert.ReferenceIdeal.S1x128 ![1] Cert.ReferenceIdeal.Facts₀.bcast_S128_S1x128_1 B)))
          (broadcastInDim Cert.ReferenceIdeal.S64x128 ![] Cert.ReferenceIdeal.Facts₀.bcast_S_S64x128
            (constant (F := Ideal) Cert.ReferenceIdeal.S_ .f32 0x00000000#32)) := by
  funext i
  obtain ⟨p, q, rfl⟩ : ∃ (p : Fin 64) (q : Fin 128), i = ix2 p q := ⟨i 0, i 1, eq_ix2 i⟩
  unfold Cert.KernelIdeal.Gen.k8_pay1
  simp only [maximumf_apply, addf_apply, broadcast_apply, shapeCast_self]
  rw [prod8 X W (ix2 p q), biasK8 B p q, biasR8 B p q, zeroR8 (ix2 p q)]
  rfl

end Cert.Bridge
-- ==== Proof.DenseEq9.lean ====
/-
  Dense layer 9 over the extended reals: the value the kernel's body stores, applied to the layer's three operands as
  the program hands them over (x and w converted to bf16, the bias vector of length 2 reshaped to one row), is the
  reference's max (x · w + b) 0, for x of 64 rows and 128 columns and w of 128 rows and 2 columns. At row p and column q both
  sides are max (∑ k, x[p,k] * w[k,q] + b[q]) 0, because
  • a change of float format is the identity on extended reals;
  • a matrix product accumulated from the zero matrix and the host's product are the same sum over the contracted axis,
    the two programs' dimension numbers being one and the same record;
  • the bias reaches column q either as the one row [1,2] repeated down the rows, or through the two broadcasts
    [2] → [1,2] → [64,2] along the column axis;
  • the zero literal is the extended real 0, whether it is spread as a scalar or as a rank-0 tensor.
-/
import proofs.«161272_j16312285791078_1_alg».proof.Proof.Gen.KernelIdeal.Skeleton
import proofs.«161272_j16312285791078_1_alg».proof.ReferenceIdeal
import Idealize.ShloMosaic.Lib.ValueLayout
import Idealize.ShloMosaic.PureOps.Ideal.Laws

noncomputable section

namespace Cert.Bridge

open Idealize.ShloMosaic Idealize.ShloMosaic.ValueIdx

variable [Cert.ReferenceIdeal.Facts₀]

/-- The two programs contract the same axes: their dimension-number records are equal. -/
theorem dot9_eq :
    Cert.KernelIdeal.dot_S64x128_S128x2_S64x2_1_0_0_1_n_n
      = Cert.ReferenceIdeal.dot_S64x128_S128x2_S64x2_1_0_0_1_n_n := rfl

/-- The product at an index: accumulated from the zero matrix on the converted operands, it is the host's product of the
    operands themselves — both are the sum over the contracted axis of the entries' products. -/
theorem prod9 (X : FVec Ideal Cert.KernelIdeal.S64x128 .f32) (W : FVec Ideal Cert.KernelIdeal.S128x2 .f32)
    (j : Cert.KernelIdeal.S64x2.Idx) :
    matmul (F := Ideal) Cert.KernelIdeal.dot_S64x128_S128x2_S64x2_1_0_0_1_n_n none
        (truncf .bf16 X Cert.KernelIdeal.Facts₀.bitsLt_bf16_f32) (truncf .bf16 W Cert.KernelIdeal.Facts₀.bitsLt_bf16_f32)
        (constant Cert.KernelIdeal.S64x2 .f32 0x00000000#32) j
      = Host.dotGeneral (F := Ideal) Cert.ReferenceIdeal.dot_S64x128_S128x2_S64x2_1_0_0_1_n_n none X W j := by
  refine (Ideal.matmul_constant_zero_apply _ none _ _ j).trans ?_
  refine Eq.trans ?_ (Ideal.dotGeneral_apply _ none .single X W j).symm
  rw [dot9_eq]
  rfl

/-- The kernel's bias operand: the vector reshaped to one row, that row repeated down the rows, reads the vector at the
    column. -/
theorem biasK9 (B : FVec Ideal Cert.KernelIdeal.S2 .f32) (p : Fin 64) (q : Fin 2) :
    broadcastTo Cert.KernelIdeal.S64x2
        (shapeCast Cert.KernelIdeal.S1x2 B Cert.KernelIdeal.Facts₀.shapeCasts_S2_S1x2)
        Cert.KernelIdeal.Gen.broadcasts_S1x2_S64x2 (ix2 p q) = B (ix1 q) :=
  (broadcastTo_1b_ab_apply _ _ p q).trans (shapeCast_a_1a_apply B _ 0 q)

/-- The reference's bias operand: the vector broadcast to one row along the column axis and then to every row reads the
    vector at the column. -/
theorem biasR9 (B : FVec Ideal Cert.ReferenceIdeal.S2 .f32) (p : Fin 64) (q : Fin 2) :
    broadcastInDim Cert.ReferenceIdeal.S64x2 ![0, 1] Cert.ReferenceIdeal.Facts₀.bcast_S1x2_S64x2_0_1
        (broadcastInDim Cert.ReferenceIdeal.S1x2 ![1] Cert.ReferenceIdeal.Facts₀.bcast_S2_S1x2_1 B) (ix2 p q)
      = B (ix1 q) := by
  refine (broadcastInDim_apply _ _ _ (ix2 p q) (ix2 (0 : Fin 1) q) fun a => ?_).trans
    (broadcastInDim_apply _ _ B (ix2 (0 : Fin 1) q) (ix1 q) fun a => ?_)
  · match a with
    | ⟨0, _⟩ => rfl
    | ⟨1, _⟩ => rfl
  · match a with
    | ⟨0, _⟩ => rfl

/-- The reference's zero: the rank-0 zero literal broadcast to the matrix is that literal's value at every index. -/
theorem zeroR9 (j : Cert.ReferenceIdeal.S64x2.Idx) :
    broadcastInDim Cert.ReferenceIdeal.S64x2 ![] Cert.ReferenceIdeal.Facts₀.bcast_S_S64x2
        (constant (F := Ideal) Cert.ReferenceIdeal.S_ .f32 0x00000000#32) j = Ideal.ofBits .f32 0x00000000#32 :=
  broadcastInDim_apply _ _ _ j ix0 fun a => a.elim0

/-- The layer: the kernel's stored value of the converted operands is the reference's max (x · w + b) 0. -/
theorem dense_eq9 (X : FVec Ideal Cert.KernelIdeal.S64x128 .f32) (W : FVec Ideal Cert.KernelIdeal.S128x2 .f32)
    (B : FVec Ideal Cert.KernelIdeal.S2 .f32) :
    Cert.KernelIdeal.Gen.k9_pay1 (F := Ideal)
        (truncf .bf16 X Cert.KernelIdeal.Facts₀.bitsLt_bf16_f32)
        (truncf .bf16 W Cert.KernelIdeal.Facts₀.bitsLt_bf16_f32)
        (shapeCast Cert.KernelIdeal.S1x2 B Cert.KernelIdeal.Facts₀.shapeCasts_S2_S1x2)
      = maximumf
          (addf (Host.dotGeneral (F := Ideal) Cert.ReferenceIdeal.dot_S64x128_S128x2_S64x2_1_0_0_1_n_n none X W)
            (broadcastInDim Cert.ReferenceIdeal.S64x2 ![0, 1] Cert.ReferenceIdeal.Facts₀.bcast_S1x2_S64x2_0_1
              (broadcastInDim Cert.ReferenceIdeal.S1x2 ![1] Cert.ReferenceIdeal.Facts₀.bcast_S2_S1x2_1 B)))
          (broadcastInDim Cert.ReferenceIdeal.S64x2 ![] Cert.ReferenceIdeal.Facts₀.bcast_S_S64x2
            (constant (F := Ideal) Cert.ReferenceIdeal.S_ .f32 0x00000000#32)) := by
  funext i
  obtain ⟨p, q, rfl⟩ : ∃ (p : Fin 64) (q : Fin 2), i = ix2 p q := ⟨i 0, i 1, eq_ix2 i⟩
  unfold Cert.KernelIdeal.Gen.k9_pay1
  simp only [maximumf_apply, addf_apply, broadcast_apply, shapeCast_self]
  rw [prod9 X W (ix2 p q), biasK9 B p q, biasR9 B p q, zeroR9 (ix2 p q)]
  rfl

end Cert.Bridge
-- ==== Proof.KArgs.lean ====
/-
  The 28 argument arrays of a launch memory of `KernelIdeal`, on one core, gathered as the record the reference's values are
  functions of: both programs take the same arguments in the same order, at the same shapes and element types.
-/
import proofs.«161272_j16312285791078_1_alg».proof.KernelIdeal
import proofs.«161272_j16312285791078_1_alg».proof.Proof.RefVals
import Idealize.ShloMosaic.PureOps.Ideal

noncomputable section

namespace Cert.Proof.KStage

open Idealize.ShloMosaic Idealize.ShloMosaic.TcCoe Idealize.SL.Sem
open Cert.KernelIdeal

/-- Core `c`'s argument arrays in the memory `m`. -/
def argsK (m : (ℓ : Loc nD τ sig) → Buf (Elt Ideal) ℓ) (c : Dev nD) : Cert.Proof.RefSide.Args Ideal :=
  ⟨m ((c.tc : Thread nD τ).loc main_arg0),
   m ((c.tc : Thread nD τ).loc main_arg1),
   m ((c.tc : Thread nD τ).loc main_arg2),
   m ((c.tc : Thread nD τ).loc main_arg3),
   m ((c.tc : Thread nD τ).loc main_arg4),
   m ((c.tc : Thread nD τ).loc main_arg5),
   m ((c.tc : Thread nD τ).loc main_arg6),
   m ((c.tc : Thread nD τ).loc main_arg7),
   m ((c.tc : Thread nD τ).loc main_arg8),
   m ((c.tc : Thread nD τ).loc main_arg9),
   m ((c.tc : Thread nD τ).loc main_arg10),
   m ((c.tc : Thread nD τ).loc main_arg11),
   m ((c.tc : Thread nD τ).loc main_arg12),
   m ((c.tc : Thread nD τ).loc main_arg13),
   m ((c.tc : Thread nD τ).loc main_arg14),
   m ((c.tc : Thread nD τ).loc main_arg15),
   m ((c.tc : Thread nD τ).loc main_arg16),
   m ((c.tc : Thread nD τ).loc main_arg17),
   m ((c.tc : Thread nD τ).loc main_arg18),
   m ((c.tc : Thread nD τ).loc main_arg19),
   m ((c.tc : Thread nD τ).loc main_arg20),
   m ((c.tc : Thread nD τ).loc main_arg21),
   m ((c.tc : Thread nD τ).loc main_arg22),
   m ((c.tc : Thread nD τ).loc main_arg23),
   m ((c.tc : Thread nD τ).loc main_arg24),
   m ((c.tc : Thread nD τ).loc main_arg25),
   m ((c.tc : Thread nD τ).loc main_arg26),
   m ((c.tc : Thread nD τ).loc main_arg27)⟩

theorem argsK_a0 (m : (ℓ : Loc nD τ sig) → Buf (Elt Ideal) ℓ) (c : Dev nD) : (argsK m c).a0 = m ((c.tc : Thread nD τ).loc main_arg0) := rfl
theorem argsK_a1 (m : (ℓ : Loc nD τ sig) → Buf (Elt Ideal) ℓ) (c : Dev nD) : (argsK m c).a1 = m ((c.tc : Thread nD τ).loc main_arg1) := rfl
theorem argsK_a2 (m : (ℓ : Loc nD τ sig) → Buf (Elt Ideal) ℓ) (c : Dev nD) : (argsK m c).a2 = m ((c.tc : Thread nD τ).loc main_arg2) := rfl
theorem argsK_a3 (m : (ℓ : Loc nD τ sig) → Buf (Elt Ideal) ℓ) (c : Dev nD) : (argsK m c).a3 = m ((c.tc : Thread nD τ).loc main_arg3) := rfl
theorem argsK_a4 (m : (ℓ : Loc nD τ sig) → Buf (Elt Ideal) ℓ) (c : Dev nD) : (argsK m c).a4 = m ((c.tc : Thread nD τ).loc main_arg4) := rfl
theorem argsK_a5 (m : (ℓ : Loc nD τ sig) → Buf (Elt Ideal) ℓ) (c : Dev nD) : (argsK m c).a5 = m ((c.tc : Thread nD τ).loc main_arg5) := rfl
theorem argsK_a6 (m : (ℓ : Loc nD τ sig) → Buf (Elt Ideal) ℓ) (c : Dev nD) : (argsK m c).a6 = m ((c.tc : Thread nD τ).loc main_arg6) := rfl
theorem argsK_a7 (m : (ℓ : Loc nD τ sig) → Buf (Elt Ideal) ℓ) (c : Dev nD) : (argsK m c).a7 = m ((c.tc : Thread nD τ).loc main_arg7) := rfl
theorem argsK_a8 (m : (ℓ : Loc nD τ sig) → Buf (Elt Ideal) ℓ) (c : Dev nD) : (argsK m c).a8 = m ((c.tc : Thread nD τ).loc main_arg8) := rfl
theorem argsK_a9 (m : (ℓ : Loc nD τ sig) → Buf (Elt Ideal) ℓ) (c : Dev nD) : (argsK m c).a9 = m ((c.tc : Thread nD τ).loc main_arg9) := rfl
theorem argsK_a10 (m : (ℓ : Loc nD τ sig) → Buf (Elt Ideal) ℓ) (c : Dev nD) : (argsK m c).a10 = m ((c.tc : Thread nD τ).loc main_arg10) := rfl
theorem argsK_a11 (m : (ℓ : Loc nD τ sig) → Buf (Elt Ideal) ℓ) (c : Dev nD) : (argsK m c).a11 = m ((c.tc : Thread nD τ).loc main_arg11) := rfl
theorem argsK_a12 (m : (ℓ : Loc nD τ sig) → Buf (Elt Ideal) ℓ) (c : Dev nD) : (argsK m c).a12 = m ((c.tc : Thread nD τ).loc main_arg12) := rfl
theorem argsK_a13 (m : (ℓ : Loc nD τ sig) → Buf (Elt Ideal) ℓ) (c : Dev nD) : (argsK m c).a13 = m ((c.tc : Thread nD τ).loc main_arg13) := rfl
theorem argsK_a14 (m : (ℓ : Loc nD τ sig) → Buf (Elt Ideal) ℓ) (c : Dev nD) : (argsK m c).a14 = m ((c.tc : Thread nD τ).loc main_arg14) := rfl
theorem argsK_a15 (m : (ℓ : Loc nD τ sig) → Buf (Elt Ideal) ℓ) (c : Dev nD) : (argsK m c).a15 = m ((c.tc : Thread nD τ).loc main_arg15) := rfl
theorem argsK_a16 (m : (ℓ : Loc nD τ sig) → Buf (Elt Ideal) ℓ) (c : Dev nD) : (argsK m c).a16 = m ((c.tc : Thread nD τ).loc main_arg16) := rfl
theorem argsK_a17 (m : (ℓ : Loc nD τ sig) → Buf (Elt Ideal) ℓ) (c : Dev nD) : (argsK m c).a17 = m ((c.tc : Thread nD τ).loc main_arg17) := rfl
theorem argsK_a18 (m : (ℓ : Loc nD τ sig) → Buf (Elt Ideal) ℓ) (c : Dev nD) : (argsK m c).a18 = m ((c.tc : Thread nD τ).loc main_arg18) := rfl
theorem argsK_a19 (m : (ℓ : Loc nD τ sig) → Buf (Elt Ideal) ℓ) (c : Dev nD) : (argsK m c).a19 = m ((c.tc : Thread nD τ).loc main_arg19) := rfl
theorem argsK_a20 (m : (ℓ : Loc nD τ sig) → Buf (Elt Ideal) ℓ) (c : Dev nD) : (argsK m c).a20 = m ((c.tc : Thread nD τ).loc main_arg20) := rfl
theorem argsK_a21 (m : (ℓ : Loc nD τ sig) → Buf (Elt Ideal) ℓ) (c : Dev nD) : (argsK m c).a21 = m ((c.tc : Thread nD τ).loc main_arg21) := rfl
theorem argsK_a22 (m : (ℓ : Loc nD τ sig) → Buf (Elt Ideal) ℓ) (c : Dev nD) : (argsK m c).a22 = m ((c.tc : Thread nD τ).loc main_arg22) := rfl
theorem argsK_a23 (m : (ℓ : Loc nD τ sig) → Buf (Elt Ideal) ℓ) (c : Dev nD) : (argsK m c).a23 = m ((c.tc : Thread nD τ).loc main_arg23) := rfl
theorem argsK_a24 (m : (ℓ : Loc nD τ sig) → Buf (Elt Ideal) ℓ) (c : Dev nD) : (argsK m c).a24 = m ((c.tc : Thread nD τ).loc main_arg24) := rfl
theorem argsK_a25 (m : (ℓ : Loc nD τ sig) → Buf (Elt Ideal) ℓ) (c : Dev nD) : (argsK m c).a25 = m ((c.tc : Thread nD τ).loc main_arg25) := rfl
theorem argsK_a26 (m : (ℓ : Loc nD τ sig) → Buf (Elt Ideal) ℓ) (c : Dev nD) : (argsK m c).a26 = m ((c.tc : Thread nD τ).loc main_arg26) := rfl
theorem argsK_a27 (m : (ℓ : Loc nD τ sig) → Buf (Elt Ideal) ℓ) (c : Dev nD) : (argsK m c).a27 = m ((c.tc : Thread nD τ).loc main_arg27) := rfl

end Cert.Proof.KStage

end
-- ==== Proof.KStageMlp.lean ====
/-
  The dense layers of the two metadata branches and of the head, in the idealized kernel's run: each such region's output array is the
  reference's value of the same layer. A region's output array is the layer's payload of its three operand arrays as the region
  finds them; the host stretch before the region wrote those operands — the layer's input and weight matrix converted to bf16, the
  bias vector reshaped to one row — from buffers no earlier item has changed (an argument array, or the previous layer's output);
  and the payload of operands so prepared is max (x · w + b) 0, operation by operation the reference's own expression.
-/
import proofs.«161272_j16312285791078_1_alg».proof.Proof.KernelIdealKeep
import proofs.«161272_j16312285791078_1_alg».proof.Proof.KIFinal0
import proofs.«161272_j16312285791078_1_alg».proof.Proof.KIFinal1
import proofs.«161272_j16312285791078_1_alg».proof.Proof.KIFinal2
import proofs.«161272_j16312285791078_1_alg».proof.Proof.KIFinal3
import proofs.«161272_j16312285791078_1_alg».proof.Proof.KIFinal8
import proofs.«161272_j16312285791078_1_alg».proof.Proof.KIFinal9
import proofs.«161272_j16312285791078_1_alg».proof.Proof.KIHost0
import proofs.«161272_j16312285791078_1_alg».proof.Proof.KIHost8
import proofs.«161272_j16312285791078_1_alg».proof.Proof.KIHost9
import proofs.«161272_j16312285791078_1_alg».proof.Proof.DenseEq0
import proofs.«161272_j16312285791078_1_alg».proof.Proof.DenseEq1
import proofs.«161272_j16312285791078_1_alg».proof.Proof.DenseEq2
import proofs.«161272_j16312285791078_1_alg».proof.Proof.DenseEq3
import proofs.«161272_j16312285791078_1_alg».proof.Proof.DenseEq8
import proofs.«161272_j16312285791078_1_alg».proof.Proof.DenseEq9
import proofs.«161272_j16312285791078_1_alg».proof.Proof.RefVals
import proofs.«161272_j16312285791078_1_alg».proof.Proof.KArgs
import proofs.«161272_j16312285791078_1_alg».proof.Proof.Gen.ReferenceIdeal

set_option maxRecDepth 16384

noncomputable section

namespace Cert.Proof.KStage

open Cert.KernelIdeal Cert.KernelIdeal.Gen Cert.KernelIdeal.Asm Cert.KernelIdeal.HostRead Cert.KernelIdeal.HostFn Cert.Proof.RefSide
open Idealize.ShloMosaic Idealize.ShloMosaic.TcCoe

variable (m : (ℓ : Loc nD τ sig) → Buf (Elt Ideal) ℓ) (c : Dev nD)

/-- The protein-metadata branch's first layer: region 0's output array is the reference's %4. -/
theorem ks3 : U2 m c main_v3 = val_main_v4 (argsK m c) := by
  have e0 : U1 m c main_v0 = truncf (F := Ideal) (s := S64x18640) (φ := .f32) .bf16 ((argsK m c).a0 : FVec Ideal S64x18640 .f32) bitsLt_bf16_f32 :=
    (read0_main_v0 (U0 m c)).trans (congrArg (fun X : FVec Ideal S64x18640 .f32 => truncf (F := Ideal) (s := S64x18640) (φ := .f32) .bf16 X bitsLt_bf16_f32) (arg0_at0 m c))
  have e1 : U1 m c main_v1 = truncf (F := Ideal) (s := S18640x128) (φ := .f32) .bf16 ((argsK m c).a8 : FVec Ideal S18640x128 .f32) bitsLt_bf16_f32 :=
    (read0_main_v1 (U0 m c)).trans (congrArg (fun X : FVec Ideal S18640x128 .f32 => truncf (F := Ideal) (s := S18640x128) (φ := .f32) .bf16 X bitsLt_bf16_f32) (arg8_at0 m c))
  have e2 : U1 m c main_v2 = shapeCast S1x128 ((argsK m c).a9 : FVec Ideal S128 .f32) shapeCasts_S128_S1x128 :=
    (read0_main_v2 (U0 m c)).trans (congrArg (fun X : FVec Ideal S128 .f32 => shapeCast S1x128 X shapeCasts_S128_S1x128) (arg9_at0 m c))
  rw [U2_self]
  unfold X2
  refine (Cert.KernelIdeal.Fin.final0 (UV1 m) c).trans ?_
  show k0_pay1 (F := Ideal) (U1 m c main_v0) (U1 m c main_v1) (U1 m c main_v2) = _
  rw [e0, e1, e2]
  refine (Cert.Bridge.dense_eq0 _ _ _).trans ?_
  rfl

/-- The protein-metadata branch's second layer, fed the first layer's output: region 1's output array is the reference's %9. -/
theorem ks7 (h3 : U2 m c main_v3 = val_main_v4 (argsK m c)) : U4 m c main_v7 = val_main_v9 (argsK m c) := by
  have e0 : U3 m c main_v4 = truncf (F := Ideal) (s := S64x128) (φ := .f32) .bf16 (val_main_v4 (argsK m c) : FVec Ideal S64x128 .f32) bitsLt_bf16_f32 :=
    (read1_main_v4 (U2 m c)).trans (congrArg (fun X : FVec Ideal S64x128 .f32 => truncf (F := Ideal) (s := S64x128) (φ := .f32) .bf16 X bitsLt_bf16_f32) h3)
  have e1 : U3 m c main_v5 = truncf (F := Ideal) (s := S128x128) (φ := .f32) .bf16 ((argsK m c).a10 : FVec Ideal S128x128 .f32) bitsLt_bf16_f32 :=
    (read1_main_v5 (U2 m c)).trans (congrArg (fun X : FVec Ideal S128x128 .f32 => truncf (F := Ideal) (s := S128x128) (φ := .f32) .bf16 X bitsLt_bf16_f32) (arg10_at2 m c))
  have e2 : U3 m c main_v6 = shapeCast S1x128 ((argsK m c).a11 : FVec Ideal S128 .f32) shapeCasts_S128_S1x128 :=
    (read1_main_v6 (U2 m c)).trans (congrArg (fun X : FVec Ideal S128 .f32 => shapeCast S1x128 X shapeCasts_S128_S1x128) (arg11_at2 m c))
  rw [U4_self]
  unfold X4
  refine (Cert.KernelIdeal.Fin.final1 (UV3 m) c).trans ?_
  show k1_pay1 (F := Ideal) (U3 m c main_v4) (U3 m c main_v5) (U3 m c main_v6) = _
  rw [e0, e1, e2]
  refine (Cert.Bridge.dense_eq1 _ _ _).trans ?_
  rfl

/-- The molecule-metadata branch's first layer: region 2's output array is the reference's %14. -/
theorem ks11 : U6 m c main_v11 = val_main_v14 (argsK m c) := by
  have e0 : U5 m c main_v8 = truncf (F := Ideal) (s := S64x21) (φ := .f32) .bf16 ((argsK m c).a1 : FVec Ideal S64x21 .f32) bitsLt_bf16_f32 :=
    (read2_main_v8 (U4 m c)).trans (congrArg (fun X : FVec Ideal S64x21 .f32 => truncf (F := Ideal) (s := S64x21) (φ := .f32) .bf16 X bitsLt_bf16_f32) (arg1_at4 m c))
  have e1 : U5 m c main_v9 = truncf (F := Ideal) (s := S21x64) (φ := .f32) .bf16 ((argsK m c).a12 : FVec Ideal S21x64 .f32) bitsLt_bf16_f32 :=
    (read2_main_v9 (U4 m c)).trans (congrArg (fun X : FVec Ideal S21x64 .f32 => truncf (F := Ideal) (s := S21x64) (φ := .f32) .bf16 X bitsLt_bf16_f32) (arg12_at4 m c))
  have e2 : U5 m c main_v10 = shapeCast S1x64 ((argsK m c).a13 : FVec Ideal S64 .f32) shapeCasts_S64_S1x64 :=
    (read2_main_v10 (U4 m c)).trans (congrArg (fun X : FVec Ideal S64 .f32 => shapeCast S1x64 X shapeCasts_S64_S1x64) (arg13_at4 m c))
  rw [U6_self]
  unfold X6
  refine (Cert.KernelIdeal.Fin.final2 (UV5 m) c).trans ?_
  show k2_pay1 (F := Ideal) (U5 m c main_v8) (U5 m c main_v9) (U5 m c main_v10) = _
  rw [e0, e1, e2]
  refine (Cert.Bridge.dense_eq2 _ _ _).trans ?_
  rfl

/-- The molecule-metadata branch's second layer, fed the first layer's output: region 3's output array is the reference's %19. -/
theorem ks15 (h11 : U6 m c main_v11 = val_main_v14 (argsK m c)) : U8 m c main_v15 = val_main_v19 (argsK m c) := by
  have e0 : U7 m c main_v12 = truncf (F := Ideal) (s := S64x64) (φ := .f32) .bf16 (val_main_v14 (argsK m c) : FVec Ideal S64x64 .f32) bitsLt_bf16_f32 :=
    (read3_main_v12 (U6 m c)).trans (congrArg (fun X : FVec Ideal S64x64 .f32 => truncf (F := Ideal) (s := S64x64) (φ := .f32) .bf16 X bitsLt_bf16_f32) h11)
  have e1 : U7 m c main_v13 = truncf (F := Ideal) (s := S64x64) (φ := .f32) .bf16 ((argsK m c).a14 : FVec Ideal S64x64 .f32) bitsLt_bf16_f32 :=
    (read3_main_v13 (U6 m c)).trans (congrArg (fun X : FVec Ideal S64x64 .f32 => truncf (F := Ideal) (s := S64x64) (φ := .f32) .bf16 X bitsLt_bf16_f32) (arg14_at6 m c))
  have e2 : U7 m c main_v14 = shapeCast S1x64 ((argsK m c).a15 : FVec Ideal S64 .f32) shapeCasts_S64_S1x64 :=
    (read3_main_v14 (U6 m c)).trans (congrArg (fun X : FVec Ideal S64 .f32 => shapeCast S1x64 X shapeCasts_S64_S1x64) (arg15_at6 m c))
  rw [U8_self]
  unfold X8
  refine (Cert.KernelIdeal.Fin.final3 (UV7 m) c).trans ?_
  show k3_pay1 (F := Ideal) (U7 m c main_v12) (U7 m c main_v13) (U7 m c main_v14) = _
  rw [e0, e1, e2]
  refine (Cert.Bridge.dense_eq3 _ _ _).trans ?_
  rfl

/-- The head's first layer: its input rows are the four feature blocks side by side — the two metadata branches' outputs, kept since
    regions 1 and 3, the pooled protein features, kept since the stretch that pooled them, and the pooled molecule features the same
    stretches compute — so region 8's output array is the reference's %253. -/
theorem ks264 (h7 : U4 m c main_v7 = val_main_v9 (argsK m c)) (h15 : U8 m c main_v15 = val_main_v19 (argsK m c))
    (h137 : U21 m c main_v137 = val_main_v133 (argsK m c)) (h259 : U33 m c main_v259 = val_main_v247 (argsK m c)) :
    U34 m c main_v264 = val_main_v253 (argsK m c) := by
  have e259 := (read8_main_v259 (U28 m c)).symm.trans h259
  have e7 : U28 m c main_v7 = val_main_v9 (argsK m c) := (main_v7_at28 m c).trans h7
  have e15 : U28 m c main_v15 = val_main_v19 (argsK m c) := (main_v15_at28 m c).trans h15
  have e137 : U28 m c main_v137 = val_main_v133 (argsK m c) := (main_v137_at28 m c).trans h137
  have e0 : U33 m c main_v261 = truncf (F := Ideal) (s := S64x448) (φ := .f32) .bf16 (val_main_v248 (argsK m c) : FVec Ideal S64x448 .f32) bitsLt_bf16_f32 := by
    refine (read8_main_v261 (U28 m c)).trans ?_
    rw [e259, e7, e15, e137]
    rfl
  have e1 : U33 m c main_v262 = truncf (F := Ideal) (s := S448x128) (φ := .f32) .bf16 ((argsK m c).a24 : FVec Ideal S448x128 .f32) bitsLt_bf16_f32 :=
    (read8_main_v262 (U28 m c)).trans (congrArg (fun X : FVec Ideal S448x128 .f32 => truncf (F := Ideal) (s := S448x128) (φ := .f32) .bf16 X bitsLt_bf16_f32) (arg24_at28 m c))
  have e2 : U33 m c main_v263 = shapeCast S1x128 ((argsK m c).a25 : FVec Ideal S128 .f32) shapeCasts_S128_S1x128 :=
    (read8_main_v263 (U28 m c)).trans (congrArg (fun X : FVec Ideal S128 .f32 => shapeCast S1x128 X shapeCasts_S128_S1x128) (arg25_at28 m c))
  rw [U34_self]
  unfold X34
  refine (Cert.KernelIdeal.Fin.final8 (UV33 m) c).trans ?_
  show k8_pay1 (F := Ideal) (U33 m c main_v261) (U33 m c main_v262) (U33 m c main_v263) = _
  rw [e0, e1, e2]
  refine (Cert.Bridge.dense_eq8 _ _ _).trans ?_
  rfl

/-- The head's last layer, fed the layer before it: region 9's output array — the result — is the reference's %258. -/
theorem ks268 (h264 : U34 m c main_v264 = val_main_v253 (argsK m c)) : X36 m c = val_main_v258 (argsK m c) := by
  have e0 : U35 m c main_v265 = truncf (F := Ideal) (s := S64x128) (φ := .f32) .bf16 (val_main_v253 (argsK m c) : FVec Ideal S64x128 .f32) bitsLt_bf16_f32 :=
    (read9_main_v265 (U34 m c)).trans (congrArg (fun X : FVec Ideal S64x128 .f32 => truncf (F := Ideal) (s := S64x128) (φ := .f32) .bf16 X bitsLt_bf16_f32) h264)
  have e1 : U35 m c main_v266 = truncf (F := Ideal) (s := S128x2) (φ := .f32) .bf16 ((argsK m c).a26 : FVec Ideal S128x2 .f32) bitsLt_bf16_f32 :=
    (read9_main_v266 (U34 m c)).trans (congrArg (fun X : FVec Ideal S128x2 .f32 => truncf (F := Ideal) (s := S128x2) (φ := .f32) .bf16 X bitsLt_bf16_f32) (arg26_at34 m c))
  have e2 : U35 m c main_v267 = shapeCast S1x2 ((argsK m c).a27 : FVec Ideal S2 .f32) shapeCasts_S2_S1x2 :=
    (read9_main_v267 (U34 m c)).trans (congrArg (fun X : FVec Ideal S2 .f32 => shapeCast S1x2 X shapeCasts_S2_S1x2) (arg27_at34 m c))
  unfold X36
  refine (Cert.KernelIdeal.Fin.final9 (UV35 m) c).trans ?_
  show k9_pay1 (F := Ideal) (U35 m c main_v265) (U35 m c main_v266) (U35 m c main_v267) = _
  rw [e0, e1, e2]
  refine (Cert.Bridge.dense_eq9 _ _ _).trans ?_
  rfl

end Cert.Proof.KStage

end
-- ==== Proof.KIFinal4.lean ====
/-
  Region 4 of the idealized kernel's @main: the dense layer h = x · w (+ a bias that is zero, no activation) over the
  100000 rows of x, computed in 25 row tiles of 4000 rows. On the extended reals a row of a matrix product depends on that row
  of x only, so the tile computed at grid point t is rows 4000·t … 4000·t + 3999 of the whole product x · w; adding the zero
  bias changes nothing (a + 0 = a); and the 25 tiles cover the 100000 rows (row r lies in tile r / 4000). Hence the
  output array after the region is the whole product, entry (r, q) being the sum over l < 9 of x[r, l] · w[l, q], which is
  also what the host's dot_general of the two arrays is.
-/
import proofs.«161272_j16312285791078_1_alg».proof.Proof.KernelIdealRegion4
import proofs.«161272_j16312285791078_1_alg».proof.Proof.Gen.ReferenceIdeal
import Idealize.ShloMosaic.Lib.Pipeline.Value
import Idealize.ShloMosaic.Lib.ValueIdx
import Idealize.ShloMosaic.Lib.StackMember

noncomputable section

namespace Cert.KernelIdeal.Fin

open Cert.KernelIdeal Cert.KernelIdeal.Gen Cert.KernelIdeal.Rg
open Idealize.ShloMosaic Idealize.ShloMosaic.TcCoe Idealize.SL.Sem Idealize.ShloMosaic.ValueIdx
open Idealize.ShloMosaic.StackMember
open Idealize.ShloMosaic.Pipeline (Dat)

/-! ## The whole product, entry by entry -/

/-- The product of a 100000×9 matrix `X` and a 9×128 matrix `W` over the extended reals: entry (r, q) is the sum over the
    contracted coordinate of the products of the entries. -/
abbrev G4 (X : S100000x9.Idx → EReal) (W : S9x128.Idx → EReal) : S100000x128.Idx → EReal :=
  fun i => ∑ l : Fin 9, X (ix2 (i 0) l) * W (ix2 l (i 1))

/-- The tile product's dimension numbers are the plain ones: rows by the contracted axis, the contracted axis by columns. -/
theorem dot4_eq : dot_S4000x9_S9x128_S4000x128_1_0_0_1_n_n = DotDims.plain 4000 9 128 := rfl

/-- So are the whole product's, on the host's side. -/
theorem dotRef4_eq : Cert.ReferenceIdeal.dot_S100000x9_S9x128_S100000x128_1_0_0_1_n_n = DotDims.plain 100000 9 128 := rfl

/-- The host's product of the two whole arrays is `G4` of them, whatever float formats the arrays are kept in (on the
    extended reals a format carries no rounding). -/
theorem G4_eq_dot {φ₁ φ₂ : FTy} (X : FVec Ideal S100000x9 φ₁) (W : FVec Ideal S9x128 φ₂) :
    G4 X W = Host.dotGeneral (F := Ideal) Cert.ReferenceIdeal.dot_S100000x9_S9x128_S100000x128_1_0_0_1_n_n none X W := by
  funext i
  obtain ⟨r, q, rfl⟩ : ∃ (r : Fin 100000) (q : Fin 128), i = ix2 r q := ⟨i 0, i 1, eq_ix2 i⟩
  rw [dotRef4_eq]
  exact (dotGeneral_plain_apply none X W r q).symm

/-! ## One row tile -/

/-- What a grid point stores, at entry (p, q) of its tile: the product into a zero accumulator is the sum over the
    contracted coordinate of the products of the tile's row p of x and column q of w; the bias row, broadcast down
    the tile, is zero everywhere, and adding zero changes nothing. -/
theorem pay4_apply (x0 : Vec Ideal S4000x9 .bf16) (x1 : Vec Ideal S9x128 .bf16) (x2 : Vec Ideal S1x128 .f32)
    (hb : ∀ y, (x2 y : EReal) = (0 : EReal)) (j : S4000x128.Idx) :
    (k4_pay1 (F := Ideal) x0 x1 x2 j : EReal) = ∑ l : Fin 9, (x0 (ix2 (j 0) l) : EReal) * (x1 (ix2 l (j 1)) : EReal) := by
  obtain ⟨p, q, rfl⟩ : ∃ (p : Fin 4000) (q : Fin 128), j = ix2 p q := ⟨j 0, j 1, eq_ix2 j⟩
  show (k4_pay1 (F := Ideal) x0 x1 x2 (ix2 p q) : EReal) = ∑ l : Fin 9, (x0 (ix2 p l) : EReal) * (x1 (ix2 l q) : EReal)
  unfold k4_pay1
  simp only [shapeCast_self]
  rw [addf_apply, matmul_zero_eq_dotGeneral, dot4_eq, dotGeneral_plain_apply]
  rw [broadcastTo_apply x2 _ (ix2 p q) (ix2 (0 : Fin 1) q) ?_, hb, add_zero]
  intro a
  match a with
  | ⟨0, _⟩ => rfl
  | ⟨1, _⟩ => rfl

/-! ## From the tiles to the array -/

-- the buffer contents when the region is entered
variable (V : (c : Dev nD) → (b : Ref sig .tc) → Buf (Elt Ideal) ((c : Thread nD τ).loc b))

theorem hz4 : (![0, 0] : Fin 2 → Nat) = fun _ => 0 := funext fun a => by fin_cases a <;> rfl

/-- The block index maps over the 25 grid points: at point t the x window and the output window sit at row block t, column
    block 0; the w window stays at block (0, 0). -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_3.index t (0 : Fin 2) = t.val ∧ win4_3.index t (1 : Fin 2) = 0 :=
  (by decide +kernel : ∀ t : Fin grid4.N, _)

/-- The x tile at point t is rows 4000·t … of x: its entry (a, l) is x's entry (4000·t + a, l). -/
theorem iblk4_0_apply (c : Dev nD) (t : Fin cfg4.N) (x : S4000x9.Idx) (k : S100000x9.Idx)
    (hk0 : (k 0).val = 4000 * t.val + (x 0).val) (hk1 : (k 1).val = (x 1).val) :
    ((iblk4 V c 0 t : Vec Ideal S4000x9 .bf16) x : EReal) = (V c main_v17 : S100000x9.Idx → EReal) k := by
  obtain ⟨e0, e1, -⟩ := idx_facts4 t
  unfold iblk4
  rw [View.read_apply]
  show V c main_v17 _ = V c main_v17 _
  refine congrArg (V c main_v17) (funext fun a => Fin.ext ?_)
  match a with
  | ⟨0, _⟩ => show win4_0.index t (0 : Fin 2) * 4000 + 1 * (x 0).val = (k 0).val; omega
  | ⟨1, _⟩ => show win4_0.index t (1 : Fin 2) * 9 + 1 * (x 1).val = (k 1).val; omega

/-- The w block at every point is the whole of w. -/
theorem iblk4_1_apply (c : Dev nD) (t : Fin cfg4.N) (x : S9x128.Idx) (k : S9x128.Idx)
    (hk0 : (k 0).val = (x 0).val) (hk1 : (k 1).val = (x 1).val) :
    ((iblk4 V c 1 t : Vec Ideal S9x128 .bf16) x : EReal) = (V c main_v18 : S9x128.Idx → EReal) k := by
  obtain ⟨-, -, e0, e1, -⟩ := idx_facts4 t
  unfold iblk4
  rw [View.read_apply]
  show V c main_v18 _ = V c main_v18 _
  refine congrArg (V c main_v18) (funext fun a => Fin.ext ?_)
  match a with
  | ⟨0, _⟩ => show win4_1.index t (0 : Fin 2) * 9 + 1 * (x 0).val = (k 0).val; omega
  | ⟨1, _⟩ => show win4_1.index t (1 : Fin 2) * 128 + 1 * (x 1).val = (k 1).val; omega

/-- The bias block at every point is zero everywhere, the bias array being zero everywhere. -/
theorem iblk4_2_zero (c : Dev nD) (hb : ∀ y, (V c main_v19 : S1x128.Idx → EReal) y = (0 : EReal)) (t : Fin cfg4.N) (y : S1x128.Idx) :
    ((iblk4 V c 2 t : Vec Ideal S1x128 .f32) y : EReal) = (0 : EReal) := by
  unfold iblk4
  rw [View.read_apply]
  exact hb _

/-- What point t writes back is its block — rows 4000·t … 4000·t + 3999 — of the whole product: entry (a, q) of the tile is the
    sum over l of x[4000·t + a, l] · w[l, q]. -/
theorem flushed4_eq (c : Dev nD) (hb : ∀ y, (V c main_v19 : S1x128.Idx → EReal) y = (0 : EReal)) (t : Fin cfg4.N) :
    (dat4 V c).flushed 3 t = ((cfg4.win 3).blk t).view.read (Elt Ideal) (G4 (V c main_v17) (V c main_v18)) := by
  show (cfg4.win 3).cut (grid4.coords t) ((dat4 V c).after 3 t) = _
  rw [after4_3]
  unfold out4_3
  rw [View.canon_unit_zero hz4]
  simp only [View.ld_unit_zero (S := S4000x9) hz4, View.ld_unit_zero (S := S9x128) hz4, View.ld_unit_zero (S := S1x128) hz4]
  obtain ⟨-, -, -, -, e0, e1⟩ := idx_facts4 t
  funext j
  rw [View.read_apply]
  show (k4_pay1 (F := Ideal) (iblk4 V c 0 t) (iblk4 V c 1 t) (iblk4 V c 2 t) ((cfg4.win 3).xinj (grid4.coords t) j) : EReal)
    = G4 (V c main_v17) (V c main_v18) (((cfg4.win 3).blk t).view.emb j)
  refine (pay4_apply (iblk4 V c 0 t) (iblk4 V c 1 t) (iblk4 V c 2 t) (iblk4_2_zero V c hb t) _).trans ?_
  refine Finset.sum_congr rfl fun l _ => ?_
  refine congrArg₂ (· * ·) (iblk4_0_apply V c t _ _ ?_ rfl) (iblk4_1_apply V c t _ _ rfl ?_)
  · show win4_3.index t (0 : Fin 2) * 4000 + 1 * (j 0).val = 4000 * t.val + (j 0).val; omega
  · show win4_3.index t (1 : Fin 2) * 128 + 1 * (j 1).val = (j 1).val; omega

/-- An entry of the output array is in point t's block iff each coordinate is in the block's range on its axis. -/
theorem mem_blk4 (t : Fin cfg4.N) (i : S100000x128.Idx) :
    i ∈ ((cfg4.win 3).blk t).view.set ↔ ∀ a : Fin 2, win4_3.index t a * S4000x128.size a ≤ (i a).val ∧ (i a).val < win4_3.index t a * S4000x128.size a + S4000x128.size a := by
  show i ∈ ((View.whole main_v20).slice (win4_3.rect t)).set ↔ _
  rw [View.set_slice_whole, Rect.mem_set_unit]
  exact Iff.rfl

/-- The 25 row tiles cover the 100000 rows: row r lies in the tile of point r / 4000. -/
theorem cover4 (i : S100000x128.Idx) :
    ∃ t : Fin cfg4.N, (cfg4.win 3).flush t = true ∧ i ∈ ((cfg4.win 3).blk t).view.set := by
  have hi0 : (i 0).val < 100000 := (i 0).isLt
  have hi1 : (i 1).val < 128 := (i 1).isLt
  have hN : cfg4.N = 25 := N_4
  obtain ⟨t, ht⟩ : ∃ t : Fin cfg4.N, t.val = (i 0).val / 4000 := ⟨⟨(i 0).val / 4000, by rw [hN]; omega⟩, rfl⟩
  obtain ⟨-, -, -, -, e0, e1⟩ := idx_facts4 t
  refine ⟨t, flush4_3 t, ?_⟩
  rw [mem_blk4]
  intro a
  match a with
  | ⟨0, _⟩ => show win4_3.index t (0 : Fin 2) * 4000 ≤ (i 0).val ∧ (i 0).val < win4_3.index t (0 : Fin 2) * 4000 + 4000; omega
  | ⟨1, _⟩ => show win4_3.index t (1 : Fin 2) * 128 ≤ (i 1).val ∧ (i 1).val < win4_3.index t (1 : Fin 2) * 128 + 128; omega

/-- The output array after the region, entry by entry: the whole product of the x and w arrays the region was entered
    with, when the bias array is zero everywhere. -/
theorem final4_G (c : Dev nD) (hb : ∀ y, (V c main_v19 : S1x128.Idx → EReal) y = (0 : EReal)) :
    (dat4 V c).arrAt 3 cfg4.N = G4 (V c main_v17) (V c main_v18) :=
  (dat4 V c).arrAt_eq_of_cover 3 (G4 (V c main_v17) (V c main_v18)) (fun t _ => flushed4_eq V c hb t) (cover4)

/-- The same as the host's dot_general of the two arrays. -/
theorem final4 (c : Dev nD) (hb : ∀ y, (V c main_v19 : S1x128.Idx → EReal) y = (0 : EReal)) :
    (dat4 V c).arrAt 3 cfg4.N
      = Host.dotGeneral (F := Ideal) (φ₁ := .bf16) (φ₂ := .bf16) Cert.ReferenceIdeal.dot_S100000x9_S9x128_S100000x128_1_0_0_1_n_n none
          (V c main_v17) (V c main_v18) :=
  (final4_G V c hb).trans (G4_eq_dot _ _)

end Cert.KernelIdeal.Fin

end
-- ==== Proof.KIFinal5.lean ====
/-
  Region 5 of the idealized kernel's @main: the dense layer h = x · w (+ a bias that is zero, no activation) over the
  100000 rows of x, computed in 25 row tiles of 4000 rows. On the extended reals a row of a matrix product depends on that row
  of x only, so the tile computed at grid point t is rows 4000·t … 4000·t + 3999 of the whole product x · w; adding the zero
  bias changes nothing (a + 0 = a); and the 25 tiles cover the 100000 rows (row r lies in tile r / 4000). Hence the
  output array after the region is the whole product, entry (r, q) being the sum over l < 128 of x[r, l] · w[l, q], which is
  also what the host's dot_general of the two arrays is.
-/
import proofs.«161272_j16312285791078_1_alg».proof.Proof.KernelIdealRegion5
import proofs.«161272_j16312285791078_1_alg».proof.Proof.Gen.ReferenceIdeal
import Idealize.ShloMosaic.Lib.Pipeline.Value
import Idealize.ShloMosaic.Lib.ValueIdx
import Idealize.ShloMosaic.Lib.StackMember

noncomputable section

namespace Cert.KernelIdeal.Fin

open Cert.KernelIdeal Cert.KernelIdeal.Gen Cert.KernelIdeal.Rg
open Idealize.ShloMosaic Idealize.ShloMosaic.TcCoe Idealize.SL.Sem Idealize.ShloMosaic.ValueIdx
open Idealize.ShloMosaic.StackMember
open Idealize.ShloMosaic.Pipeline (Dat)

/-! ## The whole product, entry by entry -/

/-- The product of a 100000×128 matrix `X` and a 128×128 matrix `W` over the extended reals: entry (r, q) is the sum over the
    contracted coordinate of the products of the entries. -/
abbrev G5 (X : S100000x128.Idx → EReal) (W : S128x128.Idx → EReal) : S100000x128.Idx → EReal :=
  fun i => ∑ l : Fin 128, X (ix2 (i 0) l) * W (ix2 l (i 1))

/-- The tile product's dimension numbers are the plain ones: rows by the contracted axis, the contracted axis by columns. -/
theorem dot5_eq : dot_S4000x128_S128x128_S4000x128_1_0_0_1_n_n = DotDims.plain 4000 128 128 := rfl

/-- So are the whole product's, on the host's side. -/
theorem dotRef5_eq : Cert.ReferenceIdeal.dot_S100000x128_S128x128_S100000x128_1_0_0_1_n_n = DotDims.plain 100000 128 128 := rfl

/-- The host's product of the two whole arrays is `G5` of them, whatever float formats the arrays are kept in (on the
    extended reals a format carries no rounding). -/
theorem G5_eq_dot {φ₁ φ₂ : FTy} (X : FVec Ideal S100000x128 φ₁) (W : FVec Ideal S128x128 φ₂) :
    G5 X W = Host.dotGeneral (F := Ideal) Cert.ReferenceIdeal.dot_S100000x128_S128x128_S100000x128_1_0_0_1_n_n none X W := by
  funext i
  obtain ⟨r, q, rfl⟩ : ∃ (r : Fin 100000) (q : Fin 128), i = ix2 r q := ⟨i 0, i 1, eq_ix2 i⟩
  rw [dotRef5_eq]
  exact (dotGeneral_plain_apply none X W r q).symm

/-! ## One row tile -/

/-- What a grid point stores, at entry (p, q) of its tile: the product into a zero accumulator is the sum over the
    contracted coordinate of the products of the tile's row p of x and column q of w; the bias row, broadcast down
    the tile, is zero everywhere, and adding zero changes nothing. -/
theorem pay5_apply (x0 : Vec Ideal S4000x128 .bf16) (x1 : Vec Ideal S128x128 .bf16) (x2 : Vec Ideal S1x128 .f32)
    (hb : ∀ y, (x2 y : EReal) = (0 : EReal)) (j : S4000x128.Idx) :
    (k5_pay1 (F := Ideal) x0 x1 x2 j : EReal) = ∑ l : Fin 128, (x0 (ix2 (j 0) l) : EReal) * (x1 (ix2 l (j 1)) : EReal) := by
  obtain ⟨p, q, rfl⟩ : ∃ (p : Fin 4000) (q : Fin 128), j = ix2 p q := ⟨j 0, j 1, eq_ix2 j⟩
  show (k5_pay1 (F := Ideal) x0 x1 x2 (ix2 p q) : EReal) = ∑ l : Fin 128, (x0 (ix2 p l) : EReal) * (x1 (ix2 l q) : EReal)
  unfold k5_pay1
  simp only [shapeCast_self]
  rw [addf_apply, matmul_zero_eq_dotGeneral, dot5_eq, dotGeneral_plain_apply]
  rw [broadcastTo_apply x2 _ (ix2 p q) (ix2 (0 : Fin 1) q) ?_, hb, add_zero]
  intro a
  match a with
  | ⟨0, _⟩ => rfl
  | ⟨1, _⟩ => rfl

/-! ## From the tiles to the array -/

-- the buffer contents when the region is entered
variable (V : (c : Dev nD) → (b : Ref sig .tc) → Buf (Elt Ideal) ((c : Thread nD τ).loc b))

theorem hz5 : (![0, 0] : Fin 2 → Nat) = fun _ => 0 := funext fun a => by fin_cases a <;> rfl

/-- The block index maps over the 25 grid points: at point t the x window and the output window sit at row block t, column
    block 0; the w window stays at block (0, 0). -/
theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_3.index t (0 : Fin 2) = t.val ∧ win5_3.index t (1 : Fin 2) = 0 :=
  (by decide +kernel : ∀ t : Fin grid5.N, _)

/-- The x tile at point t is rows 4000·t … of x: its entry (a, l) is x's entry (4000·t + a, l). -/
theorem iblk5_0_apply (c : Dev nD) (t : Fin cfg5.N) (x : S4000x128.Idx) (k : S100000x128.Idx)
    (hk0 : (k 0).val = 4000 * t.val + (x 0).val) (hk1 : (k 1).val = (x 1).val) :
    ((iblk5 V c 0 t : Vec Ideal S4000x128 .bf16) x : EReal) = (V c main_v72 : S100000x128.Idx → EReal) k := by
  obtain ⟨e0, e1, -⟩ := idx_facts5 t
  unfold iblk5
  rw [View.read_apply]
  show V c main_v72 _ = V c main_v72 _
  refine congrArg (V c main_v72) (funext fun a => Fin.ext ?_)
  match a with
  | ⟨0, _⟩ => show win5_0.index t (0 : Fin 2) * 4000 + 1 * (x 0).val = (k 0).val; omega
  | ⟨1, _⟩ => show win5_0.index t (1 : Fin 2) * 128 + 1 * (x 1).val = (k 1).val; omega

/-- The w block at every point is the whole of w. -/
theorem iblk5_1_apply (c : Dev nD) (t : Fin cfg5.N) (x : S128x128.Idx) (k : S128x128.Idx)
    (hk0 : (k 0).val = (x 0).val) (hk1 : (k 1).val = (x 1).val) :
    ((iblk5 V c 1 t : Vec Ideal S128x128 .bf16) x : EReal) = (V c main_v73 : S128x128.Idx → EReal) k := by
  obtain ⟨-, -, e0, e1, -⟩ := idx_facts5 t
  unfold iblk5
  rw [View.read_apply]
  show V c main_v73 _ = V c main_v73 _
  refine congrArg (V c main_v73) (funext fun a => Fin.ext ?_)
  match a with
  | ⟨0, _⟩ => show win5_1.index t (0 : Fin 2) * 128 + 1 * (x 0).val = (k 0).val; omega
  | ⟨1, _⟩ => show win5_1.index t (1 : Fin 2) * 128 + 1 * (x 1).val = (k 1).val; omega

/-- The bias block at every point is zero everywhere, the bias array being zero everywhere. -/
theorem iblk5_2_zero (c : Dev nD) (hb : ∀ y, (V c main_v74 : S1x128.Idx → EReal) y = (0 : EReal)) (t : Fin cfg5.N) (y : S1x128.Idx) :
    ((iblk5 V c 2 t : Vec Ideal S1x128 .f32) y : EReal) = (0 : EReal) := by
  unfold iblk5
  rw [View.read_apply]
  exact hb _

/-- What point t writes back is its block — rows 4000·t … 4000·t + 3999 — of the whole product: entry (a, q) of the tile is the
    sum over l of x[4000·t + a, l] · w[l, q]. -/
theorem flushed5_eq (c : Dev nD) (hb : ∀ y, (V c main_v74 : S1x128.Idx → EReal) y = (0 : EReal)) (t : Fin cfg5.N) :
    (dat5 V c).flushed 3 t = ((cfg5.win 3).blk t).view.read (Elt Ideal) (G5 (V c main_v72) (V c main_v73)) := by
  show (cfg5.win 3).cut (grid5.coords t) ((dat5 V c).after 3 t) = _
  rw [after5_3]
  unfold out5_3
  rw [View.canon_unit_zero hz5]
  simp only [View.ld_unit_zero (S := S4000x128) hz5, View.ld_unit_zero (S := S128x128) hz5, View.ld_unit_zero (S := S1x128) hz5]
  obtain ⟨-, -, -, -, e0, e1⟩ := idx_facts5 t
  funext j
  rw [View.read_apply]
  show (k5_pay1 (F := Ideal) (iblk5 V c 0 t) (iblk5 V c 1 t) (iblk5 V c 2 t) ((cfg5.win 3).xinj (grid5.coords t) j) : EReal)
    = G5 (V c main_v72) (V c main_v73) (((cfg5.win 3).blk t).view.emb j)
  refine (pay5_apply (iblk5 V c 0 t) (iblk5 V c 1 t) (iblk5 V c 2 t) (iblk5_2_zero V c hb t) _).trans ?_
  refine Finset.sum_congr rfl fun l _ => ?_
  refine congrArg₂ (· * ·) (iblk5_0_apply V c t _ _ ?_ rfl) (iblk5_1_apply V c t _ _ rfl ?_)
  · show win5_3.index t (0 : Fin 2) * 4000 + 1 * (j 0).val = 4000 * t.val + (j 0).val; omega
  · show win5_3.index t (1 : Fin 2) * 128 + 1 * (j 1).val = (j 1).val; omega

/-- An entry of the output array is in point t's block iff each coordinate is in the block's range on its axis. -/
theorem mem_blk5 (t : Fin cfg5.N) (i : S100000x128.Idx) :
    i ∈ ((cfg5.win 3).blk t).view.set ↔ ∀ a : Fin 2, win5_3.index t a * S4000x128.size a ≤ (i a).val ∧ (i a).val < win5_3.index t a * S4000x128.size a + S4000x128.size a := by
  show i ∈ ((View.whole main_v75).slice (win5_3.rect t)).set ↔ _
  rw [View.set_slice_whole, Rect.mem_set_unit]
  exact Iff.rfl

/-- The 25 row tiles cover the 100000 rows: row r lies in the tile of point r / 4000. -/
theorem cover5 (i : S100000x128.Idx) :
    ∃ t : Fin cfg5.N, (cfg5.win 3).flush t = true ∧ i ∈ ((cfg5.win 3).blk t).view.set := by
  have hi0 : (i 0).val < 100000 := (i 0).isLt
  have hi1 : (i 1).val < 128 := (i 1).isLt
  have hN : cfg5.N = 25 := N_5
  obtain ⟨t, ht⟩ : ∃ t : Fin cfg5.N, t.val = (i 0).val / 4000 := ⟨⟨(i 0).val / 4000, by rw [hN]; omega⟩, rfl⟩
  obtain ⟨-, -, -, -, e0, e1⟩ := idx_facts5 t
  refine ⟨t, flush5_3 t, ?_⟩
  rw [mem_blk5]
  intro a
  match a with
  | ⟨0, _⟩ => show win5_3.index t (0 : Fin 2) * 4000 ≤ (i 0).val ∧ (i 0).val < win5_3.index t (0 : Fin 2) * 4000 + 4000; omega
  | ⟨1, _⟩ => show win5_3.index t (1 : Fin 2) * 128 ≤ (i 1).val ∧ (i 1).val < win5_3.index t (1 : Fin 2) * 128 + 128; omega

/-- The output array after the region, entry by entry: the whole product of the x and w arrays the region was entered
    with, when the bias array is zero everywhere. -/
theorem final5_G (c : Dev nD) (hb : ∀ y, (V c main_v74 : S1x128.Idx → EReal) y = (0 : EReal)) :
    (dat5 V c).arrAt 3 cfg5.N = G5 (V c main_v72) (V c main_v73) :=
  (dat5 V c).arrAt_eq_of_cover 3 (G5 (V c main_v72) (V c main_v73)) (fun t _ => flushed5_eq V c hb t) (cover5)

/-- The same as the host's dot_general of the two arrays. -/
theorem final5 (c : Dev nD) (hb : ∀ y, (V c main_v74 : S1x128.Idx → EReal) y = (0 : EReal)) :
    (dat5 V c).arrAt 3 cfg5.N
      = Host.dotGeneral (F := Ideal) (φ₁ := .bf16) (φ₂ := .bf16) Cert.ReferenceIdeal.dot_S100000x128_S128x128_S100000x128_1_0_0_1_n_n none
          (V c main_v72) (V c main_v73) :=
  (final5_G V c hb).trans (G5_eq_dot _ _)

end Cert.KernelIdeal.Fin

end
-- ==== Proof.KIHost5.lean ====
/-
  What the host stretches 5 … 5_4 of the idealized kernel's @main — one graph-convolution layer on the large graph, then the
  next dense layer's operand conversions — leave in the buffers that layer reads, over any contents the stretches are
  entered from. The stretches are read in pieces (the pieces after each concatenation separately), each piece over variable
  contents, and the pieces are joined by substituting what the earlier piece leaves for the later piece's inputs.
-/
import proofs.«161272_j16312285791078_1_alg».proof.Proof.KIHostFn

set_option maxRecDepth 2180

noncomputable section

namespace Cert.KernelIdeal.HostRead

open Idealize.ShloMosaic Idealize.ShloMosaic.TcCoe
open Cert.KernelIdeal Cert.KernelIdeal.Gen Cert.KernelIdeal.HostFn

/-! ## Stretch 5: the edge lists, the degrees -/

theorem s5A_r0 (W : Valuation τ sig (Elt Ideal)) (e : I32 S2x1600000) (he : W (Proc.devRef .tc main_arg4) = e) :
    StableHlo.after (List.take 3 (hostOps5 (F := Ideal))) W (Proc.devRef .tc main_v22) = shapeCast S1600000 (extractStridedSlice S1x1600000 ![0, 0] e slices_S2x1600000_S1x1600000_0_0) shapeCasts_S1x1600000_S1600000 := by
  subst he
  simp only [hostOps5, hostOps5_2, List.take_succ_cons, List.take_zero, List.drop_succ_cons, List.drop_zero]
  after_results_simp <;> (try rfl)

theorem s5A_i0 (W : Valuation τ sig (Elt Ideal))  :
    StableHlo.after (List.take 3 (hostOps5 (F := Ideal))) W (Proc.devRef .tc main_v23) = iotaInDim S100000 32 0 := by
  simp only [hostOps5, hostOps5_2, List.take_succ_cons, List.take_zero, List.drop_succ_cons, List.drop_zero]
  after_results_simp <;> (try rfl)

/-- What these operations leave alone: every buffer they do not write. -/
theorem s5A_fr (W : Valuation τ sig (Elt Ideal)) (r : Ref sig .tc) (hr : r ∉ ([main_v21, main_v22, main_v23] : List (Ref sig .tc))) :
    StableHlo.after (List.take 3 (hostOps5 (F := Ideal))) W (Proc.devRef .tc r) = W (Proc.devRef .tc r) :=
  StableHlo.after_of_writes_sub _ W (W := [main_v21, main_v22, main_v23]) (by
    simp only [hostOps5, hostOps5_2, List.take_succ_cons, List.take_zero, List.drop_succ_cons, List.drop_zero]
    simp only [List.Forall]
    refine ⟨?_, ?_, ?_⟩ <;> (simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide))) hr

theorem s5B_src (W : Valuation τ sig (Elt Ideal)) (a : I32 S1600000) (b : I32 S100000) (ha : W (Proc.devRef .tc main_v22) = a) (hb : W (Proc.devRef .tc main_v23) = b) :
    StableHlo.after (List.take 4 (List.drop 3 (hostOps5 (F := Ideal)))) W (Proc.devRef .tc main_v24) = catB a b := by
  subst ha; subst hb
  simp only [hostOps5, hostOps5_2, List.take_succ_cons, List.take_zero, List.drop_succ_cons, List.drop_zero]
  after_results_simp <;> (try rfl)

theorem s5B_r1 (W : Valuation τ sig (Elt Ideal)) (e : I32 S2x1600000) (he : W (Proc.devRef .tc main_arg4) = e) :
    StableHlo.after (List.take 4 (List.drop 3 (hostOps5 (F := Ideal)))) W (Proc.devRef .tc main_v26) = shapeCast S1600000 (extractStridedSlice S1x1600000 ![1, 0] e slices_S2x1600000_S1x1600000_1_0) shapeCasts_S1x1600000_S1600000 := by
  subst he
  simp only [hostOps5, hostOps5_2, List.take_succ_cons, List.take_zero, List.drop_succ_cons, List.drop_zero]
  after_results_simp <;> (try rfl)

theorem s5B_i1 (W : Valuation τ sig (Elt Ideal))  :
    StableHlo.after (List.take 4 (List.drop 3 (hostOps5 (F := Ideal)))) W (Proc.devRef .tc main_v27) = iotaInDim S100000 32 0 := by
  simp only [hostOps5, hostOps5_2, List.take_succ_cons, List.take_zero, List.drop_succ_cons, List.drop_zero]
  after_results_simp <;> (try rfl)

theorem s5C_dst (W : Valuation τ sig (Elt Ideal)) (a : I32 S1600000) (b : I32 S100000) (ha : W (Proc.devRef .tc main_v26) = a) (hb : W (Proc.devRef .tc main_v27) = b) :
    StableHlo.after (List.drop 4 (List.drop 3 (hostOps5 (F := Ideal)))) W (Proc.devRef .tc main_v28) = catB a b := by
  subst ha; subst hb
  simp only [hostOps5, hostOps5_2, List.take_succ_cons, List.take_zero, List.drop_succ_cons, List.drop_zero]
  after_results_simp <;> (try rfl)

theorem s5C_gt (W : Valuation τ sig (Elt Ideal)) (a : I32 S1600000) (b : I32 S100000) (ha : W (Proc.devRef .tc main_v26) = a) (hb : W (Proc.devRef .tc main_v27) = b) :
    StableHlo.after (List.drop 4 (List.drop 3 (hostOps5 (F := Ideal)))) W (Proc.devRef .tc main_v34) = degPosB (catB a b) := by
  subst ha; subst hb
  simp only [hostOps5, hostOps5_2, List.take_succ_cons, List.take_zero, List.drop_succ_cons, List.drop_zero]
  after_results_simp <;> (try rfl)

theorem s5C_rs (W : Valuation τ sig (Elt Ideal)) (a : I32 S1600000) (b : I32 S100000) (ha : W (Proc.devRef .tc main_v26) = a) (hb : W (Proc.devRef .tc main_v27) = b) :
    StableHlo.after (List.drop 4 (List.drop 3 (hostOps5 (F := Ideal)))) W (Proc.devRef .tc main_v37) = degRsqrtB (catB a b) := by
  subst ha; subst hb
  simp only [hostOps5, hostOps5_2, List.take_succ_cons, List.take_zero, List.drop_succ_cons, List.drop_zero]
  after_results_simp <;> (try rfl)

theorem s5C_cw (W : Valuation τ sig (Elt Ideal))  :
    StableHlo.after (List.drop 4 (List.drop 3 (hostOps5 (F := Ideal)))) W (Proc.devRef .tc main_cst_4) = constant (F := Ideal) S_ .f32 0x00000000#32 := by
  simp only [hostOps5, hostOps5_2, List.take_succ_cons, List.take_zero, List.drop_succ_cons, List.drop_zero]
  after_results_simp <;> (try rfl)

/-- What these operations leave alone: every buffer they do not write. -/
theorem s5C_fr (W : Valuation τ sig (Elt Ideal)) (r : Ref sig .tc) (hr : r ∉ ([main_v28, main_cst_0, main_v29, main_cst_1, main_v30, main_v31, main_v32, main_cst_2, main_v33, main_v34, main_cst_3, main_v35, main_v36, main_v37, main_cst_4] : List (Ref sig .tc))) :
    StableHlo.after (List.drop 4 (List.drop 3 (hostOps5 (F := Ideal)))) W (Proc.devRef .tc r) = W (Proc.devRef .tc r) :=
  StableHlo.after_of_writes_sub _ W (W := [main_v28, main_cst_0, main_v29, main_cst_1, main_v30, main_v31, main_v32, main_cst_2, main_v33, main_v34, main_cst_3, main_v35, main_v36, main_v37, main_cst_4]) (by
    simp only [hostOps5, hostOps5_2, List.take_succ_cons, List.take_zero, List.drop_succ_cons, List.drop_zero]
    simp only [List.Forall]
    refine ⟨?_, ?_, ?_, ?_, ?_, ?_, ?_, ?_, ?_, ?_, ?_, ?_, ?_, ?_, ?_⟩ <;> (simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide))) hr

/-- After stretch 5: the sources with the self loops. -/
theorem rd5_src (V : Valuation τ sig (Elt Ideal)) : StableHlo.after (hostOps5 (F := Ideal)) V (Proc.devRef .tc main_v24) = edgeSrcB (V (Proc.devRef .tc main_arg4)) := by
  rw [after_split 3 (hostOps5 (F := Ideal)), after_split 4 (List.drop 3 (hostOps5 (F := Ideal)))]
  exact (s5C_fr _ main_v24 (by decide)).trans (s5B_src _ _ _ (s5A_r0 V _ rfl) (s5A_i0 V))
/-- After stretch 5: the targets with the self loops. -/
theorem rd5_dst (V : Valuation τ sig (Elt Ideal)) : StableHlo.after (hostOps5 (F := Ideal)) V (Proc.devRef .tc main_v28) = edgeDstB (V (Proc.devRef .tc main_arg4)) := by
  rw [after_split 3 (hostOps5 (F := Ideal)), after_split 4 (List.drop 3 (hostOps5 (F := Ideal)))]
  exact s5C_dst _ _ _ (s5B_r1 _ _ (s5A_fr V main_arg4 (by decide))) (s5B_i1 _)
theorem rd5_gt (V : Valuation τ sig (Elt Ideal)) : StableHlo.after (hostOps5 (F := Ideal)) V (Proc.devRef .tc main_v34) = degPosB (edgeDstB (V (Proc.devRef .tc main_arg4))) := by
  rw [after_split 3 (hostOps5 (F := Ideal)), after_split 4 (List.drop 3 (hostOps5 (F := Ideal)))]
  exact s5C_gt _ _ _ (s5B_r1 _ _ (s5A_fr V main_arg4 (by decide))) (s5B_i1 _)
theorem rd5_rs (V : Valuation τ sig (Elt Ideal)) : StableHlo.after (hostOps5 (F := Ideal)) V (Proc.devRef .tc main_v37) = degRsqrtB (edgeDstB (V (Proc.devRef .tc main_arg4))) := by
  rw [after_split 3 (hostOps5 (F := Ideal)), after_split 4 (List.drop 3 (hostOps5 (F := Ideal)))]
  exact s5C_rs _ _ _ (s5B_r1 _ _ (s5A_fr V main_arg4 (by decide))) (s5B_i1 _)
theorem rd5_cw (V : Valuation τ sig (Elt Ideal)) : StableHlo.after (hostOps5 (F := Ideal)) V (Proc.devRef .tc main_cst_4) = constant (F := Ideal) S_ .f32 0x00000000#32 := by
  rw [after_split 3 (hostOps5 (F := Ideal)), after_split 4 (List.drop 3 (hostOps5 (F := Ideal)))]
  exact s5C_cw _

/-- What these operations leave alone: every buffer they do not write. -/
theorem fr5_0 (W : Valuation τ sig (Elt Ideal)) (r : Ref sig .tc) (hr : r ∉ ([main_v21, main_v22, main_v23, main_v24, main_v25, main_v26, main_v27, main_v28, main_cst_0, main_v29, main_cst_1, main_v30, main_v31, main_v32, main_cst_2, main_v33, main_v34, main_cst_3, main_v35, main_v36, main_v37, main_cst_4] : List (Ref sig .tc))) :
    StableHlo.after (hostOps5 (F := Ideal)) W (Proc.devRef .tc r) = W (Proc.devRef .tc r) :=
  StableHlo.after_of_writes_sub _ W (W := [main_v21, main_v22, main_v23, main_v24, main_v25, main_v26, main_v27, main_v28, main_cst_0, main_v29, main_cst_1, main_v30, main_v31, main_v32, main_cst_2, main_v33, main_v34, main_cst_3, main_v35, main_v36, main_v37, main_cst_4]) (by
    simp only [List.Forall]
    refine ⟨?_, ?_, ?_, ?_, ?_, ?_, ?_, ?_, ?_, ?_, ?_, ?_, ?_, ?_, ?_, ?_, ?_, ?_, ?_, ?_, ?_, ?_⟩ <;> (simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide))) hr

/-! ## Stretch 5_1: deg^(-1/2), zero where the degree is zero -/

theorem rd5_1_dinv (W : Valuation τ sig (Elt Ideal)) (g : I1 S100000) (r : F32 S100000) (c : F32 S_) (hg : W (Proc.devRef .tc main_v34) = g) (hr : W (Proc.devRef .tc main_v37) = r) (hc : W (Proc.devRef .tc main_cst_4) = c) :
    StableHlo.after (hostOps5_1 (F := Ideal)) W (Proc.devRef .tc main_v38) = select g r (broadcastInDim S100000 ![] bcast_S_S100000 c) := by
  subst hg; subst hr; subst hc
  after_results_simp <;> (try simp only [StableHlo.TRef.toBuf, StableHlo.TRef.ofBuf, cast_eq, id]) <;> (try rfl)

/-- What these operations leave alone: every buffer they do not write. -/
theorem fr5_1 (W : Valuation τ sig (Elt Ideal)) (r : Ref sig .tc) (hr : r ∉ ([main_call0_v0, main_call0_v1, main_v38] : List (Ref sig .tc))) :
    StableHlo.after (hostOps5_1 (F := Ideal)) W (Proc.devRef .tc r) = W (Proc.devRef .tc r) :=
  StableHlo.after_of_writes_sub _ W (W := [main_call0_v0, main_call0_v1, main_v38]) (by
    simp only [List.Forall]
    refine ⟨?_, ?_, ?_⟩ <;> (simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide))) hr

/-! ## Stretch 5_2: the weighted messages summed into their targets, plus the bias -/

theorem s5D_g1 (W : Valuation τ sig (Elt Ideal)) (d : F32 S100000) (s : I32 S1700000) (hd : W (Proc.devRef .tc main_v38) = d) (hs : W (Proc.devRef .tc main_v24) = s) :
    StableHlo.after (List.take 9 (hostOps5_2 (F := Ideal))) W (Proc.devRef .tc main_v45) = atNodeB d s := by
  subst hd; subst hs
  simp only [hostOps5, hostOps5_2, List.take_succ_cons, List.take_zero, List.drop_succ_cons, List.drop_zero]
  after_results_simp <;> (try rfl)

/-- What these operations leave alone: every buffer they do not write. -/
theorem s5D_fr (W : Valuation τ sig (Elt Ideal)) (r : Ref sig .tc) (hr : r ∉ ([main_c, main_v39, main_v40, main_c_5, main_v41, main_v42, main_v43, main_v44, main_v45] : List (Ref sig .tc))) :
    StableHlo.after (List.take 9 (hostOps5_2 (F := Ideal))) W (Proc.devRef .tc r) = W (Proc.devRef .tc r) :=
  StableHlo.after_of_writes_sub _ W (W := [main_c, main_v39, main_v40, main_c_5, main_v41, main_v42, main_v43, main_v44, main_v45]) (by
    simp only [hostOps5, hostOps5_2, List.take_succ_cons, List.take_zero, List.drop_succ_cons, List.drop_zero]
    simp only [List.Forall]
    refine ⟨?_, ?_, ?_, ?_, ?_, ?_, ?_, ?_, ?_⟩ <;> (simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide))) hr

theorem s5E_nb (W : Valuation τ sig (Elt Ideal)) (g : F32 S1700000) (d : F32 S100000) (t : I32 S1700000) (hg : W (Proc.devRef .tc main_v45) = g) (hd : W (Proc.devRef .tc main_v38) = d) (ht : W (Proc.devRef .tc main_v28) = t) :
    StableHlo.after (List.take 11 (List.drop 9 (hostOps5_2 (F := Ideal)))) W (Proc.devRef .tc main_v54) = edgeNormB g d t := by
  subst hg; subst hd; subst ht
  simp only [hostOps5, hostOps5_2, List.take_succ_cons, List.take_zero, List.drop_succ_cons, List.drop_zero]
  after_results_simp <;> (try rfl)

/-- What these operations leave alone: every buffer they do not write. -/
theorem s5E_fr (W : Valuation τ sig (Elt Ideal)) (r : Ref sig .tc) (hr : r ∉ ([main_c_6, main_v46, main_v47, main_c_7, main_v48, main_v49, main_v50, main_v51, main_v52, main_v53, main_v54] : List (Ref sig .tc))) :
    StableHlo.after (List.take 11 (List.drop 9 (hostOps5_2 (F := Ideal)))) W (Proc.devRef .tc r) = W (Proc.devRef .tc r) :=
  StableHlo.after_of_writes_sub _ W (W := [main_c_6, main_v46, main_v47, main_c_7, main_v48, main_v49, main_v50, main_v51, main_v52, main_v53, main_v54]) (by
    simp only [hostOps5, hostOps5_2, List.take_succ_cons, List.take_zero, List.drop_succ_cons, List.drop_zero]
    simp only [List.Forall]
    refine ⟨?_, ?_, ?_, ?_, ?_, ?_, ?_, ?_, ?_, ?_, ?_⟩ <;> (simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide))) hr

theorem s5F_m (W : Valuation τ sig (Elt Ideal)) (nb : F32 S1700000x1) (h : F32 S100000x128) (s : I32 S1700000) (hnb : W (Proc.devRef .tc main_v54) = nb) (hh : W (Proc.devRef .tc main_v20) = h) (hs : W (Proc.devRef .tc main_v24) = s) :
    StableHlo.after (List.take 11 (List.drop 11 (List.drop 9 (hostOps5_2 (F := Ideal))))) W (Proc.devRef .tc main_v63) = msgsB nb h s := by
  subst hnb; subst hh; subst hs
  simp only [hostOps5, hostOps5_2, List.take_succ_cons, List.take_zero, List.drop_succ_cons, List.drop_zero]
  after_results_simp <;> (try rfl)

/-- What these operations leave alone: every buffer they do not write. -/
theorem s5F_fr (W : Valuation τ sig (Elt Ideal)) (r : Ref sig .tc) (hr : r ∉ ([main_c_8, main_v55, main_v56, main_c_9, main_v57, main_v58, main_v59, main_v60, main_v61, main_v62, main_v63] : List (Ref sig .tc))) :
    StableHlo.after (List.take 11 (List.drop 11 (List.drop 9 (hostOps5_2 (F := Ideal))))) W (Proc.devRef .tc r) = W (Proc.devRef .tc r) :=
  StableHlo.after_of_writes_sub _ W (W := [main_c_8, main_v55, main_v56, main_c_9, main_v57, main_v58, main_v59, main_v60, main_v61, main_v62, main_v63]) (by
    simp only [hostOps5, hostOps5_2, List.take_succ_cons, List.take_zero, List.drop_succ_cons, List.drop_zero]
    simp only [List.Forall]
    refine ⟨?_, ?_, ?_, ?_, ?_, ?_, ?_, ?_, ?_, ?_, ?_⟩ <;> (simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide))) hr

theorem s5G_agg (W : Valuation τ sig (Elt Ideal)) (m : F32 S1700000x128) (t : I32 S1700000) (b : F32 S128) (hm : W (Proc.devRef .tc main_v63) = m) (ht : W (Proc.devRef .tc main_v28) = t) (hb : W (Proc.devRef .tc main_arg17) = b) :
    StableHlo.after (List.drop 11 (List.drop 11 (List.drop 9 (hostOps5_2 (F := Ideal))))) W (Proc.devRef .tc main_v69) = aggBiasB m t b := by
  subst hm; subst ht; subst hb
  simp only [hostOps5, hostOps5_2, List.take_succ_cons, List.take_zero, List.drop_succ_cons, List.drop_zero]
  after_results_simp <;> (try rfl)

/-- After stretch 5_2, from contents `W` holding deg^(-1/2) `d`, the edge lists `s`, `t`, the rows `h` and the bias `b`. -/
theorem rd5_2_agg (W : Valuation τ sig (Elt Ideal)) (d : F32 S100000) (s t : I32 S1700000) (h : F32 S100000x128) (b : F32 S128)
    (hd : W (Proc.devRef .tc main_v38) = d) (hs : W (Proc.devRef .tc main_v24) = s) (ht : W (Proc.devRef .tc main_v28) = t) (hh : W (Proc.devRef .tc main_v20) = h) (hb : W (Proc.devRef .tc main_arg17) = b) :
    StableHlo.after (hostOps5_2 (F := Ideal)) W (Proc.devRef .tc main_v69) = aggBiasB (msgsB (edgeNormB (atNodeB d s) d t) h s) t b := by
  rw [after_split 9 (hostOps5_2 (F := Ideal)), after_split 11 (List.drop 9 (hostOps5_2 (F := Ideal))), after_split 11 (List.drop 11 (List.drop 9 (hostOps5_2 (F := Ideal))))]
  exact s5G_agg _ _ _ _
    (s5F_m _ _ _ _ (s5E_nb _ _ _ _ (s5D_g1 W _ _ hd hs) ((s5D_fr W main_v38 (by decide)).trans hd) ((s5D_fr W main_v28 (by decide)).trans ht))
      ((s5E_fr _ main_v20 (by decide)).trans ((s5D_fr W main_v20 (by decide)).trans hh)) ((s5E_fr _ main_v24 (by decide)).trans ((s5D_fr W main_v24 (by decide)).trans hs)))
    ((s5F_fr _ main_v28 (by decide)).trans ((s5E_fr _ main_v28 (by decide)).trans ((s5D_fr W main_v28 (by decide)).trans ht)))
    ((s5F_fr _ main_arg17 (by decide)).trans ((s5E_fr _ main_arg17 (by decide)).trans ((s5D_fr W main_arg17 (by decide)).trans hb)))

/-- What these operations leave alone: every buffer they do not write. -/
theorem fr5_2 (W : Valuation τ sig (Elt Ideal)) (r : Ref sig .tc) (hr : r ∉ ([main_c, main_v39, main_v40, main_c_5, main_v41, main_v42, main_v43, main_v44, main_v45, main_c_6, main_v46, main_v47, main_c_7, main_v48, main_v49, main_v50, main_v51, main_v52, main_v53, main_v54, main_c_8, main_v55, main_v56, main_c_9, main_v57, main_v58, main_v59, main_v60, main_v61, main_v62, main_v63, main_cst_10, main_v64, main_v65, main_v66, main_v67, main_v68, main_v69] : List (Ref sig .tc))) :
    StableHlo.after (hostOps5_2 (F := Ideal)) W (Proc.devRef .tc r) = W (Proc.devRef .tc r) :=
  StableHlo.after_of_writes_sub _ W (W := [main_c, main_v39, main_v40, main_c_5, main_v41, main_v42, main_v43, main_v44, main_v45, main_c_6, main_v46, main_v47, main_c_7, main_v48, main_v49, main_v50, main_v51, main_v52, main_v53, main_v54, main_c_8, main_v55, main_v56, main_c_9, main_v57, main_v58, main_v59, main_v60, main_v61, main_v62, main_v63, main_cst_10, main_v64, main_v65, main_v66, main_v67, main_v68, main_v69]) (by
    simp only [List.Forall]
    refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> (simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide))) hr

/-! ## Stretch 5_3: relu -/

theorem rd5_3_out (W : Valuation τ sig (Elt Ideal)) (x : F32 S100000x128) (hx : W (Proc.devRef .tc main_v69) = x) :
    StableHlo.after (hostOps5_3 (F := Ideal)) W (Proc.devRef .tc main_v70) = reluB x := by
  subst hx
  after_results_simp <;> (try simp only [StableHlo.TRef.toBuf, StableHlo.TRef.ofBuf, cast_eq, id]) <;> (try rfl)

/-- What these operations leave alone: every buffer they do not write. -/
theorem fr5_3 (W : Valuation τ sig (Elt Ideal)) (r : Ref sig .tc) (hr : r ∉ ([main_call1_cst, main_call1_v0, main_v70] : List (Ref sig .tc))) :
    StableHlo.after (hostOps5_3 (F := Ideal)) W (Proc.devRef .tc r) = W (Proc.devRef .tc r) :=
  StableHlo.after_of_writes_sub _ W (W := [main_call1_cst, main_call1_v0, main_v70]) (by
    simp only [List.Forall]
    refine ⟨?_, ?_, ?_⟩ <;> (simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide))) hr

/-- The layer's output after stretches 5 … 5_3, over any contents `V`. -/
theorem rd5_out (V : Valuation τ sig (Elt Ideal)) :
    StableHlo.after (hostOps5_3 (F := Ideal)) (StableHlo.after (hostOps5_2 (F := Ideal)) (StableHlo.after (hostOps5_1 (F := Ideal)) (StableHlo.after (hostOps5 (F := Ideal)) V))) (Proc.devRef .tc main_v70)
      = gcnLayerB (V (Proc.devRef .tc main_v20)) (V (Proc.devRef .tc main_arg4)) (V (Proc.devRef .tc main_arg17)) :=
  rd5_3_out _ _ (rd5_2_agg _ _ _ _ _ _ (rd5_1_dinv _ _ _ _ (rd5_gt V) (rd5_rs V) (rd5_cw V))
    ((fr5_1 _ main_v24 (by decide)).trans (rd5_src V)) ((fr5_1 _ main_v28 (by decide)).trans (rd5_dst V))
    ((fr5_1 _ main_v20 (by decide)).trans (fr5_0 V main_v20 (by decide))) ((fr5_1 _ main_arg17 (by decide)).trans (fr5_0 V main_arg17 (by decide))))

/-! Buffers none of stretches 5 … 5_3 writes keep their contents through them. -/

theorem fr5_through_main_arg18 (V : Valuation τ sig (Elt Ideal)) :
    StableHlo.after (hostOps5_3 (F := Ideal)) (StableHlo.after (hostOps5_2 (F := Ideal)) (StableHlo.after (hostOps5_1 (F := Ideal)) (StableHlo.after (hostOps5 (F := Ideal)) V))) (Proc.devRef .tc main_arg18) = V (Proc.devRef .tc main_arg18) :=
  (fr5_3 _ main_arg18 (by decide)).trans ((fr5_2 _ main_arg18 (by decide)).trans ((fr5_1 _ main_arg18 (by decide)).trans (fr5_0 V main_arg18 (by decide))))

/-! ## Stretch 5_4: the next dense layer's operands -/

theorem rd5_4_x (W : Valuation τ sig (Elt Ideal)) (o : F32 S100000x128) (ho : W (Proc.devRef .tc main_v70) = o) :
    StableHlo.after (hostOps5_4 (F := Ideal)) W (Proc.devRef .tc main_v72) = truncf (F := Ideal) (s := S100000x128) (φ := .f32) .bf16 o bitsLt_bf16_f32 := by
  subst ho
  after_results_simp <;> (try rfl)

theorem rd5_4_w (W : Valuation τ sig (Elt Ideal)) (w : F32 S128x128) (hw : W (Proc.devRef .tc main_arg18) = w) :
    StableHlo.after (hostOps5_4 (F := Ideal)) W (Proc.devRef .tc main_v73) = truncf (F := Ideal) (s := S128x128) (φ := .f32) .bf16 w bitsLt_bf16_f32 := by
  subst hw
  after_results_simp <;> (try rfl)

theorem rd5_4_b (W : Valuation τ sig (Elt Ideal))  :
    StableHlo.after (hostOps5_4 (F := Ideal)) W (Proc.devRef .tc main_v74) = shapeCast S1x128 (broadcastInDim S128 ![] bcast_S_S128 (constant (F := Ideal) S_ .f32 0x00000000#32)) shapeCasts_S128_S1x128 := by
  after_results_simp <;> (try rfl)

/-! ## The five stretches in a row -/

/-- The next layer's input rows: the graph-convolution layer's output, rounded to bf16 (the identity here). -/
theorem read5_main_v72 (V : Valuation τ sig (Elt Ideal)) :
    StableHlo.after (hostOps5_4 (F := Ideal)) (StableHlo.after (hostOps5_3 (F := Ideal)) (StableHlo.after (hostOps5_2 (F := Ideal)) (StableHlo.after (hostOps5_1 (F := Ideal)) (StableHlo.after (hostOps5 (F := Ideal)) V)))) (Proc.devRef .tc main_v72)
      = truncf (F := Ideal) (s := S100000x128) (φ := .f32) .bf16 (gcnLayerB (V (Proc.devRef .tc main_v20)) (V (Proc.devRef .tc main_arg4)) (V (Proc.devRef .tc main_arg17))) bitsLt_bf16_f32 :=
  rd5_4_x _ _ (rd5_out V)
/-- The next layer's weights: the entry array rounded to bf16. -/
theorem read5_main_v73 (V : Valuation τ sig (Elt Ideal)) :
    StableHlo.after (hostOps5_4 (F := Ideal)) (StableHlo.after (hostOps5_3 (F := Ideal)) (StableHlo.after (hostOps5_2 (F := Ideal)) (StableHlo.after (hostOps5_1 (F := Ideal)) (StableHlo.after (hostOps5 (F := Ideal)) V)))) (Proc.devRef .tc main_v73)
      = truncf (F := Ideal) (s := S128x128) (φ := .f32) .bf16 (V (Proc.devRef .tc main_arg18)) bitsLt_bf16_f32 :=
  rd5_4_w _ _ (fr5_through_main_arg18 V)
/-- The next layer's bias: the zero vector as one row. -/
theorem read5_main_v74 (V : Valuation τ sig (Elt Ideal)) :
    StableHlo.after (hostOps5_4 (F := Ideal)) (StableHlo.after (hostOps5_3 (F := Ideal)) (StableHlo.after (hostOps5_2 (F := Ideal)) (StableHlo.after (hostOps5_1 (F := Ideal)) (StableHlo.after (hostOps5 (F := Ideal)) V)))) (Proc.devRef .tc main_v74)
      = shapeCast S1x128 (broadcastInDim S128 ![] bcast_S_S128 (constant (F := Ideal) S_ .f32 0x00000000#32)) shapeCasts_S128_S1x128 :=
  rd5_4_b _

end Cert.KernelIdeal.HostRead
-- ==== Proof.KIHost6.lean ====
/-
  What the host stretches 6 … 6_4 of the idealized kernel's @main — the second graph-convolution layer on the large graph, the mean pooling over the batch, and the next dense layer's operand conversions — leave in the buffers later items read, over any
  contents the stretches are entered from. The stretches are read in pieces (the pieces after each concatenation
  separately), each piece over variable contents, and the pieces are joined by substituting what the earlier piece leaves
  for the later piece's inputs.
-/
import proofs.«161272_j16312285791078_1_alg».proof.Proof.KIHostFn

set_option maxRecDepth 2180

noncomputable section

namespace Cert.KernelIdeal.HostRead

open Idealize.ShloMosaic Idealize.ShloMosaic.TcCoe
open Cert.KernelIdeal Cert.KernelIdeal.Gen Cert.KernelIdeal.HostFn

/-! ## Stretch 6: the edge lists, the degrees -/

theorem s6A_r0 (W : Valuation τ sig (Elt Ideal)) (e : I32 S2x1600000) (he : W (Proc.devRef .tc main_arg4) = e) :
    StableHlo.after (List.take 3 (hostOps6 (F := Ideal))) W (Proc.devRef .tc main_v77) = shapeCast S1600000 (extractStridedSlice S1x1600000 ![0, 0] e slices_S2x1600000_S1x1600000_0_0) shapeCasts_S1x1600000_S1600000 := by
  subst he
  simp only [hostOps6, hostOps6_2, List.take_succ_cons, List.take_zero, List.drop_succ_cons, List.drop_zero]
  after_results_simp <;> (try rfl)

theorem s6A_i0 (W : Valuation τ sig (Elt Ideal))  :
    StableHlo.after (List.take 3 (hostOps6 (F := Ideal))) W (Proc.devRef .tc main_v78) = iotaInDim S100000 32 0 := by
  simp only [hostOps6, hostOps6_2, List.take_succ_cons, List.take_zero, List.drop_succ_cons, List.drop_zero]
  after_results_simp <;> (try rfl)

/-- What these operations leave alone: every buffer they do not write. -/
theorem s6A_fr (W : Valuation τ sig (Elt Ideal)) (r : Ref sig .tc) (hr : r ∉ ([main_v76, main_v77, main_v78] : List (Ref sig .tc))) :
    StableHlo.after (List.take 3 (hostOps6 (F := Ideal))) W (Proc.devRef .tc r) = W (Proc.devRef .tc r) :=
  StableHlo.after_of_writes_sub _ W (W := [main_v76, main_v77, main_v78]) (by
    simp only [hostOps6, hostOps6_2, List.take_succ_cons, List.take_zero, List.drop_succ_cons, List.drop_zero]
    simp only [List.Forall]
    refine ⟨?_, ?_, ?_⟩ <;> (simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide))) hr

theorem s6B_src (W : Valuation τ sig (Elt Ideal)) (a : I32 S1600000) (b : I32 S100000) (ha : W (Proc.devRef .tc main_v77) = a) (hb : W (Proc.devRef .tc main_v78) = b) :
    StableHlo.after (List.take 4 (List.drop 3 (hostOps6 (F := Ideal)))) W (Proc.devRef .tc main_v79) = catB a b := by
  subst ha; subst hb
  simp only [hostOps6, hostOps6_2, List.take_succ_cons, List.take_zero, List.drop_succ_cons, List.drop_zero]
  after_results_simp <;> (try rfl)

theorem s6B_r1 (W : Valuation τ sig (Elt Ideal)) (e : I32 S2x1600000) (he : W (Proc.devRef .tc main_arg4) = e) :
    StableHlo.after (List.take 4 (List.drop 3 (hostOps6 (F := Ideal)))) W (Proc.devRef .tc main_v81) = shapeCast S1600000 (extractStridedSlice S1x1600000 ![1, 0] e slices_S2x1600000_S1x1600000_1_0) shapeCasts_S1x1600000_S1600000 := by
  subst he
  simp only [hostOps6, hostOps6_2, List.take_succ_cons, List.take_zero, List.drop_succ_cons, List.drop_zero]
  after_results_simp <;> (try rfl)

theorem s6B_i1 (W : Valuation τ sig (Elt Ideal))  :
    StableHlo.after (List.take 4 (List.drop 3 (hostOps6 (F := Ideal)))) W (Proc.devRef .tc main_v82) = iotaInDim S100000 32 0 := by
  simp only [hostOps6, hostOps6_2, List.take_succ_cons, List.take_zero, List.drop_succ_cons, List.drop_zero]
  after_results_simp <;> (try rfl)

theorem s6C_dst (W : Valuation τ sig (Elt Ideal)) (a : I32 S1600000) (b : I32 S100000) (ha : W (Proc.devRef .tc main_v81) = a) (hb : W (Proc.devRef .tc main_v82) = b) :
    StableHlo.after (List.drop 4 (List.drop 3 (hostOps6 (F := Ideal)))) W (Proc.devRef .tc main_v83) = catB a b := by
  subst ha; subst hb
  simp only [hostOps6, hostOps6_2, List.take_succ_cons, List.take_zero, List.drop_succ_cons, List.drop_zero]
  after_results_simp <;> (try rfl)

theorem s6C_gt (W : Valuation τ sig (Elt Ideal)) (a : I32 S1600000) (b : I32 S100000) (ha : W (Proc.devRef .tc main_v81) = a) (hb : W (Proc.devRef .tc main_v82) = b) :
    StableHlo.after (List.drop 4 (List.drop 3 (hostOps6 (F := Ideal)))) W (Proc.devRef .tc main_v89) = degPosB (catB a b) := by
  subst ha; subst hb
  simp only [hostOps6, hostOps6_2, List.take_succ_cons, List.take_zero, List.drop_succ_cons, List.drop_zero]
  after_results_simp <;> (try rfl)

theorem s6C_rs (W : Valuation τ sig (Elt Ideal)) (a : I32 S1600000) (b : I32 S100000) (ha : W (Proc.devRef .tc main_v81) = a) (hb : W (Proc.devRef .tc main_v82) = b) :
    StableHlo.after (List.drop 4 (List.drop 3 (hostOps6 (F := Ideal)))) W (Proc.devRef .tc main_v92) = degRsqrtB (catB a b) := by
  subst ha; subst hb
  simp only [hostOps6, hostOps6_2, List.take_succ_cons, List.take_zero, List.drop_succ_cons, List.drop_zero]
  after_results_simp <;> (try rfl)

theorem s6C_cw (W : Valuation τ sig (Elt Ideal))  :
    StableHlo.after (List.drop 4 (List.drop 3 (hostOps6 (F := Ideal)))) W (Proc.devRef .tc main_cst_16) = constant (F := Ideal) S_ .f32 0x00000000#32 := by
  simp only [hostOps6, hostOps6_2, List.take_succ_cons, List.take_zero, List.drop_succ_cons, List.drop_zero]
  after_results_simp <;> (try rfl)

/-- What these operations leave alone: every buffer they do not write. -/
theorem s6C_fr (W : Valuation τ sig (Elt Ideal)) (r : Ref sig .tc) (hr : r ∉ ([main_v83, main_cst_12, main_v84, main_cst_13, main_v85, main_v86, main_v87, main_cst_14, main_v88, main_v89, main_cst_15, main_v90, main_v91, main_v92, main_cst_16] : List (Ref sig .tc))) :
    StableHlo.after (List.drop 4 (List.drop 3 (hostOps6 (F := Ideal)))) W (Proc.devRef .tc r) = W (Proc.devRef .tc r) :=
  StableHlo.after_of_writes_sub _ W (W := [main_v83, main_cst_12, main_v84, main_cst_13, main_v85, main_v86, main_v87, main_cst_14, main_v88, main_v89, main_cst_15, main_v90, main_v91, main_v92, main_cst_16]) (by
    simp only [hostOps6, hostOps6_2, List.take_succ_cons, List.take_zero, List.drop_succ_cons, List.drop_zero]
    simp only [List.Forall]
    refine ⟨?_, ?_, ?_, ?_, ?_, ?_, ?_, ?_, ?_, ?_, ?_, ?_, ?_, ?_, ?_⟩ <;> (simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide))) hr

/-- After stretch 6: the sources with the self loops. -/
theorem rd6_src (V : Valuation τ sig (Elt Ideal)) : StableHlo.after (hostOps6 (F := Ideal)) V (Proc.devRef .tc main_v79) = edgeSrcB (V (Proc.devRef .tc main_arg4)) := by
  rw [after_split 3 (hostOps6 (F := Ideal)), after_split 4 (List.drop 3 (hostOps6 (F := Ideal)))]
  exact (s6C_fr _ main_v79 (by decide)).trans (s6B_src _ _ _ (s6A_r0 V _ rfl) (s6A_i0 V))
/-- After stretch 6: the targets with the self loops. -/
theorem rd6_dst (V : Valuation τ sig (Elt Ideal)) : StableHlo.after (hostOps6 (F := Ideal)) V (Proc.devRef .tc main_v83) = edgeDstB (V (Proc.devRef .tc main_arg4)) := by
  rw [after_split 3 (hostOps6 (F := Ideal)), after_split 4 (List.drop 3 (hostOps6 (F := Ideal)))]
  exact s6C_dst _ _ _ (s6B_r1 _ _ (s6A_fr V main_arg4 (by decide))) (s6B_i1 _)
theorem rd6_gt (V : Valuation τ sig (Elt Ideal)) : StableHlo.after (hostOps6 (F := Ideal)) V (Proc.devRef .tc main_v89) = degPosB (edgeDstB (V (Proc.devRef .tc main_arg4))) := by
  rw [after_split 3 (hostOps6 (F := Ideal)), after_split 4 (List.drop 3 (hostOps6 (F := Ideal)))]
  exact s6C_gt _ _ _ (s6B_r1 _ _ (s6A_fr V main_arg4 (by decide))) (s6B_i1 _)
theorem rd6_rs (V : Valuation τ sig (Elt Ideal)) : StableHlo.after (hostOps6 (F := Ideal)) V (Proc.devRef .tc main_v92) = degRsqrtB (edgeDstB (V (Proc.devRef .tc main_arg4))) := by
  rw [after_split 3 (hostOps6 (F := Ideal)), after_split 4 (List.drop 3 (hostOps6 (F := Ideal)))]
  exact s6C_rs _ _ _ (s6B_r1 _ _ (s6A_fr V main_arg4 (by decide))) (s6B_i1 _)
theorem rd6_cw (V : Valuation τ sig (Elt Ideal)) : StableHlo.after (hostOps6 (F := Ideal)) V (Proc.devRef .tc main_cst_16) = constant (F := Ideal) S_ .f32 0x00000000#32 := by
  rw [after_split 3 (hostOps6 (F := Ideal)), after_split 4 (List.drop 3 (hostOps6 (F := Ideal)))]
  exact s6C_cw _

/-- What these operations leave alone: every buffer they do not write. -/
theorem fr6_0 (W : Valuation τ sig (Elt Ideal)) (r : Ref sig .tc) (hr : r ∉ ([main_v76, main_v77, main_v78, main_v79, main_v80, main_v81, main_v82, main_v83, main_cst_12, main_v84, main_cst_13, main_v85, main_v86, main_v87, main_cst_14, main_v88, main_v89, main_cst_15, main_v90, main_v91, main_v92, main_cst_16] : List (Ref sig .tc))) :
    StableHlo.after (hostOps6 (F := Ideal)) W (Proc.devRef .tc r) = W (Proc.devRef .tc r) :=
  StableHlo.after_of_writes_sub _ W (W := [main_v76, main_v77, main_v78, main_v79, main_v80, main_v81, main_v82, main_v83, main_cst_12, main_v84, main_cst_13, main_v85, main_v86, main_v87, main_cst_14, main_v88, main_v89, main_cst_15, main_v90, main_v91, main_v92, main_cst_16]) (by
    simp only [List.Forall]
    refine ⟨?_, ?_, ?_, ?_, ?_, ?_, ?_, ?_, ?_, ?_, ?_, ?_, ?_, ?_, ?_, ?_, ?_, ?_, ?_, ?_, ?_, ?_⟩ <;> (simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide))) hr

/-! ## Stretch 6_1: deg^(-1/2), zero where the degree is zero -/

theorem rd6_1_dinv (W : Valuation τ sig (Elt Ideal)) (g : I1 S100000) (r : F32 S100000) (c : F32 S_) (hg : W (Proc.devRef .tc main_v89) = g) (hr : W (Proc.devRef .tc main_v92) = r) (hc : W (Proc.devRef .tc main_cst_16) = c) :
    StableHlo.after (hostOps6_1 (F := Ideal)) W (Proc.devRef .tc main_v93) = select g r (broadcastInDim S100000 ![] bcast_S_S100000 c) := by
  subst hg; subst hr; subst hc
  after_results_simp <;> (try simp only [StableHlo.TRef.toBuf, StableHlo.TRef.ofBuf, cast_eq, id]) <;> (try rfl)

/-- What these operations leave alone: every buffer they do not write. -/
theorem fr6_1 (W : Valuation τ sig (Elt Ideal)) (r : Ref sig .tc) (hr : r ∉ ([main_call2_v0, main_call2_v1, main_v93] : List (Ref sig .tc))) :
    StableHlo.after (hostOps6_1 (F := Ideal)) W (Proc.devRef .tc r) = W (Proc.devRef .tc r) :=
  StableHlo.after_of_writes_sub _ W (W := [main_call2_v0, main_call2_v1, main_v93]) (by
    simp only [List.Forall]
    refine ⟨?_, ?_, ?_⟩ <;> (simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide))) hr

/-! ## Stretch 6_2: the weighted messages summed into their targets, plus the bias -/

theorem s6D_g1 (W : Valuation τ sig (Elt Ideal)) (d : F32 S100000) (s : I32 S1700000) (hd : W (Proc.devRef .tc main_v93) = d) (hs : W (Proc.devRef .tc main_v79) = s) :
    StableHlo.after (List.take 9 (hostOps6_2 (F := Ideal))) W (Proc.devRef .tc main_v100) = atNodeB d s := by
  subst hd; subst hs
  simp only [hostOps6, hostOps6_2, List.take_succ_cons, List.take_zero, List.drop_succ_cons, List.drop_zero]
  after_results_simp <;> (try rfl)

/-- What these operations leave alone: every buffer they do not write. -/
theorem s6D_fr (W : Valuation τ sig (Elt Ideal)) (r : Ref sig .tc) (hr : r ∉ ([main_c_17, main_v94, main_v95, main_c_18, main_v96, main_v97, main_v98, main_v99, main_v100] : List (Ref sig .tc))) :
    StableHlo.after (List.take 9 (hostOps6_2 (F := Ideal))) W (Proc.devRef .tc r) = W (Proc.devRef .tc r) :=
  StableHlo.after_of_writes_sub _ W (W := [main_c_17, main_v94, main_v95, main_c_18, main_v96, main_v97, main_v98, main_v99, main_v100]) (by
    simp only [hostOps6, hostOps6_2, List.take_succ_cons, List.take_zero, List.drop_succ_cons, List.drop_zero]
    simp only [List.Forall]
    refine ⟨?_, ?_, ?_, ?_, ?_, ?_, ?_, ?_, ?_⟩ <;> (simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide))) hr

theorem s6E_nb (W : Valuation τ sig (Elt Ideal)) (g : F32 S1700000) (d : F32 S100000) (t : I32 S1700000) (hg : W (Proc.devRef .tc main_v100) = g) (hd : W (Proc.devRef .tc main_v93) = d) (ht : W (Proc.devRef .tc main_v83) = t) :
    StableHlo.after (List.take 11 (List.drop 9 (hostOps6_2 (F := Ideal)))) W (Proc.devRef .tc main_v109) = edgeNormB g d t := by
  subst hg; subst hd; subst ht
  simp only [hostOps6, hostOps6_2, List.take_succ_cons, List.take_zero, List.drop_succ_cons, List.drop_zero]
  after_results_simp <;> (try rfl)

/-- What these operations leave alone: every buffer they do not write. -/
theorem s6E_fr (W : Valuation τ sig (Elt Ideal)) (r : Ref sig .tc) (hr : r ∉ ([main_c_19, main_v101, main_v102, main_c_20, main_v103, main_v104, main_v105, main_v106, main_v107, main_v108, main_v109] : List (Ref sig .tc))) :
    StableHlo.after (List.take 11 (List.drop 9 (hostOps6_2 (F := Ideal)))) W (Proc.devRef .tc r) = W (Proc.devRef .tc r) :=
  StableHlo.after_of_writes_sub _ W (W := [main_c_19, main_v101, main_v102, main_c_20, main_v103, main_v104, main_v105, main_v106, main_v107, main_v108, main_v109]) (by
    simp only [hostOps6, hostOps6_2, List.take_succ_cons, List.take_zero, List.drop_succ_cons, List.drop_zero]
    simp only [List.Forall]
    refine ⟨?_, ?_, ?_, ?_, ?_, ?_, ?_, ?_, ?_, ?_, ?_⟩ <;> (simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide))) hr

theorem s6F_m (W : Valuation τ sig (Elt Ideal)) (nb : F32 S1700000x1) (h : F32 S100000x128) (s : I32 S1700000) (hnb : W (Proc.devRef .tc main_v109) = nb) (hh : W (Proc.devRef .tc main_v75) = h) (hs : W (Proc.devRef .tc main_v79) = s) :
    StableHlo.after (List.take 11 (List.drop 11 (List.drop 9 (hostOps6_2 (F := Ideal))))) W (Proc.devRef .tc main_v118) = msgsB nb h s := by
  subst hnb; subst hh; subst hs
  simp only [hostOps6, hostOps6_2, List.take_succ_cons, List.take_zero, List.drop_succ_cons, List.drop_zero]
  after_results_simp <;> (try rfl)

/-- What these operations leave alone: every buffer they do not write. -/
theorem s6F_fr (W : Valuation τ sig (Elt Ideal)) (r : Ref sig .tc) (hr : r ∉ ([main_c_21, main_v110, main_v111, main_c_22, main_v112, main_v113, main_v114, main_v115, main_v116, main_v117, main_v118] : List (Ref sig .tc))) :
    StableHlo.after (List.take 11 (List.drop 11 (List.drop 9 (hostOps6_2 (F := Ideal))))) W (Proc.devRef .tc r) = W (Proc.devRef .tc r) :=
  StableHlo.after_of_writes_sub _ W (W := [main_c_21, main_v110, main_v111, main_c_22, main_v112, main_v113, main_v114, main_v115, main_v116, main_v117, main_v118]) (by
    simp only [hostOps6, hostOps6_2, List.take_succ_cons, List.take_zero, List.drop_succ_cons, List.drop_zero]
    simp only [List.Forall]
    refine ⟨?_, ?_, ?_, ?_, ?_, ?_, ?_, ?_, ?_, ?_, ?_⟩ <;> (simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide))) hr

theorem s6G_agg (W : Valuation τ sig (Elt Ideal)) (m : F32 S1700000x128) (t : I32 S1700000) (b : F32 S128) (hm : W (Proc.devRef .tc main_v118) = m) (ht : W (Proc.devRef .tc main_v83) = t) (hb : W (Proc.devRef .tc main_arg19) = b) :
    StableHlo.after (List.drop 11 (List.drop 11 (List.drop 9 (hostOps6_2 (F := Ideal))))) W (Proc.devRef .tc main_v124) = aggBiasB m t b := by
  subst hm; subst ht; subst hb
  simp only [hostOps6, hostOps6_2, List.take_succ_cons, List.take_zero, List.drop_succ_cons, List.drop_zero]
  after_results_simp <;> (try rfl)

/-- After stretch 6_2, from contents `W` holding deg^(-1/2) `d`, the edge lists `s`, `t`, the rows `h` and the bias `b`. -/
theorem rd6_2_agg (W : Valuation τ sig (Elt Ideal)) (d : F32 S100000) (s t : I32 S1700000) (h : F32 S100000x128) (b : F32 S128)
    (hd : W (Proc.devRef .tc main_v93) = d) (hs : W (Proc.devRef .tc main_v79) = s) (ht : W (Proc.devRef .tc main_v83) = t) (hh : W (Proc.devRef .tc main_v75) = h) (hb : W (Proc.devRef .tc main_arg19) = b) :
    StableHlo.after (hostOps6_2 (F := Ideal)) W (Proc.devRef .tc main_v124) = aggBiasB (msgsB (edgeNormB (atNodeB d s) d t) h s) t b := by
  rw [after_split 9 (hostOps6_2 (F := Ideal)), after_split 11 (List.drop 9 (hostOps6_2 (F := Ideal))), after_split 11 (List.drop 11 (List.drop 9 (hostOps6_2 (F := Ideal))))]
  exact s6G_agg _ _ _ _
    (s6F_m _ _ _ _ (s6E_nb _ _ _ _ (s6D_g1 W _ _ hd hs) ((s6D_fr W main_v93 (by decide)).trans hd) ((s6D_fr W main_v83 (by decide)).trans ht))
      ((s6E_fr _ main_v75 (by decide)).trans ((s6D_fr W main_v75 (by decide)).trans hh)) ((s6E_fr _ main_v79 (by decide)).trans ((s6D_fr W main_v79 (by decide)).trans hs)))
    ((s6F_fr _ main_v83 (by decide)).trans ((s6E_fr _ main_v83 (by decide)).trans ((s6D_fr W main_v83 (by decide)).trans ht)))
    ((s6F_fr _ main_arg19 (by decide)).trans ((s6E_fr _ main_arg19 (by decide)).trans ((s6D_fr W main_arg19 (by decide)).trans hb)))

/-- What these operations leave alone: every buffer they do not write. -/
theorem fr6_2 (W : Valuation τ sig (Elt Ideal)) (r : Ref sig .tc) (hr : r ∉ ([main_c_17, main_v94, main_v95, main_c_18, main_v96, main_v97, main_v98, main_v99, main_v100, main_c_19, main_v101, main_v102, main_c_20, main_v103, main_v104, main_v105, main_v106, main_v107, main_v108, main_v109, main_c_21, main_v110, main_v111, main_c_22, main_v112, main_v113, main_v114, main_v115, main_v116, main_v117, main_v118, main_cst_23, main_v119, main_v120, main_v121, main_v122, main_v123, main_v124] : List (Ref sig .tc))) :
    StableHlo.after (hostOps6_2 (F := Ideal)) W (Proc.devRef .tc r) = W (Proc.devRef .tc r) :=
  StableHlo.after_of_writes_sub _ W (W := [main_c_17, main_v94, main_v95, main_c_18, main_v96, main_v97, main_v98, main_v99, main_v100, main_c_19, main_v101, main_v102, main_c_20, main_v103, main_v104, main_v105, main_v106, main_v107, main_v108, main_v109, main_c_21, main_v110, main_v111, main_c_22, main_v112, main_v113, main_v114, main_v115, main_v116, main_v117, main_v118, main_cst_23, main_v119, main_v120, main_v121, main_v122, main_v123, main_v124]) (by
    simp only [List.Forall]
    refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> (simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide))) hr

/-! ## Stretch 6_3: relu -/

theorem rd6_3_out (W : Valuation τ sig (Elt Ideal)) (x : F32 S100000x128) (hx : W (Proc.devRef .tc main_v124) = x) :
    StableHlo.after (hostOps6_3 (F := Ideal)) W (Proc.devRef .tc main_v125) = reluB x := by
  subst hx
  after_results_simp <;> (try simp only [StableHlo.TRef.toBuf, StableHlo.TRef.ofBuf, cast_eq, id]) <;> (try rfl)

/-- What these operations leave alone: every buffer they do not write. -/
theorem fr6_3 (W : Valuation τ sig (Elt Ideal)) (r : Ref sig .tc) (hr : r ∉ ([main_call3_cst, main_call3_v0, main_v125] : List (Ref sig .tc))) :
    StableHlo.after (hostOps6_3 (F := Ideal)) W (Proc.devRef .tc r) = W (Proc.devRef .tc r) :=
  StableHlo.after_of_writes_sub _ W (W := [main_call3_cst, main_call3_v0, main_v125]) (by
    simp only [List.Forall]
    refine ⟨?_, ?_, ?_⟩ <;> (simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide))) hr

/-- The layer's output after stretches 6 … 6_3, over any contents `V`. -/
theorem rd6_out (V : Valuation τ sig (Elt Ideal)) :
    StableHlo.after (hostOps6_3 (F := Ideal)) (StableHlo.after (hostOps6_2 (F := Ideal)) (StableHlo.after (hostOps6_1 (F := Ideal)) (StableHlo.after (hostOps6 (F := Ideal)) V))) (Proc.devRef .tc main_v125)
      = gcnLayerB (V (Proc.devRef .tc main_v75)) (V (Proc.devRef .tc main_arg4)) (V (Proc.devRef .tc main_arg19)) :=
  rd6_3_out _ _ (rd6_2_agg _ _ _ _ _ _ (rd6_1_dinv _ _ _ _ (rd6_gt V) (rd6_rs V) (rd6_cw V))
    ((fr6_1 _ main_v79 (by decide)).trans (rd6_src V)) ((fr6_1 _ main_v83 (by decide)).trans (rd6_dst V))
    ((fr6_1 _ main_v75 (by decide)).trans (fr6_0 V main_v75 (by decide))) ((fr6_1 _ main_arg19 (by decide)).trans (fr6_0 V main_arg19 (by decide))))

/-! Buffers none of stretches 6 … 6_3 writes keep their contents through them. -/

theorem fr6_through_main_arg5 (V : Valuation τ sig (Elt Ideal)) :
    StableHlo.after (hostOps6_3 (F := Ideal)) (StableHlo.after (hostOps6_2 (F := Ideal)) (StableHlo.after (hostOps6_1 (F := Ideal)) (StableHlo.after (hostOps6 (F := Ideal)) V))) (Proc.devRef .tc main_arg5) = V (Proc.devRef .tc main_arg5) :=
  (fr6_3 _ main_arg5 (by decide)).trans ((fr6_2 _ main_arg5 (by decide)).trans ((fr6_1 _ main_arg5 (by decide)).trans (fr6_0 V main_arg5 (by decide))))

theorem fr6_through_main_arg3 (V : Valuation τ sig (Elt Ideal)) :
    StableHlo.after (hostOps6_3 (F := Ideal)) (StableHlo.after (hostOps6_2 (F := Ideal)) (StableHlo.after (hostOps6_1 (F := Ideal)) (StableHlo.after (hostOps6 (F := Ideal)) V))) (Proc.devRef .tc main_arg3) = V (Proc.devRef .tc main_arg3) :=
  (fr6_3 _ main_arg3 (by decide)).trans ((fr6_2 _ main_arg3 (by decide)).trans ((fr6_1 _ main_arg3 (by decide)).trans (fr6_0 V main_arg3 (by decide))))

theorem fr6_through_main_arg20 (V : Valuation τ sig (Elt Ideal)) :
    StableHlo.after (hostOps6_3 (F := Ideal)) (StableHlo.after (hostOps6_2 (F := Ideal)) (StableHlo.after (hostOps6_1 (F := Ideal)) (StableHlo.after (hostOps6 (F := Ideal)) V))) (Proc.devRef .tc main_arg20) = V (Proc.devRef .tc main_arg20) :=
  (fr6_3 _ main_arg20 (by decide)).trans ((fr6_2 _ main_arg20 (by decide)).trans ((fr6_1 _ main_arg20 (by decide)).trans (fr6_0 V main_arg20 (by decide))))

/-! ## Stretch 6_4: the mean pooling over the batch, and the next dense layer's operands -/

theorem rd6_4_pool (W : Valuation τ sig (Elt Ideal)) (o : F32 S100000x128) (bt : I32 S100000) (ho : W (Proc.devRef .tc main_v125) = o) (hbt : W (Proc.devRef .tc main_arg5) = bt) :
    StableHlo.after (hostOps6_4 (F := Ideal)) W (Proc.devRef .tc main_v137) = meanPoolB o bt := by
  subst ho; subst hbt
  after_results_simp <;> (try rfl)

theorem rd6_4_x (W : Valuation τ sig (Elt Ideal)) (x : F32 S4096x9) (hx : W (Proc.devRef .tc main_arg3) = x) :
    StableHlo.after (hostOps6_4 (F := Ideal)) W (Proc.devRef .tc main_v139) = truncf (F := Ideal) (s := S4096x9) (φ := .f32) .bf16 x bitsLt_bf16_f32 := by
  subst hx
  after_results_simp <;> (try rfl)

theorem rd6_4_w (W : Valuation τ sig (Elt Ideal)) (w : F32 S9x128) (hw : W (Proc.devRef .tc main_arg20) = w) :
    StableHlo.after (hostOps6_4 (F := Ideal)) W (Proc.devRef .tc main_v140) = truncf (F := Ideal) (s := S9x128) (φ := .f32) .bf16 w bitsLt_bf16_f32 := by
  subst hw
  after_results_simp <;> (try rfl)

theorem rd6_4_b (W : Valuation τ sig (Elt Ideal))  :
    StableHlo.after (hostOps6_4 (F := Ideal)) W (Proc.devRef .tc main_v141) = shapeCast S1x128 (broadcastInDim S128 ![] bcast_S_S128 (constant (F := Ideal) S_ .f32 0x00000000#32)) shapeCasts_S128_S1x128 := by
  after_results_simp <;> (try rfl)

/-! ## The five stretches in a row -/

/-- The pooled features of the large graph: the mean over each graph of the layer's output rows. -/
theorem read6_main_v137 (V : Valuation τ sig (Elt Ideal)) :
    StableHlo.after (hostOps6_4 (F := Ideal)) (StableHlo.after (hostOps6_3 (F := Ideal)) (StableHlo.after (hostOps6_2 (F := Ideal)) (StableHlo.after (hostOps6_1 (F := Ideal)) (StableHlo.after (hostOps6 (F := Ideal)) V)))) (Proc.devRef .tc main_v137)
      = meanPoolB (gcnLayerB (V (Proc.devRef .tc main_v75)) (V (Proc.devRef .tc main_arg4)) (V (Proc.devRef .tc main_arg19))) (V (Proc.devRef .tc main_arg5)) :=
  rd6_4_pool _ _ _ (rd6_out V) (fr6_through_main_arg5 V)
/-- The next layer's input rows: the small graph's node features rounded to bf16. -/
theorem read6_main_v139 (V : Valuation τ sig (Elt Ideal)) :
    StableHlo.after (hostOps6_4 (F := Ideal)) (StableHlo.after (hostOps6_3 (F := Ideal)) (StableHlo.after (hostOps6_2 (F := Ideal)) (StableHlo.after (hostOps6_1 (F := Ideal)) (StableHlo.after (hostOps6 (F := Ideal)) V)))) (Proc.devRef .tc main_v139)
      = truncf (F := Ideal) (s := S4096x9) (φ := .f32) .bf16 (V (Proc.devRef .tc main_arg3)) bitsLt_bf16_f32 :=
  rd6_4_x _ _ (fr6_through_main_arg3 V)
/-- The next layer's weights: the entry array rounded to bf16. -/
theorem read6_main_v140 (V : Valuation τ sig (Elt Ideal)) :
    StableHlo.after (hostOps6_4 (F := Ideal)) (StableHlo.after (hostOps6_3 (F := Ideal)) (StableHlo.after (hostOps6_2 (F := Ideal)) (StableHlo.after (hostOps6_1 (F := Ideal)) (StableHlo.after (hostOps6 (F := Ideal)) V)))) (Proc.devRef .tc main_v140)
      = truncf (F := Ideal) (s := S9x128) (φ := .f32) .bf16 (V (Proc.devRef .tc main_arg20)) bitsLt_bf16_f32 :=
  rd6_4_w _ _ (fr6_through_main_arg20 V)
/-- The next layer's bias: the zero vector as one row. -/
theorem read6_main_v141 (V : Valuation τ sig (Elt Ideal)) :
    StableHlo.after (hostOps6_4 (F := Ideal)) (StableHlo.after (hostOps6_3 (F := Ideal)) (StableHlo.after (hostOps6_2 (F := Ideal)) (StableHlo.after (hostOps6_1 (F := Ideal)) (StableHlo.after (hostOps6 (F := Ideal)) V)))) (Proc.devRef .tc main_v141)
      = shapeCast S1x128 (broadcastInDim S128 ![] bcast_S_S128 (constant (F := Ideal) S_ .f32 0x00000000#32)) shapeCasts_S128_S1x128 :=
  rd6_4_b _

end Cert.KernelIdeal.HostRead
-- ==== Proof.KChainProt.lean ====
/-
  The protein graph's host computations between its dense layers, compared value by value with the reference: the two
  graph-convolution layers (edge lists with self loops, degrees, symmetric normalization, weighted aggregation, bias,
  relu) and the mean pooling are the same operations applied to the same arrays on both sides, so each named intermediate
  of the kernel's host chain IS the reference's value of the same operation.
-/
import proofs.«161272_j16312285791078_1_alg».proof.Proof.KIHostFn
import proofs.«161272_j16312285791078_1_alg».proof.Proof.RefVals

set_option maxHeartbeats 400000

noncomputable section

namespace Cert.Proof.KStage

open Idealize.ShloMosaic Idealize.ShloMosaic.TcCoe
open Cert.KernelIdeal.HostFn Cert.Proof.RefSide

variable (A : Args Ideal)

/-! ### Layer 1: the host chain from the edge index to the relu, value by value -/

theorem edgeSrcB_eq1 : edgeSrcB A.a4 = val_main_v24 A := rfl
theorem edgeDstB_eq1 : edgeDstB A.a4 = val_main_v28 A := rfl
theorem degB_eq1 : degB (val_main_v28 A) = val_main_v32 A := rfl
theorem degPosB_eq1 : degPosB (val_main_v28 A) = val_main_v34 A := rfl
theorem degRsqrtB_eq1 : degRsqrtB (val_main_v28 A) = val_main_v37 A := rfl
theorem dinvB_eq1 : dinvB (val_main_v28 A) = val_main_v38 A := rfl
theorem wrapSrcB_eq1 : wrapB (val_main_v24 A) = val_main_v43 A := rfl
theorem wrapDstB_eq1 : wrapB (val_main_v28 A) = val_main_v50 A := rfl
theorem atSrcB_eq1 : atNodeB (val_main_v38 A) (val_main_v24 A) = val_main_v45 A := rfl
theorem atDstB_eq1 : atNodeB (val_main_v38 A) (val_main_v28 A) = val_main_v52 A := rfl
theorem edgeNormB_eq1 : edgeNormB (val_main_v45 A) (val_main_v38 A) (val_main_v28 A) = val_main_v54 A := rfl
theorem msgsB_eq1 : msgsB (val_main_v54 A) (val_main_v20 A) (val_main_v24 A) = val_main_v63 A := rfl
theorem aggBiasB_eq1 : aggBiasB (val_main_v63 A) (val_main_v28 A) A.a17 = val_main_v69 A := rfl
theorem reluB_eq1 : reluB (val_main_v69 A) = val_main_v70 A := rfl

/-- The whole layer on the reference's input value is the reference's layer output. -/
theorem gcnB_eq1 : gcnLayerB (val_main_v20 A) A.a4 A.a17 = val_main_v70 A := by
  unfold gcnLayerB
  rw [edgeDstB_eq1, edgeSrcB_eq1, dinvB_eq1, atSrcB_eq1, edgeNormB_eq1, msgsB_eq1, aggBiasB_eq1, reluB_eq1]

/-! ### Layer 2: the host chain from the edge index to the relu, value by value -/

theorem edgeSrcB_eq2 : edgeSrcB A.a4 = val_main_v75 A := rfl
theorem edgeDstB_eq2 : edgeDstB A.a4 = val_main_v79 A := rfl
theorem degB_eq2 : degB (val_main_v79 A) = val_main_v83 A := rfl
theorem degPosB_eq2 : degPosB (val_main_v79 A) = val_main_v85 A := rfl
theorem degRsqrtB_eq2 : degRsqrtB (val_main_v79 A) = val_main_v88 A := rfl
theorem dinvB_eq2 : dinvB (val_main_v79 A) = val_main_v89 A := rfl
theorem wrapSrcB_eq2 : wrapB (val_main_v75 A) = val_main_v94 A := rfl
theorem wrapDstB_eq2 : wrapB (val_main_v79 A) = val_main_v101 A := rfl
theorem atSrcB_eq2 : atNodeB (val_main_v89 A) (val_main_v75 A) = val_main_v96 A := rfl
theorem atDstB_eq2 : atNodeB (val_main_v89 A) (val_main_v79 A) = val_main_v103 A := rfl
theorem edgeNormB_eq2 : edgeNormB (val_main_v96 A) (val_main_v89 A) (val_main_v79 A) = val_main_v105 A := rfl
theorem msgsB_eq2 : msgsB (val_main_v105 A) (val_main_v71 A) (val_main_v75 A) = val_main_v114 A := rfl
theorem aggBiasB_eq2 : aggBiasB (val_main_v114 A) (val_main_v79 A) A.a19 = val_main_v120 A := rfl
theorem reluB_eq2 : reluB (val_main_v120 A) = val_main_v121 A := rfl

/-- The whole layer on the reference's input value is the reference's layer output. -/
theorem gcnB_eq2 : gcnLayerB (val_main_v71 A) A.a4 A.a19 = val_main_v121 A := by
  unfold gcnLayerB
  rw [edgeDstB_eq2, edgeSrcB_eq2, dinvB_eq2, atSrcB_eq2, edgeNormB_eq2, msgsB_eq2, aggBiasB_eq2, reluB_eq2]

/-! ### The mean pooling over the batch -/

/-- The pooled protein features: the segment sums of the second layer's output over the batch divided by the segment
    sizes (at least 1), as the reference computes them. -/
theorem meanPoolB_eq : meanPoolB (val_main_v121 A) A.a5 = val_main_v133 A := rfl

end Cert.Proof.KStage

end
-- ==== Proof.KStageProt.lean ====
/-
  The protein graph in the idealized kernel's run, over the extended reals: the arrays its regions 4 and 5 leave, and the
  pooled features its host operations compute from region 5's array, are the reference's values %20, %71 and %133.
  • Region 4's array is the whole product of its two matrix operands when its bias row is zero. The host operations
    before it hand it the residue features and the first weight matrix converted to bf16 (a conversion is the identity
    on the extended reals) and the zero vector as one row; so the array is the product of the two argument arrays — the
    reference's %20.
  • Region 5 likewise: its first operand is the graph-convolution layer of region 4's array (the reference's %70 once
    that array is %20), so its array is the product with the second weight matrix — the reference's %71.
  • The layer of region 5's array, then the mean over each graph of the batch, is the reference's %133.
  No host operation writes an argument array, so each argument is read as launched.
-/
import proofs.«161272_j16312285791078_1_alg».proof.Proof.KernelIdealKeep
import proofs.«161272_j16312285791078_1_alg».proof.Proof.KIFinal4
import proofs.«161272_j16312285791078_1_alg».proof.Proof.KIFinal5
import proofs.«161272_j16312285791078_1_alg».proof.Proof.KIHost0
import proofs.«161272_j16312285791078_1_alg».proof.Proof.KIHost5
import proofs.«161272_j16312285791078_1_alg».proof.Proof.KIHost6
import proofs.«161272_j16312285791078_1_alg».proof.Proof.KArgs
import proofs.«161272_j16312285791078_1_alg».proof.Proof.KChainProt

noncomputable section

namespace Cert.Proof.KStage

open Idealize.ShloMosaic Idealize.ShloMosaic.TcCoe Idealize.SL.Sem
open Cert.KernelIdeal Cert.KernelIdeal.Gen Cert.KernelIdeal.Asm Cert.KernelIdeal.HostFn Cert.KernelIdeal.HostRead
open Cert.Proof.RefSide

variable (m : (ℓ : Loc nD τ sig) → Buf (Elt Ideal) ℓ) (c : Dev nD)

/-- The zero vector viewed as one row is zero at every entry. -/
theorem zeroRowProt_apply (y : S1x128.Idx) :
    ((shapeCast S1x128 (broadcastInDim S128 ![] bcast_S_S128 (constant (F := Ideal) S_ .f32 0x00000000#32)) shapeCasts_S128_S1x128
      : S1x128.Idx → EReal) y) = (0 : EReal) := by
  show Ideal.ofBits .f32 0x00000000#32 = 0
  exact Ideal.ofBits_zero_f32

/-- On the extended reals a conversion to a narrower float format is the identity. -/
theorem truncfProt_ideal {s : Shape} {φ ψ : FTy} (x : FVec Ideal s φ) (h : ψ.bits < φ.bits) :
    truncf (F := Ideal) ψ x h = x := rfl

/-- Region 4's array is the reference's %20, the residue features times the first weight matrix. -/
theorem ks20 : U10 m c main_v20 = val_main_v20 (argsK m c) := by
  have e17 : (UV9 m c main_v17 : S100000x9.Idx → EReal) = (argsK m c).a2 := by
    show U9 m c main_v17 = _
    unfold U9
    rw [read4_main_v17 (U8 m c), arg2_at8 m c, truncfProt_ideal]
    rfl
  have e18 : (UV9 m c main_v18 : S9x128.Idx → EReal) = (argsK m c).a16 := by
    show U9 m c main_v18 = _
    unfold U9
    rw [read4_main_v18 (U8 m c), arg16_at8 m c, truncfProt_ideal]
    rfl
  have hb : ∀ y, (UV9 m c main_v19 : S1x128.Idx → EReal) y = (0 : EReal) := by
    intro y
    show U9 m c main_v19 y = _
    unfold U9
    rw [read4_main_v19 (U8 m c)]
    exact zeroRowProt_apply y
  rw [U10_self]
  unfold X10
  refine (Cert.KernelIdeal.Fin.final4_G (UV9 m) c hb).trans ?_
  rw [e17, e18]
  exact Cert.KernelIdeal.Fin.G4_eq_dot (φ₁ := .f32) (φ₂ := .f32) (argsK m c).a2 (argsK m c).a16

/-- Region 5's array is the reference's %71: the layer of %20, times the second weight matrix. -/
theorem ks75 (h20 : U10 m c main_v20 = val_main_v20 (argsK m c)) :
    U16 m c main_v75 = val_main_v71 (argsK m c) := by
  have e72 : (UV15 m c main_v72 : S100000x128.Idx → EReal) = val_main_v70 (argsK m c) := by
    show U15 m c main_v72 = _
    unfold U15 U14 U13 U12 U11
    rw [read5_main_v72 (U10 m c), h20, arg4_at10 m c, arg17_at10 m c, truncfProt_ideal]
    exact gcnB_eq1 (argsK m c)
  have e73 : (UV15 m c main_v73 : S128x128.Idx → EReal) = (argsK m c).a18 := by
    show U15 m c main_v73 = _
    unfold U15 U14 U13 U12 U11
    rw [read5_main_v73 (U10 m c), arg18_at10 m c, truncfProt_ideal]
    rfl
  have hb : ∀ y, (UV15 m c main_v74 : S1x128.Idx → EReal) y = (0 : EReal) := by
    intro y
    show U15 m c main_v74 y = _
    unfold U15 U14 U13 U12 U11
    rw [read5_main_v74 (U10 m c)]
    exact zeroRowProt_apply y
  rw [U16_self]
  unfold X16
  refine (Cert.KernelIdeal.Fin.final5_G (UV15 m) c hb).trans ?_
  rw [e72, e73]
  exact Cert.KernelIdeal.Fin.G5_eq_dot (φ₁ := .f32) (φ₂ := .f32) (val_main_v70 (argsK m c)) (argsK m c).a18

/-- The pooled protein features are the reference's %133: the layer of %71, averaged over each graph of the batch. -/
theorem ks137 (h75 : U16 m c main_v75 = val_main_v71 (argsK m c)) :
    U21 m c main_v137 = val_main_v133 (argsK m c) := by
  unfold U21 U20 U19 U18 U17
  rw [read6_main_v137 (U16 m c), h75, arg4_at16 m c, arg19_at16 m c, arg5_at16 m c]
  exact (congrArg (fun x => meanPoolB x (argsK m c).a5) (gcnB_eq2 (argsK m c))).trans (meanPoolB_eq (argsK m c))

end Cert.Proof.KStage

end
-- ==== Proof.KIFinal6.lean ====
/-
  Region 6 of `KernelIdeal`'s @main — one dense layer on a grid of ONE point — read as a whole array: each window's one block
  sits at block index 0 on both axes, so an element of the block has the same coordinates in the array; hence each input block is
  its whole operand array, what the point writes back is the layer's payload of the three operand arrays, and that one block covers
  the output array. The output array after the region is therefore the payload of the operand arrays as the region finds them.
-/
import proofs.«161272_j16312285791078_1_alg».proof.Proof.KernelIdealRegion6
import Idealize.ShloMosaic.Lib.Pipeline.Value

set_option maxRecDepth 16384

noncomputable section

namespace Cert.KernelIdeal.Fin

open Cert.KernelIdeal Cert.KernelIdeal.Gen Cert.KernelIdeal.Rg
open Idealize.ShloMosaic Idealize.ShloMosaic.TcCoe
open Idealize.ShloMosaic.Pipeline (Dat Cfg Window)

variable {F : FTy → Type} [FloatOps F]

-- the TensorCore's buffer contents when the region is entered
variable (V : (c : Dev nD) → (b : Ref sig .tc) → Buf (Elt F) ((c : Thread nD τ).loc b))

/-- The zero offsets of the whole-block rectangles, as a constant function. -/
theorem hz6 : (![0, 0] : Fin 2 → Nat) = fun _ => 0 := funext fun a => by fin_cases a <;> rfl

/-- The printed index maps, decided over the grid: every window's block index is 0 on both axes at every point. -/
theorem idx6 : ∀ t : Fin cfg6.N,
    win6_0.index t (0 : Fin 2) = 0 ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0 :=
  (by decide +kernel : ∀ t : Fin grid6.N, _)

/-- An element of window 0's block has, in the array, the coordinates it has in the block (index × size + coordinate, at index 0). -/
theorem emb6_0 (t : Fin cfg6.N) (y : S4096x9.Idx) : ((cfg6.win 0).blk t).view.emb y = y := by
  obtain ⟨e0, e1, -⟩ := idx6 t
  funext a; apply Fin.ext
  match a with
  | ⟨0, _⟩ => show win6_0.index t (0 : Fin 2) * 4096 + 1 * (y 0).val = (y 0).val; omega
  | ⟨1, _⟩ => show win6_0.index t (1 : Fin 2) * 9 + 1 * (y 1).val = (y 1).val; omega

/-- An element of window 1's block has, in the array, the coordinates it has in the block (index × size + coordinate, at index 0). -/
theorem emb6_1 (t : Fin cfg6.N) (y : S9x128.Idx) : ((cfg6.win 1).blk t).view.emb y = y := by
  obtain ⟨-, -, e0, e1, -⟩ := idx6 t
  funext a; apply Fin.ext
  match a with
  | ⟨0, _⟩ => show win6_1.index t (0 : Fin 2) * 9 + 1 * (y 0).val = (y 0).val; omega
  | ⟨1, _⟩ => show win6_1.index t (1 : Fin 2) * 128 + 1 * (y 1).val = (y 1).val; omega

/-- An element of window 2's block has, in the array, the coordinates it has in the block (index × size + coordinate, at index 0). -/
theorem emb6_2 (t : Fin cfg6.N) (y : S1x128.Idx) : ((cfg6.win 2).blk t).view.emb y = y := by
  obtain ⟨-, -, -, -, e0, e1, -⟩ := idx6 t
  funext a; apply Fin.ext
  match a with
  | ⟨0, _⟩ => show win6_2.index t (0 : Fin 2) * 1 + 1 * (y 0).val = (y 0).val; omega
  | ⟨1, _⟩ => show win6_2.index t (1 : Fin 2) * 128 + 1 * (y 1).val = (y 1).val; omega

/-- An element of window 3's block has, in the array, the coordinates it has in the block (index × size + coordinate, at index 0). -/
theorem emb6_3 (t : Fin cfg6.N) (y : S4096x128.Idx) : ((cfg6.win 3).blk t).view.emb y = y := by
  obtain ⟨-, -, -, -, -, -, e0, e1⟩ := idx6 t
  funext a; apply Fin.ext
  match a with
  | ⟨0, _⟩ => show win6_3.index t (0 : Fin 2) * 4096 + 1 * (y 0).val = (y 0).val; omega
  | ⟨1, _⟩ => show win6_3.index t (1 : Fin 2) * 128 + 1 * (y 1).val = (y 1).val; omega

/-- Input window 0's block at the point is its whole array. -/
theorem iblk6_0_eq (c : Dev nD) (t : Fin cfg6.N) : iblk6 V c 0 t = (V c main_v139 : S4096x9.Idx → Elt F .bf16) := by
  funext y
  show V c main_v139 (((cfg6.win 0).blk t).view.emb y) = V c main_v139 y
  rw [emb6_0]

/-- Input window 1's block at the point is its whole array. -/
theorem iblk6_1_eq (c : Dev nD) (t : Fin cfg6.N) : iblk6 V c 1 t = (V c main_v140 : S9x128.Idx → Elt F .bf16) := by
  funext y
  show V c main_v140 (((cfg6.win 1).blk t).view.emb y) = V c main_v140 y
  rw [emb6_1]

/-- Input window 2's block at the point is its whole array. -/
theorem iblk6_2_eq (c : Dev nD) (t : Fin cfg6.N) : iblk6 V c 2 t = (V c main_v141 : S1x128.Idx → Elt F .f32) := by
  funext y
  show V c main_v141 (((cfg6.win 2).blk t).view.emb y) = V c main_v141 y
  rw [emb6_2]

/-- WHAT THE POINT WRITES BACK is the layer's payload of the three operand arrays — which is also the (whole) block of that payload
    the point's rectangle names. -/
theorem flushed6_eq (c : Dev nD) (t : Fin cfg6.N) :
    (dat6 V c).flushed 3 t = ((cfg6.win 3).blk t).view.read (Elt F) (k6_pay1 (V c main_v139) (V c main_v140) (V c main_v141) : S4096x128.Idx → Elt F .f32) := by
  show (cfg6.win 3).cut (grid6.coords t) ((dat6 V c).after 3 t) = _
  rw [after6_3]
  unfold out6_3
  rw [View.canon_unit_zero hz6]
  simp only [View.ld_unit_zero (S := S4096x9) hz6, View.ld_unit_zero (S := S9x128) hz6, View.ld_unit_zero (S := S1x128) hz6]
  rw [iblk6_0_eq, iblk6_1_eq, iblk6_2_eq]
  funext y
  show k6_pay1 (V c main_v139) (V c main_v140) (V c main_v141) y = k6_pay1 (V c main_v139) (V c main_v140) (V c main_v141) (((cfg6.win 3).blk t).view.emb y)
  rw [emb6_3]

/-- The one point's block covers the output array. -/
theorem cover6 (i : S4096x128.Idx) : ∃ t : Fin cfg6.N, (cfg6.win 3).flush t = true ∧ i ∈ ((cfg6.win 3).blk t).view.set := by
  refine ⟨t6_0, flush6_3 t6_0, ?_⟩
  rw [← emb6_3 t6_0 i]
  exact ((cfg6.win 3).blk t6_0).view.emb_mem_set i

/-- THE OUTPUT ARRAY after the region: the layer's payload of the operand arrays as the region finds them. -/
theorem final6 (c : Dev nD) :
    (dat6 V c).arrAt 3 cfg6.N = (k6_pay1 (V c main_v139) (V c main_v140) (V c main_v141) : S4096x128.Idx → Elt F .f32) :=
  (dat6 V c).arrAt_eq_of_cover 3 _ (fun t _ => flushed6_eq V c t) cover6

end Cert.KernelIdeal.Fin

end
-- ==== Proof.KIFinal7.lean ====
/-
  Region 7 of `KernelIdeal`'s @main — one dense layer on a grid of ONE point — read as a whole array: each window's one block
  sits at block index 0 on both axes, so an element of the block has the same coordinates in the array; hence each input block is
  its whole operand array, what the point writes back is the layer's payload of the three operand arrays, and that one block covers
  the output array. The output array after the region is therefore the payload of the operand arrays as the region finds them.
-/
import proofs.«161272_j16312285791078_1_alg».proof.Proof.KernelIdealRegion7
import Idealize.ShloMosaic.Lib.Pipeline.Value

set_option maxRecDepth 16384

noncomputable section

namespace Cert.KernelIdeal.Fin

open Cert.KernelIdeal Cert.KernelIdeal.Gen Cert.KernelIdeal.Rg
open Idealize.ShloMosaic Idealize.ShloMosaic.TcCoe
open Idealize.ShloMosaic.Pipeline (Dat Cfg Window)

variable {F : FTy → Type} [FloatOps F]

-- the TensorCore's buffer contents when the region is entered
variable (V : (c : Dev nD) → (b : Ref sig .tc) → Buf (Elt F) ((c : Thread nD τ).loc b))

/-- The zero offsets of the whole-block rectangles, as a constant function. -/
theorem hz7 : (![0, 0] : Fin 2 → Nat) = fun _ => 0 := funext fun a => by fin_cases a <;> rfl

/-- The printed index maps, decided over the grid: every window's block index is 0 on both axes at every point. -/
theorem idx7 : ∀ t : Fin cfg7.N,
    win7_0.index t (0 : Fin 2) = 0 ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0 :=
  (by decide +kernel : ∀ t : Fin grid7.N, _)

/-- An element of window 0's block has, in the array, the coordinates it has in the block (index × size + coordinate, at index 0). -/
theorem emb7_0 (t : Fin cfg7.N) (y : S4096x128.Idx) : ((cfg7.win 0).blk t).view.emb y = y := by
  obtain ⟨e0, e1, -⟩ := idx7 t
  funext a; apply Fin.ext
  match a with
  | ⟨0, _⟩ => show win7_0.index t (0 : Fin 2) * 4096 + 1 * (y 0).val = (y 0).val; omega
  | ⟨1, _⟩ => show win7_0.index t (1 : Fin 2) * 128 + 1 * (y 1).val = (y 1).val; omega

/-- An element of window 1's block has, in the array, the coordinates it has in the block (index × size + coordinate, at index 0). -/
theorem emb7_1 (t : Fin cfg7.N) (y : S128x128.Idx) : ((cfg7.win 1).blk t).view.emb y = y := by
  obtain ⟨-, -, e0, e1, -⟩ := idx7 t
  funext a; apply Fin.ext
  match a with
  | ⟨0, _⟩ => show win7_1.index t (0 : Fin 2) * 128 + 1 * (y 0).val = (y 0).val; omega
  | ⟨1, _⟩ => show win7_1.index t (1 : Fin 2) * 128 + 1 * (y 1).val = (y 1).val; omega

/-- An element of window 2's block has, in the array, the coordinates it has in the block (index × size + coordinate, at index 0). -/
theorem emb7_2 (t : Fin cfg7.N) (y : S1x128.Idx) : ((cfg7.win 2).blk t).view.emb y = y := by
  obtain ⟨-, -, -, -, e0, e1, -⟩ := idx7 t
  funext a; apply Fin.ext
  match a with
  | ⟨0, _⟩ => show win7_2.index t (0 : Fin 2) * 1 + 1 * (y 0).val = (y 0).val; omega
  | ⟨1, _⟩ => show win7_2.index t (1 : Fin 2) * 128 + 1 * (y 1).val = (y 1).val; omega

/-- An element of window 3's block has, in the array, the coordinates it has in the block (index × size + coordinate, at index 0). -/
theorem emb7_3 (t : Fin cfg7.N) (y : S4096x128.Idx) : ((cfg7.win 3).blk t).view.emb y = y := by
  obtain ⟨-, -, -, -, -, -, e0, e1⟩ := idx7 t
  funext a; apply Fin.ext
  match a with
  | ⟨0, _⟩ => show win7_3.index t (0 : Fin 2) * 4096 + 1 * (y 0).val = (y 0).val; omega
  | ⟨1, _⟩ => show win7_3.index t (1 : Fin 2) * 128 + 1 * (y 1).val = (y 1).val; omega

/-- Input window 0's block at the point is its whole array. -/
theorem iblk7_0_eq (c : Dev nD) (t : Fin cfg7.N) : iblk7 V c 0 t = (V c main_v194 : S4096x128.Idx → Elt F .bf16) := by
  funext y
  show V c main_v194 (((cfg7.win 0).blk t).view.emb y) = V c main_v194 y
  rw [emb7_0]

/-- Input window 1's block at the point is its whole array. -/
theorem iblk7_1_eq (c : Dev nD) (t : Fin cfg7.N) : iblk7 V c 1 t = (V c main_v195 : S128x128.Idx → Elt F .bf16) := by
  funext y
  show V c main_v195 (((cfg7.win 1).blk t).view.emb y) = V c main_v195 y
  rw [emb7_1]

/-- Input window 2's block at the point is its whole array. -/
theorem iblk7_2_eq (c : Dev nD) (t : Fin cfg7.N) : iblk7 V c 2 t = (V c main_v196 : S1x128.Idx → Elt F .f32) := by
  funext y
  show V c main_v196 (((cfg7.win 2).blk t).view.emb y) = V c main_v196 y
  rw [emb7_2]

/-- WHAT THE POINT WRITES BACK is the layer's payload of the three operand arrays — which is also the (whole) block of that payload
    the point's rectangle names. -/
theorem flushed7_eq (c : Dev nD) (t : Fin cfg7.N) :
    (dat7 V c).flushed 3 t = ((cfg7.win 3).blk t).view.read (Elt F) (k7_pay1 (V c main_v194) (V c main_v195) (V c main_v196) : S4096x128.Idx → Elt F .f32) := by
  show (cfg7.win 3).cut (grid7.coords t) ((dat7 V c).after 3 t) = _
  rw [after7_3]
  unfold out7_3
  rw [View.canon_unit_zero hz7]
  simp only [View.ld_unit_zero (S := S4096x128) hz7, View.ld_unit_zero (S := S128x128) hz7, View.ld_unit_zero (S := S1x128) hz7]
  rw [iblk7_0_eq, iblk7_1_eq, iblk7_2_eq]
  funext y
  show k7_pay1 (V c main_v194) (V c main_v195) (V c main_v196) y = k7_pay1 (V c main_v194) (V c main_v195) (V c main_v196) (((cfg7.win 3).blk t).view.emb y)
  rw [emb7_3]

/-- The one point's block covers the output array. -/
theorem cover7 (i : S4096x128.Idx) : ∃ t : Fin cfg7.N, (cfg7.win 3).flush t = true ∧ i ∈ ((cfg7.win 3).blk t).view.set := by
  refine ⟨t7_0, flush7_3 t7_0, ?_⟩
  rw [← emb7_3 t7_0 i]
  exact ((cfg7.win 3).blk t7_0).view.emb_mem_set i

/-- THE OUTPUT ARRAY after the region: the layer's payload of the operand arrays as the region finds them. -/
theorem final7 (c : Dev nD) :
    (dat7 V c).arrAt 3 cfg7.N = (k7_pay1 (V c main_v194) (V c main_v195) (V c main_v196) : S4096x128.Idx → Elt F .f32) :=
  (dat7 V c).arrAt_eq_of_cover 3 _ (fun t _ => flushed7_eq V c t) cover7

end Cert.KernelIdeal.Fin

end
-- ==== Proof.KIHost7.lean ====
/-
  What the host stretches 7 … 7_4 of the idealized kernel's @main — the first graph-convolution layer on the small graph, then the next dense layer's operand conversions — leave in the buffers later items read, over any
  contents the stretches are entered from. The stretches are read in pieces (the pieces after each concatenation
  separately), each piece over variable contents, and the pieces are joined by substituting what the earlier piece leaves
  for the later piece's inputs.
-/
import proofs.«161272_j16312285791078_1_alg».proof.Proof.KIHostFn

set_option maxRecDepth 2180

noncomputable section

namespace Cert.KernelIdeal.HostRead

open Idealize.ShloMosaic Idealize.ShloMosaic.TcCoe
open Cert.KernelIdeal Cert.KernelIdeal.Gen Cert.KernelIdeal.HostFn

/-! ## Stretch 7: the edge lists, the degrees -/

theorem s7A_r0 (W : Valuation τ sig (Elt Ideal)) (e : I32 S2x16384) (he : W (Proc.devRef .tc main_arg6) = e) :
    StableHlo.after (List.take 3 (hostOps7 (F := Ideal))) W (Proc.devRef .tc main_v144) = shapeCast S16384 (extractStridedSlice S1x16384 ![0, 0] e slices_S2x16384_S1x16384_0_0) shapeCasts_S1x16384_S16384 := by
  subst he
  simp only [hostOps7, hostOps7_2, List.take_succ_cons, List.take_zero, List.drop_succ_cons, List.drop_zero]
  after_results_simp <;> (try rfl)

theorem s7A_i0 (W : Valuation τ sig (Elt Ideal))  :
    StableHlo.after (List.take 3 (hostOps7 (F := Ideal))) W (Proc.devRef .tc main_v145) = iotaInDim S4096 32 0 := by
  simp only [hostOps7, hostOps7_2, List.take_succ_cons, List.take_zero, List.drop_succ_cons, List.drop_zero]
  after_results_simp <;> (try rfl)

/-- What these operations leave alone: every buffer they do not write. -/
theorem s7A_fr (W : Valuation τ sig (Elt Ideal)) (r : Ref sig .tc) (hr : r ∉ ([main_v143, main_v144, main_v145] : List (Ref sig .tc))) :
    StableHlo.after (List.take 3 (hostOps7 (F := Ideal))) W (Proc.devRef .tc r) = W (Proc.devRef .tc r) :=
  StableHlo.after_of_writes_sub _ W (W := [main_v143, main_v144, main_v145]) (by
    simp only [hostOps7, hostOps7_2, List.take_succ_cons, List.take_zero, List.drop_succ_cons, List.drop_zero]
    simp only [List.Forall]
    refine ⟨?_, ?_, ?_⟩ <;> (simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide))) hr

theorem s7B_src (W : Valuation τ sig (Elt Ideal)) (a : I32 S16384) (b : I32 S4096) (ha : W (Proc.devRef .tc main_v144) = a) (hb : W (Proc.devRef .tc main_v145) = b) :
    StableHlo.after (List.take 4 (List.drop 3 (hostOps7 (F := Ideal)))) W (Proc.devRef .tc main_v146) = catS a b := by
  subst ha; subst hb
  simp only [hostOps7, hostOps7_2, List.take_succ_cons, List.take_zero, List.drop_succ_cons, List.drop_zero]
  after_results_simp <;> (try rfl)

theorem s7B_r1 (W : Valuation τ sig (Elt Ideal)) (e : I32 S2x16384) (he : W (Proc.devRef .tc main_arg6) = e) :
    StableHlo.after (List.take 4 (List.drop 3 (hostOps7 (F := Ideal)))) W (Proc.devRef .tc main_v148) = shapeCast S16384 (extractStridedSlice S1x16384 ![1, 0] e slices_S2x16384_S1x16384_1_0) shapeCasts_S1x16384_S16384 := by
  subst he
  simp only [hostOps7, hostOps7_2, List.take_succ_cons, List.take_zero, List.drop_succ_cons, List.drop_zero]
  after_results_simp <;> (try rfl)

theorem s7B_i1 (W : Valuation τ sig (Elt Ideal))  :
    StableHlo.after (List.take 4 (List.drop 3 (hostOps7 (F := Ideal)))) W (Proc.devRef .tc main_v149) = iotaInDim S4096 32 0 := by
  simp only [hostOps7, hostOps7_2, List.take_succ_cons, List.take_zero, List.drop_succ_cons, List.drop_zero]
  after_results_simp <;> (try rfl)

theorem s7C_dst (W : Valuation τ sig (Elt Ideal)) (a : I32 S16384) (b : I32 S4096) (ha : W (Proc.devRef .tc main_v148) = a) (hb : W (Proc.devRef .tc main_v149) = b) :
    StableHlo.after (List.drop 4 (List.drop 3 (hostOps7 (F := Ideal)))) W (Proc.devRef .tc main_v150) = catS a b := by
  subst ha; subst hb
  simp only [hostOps7, hostOps7_2, List.take_succ_cons, List.take_zero, List.drop_succ_cons, List.drop_zero]
  after_results_simp <;> (try rfl)

theorem s7C_gt (W : Valuation τ sig (Elt Ideal)) (a : I32 S16384) (b : I32 S4096) (ha : W (Proc.devRef .tc main_v148) = a) (hb : W (Proc.devRef .tc main_v149) = b) :
    StableHlo.after (List.drop 4 (List.drop 3 (hostOps7 (F := Ideal)))) W (Proc.devRef .tc main_v156) = degPosS (catS a b) := by
  subst ha; subst hb
  simp only [hostOps7, hostOps7_2, List.take_succ_cons, List.take_zero, List.drop_succ_cons, List.drop_zero]
  after_results_simp <;> (try rfl)

theorem s7C_rs (W : Valuation τ sig (Elt Ideal)) (a : I32 S16384) (b : I32 S4096) (ha : W (Proc.devRef .tc main_v148) = a) (hb : W (Proc.devRef .tc main_v149) = b) :
    StableHlo.after (List.drop 4 (List.drop 3 (hostOps7 (F := Ideal)))) W (Proc.devRef .tc main_v159) = degRsqrtS (catS a b) := by
  subst ha; subst hb
  simp only [hostOps7, hostOps7_2, List.take_succ_cons, List.take_zero, List.drop_succ_cons, List.drop_zero]
  after_results_simp <;> (try rfl)

theorem s7C_cw (W : Valuation τ sig (Elt Ideal))  :
    StableHlo.after (List.drop 4 (List.drop 3 (hostOps7 (F := Ideal)))) W (Proc.devRef .tc main_cst_33) = constant (F := Ideal) S_ .f32 0x00000000#32 := by
  simp only [hostOps7, hostOps7_2, List.take_succ_cons, List.take_zero, List.drop_succ_cons, List.drop_zero]
  after_results_simp <;> (try rfl)

/-- What these operations leave alone: every buffer they do not write. -/
theorem s7C_fr (W : Valuation τ sig (Elt Ideal)) (r : Ref sig .tc) (hr : r ∉ ([main_v150, main_cst_29, main_v151, main_cst_30, main_v152, main_v153, main_v154, main_cst_31, main_v155, main_v156, main_cst_32, main_v157, main_v158, main_v159, main_cst_33] : List (Ref sig .tc))) :
    StableHlo.after (List.drop 4 (List.drop 3 (hostOps7 (F := Ideal)))) W (Proc.devRef .tc r) = W (Proc.devRef .tc r) :=
  StableHlo.after_of_writes_sub _ W (W := [main_v150, main_cst_29, main_v151, main_cst_30, main_v152, main_v153, main_v154, main_cst_31, main_v155, main_v156, main_cst_32, main_v157, main_v158, main_v159, main_cst_33]) (by
    simp only [hostOps7, hostOps7_2, List.take_succ_cons, List.take_zero, List.drop_succ_cons, List.drop_zero]
    simp only [List.Forall]
    refine ⟨?_, ?_, ?_, ?_, ?_, ?_, ?_, ?_, ?_, ?_, ?_, ?_, ?_, ?_, ?_⟩ <;> (simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide))) hr

/-- After stretch 7: the sources with the self loops. -/
theorem rd7_src (V : Valuation τ sig (Elt Ideal)) : StableHlo.after (hostOps7 (F := Ideal)) V (Proc.devRef .tc main_v146) = edgeSrcS (V (Proc.devRef .tc main_arg6)) := by
  rw [after_split 3 (hostOps7 (F := Ideal)), after_split 4 (List.drop 3 (hostOps7 (F := Ideal)))]
  exact (s7C_fr _ main_v146 (by decide)).trans (s7B_src _ _ _ (s7A_r0 V _ rfl) (s7A_i0 V))
/-- After stretch 7: the targets with the self loops. -/
theorem rd7_dst (V : Valuation τ sig (Elt Ideal)) : StableHlo.after (hostOps7 (F := Ideal)) V (Proc.devRef .tc main_v150) = edgeDstS (V (Proc.devRef .tc main_arg6)) := by
  rw [after_split 3 (hostOps7 (F := Ideal)), after_split 4 (List.drop 3 (hostOps7 (F := Ideal)))]
  exact s7C_dst _ _ _ (s7B_r1 _ _ (s7A_fr V main_arg6 (by decide))) (s7B_i1 _)
theorem rd7_gt (V : Valuation τ sig (Elt Ideal)) : StableHlo.after (hostOps7 (F := Ideal)) V (Proc.devRef .tc main_v156) = degPosS (edgeDstS (V (Proc.devRef .tc main_arg6))) := by
  rw [after_split 3 (hostOps7 (F := Ideal)), after_split 4 (List.drop 3 (hostOps7 (F := Ideal)))]
  exact s7C_gt _ _ _ (s7B_r1 _ _ (s7A_fr V main_arg6 (by decide))) (s7B_i1 _)
theorem rd7_rs (V : Valuation τ sig (Elt Ideal)) : StableHlo.after (hostOps7 (F := Ideal)) V (Proc.devRef .tc main_v159) = degRsqrtS (edgeDstS (V (Proc.devRef .tc main_arg6))) := by
  rw [after_split 3 (hostOps7 (F := Ideal)), after_split 4 (List.drop 3 (hostOps7 (F := Ideal)))]
  exact s7C_rs _ _ _ (s7B_r1 _ _ (s7A_fr V main_arg6 (by decide))) (s7B_i1 _)
theorem rd7_cw (V : Valuation τ sig (Elt Ideal)) : StableHlo.after (hostOps7 (F := Ideal)) V (Proc.devRef .tc main_cst_33) = constant (F := Ideal) S_ .f32 0x00000000#32 := by
  rw [after_split 3 (hostOps7 (F := Ideal)), after_split 4 (List.drop 3 (hostOps7 (F := Ideal)))]
  exact s7C_cw _

/-- What these operations leave alone: every buffer they do not write. -/
theorem fr7_0 (W : Valuation τ sig (Elt Ideal)) (r : Ref sig .tc) (hr : r ∉ ([main_v143, main_v144, main_v145, main_v146, main_v147, main_v148, main_v149, main_v150, main_cst_29, main_v151, main_cst_30, main_v152, main_v153, main_v154, main_cst_31, main_v155, main_v156, main_cst_32, main_v157, main_v158, main_v159, main_cst_33] : List (Ref sig .tc))) :
    StableHlo.after (hostOps7 (F := Ideal)) W (Proc.devRef .tc r) = W (Proc.devRef .tc r) :=
  StableHlo.after_of_writes_sub _ W (W := [main_v143, main_v144, main_v145, main_v146, main_v147, main_v148, main_v149, main_v150, main_cst_29, main_v151, main_cst_30, main_v152, main_v153, main_v154, main_cst_31, main_v155, main_v156, main_cst_32, main_v157, main_v158, main_v159, main_cst_33]) (by
    simp only [List.Forall]
    refine ⟨?_, ?_, ?_, ?_, ?_, ?_, ?_, ?_, ?_, ?_, ?_, ?_, ?_, ?_, ?_, ?_, ?_, ?_, ?_, ?_, ?_, ?_⟩ <;> (simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide))) hr

/-! ## Stretch 7_1: deg^(-1/2), zero where the degree is zero -/

theorem rd7_1_dinv (W : Valuation τ sig (Elt Ideal)) (g : I1 S4096) (r : F32 S4096) (c : F32 S_) (hg : W (Proc.devRef .tc main_v156) = g) (hr : W (Proc.devRef .tc main_v159) = r) (hc : W (Proc.devRef .tc main_cst_33) = c) :
    StableHlo.after (hostOps7_1 (F := Ideal)) W (Proc.devRef .tc main_v160) = select g r (broadcastInDim S4096 ![] bcast_S_S4096 c) := by
  subst hg; subst hr; subst hc
  after_results_simp <;> (try simp only [StableHlo.TRef.toBuf, StableHlo.TRef.ofBuf, cast_eq, id]) <;> (try rfl)

/-- What these operations leave alone: every buffer they do not write. -/
theorem fr7_1 (W : Valuation τ sig (Elt Ideal)) (r : Ref sig .tc) (hr : r ∉ ([main_call4_v0, main_call4_v1, main_v160] : List (Ref sig .tc))) :
    StableHlo.after (hostOps7_1 (F := Ideal)) W (Proc.devRef .tc r) = W (Proc.devRef .tc r) :=
  StableHlo.after_of_writes_sub _ W (W := [main_call4_v0, main_call4_v1, main_v160]) (by
    simp only [List.Forall]
    refine ⟨?_, ?_, ?_⟩ <;> (simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide))) hr

/-! ## Stretch 7_2: the weighted messages summed into their targets, plus the bias -/

theorem s7D_g1 (W : Valuation τ sig (Elt Ideal)) (d : F32 S4096) (s : I32 S20480) (hd : W (Proc.devRef .tc main_v160) = d) (hs : W (Proc.devRef .tc main_v146) = s) :
    StableHlo.after (List.take 9 (hostOps7_2 (F := Ideal))) W (Proc.devRef .tc main_v167) = atNodeS d s := by
  subst hd; subst hs
  simp only [hostOps7, hostOps7_2, List.take_succ_cons, List.take_zero, List.drop_succ_cons, List.drop_zero]
  after_results_simp <;> (try rfl)

/-- What these operations leave alone: every buffer they do not write. -/
theorem s7D_fr (W : Valuation τ sig (Elt Ideal)) (r : Ref sig .tc) (hr : r ∉ ([main_c_34, main_v161, main_v162, main_c_35, main_v163, main_v164, main_v165, main_v166, main_v167] : List (Ref sig .tc))) :
    StableHlo.after (List.take 9 (hostOps7_2 (F := Ideal))) W (Proc.devRef .tc r) = W (Proc.devRef .tc r) :=
  StableHlo.after_of_writes_sub _ W (W := [main_c_34, main_v161, main_v162, main_c_35, main_v163, main_v164, main_v165, main_v166, main_v167]) (by
    simp only [hostOps7, hostOps7_2, List.take_succ_cons, List.take_zero, List.drop_succ_cons, List.drop_zero]
    simp only [List.Forall]
    refine ⟨?_, ?_, ?_, ?_, ?_, ?_, ?_, ?_, ?_⟩ <;> (simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide))) hr

theorem s7E_nb (W : Valuation τ sig (Elt Ideal)) (g : F32 S20480) (d : F32 S4096) (t : I32 S20480) (hg : W (Proc.devRef .tc main_v167) = g) (hd : W (Proc.devRef .tc main_v160) = d) (ht : W (Proc.devRef .tc main_v150) = t) :
    StableHlo.after (List.take 11 (List.drop 9 (hostOps7_2 (F := Ideal)))) W (Proc.devRef .tc main_v176) = edgeNormS g d t := by
  subst hg; subst hd; subst ht
  simp only [hostOps7, hostOps7_2, List.take_succ_cons, List.take_zero, List.drop_succ_cons, List.drop_zero]
  after_results_simp <;> (try rfl)

/-- What these operations leave alone: every buffer they do not write. -/
theorem s7E_fr (W : Valuation τ sig (Elt Ideal)) (r : Ref sig .tc) (hr : r ∉ ([main_c_36, main_v168, main_v169, main_c_37, main_v170, main_v171, main_v172, main_v173, main_v174, main_v175, main_v176] : List (Ref sig .tc))) :
    StableHlo.after (List.take 11 (List.drop 9 (hostOps7_2 (F := Ideal)))) W (Proc.devRef .tc r) = W (Proc.devRef .tc r) :=
  StableHlo.after_of_writes_sub _ W (W := [main_c_36, main_v168, main_v169, main_c_37, main_v170, main_v171, main_v172, main_v173, main_v174, main_v175, main_v176]) (by
    simp only [hostOps7, hostOps7_2, List.take_succ_cons, List.take_zero, List.drop_succ_cons, List.drop_zero]
    simp only [List.Forall]
    refine ⟨?_, ?_, ?_, ?_, ?_, ?_, ?_, ?_, ?_, ?_, ?_⟩ <;> (simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide))) hr

theorem s7F_m (W : Valuation τ sig (Elt Ideal)) (nb : F32 S20480x1) (h : F32 S4096x128) (s : I32 S20480) (hnb : W (Proc.devRef .tc main_v176) = nb) (hh : W (Proc.devRef .tc main_v142) = h) (hs : W (Proc.devRef .tc main_v146) = s) :
    StableHlo.after (List.take 11 (List.drop 11 (List.drop 9 (hostOps7_2 (F := Ideal))))) W (Proc.devRef .tc main_v185) = msgsS nb h s := by
  subst hnb; subst hh; subst hs
  simp only [hostOps7, hostOps7_2, List.take_succ_cons, List.take_zero, List.drop_succ_cons, List.drop_zero]
  after_results_simp <;> (try rfl)

/-- What these operations leave alone: every buffer they do not write. -/
theorem s7F_fr (W : Valuation τ sig (Elt Ideal)) (r : Ref sig .tc) (hr : r ∉ ([main_c_38, main_v177, main_v178, main_c_39, main_v179, main_v180, main_v181, main_v182, main_v183, main_v184, main_v185] : List (Ref sig .tc))) :
    StableHlo.after (List.take 11 (List.drop 11 (List.drop 9 (hostOps7_2 (F := Ideal))))) W (Proc.devRef .tc r) = W (Proc.devRef .tc r) :=
  StableHlo.after_of_writes_sub _ W (W := [main_c_38, main_v177, main_v178, main_c_39, main_v179, main_v180, main_v181, main_v182, main_v183, main_v184, main_v185]) (by
    simp only [hostOps7, hostOps7_2, List.take_succ_cons, List.take_zero, List.drop_succ_cons, List.drop_zero]
    simp only [List.Forall]
    refine ⟨?_, ?_, ?_, ?_, ?_, ?_, ?_, ?_, ?_, ?_, ?_⟩ <;> (simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide))) hr

theorem s7G_agg (W : Valuation τ sig (Elt Ideal)) (m : F32 S20480x128) (t : I32 S20480) (b : F32 S128) (hm : W (Proc.devRef .tc main_v185) = m) (ht : W (Proc.devRef .tc main_v150) = t) (hb : W (Proc.devRef .tc main_arg21) = b) :
    StableHlo.after (List.drop 11 (List.drop 11 (List.drop 9 (hostOps7_2 (F := Ideal))))) W (Proc.devRef .tc main_v191) = aggBiasS m t b := by
  subst hm; subst ht; subst hb
  simp only [hostOps7, hostOps7_2, List.take_succ_cons, List.take_zero, List.drop_succ_cons, List.drop_zero]
  after_results_simp <;> (try rfl)

/-- After stretch 7_2, from contents `W` holding deg^(-1/2) `d`, the edge lists `s`, `t`, the rows `h` and the bias `b`. -/
theorem rd7_2_agg (W : Valuation τ sig (Elt Ideal)) (d : F32 S4096) (s t : I32 S20480) (h : F32 S4096x128) (b : F32 S128)
    (hd : W (Proc.devRef .tc main_v160) = d) (hs : W (Proc.devRef .tc main_v146) = s) (ht : W (Proc.devRef .tc main_v150) = t) (hh : W (Proc.devRef .tc main_v142) = h) (hb : W (Proc.devRef .tc main_arg21) = b) :
    StableHlo.after (hostOps7_2 (F := Ideal)) W (Proc.devRef .tc main_v191) = aggBiasS (msgsS (edgeNormS (atNodeS d s) d t) h s) t b := by
  rw [after_split 9 (hostOps7_2 (F := Ideal)), after_split 11 (List.drop 9 (hostOps7_2 (F := Ideal))), after_split 11 (List.drop 11 (List.drop 9 (hostOps7_2 (F := Ideal))))]
  exact s7G_agg _ _ _ _
    (s7F_m _ _ _ _ (s7E_nb _ _ _ _ (s7D_g1 W _ _ hd hs) ((s7D_fr W main_v160 (by decide)).trans hd) ((s7D_fr W main_v150 (by decide)).trans ht))
      ((s7E_fr _ main_v142 (by decide)).trans ((s7D_fr W main_v142 (by decide)).trans hh)) ((s7E_fr _ main_v146 (by decide)).trans ((s7D_fr W main_v146 (by decide)).trans hs)))
    ((s7F_fr _ main_v150 (by decide)).trans ((s7E_fr _ main_v150 (by decide)).trans ((s7D_fr W main_v150 (by decide)).trans ht)))
    ((s7F_fr _ main_arg21 (by decide)).trans ((s7E_fr _ main_arg21 (by decide)).trans ((s7D_fr W main_arg21 (by decide)).trans hb)))

/-- What these operations leave alone: every buffer they do not write. -/
theorem fr7_2 (W : Valuation τ sig (Elt Ideal)) (r : Ref sig .tc) (hr : r ∉ ([main_c_34, main_v161, main_v162, main_c_35, main_v163, main_v164, main_v165, main_v166, main_v167, main_c_36, main_v168, main_v169, main_c_37, main_v170, main_v171, main_v172, main_v173, main_v174, main_v175, main_v176, main_c_38, main_v177, main_v178, main_c_39, main_v179, main_v180, main_v181, main_v182, main_v183, main_v184, main_v185, main_cst_40, main_v186, main_v187, main_v188, main_v189, main_v190, main_v191] : List (Ref sig .tc))) :
    StableHlo.after (hostOps7_2 (F := Ideal)) W (Proc.devRef .tc r) = W (Proc.devRef .tc r) :=
  StableHlo.after_of_writes_sub _ W (W := [main_c_34, main_v161, main_v162, main_c_35, main_v163, main_v164, main_v165, main_v166, main_v167, main_c_36, main_v168, main_v169, main_c_37, main_v170, main_v171, main_v172, main_v173, main_v174, main_v175, main_v176, main_c_38, main_v177, main_v178, main_c_39, main_v179, main_v180, main_v181, main_v182, main_v183, main_v184, main_v185, main_cst_40, main_v186, main_v187, main_v188, main_v189, main_v190, main_v191]) (by
    simp only [List.Forall]
    refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> (simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide))) hr

/-! ## Stretch 7_3: relu -/

theorem rd7_3_out (W : Valuation τ sig (Elt Ideal)) (x : F32 S4096x128) (hx : W (Proc.devRef .tc main_v191) = x) :
    StableHlo.after (hostOps7_3 (F := Ideal)) W (Proc.devRef .tc main_v192) = reluS x := by
  subst hx
  after_results_simp <;> (try simp only [StableHlo.TRef.toBuf, StableHlo.TRef.ofBuf, cast_eq, id]) <;> (try rfl)

/-- What these operations leave alone: every buffer they do not write. -/
theorem fr7_3 (W : Valuation τ sig (Elt Ideal)) (r : Ref sig .tc) (hr : r ∉ ([main_call5_cst, main_call5_v0, main_v192] : List (Ref sig .tc))) :
    StableHlo.after (hostOps7_3 (F := Ideal)) W (Proc.devRef .tc r) = W (Proc.devRef .tc r) :=
  StableHlo.after_of_writes_sub _ W (W := [main_call5_cst, main_call5_v0, main_v192]) (by
    simp only [List.Forall]
    refine ⟨?_, ?_, ?_⟩ <;> (simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide))) hr

/-- The layer's output after stretches 7 … 7_3, over any contents `V`. -/
theorem rd7_out (V : Valuation τ sig (Elt Ideal)) :
    StableHlo.after (hostOps7_3 (F := Ideal)) (StableHlo.after (hostOps7_2 (F := Ideal)) (StableHlo.after (hostOps7_1 (F := Ideal)) (StableHlo.after (hostOps7 (F := Ideal)) V))) (Proc.devRef .tc main_v192)
      = gcnLayerS (V (Proc.devRef .tc main_v142)) (V (Proc.devRef .tc main_arg6)) (V (Proc.devRef .tc main_arg21)) :=
  rd7_3_out _ _ (rd7_2_agg _ _ _ _ _ _ (rd7_1_dinv _ _ _ _ (rd7_gt V) (rd7_rs V) (rd7_cw V))
    ((fr7_1 _ main_v146 (by decide)).trans (rd7_src V)) ((fr7_1 _ main_v150 (by decide)).trans (rd7_dst V))
    ((fr7_1 _ main_v142 (by decide)).trans (fr7_0 V main_v142 (by decide))) ((fr7_1 _ main_arg21 (by decide)).trans (fr7_0 V main_arg21 (by decide))))

/-! Buffers none of stretches 7 … 7_3 writes keep their contents through them. -/

theorem fr7_through_main_arg22 (V : Valuation τ sig (Elt Ideal)) :
    StableHlo.after (hostOps7_3 (F := Ideal)) (StableHlo.after (hostOps7_2 (F := Ideal)) (StableHlo.after (hostOps7_1 (F := Ideal)) (StableHlo.after (hostOps7 (F := Ideal)) V))) (Proc.devRef .tc main_arg22) = V (Proc.devRef .tc main_arg22) :=
  (fr7_3 _ main_arg22 (by decide)).trans ((fr7_2 _ main_arg22 (by decide)).trans ((fr7_1 _ main_arg22 (by decide)).trans (fr7_0 V main_arg22 (by decide))))

/-! ## Stretch 7_4: the next dense layer's operands -/

theorem rd7_4_x (W : Valuation τ sig (Elt Ideal)) (o : F32 S4096x128) (ho : W (Proc.devRef .tc main_v192) = o) :
    StableHlo.after (hostOps7_4 (F := Ideal)) W (Proc.devRef .tc main_v194) = truncf (F := Ideal) (s := S4096x128) (φ := .f32) .bf16 o bitsLt_bf16_f32 := by
  subst ho
  after_results_simp <;> (try rfl)

theorem rd7_4_w (W : Valuation τ sig (Elt Ideal)) (w : F32 S128x128) (hw : W (Proc.devRef .tc main_arg22) = w) :
    StableHlo.after (hostOps7_4 (F := Ideal)) W (Proc.devRef .tc main_v195) = truncf (F := Ideal) (s := S128x128) (φ := .f32) .bf16 w bitsLt_bf16_f32 := by
  subst hw
  after_results_simp <;> (try rfl)

theorem rd7_4_b (W : Valuation τ sig (Elt Ideal))  :
    StableHlo.after (hostOps7_4 (F := Ideal)) W (Proc.devRef .tc main_v196) = shapeCast S1x128 (broadcastInDim S128 ![] bcast_S_S128 (constant (F := Ideal) S_ .f32 0x00000000#32)) shapeCasts_S128_S1x128 := by
  after_results_simp <;> (try rfl)

/-! ## The five stretches in a row -/

/-- The next layer's input rows: the graph-convolution layer's output, rounded to bf16 (the identity here). -/
theorem read7_main_v194 (V : Valuation τ sig (Elt Ideal)) :
    StableHlo.after (hostOps7_4 (F := Ideal)) (StableHlo.after (hostOps7_3 (F := Ideal)) (StableHlo.after (hostOps7_2 (F := Ideal)) (StableHlo.after (hostOps7_1 (F := Ideal)) (StableHlo.after (hostOps7 (F := Ideal)) V)))) (Proc.devRef .tc main_v194)
      = truncf (F := Ideal) (s := S4096x128) (φ := .f32) .bf16 (gcnLayerS (V (Proc.devRef .tc main_v142)) (V (Proc.devRef .tc main_arg6)) (V (Proc.devRef .tc main_arg21))) bitsLt_bf16_f32 :=
  rd7_4_x _ _ (rd7_out V)
/-- The next layer's weights: the entry array rounded to bf16. -/
theorem read7_main_v195 (V : Valuation τ sig (Elt Ideal)) :
    StableHlo.after (hostOps7_4 (F := Ideal)) (StableHlo.after (hostOps7_3 (F := Ideal)) (StableHlo.after (hostOps7_2 (F := Ideal)) (StableHlo.after (hostOps7_1 (F := Ideal)) (StableHlo.after (hostOps7 (F := Ideal)) V)))) (Proc.devRef .tc main_v195)
      = truncf (F := Ideal) (s := S128x128) (φ := .f32) .bf16 (V (Proc.devRef .tc main_arg22)) bitsLt_bf16_f32 :=
  rd7_4_w _ _ (fr7_through_main_arg22 V)
/-- The next layer's bias: the zero vector as one row. -/
theorem read7_main_v196 (V : Valuation τ sig (Elt Ideal)) :
    StableHlo.after (hostOps7_4 (F := Ideal)) (StableHlo.after (hostOps7_3 (F := Ideal)) (StableHlo.after (hostOps7_2 (F := Ideal)) (StableHlo.after (hostOps7_1 (F := Ideal)) (StableHlo.after (hostOps7 (F := Ideal)) V)))) (Proc.devRef .tc main_v196)
      = shapeCast S1x128 (broadcastInDim S128 ![] bcast_S_S128 (constant (F := Ideal) S_ .f32 0x00000000#32)) shapeCasts_S128_S1x128 :=
  rd7_4_b _

end Cert.KernelIdeal.HostRead
-- ==== Proof.DenseEq6.lean ====
/-
  Dense layer 6 over the extended reals: the value the kernel's body stores, applied to x and w converted to bf16 and to
  a bias row that is zero everywhere, is the reference's product x · w, for x of 4096 rows and 9 columns and w of 9 rows
  and 128 columns. At row p and column q both sides are ∑ k, x[p,k] * w[k,q], because
  • a change of float format is the identity on extended reals;
  • a matrix product accumulated from the zero matrix and the host's product are the same sum over the contracted axis,
    the two programs' dimension numbers being one and the same record;
  • the bias row repeated down the rows reads 0 at every index, and adding 0 changes nothing.
-/
import proofs.«161272_j16312285791078_1_alg».proof.Proof.Gen.KernelIdeal.Skeleton
import proofs.«161272_j16312285791078_1_alg».proof.ReferenceIdeal
import Idealize.ShloMosaic.Lib.ValueLayout
import Idealize.ShloMosaic.PureOps.Ideal.Laws

noncomputable section

namespace Cert.Bridge

open Idealize.ShloMosaic Idealize.ShloMosaic.ValueIdx

variable [Cert.ReferenceIdeal.Facts₀]

/-- The two programs contract the same axes: their dimension-number records are equal. -/
theorem dot6_eq :
    Cert.KernelIdeal.dot_S4096x9_S9x128_S4096x128_1_0_0_1_n_n
      = Cert.ReferenceIdeal.dot_S4096x9_S9x128_S4096x128_1_0_0_1_n_n := rfl

/-- The product at an index: accumulated from the zero matrix on the converted operands, it is the host's product of the
    operands themselves — both are the sum over the contracted axis of the entries' products. -/
theorem prod6 (X : FVec Ideal Cert.KernelIdeal.S4096x9 .f32) (W : FVec Ideal Cert.KernelIdeal.S9x128 .f32)
    (j : Cert.KernelIdeal.S4096x128.Idx) :
    matmul (F := Ideal) Cert.KernelIdeal.dot_S4096x9_S9x128_S4096x128_1_0_0_1_n_n none
        (truncf .bf16 X Cert.KernelIdeal.Facts₀.bitsLt_bf16_f32) (truncf .bf16 W Cert.KernelIdeal.Facts₀.bitsLt_bf16_f32)
        (constant Cert.KernelIdeal.S4096x128 .f32 0x00000000#32) j
      = Host.dotGeneral (F := Ideal) Cert.ReferenceIdeal.dot_S4096x9_S9x128_S4096x128_1_0_0_1_n_n none X W j := by
  refine (Ideal.matmul_constant_zero_apply _ none _ _ j).trans ?_
  refine Eq.trans ?_ (Ideal.dotGeneral_apply _ none .single X W j).symm
  rw [dot6_eq]
  rfl

/-- The layer: with a bias row that is zero everywhere, the kernel's stored value of the converted operands is the
    reference's product x · w. -/
theorem dense_eq6 (X : FVec Ideal Cert.KernelIdeal.S4096x9 .f32) (W : FVec Ideal Cert.KernelIdeal.S9x128 .f32)
    (b : FVec Ideal Cert.KernelIdeal.S1x128 .f32) (hB : ∀ y, b y = 0) :
    Cert.KernelIdeal.Gen.k6_pay1 (F := Ideal)
        (truncf .bf16 X Cert.KernelIdeal.Facts₀.bitsLt_bf16_f32)
        (truncf .bf16 W Cert.KernelIdeal.Facts₀.bitsLt_bf16_f32) b
      = Host.dotGeneral (F := Ideal) Cert.ReferenceIdeal.dot_S4096x9_S9x128_S4096x128_1_0_0_1_n_n none X W := by
  funext i
  obtain ⟨p, q, rfl⟩ : ∃ (p : Fin 4096) (q : Fin 128), i = ix2 p q := ⟨i 0, i 1, eq_ix2 i⟩
  unfold Cert.KernelIdeal.Gen.k6_pay1
  simp only [addf_apply, shapeCast_self]
  rw [prod6 X W (ix2 p q), broadcastTo_1b_ab_apply b _ p q, hB, add_zero]

/-- The same when the bias row is a zero vector of length 128 reshaped to one row: a reshape of zeros is zero everywhere. -/
theorem dense_eq6_reshaped (X : FVec Ideal Cert.KernelIdeal.S4096x9 .f32) (W : FVec Ideal Cert.KernelIdeal.S9x128 .f32)
    (B : FVec Ideal Cert.KernelIdeal.S128 .f32) (hB : ∀ y, B y = 0) :
    Cert.KernelIdeal.Gen.k6_pay1 (F := Ideal)
        (truncf .bf16 X Cert.KernelIdeal.Facts₀.bitsLt_bf16_f32)
        (truncf .bf16 W Cert.KernelIdeal.Facts₀.bitsLt_bf16_f32)
        (shapeCast Cert.KernelIdeal.S1x128 B Cert.KernelIdeal.Facts₀.shapeCasts_S128_S1x128)
      = Host.dotGeneral (F := Ideal) Cert.ReferenceIdeal.dot_S4096x9_S9x128_S4096x128_1_0_0_1_n_n none X W :=
  dense_eq6 X W _ fun y => by
    obtain ⟨u, c, rfl⟩ : ∃ (u : Fin 1) (c : Fin 128), y = ix2 u c := ⟨y 0, y 1, eq_ix2 y⟩
    rw [shapeCast_a_1a_apply B _ u c]
    exact hB _

end Cert.Bridge
-- ==== Proof.DenseEq7.lean ====
/-
  Dense layer 7 over the extended reals: the value the kernel's body stores, applied to x and w converted to bf16 and to
  a bias row that is zero everywhere, is the reference's product x · w, for x of 4096 rows and 128 columns and w of 128 rows
  and 128 columns. At row p and column q both sides are ∑ k, x[p,k] * w[k,q], because
  • a change of float format is the identity on extended reals;
  • a matrix product accumulated from the zero matrix and the host's product are the same sum over the contracted axis,
    the two programs' dimension numbers being one and the same record;
  • the bias row repeated down the rows reads 0 at every index, and adding 0 changes nothing.
-/
import proofs.«161272_j16312285791078_1_alg».proof.Proof.Gen.KernelIdeal.Skeleton
import proofs.«161272_j16312285791078_1_alg».proof.ReferenceIdeal
import Idealize.ShloMosaic.Lib.ValueLayout
import Idealize.ShloMosaic.PureOps.Ideal.Laws

noncomputable section

namespace Cert.Bridge

open Idealize.ShloMosaic Idealize.ShloMosaic.ValueIdx

variable [Cert.ReferenceIdeal.Facts₀]

/-- The two programs contract the same axes: their dimension-number records are equal. -/
theorem dot7_eq :
    Cert.KernelIdeal.dot_S4096x128_S128x128_S4096x128_1_0_0_1_n_n
      = Cert.ReferenceIdeal.dot_S4096x128_S128x128_S4096x128_1_0_0_1_n_n := rfl

/-- The product at an index: accumulated from the zero matrix on the converted operands, it is the host's product of the
    operands themselves — both are the sum over the contracted axis of the entries' products. -/
theorem prod7 (X : FVec Ideal Cert.KernelIdeal.S4096x128 .f32) (W : FVec Ideal Cert.KernelIdeal.S128x128 .f32)
    (j : Cert.KernelIdeal.S4096x128.Idx) :
    matmul (F := Ideal) Cert.KernelIdeal.dot_S4096x128_S128x128_S4096x128_1_0_0_1_n_n none
        (truncf .bf16 X Cert.KernelIdeal.Facts₀.bitsLt_bf16_f32) (truncf .bf16 W Cert.KernelIdeal.Facts₀.bitsLt_bf16_f32)
        (constant Cert.KernelIdeal.S4096x128 .f32 0x00000000#32) j
      = Host.dotGeneral (F := Ideal) Cert.ReferenceIdeal.dot_S4096x128_S128x128_S4096x128_1_0_0_1_n_n none X W j := by
  refine (Ideal.matmul_constant_zero_apply _ none _ _ j).trans ?_
  refine Eq.trans ?_ (Ideal.dotGeneral_apply _ none .single X W j).symm
  rw [dot7_eq]
  rfl

/-- The layer: with a bias row that is zero everywhere, the kernel's stored value of the converted operands is the
    reference's product x · w. -/
theorem dense_eq7 (X : FVec Ideal Cert.KernelIdeal.S4096x128 .f32) (W : FVec Ideal Cert.KernelIdeal.S128x128 .f32)
    (b : FVec Ideal Cert.KernelIdeal.S1x128 .f32) (hB : ∀ y, b y = 0) :
    Cert.KernelIdeal.Gen.k7_pay1 (F := Ideal)
        (truncf .bf16 X Cert.KernelIdeal.Facts₀.bitsLt_bf16_f32)
        (truncf .bf16 W Cert.KernelIdeal.Facts₀.bitsLt_bf16_f32) b
      = Host.dotGeneral (F := Ideal) Cert.ReferenceIdeal.dot_S4096x128_S128x128_S4096x128_1_0_0_1_n_n none X W := by
  funext i
  obtain ⟨p, q, rfl⟩ : ∃ (p : Fin 4096) (q : Fin 128), i = ix2 p q := ⟨i 0, i 1, eq_ix2 i⟩
  unfold Cert.KernelIdeal.Gen.k7_pay1
  simp only [addf_apply, shapeCast_self]
  rw [prod7 X W (ix2 p q), broadcastTo_1b_ab_apply b _ p q, hB, add_zero]

/-- The same when the bias row is a zero vector of length 128 reshaped to one row: a reshape of zeros is zero everywhere. -/
theorem dense_eq7_reshaped (X : FVec Ideal Cert.KernelIdeal.S4096x128 .f32) (W : FVec Ideal Cert.KernelIdeal.S128x128 .f32)
    (B : FVec Ideal Cert.KernelIdeal.S128 .f32) (hB : ∀ y, B y = 0) :
    Cert.KernelIdeal.Gen.k7_pay1 (F := Ideal)
        (truncf .bf16 X Cert.KernelIdeal.Facts₀.bitsLt_bf16_f32)
        (truncf .bf16 W Cert.KernelIdeal.Facts₀.bitsLt_bf16_f32)
        (shapeCast Cert.KernelIdeal.S1x128 B Cert.KernelIdeal.Facts₀.shapeCasts_S128_S1x128)
      = Host.dotGeneral (F := Ideal) Cert.ReferenceIdeal.dot_S4096x128_S128x128_S4096x128_1_0_0_1_n_n none X W :=
  dense_eq7 X W _ fun y => by
    obtain ⟨u, c, rfl⟩ : ∃ (u : Fin 1) (c : Fin 128), y = ix2 u c := ⟨y 0, y 1, eq_ix2 y⟩
    rw [shapeCast_a_1a_apply B _ u c]
    exact hB _

end Cert.Bridge
-- ==== Proof.KStageMolChain.lean ====
/-
  The molecule graph's host computations, over the extended reals, are the reference's: a graph-convolution layer applied
  to the reference's product %134 with the first bias is its value %184, the layer applied to its product %185 with the
  second bias is its value %235, and the mean pooling of %235 over the batch is its value %247. The two programs print the
  same operations in the same order — edge lists with self loops, degrees by summing ones into targets, the clamped
  reciprocal square root where the degree is positive, the weights read at both ends of each edge, the weighted rows
  summed into their targets, bias, relu; then segment sums divided by segment sizes — so each named step on one side is,
  by unfolding names only, a named value on the other. Nothing is evaluated: no sum, gather or scatter is opened.
-/
import proofs.«161272_j16312285791078_1_alg».proof.Proof.KIHostFn
import proofs.«161272_j16312285791078_1_alg».proof.Proof.RefVals

noncomputable section

namespace Cert.Proof.KStage

open Idealize.ShloMosaic Cert.KernelIdeal.HostFn Cert.Proof.RefSide

/-! ### The first graph-convolution layer of the molecule graph, step by step -/

set_option maxHeartbeats 400000 in
/-- The sources with self loops. -/
theorem srcS1 (A : Args Ideal) : edgeSrcS A.a6 = val_main_v138 A := rfl
set_option maxHeartbeats 400000 in
/-- The targets with self loops. -/
theorem dstS1 (A : Args Ideal) : edgeDstS A.a6 = val_main_v142 A := rfl
set_option maxHeartbeats 400000 in
/-- The degrees. -/
theorem degS1 (A : Args Ideal) : degS (val_main_v142 A) = val_main_v146 A := rfl
set_option maxHeartbeats 400000 in
/-- deg^(-1/2) where the degree is positive, else 0. -/
theorem dinvS1 (A : Args Ideal) : dinvS (val_main_v142 A) = val_main_v152 A := rfl
set_option maxHeartbeats 400000 in
/-- deg^(-1/2) read at each edge's source. -/
theorem atSrcS1 (A : Args Ideal) : atNodeS (val_main_v152 A) (val_main_v138 A) = val_main_v159 A := rfl
set_option maxHeartbeats 400000 in
/-- The edge weights, as a column. -/
theorem normS1 (A : Args Ideal) :
    edgeNormS (val_main_v159 A) (val_main_v152 A) (val_main_v142 A) = val_main_v168 A := rfl
set_option maxHeartbeats 400000 in
/-- The weighted messages. -/
theorem msgsS1 (A : Args Ideal) :
    msgsS (val_main_v168 A) (val_main_v134 A) (val_main_v138 A) = val_main_v177 A := rfl
set_option maxHeartbeats 400000 in
/-- The messages summed into their targets, plus the bias. -/
theorem aggS1 (A : Args Ideal) :
    aggBiasS (val_main_v177 A) (val_main_v142 A) A.a21 = val_main_v183 A := rfl
set_option maxHeartbeats 400000 in
/-- The relu. -/
theorem reluS1 (A : Args Ideal) : reluS (val_main_v183 A) = val_main_v184 A := rfl

/-- The whole layer applied to the reference's %134 is the reference's %184: the same operations in the same order,
    so each named step of the one is a named value of the other. -/
theorem gcnS1 (A : Args Ideal) : gcnLayerS (val_main_v134 A) A.a6 A.a21 = val_main_v184 A := by
  unfold gcnLayerS
  rw [dstS1 A, srcS1 A, dinvS1 A, atSrcS1 A, normS1 A, msgsS1 A, aggS1 A]
  exact reluS1 A

/-! ### The second graph-convolution layer of the molecule graph, step by step -/

set_option maxHeartbeats 400000 in
/-- The sources with self loops. -/
theorem srcS2 (A : Args Ideal) : edgeSrcS A.a6 = val_main_v189 A := rfl
set_option maxHeartbeats 400000 in
/-- The targets with self loops. -/
theorem dstS2 (A : Args Ideal) : edgeDstS A.a6 = val_main_v193 A := rfl
set_option maxHeartbeats 400000 in
/-- The degrees. -/
theorem degS2 (A : Args Ideal) : degS (val_main_v193 A) = val_main_v197 A := rfl
set_option maxHeartbeats 400000 in
/-- deg^(-1/2) where the degree is positive, else 0. -/
theorem dinvS2 (A : Args Ideal) : dinvS (val_main_v193 A) = val_main_v203 A := rfl
set_option maxHeartbeats 400000 in
/-- deg^(-1/2) read at each edge's source. -/
theorem atSrcS2 (A : Args Ideal) : atNodeS (val_main_v203 A) (val_main_v189 A) = val_main_v210 A := rfl
set_option maxHeartbeats 400000 in
/-- The edge weights, as a column. -/
theorem normS2 (A : Args Ideal) :
    edgeNormS (val_main_v210 A) (val_main_v203 A) (val_main_v193 A) = val_main_v219 A := rfl
set_option maxHeartbeats 400000 in
/-- The weighted messages. -/
theorem msgsS2 (A : Args Ideal) :
    msgsS (val_main_v219 A) (val_main_v185 A) (val_main_v189 A) = val_main_v228 A := rfl
set_option maxHeartbeats 400000 in
/-- The messages summed into their targets, plus the bias. -/
theorem aggS2 (A : Args Ideal) :
    aggBiasS (val_main_v228 A) (val_main_v193 A) A.a23 = val_main_v234 A := rfl
set_option maxHeartbeats 400000 in
/-- The relu. -/
theorem reluS2 (A : Args Ideal) : reluS (val_main_v234 A) = val_main_v235 A := rfl

/-- The whole layer applied to the reference's %185 is the reference's %235: the same operations in the same order,
    so each named step of the one is a named value of the other. -/
theorem gcnS2 (A : Args Ideal) : gcnLayerS (val_main_v185 A) A.a6 A.a23 = val_main_v235 A := by
  unfold gcnLayerS
  rw [dstS2 A, srcS2 A, dinvS2 A, atSrcS2 A, normS2 A, msgsS2 A, aggS2 A]
  exact reluS2 A

/-! ### The mean pooling over the batch -/

set_option maxHeartbeats 400000 in
/-- The segment means of the reference's %235 over the 64 graphs are its %247. -/
theorem poolS (A : Args Ideal) : meanPoolS (val_main_v235 A) A.a7 = val_main_v247 A := rfl

end Cert.Proof.KStage
-- ==== Proof.KStageMol.lean ====
/-
  The molecule graph in the idealized kernel's run, over the extended reals: the arrays its regions 6 and 7 leave, and the
  pooled features its host operations compute from region 7's array, are the reference's values %134, %185 and %247.
  • Region 6 stores its body's value of its three operand arrays; the host operations before it hand it the atom features
    and the first weight matrix converted to bf16 and a zero bias row; a conversion is the identity, and the body with a
    zero bias is the product — the reference's %134.
  • Region 7 likewise: its first operand is the graph-convolution layer of region 6's array (the reference's %184 once
    that array is %134), so its array is the product with the second weight matrix — the reference's %185.
  • The layer of region 7's array, then the mean over each graph of the batch, is the reference's %247.
  No host operation writes an argument array, so each argument is read as launched.
-/
import proofs.«161272_j16312285791078_1_alg».proof.Proof.KernelIdealKeep
import proofs.«161272_j16312285791078_1_alg».proof.Proof.KIFinal6
import proofs.«161272_j16312285791078_1_alg».proof.Proof.KIFinal7
import proofs.«161272_j16312285791078_1_alg».proof.Proof.KIHost6
import proofs.«161272_j16312285791078_1_alg».proof.Proof.KIHost7
import proofs.«161272_j16312285791078_1_alg».proof.Proof.KIHost8
import proofs.«161272_j16312285791078_1_alg».proof.Proof.DenseEq6
import proofs.«161272_j16312285791078_1_alg».proof.Proof.DenseEq7
import proofs.«161272_j16312285791078_1_alg».proof.Proof.KArgs
import proofs.«161272_j16312285791078_1_alg».proof.Proof.KStageMolChain

noncomputable section

namespace Cert.Proof.KStage

open Idealize.ShloMosaic Idealize.ShloMosaic.TcCoe Idealize.ShloMosaic.ValueIdx
open Cert.KernelIdeal Cert.KernelIdeal.Gen Cert.KernelIdeal.Asm Cert.KernelIdeal.HostFn Cert.KernelIdeal.HostRead
open Cert.Proof.RefSide Cert.Bridge

variable (m : (ℓ : Loc nD τ sig) → Buf (Elt Ideal) ℓ) (c : Dev nD)

/-- The zero bias vector: the zero literal spread over a vector is 0 at every index. -/
theorem zeroBiasMol (y : S128.Idx) :
    broadcastInDim S128 ![] bcast_S_S128 (constant (F := Ideal) S_ .f32 0x00000000#32) y = 0 :=
  (broadcastInDim_apply _ _ _ y ix0 fun a => a.elim0).trans Ideal.ofBits_zero_f32

/-- Region 6's array is the reference's %134, the atom features times the first weight matrix. -/
theorem ks142 : U22 m c main_v142 = val_main_v134 (argsK m c) := by
  have e139 : (U21 m c main_v139 : S4096x9.Idx → Elt Ideal .bf16) = truncf (F := Ideal) (s := S4096x9) (φ := .f32) .bf16 (argsK m c).a3 bitsLt_bf16_f32 := by
    unfold U21 U20 U19 U18 U17
    rw [read6_main_v139 (U16 m c), arg3_at16 m c]
    rfl
  have e140 : (U21 m c main_v140 : S9x128.Idx → Elt Ideal .bf16) = truncf (F := Ideal) (s := S9x128) (φ := .f32) .bf16 (argsK m c).a20 bitsLt_bf16_f32 := by
    unfold U21 U20 U19 U18 U17
    rw [read6_main_v140 (U16 m c), arg20_at16 m c]
    rfl
  have e141 : (U21 m c main_v141 : S1x128.Idx → Elt Ideal .f32) = shapeCast S1x128 (broadcastInDim S128 ![] bcast_S_S128 (constant (F := Ideal) S_ .f32 0x00000000#32)) shapeCasts_S128_S1x128 := by
    unfold U21 U20 U19 U18 U17
    exact read6_main_v141 (U16 m c)
  rw [U22_self]
  unfold X22
  rw [Cert.KernelIdeal.Fin.final6 (UV21 m) c]
  show k6_pay1 (F := Ideal) (U21 m c main_v139) (U21 m c main_v140) (U21 m c main_v141) = _
  rw [e139, e140, e141]
  exact (dense_eq6_reshaped _ _ _ zeroBiasMol).trans rfl

/-- Region 7's array is the reference's %185: the layer of %134, times the second weight matrix. -/
theorem ks197 (h142 : U22 m c main_v142 = val_main_v134 (argsK m c)) :
    U28 m c main_v197 = val_main_v185 (argsK m c) := by
  have e194 : (U27 m c main_v194 : S4096x128.Idx → Elt Ideal .bf16) = truncf (F := Ideal) (s := S4096x128) (φ := .f32) .bf16 (val_main_v184 (argsK m c)) bitsLt_bf16_f32 := by
    unfold U27 U26 U25 U24 U23
    rw [read7_main_v194 (U22 m c), h142, arg6_at22 m c, arg21_at22 m c]
    exact congrArg (fun x => truncf (F := Ideal) (s := S4096x128) (φ := .f32) .bf16 x bitsLt_bf16_f32) (gcnS1 (argsK m c))
  have e195 : (U27 m c main_v195 : S128x128.Idx → Elt Ideal .bf16) = truncf (F := Ideal) (s := S128x128) (φ := .f32) .bf16 (argsK m c).a22 bitsLt_bf16_f32 := by
    unfold U27 U26 U25 U24 U23
    rw [read7_main_v195 (U22 m c), arg22_at22 m c]
    rfl
  have e196 : (U27 m c main_v196 : S1x128.Idx → Elt Ideal .f32) = shapeCast S1x128 (broadcastInDim S128 ![] bcast_S_S128 (constant (F := Ideal) S_ .f32 0x00000000#32)) shapeCasts_S128_S1x128 := by
    unfold U27 U26 U25 U24 U23
    exact read7_main_v196 (U22 m c)
  rw [U28_self]
  unfold X28
  rw [Cert.KernelIdeal.Fin.final7 (UV27 m) c]
  show k7_pay1 (F := Ideal) (U27 m c main_v194) (U27 m c main_v195) (U27 m c main_v196) = _
  rw [e194, e195, e196]
  exact (dense_eq7_reshaped _ _ _ zeroBiasMol).trans rfl

/-- The pooled molecule features are the reference's %247: the layer of %185, averaged over each graph of the batch. -/
theorem ks259 (h197 : U28 m c main_v197 = val_main_v185 (argsK m c)) :
    U33 m c main_v259 = val_main_v247 (argsK m c) := by
  unfold U33 U32 U31 U30 U29
  rw [read8_main_v259 (U28 m c), h197, arg6_at28 m c, arg23_at28 m c, arg7_at28 m c]
  exact (congrArg (fun x => meanPoolS x (argsK m c).a7) (gcnS2 (argsK m c))).trans (poolS (argsK m c))

end Cert.Proof.KStage
-- ==== Proof.KStageAll.lean ====
/-
  The idealized kernel's result is the reference's function of the argument arrays. Layer by layer: each dense region's
  output array is the payload of its operand arrays (a one-point region's block is the whole array; the two 25-tile regions'
  row tiles cover the product), the operands are the host stretch's conversions of the previous values, and at the ideal
  instance the payload — a matrix product into a zero accumulator, plus the bias row, clamped at zero where the layer has a
  relu — is the reference's `dot_general`, bias broadcast and `maximum`; the graph aggregations, the pooling and the
  concatenate between the layers are the same host operations on both sides. Chained from the four input heads to the
  two-column result.
-/
import proofs.«161272_j16312285791078_1_alg».proof.Proof.KStageMlp
import proofs.«161272_j16312285791078_1_alg».proof.Proof.KStageProt
import proofs.«161272_j16312285791078_1_alg».proof.Proof.KStageMol

noncomputable section

namespace Cert.Proof.KStage

open Idealize.ShloMosaic Idealize.ShloMosaic.TcCoe Idealize.SL.Sem
open Cert.KernelIdeal Cert.KernelIdeal.Asm Cert.Proof.RefSide

/-- Region 9's final array — the kernel's result — is the reference's result term of the launch memory's argument arrays. -/
theorem result_eq (m : (ℓ : Loc nD τ sig) → Buf (Elt Ideal) ℓ) (c : Dev nD) :
    X36 m c = REF (argsK m c) :=
  ks268 m c (ks264 m c (ks7 m c (ks3 m c)) (ks15 m c (ks11 m c))
    (ks137 m c (ks75 m c (ks20 m c))) (ks259 m c (ks197 m c (ks142 m c))))

end Cert.Proof.KStage

end
-- ==== Proof.ArgsAgree.lean ====
/- The kernel's and the reference's programs take the same twenty-eight argument arrays in the same order: from memories
   agreeing on the arguments, the record of the reference's arguments is the record of the kernel's. With it, the
   equality of the two results follows from the kernel's result being the reference's pure function of its arguments. -/
import proofs.«161272_j16312285791078_1_alg».proof.Defs
import proofs.«161272_j16312285791078_1_alg».proof.Proof.Gen.KernelIdeal
import proofs.«161272_j16312285791078_1_alg».proof.Proof.Gen.ReferenceIdeal
import proofs.«161272_j16312285791078_1_alg».proof.Proof.Gen.Pre_finite_inputs
import proofs.«161272_j16312285791078_1_alg».proof.Proof.RefRun
import proofs.«161272_j16312285791078_1_alg».proof.Proof.KArgs
import proofs.«161272_j16312285791078_1_alg».proof.Proof.KernelIdealSegs

noncomputable section

namespace Cert.Proof.KStage

open Idealize.ShloMosaic Idealize.ShloMosaic.TcCoe Idealize.SL.Sem

/-- From memories that agree on the arguments, the reference's argument record is the kernel's. -/
theorem args_agree (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)) :
    Cert.Proof.RefSide.argsAt (F := Ideal) m' c = argsK m c := by
  unfold Cert.Proof.RefSide.argsAt Cert.Proof.RefSide.argsOf argsK
  rw [Cert.Proof.RefSide.Args.mk.injEq]
  exact h

/-- The two programs end with equal results, given that the kernel's run ends with its result the array `X36` and
    its arguments unchanged, and that this array is the reference's pure function of the kernel's arguments. -/
theorem algebraic_of
    (hres : ∀ (m : (ℓ : Loc Cert.KernelIdeal.nD Cert.KernelIdeal.τ Cert.KernelIdeal.sig) → Buf (Elt Ideal) ℓ) (c : Dev Cert.KernelIdeal.nD),
      Cert.KernelIdeal.Asm.X36 (F := Ideal) m c = Cert.Proof.RefSide.REF (argsK m c))
    (hrun : ∀ (m : (ℓ : Loc Cert.KernelIdeal.nD Cert.KernelIdeal.τ Cert.KernelIdeal.sig) → Buf (Elt Ideal) ℓ) (ρ : Dev Cert.KernelIdeal.nD → PrngReg),
      θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
        r.2.mem ((c.tc : Thread Cert.KernelIdeal.nD Cert.KernelIdeal.τ).loc Cert.KernelIdeal.main_v268) = Cert.KernelIdeal.Asm.X36 (F := Ideal) m c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
        ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
        ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
        ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
        ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
        ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
        ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
        ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
        ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
        ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
        ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
        ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
        ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
        ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
        ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
        ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
        ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
        ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
        ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
        ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))) :
    Cert.algebraic_KernelIdeal_ReferenceIdeal (hKernelIdeal := Cert.KernelIdeal.Gen.facts) (hReferenceIdeal := Cert.ReferenceIdeal.Gen.facts)
      (hPre_finite_inputs := Cert.Pre_finite_inputs.Gen.facts) := by
  intro m ρ m' ρ' _ hagree
  refine ⟨fun c => Cert.KernelIdeal.Asm.X36 (F := Ideal) m c, hrun m ρ,
    (θ_run Cert.ReferenceIdeal.defs _ _).mono (fun _ h c => ⟨(h c).1.trans ?_, (h c).2⟩) (Cert.Proof.RefSide.run (F := Ideal) m' ρ')⟩
  rw [args_agree m m' c (hagree c)]
  exact (hres m c).symm

end Cert.Proof.KStage

end
-- ==== Proof.lean ====
/-
  The claim of this certificate: a molecule–protein interaction predictor whose ten dense layers `act(x · w + b)` each run as
  one pipelined TPU call over bf16 operands with f32 accumulation — two metadata heads of two layers each, two graph
  convolutions per graph whose feature products are the calls while the degree-normalised neighbour sums, the mean pooling
  and the concatenate stay host operations, and a two-layer output head — against its jnp reference.

  * The three frames. The kernel's program, read at the word level and at the ideal instance, is a chain of 36 items: host
    stretches, which write only their own results, and the ten regions, each of which stages whole blocks of its operand
    arrays, runs a body that loads three blocks and stores one, and writes that block back; no item writes an argument array.
    The reference is a straight line of host operations.
  * The idealization rewrote nothing, so that conjunct is `True`.
  * At the ideal instance a change of float format is the identity and a matrix product into a zero accumulator is the
    plain sum over the contracted axis, so each region's output array is the reference's `dot_general` (+ bias, clamped at
    zero where the layer has a relu); everything between the regions is the same host operation on both sides. Hence the
    two programs end with the same two-column result, element by element, from memories that agree on the arguments.
-/
import proofs.«161272_j16312285791078_1_alg».proof.Defs
import proofs.«161272_j16312285791078_1_alg».proof.Proof.Gen.Kernel
import proofs.«161272_j16312285791078_1_alg».proof.Proof.Gen.KernelIdeal
import proofs.«161272_j16312285791078_1_alg».proof.Proof.Gen.ReferenceIdeal
import proofs.«161272_j16312285791078_1_alg».proof.Proof.Gen.Pre_finite_inputs
import proofs.«161272_j16312285791078_1_alg».proof.Proof.KernelRun
import proofs.«161272_j16312285791078_1_alg».proof.Proof.KernelIdealRun
import proofs.«161272_j16312285791078_1_alg».proof.Proof.RefRun
import proofs.«161272_j16312285791078_1_alg».proof.Proof.KStageAll
import proofs.«161272_j16312285791078_1_alg».proof.Proof.ArgsAgree
import Idealize.ShloMosaic.Adequacy
import Idealize.ShloMosaic.Init

noncomputable section

namespace Cert.Proof

open Idealize.ShloMosaic Idealize.SL.Sem

/-- The word-level kernel runs to the end, faults nowhere, and leaves its arguments unchanged. -/
theorem frame_kernel : Cert.frame_Kernel (hKernel := Cert.Kernel.Gen.facts) (hPre_finite_inputs := Cert.Pre_finite_inputs.Gen.facts) :=
  fun m ρ _ => Cert.Kernel.Asm.frame (F := Bits) m ρ

/-- So does the idealized kernel. -/
theorem frame_kernelIdeal : Cert.frame_KernelIdeal (hKernelIdeal := Cert.KernelIdeal.Gen.facts) (hPre_finite_inputs := Cert.Pre_finite_inputs.Gen.facts) :=
  fun m ρ _ => Cert.KernelIdeal.Asm.frame (F := Ideal) m ρ

/-- The two idealized programs, from memories agreeing on the arguments, end with equal results. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) :=
  Cert.Proof.KStage.algebraic_of (fun m c => Cert.Proof.KStage.result_eq m c)
    (fun m ρ => Cert.KernelIdeal.Asm.run_named (F := Ideal) m ρ)

theorem claim : Cert.Claim :=
  ⟨Cert.Kernel.Gen.facts, Cert.KernelIdeal.Gen.facts, Cert.ReferenceIdeal.Gen.facts, Cert.Pre_finite_inputs.Gen.facts,
    frame_kernel, frame_kernelIdeal, Cert.Proof.RefSide.frame_ri, trivial, algebraic⟩

end Cert.Proof

end
